-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26x1 : Shape := ⟨3, ![16384, 26, 1]⟩
abbrev S16384x26 : Shape := ⟨2, ![16384, 26]⟩
abbrev S26x100000x1 : Shape := ⟨3, ![26, 100000, 1]⟩
abbrev S26x100000x16 : Shape := ⟨3, ![26, 100000, 16]⟩
abbrev S200x416 : Shape := ⟨2, ![200, 416]⟩
abbrev S200 : Shape := ⟨1, ![200]⟩
abbrev S200x200 : Shape := ⟨2, ![200, 200]⟩
abbrev S2x3 : Shape := ⟨2, ![2, 3]⟩
abbrev S2 : Shape := ⟨1, ![2]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel
  bcast_S_S26x100000x1 : S_.BroadcastsInDim S26x100000x1 (![] : Fin 0 → Fin S26x100000x1.rank)
  reducesTo_S26x100000x1_S_d0_1_2 : S26x100000x1.ReducesTo [0, 1, 2] S_
  bcast_S_S26x100000x16 : S_.BroadcastsInDim S26x100000x16 (![] : Fin 0 → Fin S26x100000x16.rank)
  reducesTo_S26x100000x16_S_d0_1_2 : S26x100000x16.ReducesTo [0, 1, 2] S_
  bcast_S_S200x416 : S_.BroadcastsInDim S200x416 (![] : Fin 0 → Fin S200x416.rank)
  reducesTo_S200x416_S_d0_1 : S200x416.ReducesTo [0, 1] S_
  bcast_S_S200 : S_.BroadcastsInDim S200 (![] : Fin 0 → Fin S200.rank)
  reducesTo_S200_S_d0 : S200.ReducesTo [0] S_
  bcast_S_S200x200 : S_.BroadcastsInDim S200x200 (![] : Fin 0 → Fin S200x200.rank)
  reducesTo_S200x200_S_d0_1 : S200x200.ReducesTo [0, 1] S_
  bcast_S_S2x3 : S_.BroadcastsInDim S2x3 (![] : Fin 0 → Fin S2x3.rank)
  reducesTo_S2x3_S_d0_1 : S2x3.ReducesTo [0, 1] S_
  bcast_S_S2 : S_.BroadcastsInDim S2 (![] : Fin 0 → Fin S2.rank)
  reducesTo_S2_S_d0 : S2.ReducesTo [0] S_
  bcast_S_S16384x26x1 : S_.BroadcastsInDim S16384x26x1 (![] : Fin 0 → Fin S16384x26x1.rank)
  reducesTo_S16384x26x1_S_d0_1_2 : S16384x26x1.ReducesTo [0, 1, 2] S_

variable [Facts]

def fn_part3 {F : FTy → Type} [FloatOps F] (main_arg0 : IVec S16384x26x1 32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_c_20 : IVec S_ 32 := constantI S_ 32 0#32
  let main_v54 : IVec S16384x26x1 32 := broadcastInDim S16384x26x1 ![] bcast_S_S16384x26x1 main_c_20
  let main_v55 : IVec S16384x26x1 1 := cmpi .sge main_arg0 main_v54
  let main_c_21 : IVec S_ 32 := constantI S_ 32 99999#32
  let main_v56 : IVec S16384x26x1 32 := broadcastInDim S16384x26x1 ![] bcast_S_S16384x26x1 main_c_21
  let main_v57 : IVec S16384x26x1 1 := cmpi .sle main_arg0 main_v56
  let main_v58 : IVec S16384x26x1 1 := andi main_v55 main_v57
  let main_c_22 : IVec S_ 1 := constantI S_ 1 1#1
  let main_v59 : IVec S_ 1 := (fun x v => Host.reduce IntOp.andi x v reducesTo_S16384x26x1_S_d0_1_2 h_S_) main_v58 main_c_22
  let main_v60 : IVec S_ 1 := andi main_v53 main_v59
  main_v60

def fn_part2 {F : FTy → Type} [FloatOps F] (main_arg0 : IVec S16384x26x1 32) (main_arg8 : FVec F S200x200 .f32) (main_arg9 : FVec F S200 .f32) (main_arg10 : FVec F S2x3 .f32) (main_arg11 : FVec F S2 .f32) (main_v33 : IVec S_ 1) : IVec S_ 1 :=
  let main_v34 : FVec F S200x200 .f32 := Host.absf main_arg8
  let main_cst_12 : FVec F S_ .f32 := constant S_ .f32 0x7F800000#32
  let main_v35 : FVec F S200x200 .f32 := broadcastInDim S200x200 ![] bcast_S_S200x200 main_cst_12
  let main_v36 : IVec S200x200 1 := cmpf .olt main_v34 main_v35
  let main_c_13 : IVec S_ 1 := constantI S_ 1 1#1
  let main_v37 : IVec S_ 1 := (fun x v => Host.reduce IntOp.andi x v reducesTo_S200x200_S_d0_1 h_S_) main_v36 main_c_13
  let main_v38 : IVec S_ 1 := andi main_v33 main_v37
  let main_v39 : FVec F S200 .f32 := Host.absf main_arg9
  let main_cst_14 : FVec F S_ .f32 := constant S_ .f32 0x7F800000#32
  let main_v40 : FVec F S200 .f32 := broadcastInDim S200 ![] bcast_S_S200 main_cst_14
  let main_v41 : IVec S200 1 := cmpf .olt main_v39 main_v40
  let main_c_15 : IVec S_ 1 := constantI S_ 1 1#1
  let main_v42 : IVec S_ 1 := (fun x v => Host.reduce IntOp.andi x v reducesTo_S200_S_d0 h_S_) main_v41 main_c_15
  let main_v43 : IVec S_ 1 := andi main_v38 main_v42
  let main_v44 : FVec F S2x3 .f32 := Host.absf main_arg10
  let main_cst_16 : FVec F S_ .f32 := constant S_ .f32 0x7F800000#32
  let main_v45 : FVec F S2x3 .f32 := broadcastInDim S2x3 ![] bcast_S_S2x3 main_cst_16
  let main_v46 : IVec S2x3 1 := cmpf .olt main_v44 main_v45
  let main_c_17 : IVec S_ 1 := constantI S_ 1 1#1
  let main_v47 : IVec S_ 1 := (fun x v => Host.reduce IntOp.andi x v reducesTo_S2x3_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_arg0 main_v48 main_v49 main_v50

def fn_part1 {F : FTy → Type} [FloatOps F] (main_arg0 : IVec S16384x26x1 32) (main_arg5 : FVec F S200 .f32) (main_arg6 : FVec F S200x200 .f32) (main_arg7 : FVec F S200 .f32) (main_arg8 : FVec F S200x200 .f32) (main_arg9 : FVec F S200 .f32) (main_arg10 : FVec F S2x3 .f32) (main_arg11 : FVec F S2 .f32) (main_v13 : IVec S_ 1) (main_v16 : IVec S200x416 1) : IVec S_ 1 :=
  let main_c_5 : IVec S_ 1 := constantI S_ 1 1#1
  let main_v17 : IVec S_ 1 := (fun x v => Host.reduce IntOp.andi x v reducesTo_S200x416_S_d0_1 h_S_) main_v16 main_c_5
  let main_v18 : IVec S_ 1 := andi main_v13 main_v17
  let main_v19 : FVec F S200 .f32 := Host.absf main_arg5
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S200x200 .f32 := Host.absf main_arg6
  let main_cst_8 : FVec F S_ .f32 := constant S_ .f32 0x7F800000#32
  let main_v25 : FVec F S200x200 .f32 := broadcastInDim S200x200 ![] bcast_S_S200x200 main_cst_8
  let main_v26 : IVec S200x200 1 := cmpf .olt main_v24 main_v25
  let main_c_9 : IVec S_ 1 := constantI S_ 1 1#1
  let main_v27 : IVec S_ 1 := (fun x v => Host.reduce IntOp.andi x v reducesTo_S200x200_S_d0_1 h_S_) main_v26 main_c_9
  let main_v28 : IVec S_ 1 := andi main_v23 main_v27
  let main_v29 : FVec F S200 .f32 := Host.absf main_arg7
  let main_cst_10 : FVec F S_ .f32 := constant S_ .f32 0x7F800000#32
  let main_v30 : FVec F S200 .f32 := broadcastInDim S200 ![] bcast_S_S200 main_cst_10
  let main_v31 : IVec S200 1 := cmpf .olt main_v29 main_v30
  let main_c_11 : IVec S_ 1 := constantI S_ 1 1#1
  let main_v32 : IVec S_ 1 := (fun x v => Host.reduce IntOp.andi x v reducesTo_S200_S_d0 h_S_) main_v31 main_c_11
  let main_v33 : IVec S_ 1 := andi main_v28 main_v32
  fn_part2 (F := F) main_arg0 main_arg8 main_arg9 main_arg10 main_arg11 main_v33

def fn {F : FTy → Type} [FloatOps F] (main_arg0 : IVec S16384x26x1 32) (main_arg1 : FVec F S16384x26 .f32) (main_arg2 : FVec F S26x100000x1 .f32) (main_arg3 : FVec F S26x100000x16 .f32) (main_arg4 : FVec F S200x416 .f32) (main_arg5 : FVec F S200 .f32) (main_arg6 : FVec F S200x200 .f32) (main_arg7 : FVec F S200 .f32) (main_arg8 : FVec F S200x200 .f32) (main_arg9 : FVec F S200 .f32) (main_arg10 : FVec F S2x3 .f32) (main_arg11 : FVec F S2 .f32) : IVec S_ 1 :=
  let main_v0 : FVec F S16384x26 .f32 := Host.absf main_arg1
  let main_cst : FVec F S_ .f32 := constant S_ .f32 0x7F800000#32
  let main_v1 : FVec F S16384x26 .f32 := broadcastInDim S16384x26 ![] bcast_S_S16384x26 main_cst
  let main_v2 : IVec S16384x26 1 := cmpf .olt main_v0 main_v1
  let main_c : IVec S_ 1 := constantI S_ 1 1#1
  let main_v3 : IVec S_ 1 := (fun x v => Host.reduce IntOp.andi x v reducesTo_S16384x26_S_d0_1 h_S_) main_v2 main_c
  let main_v4 : FVec F S26x100000x1 .f32 := Host.absf main_arg2
  let main_cst_0 : FVec F S_ .f32 := constant S_ .f32 0x7F800000#32
  let main_v5 : FVec F S26x100000x1 .f32 := broadcastInDim S26x100000x1 ![] bcast_S_S26x100000x1 main_cst_0
  let main_v6 : IVec S26x100000x1 1 := cmpf .olt main_v4 main_v5
  let main_c_1 : IVec S_ 1 := constantI S_ 1 1#1
  let main_v7 : IVec S_ 1 := (fun x v => Host.reduce IntOp.andi x v reducesTo_S26x100000x1_S_d0_1_2 h_S_) main_v6 main_c_1
  let main_v8 : IVec S_ 1 := andi main_v3 main_v7
  let main_v9 : FVec F S26x100000x16 .f32 := Host.absf main_arg3
  let main_cst_2 : FVec F S_ .f32 := constant S_ .f32 0x7F800000#32
  let main_v10 : FVec F S26x100000x16 .f32 := broadcastInDim S26x100000x16 ![] bcast_S_S26x100000x16 main_cst_2
  let main_v11 : IVec S26x100000x16 1 := cmpf .olt main_v9 main_v10
  let main_c_3 : IVec S_ 1 := constantI S_ 1 1#1
  let main_v12 : IVec S_ 1 := (fun x v => Host.reduce IntOp.andi x v reducesTo_S26x100000x16_S_d0_1_2 h_S_) main_v11 main_c_3
  let main_v13 : IVec S_ 1 := andi main_v8 main_v12
  let main_v14 : FVec F S200x416 .f32 := Host.absf main_arg4
  let main_cst_4 : FVec F S_ .f32 := constant S_ .f32 0x7F800000#32
  let main_v15 : FVec F S200x416 .f32 := broadcastInDim S200x416 ![] bcast_S_S200x416 main_cst_4
  let main_v16 : IVec S200x416 1 := cmpf .olt main_v14 main_v15
  fn_part1 (F := F) main_arg0 main_arg5 main_arg6 main_arg7 main_arg8 main_arg9 main_arg10 main_arg11 main_v13 main_v16
-- ==== Kernel.lean ====
abbrev S16384x26x1 : Shape := ⟨3, ![16384, 26, 1]⟩
abbrev S16384x26 : Shape := ⟨2, ![16384, 26]⟩
abbrev S26x100000x1 : Shape := ⟨3, ![26, 100000, 1]⟩
abbrev S26x100000x16 : Shape := ⟨3, ![26, 100000, 16]⟩
abbrev S200x416 : Shape := ⟨2, ![200, 416]⟩
abbrev S200 : Shape := ⟨1, ![200]⟩
abbrev S200x200 : Shape := ⟨2, ![200, 200]⟩
abbrev S2x3 : Shape := ⟨2, ![2, 3]⟩
abbrev S2 : Shape := ⟨1, ![2]⟩
abbrev S26x16384 : Shape := ⟨2, ![26, 16384]⟩
abbrev S26x128x128 : Shape := ⟨3, ![26, 128, 128]⟩
abbrev S26x16x100000 : Shape := ⟨3, ![26, 16, 100000]⟩
abbrev S416x100000 : Shape := ⟨2, ![416, 100000]⟩
abbrev S26x100000 : Shape := ⟨2, ![26, 100000]⟩
abbrev S416x16384 : Shape := ⟨2, ![416, 16384]⟩
abbrev S100000 : Shape := ⟨1, ![100000]⟩
abbrev S128x128 : Shape := ⟨2, ![128, 128]⟩
abbrev S8192 : Shape := ⟨1, ![8192]⟩
abbrev S_ : Shape := ⟨0, ![]⟩
abbrev S1x128x128 : Shape := ⟨3, ![1, 128, 128]⟩
abbrev S1x100000 : Shape := ⟨2, ![1, 100000]⟩
abbrev S16 : Shape := ⟨1, ![16]⟩
abbrev S1x16 : Shape := ⟨2, ![1, 16]⟩
abbrev S1x16384 : Shape := ⟨2, ![1, 16384]⟩
abbrev S16384 : Shape := ⟨1, ![16384]⟩
abbrev S200x1 : Shape := ⟨2, ![200, 1]⟩
abbrev S2x1 : Shape := ⟨2, ![2, 1]⟩
abbrev S2x16384 : Shape := ⟨2, ![2, 16384]⟩
abbrev S416x1024 : Shape := ⟨2, ![416, 1024]⟩
abbrev S26x1024 : Shape := ⟨2, ![26, 1024]⟩
abbrev S2x1024 : Shape := ⟨2, ![2, 1024]⟩
abbrev S26x16x1024 : Shape := ⟨3, ![26, 16, 1024]⟩
abbrev S26x1x1024 : Shape := ⟨3, ![26, 1, 1024]⟩
abbrev S16x1024 : Shape := ⟨2, ![16, 1024]⟩
abbrev S1x16x1024 : Shape := ⟨3, ![1, 16, 1024]⟩
abbrev S1024 : Shape := ⟨1, ![1024]⟩
abbrev S1x1024 : Shape := ⟨2, ![1, 1024]⟩
abbrev S200x1024 : Shape := ⟨2, ![200, 1024]⟩
abbrev S3x1024 : Shape := ⟨2, ![3, 1024]⟩
abbrev S16384x2 : Shape := ⟨2, ![16384, 2]⟩

abbrev nBuf : Table → Nat
  | .hbm => 27
  | .local .tc .vmem => 16
  | .local .scVector .vmem => 3
  | _ => 0

abbrev bufTy : (tb : Table) → Fin (nBuf tb) → BufTy
  | .hbm, ⟨0, _⟩ => ⟨S16384x26x1, .i32⟩
  | .hbm, ⟨1, _⟩ => ⟨S16384x26, .f32⟩
  | .hbm, ⟨2, _⟩ => ⟨S26x100000x1, .f32⟩
  | .hbm, ⟨3, _⟩ => ⟨S26x100000x16, .f32⟩
  | .hbm, ⟨4, _⟩ => ⟨S200x416, .f32⟩
  | .hbm, ⟨5, _⟩ => ⟨S200, .f32⟩
  | .hbm, ⟨6, _⟩ => ⟨S200x200, .f32⟩
  | .hbm, ⟨7, _⟩ => ⟨S200, .f32⟩
  | .hbm, ⟨8, _⟩ => ⟨S200x200, .f32⟩
  | .hbm, ⟨9, _⟩ => ⟨S200, .f32⟩
  | .hbm, ⟨10, _⟩ => ⟨S2x3, .f32⟩
  | .hbm, ⟨11, _⟩ => ⟨S2, .f32⟩
  | .hbm, ⟨12, _⟩ => ⟨S16384x26, .i32⟩
  | .hbm, ⟨13, _⟩ => ⟨S26x16384, .i32⟩
  | .hbm, ⟨14, _⟩ => ⟨S26x128x128, .i32⟩
  | .hbm, ⟨15, _⟩ => ⟨S26x16x100000, .f32⟩
  | .hbm, ⟨16, _⟩ => ⟨S416x100000, .f32⟩
  | .hbm, ⟨17, _⟩ => ⟨S26x100000, .f32⟩
  | .hbm, ⟨18, _⟩ => ⟨S416x16384, .f32⟩
  | .hbm, ⟨19, _⟩ => ⟨S26x16384, .f32⟩
  | .hbm, ⟨20, _⟩ => ⟨S26x16384, .f32⟩
  | .hbm, ⟨21, _⟩ => ⟨S200x1, .f32⟩
  | .hbm, ⟨22, _⟩ => ⟨S200x1, .f32⟩
  | .hbm, ⟨23, _⟩ => ⟨S200x1, .f32⟩
  | .hbm, ⟨24, _⟩ => ⟨S2x1, .f32⟩
  | .hbm, ⟨25, _⟩ => ⟨S2x16384, .f32⟩
  | .hbm, ⟨26, _⟩ => ⟨S16384x2, .f32⟩
  | .local .tc .vmem, ⟨0, _⟩ => ⟨S416x1024, .f32⟩
  | .local .tc .vmem, ⟨1, _⟩ => ⟨S416x1024, .f32⟩
  | .local .tc .vmem, ⟨2, _⟩ => ⟨S26x1024, .f32⟩
  | .local .tc .vmem, ⟨3, _⟩ => ⟨S26x1024, .f32⟩
  | .local .tc .vmem, ⟨4, _⟩ => ⟨S26x1024, .f32⟩
  | .local .tc .vmem, ⟨5, _⟩ => ⟨S26x1024, .f32⟩
  | .local .tc .vmem, ⟨6, _⟩ => ⟨S200x416, .f32⟩
  | .local .tc .vmem, ⟨7, _⟩ => ⟨S200x1, .f32⟩
  | .local .tc .vmem, ⟨8, _⟩ => ⟨S200x200, .f32⟩
  | .local .tc .vmem, ⟨9, _⟩ => ⟨S200x1, .f32⟩
  | .local .tc .vmem, ⟨10, _⟩ => ⟨S200x200, .f32⟩
  | .local .tc .vmem, ⟨11, _⟩ => ⟨S200x1, .f32⟩
  | .local .tc .vmem, ⟨12, _⟩ => ⟨S2x3, .f32⟩
  | .local .tc .vmem, ⟨13, _⟩ => ⟨S2x1, .f32⟩
  | .local .tc .vmem, ⟨14, _⟩ => ⟨S2x1024, .f32⟩
  | .local .tc .vmem, ⟨15, _⟩ => ⟨S2x1024, .f32⟩
  | .local .scVector .vmem, ⟨0, _⟩ => ⟨S100000, .f32⟩
  | .local .scVector .vmem, ⟨1, _⟩ => ⟨S128x128, .i32⟩
  | .local .scVector .vmem, ⟨2, _⟩ => ⟨S8192, .f32⟩
  | _, _ => ⟨S16384x26x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v4_scv : Ref sig .scVector := ⟨.hbm, 16, rfl⟩
abbrev main_v5_scv : Ref sig .scVector := ⟨.hbm, 17, rfl⟩
abbrev main_v2_scv : Ref sig .scVector := ⟨.hbm, 14, rfl⟩
abbrev main_v6_0_scv : Ref sig .scVector := ⟨.hbm, 18, rfl⟩
abbrev main_v6_1_scv : Ref sig .scVector := ⟨.hbm, 19, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg11_1 : Ref sig .tc := ⟨.vmem, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem11_1 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c13_i32 : BitVec 32 := 13#32
  let v2 : BitVec 32 := Scalar.addi c0_i32_0 c13_i32
  let c1_i32 : BitVec 32 := 1#32
  ⟨c0_i32_0, v2, c1_i32⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_3 : BitVec 32 := 13#32
  let v6 : BitVec 32 := Scalar.muli v1 c13_i32_3
  let c0_i32_0 : BitVec 32 := 0#32
  let c1_i32 : BitVec 32 := 1#32
  let arg11 : BitVec 32 := Scf.iv c0_i32_0 c1_i32 k0_t1
  let v7 : BitVec 32 := Scalar.addi v6 arg11
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c16_i32 : BitVec 32 := 16#32
  let c0_i32_6 : BitVec 32 := 0#32
  let v14 : BitVec 1 := Scalar.cmpi .sgt c16_i32 c0_i32_6
  let v15 : BitVec 32 := Scalar.extui v14
  let c0_i32_7 : BitVec 32 := 0#32
  let v16 : BitVec 1 := Scalar.cmpi .slt c16_i32 c0_i32_7
  let v17 : BitVec 32 := Scalar.extui v16
  let v18 : BitVec 32 := Scalar.subi v15 v17
  let v19 : BitVec 1 := Scalar.cmpi .ne v13 v18
  let v20 : BitVec 32 := Scalar.remsi v7 c16_i32
  let c0_i32_8 : BitVec 32 := 0#32
  let v21 : BitVec 1 := Scalar.cmpi .ne v20 c0_i32_8
  let v22 : BitVec 1 := Scalar.andi v19 v21
  let v8 : BitVec 32 := Scalar.divsi v7 c16_i32
  let c1_i32_9 : BitVec 32 := 1#32
  let v23 : BitVec 32 := Scalar.subi v8 c1_i32_9
  let v24 : BitVec 32 := Scalar.select v22 v23 v8
  let c0_i32_23_r0 : BitVec 32 := 0#32
  let c0_i32_24_r0 : BitVec 32 := 0#32
  ![v24.toNat, 0, 0]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_3 : BitVec 32 := 13#32
  let v6 : BitVec 32 := Scalar.muli v1 c13_i32_3
  let c0_i32_0 : BitVec 32 := 0#32
  let c1_i32 : BitVec 32 := 1#32
  let arg11 : BitVec 32 := Scf.iv c0_i32_0 c1_i32 k0_t1
  let v7 : BitVec 32 := Scalar.addi v6 arg11
  let c0_i32_10 : BitVec 32 := 0#32
  ![v7.toNat, 0]
@[reducible] def k0_t2_loop : Scf.Loop 32 :=
  let c0_i32_15 : BitVec 32 := 0#32
  let c64_i32 : BitVec 32 := 64#32
  let v33 : BitVec 32 := Scalar.addi c0_i32_15 c64_i32
  let c1_i32_16 : BitVec 32 := 1#32
  ⟨c0_i32_15, v33, c1_i32_16⟩
def k0_off3 (k0_t2 : Fin k0_t2_loop.trips) : Fin 2 → Nat :=
  let c0_i32_25 : BitVec 32 := 0#32
  let c0_i32_15 : BitVec 32 := 0#32
  let c1_i32_16 : BitVec 32 := 1#32
  let arg12 : BitVec 32 := Scf.iv c0_i32_15 c1_i32_16 k0_t2
  let c8_i32 : BitVec 32 := 8#32
  let v35 : BitVec 32 := Scalar.muli arg12 c8_i32
  let c0_i32_23 : BitVec 32 := 0#32
  let v36 : BitVec 32 := Scalar.addi v35 c0_i32_23
  let c16_i32_24 : BitVec 32 := 16#32
  let v37 : BitVec 32 := Scalar.muli v36 c16_i32_24
  let v38 : BitVec 32 := Scalar.addi c0_i32_25 v37
  let c0_i32_26 : BitVec 32 := 0#32
  let v40 : BitVec 1 := Scalar.cmpi .sgt v38 c0_i32_26
  let v41 : BitVec 32 := Scalar.extui v40
  let c0_i32_27 : BitVec 32 := 0#32
  let v42 : BitVec 1 := Scalar.cmpi .slt v38 c0_i32_27
  let v43 : BitVec 32 := Scalar.extui v42
  let v44 : BitVec 32 := Scalar.subi v41 v43
  let c128_i32 : BitVec 32 := 128#32
  let c0_i32_28 : BitVec 32 := 0#32
  let v45 : BitVec 1 := Scalar.cmpi .sgt c128_i32 c0_i32_28
  let v46 : BitVec 32 := Scalar.extui v45
  let c0_i32_29 : BitVec 32 := 0#32
  let v47 : BitVec 1 := Scalar.cmpi .slt c128_i32 c0_i32_29
  let v48 : BitVec 32 := Scalar.extui v47
  let v49 : BitVec 32 := Scalar.subi v46 v48
  let v50 : BitVec 1 := Scalar.cmpi .ne v44 v49
  let v51 : BitVec 32 := Scalar.remsi v38 c128_i32
  let c0_i32_30 : BitVec 32 := 0#32
  let v52 : BitVec 1 := Scalar.cmpi .ne v51 c0_i32_30
  let v53 : BitVec 1 := Scalar.andi v50 v52
  let v39 : BitVec 32 := Scalar.divsi v38 c128_i32
  let c1_i32_31 : BitVec 32 := 1#32
  let v54 : BitVec 32 := Scalar.subi v39 c1_i32_31
  let v55 : BitVec 32 := Scalar.select v53 v54 v39
  let v66 : Index := Scalar.indexCast v55
  let c128_i32_32 : BitVec 32 := 128#32
  let c0_i32_33 : BitVec 32 := 0#32
  let v56 : BitVec 1 := Scalar.cmpi .eq c128_i32_32 c0_i32_33
  let c1_i32_34 : BitVec 32 := 1#32
  let v57 : BitVec 32 := Scalar.select v56 c1_i32_34 c128_i32_32
  let v58 : BitVec 32 := Scalar.remsi v38 v57
  let c0_i32_36 : BitVec 32 := 0#32
  let v60 : BitVec 1 := Scalar.cmpi .slt v58 c0_i32_36
  let c0_i32_37 : BitVec 32 := 0#32
  let v61 : BitVec 1 := Scalar.cmpi .slt v57 c0_i32_37
  let v62 : BitVec 1 := Scalar.xori v60 v61
  let c0_i32_35 : BitVec 32 := 0#32
  let v59 : BitVec 1 := Scalar.cmpi .ne v58 c0_i32_35
  let v63 : BitVec 1 := Scalar.andi v62 v59
  let v64 : BitVec 32 := Scalar.addi v58 v57
  let v65 : BitVec 32 := Scalar.select v63 v64 v58
  let v67 : Index := Scalar.indexCast v65
  ![v66.toNat, v67.toNat]

def k0_chk1 (v68 : IVec S16 32) : Prop :=
  (∀ a x, ((![v68] : Fin 1 → IVec S16 32) a x).toNat < S100000.size a)
instance k0_chk1.dec : ∀ (v68 : IVec S16 32), Decidable (k0_chk1 v68) := fun v68 => decidable_of_iff' _ (Iff.of_eq (k0_chk1.eq_1 v68))
theorem k0_idx1_inb : ∀ (v68 : IVec S16 32) (k0_hw1 : k0_chk1 v68), ∀ a x, ((![v68] : Fin 1 → IVec S16 32) a x).toNat < S100000.size a := fun v68 k0_hw1 => k0_hw1
def k0_off4 (k0_t2 : Fin k0_t2_loop.trips) : Fin 1 → Nat :=
  let c0_i32_15 : BitVec 32 := 0#32
  let c1_i32_16 : BitVec 32 := 1#32
  let arg12 : BitVec 32 := Scf.iv c0_i32_15 c1_i32_16 k0_t2
  let c8_i32_38 : BitVec 32 := 8#32
  let v70 : BitVec 32 := Scalar.muli arg12 c8_i32_38
  let c0_i32_39 : BitVec 32 := 0#32
  let v71 : BitVec 32 := Scalar.addi v70 c0_i32_39
  let c16_i32_40 : BitVec 32 := 16#32
  let v72 : BitVec 32 := Scalar.muli v71 c16_i32_40
  let v73 : Index := Scalar.indexCast v72
  ![v73.toNat]
def k0_off5 (k0_t2 : Fin k0_t2_loop.trips) : Fin 2 → Nat :=
  let c0_i32_44 : BitVec 32 := 0#32
  let c0_i32_15 : BitVec 32 := 0#32
  let c1_i32_16 : BitVec 32 := 1#32
  let arg12 : BitVec 32 := Scf.iv c0_i32_15 c1_i32_16 k0_t2
  let c8_i32_41 : BitVec 32 := 8#32
  let v75 : BitVec 32 := Scalar.muli arg12 c8_i32_41
  let c1_i32_42 : BitVec 32 := 1#32
  let v76 : BitVec 32 := Scalar.addi v75 c1_i32_42
  let c16_i32_43 : BitVec 32 := 16#32
  let v77 : BitVec 32 := Scalar.muli v76 c16_i32_43
  let v78 : BitVec 32 := Scalar.addi c0_i32_44 v77
  let c0_i32_46 : BitVec 32 := 0#32
  let v80 : BitVec 1 := Scalar.cmpi .sgt v78 c0_i32_46
  let v81 : BitVec 32 := Scalar.extui v80
  let c0_i32_47 : BitVec 32 := 0#32
  let v82 : BitVec 1 := Scalar.cmpi .slt v78 c0_i32_47
  let v83 : BitVec 32 := Scalar.extui v82
  let v84 : BitVec 32 := Scalar.subi v81 v83
  let c128_i32_45 : BitVec 32 := 128#32
  let c0_i32_48 : BitVec 32 := 0#32
  let v85 : BitVec 1 := Scalar.cmpi .sgt c128_i32_45 c0_i32_48
  let v86 : BitVec 32 := Scalar.extui v85
  let c0_i32_49 : BitVec 32 := 0#32
  let v87 : BitVec 1 := Scalar.cmpi .slt c128_i32_45 c0_i32_49
  let v88 : BitVec 32 := Scalar.extui v87
  let v89 : BitVec 32 := Scalar.subi v86 v88
  let v90 : BitVec 1 := Scalar.cmpi .ne v84 v89
  let v91 : BitVec 32 := Scalar.remsi v78 c128_i32_45
  let c0_i32_50 : BitVec 32 := 0#32
  let v92 : BitVec 1 := Scalar.cmpi .ne v91 c0_i32_50
  let v93 : BitVec 1 := Scalar.andi v90 v92
  let v79 : BitVec 32 := Scalar.divsi v78 c128_i32_45
  let c1_i32_51 : BitVec 32 := 1#32
  let v94 : BitVec 32 := Scalar.subi v79 c1_i32_51
  let v95 : BitVec 32 := Scalar.select v93 v94 v79
  let v106 : Index := Scalar.indexCast v95
  let c128_i32_52 : BitVec 32 := 128#32
  let c0_i32_53 : BitVec 32 := 0#32
  let v96 : BitVec 1 := Scalar.cmpi .eq c128_i32_52 c0_i32_53
  let c1_i32_54 : BitVec 32 := 1#32
  let v97 : BitVec 32 := Scalar.select v96 c1_i32_54 c128_i32_52
  let v98 : BitVec 32 := Scalar.remsi v78 v97
  let c0_i32_56 : BitVec 32 := 0#32
  let v100 : BitVec 1 := Scalar.cmpi .slt v98 c0_i32_56
  let c0_i32_57 : BitVec 32 := 0#32
  let v101 : BitVec 1 := Scalar.cmpi .slt v97 c0_i32_57
  let v102 : BitVec 1 := Scalar.xori v100 v101
  let c0_i32_55 : BitVec 32 := 0#32
  let v99 : BitVec 1 := Scalar.cmpi .ne v98 c0_i32_55
  let v103 : BitVec 1 := Scalar.andi v102 v99
  let v104 : BitVec 32 := Scalar.addi v98 v97
  let v105 : BitVec 32 := Scalar.select v103 v104 v98
  let v107 : Index := Scalar.indexCast v105
  ![v106.toNat, v107.toNat]

def k0_chk2 (v108 : IVec S16 32) : Prop :=
  (∀ a x, ((![v108] : Fin 1 → IVec S16 32) a x).toNat < S100000.size a)
instance k0_chk2.dec : ∀ (v108 : IVec S16 32), Decidable (k0_chk2 v108) := fun v108 => decidable_of_iff' _ (Iff.of_eq (k0_chk2.eq_1 v108))
theorem k0_idx2_inb : ∀ (v108 : IVec S16 32) (k0_hw2 : k0_chk2 v108), ∀ a x, ((![v108] : Fin 1 → IVec S16 32) a x).toNat < S100000.size a := fun v108 k0_hw2 => k0_hw2
def k0_off6 (k0_t2 : Fin k0_t2_loop.trips) : Fin 1 → Nat :=
  let c0_i32_15 : BitVec 32 := 0#32
  let c1_i32_16 : BitVec 32 := 1#32
  let arg12 : BitVec 32 := Scf.iv c0_i32_15 c1_i32_16 k0_t2
  let c8_i32_58 : BitVec 32 := 8#32
  let v110 : BitVec 32 := Scalar.muli arg12 c8_i32_58
  let c1_i32_59 : BitVec 32 := 1#32
  let v111 : BitVec 32 := Scalar.addi v110 c1_i32_59
  let c16_i32_60 : BitVec 32 := 16#32
  let v112 : BitVec 32 := Scalar.muli v111 c16_i32_60
  let v113 : Index := Scalar.indexCast v112
  ![v113.toNat]
def k0_off7 (k0_t2 : Fin k0_t2_loop.trips) : Fin 2 → Nat :=
  let c0_i32_64 : BitVec 32 := 0#32
  let c0_i32_15 : BitVec 32 := 0#32
  let c1_i32_16 : BitVec 32 := 1#32
  let arg12 : BitVec 32 := Scf.iv c0_i32_15 c1_i32_16 k0_t2
  let c8_i32_61 : BitVec 32 := 8#32
  let v115 : BitVec 32 := Scalar.muli arg12 c8_i32_61
  let c2_i32_62 : BitVec 32 := 2#32
  let v116 : BitVec 32 := Scalar.addi v115 c2_i32_62
  let c16_i32_63 : BitVec 32 := 16#32
  let v117 : BitVec 32 := Scalar.muli v116 c16_i32_63
  let v118 : BitVec 32 := Scalar.addi c0_i32_64 v117
  let c0_i32_66 : BitVec 32 := 0#32
  let v120 : BitVec 1 := Scalar.cmpi .sgt v118 c0_i32_66
  let v121 : BitVec 32 := Scalar.extui v120
  let c0_i32_67 : BitVec 32 := 0#32
  let v122 : BitVec 1 := Scalar.cmpi .slt v118 c0_i32_67
  let v123 : BitVec 32 := Scalar.extui v122
  let v124 : BitVec 32 := Scalar.subi v121 v123
  let c128_i32_65 : BitVec 32 := 128#32
  let c0_i32_68 : BitVec 32 := 0#32
  let v125 : BitVec 1 := Scalar.cmpi .sgt c128_i32_65 c0_i32_68
  let v126 : BitVec 32 := Scalar.extui v125
  let c0_i32_69 : BitVec 32 := 0#32
  let v127 : BitVec 1 := Scalar.cmpi .slt c128_i32_65 c0_i32_69
  let v128 : BitVec 32 := Scalar.extui v127
  let v129 : BitVec 32 := Scalar.subi v126 v128
  let v130 : BitVec 1 := Scalar.cmpi .ne v124 v129
  let v131 : BitVec 32 := Scalar.remsi v118 c128_i32_65
  let c0_i32_70 : BitVec 32 := 0#32
  let v132 : BitVec 1 := Scalar.cmpi .ne v131 c0_i32_70
  let v133 : BitVec 1 := Scalar.andi v130 v132
  let v119 : BitVec 32 := Scalar.divsi v118 c128_i32_65
  let c1_i32_71 : BitVec 32 := 1#32
  let v134 : BitVec 32 := Scalar.subi v119 c1_i32_71
  let v135 : BitVec 32 := Scalar.select v133 v134 v119
  let v146 : Index := Scalar.indexCast v135
  let c128_i32_72 : BitVec 32 := 128#32
  let c0_i32_73 : BitVec 32 := 0#32
  let v136 : BitVec 1 := Scalar.cmpi .eq c128_i32_72 c0_i32_73
  let c1_i32_74 : BitVec 32 := 1#32
  let v137 : BitVec 32 := Scalar.select v136 c1_i32_74 c128_i32_72
  let v138 : BitVec 32 := Scalar.remsi v118 v137
  let c0_i32_76 : BitVec 32 := 0#32
  let v140 : BitVec 1 := Scalar.cmpi .slt v138 c0_i32_76
  let c0_i32_77 : BitVec 32 := 0#32
  let v141 : BitVec 1 := Scalar.cmpi .slt v137 c0_i32_77
  let v142 : BitVec 1 := Scalar.xori v140 v141
  let c0_i32_75 : BitVec 32 := 0#32
  let v139 : BitVec 1 := Scalar.cmpi .ne v138 c0_i32_75
  let v143 : BitVec 1 := Scalar.andi v142 v139
  let v144 : BitVec 32 := Scalar.addi v138 v137
  let v145 : BitVec 32 := Scalar.select v143 v144 v138
  let v147 : Index := Scalar.indexCast v145
  ![v146.toNat, v147.toNat]

def k0_chk3 (v148 : IVec S16 32) : Prop :=
  (∀ a x, ((![v148] : Fin 1 → IVec S16 32) a x).toNat < S100000.size a)
instance k0_chk3.dec : ∀ (v148 : IVec S16 32), Decidable (k0_chk3 v148) := fun v148 => decidable_of_iff' _ (Iff.of_eq (k0_chk3.eq_1 v148))
theorem k0_idx3_inb : ∀ (v148 : IVec S16 32) (k0_hw3 : k0_chk3 v148), ∀ a x, ((![v148] : Fin 1 → IVec S16 32) a x).toNat < S100000.size a := fun v148 k0_hw3 => k0_hw3
def k0_off8 (k0_t2 : Fin k0_t2_loop.trips) : Fin 1 → Nat :=
  let c0_i32_15 : BitVec 32 := 0#32
  let c1_i32_16 : BitVec 32 := 1#32
  let arg12 : BitVec 32 := Scf.iv c0_i32_15 c1_i32_16 k0_t2
  let c8_i32_78 : BitVec 32 := 8#32
  let v150 : BitVec 32 := Scalar.muli arg12 c8_i32_78
  let c2_i32_79 : BitVec 32 := 2#32
  let v151 : BitVec 32 := Scalar.addi v150 c2_i32_79
  let c16_i32_80 : BitVec 32 := 16#32
  let v152 : BitVec 32 := Scalar.muli v151 c16_i32_80
  let v153 : Index := Scalar.indexCast v152
  ![v153.toNat]
def k0_off9 (k0_t2 : Fin k0_t2_loop.trips) : Fin 2 → Nat :=
  let c0_i32_83 : BitVec 32 := 0#32
  let c0_i32_15 : BitVec 32 := 0#32
  let c1_i32_16 : BitVec 32 := 1#32
  let arg12 : BitVec 32 := Scf.iv c0_i32_15 c1_i32_16 k0_t2
  let c8_i32_81 : BitVec 32 := 8#32
  let v155 : BitVec 32 := Scalar.muli arg12 c8_i32_81
  let c3_i32 : BitVec 32 := 3#32
  let v156 : BitVec 32 := Scalar.addi v155 c3_i32
  let c16_i32_82 : BitVec 32 := 16#32
  let v157 : BitVec 32 := Scalar.muli v156 c16_i32_82
  let v158 : BitVec 32 := Scalar.addi c0_i32_83 v157
  let c0_i32_85 : BitVec 32 := 0#32
  let v160 : BitVec 1 := Scalar.cmpi .sgt v158 c0_i32_85
  let v161 : BitVec 32 := Scalar.extui v160
  let c0_i32_86 : BitVec 32 := 0#32
  let v162 : BitVec 1 := Scalar.cmpi .slt v158 c0_i32_86
  let v163 : BitVec 32 := Scalar.extui v162
  let v164 : BitVec 32 := Scalar.subi v161 v163
  let c128_i32_84 : BitVec 32 := 128#32
  let c0_i32_87 : BitVec 32 := 0#32
  let v165 : BitVec 1 := Scalar.cmpi .sgt c128_i32_84 c0_i32_87
  let v166 : BitVec 32 := Scalar.extui v165
  let c0_i32_88 : BitVec 32 := 0#32
  let v167 : BitVec 1 := Scalar.cmpi .slt c128_i32_84 c0_i32_88
  let v168 : BitVec 32 := Scalar.extui v167
  let v169 : BitVec 32 := Scalar.subi v166 v168
  let v170 : BitVec 1 := Scalar.cmpi .ne v164 v169
  let v171 : BitVec 32 := Scalar.remsi v158 c128_i32_84
  let c0_i32_89 : BitVec 32 := 0#32
  let v172 : BitVec 1 := Scalar.cmpi .ne v171 c0_i32_89
  let v173 : BitVec 1 := Scalar.andi v170 v172
  let v159 : BitVec 32 := Scalar.divsi v158 c128_i32_84
  let c1_i32_90 : BitVec 32 := 1#32
  let v174 : BitVec 32 := Scalar.subi v159 c1_i32_90
  let v175 : BitVec 32 := Scalar.select v173 v174 v159
  let v186 : Index := Scalar.indexCast v175
  let c128_i32_91 : BitVec 32 := 128#32
  let c0_i32_92 : BitVec 32 := 0#32
  let v176 : BitVec 1 := Scalar.cmpi .eq c128_i32_91 c0_i32_92
  let c1_i32_93 : BitVec 32 := 1#32
  let v177 : BitVec 32 := Scalar.select v176 c1_i32_93 c128_i32_91
  let v178 : BitVec 32 := Scalar.remsi v158 v177
  let c0_i32_95 : BitVec 32 := 0#32
  let v180 : BitVec 1 := Scalar.cmpi .slt v178 c0_i32_95
  let c0_i32_96 : BitVec 32 := 0#32
  let v181 : BitVec 1 := Scalar.cmpi .slt v177 c0_i32_96
  let v182 : BitVec 1 := Scalar.xori v180 v181
  let c0_i32_94 : BitVec 32 := 0#32
  let v179 : BitVec 1 := Scalar.cmpi .ne v178 c0_i32_94
  let v183 : BitVec 1 := Scalar.andi v182 v179
  let v184 : BitVec 32 := Scalar.addi v178 v177
  let v185 : BitVec 32 := Scalar.select v183 v184 v178
  let v187 : Index := Scalar.indexCast v185
  ![v186.toNat, v187.toNat]

def k0_chk4 (v188 : IVec S16 32) : Prop :=
  (∀ a x, ((![v188] : Fin 1 → IVec S16 32) a x).toNat < S100000.size a)
instance k0_chk4.dec : ∀ (v188 : IVec S16 32), Decidable (k0_chk4 v188) := fun v188 => decidable_of_iff' _ (Iff.of_eq (k0_chk4.eq_1 v188))
theorem k0_idx4_inb : ∀ (v188 : IVec S16 32) (k0_hw4 : k0_chk4 v188), ∀ a x, ((![v188] : Fin 1 → IVec S16 32) a x).toNat < S100000.size a := fun v188 k0_hw4 => k0_hw4
def k0_off10 (k0_t2 : Fin k0_t2_loop.trips) : Fin 1 → Nat :=
  let c0_i32_15 : BitVec 32 := 0#32
  let c1_i32_16 : BitVec 32 := 1#32
  let arg12 : BitVec 32 := Scf.iv c0_i32_15 c1_i32_16 k0_t2
  let c8_i32_97 : BitVec 32 := 8#32
  let v190 : BitVec 32 := Scalar.muli arg12 c8_i32_97
  let c3_i32_98 : BitVec 32 := 3#32
  let v191 : BitVec 32 := Scalar.addi v190 c3_i32_98
  let c16_i32_99 : BitVec 32 := 16#32
  let v192 : BitVec 32 := Scalar.muli v191 c16_i32_99
  let v193 : Index := Scalar.indexCast v192
  ![v193.toNat]
def k0_off11 (k0_t2 : Fin k0_t2_loop.trips) : Fin 2 → Nat :=
  let c0_i32_102 : BitVec 32 := 0#32
  let c0_i32_15 : BitVec 32 := 0#32
  let c1_i32_16 : BitVec 32 := 1#32
  let arg12 : BitVec 32 := Scf.iv c0_i32_15 c1_i32_16 k0_t2
  let c8_i32_100 : BitVec 32 := 8#32
  let v195 : BitVec 32 := Scalar.muli arg12 c8_i32_100
  let c4_i32 : BitVec 32 := 4#32
  let v196 : BitVec 32 := Scalar.addi v195 c4_i32
  let c16_i32_101 : BitVec 32 := 16#32
  let v197 : BitVec 32 := Scalar.muli v196 c16_i32_101
  let v198 : BitVec 32 := Scalar.addi c0_i32_102 v197
  let c0_i32_104 : BitVec 32 := 0#32
  let v200 : BitVec 1 := Scalar.cmpi .sgt v198 c0_i32_104
  let v201 : BitVec 32 := Scalar.extui v200
  let c0_i32_105 : BitVec 32 := 0#32
  let v202 : BitVec 1 := Scalar.cmpi .slt v198 c0_i32_105
  let v203 : BitVec 32 := Scalar.extui v202
  let v204 : BitVec 32 := Scalar.subi v201 v203
  let c128_i32_103 : BitVec 32 := 128#32
  let c0_i32_106 : BitVec 32 := 0#32
  let v205 : BitVec 1 := Scalar.cmpi .sgt c128_i32_103 c0_i32_106
  let v206 : BitVec 32 := Scalar.extui v205
  let c0_i32_107 : BitVec 32 := 0#32
  let v207 : BitVec 1 := Scalar.cmpi .slt c128_i32_103 c0_i32_107
  let v208 : BitVec 32 := Scalar.extui v207
  let v209 : BitVec 32 := Scalar.subi v206 v208
  let v210 : BitVec 1 := Scalar.cmpi .ne v204 v209
  let v211 : BitVec 32 := Scalar.remsi v198 c128_i32_103
  let c0_i32_108 : BitVec 32 := 0#32
  let v212 : BitVec 1 := Scalar.cmpi .ne v211 c0_i32_108
  let v213 : BitVec 1 := Scalar.andi v210 v212
  let v199 : BitVec 32 := Scalar.divsi v198 c128_i32_103
  let c1_i32_109 : BitVec 32 := 1#32
  let v214 : BitVec 32 := Scalar.subi v199 c1_i32_109
  let v215 : BitVec 32 := Scalar.select v213 v214 v199
  let v226 : Index := Scalar.indexCast v215
  let c128_i32_110 : BitVec 32 := 128#32
  let c0_i32_111 : BitVec 32 := 0#32
  let v216 : BitVec 1 := Scalar.cmpi .eq c128_i32_110 c0_i32_111
  let c1_i32_112 : BitVec 32 := 1#32
  let v217 : BitVec 32 := Scalar.select v216 c1_i32_112 c128_i32_110
  let v218 : BitVec 32 := Scalar.remsi v198 v217
  let c0_i32_114 : BitVec 32 := 0#32
  let v220 : BitVec 1 := Scalar.cmpi .slt v218 c0_i32_114
  let c0_i32_115 : BitVec 32 := 0#32
  let v221 : BitVec 1 := Scalar.cmpi .slt v217 c0_i32_115
  let v222 : BitVec 1 := Scalar.xori v220 v221
  let c0_i32_113 : BitVec 32 := 0#32
  let v219 : BitVec 1 := Scalar.cmpi .ne v218 c0_i32_113
  let v223 : BitVec 1 := Scalar.andi v222 v219
  let v224 : BitVec 32 := Scalar.addi v218 v217
  let v225 : BitVec 32 := Scalar.select v223 v224 v218
  let v227 : Index := Scalar.indexCast v225
  ![v226.toNat, v227.toNat]

def k0_chk5 (v228 : IVec S16 32) : Prop :=
  (∀ a x, ((![v228] : Fin 1 → IVec S16 32) a x).toNat < S100000.size a)
instance k0_chk5.dec : ∀ (v228 : IVec S16 32), Decidable (k0_chk5 v228) := fun v228 => decidable_of_iff' _ (Iff.of_eq (k0_chk5.eq_1 v228))
theorem k0_idx5_inb : ∀ (v228 : IVec S16 32) (k0_hw5 : k0_chk5 v228), ∀ a x, ((![v228] : Fin 1 → IVec S16 32) a x).toNat < S100000.size a := fun v228 k0_hw5 => k0_hw5
def k0_off12 (k0_t2 : Fin k0_t2_loop.trips) : Fin 1 → Nat :=
  let c0_i32_15 : BitVec 32 := 0#32
  let c1_i32_16 : BitVec 32 := 1#32
  let arg12 : BitVec 32 := Scf.iv c0_i32_15 c1_i32_16 k0_t2
  let c8_i32_116 : BitVec 32 := 8#32
  let v230 : BitVec 32 := Scalar.muli arg12 c8_i32_116
  let c4_i32_117 : BitVec 32 := 4#32
  let v231 : BitVec 32 := Scalar.addi v230 c4_i32_117
  let c16_i32_118 : BitVec 32 := 16#32
  let v232 : BitVec 32 := Scalar.muli v231 c16_i32_118
  let v233 : Index := Scalar.indexCast v232
  ![v233.toNat]
def k0_off13 (k0_t2 : Fin k0_t2_loop.trips) : Fin 2 → Nat :=
  let c0_i32_121 : BitVec 32 := 0#32
  let c0_i32_15 : BitVec 32 := 0#32
  let c1_i32_16 : BitVec 32 := 1#32
  let arg12 : BitVec 32 := Scf.iv c0_i32_15 c1_i32_16 k0_t2
  let c8_i32_119 : BitVec 32 := 8#32
  let v235 : BitVec 32 := Scalar.muli arg12 c8_i32_119
  let c5_i32 : BitVec 32 := 5#32
  let v236 : BitVec 32 := Scalar.addi v235 c5_i32
  let c16_i32_120 : BitVec 32 := 16#32
  let v237 : BitVec 32 := Scalar.muli v236 c16_i32_120
  let v238 : BitVec 32 := Scalar.addi c0_i32_121 v237
  let c0_i32_123 : BitVec 32 := 0#32
  let v240 : BitVec 1 := Scalar.cmpi .sgt v238 c0_i32_123
  let v241 : BitVec 32 := Scalar.extui v240
  let c0_i32_124 : BitVec 32 := 0#32
  let v242 : BitVec 1 := Scalar.cmpi .slt v238 c0_i32_124
  let v243 : BitVec 32 := Scalar.extui v242
  let v244 : BitVec 32 := Scalar.subi v241 v243
  let c128_i32_122 : BitVec 32 := 128#32
  let c0_i32_125 : BitVec 32 := 0#32
  let v245 : BitVec 1 := Scalar.cmpi .sgt c128_i32_122 c0_i32_125
  let v246 : BitVec 32 := Scalar.extui v245
  let c0_i32_126 : BitVec 32 := 0#32
  let v247 : BitVec 1 := Scalar.cmpi .slt c128_i32_122 c0_i32_126
  let v248 : BitVec 32 := Scalar.extui v247
  let v249 : BitVec 32 := Scalar.subi v246 v248
  let v250 : BitVec 1 := Scalar.cmpi .ne v244 v249
  let v251 : BitVec 32 := Scalar.remsi v238 c128_i32_122
  let c0_i32_127 : BitVec 32 := 0#32
  let v252 : BitVec 1 := Scalar.cmpi .ne v251 c0_i32_127
  let v253 : BitVec 1 := Scalar.andi v250 v252
  let v239 : BitVec 32 := Scalar.divsi v238 c128_i32_122
  let c1_i32_128 : BitVec 32 := 1#32
  let v254 : BitVec 32 := Scalar.subi v239 c1_i32_128
  let v255 : BitVec 32 := Scalar.select v253 v254 v239
  let v266 : Index := Scalar.indexCast v255
  let c128_i32_129 : BitVec 32 := 128#32
  let c0_i32_130 : BitVec 32 := 0#32
  let v256 : BitVec 1 := Scalar.cmpi .eq c128_i32_129 c0_i32_130
  let c1_i32_131 : BitVec 32 := 1#32
  let v257 : BitVec 32 := Scalar.select v256 c1_i32_131 c128_i32_129
  let v258 : BitVec 32 := Scalar.remsi v238 v257
  let c0_i32_133 : BitVec 32 := 0#32
  let v260 : BitVec 1 := Scalar.cmpi .slt v258 c0_i32_133
  let c0_i32_134 : BitVec 32 := 0#32
  let v261 : BitVec 1 := Scalar.cmpi .slt v257 c0_i32_134
  let v262 : BitVec 1 := Scalar.xori v260 v261
  let c0_i32_132 : BitVec 32 := 0#32
  let v259 : BitVec 1 := Scalar.cmpi .ne v258 c0_i32_132
  let v263 : BitVec 1 := Scalar.andi v262 v259
  let v264 : BitVec 32 := Scalar.addi v258 v257
  let v265 : BitVec 32 := Scalar.select v263 v264 v258
  let v267 : Index := Scalar.indexCast v265
  ![v266.toNat, v267.toNat]

def k0_chk6 (v268 : IVec S16 32) : Prop :=
  (∀ a x, ((![v268] : Fin 1 → IVec S16 32) a x).toNat < S100000.size a)
instance k0_chk6.dec : ∀ (v268 : IVec S16 32), Decidable (k0_chk6 v268) := fun v268 => decidable_of_iff' _ (Iff.of_eq (k0_chk6.eq_1 v268))
theorem k0_idx6_inb : ∀ (v268 : IVec S16 32) (k0_hw6 : k0_chk6 v268), ∀ a x, ((![v268] : Fin 1 → IVec S16 32) a x).toNat < S100000.size a := fun v268 k0_hw6 => k0_hw6
def k0_off14 (k0_t2 : Fin k0_t2_loop.trips) : Fin 1 → Nat :=
  let c0_i32_15 : BitVec 32 := 0#32
  let c1_i32_16 : BitVec 32 := 1#32
  let arg12 : BitVec 32 := Scf.iv c0_i32_15 c1_i32_16 k0_t2
  let c8_i32_135 : BitVec 32 := 8#32
  let v270 : BitVec 32 := Scalar.muli arg12 c8_i32_135
  let c5_i32_136 : BitVec 32 := 5#32
  let v271 : BitVec 32 := Scalar.addi v270 c5_i32_136
  let c16_i32_137 : BitVec 32 := 16#32
  let v272 : BitVec 32 := Scalar.muli v271 c16_i32_137
  let v273 : Index := Scalar.indexCast v272
  ![v273.toNat]
def k0_off15 (k0_t2 : Fin k0_t2_loop.trips) : Fin 2 → Nat :=
  let c0_i32_140 : BitVec 32 := 0#32
  let c0_i32_15 : BitVec 32 := 0#32
  let c1_i32_16 : BitVec 32 := 1#32
  let arg12 : BitVec 32 := Scf.iv c0_i32_15 c1_i32_16 k0_t2
  let c8_i32_138 : BitVec 32 := 8#32
  let v275 : BitVec 32 := Scalar.muli arg12 c8_i32_138
  let c6_i32 : BitVec 32 := 6#32
  let v276 : BitVec 32 := Scalar.addi v275 c6_i32
  let c16_i32_139 : BitVec 32 := 16#32
  let v277 : BitVec 32 := Scalar.muli v276 c16_i32_139
  let v278 : BitVec 32 := Scalar.addi c0_i32_140 v277
  let c0_i32_142 : BitVec 32 := 0#32
  let v280 : BitVec 1 := Scalar.cmpi .sgt v278 c0_i32_142
  let v281 : BitVec 32 := Scalar.extui v280
  let c0_i32_143 : BitVec 32 := 0#32
  let v282 : BitVec 1 := Scalar.cmpi .slt v278 c0_i32_143
  let v283 : BitVec 32 := Scalar.extui v282
  let v284 : BitVec 32 := Scalar.subi v281 v283
  let c128_i32_141 : BitVec 32 := 128#32
  let c0_i32_144 : BitVec 32 := 0#32
  let v285 : BitVec 1 := Scalar.cmpi .sgt c128_i32_141 c0_i32_144
  let v286 : BitVec 32 := Scalar.extui v285
  let c0_i32_145 : BitVec 32 := 0#32
  let v287 : BitVec 1 := Scalar.cmpi .slt c128_i32_141 c0_i32_145
  let v288 : BitVec 32 := Scalar.extui v287
  let v289 : BitVec 32 := Scalar.subi v286 v288
  let v290 : BitVec 1 := Scalar.cmpi .ne v284 v289
  let v291 : BitVec 32 := Scalar.remsi v278 c128_i32_141
  let c0_i32_146 : BitVec 32 := 0#32
  let v292 : BitVec 1 := Scalar.cmpi .ne v291 c0_i32_146
  let v293 : BitVec 1 := Scalar.andi v290 v292
  let v279 : BitVec 32 := Scalar.divsi v278 c128_i32_141
  let c1_i32_147 : BitVec 32 := 1#32
  let v294 : BitVec 32 := Scalar.subi v279 c1_i32_147
  let v295 : BitVec 32 := Scalar.select v293 v294 v279
  let v306 : Index := Scalar.indexCast v295
  let c128_i32_148 : BitVec 32 := 128#32
  let c0_i32_149 : BitVec 32 := 0#32
  let v296 : BitVec 1 := Scalar.cmpi .eq c128_i32_148 c0_i32_149
  let c1_i32_150 : BitVec 32 := 1#32
  let v297 : BitVec 32 := Scalar.select v296 c1_i32_150 c128_i32_148
  let v298 : BitVec 32 := Scalar.remsi v278 v297
  let c0_i32_152 : BitVec 32 := 0#32
  let v300 : BitVec 1 := Scalar.cmpi .slt v298 c0_i32_152
  let c0_i32_153 : BitVec 32 := 0#32
  let v301 : BitVec 1 := Scalar.cmpi .slt v297 c0_i32_153
  let v302 : BitVec 1 := Scalar.xori v300 v301
  let c0_i32_151 : BitVec 32 := 0#32
  let v299 : BitVec 1 := Scalar.cmpi .ne v298 c0_i32_151
  let v303 : BitVec 1 := Scalar.andi v302 v299
  let v304 : BitVec 32 := Scalar.addi v298 v297
  let v305 : BitVec 32 := Scalar.select v303 v304 v298
  let v307 : Index := Scalar.indexCast v305
  ![v306.toNat, v307.toNat]

def k0_chk7 (v308 : IVec S16 32) : Prop :=
  (∀ a x, ((![v308] : Fin 1 → IVec S16 32) a x).toNat < S100000.size a)
instance k0_chk7.dec : ∀ (v308 : IVec S16 32), Decidable (k0_chk7 v308) := fun v308 => decidable_of_iff' _ (Iff.of_eq (k0_chk7.eq_1 v308))
theorem k0_idx7_inb : ∀ (v308 : IVec S16 32) (k0_hw7 : k0_chk7 v308), ∀ a x, ((![v308] : Fin 1 → IVec S16 32) a x).toNat < S100000.size a := fun v308 k0_hw7 => k0_hw7
def k0_off16 (k0_t2 : Fin k0_t2_loop.trips) : Fin 1 → Nat :=
  let c0_i32_15 : BitVec 32 := 0#32
  let c1_i32_16 : BitVec 32 := 1#32
  let arg12 : BitVec 32 := Scf.iv c0_i32_15 c1_i32_16 k0_t2
  let c8_i32_154 : BitVec 32 := 8#32
  let v310 : BitVec 32 := Scalar.muli arg12 c8_i32_154
  let c6_i32_155 : BitVec 32 := 6#32
  let v311 : BitVec 32 := Scalar.addi v310 c6_i32_155
  let c16_i32_156 : BitVec 32 := 16#32
  let v312 : BitVec 32 := Scalar.muli v311 c16_i32_156
  let v313 : Index := Scalar.indexCast v312
  ![v313.toNat]
def k0_off17 (k0_t2 : Fin k0_t2_loop.trips) : Fin 2 → Nat :=
  let c0_i32_159 : BitVec 32 := 0#32
  let c0_i32_15 : BitVec 32 := 0#32
  let c1_i32_16 : BitVec 32 := 1#32
  let arg12 : BitVec 32 := Scf.iv c0_i32_15 c1_i32_16 k0_t2
  let c8_i32_157 : BitVec 32 := 8#32
  let v315 : BitVec 32 := Scalar.muli arg12 c8_i32_157
  let c7_i32 : BitVec 32 := 7#32
  let v316 : BitVec 32 := Scalar.addi v315 c7_i32
  let c16_i32_158 : BitVec 32 := 16#32
  let v317 : BitVec 32 := Scalar.muli v316 c16_i32_158
  let v318 : BitVec 32 := Scalar.addi c0_i32_159 v317
  let c0_i32_161 : BitVec 32 := 0#32
  let v320 : BitVec 1 := Scalar.cmpi .sgt v318 c0_i32_161
  let v321 : BitVec 32 := Scalar.extui v320
  let c0_i32_162 : BitVec 32 := 0#32
  let v322 : BitVec 1 := Scalar.cmpi .slt v318 c0_i32_162
  let v323 : BitVec 32 := Scalar.extui v322
  let v324 : BitVec 32 := Scalar.subi v321 v323
  let c128_i32_160 : BitVec 32 := 128#32
  let c0_i32_163 : BitVec 32 := 0#32
  let v325 : BitVec 1 := Scalar.cmpi .sgt c128_i32_160 c0_i32_163
  let v326 : BitVec 32 := Scalar.extui v325
  let c0_i32_164 : BitVec 32 := 0#32
  let v327 : BitVec 1 := Scalar.cmpi .slt c128_i32_160 c0_i32_164
  let v328 : BitVec 32 := Scalar.extui v327
  let v329 : BitVec 32 := Scalar.subi v326 v328
  let v330 : BitVec 1 := Scalar.cmpi .ne v324 v329
  let v331 : BitVec 32 := Scalar.remsi v318 c128_i32_160
  let c0_i32_165 : BitVec 32 := 0#32
  let v332 : BitVec 1 := Scalar.cmpi .ne v331 c0_i32_165
  let v333 : BitVec 1 := Scalar.andi v330 v332
  let v319 : BitVec 32 := Scalar.divsi v318 c128_i32_160
  let c1_i32_166 : BitVec 32 := 1#32
  let v334 : BitVec 32 := Scalar.subi v319 c1_i32_166
  let v335 : BitVec 32 := Scalar.select v333 v334 v319
  let v346 : Index := Scalar.indexCast v335
  let c128_i32_167 : BitVec 32 := 128#32
  let c0_i32_168 : BitVec 32 := 0#32
  let v336 : BitVec 1 := Scalar.cmpi .eq c128_i32_167 c0_i32_168
  let c1_i32_169 : BitVec 32 := 1#32
  let v337 : BitVec 32 := Scalar.select v336 c1_i32_169 c128_i32_167
  let v338 : BitVec 32 := Scalar.remsi v318 v337
  let c0_i32_171 : BitVec 32 := 0#32
  let v340 : BitVec 1 := Scalar.cmpi .slt v338 c0_i32_171
  let c0_i32_172 : BitVec 32 := 0#32
  let v341 : BitVec 1 := Scalar.cmpi .slt v337 c0_i32_172
  let v342 : BitVec 1 := Scalar.xori v340 v341
  let c0_i32_170 : BitVec 32 := 0#32
  let v339 : BitVec 1 := Scalar.cmpi .ne v338 c0_i32_170
  let v343 : BitVec 1 := Scalar.andi v342 v339
  let v344 : BitVec 32 := Scalar.addi v338 v337
  let v345 : BitVec 32 := Scalar.select v343 v344 v338
  let v347 : Index := Scalar.indexCast v345
  ![v346.toNat, v347.toNat]

def k0_chk8 (v348 : IVec S16 32) : Prop :=
  (∀ a x, ((![v348] : Fin 1 → IVec S16 32) a x).toNat < S100000.size a)
instance k0_chk8.dec : ∀ (v348 : IVec S16 32), Decidable (k0_chk8 v348) := fun v348 => decidable_of_iff' _ (Iff.of_eq (k0_chk8.eq_1 v348))
theorem k0_idx8_inb : ∀ (v348 : IVec S16 32) (k0_hw8 : k0_chk8 v348), ∀ a x, ((![v348] : Fin 1 → IVec S16 32) a x).toNat < S100000.size a := fun v348 k0_hw8 => k0_hw8
def k0_off18 (k0_t2 : Fin k0_t2_loop.trips) : Fin 1 → Nat :=
  let c0_i32_15 : BitVec 32 := 0#32
  let c1_i32_16 : BitVec 32 := 1#32
  let arg12 : BitVec 32 := Scf.iv c0_i32_15 c1_i32_16 k0_t2
  let c8_i32_173 : BitVec 32 := 8#32
  let v350 : BitVec 32 := Scalar.muli arg12 c8_i32_173
  let c7_i32_174 : BitVec 32 := 7#32
  let v351 : BitVec 32 := Scalar.addi v350 c7_i32_174
  let c16_i32_175 : BitVec 32 := 16#32
  let v352 : BitVec 32 := Scalar.muli v351 c16_i32_175
  let v353 : Index := Scalar.indexCast v352
  ![v353.toNat]
def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_3 : BitVec 32 := 13#32
  let v6 : BitVec 32 := Scalar.muli v1 c13_i32_3
  let c0_i32_0 : BitVec 32 := 0#32
  let c1_i32 : BitVec 32 := 1#32
  let arg11 : BitVec 32 := Scf.iv c0_i32_0 c1_i32 k0_t1
  let v7 : BitVec 32 := Scalar.addi v6 arg11
  let c0_i32_23_r1 : BitVec 32 := 0#32
  ![v7.toNat, 0]
@[reducible] def k0_t3_loop : Scf.Loop 32 :=
  let c0_i32_19 : BitVec 32 := 0#32
  let c64_i32_20 : BitVec 32 := 64#32
  let v34 : BitVec 32 := Scalar.addi c0_i32_19 c64_i32_20
  let c1_i32_21 : BitVec 32 := 1#32
  ⟨c0_i32_19, v34, c1_i32_21⟩
def k0_off20 (k0_t3 : Fin k0_t3_loop.trips) : Fin 2 → Nat :=
  let c8192_i32 : BitVec 32 := 8192#32
  let c0_i32_19 : BitVec 32 := 0#32
  let c1_i32_21 : BitVec 32 := 1#32
  let arg12 : BitVec 32 := Scf.iv c0_i32_19 c1_i32_21 k0_t3
  let c8_i32 : BitVec 32 := 8#32
  let v35 : BitVec 32 := Scalar.muli arg12 c8_i32
  let c0_i32_23 : BitVec 32 := 0#32
  let v36 : BitVec 32 := Scalar.addi v35 c0_i32_23
  let c16_i32_24 : BitVec 32 := 16#32
  let v37 : BitVec 32 := Scalar.muli v36 c16_i32_24
  let v38 : BitVec 32 := Scalar.addi c8192_i32 v37
  let c0_i32_25 : BitVec 32 := 0#32
  let v40 : BitVec 1 := Scalar.cmpi .sgt v38 c0_i32_25
  let v41 : BitVec 32 := Scalar.extui v40
  let c0_i32_26 : BitVec 32 := 0#32
  let v42 : BitVec 1 := Scalar.cmpi .slt v38 c0_i32_26
  let v43 : BitVec 32 := Scalar.extui v42
  let v44 : BitVec 32 := Scalar.subi v41 v43
  let c128_i32 : BitVec 32 := 128#32
  let c0_i32_27 : BitVec 32 := 0#32
  let v45 : BitVec 1 := Scalar.cmpi .sgt c128_i32 c0_i32_27
  let v46 : BitVec 32 := Scalar.extui v45
  let c0_i32_28 : BitVec 32 := 0#32
  let v47 : BitVec 1 := Scalar.cmpi .slt c128_i32 c0_i32_28
  let v48 : BitVec 32 := Scalar.extui v47
  let v49 : BitVec 32 := Scalar.subi v46 v48
  let v50 : BitVec 1 := Scalar.cmpi .ne v44 v49
  let v51 : BitVec 32 := Scalar.remsi v38 c128_i32
  let c0_i32_29 : BitVec 32 := 0#32
  let v52 : BitVec 1 := Scalar.cmpi .ne v51 c0_i32_29
  let v53 : BitVec 1 := Scalar.andi v50 v52
  let v39 : BitVec 32 := Scalar.divsi v38 c128_i32
  let c1_i32_30 : BitVec 32 := 1#32
  let v54 : BitVec 32 := Scalar.subi v39 c1_i32_30
  let v55 : BitVec 32 := Scalar.select v53 v54 v39
  let v66 : Index := Scalar.indexCast v55
  let c128_i32_31 : BitVec 32 := 128#32
  let c0_i32_32 : BitVec 32 := 0#32
  let v56 : BitVec 1 := Scalar.cmpi .eq c128_i32_31 c0_i32_32
  let c1_i32_33 : BitVec 32 := 1#32
  let v57 : BitVec 32 := Scalar.select v56 c1_i32_33 c128_i32_31
  let v58 : BitVec 32 := Scalar.remsi v38 v57
  let c0_i32_35 : BitVec 32 := 0#32
  let v60 : BitVec 1 := Scalar.cmpi .slt v58 c0_i32_35
  let c0_i32_36 : BitVec 32 := 0#32
  let v61 : BitVec 1 := Scalar.cmpi .slt v57 c0_i32_36
  let v62 : BitVec 1 := Scalar.xori v60 v61
  let c0_i32_34 : BitVec 32 := 0#32
  let v59 : BitVec 1 := Scalar.cmpi .ne v58 c0_i32_34
  let v63 : BitVec 1 := Scalar.andi v62 v59
  let v64 : BitVec 32 := Scalar.addi v58 v57
  let v65 : BitVec 32 := Scalar.select v63 v64 v58
  let v67 : Index := Scalar.indexCast v65
  ![v66.toNat, v67.toNat]

def k0_chk9 (v68 : IVec S16 32) : Prop :=
  (∀ a x, ((![v68] : Fin 1 → IVec S16 32) a x).toNat < S100000.size a)
instance k0_chk9.dec : ∀ (v68 : IVec S16 32), Decidable (k0_chk9 v68) := fun v68 => decidable_of_iff' _ (Iff.of_eq (k0_chk9.eq_1 v68))
theorem k0_idx9_inb : ∀ (v68 : IVec S16 32) (k0_hw9 : k0_chk9 v68), ∀ a x, ((![v68] : Fin 1 → IVec S16 32) a x).toNat < S100000.size a := fun v68 k0_hw9 => k0_hw9
def k0_off21 (k0_t3 : Fin k0_t3_loop.trips) : Fin 1 → Nat :=
  let c0_i32_19 : BitVec 32 := 0#32
  let c1_i32_21 : BitVec 32 := 1#32
  let arg12 : BitVec 32 := Scf.iv c0_i32_19 c1_i32_21 k0_t3
  let c8_i32_37 : BitVec 32 := 8#32
  let v70 : BitVec 32 := Scalar.muli arg12 c8_i32_37
  let c0_i32_38 : BitVec 32 := 0#32
  let v71 : BitVec 32 := Scalar.addi v70 c0_i32_38
  let c16_i32_39 : BitVec 32 := 16#32
  let v72 : BitVec 32 := Scalar.muli v71 c16_i32_39
  let v73 : Index := Scalar.indexCast v72
  ![v73.toNat]
def k0_off22 (k0_t3 : Fin k0_t3_loop.trips) : Fin 2 → Nat :=
  let c8192_i32_43 : BitVec 32 := 8192#32
  let c0_i32_19 : BitVec 32 := 0#32
  let c1_i32_21 : BitVec 32 := 1#32
  let arg12 : BitVec 32 := Scf.iv c0_i32_19 c1_i32_21 k0_t3
  let c8_i32_40 : BitVec 32 := 8#32
  let v75 : BitVec 32 := Scalar.muli arg12 c8_i32_40
  let c1_i32_41 : BitVec 32 := 1#32
  let v76 : BitVec 32 := Scalar.addi v75 c1_i32_41
  let c16_i32_42 : BitVec 32 := 16#32
  let v77 : BitVec 32 := Scalar.muli v76 c16_i32_42
  let v78 : BitVec 32 := Scalar.addi c8192_i32_43 v77
  let c0_i32_45 : BitVec 32 := 0#32
  let v80 : BitVec 1 := Scalar.cmpi .sgt v78 c0_i32_45
  let v81 : BitVec 32 := Scalar.extui v80
  let c0_i32_46 : BitVec 32 := 0#32
  let v82 : BitVec 1 := Scalar.cmpi .slt v78 c0_i32_46
  let v83 : BitVec 32 := Scalar.extui v82
  let v84 : BitVec 32 := Scalar.subi v81 v83
  let c128_i32_44 : BitVec 32 := 128#32
  let c0_i32_47 : BitVec 32 := 0#32
  let v85 : BitVec 1 := Scalar.cmpi .sgt c128_i32_44 c0_i32_47
  let v86 : BitVec 32 := Scalar.extui v85
  let c0_i32_48 : BitVec 32 := 0#32
  let v87 : BitVec 1 := Scalar.cmpi .slt c128_i32_44 c0_i32_48
  let v88 : BitVec 32 := Scalar.extui v87
  let v89 : BitVec 32 := Scalar.subi v86 v88
  let v90 : BitVec 1 := Scalar.cmpi .ne v84 v89
  let v91 : BitVec 32 := Scalar.remsi v78 c128_i32_44
  let c0_i32_49 : BitVec 32 := 0#32
  let v92 : BitVec 1 := Scalar.cmpi .ne v91 c0_i32_49
  let v93 : BitVec 1 := Scalar.andi v90 v92
  let v79 : BitVec 32 := Scalar.divsi v78 c128_i32_44
  let c1_i32_50 : BitVec 32 := 1#32
  let v94 : BitVec 32 := Scalar.subi v79 c1_i32_50
  let v95 : BitVec 32 := Scalar.select v93 v94 v79
  let v106 : Index := Scalar.indexCast v95
  let c128_i32_51 : BitVec 32 := 128#32
  let c0_i32_52 : BitVec 32 := 0#32
  let v96 : BitVec 1 := Scalar.cmpi .eq c128_i32_51 c0_i32_52
  let c1_i32_53 : BitVec 32 := 1#32
  let v97 : BitVec 32 := Scalar.select v96 c1_i32_53 c128_i32_51
  let v98 : BitVec 32 := Scalar.remsi v78 v97
  let c0_i32_55 : BitVec 32 := 0#32
  let v100 : BitVec 1 := Scalar.cmpi .slt v98 c0_i32_55
  let c0_i32_56 : BitVec 32 := 0#32
  let v101 : BitVec 1 := Scalar.cmpi .slt v97 c0_i32_56
  let v102 : BitVec 1 := Scalar.xori v100 v101
  let c0_i32_54 : BitVec 32 := 0#32
  let v99 : BitVec 1 := Scalar.cmpi .ne v98 c0_i32_54
  let v103 : BitVec 1 := Scalar.andi v102 v99
  let v104 : BitVec 32 := Scalar.addi v98 v97
  let v105 : BitVec 32 := Scalar.select v103 v104 v98
  let v107 : Index := Scalar.indexCast v105
  ![v106.toNat, v107.toNat]

def k0_chk10 (v108 : IVec S16 32) : Prop :=
  (∀ a x, ((![v108] : Fin 1 → IVec S16 32) a x).toNat < S100000.size a)
instance k0_chk10.dec : ∀ (v108 : IVec S16 32), Decidable (k0_chk10 v108) := fun v108 => decidable_of_iff' _ (Iff.of_eq (k0_chk10.eq_1 v108))
theorem k0_idx10_inb : ∀ (v108 : IVec S16 32) (k0_hw10 : k0_chk10 v108), ∀ a x, ((![v108] : Fin 1 → IVec S16 32) a x).toNat < S100000.size a := fun v108 k0_hw10 => k0_hw10
def k0_off23 (k0_t3 : Fin k0_t3_loop.trips) : Fin 1 → Nat :=
  let c0_i32_19 : BitVec 32 := 0#32
  let c1_i32_21 : BitVec 32 := 1#32
  let arg12 : BitVec 32 := Scf.iv c0_i32_19 c1_i32_21 k0_t3
  let c8_i32_57 : BitVec 32 := 8#32
  let v110 : BitVec 32 := Scalar.muli arg12 c8_i32_57
  let c1_i32_58 : BitVec 32 := 1#32
  let v111 : BitVec 32 := Scalar.addi v110 c1_i32_58
  let c16_i32_59 : BitVec 32 := 16#32
  let v112 : BitVec 32 := Scalar.muli v111 c16_i32_59
  let v113 : Index := Scalar.indexCast v112
  ![v113.toNat]
def k0_off24 (k0_t3 : Fin k0_t3_loop.trips) : Fin 2 → Nat :=
  let c8192_i32_63 : BitVec 32 := 8192#32
  let c0_i32_19 : BitVec 32 := 0#32
  let c1_i32_21 : BitVec 32 := 1#32
  let arg12 : BitVec 32 := Scf.iv c0_i32_19 c1_i32_21 k0_t3
  let c8_i32_60 : BitVec 32 := 8#32
  let v115 : BitVec 32 := Scalar.muli arg12 c8_i32_60
  let c2_i32_61 : BitVec 32 := 2#32
  let v116 : BitVec 32 := Scalar.addi v115 c2_i32_61
  let c16_i32_62 : BitVec 32 := 16#32
  let v117 : BitVec 32 := Scalar.muli v116 c16_i32_62
  let v118 : BitVec 32 := Scalar.addi c8192_i32_63 v117
  let c0_i32_65 : BitVec 32 := 0#32
  let v120 : BitVec 1 := Scalar.cmpi .sgt v118 c0_i32_65
  let v121 : BitVec 32 := Scalar.extui v120
  let c0_i32_66 : BitVec 32 := 0#32
  let v122 : BitVec 1 := Scalar.cmpi .slt v118 c0_i32_66
  let v123 : BitVec 32 := Scalar.extui v122
  let v124 : BitVec 32 := Scalar.subi v121 v123
  let c128_i32_64 : BitVec 32 := 128#32
  let c0_i32_67 : BitVec 32 := 0#32
  let v125 : BitVec 1 := Scalar.cmpi .sgt c128_i32_64 c0_i32_67
  let v126 : BitVec 32 := Scalar.extui v125
  let c0_i32_68 : BitVec 32 := 0#32
  let v127 : BitVec 1 := Scalar.cmpi .slt c128_i32_64 c0_i32_68
  let v128 : BitVec 32 := Scalar.extui v127
  let v129 : BitVec 32 := Scalar.subi v126 v128
  let v130 : BitVec 1 := Scalar.cmpi .ne v124 v129
  let v131 : BitVec 32 := Scalar.remsi v118 c128_i32_64
  let c0_i32_69 : BitVec 32 := 0#32
  let v132 : BitVec 1 := Scalar.cmpi .ne v131 c0_i32_69
  let v133 : BitVec 1 := Scalar.andi v130 v132
  let v119 : BitVec 32 := Scalar.divsi v118 c128_i32_64
  let c1_i32_70 : BitVec 32 := 1#32
  let v134 : BitVec 32 := Scalar.subi v119 c1_i32_70
  let v135 : BitVec 32 := Scalar.select v133 v134 v119
  let v146 : Index := Scalar.indexCast v135
  let c128_i32_71 : BitVec 32 := 128#32
  let c0_i32_72 : BitVec 32 := 0#32
  let v136 : BitVec 1 := Scalar.cmpi .eq c128_i32_71 c0_i32_72
  let c1_i32_73 : BitVec 32 := 1#32
  let v137 : BitVec 32 := Scalar.select v136 c1_i32_73 c128_i32_71
  let v138 : BitVec 32 := Scalar.remsi v118 v137
  let c0_i32_75 : BitVec 32 := 0#32
  let v140 : BitVec 1 := Scalar.cmpi .slt v138 c0_i32_75
  let c0_i32_76 : BitVec 32 := 0#32
  let v141 : BitVec 1 := Scalar.cmpi .slt v137 c0_i32_76
  let v142 : BitVec 1 := Scalar.xori v140 v141
  let c0_i32_74 : BitVec 32 := 0#32
  let v139 : BitVec 1 := Scalar.cmpi .ne v138 c0_i32_74
  let v143 : BitVec 1 := Scalar.andi v142 v139
  let v144 : BitVec 32 := Scalar.addi v138 v137
  let v145 : BitVec 32 := Scalar.select v143 v144 v138
  let v147 : Index := Scalar.indexCast v145
  ![v146.toNat, v147.toNat]

def k0_chk11 (v148 : IVec S16 32) : Prop :=
  (∀ a x, ((![v148] : Fin 1 → IVec S16 32) a x).toNat < S100000.size a)
instance k0_chk11.dec : ∀ (v148 : IVec S16 32), Decidable (k0_chk11 v148) := fun v148 => decidable_of_iff' _ (Iff.of_eq (k0_chk11.eq_1 v148))
theorem k0_idx11_inb : ∀ (v148 : IVec S16 32) (k0_hw11 : k0_chk11 v148), ∀ a x, ((![v148] : Fin 1 → IVec S16 32) a x).toNat < S100000.size a := fun v148 k0_hw11 => k0_hw11
def k0_off25 (k0_t3 : Fin k0_t3_loop.trips) : Fin 1 → Nat :=
  let c0_i32_19 : BitVec 32 := 0#32
  let c1_i32_21 : BitVec 32 := 1#32
  let arg12 : BitVec 32 := Scf.iv c0_i32_19 c1_i32_21 k0_t3
  let c8_i32_77 : BitVec 32 := 8#32
  let v150 : BitVec 32 := Scalar.muli arg12 c8_i32_77
  let c2_i32_78 : BitVec 32 := 2#32
  let v151 : BitVec 32 := Scalar.addi v150 c2_i32_78
  let c16_i32_79 : BitVec 32 := 16#32
  let v152 : BitVec 32 := Scalar.muli v151 c16_i32_79
  let v153 : Index := Scalar.indexCast v152
  ![v153.toNat]
def k0_off26 (k0_t3 : Fin k0_t3_loop.trips) : Fin 2 → Nat :=
  let c8192_i32_82 : BitVec 32 := 8192#32
  let c0_i32_19 : BitVec 32 := 0#32
  let c1_i32_21 : BitVec 32 := 1#32
  let arg12 : BitVec 32 := Scf.iv c0_i32_19 c1_i32_21 k0_t3
  let c8_i32_80 : BitVec 32 := 8#32
  let v155 : BitVec 32 := Scalar.muli arg12 c8_i32_80
  let c3_i32 : BitVec 32 := 3#32
  let v156 : BitVec 32 := Scalar.addi v155 c3_i32
  let c16_i32_81 : BitVec 32 := 16#32
  let v157 : BitVec 32 := Scalar.muli v156 c16_i32_81
  let v158 : BitVec 32 := Scalar.addi c8192_i32_82 v157
  let c0_i32_84 : BitVec 32 := 0#32
  let v160 : BitVec 1 := Scalar.cmpi .sgt v158 c0_i32_84
  let v161 : BitVec 32 := Scalar.extui v160
  let c0_i32_85 : BitVec 32 := 0#32
  let v162 : BitVec 1 := Scalar.cmpi .slt v158 c0_i32_85
  let v163 : BitVec 32 := Scalar.extui v162
  let v164 : BitVec 32 := Scalar.subi v161 v163
  let c128_i32_83 : BitVec 32 := 128#32
  let c0_i32_86 : BitVec 32 := 0#32
  let v165 : BitVec 1 := Scalar.cmpi .sgt c128_i32_83 c0_i32_86
  let v166 : BitVec 32 := Scalar.extui v165
  let c0_i32_87 : BitVec 32 := 0#32
  let v167 : BitVec 1 := Scalar.cmpi .slt c128_i32_83 c0_i32_87
  let v168 : BitVec 32 := Scalar.extui v167
  let v169 : BitVec 32 := Scalar.subi v166 v168
  let v170 : BitVec 1 := Scalar.cmpi .ne v164 v169
  let v171 : BitVec 32 := Scalar.remsi v158 c128_i32_83
  let c0_i32_88 : BitVec 32 := 0#32
  let v172 : BitVec 1 := Scalar.cmpi .ne v171 c0_i32_88
  let v173 : BitVec 1 := Scalar.andi v170 v172
  let v159 : BitVec 32 := Scalar.divsi v158 c128_i32_83
  let c1_i32_89 : BitVec 32 := 1#32
  let v174 : BitVec 32 := Scalar.subi v159 c1_i32_89
  let v175 : BitVec 32 := Scalar.select v173 v174 v159
  let v186 : Index := Scalar.indexCast v175
  let c128_i32_90 : BitVec 32 := 128#32
  let c0_i32_91 : BitVec 32 := 0#32
  let v176 : BitVec 1 := Scalar.cmpi .eq c128_i32_90 c0_i32_91
  let c1_i32_92 : BitVec 32 := 1#32
  let v177 : BitVec 32 := Scalar.select v176 c1_i32_92 c128_i32_90
  let v178 : BitVec 32 := Scalar.remsi v158 v177
  let c0_i32_94 : BitVec 32 := 0#32
  let v180 : BitVec 1 := Scalar.cmpi .slt v178 c0_i32_94
  let c0_i32_95 : BitVec 32 := 0#32
  let v181 : BitVec 1 := Scalar.cmpi .slt v177 c0_i32_95
  let v182 : BitVec 1 := Scalar.xori v180 v181
  let c0_i32_93 : BitVec 32 := 0#32
  let v179 : BitVec 1 := Scalar.cmpi .ne v178 c0_i32_93
  let v183 : BitVec 1 := Scalar.andi v182 v179
  let v184 : BitVec 32 := Scalar.addi v178 v177
  let v185 : BitVec 32 := Scalar.select v183 v184 v178
  let v187 : Index := Scalar.indexCast v185
  ![v186.toNat, v187.toNat]

def k0_chk12 (v188 : IVec S16 32) : Prop :=
  (∀ a x, ((![v188] : Fin 1 → IVec S16 32) a x).toNat < S100000.size a)
instance k0_chk12.dec : ∀ (v188 : IVec S16 32), Decidable (k0_chk12 v188) := fun v188 => decidable_of_iff' _ (Iff.of_eq (k0_chk12.eq_1 v188))
theorem k0_idx12_inb : ∀ (v188 : IVec S16 32) (k0_hw12 : k0_chk12 v188), ∀ a x, ((![v188] : Fin 1 → IVec S16 32) a x).toNat < S100000.size a := fun v188 k0_hw12 => k0_hw12
def k0_off27 (k0_t3 : Fin k0_t3_loop.trips) : Fin 1 → Nat :=
  let c0_i32_19 : BitVec 32 := 0#32
  let c1_i32_21 : BitVec 32 := 1#32
  let arg12 : BitVec 32 := Scf.iv c0_i32_19 c1_i32_21 k0_t3
  let c8_i32_96 : BitVec 32 := 8#32
  let v190 : BitVec 32 := Scalar.muli arg12 c8_i32_96
  let c3_i32_97 : BitVec 32 := 3#32
  let v191 : BitVec 32 := Scalar.addi v190 c3_i32_97
  let c16_i32_98 : BitVec 32 := 16#32
  let v192 : BitVec 32 := Scalar.muli v191 c16_i32_98
  let v193 : Index := Scalar.indexCast v192
  ![v193.toNat]
def k0_off28 (k0_t3 : Fin k0_t3_loop.trips) : Fin 2 → Nat :=
  let c8192_i32_101 : BitVec 32 := 8192#32
  let c0_i32_19 : BitVec 32 := 0#32
  let c1_i32_21 : BitVec 32 := 1#32
  let arg12 : BitVec 32 := Scf.iv c0_i32_19 c1_i32_21 k0_t3
  let c8_i32_99 : BitVec 32 := 8#32
  let v195 : BitVec 32 := Scalar.muli arg12 c8_i32_99
  let c4_i32 : BitVec 32 := 4#32
  let v196 : BitVec 32 := Scalar.addi v195 c4_i32
  let c16_i32_100 : BitVec 32 := 16#32
  let v197 : BitVec 32 := Scalar.muli v196 c16_i32_100
  let v198 : BitVec 32 := Scalar.addi c8192_i32_101 v197
  let c0_i32_103 : BitVec 32 := 0#32
  let v200 : BitVec 1 := Scalar.cmpi .sgt v198 c0_i32_103
  let v201 : BitVec 32 := Scalar.extui v200
  let c0_i32_104 : BitVec 32 := 0#32
  let v202 : BitVec 1 := Scalar.cmpi .slt v198 c0_i32_104
  let v203 : BitVec 32 := Scalar.extui v202
  let v204 : BitVec 32 := Scalar.subi v201 v203
  let c128_i32_102 : BitVec 32 := 128#32
  let c0_i32_105 : BitVec 32 := 0#32
  let v205 : BitVec 1 := Scalar.cmpi .sgt c128_i32_102 c0_i32_105
  let v206 : BitVec 32 := Scalar.extui v205
  let c0_i32_106 : BitVec 32 := 0#32
  let v207 : BitVec 1 := Scalar.cmpi .slt c128_i32_102 c0_i32_106
  let v208 : BitVec 32 := Scalar.extui v207
  let v209 : BitVec 32 := Scalar.subi v206 v208
  let v210 : BitVec 1 := Scalar.cmpi .ne v204 v209
  let v211 : BitVec 32 := Scalar.remsi v198 c128_i32_102
  let c0_i32_107 : BitVec 32 := 0#32
  let v212 : BitVec 1 := Scalar.cmpi .ne v211 c0_i32_107
  let v213 : BitVec 1 := Scalar.andi v210 v212
  let v199 : BitVec 32 := Scalar.divsi v198 c128_i32_102
  let c1_i32_108 : BitVec 32 := 1#32
  let v214 : BitVec 32 := Scalar.subi v199 c1_i32_108
  let v215 : BitVec 32 := Scalar.select v213 v214 v199
  let v226 : Index := Scalar.indexCast v215
  let c128_i32_109 : BitVec 32 := 128#32
  let c0_i32_110 : BitVec 32 := 0#32
  let v216 : BitVec 1 := Scalar.cmpi .eq c128_i32_109 c0_i32_110
  let c1_i32_111 : BitVec 32 := 1#32
  let v217 : BitVec 32 := Scalar.select v216 c1_i32_111 c128_i32_109
  let v218 : BitVec 32 := Scalar.remsi v198 v217
  let c0_i32_113 : BitVec 32 := 0#32
  let v220 : BitVec 1 := Scalar.cmpi .slt v218 c0_i32_113
  let c0_i32_114 : BitVec 32 := 0#32
  let v221 : BitVec 1 := Scalar.cmpi .slt v217 c0_i32_114
  let v222 : BitVec 1 := Scalar.xori v220 v221
  let c0_i32_112 : BitVec 32 := 0#32
  let v219 : BitVec 1 := Scalar.cmpi .ne v218 c0_i32_112
  let v223 : BitVec 1 := Scalar.andi v222 v219
  let v224 : BitVec 32 := Scalar.addi v218 v217
  let v225 : BitVec 32 := Scalar.select v223 v224 v218
  let v227 : Index := Scalar.indexCast v225
  ![v226.toNat, v227.toNat]

def k0_chk13 (v228 : IVec S16 32) : Prop :=
  (∀ a x, ((![v228] : Fin 1 → IVec S16 32) a x).toNat < S100000.size a)
instance k0_chk13.dec : ∀ (v228 : IVec S16 32), Decidable (k0_chk13 v228) := fun v228 => decidable_of_iff' _ (Iff.of_eq (k0_chk13.eq_1 v228))
theorem k0_idx13_inb : ∀ (v228 : IVec S16 32) (k0_hw13 : k0_chk13 v228), ∀ a x, ((![v228] : Fin 1 → IVec S16 32) a x).toNat < S100000.size a := fun v228 k0_hw13 => k0_hw13
def k0_off29 (k0_t3 : Fin k0_t3_loop.trips) : Fin 1 → Nat :=
  let c0_i32_19 : BitVec 32 := 0#32
  let c1_i32_21 : BitVec 32 := 1#32
  let arg12 : BitVec 32 := Scf.iv c0_i32_19 c1_i32_21 k0_t3
  let c8_i32_115 : BitVec 32 := 8#32
  let v230 : BitVec 32 := Scalar.muli arg12 c8_i32_115
  let c4_i32_116 : BitVec 32 := 4#32
  let v231 : BitVec 32 := Scalar.addi v230 c4_i32_116
  let c16_i32_117 : BitVec 32 := 16#32
  let v232 : BitVec 32 := Scalar.muli v231 c16_i32_117
  let v233 : Index := Scalar.indexCast v232
  ![v233.toNat]
def k0_off30 (k0_t3 : Fin k0_t3_loop.trips) : Fin 2 → Nat :=
  let c8192_i32_120 : BitVec 32 := 8192#32
  let c0_i32_19 : BitVec 32 := 0#32
  let c1_i32_21 : BitVec 32 := 1#32
  let arg12 : BitVec 32 := Scf.iv c0_i32_19 c1_i32_21 k0_t3
  let c8_i32_118 : BitVec 32 := 8#32
  let v235 : BitVec 32 := Scalar.muli arg12 c8_i32_118
  let c5_i32 : BitVec 32 := 5#32
  let v236 : BitVec 32 := Scalar.addi v235 c5_i32
  let c16_i32_119 : BitVec 32 := 16#32
  let v237 : BitVec 32 := Scalar.muli v236 c16_i32_119
  let v238 : BitVec 32 := Scalar.addi c8192_i32_120 v237
  let c0_i32_122 : BitVec 32 := 0#32
  let v240 : BitVec 1 := Scalar.cmpi .sgt v238 c0_i32_122
  let v241 : BitVec 32 := Scalar.extui v240
  let c0_i32_123 : BitVec 32 := 0#32
  let v242 : BitVec 1 := Scalar.cmpi .slt v238 c0_i32_123
  let v243 : BitVec 32 := Scalar.extui v242
  let v244 : BitVec 32 := Scalar.subi v241 v243
  let c128_i32_121 : BitVec 32 := 128#32
  let c0_i32_124 : BitVec 32 := 0#32
  let v245 : BitVec 1 := Scalar.cmpi .sgt c128_i32_121 c0_i32_124
  let v246 : BitVec 32 := Scalar.extui v245
  let c0_i32_125 : BitVec 32 := 0#32
  let v247 : BitVec 1 := Scalar.cmpi .slt c128_i32_121 c0_i32_125
  let v248 : BitVec 32 := Scalar.extui v247
  let v249 : BitVec 32 := Scalar.subi v246 v248
  let v250 : BitVec 1 := Scalar.cmpi .ne v244 v249
  let v251 : BitVec 32 := Scalar.remsi v238 c128_i32_121
  let c0_i32_126 : BitVec 32 := 0#32
  let v252 : BitVec 1 := Scalar.cmpi .ne v251 c0_i32_126
  let v253 : BitVec 1 := Scalar.andi v250 v252
  let v239 : BitVec 32 := Scalar.divsi v238 c128_i32_121
  let c1_i32_127 : BitVec 32 := 1#32
  let v254 : BitVec 32 := Scalar.subi v239 c1_i32_127
  let v255 : BitVec 32 := Scalar.select v253 v254 v239
  let v266 : Index := Scalar.indexCast v255
  let c128_i32_128 : BitVec 32 := 128#32
  let c0_i32_129 : BitVec 32 := 0#32
  let v256 : BitVec 1 := Scalar.cmpi .eq c128_i32_128 c0_i32_129
  let c1_i32_130 : BitVec 32 := 1#32
  let v257 : BitVec 32 := Scalar.select v256 c1_i32_130 c128_i32_128
  let v258 : BitVec 32 := Scalar.remsi v238 v257
  let c0_i32_132 : BitVec 32 := 0#32
  let v260 : BitVec 1 := Scalar.cmpi .slt v258 c0_i32_132
  let c0_i32_133 : BitVec 32 := 0#32
  let v261 : BitVec 1 := Scalar.cmpi .slt v257 c0_i32_133
  let v262 : BitVec 1 := Scalar.xori v260 v261
  let c0_i32_131 : BitVec 32 := 0#32
  let v259 : BitVec 1 := Scalar.cmpi .ne v258 c0_i32_131
  let v263 : BitVec 1 := Scalar.andi v262 v259
  let v264 : BitVec 32 := Scalar.addi v258 v257
  let v265 : BitVec 32 := Scalar.select v263 v264 v258
  let v267 : Index := Scalar.indexCast v265
  ![v266.toNat, v267.toNat]

def k0_chk14 (v268 : IVec S16 32) : Prop :=
  (∀ a x, ((![v268] : Fin 1 → IVec S16 32) a x).toNat < S100000.size a)
instance k0_chk14.dec : ∀ (v268 : IVec S16 32), Decidable (k0_chk14 v268) := fun v268 => decidable_of_iff' _ (Iff.of_eq (k0_chk14.eq_1 v268))
theorem k0_idx14_inb : ∀ (v268 : IVec S16 32) (k0_hw14 : k0_chk14 v268), ∀ a x, ((![v268] : Fin 1 → IVec S16 32) a x).toNat < S100000.size a := fun v268 k0_hw14 => k0_hw14
def k0_off31 (k0_t3 : Fin k0_t3_loop.trips) : Fin 1 → Nat :=
  let c0_i32_19 : BitVec 32 := 0#32
  let c1_i32_21 : BitVec 32 := 1#32
  let arg12 : BitVec 32 := Scf.iv c0_i32_19 c1_i32_21 k0_t3
  let c8_i32_134 : BitVec 32 := 8#32
  let v270 : BitVec 32 := Scalar.muli arg12 c8_i32_134
  let c5_i32_135 : BitVec 32 := 5#32
  let v271 : BitVec 32 := Scalar.addi v270 c5_i32_135
  let c16_i32_136 : BitVec 32 := 16#32
  let v272 : BitVec 32 := Scalar.muli v271 c16_i32_136
  let v273 : Index := Scalar.indexCast v272
  ![v273.toNat]
def k0_off32 (k0_t3 : Fin k0_t3_loop.trips) : Fin 2 → Nat :=
  let c8192_i32_139 : BitVec 32 := 8192#32
  let c0_i32_19 : BitVec 32 := 0#32
  let c1_i32_21 : BitVec 32 := 1#32
  let arg12 : BitVec 32 := Scf.iv c0_i32_19 c1_i32_21 k0_t3
  let c8_i32_137 : BitVec 32 := 8#32
  let v275 : BitVec 32 := Scalar.muli arg12 c8_i32_137
  let c6_i32 : BitVec 32 := 6#32
  let v276 : BitVec 32 := Scalar.addi v275 c6_i32
  let c16_i32_138 : BitVec 32 := 16#32
  let v277 : BitVec 32 := Scalar.muli v276 c16_i32_138
  let v278 : BitVec 32 := Scalar.addi c8192_i32_139 v277
  let c0_i32_141 : BitVec 32 := 0#32
  let v280 : BitVec 1 := Scalar.cmpi .sgt v278 c0_i32_141
  let v281 : BitVec 32 := Scalar.extui v280
  let c0_i32_142 : BitVec 32 := 0#32
  let v282 : BitVec 1 := Scalar.cmpi .slt v278 c0_i32_142
  let v283 : BitVec 32 := Scalar.extui v282
  let v284 : BitVec 32 := Scalar.subi v281 v283
  let c128_i32_140 : BitVec 32 := 128#32
  let c0_i32_143 : BitVec 32 := 0#32
  let v285 : BitVec 1 := Scalar.cmpi .sgt c128_i32_140 c0_i32_143
  let v286 : BitVec 32 := Scalar.extui v285
  let c0_i32_144 : BitVec 32 := 0#32
  let v287 : BitVec 1 := Scalar.cmpi .slt c128_i32_140 c0_i32_144
  let v288 : BitVec 32 := Scalar.extui v287
  let v289 : BitVec 32 := Scalar.subi v286 v288
  let v290 : BitVec 1 := Scalar.cmpi .ne v284 v289
  let v291 : BitVec 32 := Scalar.remsi v278 c128_i32_140
  let c0_i32_145 : BitVec 32 := 0#32
  let v292 : BitVec 1 := Scalar.cmpi .ne v291 c0_i32_145
  let v293 : BitVec 1 := Scalar.andi v290 v292
  let v279 : BitVec 32 := Scalar.divsi v278 c128_i32_140
  let c1_i32_146 : BitVec 32 := 1#32
  let v294 : BitVec 32 := Scalar.subi v279 c1_i32_146
  let v295 : BitVec 32 := Scalar.select v293 v294 v279
  let v306 : Index := Scalar.indexCast v295
  let c128_i32_147 : BitVec 32 := 128#32
  let c0_i32_148 : BitVec 32 := 0#32
  let v296 : BitVec 1 := Scalar.cmpi .eq c128_i32_147 c0_i32_148
  let c1_i32_149 : BitVec 32 := 1#32
  let v297 : BitVec 32 := Scalar.select v296 c1_i32_149 c128_i32_147
  let v298 : BitVec 32 := Scalar.remsi v278 v297
  let c0_i32_151 : BitVec 32 := 0#32
  let v300 : BitVec 1 := Scalar.cmpi .slt v298 c0_i32_151
  let c0_i32_152 : BitVec 32 := 0#32
  let v301 : BitVec 1 := Scalar.cmpi .slt v297 c0_i32_152
  let v302 : BitVec 1 := Scalar.xori v300 v301
  let c0_i32_150 : BitVec 32 := 0#32
  let v299 : BitVec 1 := Scalar.cmpi .ne v298 c0_i32_150
  let v303 : BitVec 1 := Scalar.andi v302 v299
  let v304 : BitVec 32 := Scalar.addi v298 v297
  let v305 : BitVec 32 := Scalar.select v303 v304 v298
  let v307 : Index := Scalar.indexCast v305
  ![v306.toNat, v307.toNat]

def k0_chk15 (v308 : IVec S16 32) : Prop :=
  (∀ a x, ((![v308] : Fin 1 → IVec S16 32) a x).toNat < S100000.size a)
instance k0_chk15.dec : ∀ (v308 : IVec S16 32), Decidable (k0_chk15 v308) := fun v308 => decidable_of_iff' _ (Iff.of_eq (k0_chk15.eq_1 v308))
theorem k0_idx15_inb : ∀ (v308 : IVec S16 32) (k0_hw15 : k0_chk15 v308), ∀ a x, ((![v308] : Fin 1 → IVec S16 32) a x).toNat < S100000.size a := fun v308 k0_hw15 => k0_hw15
def k0_off33 (k0_t3 : Fin k0_t3_loop.trips) : Fin 1 → Nat :=
  let c0_i32_19 : BitVec 32 := 0#32
  let c1_i32_21 : BitVec 32 := 1#32
  let arg12 : BitVec 32 := Scf.iv c0_i32_19 c1_i32_21 k0_t3
  let c8_i32_153 : BitVec 32 := 8#32
  let v310 : BitVec 32 := Scalar.muli arg12 c8_i32_153
  let c6_i32_154 : BitVec 32 := 6#32
  let v311 : BitVec 32 := Scalar.addi v310 c6_i32_154
  let c16_i32_155 : BitVec 32 := 16#32
  let v312 : BitVec 32 := Scalar.muli v311 c16_i32_155
  let v313 : Index := Scalar.indexCast v312
  ![v313.toNat]
def k0_off34 (k0_t3 : Fin k0_t3_loop.trips) : Fin 2 → Nat :=
  let c8192_i32_158 : BitVec 32 := 8192#32
  let c0_i32_19 : BitVec 32 := 0#32
  let c1_i32_21 : BitVec 32 := 1#32
  let arg12 : BitVec 32 := Scf.iv c0_i32_19 c1_i32_21 k0_t3
  let c8_i32_156 : BitVec 32 := 8#32
  let v315 : BitVec 32 := Scalar.muli arg12 c8_i32_156
  let c7_i32 : BitVec 32 := 7#32
  let v316 : BitVec 32 := Scalar.addi v315 c7_i32
  let c16_i32_157 : BitVec 32 := 16#32
  let v317 : BitVec 32 := Scalar.muli v316 c16_i32_157
  let v318 : BitVec 32 := Scalar.addi c8192_i32_158 v317
  let c0_i32_160 : BitVec 32 := 0#32
  let v320 : BitVec 1 := Scalar.cmpi .sgt v318 c0_i32_160
  let v321 : BitVec 32 := Scalar.extui v320
  let c0_i32_161 : BitVec 32 := 0#32
  let v322 : BitVec 1 := Scalar.cmpi .slt v318 c0_i32_161
  let v323 : BitVec 32 := Scalar.extui v322
  let v324 : BitVec 32 := Scalar.subi v321 v323
  let c128_i32_159 : BitVec 32 := 128#32
  let c0_i32_162 : BitVec 32 := 0#32
  let v325 : BitVec 1 := Scalar.cmpi .sgt c128_i32_159 c0_i32_162
  let v326 : BitVec 32 := Scalar.extui v325
  let c0_i32_163 : BitVec 32 := 0#32
  let v327 : BitVec 1 := Scalar.cmpi .slt c128_i32_159 c0_i32_163
  let v328 : BitVec 32 := Scalar.extui v327
  let v329 : BitVec 32 := Scalar.subi v326 v328
  let v330 : BitVec 1 := Scalar.cmpi .ne v324 v329
  let v331 : BitVec 32 := Scalar.remsi v318 c128_i32_159
  let c0_i32_164 : BitVec 32 := 0#32
  let v332 : BitVec 1 := Scalar.cmpi .ne v331 c0_i32_164
  let v333 : BitVec 1 := Scalar.andi v330 v332
  let v319 : BitVec 32 := Scalar.divsi v318 c128_i32_159
  let c1_i32_165 : BitVec 32 := 1#32
  let v334 : BitVec 32 := Scalar.subi v319 c1_i32_165
  let v335 : BitVec 32 := Scalar.select v333 v334 v319
  let v346 : Index := Scalar.indexCast v335
  let c128_i32_166 : BitVec 32 := 128#32
  let c0_i32_167 : BitVec 32 := 0#32
  let v336 : BitVec 1 := Scalar.cmpi .eq c128_i32_166 c0_i32_167
  let c1_i32_168 : BitVec 32 := 1#32
  let v337 : BitVec 32 := Scalar.select v336 c1_i32_168 c128_i32_166
  let v338 : BitVec 32 := Scalar.remsi v318 v337
  let c0_i32_170 : BitVec 32 := 0#32
  let v340 : BitVec 1 := Scalar.cmpi .slt v338 c0_i32_170
  let c0_i32_171 : BitVec 32 := 0#32
  let v341 : BitVec 1 := Scalar.cmpi .slt v337 c0_i32_171
  let v342 : BitVec 1 := Scalar.xori v340 v341
  let c0_i32_169 : BitVec 32 := 0#32
  let v339 : BitVec 1 := Scalar.cmpi .ne v338 c0_i32_169
  let v343 : BitVec 1 := Scalar.andi v342 v339
  let v344 : BitVec 32 := Scalar.addi v338 v337
  let v345 : BitVec 32 := Scalar.select v343 v344 v338
  let v347 : Index := Scalar.indexCast v345
  ![v346.toNat, v347.toNat]

def k0_chk16 (v348 : IVec S16 32) : Prop :=
  (∀ a x, ((![v348] : Fin 1 → IVec S16 32) a x).toNat < S100000.size a)
instance k0_chk16.dec : ∀ (v348 : IVec S16 32), Decidable (k0_chk16 v348) := fun v348 => decidable_of_iff' _ (Iff.of_eq (k0_chk16.eq_1 v348))
theorem k0_idx16_inb : ∀ (v348 : IVec S16 32) (k0_hw16 : k0_chk16 v348), ∀ a x, ((![v348] : Fin 1 → IVec S16 32) a x).toNat < S100000.size a := fun v348 k0_hw16 => k0_hw16
def k0_off35 (k0_t3 : Fin k0_t3_loop.trips) : Fin 1 → Nat :=
  let c0_i32_19 : BitVec 32 := 0#32
  let c1_i32_21 : BitVec 32 := 1#32
  let arg12 : BitVec 32 := Scf.iv c0_i32_19 c1_i32_21 k0_t3
  let c8_i32_172 : BitVec 32 := 8#32
  let v350 : BitVec 32 := Scalar.muli arg12 c8_i32_172
  let c7_i32_173 : BitVec 32 := 7#32
  let v351 : BitVec 32 := Scalar.addi v350 c7_i32_173
  let c16_i32_174 : BitVec 32 := 16#32
  let v352 : BitVec 32 := Scalar.muli v351 c16_i32_174
  let v353 : Index := Scalar.indexCast v352
  ![v353.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v3 : BitVec 1 := Scalar.cmpi .slt v1 c26_i32
  let v4 : BitVec 32 := Scalar.extui v3
  let c0_i32_2 : BitVec 32 := 0#32
  let v5 : BitVec 1 := Scalar.cmpi .ne v4 c0_i32_2
  v5

def k0_off36 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_16_r3 : BitVec 32 := 0#32
  let c0_i32_17_r3 : BitVec 32 := 0#32
  ![v1.toNat, 0, 0]
def k0_off37 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  ![v1.toNat, 0]
@[reducible] def k0_t4_loop : Scf.Loop 32 :=
  let c0_i32_8 : BitVec 32 := 0#32
  let c64_i32 : BitVec 32 := 64#32
  let v14 : BitVec 32 := Scalar.addi c0_i32_8 c64_i32
  let c1_i32_9 : BitVec 32 := 1#32
  ⟨c0_i32_8, v14, c1_i32_9⟩
def k0_off38 (k0_t4 : Fin k0_t4_loop.trips) : Fin 2 → Nat :=
  let c0_i32_17 : BitVec 32 := 0#32
  let c0_i32_8 : BitVec 32 := 0#32
  let c1_i32_9 : BitVec 32 := 1#32
  let arg11 : BitVec 32 := Scf.iv c0_i32_8 c1_i32_9 k0_t4
  let c8_i32 : BitVec 32 := 8#32
  let v16 : BitVec 32 := Scalar.muli arg11 c8_i32
  let c0_i32_16 : BitVec 32 := 0#32
  let v17 : BitVec 32 := Scalar.addi v16 c0_i32_16
  let c16_i32 : BitVec 32 := 16#32
  let v18 : BitVec 32 := Scalar.muli v17 c16_i32
  let v19 : BitVec 32 := Scalar.addi c0_i32_17 v18
  let c0_i32_18 : BitVec 32 := 0#32
  let v21 : BitVec 1 := Scalar.cmpi .sgt v19 c0_i32_18
  let v22 : BitVec 32 := Scalar.extui v21
  let c0_i32_19 : BitVec 32 := 0#32
  let v23 : BitVec 1 := Scalar.cmpi .slt v19 c0_i32_19
  let v24 : BitVec 32 := Scalar.extui v23
  let v25 : BitVec 32 := Scalar.subi v22 v24
  let c128_i32 : BitVec 32 := 128#32
  let c0_i32_20 : BitVec 32 := 0#32
  let v26 : BitVec 1 := Scalar.cmpi .sgt c128_i32 c0_i32_20
  let v27 : BitVec 32 := Scalar.extui v26
  let c0_i32_21 : BitVec 32 := 0#32
  let v28 : BitVec 1 := Scalar.cmpi .slt c128_i32 c0_i32_21
  let v29 : BitVec 32 := Scalar.extui v28
  let v30 : BitVec 32 := Scalar.subi v27 v29
  let v31 : BitVec 1 := Scalar.cmpi .ne v25 v30
  let v32 : BitVec 32 := Scalar.remsi v19 c128_i32
  let c0_i32_22 : BitVec 32 := 0#32
  let v33 : BitVec 1 := Scalar.cmpi .ne v32 c0_i32_22
  let v34 : BitVec 1 := Scalar.andi v31 v33
  let v20 : BitVec 32 := Scalar.divsi v19 c128_i32
  let c1_i32_23 : BitVec 32 := 1#32
  let v35 : BitVec 32 := Scalar.subi v20 c1_i32_23
  let v36 : BitVec 32 := Scalar.select v34 v35 v20
  let v47 : Index := Scalar.indexCast v36
  let c128_i32_24 : BitVec 32 := 128#32
  let c0_i32_25 : BitVec 32 := 0#32
  let v37 : BitVec 1 := Scalar.cmpi .eq c128_i32_24 c0_i32_25
  let c1_i32_26 : BitVec 32 := 1#32
  let v38 : BitVec 32 := Scalar.select v37 c1_i32_26 c128_i32_24
  let v39 : BitVec 32 := Scalar.remsi v19 v38
  let c0_i32_28 : BitVec 32 := 0#32
  let v41 : BitVec 1 := Scalar.cmpi .slt v39 c0_i32_28
  let c0_i32_29 : BitVec 32 := 0#32
  let v42 : BitVec 1 := Scalar.cmpi .slt v38 c0_i32_29
  let v43 : BitVec 1 := Scalar.xori v41 v42
  let c0_i32_27 : BitVec 32 := 0#32
  let v40 : BitVec 1 := Scalar.cmpi .ne v39 c0_i32_27
  let v44 : BitVec 1 := Scalar.andi v43 v40
  let v45 : BitVec 32 := Scalar.addi v39 v38
  let v46 : BitVec 32 := Scalar.select v44 v45 v39
  let v48 : Index := Scalar.indexCast v46
  ![v47.toNat, v48.toNat]

def k0_chk17 (i : grid0.Coords) (v49 : IVec S16 32) : Prop :=
  (∀ (k0_h1 : k0_cond1 i = 1#1), ∀ a x, ((![v49] : Fin 1 → IVec S16 32) a x).toNat < S100000.size a)
instance k0_chk17.dec : ∀ (i : grid0.Coords) (v49 : IVec S16 32), Decidable (k0_chk17 i v49) := fun i v49 => decidable_of_iff' _ (Iff.of_eq (k0_chk17.eq_1 i v49))
theorem k0_idx17_inb : ∀ (i : grid0.Coords) (v49 : IVec S16 32) (k0_hw17 : k0_chk17 i v49), ∀ (k0_h1 : k0_cond1 i = 1#1), ∀ a x, ((![v49] : Fin 1 → IVec S16 32) a x).toNat < S100000.size a := fun i v49 k0_hw17 k0_h1 => k0_hw17 k0_h1
def k0_off39 (k0_t4 : Fin k0_t4_loop.trips) : Fin 1 → Nat :=
  let c0_i32_8 : BitVec 32 := 0#32
  let c1_i32_9 : BitVec 32 := 1#32
  let arg11 : BitVec 32 := Scf.iv c0_i32_8 c1_i32_9 k0_t4
  let c8_i32_30 : BitVec 32 := 8#32
  let v51 : BitVec 32 := Scalar.muli arg11 c8_i32_30
  let c0_i32_31 : BitVec 32 := 0#32
  let v52 : BitVec 32 := Scalar.addi v51 c0_i32_31
  let c16_i32_32 : BitVec 32 := 16#32
  let v53 : BitVec 32 := Scalar.muli v52 c16_i32_32
  let v54 : Index := Scalar.indexCast v53
  ![v54.toNat]
def k0_off40 (k0_t4 : Fin k0_t4_loop.trips) : Fin 2 → Nat :=
  let c0_i32_36 : BitVec 32 := 0#32
  let c0_i32_8 : BitVec 32 := 0#32
  let c1_i32_9 : BitVec 32 := 1#32
  let arg11 : BitVec 32 := Scf.iv c0_i32_8 c1_i32_9 k0_t4
  let c8_i32_33 : BitVec 32 := 8#32
  let v56 : BitVec 32 := Scalar.muli arg11 c8_i32_33
  let c1_i32_34 : BitVec 32 := 1#32
  let v57 : BitVec 32 := Scalar.addi v56 c1_i32_34
  let c16_i32_35 : BitVec 32 := 16#32
  let v58 : BitVec 32 := Scalar.muli v57 c16_i32_35
  let v59 : BitVec 32 := Scalar.addi c0_i32_36 v58
  let c0_i32_38 : BitVec 32 := 0#32
  let v61 : BitVec 1 := Scalar.cmpi .sgt v59 c0_i32_38
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c128_i32_37 : BitVec 32 := 128#32
  let c0_i32_40 : BitVec 32 := 0#32
  let v66 : BitVec 1 := Scalar.cmpi .sgt c128_i32_37 c0_i32_40
  let v67 : BitVec 32 := Scalar.extui v66
  let c0_i32_41 : BitVec 32 := 0#32
  let v68 : BitVec 1 := Scalar.cmpi .slt c128_i32_37 c0_i32_41
  let v69 : BitVec 32 := Scalar.extui v68
  let v70 : BitVec 32 := Scalar.subi v67 v69
  let v71 : BitVec 1 := Scalar.cmpi .ne v65 v70
  let v72 : BitVec 32 := Scalar.remsi v59 c128_i32_37
  let c0_i32_42 : BitVec 32 := 0#32
  let v73 : BitVec 1 := Scalar.cmpi .ne v72 c0_i32_42
  let v74 : BitVec 1 := Scalar.andi v71 v73
  let v60 : BitVec 32 := Scalar.divsi v59 c128_i32_37
  let c1_i32_43 : BitVec 32 := 1#32
  let v75 : BitVec 32 := Scalar.subi v60 c1_i32_43
  let v76 : BitVec 32 := Scalar.select v74 v75 v60
  let v87 : Index := Scalar.indexCast v76
  let c128_i32_44 : BitVec 32 := 128#32
  let c0_i32_45 : BitVec 32 := 0#32
  let v77 : BitVec 1 := Scalar.cmpi .eq c128_i32_44 c0_i32_45
  let c1_i32_46 : BitVec 32 := 1#32
  let v78 : BitVec 32 := Scalar.select v77 c1_i32_46 c128_i32_44
  let v79 : BitVec 32 := Scalar.remsi v59 v78
  let c0_i32_48 : BitVec 32 := 0#32
  let v81 : BitVec 1 := Scalar.cmpi .slt v79 c0_i32_48
  let c0_i32_49 : BitVec 32 := 0#32
  let v82 : BitVec 1 := Scalar.cmpi .slt v78 c0_i32_49
  let v83 : BitVec 1 := Scalar.xori v81 v82
  let c0_i32_47 : BitVec 32 := 0#32
  let v80 : BitVec 1 := Scalar.cmpi .ne v79 c0_i32_47
  let v84 : BitVec 1 := Scalar.andi v83 v80
  let v85 : BitVec 32 := Scalar.addi v79 v78
  let v86 : BitVec 32 := Scalar.select v84 v85 v79
  let v88 : Index := Scalar.indexCast v86
  ![v87.toNat, v88.toNat]

def k0_chk18 (i : grid0.Coords) (v89 : IVec S16 32) : Prop :=
  (∀ (k0_h1 : k0_cond1 i = 1#1), ∀ a x, ((![v89] : Fin 1 → IVec S16 32) a x).toNat < S100000.size a)
instance k0_chk18.dec : ∀ (i : grid0.Coords) (v89 : IVec S16 32), Decidable (k0_chk18 i v89) := fun i v89 => decidable_of_iff' _ (Iff.of_eq (k0_chk18.eq_1 i v89))
theorem k0_idx18_inb : ∀ (i : grid0.Coords) (v89 : IVec S16 32) (k0_hw18 : k0_chk18 i v89), ∀ (k0_h1 : k0_cond1 i = 1#1), ∀ a x, ((![v89] : Fin 1 → IVec S16 32) a x).toNat < S100000.size a := fun i v89 k0_hw18 k0_h1 => k0_hw18 k0_h1
def k0_off41 (k0_t4 : Fin k0_t4_loop.trips) : Fin 1 → Nat :=
  let c0_i32_8 : BitVec 32 := 0#32
  let c1_i32_9 : BitVec 32 := 1#32
  let arg11 : BitVec 32 := Scf.iv c0_i32_8 c1_i32_9 k0_t4
  let c8_i32_50 : BitVec 32 := 8#32
  let v91 : BitVec 32 := Scalar.muli arg11 c8_i32_50
  let c1_i32_51 : BitVec 32 := 1#32
  let v92 : BitVec 32 := Scalar.addi v91 c1_i32_51
  let c16_i32_52 : BitVec 32 := 16#32
  let v93 : BitVec 32 := Scalar.muli v92 c16_i32_52
  let v94 : Index := Scalar.indexCast v93
  ![v94.toNat]
def k0_off42 (k0_t4 : Fin k0_t4_loop.trips) : Fin 2 → Nat :=
  let c0_i32_56 : BitVec 32 := 0#32
  let c0_i32_8 : BitVec 32 := 0#32
  let c1_i32_9 : BitVec 32 := 1#32
  let arg11 : BitVec 32 := Scf.iv c0_i32_8 c1_i32_9 k0_t4
  let c8_i32_53 : BitVec 32 := 8#32
  let v96 : BitVec 32 := Scalar.muli arg11 c8_i32_53
  let c2_i32_54 : BitVec 32 := 2#32
  let v97 : BitVec 32 := Scalar.addi v96 c2_i32_54
  let c16_i32_55 : BitVec 32 := 16#32
  let v98 : BitVec 32 := Scalar.muli v97 c16_i32_55
  let v99 : BitVec 32 := Scalar.addi c0_i32_56 v98
  let c0_i32_58 : BitVec 32 := 0#32
  let v101 : BitVec 1 := Scalar.cmpi .sgt v99 c0_i32_58
  let v102 : BitVec 32 := Scalar.extui v101
  let c0_i32_59 : BitVec 32 := 0#32
  let v103 : BitVec 1 := Scalar.cmpi .slt v99 c0_i32_59
  let v104 : BitVec 32 := Scalar.extui v103
  let v105 : BitVec 32 := Scalar.subi v102 v104
  let c128_i32_57 : BitVec 32 := 128#32
  let c0_i32_60 : BitVec 32 := 0#32
  let v106 : BitVec 1 := Scalar.cmpi .sgt c128_i32_57 c0_i32_60
  let v107 : BitVec 32 := Scalar.extui v106
  let c0_i32_61 : BitVec 32 := 0#32
  let v108 : BitVec 1 := Scalar.cmpi .slt c128_i32_57 c0_i32_61
  let v109 : BitVec 32 := Scalar.extui v108
  let v110 : BitVec 32 := Scalar.subi v107 v109
  let v111 : BitVec 1 := Scalar.cmpi .ne v105 v110
  let v112 : BitVec 32 := Scalar.remsi v99 c128_i32_57
  let c0_i32_62 : BitVec 32 := 0#32
  let v113 : BitVec 1 := Scalar.cmpi .ne v112 c0_i32_62
  let v114 : BitVec 1 := Scalar.andi v111 v113
  let v100 : BitVec 32 := Scalar.divsi v99 c128_i32_57
  let c1_i32_63 : BitVec 32 := 1#32
  let v115 : BitVec 32 := Scalar.subi v100 c1_i32_63
  let v116 : BitVec 32 := Scalar.select v114 v115 v100
  let v127 : Index := Scalar.indexCast v116
  let c128_i32_64 : BitVec 32 := 128#32
  let c0_i32_65 : BitVec 32 := 0#32
  let v117 : BitVec 1 := Scalar.cmpi .eq c128_i32_64 c0_i32_65
  let c1_i32_66 : BitVec 32 := 1#32
  let v118 : BitVec 32 := Scalar.select v117 c1_i32_66 c128_i32_64
  let v119 : BitVec 32 := Scalar.remsi v99 v118
  let c0_i32_68 : BitVec 32 := 0#32
  let v121 : BitVec 1 := Scalar.cmpi .slt v119 c0_i32_68
  let c0_i32_69 : BitVec 32 := 0#32
  let v122 : BitVec 1 := Scalar.cmpi .slt v118 c0_i32_69
  let v123 : BitVec 1 := Scalar.xori v121 v122
  let c0_i32_67 : BitVec 32 := 0#32
  let v120 : BitVec 1 := Scalar.cmpi .ne v119 c0_i32_67
  let v124 : BitVec 1 := Scalar.andi v123 v120
  let v125 : BitVec 32 := Scalar.addi v119 v118
  let v126 : BitVec 32 := Scalar.select v124 v125 v119
  let v128 : Index := Scalar.indexCast v126
  ![v127.toNat, v128.toNat]

def k0_chk19 (i : grid0.Coords) (v129 : IVec S16 32) : Prop :=
  (∀ (k0_h1 : k0_cond1 i = 1#1), ∀ a x, ((![v129] : Fin 1 → IVec S16 32) a x).toNat < S100000.size a)
instance k0_chk19.dec : ∀ (i : grid0.Coords) (v129 : IVec S16 32), Decidable (k0_chk19 i v129) := fun i v129 => decidable_of_iff' _ (Iff.of_eq (k0_chk19.eq_1 i v129))
theorem k0_idx19_inb : ∀ (i : grid0.Coords) (v129 : IVec S16 32) (k0_hw19 : k0_chk19 i v129), ∀ (k0_h1 : k0_cond1 i = 1#1), ∀ a x, ((![v129] : Fin 1 → IVec S16 32) a x).toNat < S100000.size a := fun i v129 k0_hw19 k0_h1 => k0_hw19 k0_h1
def k0_off43 (k0_t4 : Fin k0_t4_loop.trips) : Fin 1 → Nat :=
  let c0_i32_8 : BitVec 32 := 0#32
  let c1_i32_9 : BitVec 32 := 1#32
  let arg11 : BitVec 32 := Scf.iv c0_i32_8 c1_i32_9 k0_t4
  let c8_i32_70 : BitVec 32 := 8#32
  let v131 : BitVec 32 := Scalar.muli arg11 c8_i32_70
  let c2_i32_71 : BitVec 32 := 2#32
  let v132 : BitVec 32 := Scalar.addi v131 c2_i32_71
  let c16_i32_72 : BitVec 32 := 16#32
  let v133 : BitVec 32 := Scalar.muli v132 c16_i32_72
  let v134 : Index := Scalar.indexCast v133
  ![v134.toNat]
def k0_off44 (k0_t4 : Fin k0_t4_loop.trips) : Fin 2 → Nat :=
  let c0_i32_75 : BitVec 32 := 0#32
  let c0_i32_8 : BitVec 32 := 0#32
  let c1_i32_9 : BitVec 32 := 1#32
  let arg11 : BitVec 32 := Scf.iv c0_i32_8 c1_i32_9 k0_t4
  let c8_i32_73 : BitVec 32 := 8#32
  let v136 : BitVec 32 := Scalar.muli arg11 c8_i32_73
  let c3_i32 : BitVec 32 := 3#32
  let v137 : BitVec 32 := Scalar.addi v136 c3_i32
  let c16_i32_74 : BitVec 32 := 16#32
  let v138 : BitVec 32 := Scalar.muli v137 c16_i32_74
  let v139 : BitVec 32 := Scalar.addi c0_i32_75 v138
  let c0_i32_77 : BitVec 32 := 0#32
  let v141 : BitVec 1 := Scalar.cmpi .sgt v139 c0_i32_77
  let v142 : BitVec 32 := Scalar.extui v141
  let c0_i32_78 : BitVec 32 := 0#32
  let v143 : BitVec 1 := Scalar.cmpi .slt v139 c0_i32_78
  let v144 : BitVec 32 := Scalar.extui v143
  let v145 : BitVec 32 := Scalar.subi v142 v144
  let c128_i32_76 : BitVec 32 := 128#32
  let c0_i32_79 : BitVec 32 := 0#32
  let v146 : BitVec 1 := Scalar.cmpi .sgt c128_i32_76 c0_i32_79
  let v147 : BitVec 32 := Scalar.extui v146
  let c0_i32_80 : BitVec 32 := 0#32
  let v148 : BitVec 1 := Scalar.cmpi .slt c128_i32_76 c0_i32_80
  let v149 : BitVec 32 := Scalar.extui v148
  let v150 : BitVec 32 := Scalar.subi v147 v149
  let v151 : BitVec 1 := Scalar.cmpi .ne v145 v150
  let v152 : BitVec 32 := Scalar.remsi v139 c128_i32_76
  let c0_i32_81 : BitVec 32 := 0#32
  let v153 : BitVec 1 := Scalar.cmpi .ne v152 c0_i32_81
  let v154 : BitVec 1 := Scalar.andi v151 v153
  let v140 : BitVec 32 := Scalar.divsi v139 c128_i32_76
  let c1_i32_82 : BitVec 32 := 1#32
  let v155 : BitVec 32 := Scalar.subi v140 c1_i32_82
  let v156 : BitVec 32 := Scalar.select v154 v155 v140
  let v167 : Index := Scalar.indexCast v156
  let c128_i32_83 : BitVec 32 := 128#32
  let c0_i32_84 : BitVec 32 := 0#32
  let v157 : BitVec 1 := Scalar.cmpi .eq c128_i32_83 c0_i32_84
  let c1_i32_85 : BitVec 32 := 1#32
  let v158 : BitVec 32 := Scalar.select v157 c1_i32_85 c128_i32_83
  let v159 : BitVec 32 := Scalar.remsi v139 v158
  let c0_i32_87 : BitVec 32 := 0#32
  let v161 : BitVec 1 := Scalar.cmpi .slt v159 c0_i32_87
  let c0_i32_88 : BitVec 32 := 0#32
  let v162 : BitVec 1 := Scalar.cmpi .slt v158 c0_i32_88
  let v163 : BitVec 1 := Scalar.xori v161 v162
  let c0_i32_86 : BitVec 32 := 0#32
  let v160 : BitVec 1 := Scalar.cmpi .ne v159 c0_i32_86
  let v164 : BitVec 1 := Scalar.andi v163 v160
  let v165 : BitVec 32 := Scalar.addi v159 v158
  let v166 : BitVec 32 := Scalar.select v164 v165 v159
  let v168 : Index := Scalar.indexCast v166
  ![v167.toNat, v168.toNat]

def k0_chk20 (i : grid0.Coords) (v169 : IVec S16 32) : Prop :=
  (∀ (k0_h1 : k0_cond1 i = 1#1), ∀ a x, ((![v169] : Fin 1 → IVec S16 32) a x).toNat < S100000.size a)
instance k0_chk20.dec : ∀ (i : grid0.Coords) (v169 : IVec S16 32), Decidable (k0_chk20 i v169) := fun i v169 => decidable_of_iff' _ (Iff.of_eq (k0_chk20.eq_1 i v169))
theorem k0_idx20_inb : ∀ (i : grid0.Coords) (v169 : IVec S16 32) (k0_hw20 : k0_chk20 i v169), ∀ (k0_h1 : k0_cond1 i = 1#1), ∀ a x, ((![v169] : Fin 1 → IVec S16 32) a x).toNat < S100000.size a := fun i v169 k0_hw20 k0_h1 => k0_hw20 k0_h1
def k0_off45 (k0_t4 : Fin k0_t4_loop.trips) : Fin 1 → Nat :=
  let c0_i32_8 : BitVec 32 := 0#32
  let c1_i32_9 : BitVec 32 := 1#32
  let arg11 : BitVec 32 := Scf.iv c0_i32_8 c1_i32_9 k0_t4
  let c8_i32_89 : BitVec 32 := 8#32
  let v171 : BitVec 32 := Scalar.muli arg11 c8_i32_89
  let c3_i32_90 : BitVec 32 := 3#32
  let v172 : BitVec 32 := Scalar.addi v171 c3_i32_90
  let c16_i32_91 : BitVec 32 := 16#32
  let v173 : BitVec 32 := Scalar.muli v172 c16_i32_91
  let v174 : Index := Scalar.indexCast v173
  ![v174.toNat]
def k0_off46 (k0_t4 : Fin k0_t4_loop.trips) : Fin 2 → Nat :=
  let c0_i32_94 : BitVec 32 := 0#32
  let c0_i32_8 : BitVec 32 := 0#32
  let c1_i32_9 : BitVec 32 := 1#32
  let arg11 : BitVec 32 := Scf.iv c0_i32_8 c1_i32_9 k0_t4
  let c8_i32_92 : BitVec 32 := 8#32
  let v176 : BitVec 32 := Scalar.muli arg11 c8_i32_92
  let c4_i32 : BitVec 32 := 4#32
  let v177 : BitVec 32 := Scalar.addi v176 c4_i32
  let c16_i32_93 : BitVec 32 := 16#32
  let v178 : BitVec 32 := Scalar.muli v177 c16_i32_93
  let v179 : BitVec 32 := Scalar.addi c0_i32_94 v178
  let c0_i32_96 : BitVec 32 := 0#32
  let v181 : BitVec 1 := Scalar.cmpi .sgt v179 c0_i32_96
  let v182 : BitVec 32 := Scalar.extui v181
  let c0_i32_97 : BitVec 32 := 0#32
  let v183 : BitVec 1 := Scalar.cmpi .slt v179 c0_i32_97
  let v184 : BitVec 32 := Scalar.extui v183
  let v185 : BitVec 32 := Scalar.subi v182 v184
  let c128_i32_95 : BitVec 32 := 128#32
  let c0_i32_98 : BitVec 32 := 0#32
  let v186 : BitVec 1 := Scalar.cmpi .sgt c128_i32_95 c0_i32_98
  let v187 : BitVec 32 := Scalar.extui v186
  let c0_i32_99 : BitVec 32 := 0#32
  let v188 : BitVec 1 := Scalar.cmpi .slt c128_i32_95 c0_i32_99
  let v189 : BitVec 32 := Scalar.extui v188
  let v190 : BitVec 32 := Scalar.subi v187 v189
  let v191 : BitVec 1 := Scalar.cmpi .ne v185 v190
  let v192 : BitVec 32 := Scalar.remsi v179 c128_i32_95
  let c0_i32_100 : BitVec 32 := 0#32
  let v193 : BitVec 1 := Scalar.cmpi .ne v192 c0_i32_100
  let v194 : BitVec 1 := Scalar.andi v191 v193
  let v180 : BitVec 32 := Scalar.divsi v179 c128_i32_95
  let c1_i32_101 : BitVec 32 := 1#32
  let v195 : BitVec 32 := Scalar.subi v180 c1_i32_101
  let v196 : BitVec 32 := Scalar.select v194 v195 v180
  let v207 : Index := Scalar.indexCast v196
  let c128_i32_102 : BitVec 32 := 128#32
  let c0_i32_103 : BitVec 32 := 0#32
  let v197 : BitVec 1 := Scalar.cmpi .eq c128_i32_102 c0_i32_103
  let c1_i32_104 : BitVec 32 := 1#32
  let v198 : BitVec 32 := Scalar.select v197 c1_i32_104 c128_i32_102
  let v199 : BitVec 32 := Scalar.remsi v179 v198
  let c0_i32_106 : BitVec 32 := 0#32
  let v201 : BitVec 1 := Scalar.cmpi .slt v199 c0_i32_106
  let c0_i32_107 : BitVec 32 := 0#32
  let v202 : BitVec 1 := Scalar.cmpi .slt v198 c0_i32_107
  let v203 : BitVec 1 := Scalar.xori v201 v202
  let c0_i32_105 : BitVec 32 := 0#32
  let v200 : BitVec 1 := Scalar.cmpi .ne v199 c0_i32_105
  let v204 : BitVec 1 := Scalar.andi v203 v200
  let v205 : BitVec 32 := Scalar.addi v199 v198
  let v206 : BitVec 32 := Scalar.select v204 v205 v199
  let v208 : Index := Scalar.indexCast v206
  ![v207.toNat, v208.toNat]

def k0_chk21 (i : grid0.Coords) (v209 : IVec S16 32) : Prop :=
  (∀ (k0_h1 : k0_cond1 i = 1#1), ∀ a x, ((![v209] : Fin 1 → IVec S16 32) a x).toNat < S100000.size a)
instance k0_chk21.dec : ∀ (i : grid0.Coords) (v209 : IVec S16 32), Decidable (k0_chk21 i v209) := fun i v209 => decidable_of_iff' _ (Iff.of_eq (k0_chk21.eq_1 i v209))
theorem k0_idx21_inb : ∀ (i : grid0.Coords) (v209 : IVec S16 32) (k0_hw21 : k0_chk21 i v209), ∀ (k0_h1 : k0_cond1 i = 1#1), ∀ a x, ((![v209] : Fin 1 → IVec S16 32) a x).toNat < S100000.size a := fun i v209 k0_hw21 k0_h1 => k0_hw21 k0_h1
def k0_off47 (k0_t4 : Fin k0_t4_loop.trips) : Fin 1 → Nat :=
  let c0_i32_8 : BitVec 32 := 0#32
  let c1_i32_9 : BitVec 32 := 1#32
  let arg11 : BitVec 32 := Scf.iv c0_i32_8 c1_i32_9 k0_t4
  let c8_i32_108 : BitVec 32 := 8#32
  let v211 : BitVec 32 := Scalar.muli arg11 c8_i32_108
  let c4_i32_109 : BitVec 32 := 4#32
  let v212 : BitVec 32 := Scalar.addi v211 c4_i32_109
  let c16_i32_110 : BitVec 32 := 16#32
  let v213 : BitVec 32 := Scalar.muli v212 c16_i32_110
  let v214 : Index := Scalar.indexCast v213
  ![v214.toNat]
def k0_off48 (k0_t4 : Fin k0_t4_loop.trips) : Fin 2 → Nat :=
  let c0_i32_113 : BitVec 32 := 0#32
  let c0_i32_8 : BitVec 32 := 0#32
  let c1_i32_9 : BitVec 32 := 1#32
  let arg11 : BitVec 32 := Scf.iv c0_i32_8 c1_i32_9 k0_t4
  let c8_i32_111 : BitVec 32 := 8#32
  let v216 : BitVec 32 := Scalar.muli arg11 c8_i32_111
  let c5_i32 : BitVec 32 := 5#32
  let v217 : BitVec 32 := Scalar.addi v216 c5_i32
  let c16_i32_112 : BitVec 32 := 16#32
  let v218 : BitVec 32 := Scalar.muli v217 c16_i32_112
  let v219 : BitVec 32 := Scalar.addi c0_i32_113 v218
  let c0_i32_115 : BitVec 32 := 0#32
  let v221 : BitVec 1 := Scalar.cmpi .sgt v219 c0_i32_115
  let v222 : BitVec 32 := Scalar.extui v221
  let c0_i32_116 : BitVec 32 := 0#32
  let v223 : BitVec 1 := Scalar.cmpi .slt v219 c0_i32_116
  let v224 : BitVec 32 := Scalar.extui v223
  let v225 : BitVec 32 := Scalar.subi v222 v224
  let c128_i32_114 : BitVec 32 := 128#32
  let c0_i32_117 : BitVec 32 := 0#32
  let v226 : BitVec 1 := Scalar.cmpi .sgt c128_i32_114 c0_i32_117
  let v227 : BitVec 32 := Scalar.extui v226
  let c0_i32_118 : BitVec 32 := 0#32
  let v228 : BitVec 1 := Scalar.cmpi .slt c128_i32_114 c0_i32_118
  let v229 : BitVec 32 := Scalar.extui v228
  let v230 : BitVec 32 := Scalar.subi v227 v229
  let v231 : BitVec 1 := Scalar.cmpi .ne v225 v230
  let v232 : BitVec 32 := Scalar.remsi v219 c128_i32_114
  let c0_i32_119 : BitVec 32 := 0#32
  let v233 : BitVec 1 := Scalar.cmpi .ne v232 c0_i32_119
  let v234 : BitVec 1 := Scalar.andi v231 v233
  let v220 : BitVec 32 := Scalar.divsi v219 c128_i32_114
  let c1_i32_120 : BitVec 32 := 1#32
  let v235 : BitVec 32 := Scalar.subi v220 c1_i32_120
  let v236 : BitVec 32 := Scalar.select v234 v235 v220
  let v247 : Index := Scalar.indexCast v236
  let c128_i32_121 : BitVec 32 := 128#32
  let c0_i32_122 : BitVec 32 := 0#32
  let v237 : BitVec 1 := Scalar.cmpi .eq c128_i32_121 c0_i32_122
  let c1_i32_123 : BitVec 32 := 1#32
  let v238 : BitVec 32 := Scalar.select v237 c1_i32_123 c128_i32_121
  let v239 : BitVec 32 := Scalar.remsi v219 v238
  let c0_i32_125 : BitVec 32 := 0#32
  let v241 : BitVec 1 := Scalar.cmpi .slt v239 c0_i32_125
  let c0_i32_126 : BitVec 32 := 0#32
  let v242 : BitVec 1 := Scalar.cmpi .slt v238 c0_i32_126
  let v243 : BitVec 1 := Scalar.xori v241 v242
  let c0_i32_124 : BitVec 32 := 0#32
  let v240 : BitVec 1 := Scalar.cmpi .ne v239 c0_i32_124
  let v244 : BitVec 1 := Scalar.andi v243 v240
  let v245 : BitVec 32 := Scalar.addi v239 v238
  let v246 : BitVec 32 := Scalar.select v244 v245 v239
  let v248 : Index := Scalar.indexCast v246
  ![v247.toNat, v248.toNat]

def k0_chk22 (i : grid0.Coords) (v249 : IVec S16 32) : Prop :=
  (∀ (k0_h1 : k0_cond1 i = 1#1), ∀ a x, ((![v249] : Fin 1 → IVec S16 32) a x).toNat < S100000.size a)
instance k0_chk22.dec : ∀ (i : grid0.Coords) (v249 : IVec S16 32), Decidable (k0_chk22 i v249) := fun i v249 => decidable_of_iff' _ (Iff.of_eq (k0_chk22.eq_1 i v249))
theorem k0_idx22_inb : ∀ (i : grid0.Coords) (v249 : IVec S16 32) (k0_hw22 : k0_chk22 i v249), ∀ (k0_h1 : k0_cond1 i = 1#1), ∀ a x, ((![v249] : Fin 1 → IVec S16 32) a x).toNat < S100000.size a := fun i v249 k0_hw22 k0_h1 => k0_hw22 k0_h1
def k0_off49 (k0_t4 : Fin k0_t4_loop.trips) : Fin 1 → Nat :=
  let c0_i32_8 : BitVec 32 := 0#32
  let c1_i32_9 : BitVec 32 := 1#32
  let arg11 : BitVec 32 := Scf.iv c0_i32_8 c1_i32_9 k0_t4
  let c8_i32_127 : BitVec 32 := 8#32
  let v251 : BitVec 32 := Scalar.muli arg11 c8_i32_127
  let c5_i32_128 : BitVec 32 := 5#32
  let v252 : BitVec 32 := Scalar.addi v251 c5_i32_128
  let c16_i32_129 : BitVec 32 := 16#32
  let v253 : BitVec 32 := Scalar.muli v252 c16_i32_129
  let v254 : Index := Scalar.indexCast v253
  ![v254.toNat]
def k0_off50 (k0_t4 : Fin k0_t4_loop.trips) : Fin 2 → Nat :=
  let c0_i32_132 : BitVec 32 := 0#32
  let c0_i32_8 : BitVec 32 := 0#32
  let c1_i32_9 : BitVec 32 := 1#32
  let arg11 : BitVec 32 := Scf.iv c0_i32_8 c1_i32_9 k0_t4
  let c8_i32_130 : BitVec 32 := 8#32
  let v256 : BitVec 32 := Scalar.muli arg11 c8_i32_130
  let c6_i32 : BitVec 32 := 6#32
  let v257 : BitVec 32 := Scalar.addi v256 c6_i32
  let c16_i32_131 : BitVec 32 := 16#32
  let v258 : BitVec 32 := Scalar.muli v257 c16_i32_131
  let v259 : BitVec 32 := Scalar.addi c0_i32_132 v258
  let c0_i32_134 : BitVec 32 := 0#32
  let v261 : BitVec 1 := Scalar.cmpi .sgt v259 c0_i32_134
  let v262 : BitVec 32 := Scalar.extui v261
  let c0_i32_135 : BitVec 32 := 0#32
  let v263 : BitVec 1 := Scalar.cmpi .slt v259 c0_i32_135
  let v264 : BitVec 32 := Scalar.extui v263
  let v265 : BitVec 32 := Scalar.subi v262 v264
  let c128_i32_133 : BitVec 32 := 128#32
  let c0_i32_136 : BitVec 32 := 0#32
  let v266 : BitVec 1 := Scalar.cmpi .sgt c128_i32_133 c0_i32_136
  let v267 : BitVec 32 := Scalar.extui v266
  let c0_i32_137 : BitVec 32 := 0#32
  let v268 : BitVec 1 := Scalar.cmpi .slt c128_i32_133 c0_i32_137
  let v269 : BitVec 32 := Scalar.extui v268
  let v270 : BitVec 32 := Scalar.subi v267 v269
  let v271 : BitVec 1 := Scalar.cmpi .ne v265 v270
  let v272 : BitVec 32 := Scalar.remsi v259 c128_i32_133
  let c0_i32_138 : BitVec 32 := 0#32
  let v273 : BitVec 1 := Scalar.cmpi .ne v272 c0_i32_138
  let v274 : BitVec 1 := Scalar.andi v271 v273
  let v260 : BitVec 32 := Scalar.divsi v259 c128_i32_133
  let c1_i32_139 : BitVec 32 := 1#32
  let v275 : BitVec 32 := Scalar.subi v260 c1_i32_139
  let v276 : BitVec 32 := Scalar.select v274 v275 v260
  let v287 : Index := Scalar.indexCast v276
  let c128_i32_140 : BitVec 32 := 128#32
  let c0_i32_141 : BitVec 32 := 0#32
  let v277 : BitVec 1 := Scalar.cmpi .eq c128_i32_140 c0_i32_141
  let c1_i32_142 : BitVec 32 := 1#32
  let v278 : BitVec 32 := Scalar.select v277 c1_i32_142 c128_i32_140
  let v279 : BitVec 32 := Scalar.remsi v259 v278
  let c0_i32_144 : BitVec 32 := 0#32
  let v281 : BitVec 1 := Scalar.cmpi .slt v279 c0_i32_144
  let c0_i32_145 : BitVec 32 := 0#32
  let v282 : BitVec 1 := Scalar.cmpi .slt v278 c0_i32_145
  let v283 : BitVec 1 := Scalar.xori v281 v282
  let c0_i32_143 : BitVec 32 := 0#32
  let v280 : BitVec 1 := Scalar.cmpi .ne v279 c0_i32_143
  let v284 : BitVec 1 := Scalar.andi v283 v280
  let v285 : BitVec 32 := Scalar.addi v279 v278
  let v286 : BitVec 32 := Scalar.select v284 v285 v279
  let v288 : Index := Scalar.indexCast v286
  ![v287.toNat, v288.toNat]

def k0_chk23 (i : grid0.Coords) (v289 : IVec S16 32) : Prop :=
  (∀ (k0_h1 : k0_cond1 i = 1#1), ∀ a x, ((![v289] : Fin 1 → IVec S16 32) a x).toNat < S100000.size a)
instance k0_chk23.dec : ∀ (i : grid0.Coords) (v289 : IVec S16 32), Decidable (k0_chk23 i v289) := fun i v289 => decidable_of_iff' _ (Iff.of_eq (k0_chk23.eq_1 i v289))
theorem k0_idx23_inb : ∀ (i : grid0.Coords) (v289 : IVec S16 32) (k0_hw23 : k0_chk23 i v289), ∀ (k0_h1 : k0_cond1 i = 1#1), ∀ a x, ((![v289] : Fin 1 → IVec S16 32) a x).toNat < S100000.size a := fun i v289 k0_hw23 k0_h1 => k0_hw23 k0_h1
def k0_off51 (k0_t4 : Fin k0_t4_loop.trips) : Fin 1 → Nat :=
  let c0_i32_8 : BitVec 32 := 0#32
  let c1_i32_9 : BitVec 32 := 1#32
  let arg11 : BitVec 32 := Scf.iv c0_i32_8 c1_i32_9 k0_t4
  let c8_i32_146 : BitVec 32 := 8#32
  let v291 : BitVec 32 := Scalar.muli arg11 c8_i32_146
  let c6_i32_147 : BitVec 32 := 6#32
  let v292 : BitVec 32 := Scalar.addi v291 c6_i32_147
  let c16_i32_148 : BitVec 32 := 16#32
  let v293 : BitVec 32 := Scalar.muli v292 c16_i32_148
  let v294 : Index := Scalar.indexCast v293
  ![v294.toNat]
def k0_off52 (k0_t4 : Fin k0_t4_loop.trips) : Fin 2 → Nat :=
  let c0_i32_151 : BitVec 32 := 0#32
  let c0_i32_8 : BitVec 32 := 0#32
  let c1_i32_9 : BitVec 32 := 1#32
  let arg11 : BitVec 32 := Scf.iv c0_i32_8 c1_i32_9 k0_t4
  let c8_i32_149 : BitVec 32 := 8#32
  let v296 : BitVec 32 := Scalar.muli arg11 c8_i32_149
  let c7_i32 : BitVec 32 := 7#32
  let v297 : BitVec 32 := Scalar.addi v296 c7_i32
  let c16_i32_150 : BitVec 32 := 16#32
  let v298 : BitVec 32 := Scalar.muli v297 c16_i32_150
  let v299 : BitVec 32 := Scalar.addi c0_i32_151 v298
  let c0_i32_153 : BitVec 32 := 0#32
  let v301 : BitVec 1 := Scalar.cmpi .sgt v299 c0_i32_153
  let v302 : BitVec 32 := Scalar.extui v301
  let c0_i32_154 : BitVec 32 := 0#32
  let v303 : BitVec 1 := Scalar.cmpi .slt v299 c0_i32_154
  let v304 : BitVec 32 := Scalar.extui v303
  let v305 : BitVec 32 := Scalar.subi v302 v304
  let c128_i32_152 : BitVec 32 := 128#32
  let c0_i32_155 : BitVec 32 := 0#32
  let v306 : BitVec 1 := Scalar.cmpi .sgt c128_i32_152 c0_i32_155
  let v307 : BitVec 32 := Scalar.extui v306
  let c0_i32_156 : BitVec 32 := 0#32
  let v308 : BitVec 1 := Scalar.cmpi .slt c128_i32_152 c0_i32_156
  let v309 : BitVec 32 := Scalar.extui v308
  let v310 : BitVec 32 := Scalar.subi v307 v309
  let v311 : BitVec 1 := Scalar.cmpi .ne v305 v310
  let v312 : BitVec 32 := Scalar.remsi v299 c128_i32_152
  let c0_i32_157 : BitVec 32 := 0#32
  let v313 : BitVec 1 := Scalar.cmpi .ne v312 c0_i32_157
  let v314 : BitVec 1 := Scalar.andi v311 v313
  let v300 : BitVec 32 := Scalar.divsi v299 c128_i32_152
  let c1_i32_158 : BitVec 32 := 1#32
  let v315 : BitVec 32 := Scalar.subi v300 c1_i32_158
  let v316 : BitVec 32 := Scalar.select v314 v315 v300
  let v327 : Index := Scalar.indexCast v316
  let c128_i32_159 : BitVec 32 := 128#32
  let c0_i32_160 : BitVec 32 := 0#32
  let v317 : BitVec 1 := Scalar.cmpi .eq c128_i32_159 c0_i32_160
  let c1_i32_161 : BitVec 32 := 1#32
  let v318 : BitVec 32 := Scalar.select v317 c1_i32_161 c128_i32_159
  let v319 : BitVec 32 := Scalar.remsi v299 v318
  let c0_i32_163 : BitVec 32 := 0#32
  let v321 : BitVec 1 := Scalar.cmpi .slt v319 c0_i32_163
  let c0_i32_164 : BitVec 32 := 0#32
  let v322 : BitVec 1 := Scalar.cmpi .slt v318 c0_i32_164
  let v323 : BitVec 1 := Scalar.xori v321 v322
  let c0_i32_162 : BitVec 32 := 0#32
  let v320 : BitVec 1 := Scalar.cmpi .ne v319 c0_i32_162
  let v324 : BitVec 1 := Scalar.andi v323 v320
  let v325 : BitVec 32 := Scalar.addi v319 v318
  let v326 : BitVec 32 := Scalar.select v324 v325 v319
  let v328 : Index := Scalar.indexCast v326
  ![v327.toNat, v328.toNat]

def k0_chk24 (i : grid0.Coords) (v329 : IVec S16 32) : Prop :=
  (∀ (k0_h1 : k0_cond1 i = 1#1), ∀ a x, ((![v329] : Fin 1 → IVec S16 32) a x).toNat < S100000.size a)
instance k0_chk24.dec : ∀ (i : grid0.Coords) (v329 : IVec S16 32), Decidable (k0_chk24 i v329) := fun i v329 => decidable_of_iff' _ (Iff.of_eq (k0_chk24.eq_1 i v329))
theorem k0_idx24_inb : ∀ (i : grid0.Coords) (v329 : IVec S16 32) (k0_hw24 : k0_chk24 i v329), ∀ (k0_h1 : k0_cond1 i = 1#1), ∀ a x, ((![v329] : Fin 1 → IVec S16 32) a x).toNat < S100000.size a := fun i v329 k0_hw24 k0_h1 => k0_hw24 k0_h1
def k0_off53 (k0_t4 : Fin k0_t4_loop.trips) : Fin 1 → Nat :=
  let c0_i32_8 : BitVec 32 := 0#32
  let c1_i32_9 : BitVec 32 := 1#32
  let arg11 : BitVec 32 := Scf.iv c0_i32_8 c1_i32_9 k0_t4
  let c8_i32_165 : BitVec 32 := 8#32
  let v331 : BitVec 32 := Scalar.muli arg11 c8_i32_165
  let c7_i32_166 : BitVec 32 := 7#32
  let v332 : BitVec 32 := Scalar.addi v331 c7_i32_166
  let c16_i32_167 : BitVec 32 := 16#32
  let v333 : BitVec 32 := Scalar.muli v332 c16_i32_167
  let v334 : Index := Scalar.indexCast v333
  ![v334.toNat]
def k0_off54 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_16_r4 : BitVec 32 := 0#32
  ![v1.toNat, 0]
@[reducible] def k0_t5_loop : Scf.Loop 32 :=
  let c0_i32_12 : BitVec 32 := 0#32
  let c64_i32_13 : BitVec 32 := 64#32
  let v15 : BitVec 32 := Scalar.addi c0_i32_12 c64_i32_13
  let c1_i32_14 : BitVec 32 := 1#32
  ⟨c0_i32_12, v15, c1_i32_14⟩
def k0_off55 (k0_t5 : Fin k0_t5_loop.trips) : Fin 2 → Nat :=
  let c8192_i32 : BitVec 32 := 8192#32
  let c0_i32_12 : BitVec 32 := 0#32
  let c1_i32_14 : BitVec 32 := 1#32
  let arg11 : BitVec 32 := Scf.iv c0_i32_12 c1_i32_14 k0_t5
  let c8_i32 : BitVec 32 := 8#32
  let v16 : BitVec 32 := Scalar.muli arg11 c8_i32
  let c0_i32_16 : BitVec 32 := 0#32
  let v17 : BitVec 32 := Scalar.addi v16 c0_i32_16
  let c16_i32 : BitVec 32 := 16#32
  let v18 : BitVec 32 := Scalar.muli v17 c16_i32
  let v19 : BitVec 32 := Scalar.addi c8192_i32 v18
  let c0_i32_17 : BitVec 32 := 0#32
  let v21 : BitVec 1 := Scalar.cmpi .sgt v19 c0_i32_17
  let v22 : BitVec 32 := Scalar.extui v21
  let c0_i32_18 : BitVec 32 := 0#32
  let v23 : BitVec 1 := Scalar.cmpi .slt v19 c0_i32_18
  let v24 : BitVec 32 := Scalar.extui v23
  let v25 : BitVec 32 := Scalar.subi v22 v24
  let c128_i32 : BitVec 32 := 128#32
  let c0_i32_19 : BitVec 32 := 0#32
  let v26 : BitVec 1 := Scalar.cmpi .sgt c128_i32 c0_i32_19
  let v27 : BitVec 32 := Scalar.extui v26
  let c0_i32_20 : BitVec 32 := 0#32
  let v28 : BitVec 1 := Scalar.cmpi .slt c128_i32 c0_i32_20
  let v29 : BitVec 32 := Scalar.extui v28
  let v30 : BitVec 32 := Scalar.subi v27 v29
  let v31 : BitVec 1 := Scalar.cmpi .ne v25 v30
  let v32 : BitVec 32 := Scalar.remsi v19 c128_i32
  let c0_i32_21 : BitVec 32 := 0#32
  let v33 : BitVec 1 := Scalar.cmpi .ne v32 c0_i32_21
  let v34 : BitVec 1 := Scalar.andi v31 v33
  let v20 : BitVec 32 := Scalar.divsi v19 c128_i32
  let c1_i32_22 : BitVec 32 := 1#32
  let v35 : BitVec 32 := Scalar.subi v20 c1_i32_22
  let v36 : BitVec 32 := Scalar.select v34 v35 v20
  let v47 : Index := Scalar.indexCast v36
  let c128_i32_23 : BitVec 32 := 128#32
  let c0_i32_24 : BitVec 32 := 0#32
  let v37 : BitVec 1 := Scalar.cmpi .eq c128_i32_23 c0_i32_24
  let c1_i32_25 : BitVec 32 := 1#32
  let v38 : BitVec 32 := Scalar.select v37 c1_i32_25 c128_i32_23
  let v39 : BitVec 32 := Scalar.remsi v19 v38
  let c0_i32_27 : BitVec 32 := 0#32
  let v41 : BitVec 1 := Scalar.cmpi .slt v39 c0_i32_27
  let c0_i32_28 : BitVec 32 := 0#32
  let v42 : BitVec 1 := Scalar.cmpi .slt v38 c0_i32_28
  let v43 : BitVec 1 := Scalar.xori v41 v42
  let c0_i32_26 : BitVec 32 := 0#32
  let v40 : BitVec 1 := Scalar.cmpi .ne v39 c0_i32_26
  let v44 : BitVec 1 := Scalar.andi v43 v40
  let v45 : BitVec 32 := Scalar.addi v39 v38
  let v46 : BitVec 32 := Scalar.select v44 v45 v39
  let v48 : Index := Scalar.indexCast v46
  ![v47.toNat, v48.toNat]

def k0_chk25 (i : grid0.Coords) (v49 : IVec S16 32) : Prop :=
  (∀ (k0_h1 : k0_cond1 i = 1#1), ∀ a x, ((![v49] : Fin 1 → IVec S16 32) a x).toNat < S100000.size a)
instance k0_chk25.dec : ∀ (i : grid0.Coords) (v49 : IVec S16 32), Decidable (k0_chk25 i v49) := fun i v49 => decidable_of_iff' _ (Iff.of_eq (k0_chk25.eq_1 i v49))
theorem k0_idx25_inb : ∀ (i : grid0.Coords) (v49 : IVec S16 32) (k0_hw25 : k0_chk25 i v49), ∀ (k0_h1 : k0_cond1 i = 1#1), ∀ a x, ((![v49] : Fin 1 → IVec S16 32) a x).toNat < S100000.size a := fun i v49 k0_hw25 k0_h1 => k0_hw25 k0_h1
def k0_off56 (k0_t5 : Fin k0_t5_loop.trips) : Fin 1 → Nat :=
  let c0_i32_12 : BitVec 32 := 0#32
  let c1_i32_14 : BitVec 32 := 1#32
  let arg11 : BitVec 32 := Scf.iv c0_i32_12 c1_i32_14 k0_t5
  let c8_i32_29 : BitVec 32 := 8#32
  let v51 : BitVec 32 := Scalar.muli arg11 c8_i32_29
  let c0_i32_30 : BitVec 32 := 0#32
  let v52 : BitVec 32 := Scalar.addi v51 c0_i32_30
  let c16_i32_31 : BitVec 32 := 16#32
  let v53 : BitVec 32 := Scalar.muli v52 c16_i32_31
  let v54 : Index := Scalar.indexCast v53
  ![v54.toNat]
def k0_off57 (k0_t5 : Fin k0_t5_loop.trips) : Fin 2 → Nat :=
  let c8192_i32_35 : BitVec 32 := 8192#32
  let c0_i32_12 : BitVec 32 := 0#32
  let c1_i32_14 : BitVec 32 := 1#32
  let arg11 : BitVec 32 := Scf.iv c0_i32_12 c1_i32_14 k0_t5
  let c8_i32_32 : BitVec 32 := 8#32
  let v56 : BitVec 32 := Scalar.muli arg11 c8_i32_32
  let c1_i32_33 : BitVec 32 := 1#32
  let v57 : BitVec 32 := Scalar.addi v56 c1_i32_33
  let c16_i32_34 : BitVec 32 := 16#32
  let v58 : BitVec 32 := Scalar.muli v57 c16_i32_34
  let v59 : BitVec 32 := Scalar.addi c8192_i32_35 v58
  let c0_i32_37 : BitVec 32 := 0#32
  let v61 : BitVec 1 := Scalar.cmpi .sgt v59 c0_i32_37
  let v62 : BitVec 32 := Scalar.extui v61
  let c0_i32_38 : BitVec 32 := 0#32
  let v63 : BitVec 1 := Scalar.cmpi .slt v59 c0_i32_38
  let v64 : BitVec 32 := Scalar.extui v63
  let v65 : BitVec 32 := Scalar.subi v62 v64
  let c128_i32_36 : BitVec 32 := 128#32
  let c0_i32_39 : BitVec 32 := 0#32
  let v66 : BitVec 1 := Scalar.cmpi .sgt c128_i32_36 c0_i32_39
  let v67 : BitVec 32 := Scalar.extui v66
  let c0_i32_40 : BitVec 32 := 0#32
  let v68 : BitVec 1 := Scalar.cmpi .slt c128_i32_36 c0_i32_40
  let v69 : BitVec 32 := Scalar.extui v68
  let v70 : BitVec 32 := Scalar.subi v67 v69
  let v71 : BitVec 1 := Scalar.cmpi .ne v65 v70
  let v72 : BitVec 32 := Scalar.remsi v59 c128_i32_36
  let c0_i32_41 : BitVec 32 := 0#32
  let v73 : BitVec 1 := Scalar.cmpi .ne v72 c0_i32_41
  let v74 : BitVec 1 := Scalar.andi v71 v73
  let v60 : BitVec 32 := Scalar.divsi v59 c128_i32_36
  let c1_i32_42 : BitVec 32 := 1#32
  let v75 : BitVec 32 := Scalar.subi v60 c1_i32_42
  let v76 : BitVec 32 := Scalar.select v74 v75 v60
  let v87 : Index := Scalar.indexCast v76
  let c128_i32_43 : BitVec 32 := 128#32
  let c0_i32_44 : BitVec 32 := 0#32
  let v77 : BitVec 1 := Scalar.cmpi .eq c128_i32_43 c0_i32_44
  let c1_i32_45 : BitVec 32 := 1#32
  let v78 : BitVec 32 := Scalar.select v77 c1_i32_45 c128_i32_43
  let v79 : BitVec 32 := Scalar.remsi v59 v78
  let c0_i32_47 : BitVec 32 := 0#32
  let v81 : BitVec 1 := Scalar.cmpi .slt v79 c0_i32_47
  let c0_i32_48 : BitVec 32 := 0#32
  let v82 : BitVec 1 := Scalar.cmpi .slt v78 c0_i32_48
  let v83 : BitVec 1 := Scalar.xori v81 v82
  let c0_i32_46 : BitVec 32 := 0#32
  let v80 : BitVec 1 := Scalar.cmpi .ne v79 c0_i32_46
  let v84 : BitVec 1 := Scalar.andi v83 v80
  let v85 : BitVec 32 := Scalar.addi v79 v78
  let v86 : BitVec 32 := Scalar.select v84 v85 v79
  let v88 : Index := Scalar.indexCast v86
  ![v87.toNat, v88.toNat]

def k0_chk26 (i : grid0.Coords) (v89 : IVec S16 32) : Prop :=
  (∀ (k0_h1 : k0_cond1 i = 1#1), ∀ a x, ((![v89] : Fin 1 → IVec S16 32) a x).toNat < S100000.size a)
instance k0_chk26.dec : ∀ (i : grid0.Coords) (v89 : IVec S16 32), Decidable (k0_chk26 i v89) := fun i v89 => decidable_of_iff' _ (Iff.of_eq (k0_chk26.eq_1 i v89))
theorem k0_idx26_inb : ∀ (i : grid0.Coords) (v89 : IVec S16 32) (k0_hw26 : k0_chk26 i v89), ∀ (k0_h1 : k0_cond1 i = 1#1), ∀ a x, ((![v89] : Fin 1 → IVec S16 32) a x).toNat < S100000.size a := fun i v89 k0_hw26 k0_h1 => k0_hw26 k0_h1
def k0_off58 (k0_t5 : Fin k0_t5_loop.trips) : Fin 1 → Nat :=
  let c0_i32_12 : BitVec 32 := 0#32
  let c1_i32_14 : BitVec 32 := 1#32
  let arg11 : BitVec 32 := Scf.iv c0_i32_12 c1_i32_14 k0_t5
  let c8_i32_49 : BitVec 32 := 8#32
  let v91 : BitVec 32 := Scalar.muli arg11 c8_i32_49
  let c1_i32_50 : BitVec 32 := 1#32
  let v92 : BitVec 32 := Scalar.addi v91 c1_i32_50
  let c16_i32_51 : BitVec 32 := 16#32
  let v93 : BitVec 32 := Scalar.muli v92 c16_i32_51
  let v94 : Index := Scalar.indexCast v93
  ![v94.toNat]
def k0_off59 (k0_t5 : Fin k0_t5_loop.trips) : Fin 2 → Nat :=
  let c8192_i32_55 : BitVec 32 := 8192#32
  let c0_i32_12 : BitVec 32 := 0#32
  let c1_i32_14 : BitVec 32 := 1#32
  let arg11 : BitVec 32 := Scf.iv c0_i32_12 c1_i32_14 k0_t5
  let c8_i32_52 : BitVec 32 := 8#32
  let v96 : BitVec 32 := Scalar.muli arg11 c8_i32_52
  let c2_i32_53 : BitVec 32 := 2#32
  let v97 : BitVec 32 := Scalar.addi v96 c2_i32_53
  let c16_i32_54 : BitVec 32 := 16#32
  let v98 : BitVec 32 := Scalar.muli v97 c16_i32_54
  let v99 : BitVec 32 := Scalar.addi c8192_i32_55 v98
  let c0_i32_57 : BitVec 32 := 0#32
  let v101 : BitVec 1 := Scalar.cmpi .sgt v99 c0_i32_57
  let v102 : BitVec 32 := Scalar.extui v101
  let c0_i32_58 : BitVec 32 := 0#32
  let v103 : BitVec 1 := Scalar.cmpi .slt v99 c0_i32_58
  let v104 : BitVec 32 := Scalar.extui v103
  let v105 : BitVec 32 := Scalar.subi v102 v104
  let c128_i32_56 : BitVec 32 := 128#32
  let c0_i32_59 : BitVec 32 := 0#32
  let v106 : BitVec 1 := Scalar.cmpi .sgt c128_i32_56 c0_i32_59
  let v107 : BitVec 32 := Scalar.extui v106
  let c0_i32_60 : BitVec 32 := 0#32
  let v108 : BitVec 1 := Scalar.cmpi .slt c128_i32_56 c0_i32_60
  let v109 : BitVec 32 := Scalar.extui v108
  let v110 : BitVec 32 := Scalar.subi v107 v109
  let v111 : BitVec 1 := Scalar.cmpi .ne v105 v110
  let v112 : BitVec 32 := Scalar.remsi v99 c128_i32_56
  let c0_i32_61 : BitVec 32 := 0#32
  let v113 : BitVec 1 := Scalar.cmpi .ne v112 c0_i32_61
  let v114 : BitVec 1 := Scalar.andi v111 v113
  let v100 : BitVec 32 := Scalar.divsi v99 c128_i32_56
  let c1_i32_62 : BitVec 32 := 1#32
  let v115 : BitVec 32 := Scalar.subi v100 c1_i32_62
  let v116 : BitVec 32 := Scalar.select v114 v115 v100
  let v127 : Index := Scalar.indexCast v116
  let c128_i32_63 : BitVec 32 := 128#32
  let c0_i32_64 : BitVec 32 := 0#32
  let v117 : BitVec 1 := Scalar.cmpi .eq c128_i32_63 c0_i32_64
  let c1_i32_65 : BitVec 32 := 1#32
  let v118 : BitVec 32 := Scalar.select v117 c1_i32_65 c128_i32_63
  let v119 : BitVec 32 := Scalar.remsi v99 v118
  let c0_i32_67 : BitVec 32 := 0#32
  let v121 : BitVec 1 := Scalar.cmpi .slt v119 c0_i32_67
  let c0_i32_68 : BitVec 32 := 0#32
  let v122 : BitVec 1 := Scalar.cmpi .slt v118 c0_i32_68
  let v123 : BitVec 1 := Scalar.xori v121 v122
  let c0_i32_66 : BitVec 32 := 0#32
  let v120 : BitVec 1 := Scalar.cmpi .ne v119 c0_i32_66
  let v124 : BitVec 1 := Scalar.andi v123 v120
  let v125 : BitVec 32 := Scalar.addi v119 v118
  let v126 : BitVec 32 := Scalar.select v124 v125 v119
  let v128 : Index := Scalar.indexCast v126
  ![v127.toNat, v128.toNat]

def k0_chk27 (i : grid0.Coords) (v129 : IVec S16 32) : Prop :=
  (∀ (k0_h1 : k0_cond1 i = 1#1), ∀ a x, ((![v129] : Fin 1 → IVec S16 32) a x).toNat < S100000.size a)
instance k0_chk27.dec : ∀ (i : grid0.Coords) (v129 : IVec S16 32), Decidable (k0_chk27 i v129) := fun i v129 => decidable_of_iff' _ (Iff.of_eq (k0_chk27.eq_1 i v129))
theorem k0_idx27_inb : ∀ (i : grid0.Coords) (v129 : IVec S16 32) (k0_hw27 : k0_chk27 i v129), ∀ (k0_h1 : k0_cond1 i = 1#1), ∀ a x, ((![v129] : Fin 1 → IVec S16 32) a x).toNat < S100000.size a := fun i v129 k0_hw27 k0_h1 => k0_hw27 k0_h1
def k0_off60 (k0_t5 : Fin k0_t5_loop.trips) : Fin 1 → Nat :=
  let c0_i32_12 : BitVec 32 := 0#32
  let c1_i32_14 : BitVec 32 := 1#32
  let arg11 : BitVec 32 := Scf.iv c0_i32_12 c1_i32_14 k0_t5
  let c8_i32_69 : BitVec 32 := 8#32
  let v131 : BitVec 32 := Scalar.muli arg11 c8_i32_69
  let c2_i32_70 : BitVec 32 := 2#32
  let v132 : BitVec 32 := Scalar.addi v131 c2_i32_70
  let c16_i32_71 : BitVec 32 := 16#32
  let v133 : BitVec 32 := Scalar.muli v132 c16_i32_71
  let v134 : Index := Scalar.indexCast v133
  ![v134.toNat]
def k0_off61 (k0_t5 : Fin k0_t5_loop.trips) : Fin 2 → Nat :=
  let c8192_i32_74 : BitVec 32 := 8192#32
  let c0_i32_12 : BitVec 32 := 0#32
  let c1_i32_14 : BitVec 32 := 1#32
  let arg11 : BitVec 32 := Scf.iv c0_i32_12 c1_i32_14 k0_t5
  let c8_i32_72 : BitVec 32 := 8#32
  let v136 : BitVec 32 := Scalar.muli arg11 c8_i32_72
  let c3_i32 : BitVec 32 := 3#32
  let v137 : BitVec 32 := Scalar.addi v136 c3_i32
  let c16_i32_73 : BitVec 32 := 16#32
  let v138 : BitVec 32 := Scalar.muli v137 c16_i32_73
  let v139 : BitVec 32 := Scalar.addi c8192_i32_74 v138
  let c0_i32_76 : BitVec 32 := 0#32
  let v141 : BitVec 1 := Scalar.cmpi .sgt v139 c0_i32_76
  let v142 : BitVec 32 := Scalar.extui v141
  let c0_i32_77 : BitVec 32 := 0#32
  let v143 : BitVec 1 := Scalar.cmpi .slt v139 c0_i32_77
  let v144 : BitVec 32 := Scalar.extui v143
  let v145 : BitVec 32 := Scalar.subi v142 v144
  let c128_i32_75 : BitVec 32 := 128#32
  let c0_i32_78 : BitVec 32 := 0#32
  let v146 : BitVec 1 := Scalar.cmpi .sgt c128_i32_75 c0_i32_78
  let v147 : BitVec 32 := Scalar.extui v146
  let c0_i32_79 : BitVec 32 := 0#32
  let v148 : BitVec 1 := Scalar.cmpi .slt c128_i32_75 c0_i32_79
  let v149 : BitVec 32 := Scalar.extui v148
  let v150 : BitVec 32 := Scalar.subi v147 v149
  let v151 : BitVec 1 := Scalar.cmpi .ne v145 v150
  let v152 : BitVec 32 := Scalar.remsi v139 c128_i32_75
  let c0_i32_80 : BitVec 32 := 0#32
  let v153 : BitVec 1 := Scalar.cmpi .ne v152 c0_i32_80
  let v154 : BitVec 1 := Scalar.andi v151 v153
  let v140 : BitVec 32 := Scalar.divsi v139 c128_i32_75
  let c1_i32_81 : BitVec 32 := 1#32
  let v155 : BitVec 32 := Scalar.subi v140 c1_i32_81
  let v156 : BitVec 32 := Scalar.select v154 v155 v140
  let v167 : Index := Scalar.indexCast v156
  let c128_i32_82 : BitVec 32 := 128#32
  let c0_i32_83 : BitVec 32 := 0#32
  let v157 : BitVec 1 := Scalar.cmpi .eq c128_i32_82 c0_i32_83
  let c1_i32_84 : BitVec 32 := 1#32
  let v158 : BitVec 32 := Scalar.select v157 c1_i32_84 c128_i32_82
  let v159 : BitVec 32 := Scalar.remsi v139 v158
  let c0_i32_86 : BitVec 32 := 0#32
  let v161 : BitVec 1 := Scalar.cmpi .slt v159 c0_i32_86
  let c0_i32_87 : BitVec 32 := 0#32
  let v162 : BitVec 1 := Scalar.cmpi .slt v158 c0_i32_87
  let v163 : BitVec 1 := Scalar.xori v161 v162
  let c0_i32_85 : BitVec 32 := 0#32
  let v160 : BitVec 1 := Scalar.cmpi .ne v159 c0_i32_85
  let v164 : BitVec 1 := Scalar.andi v163 v160
  let v165 : BitVec 32 := Scalar.addi v159 v158
  let v166 : BitVec 32 := Scalar.select v164 v165 v159
  let v168 : Index := Scalar.indexCast v166
  ![v167.toNat, v168.toNat]

def k0_chk28 (i : grid0.Coords) (v169 : IVec S16 32) : Prop :=
  (∀ (k0_h1 : k0_cond1 i = 1#1), ∀ a x, ((![v169] : Fin 1 → IVec S16 32) a x).toNat < S100000.size a)
instance k0_chk28.dec : ∀ (i : grid0.Coords) (v169 : IVec S16 32), Decidable (k0_chk28 i v169) := fun i v169 => decidable_of_iff' _ (Iff.of_eq (k0_chk28.eq_1 i v169))
theorem k0_idx28_inb : ∀ (i : grid0.Coords) (v169 : IVec S16 32) (k0_hw28 : k0_chk28 i v169), ∀ (k0_h1 : k0_cond1 i = 1#1), ∀ a x, ((![v169] : Fin 1 → IVec S16 32) a x).toNat < S100000.size a := fun i v169 k0_hw28 k0_h1 => k0_hw28 k0_h1
def k0_off62 (k0_t5 : Fin k0_t5_loop.trips) : Fin 1 → Nat :=
  let c0_i32_12 : BitVec 32 := 0#32
  let c1_i32_14 : BitVec 32 := 1#32
  let arg11 : BitVec 32 := Scf.iv c0_i32_12 c1_i32_14 k0_t5
  let c8_i32_88 : BitVec 32 := 8#32
  let v171 : BitVec 32 := Scalar.muli arg11 c8_i32_88
  let c3_i32_89 : BitVec 32 := 3#32
  let v172 : BitVec 32 := Scalar.addi v171 c3_i32_89
  let c16_i32_90 : BitVec 32 := 16#32
  let v173 : BitVec 32 := Scalar.muli v172 c16_i32_90
  let v174 : Index := Scalar.indexCast v173
  ![v174.toNat]
def k0_off63 (k0_t5 : Fin k0_t5_loop.trips) : Fin 2 → Nat :=
  let c8192_i32_93 : BitVec 32 := 8192#32
  let c0_i32_12 : BitVec 32 := 0#32
  let c1_i32_14 : BitVec 32 := 1#32
  let arg11 : BitVec 32 := Scf.iv c0_i32_12 c1_i32_14 k0_t5
  let c8_i32_91 : BitVec 32 := 8#32
  let v176 : BitVec 32 := Scalar.muli arg11 c8_i32_91
  let c4_i32 : BitVec 32 := 4#32
  let v177 : BitVec 32 := Scalar.addi v176 c4_i32
  let c16_i32_92 : BitVec 32 := 16#32
  let v178 : BitVec 32 := Scalar.muli v177 c16_i32_92
  let v179 : BitVec 32 := Scalar.addi c8192_i32_93 v178
  let c0_i32_95 : BitVec 32 := 0#32
  let v181 : BitVec 1 := Scalar.cmpi .sgt v179 c0_i32_95
  let v182 : BitVec 32 := Scalar.extui v181
  let c0_i32_96 : BitVec 32 := 0#32
  let v183 : BitVec 1 := Scalar.cmpi .slt v179 c0_i32_96
  let v184 : BitVec 32 := Scalar.extui v183
  let v185 : BitVec 32 := Scalar.subi v182 v184
  let c128_i32_94 : BitVec 32 := 128#32
  let c0_i32_97 : BitVec 32 := 0#32
  let v186 : BitVec 1 := Scalar.cmpi .sgt c128_i32_94 c0_i32_97
  let v187 : BitVec 32 := Scalar.extui v186
  let c0_i32_98 : BitVec 32 := 0#32
  let v188 : BitVec 1 := Scalar.cmpi .slt c128_i32_94 c0_i32_98
  let v189 : BitVec 32 := Scalar.extui v188
  let v190 : BitVec 32 := Scalar.subi v187 v189
  let v191 : BitVec 1 := Scalar.cmpi .ne v185 v190
  let v192 : BitVec 32 := Scalar.remsi v179 c128_i32_94
  let c0_i32_99 : BitVec 32 := 0#32
  let v193 : BitVec 1 := Scalar.cmpi .ne v192 c0_i32_99
  let v194 : BitVec 1 := Scalar.andi v191 v193
  let v180 : BitVec 32 := Scalar.divsi v179 c128_i32_94
  let c1_i32_100 : BitVec 32 := 1#32
  let v195 : BitVec 32 := Scalar.subi v180 c1_i32_100
  let v196 : BitVec 32 := Scalar.select v194 v195 v180
  let v207 : Index := Scalar.indexCast v196
  let c128_i32_101 : BitVec 32 := 128#32
  let c0_i32_102 : BitVec 32 := 0#32
  let v197 : BitVec 1 := Scalar.cmpi .eq c128_i32_101 c0_i32_102
  let c1_i32_103 : BitVec 32 := 1#32
  let v198 : BitVec 32 := Scalar.select v197 c1_i32_103 c128_i32_101
  let v199 : BitVec 32 := Scalar.remsi v179 v198
  let c0_i32_105 : BitVec 32 := 0#32
  let v201 : BitVec 1 := Scalar.cmpi .slt v199 c0_i32_105
  let c0_i32_106 : BitVec 32 := 0#32
  let v202 : BitVec 1 := Scalar.cmpi .slt v198 c0_i32_106
  let v203 : BitVec 1 := Scalar.xori v201 v202
  let c0_i32_104 : BitVec 32 := 0#32
  let v200 : BitVec 1 := Scalar.cmpi .ne v199 c0_i32_104
  let v204 : BitVec 1 := Scalar.andi v203 v200
  let v205 : BitVec 32 := Scalar.addi v199 v198
  let v206 : BitVec 32 := Scalar.select v204 v205 v199
  let v208 : Index := Scalar.indexCast v206
  ![v207.toNat, v208.toNat]

def k0_chk29 (i : grid0.Coords) (v209 : IVec S16 32) : Prop :=
  (∀ (k0_h1 : k0_cond1 i = 1#1), ∀ a x, ((![v209] : Fin 1 → IVec S16 32) a x).toNat < S100000.size a)
instance k0_chk29.dec : ∀ (i : grid0.Coords) (v209 : IVec S16 32), Decidable (k0_chk29 i v209) := fun i v209 => decidable_of_iff' _ (Iff.of_eq (k0_chk29.eq_1 i v209))
theorem k0_idx29_inb : ∀ (i : grid0.Coords) (v209 : IVec S16 32) (k0_hw29 : k0_chk29 i v209), ∀ (k0_h1 : k0_cond1 i = 1#1), ∀ a x, ((![v209] : Fin 1 → IVec S16 32) a x).toNat < S100000.size a := fun i v209 k0_hw29 k0_h1 => k0_hw29 k0_h1
def k0_off64 (k0_t5 : Fin k0_t5_loop.trips) : Fin 1 → Nat :=
  let c0_i32_12 : BitVec 32 := 0#32
  let c1_i32_14 : BitVec 32 := 1#32
  let arg11 : BitVec 32 := Scf.iv c0_i32_12 c1_i32_14 k0_t5
  let c8_i32_107 : BitVec 32 := 8#32
  let v211 : BitVec 32 := Scalar.muli arg11 c8_i32_107
  let c4_i32_108 : BitVec 32 := 4#32
  let v212 : BitVec 32 := Scalar.addi v211 c4_i32_108
  let c16_i32_109 : BitVec 32 := 16#32
  let v213 : BitVec 32 := Scalar.muli v212 c16_i32_109
  let v214 : Index := Scalar.indexCast v213
  ![v214.toNat]
def k0_off65 (k0_t5 : Fin k0_t5_loop.trips) : Fin 2 → Nat :=
  let c8192_i32_112 : BitVec 32 := 8192#32
  let c0_i32_12 : BitVec 32 := 0#32
  let c1_i32_14 : BitVec 32 := 1#32
  let arg11 : BitVec 32 := Scf.iv c0_i32_12 c1_i32_14 k0_t5
  let c8_i32_110 : BitVec 32 := 8#32
  let v216 : BitVec 32 := Scalar.muli arg11 c8_i32_110
  let c5_i32 : BitVec 32 := 5#32
  let v217 : BitVec 32 := Scalar.addi v216 c5_i32
  let c16_i32_111 : BitVec 32 := 16#32
  let v218 : BitVec 32 := Scalar.muli v217 c16_i32_111
  let v219 : BitVec 32 := Scalar.addi c8192_i32_112 v218
  let c0_i32_114 : BitVec 32 := 0#32
  let v221 : BitVec 1 := Scalar.cmpi .sgt v219 c0_i32_114
  let v222 : BitVec 32 := Scalar.extui v221
  let c0_i32_115 : BitVec 32 := 0#32
  let v223 : BitVec 1 := Scalar.cmpi .slt v219 c0_i32_115
  let v224 : BitVec 32 := Scalar.extui v223
  let v225 : BitVec 32 := Scalar.subi v222 v224
  let c128_i32_113 : BitVec 32 := 128#32
  let c0_i32_116 : BitVec 32 := 0#32
  let v226 : BitVec 1 := Scalar.cmpi .sgt c128_i32_113 c0_i32_116
  let v227 : BitVec 32 := Scalar.extui v226
  let c0_i32_117 : BitVec 32 := 0#32
  let v228 : BitVec 1 := Scalar.cmpi .slt c128_i32_113 c0_i32_117
  let v229 : BitVec 32 := Scalar.extui v228
  let v230 : BitVec 32 := Scalar.subi v227 v229
  let v231 : BitVec 1 := Scalar.cmpi .ne v225 v230
  let v232 : BitVec 32 := Scalar.remsi v219 c128_i32_113
  let c0_i32_118 : BitVec 32 := 0#32
  let v233 : BitVec 1 := Scalar.cmpi .ne v232 c0_i32_118
  let v234 : BitVec 1 := Scalar.andi v231 v233
  let v220 : BitVec 32 := Scalar.divsi v219 c128_i32_113
  let c1_i32_119 : BitVec 32 := 1#32
  let v235 : BitVec 32 := Scalar.subi v220 c1_i32_119
  let v236 : BitVec 32 := Scalar.select v234 v235 v220
  let v247 : Index := Scalar.indexCast v236
  let c128_i32_120 : BitVec 32 := 128#32
  let c0_i32_121 : BitVec 32 := 0#32
  let v237 : BitVec 1 := Scalar.cmpi .eq c128_i32_120 c0_i32_121
  let c1_i32_122 : BitVec 32 := 1#32
  let v238 : BitVec 32 := Scalar.select v237 c1_i32_122 c128_i32_120
  let v239 : BitVec 32 := Scalar.remsi v219 v238
  let c0_i32_124 : BitVec 32 := 0#32
  let v241 : BitVec 1 := Scalar.cmpi .slt v239 c0_i32_124
  let c0_i32_125 : BitVec 32 := 0#32
  let v242 : BitVec 1 := Scalar.cmpi .slt v238 c0_i32_125
  let v243 : BitVec 1 := Scalar.xori v241 v242
  let c0_i32_123 : BitVec 32 := 0#32
  let v240 : BitVec 1 := Scalar.cmpi .ne v239 c0_i32_123
  let v244 : BitVec 1 := Scalar.andi v243 v240
  let v245 : BitVec 32 := Scalar.addi v239 v238
  let v246 : BitVec 32 := Scalar.select v244 v245 v239
  let v248 : Index := Scalar.indexCast v246
  ![v247.toNat, v248.toNat]

def k0_chk30 (i : grid0.Coords) (v249 : IVec S16 32) : Prop :=
  (∀ (k0_h1 : k0_cond1 i = 1#1), ∀ a x, ((![v249] : Fin 1 → IVec S16 32) a x).toNat < S100000.size a)
instance k0_chk30.dec : ∀ (i : grid0.Coords) (v249 : IVec S16 32), Decidable (k0_chk30 i v249) := fun i v249 => decidable_of_iff' _ (Iff.of_eq (k0_chk30.eq_1 i v249))
theorem k0_idx30_inb : ∀ (i : grid0.Coords) (v249 : IVec S16 32) (k0_hw30 : k0_chk30 i v249), ∀ (k0_h1 : k0_cond1 i = 1#1), ∀ a x, ((![v249] : Fin 1 → IVec S16 32) a x).toNat < S100000.size a := fun i v249 k0_hw30 k0_h1 => k0_hw30 k0_h1
def k0_off66 (k0_t5 : Fin k0_t5_loop.trips) : Fin 1 → Nat :=
  let c0_i32_12 : BitVec 32 := 0#32
  let c1_i32_14 : BitVec 32 := 1#32
  let arg11 : BitVec 32 := Scf.iv c0_i32_12 c1_i32_14 k0_t5
  let c8_i32_126 : BitVec 32 := 8#32
  let v251 : BitVec 32 := Scalar.muli arg11 c8_i32_126
  let c5_i32_127 : BitVec 32 := 5#32
  let v252 : BitVec 32 := Scalar.addi v251 c5_i32_127
  let c16_i32_128 : BitVec 32 := 16#32
  let v253 : BitVec 32 := Scalar.muli v252 c16_i32_128
  let v254 : Index := Scalar.indexCast v253
  ![v254.toNat]
def k0_off67 (k0_t5 : Fin k0_t5_loop.trips) : Fin 2 → Nat :=
  let c8192_i32_131 : BitVec 32 := 8192#32
  let c0_i32_12 : BitVec 32 := 0#32
  let c1_i32_14 : BitVec 32 := 1#32
  let arg11 : BitVec 32 := Scf.iv c0_i32_12 c1_i32_14 k0_t5
  let c8_i32_129 : BitVec 32 := 8#32
  let v256 : BitVec 32 := Scalar.muli arg11 c8_i32_129
  let c6_i32 : BitVec 32 := 6#32
  let v257 : BitVec 32 := Scalar.addi v256 c6_i32
  let c16_i32_130 : BitVec 32 := 16#32
  let v258 : BitVec 32 := Scalar.muli v257 c16_i32_130
  let v259 : BitVec 32 := Scalar.addi c8192_i32_131 v258
  let c0_i32_133 : BitVec 32 := 0#32
  let v261 : BitVec 1 := Scalar.cmpi .sgt v259 c0_i32_133
  let v262 : BitVec 32 := Scalar.extui v261
  let c0_i32_134 : BitVec 32 := 0#32
  let v263 : BitVec 1 := Scalar.cmpi .slt v259 c0_i32_134
  let v264 : BitVec 32 := Scalar.extui v263
  let v265 : BitVec 32 := Scalar.subi v262 v264
  let c128_i32_132 : BitVec 32 := 128#32
  let c0_i32_135 : BitVec 32 := 0#32
  let v266 : BitVec 1 := Scalar.cmpi .sgt c128_i32_132 c0_i32_135
  let v267 : BitVec 32 := Scalar.extui v266
  let c0_i32_136 : BitVec 32 := 0#32
  let v268 : BitVec 1 := Scalar.cmpi .slt c128_i32_132 c0_i32_136
  let v269 : BitVec 32 := Scalar.extui v268
  let v270 : BitVec 32 := Scalar.subi v267 v269
  let v271 : BitVec 1 := Scalar.cmpi .ne v265 v270
  let v272 : BitVec 32 := Scalar.remsi v259 c128_i32_132
  let c0_i32_137 : BitVec 32 := 0#32
  let v273 : BitVec 1 := Scalar.cmpi .ne v272 c0_i32_137
  let v274 : BitVec 1 := Scalar.andi v271 v273
  let v260 : BitVec 32 := Scalar.divsi v259 c128_i32_132
  let c1_i32_138 : BitVec 32 := 1#32
  let v275 : BitVec 32 := Scalar.subi v260 c1_i32_138
  let v276 : BitVec 32 := Scalar.select v274 v275 v260
  let v287 : Index := Scalar.indexCast v276
  let c128_i32_139 : BitVec 32 := 128#32
  let c0_i32_140 : BitVec 32 := 0#32
  let v277 : BitVec 1 := Scalar.cmpi .eq c128_i32_139 c0_i32_140
  let c1_i32_141 : BitVec 32 := 1#32
  let v278 : BitVec 32 := Scalar.select v277 c1_i32_141 c128_i32_139
  let v279 : BitVec 32 := Scalar.remsi v259 v278
  let c0_i32_143 : BitVec 32 := 0#32
  let v281 : BitVec 1 := Scalar.cmpi .slt v279 c0_i32_143
  let c0_i32_144 : BitVec 32 := 0#32
  let v282 : BitVec 1 := Scalar.cmpi .slt v278 c0_i32_144
  let v283 : BitVec 1 := Scalar.xori v281 v282
  let c0_i32_142 : BitVec 32 := 0#32
  let v280 : BitVec 1 := Scalar.cmpi .ne v279 c0_i32_142
  let v284 : BitVec 1 := Scalar.andi v283 v280
  let v285 : BitVec 32 := Scalar.addi v279 v278
  let v286 : BitVec 32 := Scalar.select v284 v285 v279
  let v288 : Index := Scalar.indexCast v286
  ![v287.toNat, v288.toNat]

def k0_chk31 (i : grid0.Coords) (v289 : IVec S16 32) : Prop :=
  (∀ (k0_h1 : k0_cond1 i = 1#1), ∀ a x, ((![v289] : Fin 1 → IVec S16 32) a x).toNat < S100000.size a)
instance k0_chk31.dec : ∀ (i : grid0.Coords) (v289 : IVec S16 32), Decidable (k0_chk31 i v289) := fun i v289 => decidable_of_iff' _ (Iff.of_eq (k0_chk31.eq_1 i v289))
theorem k0_idx31_inb : ∀ (i : grid0.Coords) (v289 : IVec S16 32) (k0_hw31 : k0_chk31 i v289), ∀ (k0_h1 : k0_cond1 i = 1#1), ∀ a x, ((![v289] : Fin 1 → IVec S16 32) a x).toNat < S100000.size a := fun i v289 k0_hw31 k0_h1 => k0_hw31 k0_h1
def k0_off68 (k0_t5 : Fin k0_t5_loop.trips) : Fin 1 → Nat :=
  let c0_i32_12 : BitVec 32 := 0#32
  let c1_i32_14 : BitVec 32 := 1#32
  let arg11 : BitVec 32 := Scf.iv c0_i32_12 c1_i32_14 k0_t5
  let c8_i32_145 : BitVec 32 := 8#32
  let v291 : BitVec 32 := Scalar.muli arg11 c8_i32_145
  let c6_i32_146 : BitVec 32 := 6#32
  let v292 : BitVec 32 := Scalar.addi v291 c6_i32_146
  let c16_i32_147 : BitVec 32 := 16#32
  let v293 : BitVec 32 := Scalar.muli v292 c16_i32_147
  let v294 : Index := Scalar.indexCast v293
  ![v294.toNat]
def k0_off69 (k0_t5 : Fin k0_t5_loop.trips) : Fin 2 → Nat :=
  let c8192_i32_150 : BitVec 32 := 8192#32
  let c0_i32_12 : BitVec 32 := 0#32
  let c1_i32_14 : BitVec 32 := 1#32
  let arg11 : BitVec 32 := Scf.iv c0_i32_12 c1_i32_14 k0_t5
  let c8_i32_148 : BitVec 32 := 8#32
  let v296 : BitVec 32 := Scalar.muli arg11 c8_i32_148
  let c7_i32 : BitVec 32 := 7#32
  let v297 : BitVec 32 := Scalar.addi v296 c7_i32
  let c16_i32_149 : BitVec 32 := 16#32
  let v298 : BitVec 32 := Scalar.muli v297 c16_i32_149
  let v299 : BitVec 32 := Scalar.addi c8192_i32_150 v298
  let c0_i32_152 : BitVec 32 := 0#32
  let v301 : BitVec 1 := Scalar.cmpi .sgt v299 c0_i32_152
  let v302 : BitVec 32 := Scalar.extui v301
  let c0_i32_153 : BitVec 32 := 0#32
  let v303 : BitVec 1 := Scalar.cmpi .slt v299 c0_i32_153
  let v304 : BitVec 32 := Scalar.extui v303
  let v305 : BitVec 32 := Scalar.subi v302 v304
  let c128_i32_151 : BitVec 32 := 128#32
  let c0_i32_154 : BitVec 32 := 0#32
  let v306 : BitVec 1 := Scalar.cmpi .sgt c128_i32_151 c0_i32_154
  let v307 : BitVec 32 := Scalar.extui v306
  let c0_i32_155 : BitVec 32 := 0#32
  let v308 : BitVec 1 := Scalar.cmpi .slt c128_i32_151 c0_i32_155
  let v309 : BitVec 32 := Scalar.extui v308
  let v310 : BitVec 32 := Scalar.subi v307 v309
  let v311 : BitVec 1 := Scalar.cmpi .ne v305 v310
  let v312 : BitVec 32 := Scalar.remsi v299 c128_i32_151
  let c0_i32_156 : BitVec 32 := 0#32
  let v313 : BitVec 1 := Scalar.cmpi .ne v312 c0_i32_156
  let v314 : BitVec 1 := Scalar.andi v311 v313
  let v300 : BitVec 32 := Scalar.divsi v299 c128_i32_151
  let c1_i32_157 : BitVec 32 := 1#32
  let v315 : BitVec 32 := Scalar.subi v300 c1_i32_157
  let v316 : BitVec 32 := Scalar.select v314 v315 v300
  let v327 : Index := Scalar.indexCast v316
  let c128_i32_158 : BitVec 32 := 128#32
  let c0_i32_159 : BitVec 32 := 0#32
  let v317 : BitVec 1 := Scalar.cmpi .eq c128_i32_158 c0_i32_159
  let c1_i32_160 : BitVec 32 := 1#32
  let v318 : BitVec 32 := Scalar.select v317 c1_i32_160 c128_i32_158
  let v319 : BitVec 32 := Scalar.remsi v299 v318
  let c0_i32_162 : BitVec 32 := 0#32
  let v321 : BitVec 1 := Scalar.cmpi .slt v319 c0_i32_162
  let c0_i32_163 : BitVec 32 := 0#32
  let v322 : BitVec 1 := Scalar.cmpi .slt v318 c0_i32_163
  let v323 : BitVec 1 := Scalar.xori v321 v322
  let c0_i32_161 : BitVec 32 := 0#32
  let v320 : BitVec 1 := Scalar.cmpi .ne v319 c0_i32_161
  let v324 : BitVec 1 := Scalar.andi v323 v320
  let v325 : BitVec 32 := Scalar.addi v319 v318
  let v326 : BitVec 32 := Scalar.select v324 v325 v319
  let v328 : Index := Scalar.indexCast v326
  ![v327.toNat, v328.toNat]

def k0_chk32 (i : grid0.Coords) (v329 : IVec S16 32) : Prop :=
  (∀ (k0_h1 : k0_cond1 i = 1#1), ∀ a x, ((![v329] : Fin 1 → IVec S16 32) a x).toNat < S100000.size a)
instance k0_chk32.dec : ∀ (i : grid0.Coords) (v329 : IVec S16 32), Decidable (k0_chk32 i v329) := fun i v329 => decidable_of_iff' _ (Iff.of_eq (k0_chk32.eq_1 i v329))
theorem k0_idx32_inb : ∀ (i : grid0.Coords) (v329 : IVec S16 32) (k0_hw32 : k0_chk32 i v329), ∀ (k0_h1 : k0_cond1 i = 1#1), ∀ a x, ((![v329] : Fin 1 → IVec S16 32) a x).toNat < S100000.size a := fun i v329 k0_hw32 k0_h1 => k0_hw32 k0_h1
def k0_off70 (k0_t5 : Fin k0_t5_loop.trips) : Fin 1 → Nat :=
  let c0_i32_12 : BitVec 32 := 0#32
  let c1_i32_14 : BitVec 32 := 1#32
  let arg11 : BitVec 32 := Scf.iv c0_i32_12 c1_i32_14 k0_t5
  let c8_i32_164 : BitVec 32 := 8#32
  let v331 : BitVec 32 := Scalar.muli arg11 c8_i32_164
  let c7_i32_165 : BitVec 32 := 7#32
  let v332 : BitVec 32 := Scalar.addi v331 c7_i32_165
  let c16_i32_166 : BitVec 32 := 16#32
  let v333 : BitVec 32 := Scalar.muli v332 c16_i32_166
  let v334 : Index := Scalar.indexCast v333
  ![v334.toNat]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S416x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S26x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S26x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S200x416 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S200x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S200x200 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S200x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S200x200 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S200x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2x3 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x26x1_S16384x26 : S16384x26x1.ShapeCasts S16384x26
  transposes_S16384x26_S26x16384_1_0 : S16384x26.Transposes [1, 0] S26x16384
  shapeCasts_S26x16384_S26x128x128 : S26x16384.ShapeCasts S26x128x128
  transposes_S26x100000x16_S26x16x100000_0_2_1 : S26x100000x16.Transposes [0, 2, 1] S26x16x100000
  shapeCasts_S26x16x100000_S416x100000 : S26x16x100000.ShapeCasts S416x100000
  shapeCasts_S26x100000x1_S26x100000 : S26x100000x1.ShapeCasts S26x100000
  squeezes_S1x128x128_S128x128 : S1x128x128.Squeezes S128x128
  squeezes_S1x100000_S100000 : S1x100000.Squeezes S100000
  h_S1x16 : 0 < S1x16.numel
  shapeCasts_S1x16_S16 : S1x16.ShapeCasts S16
  h_S100000 : 0 < S100000.numel
  h_S16 : 0 < S16.numel
  squeezes_S1x16384_S16384 : S1x16384.Squeezes S16384
  inb_S16384_S8192_0 : ∀ a, (![0] : Fin 1 → Nat) a + S8192.size a ≤ S16384.size a
  inb_S16384_S8192_8192 : ∀ a, (![8192] : Fin 1 → Nat) a + S8192.size a ≤ S16384.size a
  shapeCasts_S200_S200x1 : S200.ShapeCasts S200x1
  shapeCasts_S2_S2x1 : S2.ShapeCasts S2x1
  inb_S416x1024_S416x1024_0_0 : ∀ a, (![0, 0] : Fin 2 → Nat) a + S416x1024.size a ≤ S416x1024.size a
  h_S416x1024 : 0 < S416x1024.numel
  shapeCasts_S416x1024_S416x1024 : S416x1024.ShapeCasts S416x1024
  inb_S26x1024_S26x1024_0_0 : ∀ a, (![0, 0] : Fin 2 → Nat) a + S26x1024.size a ≤ S26x1024.size a
  h_S26x1024 : 0 < S26x1024.numel
  shapeCasts_S26x1024_S26x1024 : S26x1024.ShapeCasts S26x1024
  shapeCasts_S416x1024_S26x16x1024 : S416x1024.ShapeCasts S26x16x1024
  shapeCasts_S26x1024_S26x1x1024 : S26x1024.ShapeCasts S26x1x1024
  broadcasts_S26x1x1024_S26x16x1024 : S26x1x1024.Broadcasts S26x16x1024
  reduces_S26x16x1024_S16x1024 : S26x16x1024.Reduces [0] S16x1024
  shapeCasts_S16x1024_S1x16x1024 : S16x1024.ShapeCasts S1x16x1024
  broadcasts_S1x16x1024_S26x16x1024 : S1x16x1024.Broadcasts S26x16x1024
  reduces_S16x1024_S1024 : S16x1024.Reduces [0] S1024
  shapeCasts_S1024_S1x1024 : S1024.ShapeCasts S1x1024
  reduces_S26x1024_S1024 : S26x1024.Reduces [0] S1024
  shapeCasts_S26x16x1024_S416x1024 : S26x16x1024.ShapeCasts S416x1024
  inb_S200x416_S200x416_0_0 : ∀ a, (![0, 0] : Fin 2 → Nat) a + S200x416.size a ≤ S200x416.size a
  h_S200x416 : 0 < S200x416.numel
  inb_S200x1_S200x1_0_0 : ∀ a, (![0, 0] : Fin 2 → Nat) a + S200x1.size a ≤ S200x1.size a
  h_S200x1 : 0 < S200x1.numel
  shapeCasts_S200x1_S200x1 : S200x1.ShapeCasts S200x1
  broadcasts_S200x1_S200x1024 : S200x1.Broadcasts S200x1024
  inb_S200x200_S200x200_0_0 : ∀ a, (![0, 0] : Fin 2 → Nat) a + S200x200.size a ≤ S200x200.size a
  h_S200x200 : 0 < S200x200.numel
  reduces_S200x1024_S1024 : S200x1024.Reduces [0] S1024
  concatenates_S1x1024_S1x1024_S1x1024_S3x1024_d0 : Shape.Concatenates [S1x1024, S1x1024, S1x1024] S3x1024 0
  inb_S2x3_S2x3_0_0 : ∀ a, (![0, 0] : Fin 2 → Nat) a + S2x3.size a ≤ S2x3.size a
  h_S2x3 : 0 < S2x3.numel
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x1024 : S2x1.Broadcasts S2x1024
  inb_S2x1024_S2x1024_0_0 : ∀ a, (![0, 0] : Fin 2 → Nat) a + S2x1024.size a ≤ S2x1024.size a
  h_S2x1024 : 0 < S2x1024.numel
  transposes_S2x16384_S16384x2_1_0 : S2x16384.Transposes [1, 0] S16384x2
  dot_S200x416_S416x1024_S200x1024_1_0_0_1_n_n_wf : DotDims.WF S200x416 S416x1024 S200x1024 [1] [0] [0] [1] [] []
  dot_S200x200_S200x1024_S200x1024_1_0_0_1_n_n_wf : DotDims.WF S200x200 S200x1024 S200x1024 [1] [0] [0] [1] [] []
  dot_S2x3_S3x1024_S2x1024_1_0_0_1_n_n_wf : DotDims.WF S2x3 S3x1024 S2x1024 [1] [0] [0] [1] [] []
  hcc0_scratch3 : 0 + S_.numel ≤ 23
  hcc0_scoped0 : 1 + S_.numel ≤ 23
  hcc0_scoped1 : 2 + S_.numel ≤ 23
  hcc0_scoped2 : 3 + S_.numel ≤ 23
  hcc0_scoped3 : 4 + S_.numel ≤ 23
  hcc0_scoped4 : 5 + S_.numel ≤ 23
  hcc0_scoped5 : 6 + S_.numel ≤ 23
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S1x128x128.size a ≤ S26x128x128.size a
  k0_off2_inb : ∀ (i : grid0.Coords) (k0_t1 : Fin k0_t1_loop.trips), ∀ a, (k0_off2 i k0_t1) a + S1x100000.size a ≤ S416x100000.size a
  k0_t2_ok : k0_t2_loop.OK
  k0_off3_inb : ∀ k0_t2 : Fin k0_t2_loop.trips, ∀ a, (k0_off3 k0_t2) a + S1x16.size a ≤ S128x128.size a
  k0_off4_inb : ∀ k0_t2 : Fin k0_t2_loop.trips, ∀ a, (k0_off4 k0_t2) a + S16.size a ≤ S8192.size a
  k0_off5_inb : ∀ k0_t2 : Fin k0_t2_loop.trips, ∀ a, (k0_off5 k0_t2) a + S1x16.size a ≤ S128x128.size a
  k0_off6_inb : ∀ k0_t2 : Fin k0_t2_loop.trips, ∀ a, (k0_off6 k0_t2) a + S16.size a ≤ S8192.size a
  k0_off7_inb : ∀ k0_t2 : Fin k0_t2_loop.trips, ∀ a, (k0_off7 k0_t2) a + S1x16.size a ≤ S128x128.size a
  k0_off8_inb : ∀ k0_t2 : Fin k0_t2_loop.trips, ∀ a, (k0_off8 k0_t2) a + S16.size a ≤ S8192.size a
  k0_off9_inb : ∀ k0_t2 : Fin k0_t2_loop.trips, ∀ a, (k0_off9 k0_t2) a + S1x16.size a ≤ S128x128.size a
  k0_off10_inb : ∀ k0_t2 : Fin k0_t2_loop.trips, ∀ a, (k0_off10 k0_t2) a + S16.size a ≤ S8192.size a
  k0_off11_inb : ∀ k0_t2 : Fin k0_t2_loop.trips, ∀ a, (k0_off11 k0_t2) a + S1x16.size a ≤ S128x128.size a
  k0_off12_inb : ∀ k0_t2 : Fin k0_t2_loop.trips, ∀ a, (k0_off12 k0_t2) a + S16.size a ≤ S8192.size a
  k0_off13_inb : ∀ k0_t2 : Fin k0_t2_loop.trips, ∀ a, (k0_off13 k0_t2) a + S1x16.size a ≤ S128x128.size a
  k0_off14_inb : ∀ k0_t2 : Fin k0_t2_loop.trips, ∀ a, (k0_off14 k0_t2) a + S16.size a ≤ S8192.size a
  k0_off15_inb : ∀ k0_t2 : Fin k0_t2_loop.trips, ∀ a, (k0_off15 k0_t2) a + S1x16.size a ≤ S128x128.size a
  k0_off16_inb : ∀ k0_t2 : Fin k0_t2_loop.trips, ∀ a, (k0_off16 k0_t2) a + S16.size a ≤ S8192.size a
  k0_off17_inb : ∀ k0_t2 : Fin k0_t2_loop.trips, ∀ a, (k0_off17 k0_t2) a + S1x16.size a ≤ S128x128.size a
  k0_off18_inb : ∀ k0_t2 : Fin k0_t2_loop.trips, ∀ a, (k0_off18 k0_t2) a + S16.size a ≤ S8192.size a
  k0_off19_inb : ∀ (i : grid0.Coords) (k0_t1 : Fin k0_t1_loop.trips), ∀ a, (k0_off19 i k0_t1) a + S1x16384.size a ≤ S416x16384.size a
  k0_t3_ok : k0_t3_loop.OK
  k0_off20_inb : ∀ k0_t3 : Fin k0_t3_loop.trips, ∀ a, (k0_off20 k0_t3) a + S1x16.size a ≤ S128x128.size a
  k0_off21_inb : ∀ k0_t3 : Fin k0_t3_loop.trips, ∀ a, (k0_off21 k0_t3) a + S16.size a ≤ S8192.size a
  k0_off22_inb : ∀ k0_t3 : Fin k0_t3_loop.trips, ∀ a, (k0_off22 k0_t3) a + S1x16.size a ≤ S128x128.size a
  k0_off23_inb : ∀ k0_t3 : Fin k0_t3_loop.trips, ∀ a, (k0_off23 k0_t3) a + S16.size a ≤ S8192.size a
  k0_off24_inb : ∀ k0_t3 : Fin k0_t3_loop.trips, ∀ a, (k0_off24 k0_t3) a + S1x16.size a ≤ S128x128.size a
  k0_off25_inb : ∀ k0_t3 : Fin k0_t3_loop.trips, ∀ a, (k0_off25 k0_t3) a + S16.size a ≤ S8192.size a
  k0_off26_inb : ∀ k0_t3 : Fin k0_t3_loop.trips, ∀ a, (k0_off26 k0_t3) a + S1x16.size a ≤ S128x128.size a
  k0_off27_inb : ∀ k0_t3 : Fin k0_t3_loop.trips, ∀ a, (k0_off27 k0_t3) a + S16.size a ≤ S8192.size a
  k0_off28_inb : ∀ k0_t3 : Fin k0_t3_loop.trips, ∀ a, (k0_off28 k0_t3) a + S1x16.size a ≤ S128x128.size a
  k0_off29_inb : ∀ k0_t3 : Fin k0_t3_loop.trips, ∀ a, (k0_off29 k0_t3) a + S16.size a ≤ S8192.size a
  k0_off30_inb : ∀ k0_t3 : Fin k0_t3_loop.trips, ∀ a, (k0_off30 k0_t3) a + S1x16.size a ≤ S128x128.size a
  k0_off31_inb : ∀ k0_t3 : Fin k0_t3_loop.trips, ∀ a, (k0_off31 k0_t3) a + S16.size a ≤ S8192.size a
  k0_off32_inb : ∀ k0_t3 : Fin k0_t3_loop.trips, ∀ a, (k0_off32 k0_t3) a + S1x16.size a ≤ S128x128.size a
  k0_off33_inb : ∀ k0_t3 : Fin k0_t3_loop.trips, ∀ a, (k0_off33 k0_t3) a + S16.size a ≤ S8192.size a
  k0_off34_inb : ∀ k0_t3 : Fin k0_t3_loop.trips, ∀ a, (k0_off34 k0_t3) a + S1x16.size a ≤ S128x128.size a
  k0_off35_inb : ∀ k0_t3 : Fin k0_t3_loop.trips, ∀ a, (k0_off35 k0_t3) a + S16.size a ≤ S8192.size a
  k0_off36_inb : ∀ i : grid0.Coords, ∀ (k0_h1 : k0_cond1 i = 1#1), ∀ a, (k0_off36 i) a + S1x128x128.size a ≤ S26x128x128.size a
  k0_off37_inb : ∀ i : grid0.Coords, ∀ (k0_h1 : k0_cond1 i = 1#1), ∀ a, (k0_off37 i) a + S1x100000.size a ≤ S26x100000.size a
  k0_t4_ok : ∀ i : grid0.Coords, ∀ (k0_h1 : k0_cond1 i = 1#1), k0_t4_loop.OK
  k0_off38_inb : ∀ (i : grid0.Coords) (k0_t4 : Fin k0_t4_loop.trips), ∀ (k0_h1 : k0_cond1 i = 1#1), ∀ a, (k0_off38 k0_t4) a + S1x16.size a ≤ S128x128.size a
  k0_off39_inb : ∀ (i : grid0.Coords) (k0_t4 : Fin k0_t4_loop.trips), ∀ (k0_h1 : k0_cond1 i = 1#1), ∀ a, (k0_off39 k0_t4) a + S16.size a ≤ S8192.size a
  k0_off40_inb : ∀ (i : grid0.Coords) (k0_t4 : Fin k0_t4_loop.trips), ∀ (k0_h1 : k0_cond1 i = 1#1), ∀ a, (k0_off40 k0_t4) a + S1x16.size a ≤ S128x128.size a
  k0_off41_inb : ∀ (i : grid0.Coords) (k0_t4 : Fin k0_t4_loop.trips), ∀ (k0_h1 : k0_cond1 i = 1#1), ∀ a, (k0_off41 k0_t4) a + S16.size a ≤ S8192.size a
  k0_off42_inb : ∀ (i : grid0.Coords) (k0_t4 : Fin k0_t4_loop.trips), ∀ (k0_h1 : k0_cond1 i = 1#1), ∀ a, (k0_off42 k0_t4) a + S1x16.size a ≤ S128x128.size a
  k0_off43_inb : ∀ (i : grid0.Coords) (k0_t4 : Fin k0_t4_loop.trips), ∀ (k0_h1 : k0_cond1 i = 1#1), ∀ a, (k0_off43 k0_t4) a + S16.size a ≤ S8192.size a
  k0_off44_inb : ∀ (i : grid0.Coords) (k0_t4 : Fin k0_t4_loop.trips), ∀ (k0_h1 : k0_cond1 i = 1#1), ∀ a, (k0_off44 k0_t4) a + S1x16.size a ≤ S128x128.size a
  k0_off45_inb : ∀ (i : grid0.Coords) (k0_t4 : Fin k0_t4_loop.trips), ∀ (k0_h1 : k0_cond1 i = 1#1), ∀ a, (k0_off45 k0_t4) a + S16.size a ≤ S8192.size a
  k0_off46_inb : ∀ (i : grid0.Coords) (k0_t4 : Fin k0_t4_loop.trips), ∀ (k0_h1 : k0_cond1 i = 1#1), ∀ a, (k0_off46 k0_t4) a + S1x16.size a ≤ S128x128.size a
  k0_off47_inb : ∀ (i : grid0.Coords) (k0_t4 : Fin k0_t4_loop.trips), ∀ (k0_h1 : k0_cond1 i = 1#1), ∀ a, (k0_off47 k0_t4) a + S16.size a ≤ S8192.size a
  k0_off48_inb : ∀ (i : grid0.Coords) (k0_t4 : Fin k0_t4_loop.trips), ∀ (k0_h1 : k0_cond1 i = 1#1), ∀ a, (k0_off48 k0_t4) a + S1x16.size a ≤ S128x128.size a
  k0_off49_inb : ∀ (i : grid0.Coords) (k0_t4 : Fin k0_t4_loop.trips), ∀ (k0_h1 : k0_cond1 i = 1#1), ∀ a, (k0_off49 k0_t4) a + S16.size a ≤ S8192.size a
  k0_off50_inb : ∀ (i : grid0.Coords) (k0_t4 : Fin k0_t4_loop.trips), ∀ (k0_h1 : k0_cond1 i = 1#1), ∀ a, (k0_off50 k0_t4) a + S1x16.size a ≤ S128x128.size a
  k0_off51_inb : ∀ (i : grid0.Coords) (k0_t4 : Fin k0_t4_loop.trips), ∀ (k0_h1 : k0_cond1 i = 1#1), ∀ a, (k0_off51 k0_t4) a + S16.size a ≤ S8192.size a
  k0_off52_inb : ∀ (i : grid0.Coords) (k0_t4 : Fin k0_t4_loop.trips), ∀ (k0_h1 : k0_cond1 i = 1#1), ∀ a, (k0_off52 k0_t4) a + S1x16.size a ≤ S128x128.size a
  k0_off53_inb : ∀ (i : grid0.Coords) (k0_t4 : Fin k0_t4_loop.trips), ∀ (k0_h1 : k0_cond1 i = 1#1), ∀ a, (k0_off53 k0_t4) a + S16.size a ≤ S8192.size a
  k0_off54_inb : ∀ i : grid0.Coords, ∀ (k0_h1 : k0_cond1 i = 1#1), ∀ a, (k0_off54 i) a + S1x16384.size a ≤ S26x16384.size a
  k0_t5_ok : ∀ i : grid0.Coords, ∀ (k0_h1 : k0_cond1 i = 1#1), k0_t5_loop.OK
  k0_off55_inb : ∀ (i : grid0.Coords) (k0_t5 : Fin k0_t5_loop.trips), ∀ (k0_h1 : k0_cond1 i = 1#1), ∀ a, (k0_off55 k0_t5) a + S1x16.size a ≤ S128x128.size a
  k0_off56_inb : ∀ (i : grid0.Coords) (k0_t5 : Fin k0_t5_loop.trips), ∀ (k0_h1 : k0_cond1 i = 1#1), ∀ a, (k0_off56 k0_t5) a + S16.size a ≤ S8192.size a
  k0_off57_inb : ∀ (i : grid0.Coords) (k0_t5 : Fin k0_t5_loop.trips), ∀ (k0_h1 : k0_cond1 i = 1#1), ∀ a, (k0_off57 k0_t5) a + S1x16.size a ≤ S128x128.size a
  k0_off58_inb : ∀ (i : grid0.Coords) (k0_t5 : Fin k0_t5_loop.trips), ∀ (k0_h1 : k0_cond1 i = 1#1), ∀ a, (k0_off58 k0_t5) a + S16.size a ≤ S8192.size a
  k0_off59_inb : ∀ (i : grid0.Coords) (k0_t5 : Fin k0_t5_loop.trips), ∀ (k0_h1 : k0_cond1 i = 1#1), ∀ a, (k0_off59 k0_t5) a + S1x16.size a ≤ S128x128.size a
  k0_off60_inb : ∀ (i : grid0.Coords) (k0_t5 : Fin k0_t5_loop.trips), ∀ (k0_h1 : k0_cond1 i = 1#1), ∀ a, (k0_off60 k0_t5) a + S16.size a ≤ S8192.size a
  k0_off61_inb : ∀ (i : grid0.Coords) (k0_t5 : Fin k0_t5_loop.trips), ∀ (k0_h1 : k0_cond1 i = 1#1), ∀ a, (k0_off61 k0_t5) a + S1x16.size a ≤ S128x128.size a
  k0_off62_inb : ∀ (i : grid0.Coords) (k0_t5 : Fin k0_t5_loop.trips), ∀ (k0_h1 : k0_cond1 i = 1#1), ∀ a, (k0_off62 k0_t5) a + S16.size a ≤ S8192.size a
  k0_off63_inb : ∀ (i : grid0.Coords) (k0_t5 : Fin k0_t5_loop.trips), ∀ (k0_h1 : k0_cond1 i = 1#1), ∀ a, (k0_off63 k0_t5) a + S1x16.size a ≤ S128x128.size a
  k0_off64_inb : ∀ (i : grid0.Coords) (k0_t5 : Fin k0_t5_loop.trips), ∀ (k0_h1 : k0_cond1 i = 1#1), ∀ a, (k0_off64 k0_t5) a + S16.size a ≤ S8192.size a
  k0_off65_inb : ∀ (i : grid0.Coords) (k0_t5 : Fin k0_t5_loop.trips), ∀ (k0_h1 : k0_cond1 i = 1#1), ∀ a, (k0_off65 k0_t5) a + S1x16.size a ≤ S128x128.size a
  k0_off66_inb : ∀ (i : grid0.Coords) (k0_t5 : Fin k0_t5_loop.trips), ∀ (k0_h1 : k0_cond1 i = 1#1), ∀ a, (k0_off66 k0_t5) a + S16.size a ≤ S8192.size a
  k0_off67_inb : ∀ (i : grid0.Coords) (k0_t5 : Fin k0_t5_loop.trips), ∀ (k0_h1 : k0_cond1 i = 1#1), ∀ a, (k0_off67 k0_t5) a + S1x16.size a ≤ S128x128.size a
  k0_off68_inb : ∀ (i : grid0.Coords) (k0_t5 : Fin k0_t5_loop.trips), ∀ (k0_h1 : k0_cond1 i = 1#1), ∀ a, (k0_off68 k0_t5) a + S16.size a ≤ S8192.size a
  k0_off69_inb : ∀ (i : grid0.Coords) (k0_t5 : Fin k0_t5_loop.trips), ∀ (k0_h1 : k0_cond1 i = 1#1), ∀ a, (k0_off69 k0_t5) a + S1x16.size a ≤ S128x128.size a
  k0_off70_inb : ∀ (i : grid0.Coords) (k0_t5 : Fin k0_t5_loop.trips), ∀ (k0_h1 : k0_cond1 i = 1#1), ∀ a, (k0_off70 k0_t5) a + S16.size a ≤ S8192.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S416x1024.size a ≤ S416x16384.size a
  hwx1_0 : ∀ i : grid1.Coords, EltTy.bits .f32 = 32 ∨ (Rect.block (s := S416x16384) S416x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S26x1024.size a ≤ S26x16384.size a
  hwx1_1 : ∀ i : grid1.Coords, EltTy.bits .f32 = 32 ∨ (Rect.block (s := S26x16384) S26x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S26x1024.size a ≤ S26x16384.size a
  hwx1_2 : ∀ i : grid1.Coords, EltTy.bits .f32 = 32 ∨ (Rect.block (s := S26x16384) S26x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S200x416.size a ≤ S200x416.size a
  hwx1_3 : ∀ i : grid1.Coords, EltTy.bits .f32 = 32 ∨ (Rect.block (s := S200x416) S200x416.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S200x1.size a ≤ S200x1.size a
  hwx1_4 : ∀ i : grid1.Coords, EltTy.bits .f32 = 32 ∨ (Rect.block (s := S200x1) S200x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S200x200.size a ≤ S200x200.size a
  hwx1_5 : ∀ i : grid1.Coords, EltTy.bits .f32 = 32 ∨ (Rect.block (s := S200x200) S200x200.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S200x1.size a ≤ S200x1.size a
  hwx1_6 : ∀ i : grid1.Coords, EltTy.bits .f32 = 32 ∨ (Rect.block (s := S200x1) S200x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S200x200.size a ≤ S200x200.size a
  hwx1_7 : ∀ i : grid1.Coords, EltTy.bits .f32 = 32 ∨ (Rect.block (s := S200x200) S200x200.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S200x1.size a ≤ S200x1.size a
  hwx1_8 : ∀ i : grid1.Coords, EltTy.bits .f32 = 32 ∨ (Rect.block (s := S200x1) S200x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S2x3.size a ≤ S2x3.size a
  hwx1_9 : ∀ i : grid1.Coords, EltTy.bits .f32 = 32 ∨ (Rect.block (s := S2x3) S2x3.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S2x1.size a ≤ S2x1.size a
  hwx1_10 : ∀ i : grid1.Coords, EltTy.bits .f32 = 32 ∨ (Rect.block (s := S2x1) S2x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2x1024.size a ≤ S2x16384.size a
  hwx1_11 : ∀ i : grid1.Coords, EltTy.bits .f32 = 32 ∨ (Rect.block (s := S2x16384) S2x1024.size (cc1_transform_11 i) (hinb1_11 i)).WholeWords (EltTy.packing .f32)

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
abbrev cc0_scoped4 : DmaSems sig S_ := SemArray.consecutive 5 S_ hcc0_scoped4
abbrev cc0_scoped5 : DmaSems sig S_ := SemArray.consecutive 6 S_ hcc0_scoped5
def dot_S200x416_S416x1024_S200x1024_1_0_0_1_n_n : DotDims S200x416 S416x1024 S200x1024 where
  lhsContracting := [1]
  rhsContracting := [0]
  lhsNonContracting := [0]
  rhsNonContracting := [1]
  lhsBatch := []
  rhsBatch := []
  wf := dot_S200x416_S416x1024_S200x1024_1_0_0_1_n_n_wf
def dot_S200x200_S200x1024_S200x1024_1_0_0_1_n_n : DotDims S200x200 S200x1024 S200x1024 where
  lhsContracting := [1]
  rhsContracting := [0]
  lhsNonContracting := [0]
  rhsNonContracting := [1]
  lhsBatch := []
  rhsBatch := []
  wf := dot_S200x200_S200x1024_S200x1024_1_0_0_1_n_n_wf
def dot_S2x3_S3x1024_S2x1024_1_0_0_1_n_n : DotDims S2x3 S3x1024 S2x1024 where
  lhsContracting := [1]
  rhsContracting := [0]
  lhsNonContracting := [0]
  rhsNonContracting := [1]
  lhsBatch := []
  rhsBatch := []
  wf := dot_S2x3_S3x1024_S2x1024_1_0_0_1_n_n_wf

abbrev win1_0 : Pipeline.Window sig grid1 :=
  Pipeline.Window.ofSpec (Memref.whole main_v6_0) S416x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S26x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S26x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S200x416.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S200x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S200x200.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S200x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S200x200.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S200x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S2x3.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v11) S2x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v12) S2x1024.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S16384x26x1 : Shape := ⟨3, ![16384, 26, 1]⟩
abbrev S16384x26 : Shape := ⟨2, ![16384, 26]⟩
abbrev S26x100000x1 : Shape := ⟨3, ![26, 100000, 1]⟩
abbrev S26x100000x16 : Shape := ⟨3, ![26, 100000, 16]⟩
abbrev S200x416 : Shape := ⟨2, ![200, 416]⟩
abbrev S200 : Shape := ⟨1, ![200]⟩
abbrev S200x200 : Shape := ⟨2, ![200, 200]⟩
abbrev S2x3 : Shape := ⟨2, ![2, 3]⟩
abbrev S2 : Shape := ⟨1, ![2]⟩
abbrev S26 : Shape := ⟨1, ![26]⟩
abbrev S1x26 : Shape := ⟨2, ![1, 26]⟩
abbrev S_ : Shape := ⟨0, ![]⟩
abbrev S16384x26x2 : Shape := ⟨3, ![16384, 26, 2]⟩
abbrev S16384x26x16 : Shape := ⟨3, ![16384, 26, 16]⟩
abbrev S16384x16 : Shape := ⟨2, ![16384, 16]⟩
abbrev S16384x1x16 : Shape := ⟨3, ![16384, 1, 16]⟩
abbrev S16384x416 : Shape := ⟨2, ![16384, 416]⟩
abbrev S416x200 : Shape := ⟨2, ![416, 200]⟩
abbrev S16384x200 : Shape := ⟨2, ![16384, 200]⟩
abbrev S1x200 : Shape := ⟨2, ![1, 200]⟩
abbrev S16384 : Shape := ⟨1, ![16384]⟩
abbrev S16384x1 : Shape := ⟨2, ![16384, 1]⟩
abbrev S16384x3 : Shape := ⟨2, ![16384, 3]⟩
abbrev S3x2 : Shape := ⟨2, ![3, 2]⟩
abbrev S16384x2 : Shape := ⟨2, ![16384, 2]⟩
abbrev S1x2 : Shape := ⟨2, ![1, 2]⟩

abbrev nBuf : Space → Nat
  | .hbm => 131
  | .vmem => 0
  | .smem => 0
  | _ => 0

abbrev hbmTy0_0 (i : Nat) : BufTy := match i % 128 with
  | 0 => ⟨S16384x26x1, .i32⟩
  | 1 => ⟨S16384x26, .f32⟩
  | 2 => ⟨S26x100000x1, .f32⟩
  | 3 => ⟨S26x100000x16, .f32⟩
  | 4 => ⟨S200x416, .f32⟩
  | 5 => ⟨S200, .f32⟩
  | 6 => ⟨S200x200, .f32⟩
  | 7 => ⟨S200, .f32⟩
  | 8 => ⟨S200x200, .f32⟩
  | 9 => ⟨S200, .f32⟩
  | 10 => ⟨S2x3, .f32⟩
  | 11 => ⟨S2, .f32⟩
  | 12 => ⟨S16384x26, .i32⟩
  | 13 => ⟨S26, .i32⟩
  | 14 => ⟨S1x26, .i32⟩
  | 15 => ⟨S_, .i32⟩
  | 16 => ⟨S1x26, .i32⟩
  | 17 => ⟨S1x26, .i1⟩
  | 18 => ⟨S_, .i32⟩
  | 19 => ⟨S1x26, .i32⟩
  | 20 => ⟨S1x26, .i32⟩
  | 21 => ⟨S1x26, .i32⟩
  | 22 => ⟨S_, .i32⟩
  | 23 => ⟨S16384x26, .i32⟩
  | 24 => ⟨S16384x26, .i1⟩
  | 25 => ⟨S_, .i32⟩
  | 26 => ⟨S16384x26, .i32⟩
  | 27 => ⟨S16384x26, .i32⟩
  | 28 => ⟨S16384x26, .i32⟩
  | 29 => ⟨S16384x26, .i32⟩
  | 30 => ⟨S16384x26x1, .i32⟩
  | 31 => ⟨S16384x26x1, .i32⟩
  | 32 => ⟨S16384x26x2, .i32⟩
  | 33 => ⟨S16384x26x1, .f32⟩
  | 34 => ⟨S16384x26, .f32⟩
  | 35 => ⟨S16384x26, .f32⟩
  | 36 => ⟨S_, .i32⟩
  | 37 => ⟨S1x26, .i32⟩
  | 38 => ⟨S1x26, .i1⟩
  | 39 => ⟨S_, .i32⟩
  | 40 => ⟨S1x26, .i32⟩
  | 41 => ⟨S1x26, .i32⟩
  | 42 => ⟨S1x26, .i32⟩
  | 43 => ⟨S_, .i32⟩
  | 44 => ⟨S16384x26, .i32⟩
  | 45 => ⟨S16384x26, .i1⟩
  | 46 => ⟨S_, .i32⟩
  | 47 => ⟨S16384x26, .i32⟩
  | 48 => ⟨S16384x26, .i32⟩
  | 49 => ⟨S16384x26, .i32⟩
  | 50 => ⟨S16384x26, .i32⟩
  | 51 => ⟨S16384x26x1, .i32⟩
  | 52 => ⟨S16384x26x1, .i32⟩
  | 53 => ⟨S16384x26x2, .i32⟩
  | 54 => ⟨S16384x26x16, .f32⟩
  | 55 => ⟨S16384x26x1, .f32⟩
  | 56 => ⟨S16384x26x16, .f32⟩
  | 57 => ⟨S16384x26x16, .f32⟩
  | 58 => ⟨S16384x26x16, .f32⟩
  | 59 => ⟨S_, .f32⟩
  | 60 => ⟨S16384x16, .f32⟩
  | 61 => ⟨S16384x1x16, .f32⟩
  | 62 => ⟨S16384x1x16, .f32⟩
  | 63 => ⟨S_, .f32⟩
  | 64 => ⟨S16384x1x16, .f32⟩
  | 65 => ⟨S16384x1x16, .f32⟩
  | 66 => ⟨S16384x26x16, .f32⟩
  | 67 => ⟨S16384x26x16, .f32⟩
  | 68 => ⟨S_, .f32⟩
  | 69 => ⟨S16384x16, .f32⟩
  | 70 => ⟨S_, .f32⟩
  | 71 => ⟨S16384x16, .f32⟩
  | 72 => ⟨S16384x16, .f32⟩
  | 73 => ⟨S_, .f32⟩
  | 74 => ⟨S16384x26x16, .f32⟩
  | 75 => ⟨S16384x26x16, .f32⟩
  | 76 => ⟨S_, .f32⟩
  | 77 => ⟨S16384x16, .f32⟩
  | 78 => ⟨S16384x16, .f32⟩
  | 79 => ⟨S_, .f32⟩
  | 80 => ⟨S16384x16, .f32⟩
  | 81 => ⟨S16384x16, .f32⟩
  | 82 => ⟨S16384x416, .f32⟩
  | 83 => ⟨S416x200, .f32⟩
  | 84 => ⟨S16384x200, .f32⟩
  | 85 => ⟨S1x200, .f32⟩
  | 86 => ⟨S16384x200, .f32⟩
  | 87 => ⟨S16384x200, .f32⟩
  | 88 => ⟨S_, .f32⟩
  | 89 => ⟨S16384x200, .f32⟩
  | 90 => ⟨S16384x200, .f32⟩
  | 91 => ⟨S_, .f32⟩
  | 92 => ⟨S16384x200, .f32⟩
  | 93 => ⟨S16384x200, .f32⟩
  | 94 => ⟨S200x200, .f32⟩
  | 95 => ⟨S16384x200, .f32⟩
  | 96 => ⟨S1x200, .f32⟩
  | 97 => ⟨S16384x200, .f32⟩
  | 98 => ⟨S16384x200, .f32⟩
  | 99 => ⟨S_, .f32⟩
  | 100 => ⟨S16384x200, .f32⟩
  | 101 => ⟨S16384x200, .f32⟩
  | 102 => ⟨S_, .f32⟩
  | 103 => ⟨S16384x200, .f32⟩
  | 104 => ⟨S16384x200, .f32⟩
  | 105 => ⟨S200x200, .f32⟩
  | 106 => ⟨S16384x200, .f32⟩
  | 107 => ⟨S1x200, .f32⟩
  | 108 => ⟨S16384x200, .f32⟩
  | 109 => ⟨S16384x200, .f32⟩
  | 110 => ⟨S_, .f32⟩
  | 111 => ⟨S16384x200, .f32⟩
  | 112 => ⟨S16384x200, .f32⟩
  | 113 => ⟨S_, .f32⟩
  | 114 => ⟨S16384x200, .f32⟩
  | 115 => ⟨S16384x200, .f32⟩
  | 116 => ⟨S_, .f32⟩
  | 117 => ⟨S16384, .f32⟩
  | 118 => ⟨S_, .f32⟩
  | 119 => ⟨S16384, .f32⟩
  | 120 => ⟨S_, .f32⟩
  | 121 => ⟨S16384, .f32⟩
  | 122 => ⟨S16384x1, .f32⟩
  | 123 => ⟨S16384x1, .f32⟩
  | 124 => ⟨S16384x1, .f32⟩
  | 125 => ⟨S16384x3, .f32⟩
  | 126 => ⟨S3x2, .f32⟩
  | 127 => ⟨S16384x2, .f32⟩
  | _ => ⟨S16384x26x1, .i32⟩

abbrev hbmTy0_1 (i : Nat) : BufTy := match i % 128 with
  | 0 => ⟨S1x2, .f32⟩
  | 1 => ⟨S16384x2, .f32⟩
  | 2 => ⟨S16384x2, .f32⟩
  | _ => ⟨S16384x26x1, .i32⟩

abbrev hbmTy (i : Nat) : BufTy := match i / 128 with
  | 0 => hbmTy0_0 i
  | 1 => hbmTy0_1 i
  | _ => ⟨S16384x26x1, .i32⟩

abbrev bufTy : (tb : Table) → Fin (tcTables nBuf tb) → BufTy
  | .hbm, ⟨i, _⟩ => hbmTy i
  | _, _ => ⟨S16384x26x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_call0_cst : Ref sig .tc := ⟨.hbm, 91, rfl⟩
abbrev main_call0_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_call1_cst : Ref sig .tc := ⟨.hbm, 102, rfl⟩
abbrev main_call1_v0 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_call2_cst : Ref sig .tc := ⟨.hbm, 113, rfl⟩
abbrev main_call2_v0 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_cst_18 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩

abbrev nD : Nat := 1
abbrev τ : Topo := Topo.v7x

variable {F : FTy → Type} [FloatOps F]

class Facts₀ : Prop where
  shapeCasts_S16384x26x1_S16384x26 : S16384x26x1.ShapeCasts S16384x26
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  bcast_S16384x26x1_S16384x26x16_0_1_2 : S16384x26x1.BroadcastsInDim S16384x26x16 (![0, 1, 2] : Fin 3 → Fin S16384x26x16.rank)
  reducesTo_S16384x26x16_S16384x16_d1 : S16384x26x16.ReducesTo [1] S16384x16
  h_S_ : 0 < S_.numel
  bcast_S16384x16_S16384x1x16_0_2 : S16384x16.BroadcastsInDim S16384x1x16 (![0, 2] : Fin 2 → Fin S16384x1x16.rank)
  bcast_S_S16384x1x16 : S_.BroadcastsInDim S16384x1x16 (![] : Fin 0 → Fin S16384x1x16.rank)
  bcast_S16384x1x16_S16384x26x16_0_1_2 : S16384x1x16.BroadcastsInDim S16384x26x16 (![0, 1, 2] : Fin 3 → Fin S16384x26x16.rank)
  bcast_S_S16384x16 : S_.BroadcastsInDim S16384x16 (![] : Fin 0 → Fin S16384x16.rank)
  bcast_S_S16384x26x16 : S_.BroadcastsInDim S16384x26x16 (![] : Fin 0 → Fin S16384x26x16.rank)
  shapeCasts_S16384x26x16_S16384x416 : S16384x26x16.ShapeCasts S16384x416
  transposes_S200x416_S416x200_1_0 : S200x416.Transposes [1, 0] S416x200
  bcast_S200_S1x200_1 : S200.BroadcastsInDim S1x200 (![1] : Fin 1 → Fin S1x200.rank)
  bcast_S1x200_S16384x200_0_1 : S1x200.BroadcastsInDim S16384x200 (![0, 1] : Fin 2 → Fin S16384x200.rank)
  bcast_S_S16384x200 : S_.BroadcastsInDim S16384x200 (![] : Fin 0 → Fin S16384x200.rank)
  transposes_S200x200_S200x200_1_0 : S200x200.Transposes [1, 0] S200x200
  reducesTo_S16384x26_S16384_d1 : S16384x26.ReducesTo [1] S16384
  reducesTo_S16384x16_S16384_d1 : S16384x16.ReducesTo [1] S16384
  reducesTo_S16384x200_S16384_d1 : S16384x200.ReducesTo [1] S16384
  bcast_S16384_S16384x1_0 : S16384.BroadcastsInDim S16384x1 (![0] : Fin 1 → Fin S16384x1.rank)
  concatenates_S16384x1_S16384x1_S16384x1_S16384x3_d1 : Shape.Concatenates [S16384x1, S16384x1, S16384x1] S16384x3 1
  transposes_S2x3_S3x2_1_0 : S2x3.Transposes [1, 0] S3x2
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  gather_S26x100000x1_S16384x26x2_S16384x26x1_2_01_n_n_01_2_111_wf : GatherDims.WF S26x100000x1 S16384x26x2 S16384x26x1 [2] [0, 1] [] [0, 1] [] 2 ![1, 1, 1]
  gather_S26x100000x16_S16384x26x2_S16384x26x16_2_01_n_n_01_2_1116_wf : GatherDims.WF S26x100000x16 S16384x26x2 S16384x26x16 [2] [0, 1] [] [0, 1] [] 2 ![1, 1, 16]
  dot_S16384x416_S416x200_S16384x200_1_0_0_1_n_n_wf : DotDims.WF S16384x416 S416x200 S16384x200 [1] [0] [0] [1] [] []
  dot_S16384x200_S200x200_S16384x200_1_0_0_1_n_n_wf : DotDims.WF S16384x200 S200x200 S16384x200 [1] [0] [0] [1] [] []
  dot_S16384x3_S3x2_S16384x2_1_0_0_1_n_n_wf : DotDims.WF S16384x3 S3x2 S16384x2 [1] [0] [0] [1] [] []

variable [Facts₀]

def gather_S26x100000x1_S16384x26x2_S16384x26x1_2_01_n_n_01_2_111 : GatherDims S26x100000x1 S16384x26x2 S16384x26x1 where
  offsetDims := [2]
  collapsedSliceDims := [0, 1]
  operandBatchingDims := []
  startIndicesBatchingDims := []
  startIndexMap := [0, 1]
  indexVectorDim := 2
  sliceSizes := ![1, 1, 1]
  wf := gather_S26x100000x1_S16384x26x2_S16384x26x1_2_01_n_n_01_2_111_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S16384x416_S416x200_S16384x200_1_0_0_1_n_n : DotDims S16384x416 S416x200 S16384x200 where
  lhsContracting := [1]
  rhsContracting := [0]
  lhsNonContracting := [0]
  rhsNonContracting := [1]
  lhsBatch := []
  rhsBatch := []
  wf := dot_S16384x416_S416x200_S16384x200_1_0_0_1_n_n_wf
def dot_S16384x200_S200x200_S16384x200_1_0_0_1_n_n : DotDims S16384x200 S200x200 S16384x200 where
  lhsContracting := [1]
  rhsContracting := [0]
  lhsNonContracting := [0]
  rhsNonContracting := [1]
  lhsBatch := []
  rhsBatch := []
  wf := dot_S16384x200_S200x200_S16384x200_1_0_0_1_n_n_wf
def dot_S16384x3_S3x2_S16384x2_1_0_0_1_n_n : DotDims S16384x3 S3x2 S16384x2 where
  lhsContracting := [1]
  rhsContracting := [0]
  lhsNonContracting := [0]
  rhsNonContracting := [1]
  lhsBatch := []
  rhsBatch := []
  wf := dot_S16384x3_S3x2_S16384x2_1_0_0_1_n_n_wf

class Facts : Prop extends Facts₀ where

variable [Facts]
-- ==== Proof.CommonBt.lean ====
/-
  The program as the SparseCore launch theorem sees it, and the proof's resource algebra: the launch handshakes'
  rounds algebra, the TensorCore pipeline's rounds algebra for its staging cells, and the transfers' counters, side by
  side. Shared by the tile's body obligation, the TensorCore region and the launch.
-/
import proofs.«205279_g68771016344126_cont_9to1_m_1330_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205279_g68771016344126_cont_9to1_m_1330_15_alg».proof.Proof.Gen.Kernel

noncomputable section

namespace Cert.Proof.Bt

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds algebra. -/
abbrev UH : Type := URounds (GSem nD τ sig) ℕ
/-- The TensorCore pipeline's rounds algebra (its staging cells). -/
abbrev UP : Type := UR sig nD τ
/-- Handshakes, beside the pipeline's cells, beside the transfers' counters. -/
abbrev UU : Type := UH × (UP × Counters)

/-- The handshakes' component embedded: the left factor. -/
abbrev EH : Emb UH (MT nD τ sig (HIx 1) (Elt F) ℕ UU ℕ) := embL

/-! ## Locations of the arrays the kernels move -/

/-- The index array [26,128,128], the transposed second-order table [416,100000], the first-order table [26,100000]
    (all three written by host operations before the SparseCore call), and the two gathered results. -/
abbrev ixLoc (d : Dev nD) : Loc nD τ sig := (SparseCore.T d).loc main_v2
abbrev t2Loc (d : Dev nD) : Loc nD τ sig := (SparseCore.T d).loc main_v4
abbrev t1Loc (d : Dev nD) : Loc nD τ sig := (SparseCore.T d).loc main_v5
abbrev e2Loc (d : Dev nD) : Loc nD τ sig := (SparseCore.T d).loc main_v6_0
abbrev e1Loc (d : Dev nD) : Loc nD τ sig := (SparseCore.T d).loc main_v6_1

end Cert.Proof.Bt

end
-- ==== Proof.HostOpsBt.lean ====
/-
  @main's host operations as three lines: six before the SparseCore call (the index array transposed and reshaped to
  [26,128,128], the second-order table transposed to [416,100000], the first-order table reshaped to [26,100000]), five
  between the call and the TensorCore region (the values transposed to [26,16384], three biases and the last bias as
  columns), one after the region (the [2,16384] result transposed to [16384,2]); and @main as those lines around the
  call and the region.
-/
import proofs.«205279_g68771016344126_cont_9to1_m_1330_15_alg».proof.Proof.CommonBt

noncomputable section

namespace Cert.Proof.Bt

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The three lines -/

/-- Before the SparseCore call. -/
def hostA : List (HloOp τ sig (Elt F)) :=
  [StableHlo.reshape main_arg0 main_v0 rfl shapeCasts_S16384x26x1_S16384x26,
   StableHlo.unary main_v0 main_v1 ((transpose S26x16384 [1, 0] · transposes_S16384x26_S26x16384_1_0) : (⟨S16384x26, .i32⟩ : BufTy).Contents (Elt F) → (⟨S26x16384, .i32⟩ : BufTy).Contents (Elt F)),
   StableHlo.reshape main_v1 main_v2 rfl shapeCasts_S26x16384_S26x128x128,
   StableHlo.unary main_arg3 main_v3 ((transpose S26x16x100000 [0, 2, 1] · transposes_S26x100000x16_S26x16x100000_0_2_1) : (⟨S26x100000x16, .f32⟩ : BufTy).Contents (Elt F) → (⟨S26x16x100000, .f32⟩ : BufTy).Contents (Elt F)),
   StableHlo.reshape main_v3 main_v4 rfl shapeCasts_S26x16x100000_S416x100000,
   StableHlo.reshape main_arg2 main_v5 rfl shapeCasts_S26x100000x1_S26x100000]

/-- Between the call and the TensorCore region. -/
def hostB : List (HloOp τ sig (Elt F)) :=
  [StableHlo.unary main_arg1 main_v7 ((transpose S26x16384 [1, 0] · transposes_S16384x26_S26x16384_1_0) : (⟨S16384x26, .f32⟩ : BufTy).Contents (Elt F) → (⟨S26x16384, .f32⟩ : BufTy).Contents (Elt F)),
   StableHlo.reshape main_arg5 main_v8 rfl shapeCasts_S200_S200x1,
   StableHlo.reshape main_arg7 main_v9 rfl shapeCasts_S200_S200x1,
   StableHlo.reshape main_arg9 main_v10 rfl shapeCasts_S200_S200x1,
   StableHlo.reshape main_arg11 main_v11 rfl shapeCasts_S2_S2x1]

/-- After the region. -/
def hostC : List (HloOp τ sig (Elt F)) :=
  [StableHlo.unary main_v12 main_v13 ((transpose S16384x2 [1, 0] · transposes_S2x16384_S16384x2_1_0) : (⟨S2x16384, .f32⟩ : BufTy).Contents (Elt F) → (⟨S16384x2, .f32⟩ : BufTy).Contents (Elt F))]

/-- The TensorCore region's entry, as @main spells it. -/
abbrev regionCall : Prog (TpuEff nD τ sig (Elt F) (SparseCore.Sig (ΛP (F := F)) 1) .tc) PUnit :=
  Prog.lift (.customCall (SparseCore.inner (Pipeline.entry 0)) ())

/-- @main is the first line, the SparseCore call, the second line, the region, the last line. -/
theorem main_eq (d : Dev nD) :
    main (F := F) d = (StableHlo.seq hostA >>= fun _ => (K (F := F)).run d 0 >>= fun _ => StableHlo.seq hostB >>= fun _ => regionCall >>= fun _ => StableHlo.seq hostC) := by
  rfl

/-! ## The unscoped buffers as a held set -/

/-- The TensorCore's unscoped references, as device buffers: @main's arrays. -/
def ucRefs : Finset (DevRef τ sig) := (StableHlo.tcRefs τ sig).filter fun b => ¬ b.isScoped

omit [FloatOps F] in
/-- What the launch deals of them, at a valuation, is that set held at it. -/
theorem unscopedBufs_held (d : Dev nD) (W : Valuation τ sig (Elt F)) :
    (unscopedBufs d (fun b => W b) : sProp 𝕄) = StableHlo.held (T d) ucRefs W := by
  unfold unscopedBufs StableHlo.held ucRefs StableHlo.tcRefs
  rw [Finset.filter_map, bigSep_map]
  rfl

omit [FloatOps F] in
/-- A host operation names TensorCore references, none scoped. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem hostA_sub : ∀ op ∈ (hostA (F := F)), op.bufs ⊆ ucRefs := by
  intro op hop
  simp only [hostA, List.mem_cons, List.mem_nil_iff, or_false] at hop
  rcases hop with rfl | rfl | rfl | rfl | rfl | rfl <;> exact sub_ucRefs _ (by simp)
theorem hostB_sub : ∀ op ∈ (hostB (F := F)), op.bufs ⊆ ucRefs := by
  intro op hop
  simp only [hostB, List.mem_cons, List.mem_nil_iff, or_false] at hop
  rcases hop with rfl | rfl | rfl | rfl | rfl <;> exact sub_ucRefs _ (by simp)
theorem hostC_sub : ∀ op ∈ (hostC (F := F)), op.bufs ⊆ ucRefs := by
  intro op hop
  simp only [hostC, List.mem_cons, List.mem_nil_iff, or_false] at hop
  rcases hop with rfl; exact sub_ucRefs _ (by simp)

theorem hostA_fresh : ∀ op ∈ (hostA (F := F)), op.fresh = ∅ := by
  intro _ h; (repeat (cases h with | head => rfl | tail _ h => ?_)); exact nomatch h
theorem hostB_fresh : ∀ op ∈ (hostB (F := F)), op.fresh = ∅ := by
  intro _ h; (repeat (cases h with | head => rfl | tail _ h => ?_)); exact nomatch h
theorem hostC_fresh : ∀ op ∈ (hostC (F := F)), op.fresh = ∅ := by
  intro _ h; (repeat (cases h with | head => rfl | tail _ h => ?_)); exact nomatch h

end Cert.Proof.Bt

end
-- ==== Proof.TileDefsBt.lean ====
/-
  The SparseCore tile's task, its names: which rows of the two gathered arrays a tile writes, what it reads, and its
  own scratch and semaphores taken out of what the launch hands a vector subcore.
  Tile (c, s) is tile number w = 2 s + c of 32. It fills rows 13 w … 13 w + 12 of the [416, 16384] array (row r, column b:
  the entry of row r of the transposed table at the index the index array holds for field r / 16 and batch element b),
  and, when w < 26, row w of the [26, 16384] array likewise from the first-order table.
-/
import proofs.«205279_g68771016344126_cont_9to1_m_1330_15_alg».proof.Proof.CommonBt
import proofs.«205279_g68771016344126_cont_9to1_m_1330_15_alg».proof.Proof.Gen.Kernel.Skeleton

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile number -/

/-- Tile (c, s) is tile number 2 s + c. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- A lookup index: the word as a natural number, capped at the table's last row. -/
def capIdx (w : BitVec 32) : Fin 100000 := ⟨min w.toNat 99999, by omega⟩

theorem capIdx_of_lt {w : BitVec 32} (h : w.toNat < 100000) : (capIdx w).val = w.toNat := by
  unfold capIdx; simp only; omega

/-! ## The tile's thread, memrefs and cells -/

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

abbrev t2W : Memref sig .scVector .hbm S416x100000 .f32 := Memref.whole main_v4_scv
abbrev t1W : Memref sig .scVector .hbm S26x100000 .f32 := Memref.whole main_v5_scv
abbrev ixW : Memref sig .scVector .hbm S26x128x128 .i32 := Memref.whole main_v2_scv
abbrev e2W : Memref sig .scVector .hbm S416x16384 .f32 := Memref.whole main_v6_0_scv
abbrev e1W : Memref sig .scVector .hbm S26x16384 .f32 := Memref.whole main_v6_1_scv
/-- The tile's scratch: one table row, one field's indices, one half row of results. -/
abbrev plW : Memref sig .scVector .vmem S100000 .f32 := Memref.whole cc0_scratch0
abbrev ivW : Memref sig .scVector .vmem S128x128 .i32 := Memref.whole cc0_scratch1
abbrev ovW : Memref sig .scVector .vmem S8192 .f32 := Memref.whole cc0_scratch2

abbrev semCell (d : Dev nD) (L : grid0.Coords) (sm : DmaSem sig) : GSem nD τ sig := (thrV d L, .dma sm)

end Cert.Proof.Bt

end
-- ==== Proof.TileResBt.lean ====
/-
  What a tile takes from the launch and what it gives back. Tile (c, s), tile number w = 2 s + c, reads the transposed
  table, the first-order table and the index array through a read share of each (share number w of 32), owns rows
  13 w … 13 w + 12 of the [416, 16384] result and, when w < 26, row w of the [26, 16384] result, and leaves them at the
  gathered rows: entry (r, b) is the table's row r at the index the index array holds for field r / 16 and batch
  element b (b = 128 (b / 128) + b % 128 in the [26, 128, 128] layout).
-/
import proofs.«205279_g68771016344126_cont_9to1_m_1330_15_alg».proof.Proof.CommonBt
import proofs.«205279_g68771016344126_cont_9to1_m_1330_15_alg».proof.Proof.TileDefsBt
import Idealize.ShloMosaic.Lib.ValueIdx

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD)

/-! ## The gathered rows, as whole-array functions of what the kernel reads -/

/-- The index the index array holds for field f and batch element b. -/
def ixAt (f2 : Buf (Elt F) (ixLoc d)) (f : Fin 26) (b : Fin 16384) : Fin 100000 :=
  capIdx (f2 (ix3 f (⟨b.val / 128, by have := b.isLt; omega⟩ : Fin 128) (⟨b.val % 128, by omega⟩ : Fin 128)))

/-- Row r of the [416, 16384] result: the transposed table's row r at field r / 16's indices. -/
def e2Tgt (f4 : Buf (Elt F) (t2Loc d)) (f2 : Buf (Elt F) (ixLoc d)) : Buf (Elt F) (e2Loc d) :=
  fun j => f4 (ix2 (j 0) (ixAt d f2 (⟨(j 0).val / 16, by have h : (j 0).val < 416 := (j 0).isLt; omega⟩ : Fin 26) (j 1)))

/-- Row f of the [26, 16384] result: the first-order table's row f at field f's indices. -/
def e1Tgt (f5 : Buf (Elt F) (t1Loc d)) (f2 : Buf (Elt F) (ixLoc d)) : Buf (Elt F) (e1Loc d) :=
  fun j => f5 (ix2 (j 0) (ixAt d f2 (j 0) (j 1)))

/-! ## The rows a tile owns -/

theorem e2Rows_inb (L : grid0.Coords) : ∀ a, (![13 * wid L, 0] : Fin 2 → Nat) a + (![13, 16384] : Fin 2 → Nat) a ≤ S416x16384.size a := by
  have := wid_lt L
  intro a; fin_cases a <;> simp <;> omega

/-- Rows 13 w … 13 w + 12, all columns. -/
abbrev e2Rect (L : grid0.Coords) : Rect S416x16384 := Rect.unit (s := S416x16384) ![13 * wid L, 0] ![13, 16384] (e2Rows_inb L)
abbrev e2Region (L : grid0.Coords) : Finset S416x16384.Idx := ((e2W : Memref sig .scVector .hbm S416x16384 .f32).view.slice (e2Rect L)).set

theorem e1Row_inb (L : grid0.Coords) (h : wid L < 26) : ∀ a, (![wid L, 0] : Fin 2 → Nat) a + (![1, 16384] : Fin 2 → Nat) a ≤ S26x16384.size a := by
  intro a; fin_cases a <;> simp <;> omega

/-- Row w, all columns, when w < 26; nothing otherwise. -/
def e1Region (L : grid0.Coords) : Finset S26x16384.Idx :=
  if h : wid L < 26 then ((e1W : Memref sig .scVector .hbm S26x16384 .f32).view.slice (Rect.unit (s := S26x16384) ![wid L, 0] ![1, 16384] (e1Row_inb L h))).set else ∅

/-! ## What the launch hands a tile, and what it takes back -/

/-- Read shares of the three arrays the kernel reads (at their contents when the call starts), and the tile's rows of
    the two results at anything. -/
def TileIn (f4 : Buf (Elt F) (t2Loc d)) (f5 : Buf (Elt F) (t1Loc d)) (f2 : Buf (Elt F) (ixLoc d)) (L : grid0.Coords) : sProp 𝕄 :=
  iprop((t2Loc d ↦{Transfers.shareTokN fullShare (wid L)} f4) ∗ (t1Loc d ↦{Transfers.shareTokN fullShare (wid L)} f5)
    ∗ (ixLoc d ↦{Transfers.shareTokN fullShare (wid L)} f2)
    ∗ (∃ g, e2Loc d ↦[e2Region L]{fullShare} g) ∗ (∃ g, e1Loc d ↦[e1Region L]{fullShare} g))

/-- The same shares back, the tile's rows at the gathered rows. -/
def TileOut (f4 : Buf (Elt F) (t2Loc d)) (f5 : Buf (Elt F) (t1Loc d)) (f2 : Buf (Elt F) (ixLoc d)) (L : grid0.Coords) : sProp 𝕄 :=
  iprop((t2Loc d ↦{Transfers.shareTokN fullShare (wid L)} f4) ∗ (t1Loc d ↦{Transfers.shareTokN fullShare (wid L)} f5)
    ∗ (ixLoc d ↦{Transfers.shareTokN fullShare (wid L)} f2)
    ∗ (e2Loc d ↦[e2Region L]{fullShare} e2Tgt d f4 f2) ∗ (e1Loc d ↦[e1Region L]{fullShare} e1Tgt d f5 f2))

/-- What the tile needs of the index array: every word names a table row. -/
def IdxOK (f2 : Buf (Elt F) (ixLoc d)) : Prop := ∀ j, (f2 j : BitVec 32).toNat < 100000

end Cert.Proof.Bt

end
-- ==== Proof.LaunchPayBt.lean ====
/-
  What the SparseCore launch's handshakes carry for this program: each tile's read shares of the three arrays the
  gather reads and its rows of the two results; a sequencer's part is its sixteen tiles' parts.
-/
import proofs.«205279_g68771016344126_cont_9to1_m_1330_15_alg».proof.Proof.CommonBt
import proofs.«205279_g68771016344126_cont_9to1_m_1330_15_alg».proof.Proof.TileResBt

noncomputable section

namespace Cert.Proof.Bt

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A tile's coordinates -/

/-- Tile (c, s) of the SparseCore call's grid as the kernel's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The same from the launch theorem's indices. -/
abbrev tileL (c : Fin ((K (F := F)).nCore 0)) (i : Fin ((K (F := F)).nSub 0)) : grid0.Coords := coordsV ⟨c.val, c.isLt⟩ ⟨i.val, i.isLt⟩

/-! ## What the handshakes carry -/

variable (f4 : (d : Dev nD) → Buf (Elt F) (t2Loc d)) (f5 : (d : Dev nD) → Buf (Elt F) (t1Loc d)) (f2 : (d : Dev nD) → Buf (Elt F) (ixLoc d))

/-- The one call hands each tile its read shares and its rows of the two results, and takes them back at the gathered
    rows; a SparseCore's sequencer is handed its sixteen tiles' parts together. Nothing of the launch's is consumed. -/
def P : (K (F := F)).Pay (nD := nD) (Val := Elt F) (Name := ℕ) (U := UU) where
  st := fun q d c => match q with | 0 => bigSep Finset.univ fun i : Fin ((K (F := F)).nSub 0) => TileIn d (f4 d) (f5 d) (f2 d) (tileL c i)
  dn := fun q d c => match q with | 0 => bigSep Finset.univ fun i : Fin ((K (F := F)).nSub 0) => TileOut d (f4 d) (f5 d) (f2 d) (tileL c i)
  go := fun q d c i => match q with | 0 => TileIn d (f4 d) (f5 d) (f2 d) (tileL c i)
  td := fun q d c i => match q with | 0 => TileOut d (f4 d) (f5 d) (f2 d) (tileL c i)
  x := fun _ _ => iprop(emp)

omit [FloatOps F] in
instance TileIn_storable (d : Dev nD) (a4 : Buf (Elt F) (t2Loc d)) (a5 : Buf (Elt F) (t1Loc d)) (a2 : Buf (Elt F) (ixLoc d)) (L : grid0.Coords) :
    BI.Storable (upEmb : UEmb _ 𝕄) (TileIn d a4 a5 a2 L) := by unfold TileIn; infer_instance
omit [FloatOps F] in
instance TileOut_storable (d : Dev nD) (a4 : Buf (Elt F) (t2Loc d)) (a5 : Buf (Elt F) (t1Loc d)) (a2 : Buf (Elt F) (ixLoc d)) (L : grid0.Coords) :
    BI.Storable (upEmb : UEmb _ 𝕄) (TileOut d a4 a5 a2 L) := by unfold TileOut; infer_instance

omit [FloatOps F] in
instance P_storable : (P (F := F) f4 f5 f2).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

omit [FloatOps F] in
/-- A sequencer's part is its tiles' parts: nothing to split. -/
theorem vecSplit : (K (F := F)).VecSplit' (P f4 f5 f2) 0 := by
  intro d c
  show (bigSep Finset.univ fun i : Fin ((K (F := F)).nSub 0) => TileIn d (f4 d) (f5 d) (f2 d) (tileL c i))
    ⊢ |={Set.univ}=> iprop((bigSep Finset.univ fun i : Fin ((K (F := F)).nSub 0) => TileIn d (f4 d) (f5 d) (f2 d) (tileL c i))
      ∗ ((bigSep Finset.univ fun i : Fin ((K (F := F)).nSub 0) => TileOut d (f4 d) (f5 d) (f2 d) (tileL c i))
        -∗ bigSep Finset.univ fun i : Fin ((K (F := F)).nSub 0) => TileOut d (f4 d) (f5 d) (f2 d) (tileL c i)))
  iintro H; imodintro
  isplitl [H]; · iexact H
  iintro H; iexact H

end Cert.Proof.Bt

end
-- ==== Proof.TcBodyBt.lean ====
/-
  The TensorCore body's run: on whole staging buffers, the eleven inputs' at given contents and the output's at
  anything, the body loads the eleven inputs whole, computes, and stores one whole output block; it ends with the
  inputs' buffers as they were and the output's at one named function of the eleven loaded vectors.
-/
import proofs.«205279_g68771016344126_cont_9to1_m_1330_15_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Proof.Bt

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The batch-norm scale the body multiplies each dense layer by, as the word it prints. -/
abbrev tcBN : F .f32 := Scalar.ofBits .f32 0x3F7FFFAC#32

/-- The output block [2, 1024] as a function of the eleven loaded vectors: the gathered second-order rows
    [416, 1024], the gathered first-order rows [26, 1024], the values [26, 1024], and the dense layers' weights and
    biases. -/
def tcPay (X0 : Vec F S416x1024 .f32) (X1 : Vec F S26x1024 .f32) (X2 : Vec F S26x1024 .f32) (W1 : Vec F S200x416 .f32) (B1 : Vec F S200x1 .f32) (W2 : Vec F S200x200 .f32) (B2 : Vec F S200x1 .f32) (W3 : Vec F S200x200 .f32) (B3 : Vec F S200x1 .f32) (WD : Vec F S2x3 .f32) (BD : Vec F S2x1 .f32) : Vec F S2x1024 .f32 :=
  k1_pay1 (k1_pay4 X0 X2) (k1_pay5 X1 X2) (k1_pay6 X0 X2 W1 B1) tcBN W2 B2 W3 B3 WD BD

set_option maxHeartbeats 1000000 in
/-- The body on whole staging buffers, the inputs' at contents X0 … BD and the output's at anything, runs to the
    continuation holding the inputs' as they were and the output's at tcPay of them. -/
theorem tc_body_run (c : Dev nD) (E : Set Name) (i : grid1.Coords) (arg1 : Memref sig .tc .vmem S416x1024 .f32) (harg1 : arg1.IsWhole) (arg2 : Memref sig .tc .vmem S26x1024 .f32) (harg2 : arg2.IsWhole) (arg3 : Memref sig .tc .vmem S26x1024 .f32) (harg3 : arg3.IsWhole) (arg4 : Memref sig .tc .vmem S200x416 .f32) (harg4 : arg4.IsWhole) (arg5 : Memref sig .tc .vmem S200x1 .f32) (harg5 : arg5.IsWhole) (arg6 : Memref sig .tc .vmem S200x200 .f32) (harg6 : arg6.IsWhole) (arg7 : Memref sig .tc .vmem S200x1 .f32) (harg7 : arg7.IsWhole) (arg8 : Memref sig .tc .vmem S200x200 .f32) (harg8 : arg8.IsWhole) (arg9 : Memref sig .tc .vmem S200x1 .f32) (harg9 : arg9.IsWhole) (arg10 : Memref sig .tc .vmem S2x3 .f32) (harg10 : arg10.IsWhole) (arg11 : Memref sig .tc .vmem S2x1 .f32) (harg11 : arg11.IsWhole) (arg12 : Memref sig .tc .vmem S2x1024 .f32) (harg12 : arg12.IsWhole)
    (X0 : Vec F S416x1024 .f32) (X1 : Vec F S26x1024 .f32) (X2 : Vec F S26x1024 .f32) (W1 : Vec F S200x416 .f32) (B1 : Vec F S200x1 .f32) (W2 : Vec F S200x200 .f32) (B2 : Vec F S200x1 .f32) (W3 : Vec F S200x200 .f32) (B3 : Vec F S200x1 .f32) (WD : Vec F S2x3 .f32) (BD : Vec F S2x1 .f32) (K : PUnit → sProp 𝕄) :
    iprop(owns (c : Thread nD τ) arg1 fullShare X0 ∗ owns (c : Thread nD τ) arg2 fullShare X1 ∗ owns (c : Thread nD τ) arg3 fullShare X2 ∗ owns (c : Thread nD τ) arg4 fullShare W1 ∗ owns (c : Thread nD τ) arg5 fullShare B1 ∗ owns (c : Thread nD τ) arg6 fullShare W2 ∗ owns (c : Thread nD τ) arg7 fullShare B2 ∗ owns (c : Thread nD τ) arg8 fullShare W3 ∗ owns (c : Thread nD τ) arg9 fullShare B3 ∗ owns (c : Thread nD τ) arg10 fullShare WD ∗ owns (c : Thread nD τ) arg11 fullShare BD ∗ (∃ d, owns (c : Thread nD τ) arg12 fullShare d)
        ∗ (iprop(owns (c : Thread nD τ) arg1 fullShare X0 ∗ owns (c : Thread nD τ) arg2 fullShare X1 ∗ owns (c : Thread nD τ) arg3 fullShare X2 ∗ owns (c : Thread nD τ) arg4 fullShare W1 ∗ owns (c : Thread nD τ) arg5 fullShare B1 ∗ owns (c : Thread nD τ) arg6 fullShare W2 ∗ owns (c : Thread nD τ) arg7 fullShare B2 ∗ owns (c : Thread nD τ) arg8 fullShare W3 ∗ owns (c : Thread nD τ) arg9 fullShare B3 ∗ owns (c : Thread nD τ) arg10 fullShare WD ∗ owns (c : Thread nD τ) arg11 fullShare BD ∗ owns (c : Thread nD τ) arg12 fullShare (tcPay X0 X1 X2 W1 B1 W2 B2 W3 B3 WD BD)) -∗ K ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11 arg12 harg12) K := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  have h0 : (![0, 0] : Fin 2 → Nat) = fun _ => 0 := by funext a; fin_cases a <;> rfl
  rw [View.read_writes_eq_canon _ _ _ (fun y => ⟨_, List.mem_singleton_self _, View.mem_set_unit_zero h0 inb_S2x1024_S2x1024_0_0 y⟩)]
  rw [View.canon_unit_zero h0]
  simp only [View.readAt_eq_ld,
    View.ld_unit_zero (S := S416x1024) h0 inb_S416x1024_S416x1024_0_0,
    View.ld_unit_zero (S := S26x1024) h0 inb_S26x1024_S26x1024_0_0,
    View.ld_unit_zero (S := S200x416) h0 inb_S200x416_S200x416_0_0,
    View.ld_unit_zero (S := S200x1) h0 inb_S200x1_S200x1_0_0,
    View.ld_unit_zero (S := S200x200) h0 inb_S200x200_S200x200_0_0,
    View.ld_unit_zero (S := S2x3) h0 inb_S2x3_S2x3_0_0,
    View.ld_unit_zero (S := S2x1) h0 inb_S2x1_S2x1_0_0]
  rfl

end Cert.Proof.Bt

end
-- ==== Proof.TcDatBt.lean ====
/-
  The TensorCore pipeline's proof data and body obligation: at every grid point the body finds each input window's
  current staging buffer at that window's block of its array, leaves the inputs' buffers as found and the output's
  at the named function of the eleven blocks.
-/
import proofs.«205279_g68771016344126_cont_9to1_m_1330_15_alg».proof.Proof.TcBodyBt
import proofs.«205279_g68771016344126_cont_9to1_m_1330_15_alg».proof.Proof.Gen.Kernel.Launch
import proofs.«205279_g68771016344126_cont_9to1_m_1330_15_alg».proof.Proof.Gen.Kernel.Points

set_option maxRecDepth 16384

noncomputable section

namespace Cert.Proof.Bt

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (c : Dev nD) (A : (w : Fin cfg1.W) → Buf (Elt F) ((cfg1.win w).arr.view.loc (c.tc : Thread nD τ)))
  (B : Set (SemLoc sig × Ix))

/-- Window w's block at point t, read off the arrays A. -/
def tcBlk (w : Fin cfg1.W) (t : Fin cfg1.N) : ((cfg1.win w).xblock (cfg1.grid.coords t)).Idx → Elt F (cfg1.win w).elt :=
  ((cfg1.win w).blk t).view.read (Elt F) (A w)

/-- The output block at point t: the named function of the eleven input blocks there. -/
def tcOut (t : Fin cfg1.N) : Vec F S2x1024 .f32 :=
  tcPay (tcBlk c A 0 t) (tcBlk c A 1 t) (tcBlk c A 2 t) (tcBlk c A 3 t) (tcBlk c A 4 t) (tcBlk c A 5 t) (tcBlk c A 6 t) (tcBlk c A 7 t) (tcBlk c A 8 t) (tcBlk c A 9 t) (tcBlk c A 10 t)

/-- The TensorCore pipeline's proof data on core c: the twelve windowed arrays at contents A when the region is
    entered; the body leaves each input's buffer at its block and the output's at tcOut; nothing owed, no invariant;
    the recorded pairs within B. -/
def tcDat : Dat τ (Elt F) Ix Name U Lvl cfg1 c where
  A := A
  after w t := match w with
    | ⟨0, _⟩ => tcBlk c A 0 t
    | ⟨1, _⟩ => tcBlk c A 1 t
    | ⟨2, _⟩ => tcBlk c A 2 t
    | ⟨3, _⟩ => tcBlk c A 3 t
    | ⟨4, _⟩ => tcBlk c A 4 t
    | ⟨5, _⟩ => tcBlk c A 5 t
    | ⟨6, _⟩ => tcBlk c A 6 t
    | ⟨7, _⟩ => tcBlk c A 7 t
    | ⟨8, _⟩ => tcBlk c A 8 t
    | ⟨9, _⟩ => tcBlk c A 9 t
    | ⟨10, _⟩ => tcBlk c A 10 t
    | ⟨11, _⟩ => tcOut c A t
  Φ _ := iprop(emp)
  q _ := fullShare
  owed _ := 0
  recorded _ := B

theorem tcDat_A (w : Fin cfg1.W) : (tcDat (Name := Name) (U := U) (Lvl := Lvl) c A B).A w = A w := by dsimp only [tcDat]
theorem tcDat_after_0 (t : Fin cfg1.N) : (tcDat (Name := Name) (U := U) (Lvl := Lvl) c A B).after 0 t = tcBlk c A 0 t := by dsimp only [tcDat]
theorem tcDat_after_1 (t : Fin cfg1.N) : (tcDat (Name := Name) (U := U) (Lvl := Lvl) c A B).after 1 t = tcBlk c A 1 t := by dsimp only [tcDat]
theorem tcDat_after_2 (t : Fin cfg1.N) : (tcDat (Name := Name) (U := U) (Lvl := Lvl) c A B).after 2 t = tcBlk c A 2 t := by dsimp only [tcDat]
theorem tcDat_after_3 (t : Fin cfg1.N) : (tcDat (Name := Name) (U := U) (Lvl := Lvl) c A B).after 3 t = tcBlk c A 3 t := by dsimp only [tcDat]
theorem tcDat_after_4 (t : Fin cfg1.N) : (tcDat (Name := Name) (U := U) (Lvl := Lvl) c A B).after 4 t = tcBlk c A 4 t := by dsimp only [tcDat]
theorem tcDat_after_5 (t : Fin cfg1.N) : (tcDat (Name := Name) (U := U) (Lvl := Lvl) c A B).after 5 t = tcBlk c A 5 t := by dsimp only [tcDat]
theorem tcDat_after_6 (t : Fin cfg1.N) : (tcDat (Name := Name) (U := U) (Lvl := Lvl) c A B).after 6 t = tcBlk c A 6 t := by dsimp only [tcDat]
theorem tcDat_after_7 (t : Fin cfg1.N) : (tcDat (Name := Name) (U := U) (Lvl := Lvl) c A B).after 7 t = tcBlk c A 7 t := by dsimp only [tcDat]
theorem tcDat_after_8 (t : Fin cfg1.N) : (tcDat (Name := Name) (U := U) (Lvl := Lvl) c A B).after 8 t = tcBlk c A 8 t := by dsimp only [tcDat]
theorem tcDat_after_9 (t : Fin cfg1.N) : (tcDat (Name := Name) (U := U) (Lvl := Lvl) c A B).after 9 t = tcBlk c A 9 t := by dsimp only [tcDat]
theorem tcDat_after_10 (t : Fin cfg1.N) : (tcDat (Name := Name) (U := U) (Lvl := Lvl) c A B).after 10 t = tcBlk c A 10 t := by dsimp only [tcDat]
theorem tcDat_after_11 (t : Fin cfg1.N) : (tcDat (Name := Name) (U := U) (Lvl := Lvl) c A B).after 11 t = tcOut c A t := by dsimp only [tcDat]

/-! ## What the body finds in each input window's buffer -/

theorem tcDat_before_0 (t : Fin cfg1.N) (d) : (tcDat (Name := Name) (U := U) (Lvl := Lvl) c A B).before 0 t d = tcBlk c A 0 t :=
  ((tcDat (Name := Name) (U := U) (Lvl := Lvl) c A B).before_in_eq_fetched 0 rfl (fun _ => rfl) (fun _ _ _ => rfl)
    (fun t => by rw [tcDat_after_0]; unfold Dat.blockOf tcBlk; rw [tcDat_A]; try rfl) t d).trans
    (by unfold Dat.fetched Dat.blockOf tcBlk; rw [tcDat_A]; try rfl)
theorem tcDat_before_1 (t : Fin cfg1.N) (d) : (tcDat (Name := Name) (U := U) (Lvl := Lvl) c A B).before 1 t d = tcBlk c A 1 t :=
  ((tcDat (Name := Name) (U := U) (Lvl := Lvl) c A B).before_in_eq_fetched 1 rfl (fun _ => rfl) (fun _ _ _ => rfl)
    (fun t => by rw [tcDat_after_1]; unfold Dat.blockOf tcBlk; rw [tcDat_A]; try rfl) t d).trans
    (by unfold Dat.fetched Dat.blockOf tcBlk; rw [tcDat_A]; try rfl)
theorem tcDat_before_2 (t : Fin cfg1.N) (d) : (tcDat (Name := Name) (U := U) (Lvl := Lvl) c A B).before 2 t d = tcBlk c A 2 t :=
  ((tcDat (Name := Name) (U := U) (Lvl := Lvl) c A B).before_in_eq_fetched 2 rfl (fun _ => rfl) (fun _ _ _ => rfl)
    (fun t => by rw [tcDat_after_2]; unfold Dat.blockOf tcBlk; rw [tcDat_A]; try rfl) t d).trans
    (by unfold Dat.fetched Dat.blockOf tcBlk; rw [tcDat_A]; try rfl)
theorem tcDat_before_3 (t : Fin cfg1.N) (d) : (tcDat (Name := Name) (U := U) (Lvl := Lvl) c A B).before 3 t d = tcBlk c A 3 t :=
  ((tcDat (Name := Name) (U := U) (Lvl := Lvl) c A B).before_in_eq_fetched 3 rfl (fun _ => rfl) (fun _ _ _ => rfl)
    (fun t => by rw [tcDat_after_3]; unfold Dat.blockOf tcBlk; rw [tcDat_A]; try rfl) t d).trans
    (by unfold Dat.fetched Dat.blockOf tcBlk; rw [tcDat_A]; try rfl)
theorem tcDat_before_4 (t : Fin cfg1.N) (d) : (tcDat (Name := Name) (U := U) (Lvl := Lvl) c A B).before 4 t d = tcBlk c A 4 t :=
  ((tcDat (Name := Name) (U := U) (Lvl := Lvl) c A B).before_in_eq_fetched 4 rfl (fun _ => rfl) (fun _ _ _ => rfl)
    (fun t => by rw [tcDat_after_4]; unfold Dat.blockOf tcBlk; rw [tcDat_A]; try rfl) t d).trans
    (by unfold Dat.fetched Dat.blockOf tcBlk; rw [tcDat_A]; try rfl)
theorem tcDat_before_5 (t : Fin cfg1.N) (d) : (tcDat (Name := Name) (U := U) (Lvl := Lvl) c A B).before 5 t d = tcBlk c A 5 t :=
  ((tcDat (Name := Name) (U := U) (Lvl := Lvl) c A B).before_in_eq_fetched 5 rfl (fun _ => rfl) (fun _ _ _ => rfl)
    (fun t => by rw [tcDat_after_5]; unfold Dat.blockOf tcBlk; rw [tcDat_A]; try rfl) t d).trans
    (by unfold Dat.fetched Dat.blockOf tcBlk; rw [tcDat_A]; try rfl)
theorem tcDat_before_6 (t : Fin cfg1.N) (d) : (tcDat (Name := Name) (U := U) (Lvl := Lvl) c A B).before 6 t d = tcBlk c A 6 t :=
  ((tcDat (Name := Name) (U := U) (Lvl := Lvl) c A B).before_in_eq_fetched 6 rfl (fun _ => rfl) (fun _ _ _ => rfl)
    (fun t => by rw [tcDat_after_6]; unfold Dat.blockOf tcBlk; rw [tcDat_A]; try rfl) t d).trans
    (by unfold Dat.fetched Dat.blockOf tcBlk; rw [tcDat_A]; try rfl)
theorem tcDat_before_7 (t : Fin cfg1.N) (d) : (tcDat (Name := Name) (U := U) (Lvl := Lvl) c A B).before 7 t d = tcBlk c A 7 t :=
  ((tcDat (Name := Name) (U := U) (Lvl := Lvl) c A B).before_in_eq_fetched 7 rfl (fun _ => rfl) (fun _ _ _ => rfl)
    (fun t => by rw [tcDat_after_7]; unfold Dat.blockOf tcBlk; rw [tcDat_A]; try rfl) t d).trans
    (by unfold Dat.fetched Dat.blockOf tcBlk; rw [tcDat_A]; try rfl)
theorem tcDat_before_8 (t : Fin cfg1.N) (d) : (tcDat (Name := Name) (U := U) (Lvl := Lvl) c A B).before 8 t d = tcBlk c A 8 t :=
  ((tcDat (Name := Name) (U := U) (Lvl := Lvl) c A B).before_in_eq_fetched 8 rfl (fun _ => rfl) (fun _ _ _ => rfl)
    (fun t => by rw [tcDat_after_8]; unfold Dat.blockOf tcBlk; rw [tcDat_A]; try rfl) t d).trans
    (by unfold Dat.fetched Dat.blockOf tcBlk; rw [tcDat_A]; try rfl)
theorem tcDat_before_9 (t : Fin cfg1.N) (d) : (tcDat (Name := Name) (U := U) (Lvl := Lvl) c A B).before 9 t d = tcBlk c A 9 t :=
  ((tcDat (Name := Name) (U := U) (Lvl := Lvl) c A B).before_in_eq_fetched 9 rfl (fun _ => rfl) (fun _ _ _ => rfl)
    (fun t => by rw [tcDat_after_9]; unfold Dat.blockOf tcBlk; rw [tcDat_A]; try rfl) t d).trans
    (by unfold Dat.fetched Dat.blockOf tcBlk; rw [tcDat_A]; try rfl)
theorem tcDat_before_10 (t : Fin cfg1.N) (d) : (tcDat (Name := Name) (U := U) (Lvl := Lvl) c A B).before 10 t d = tcBlk c A 10 t :=
  ((tcDat (Name := Name) (U := U) (Lvl := Lvl) c A B).before_in_eq_fetched 10 rfl (fun _ => rfl) (fun _ _ _ => rfl)
    (fun t => by rw [tcDat_after_10]; unfold Dat.blockOf tcBlk; rw [tcDat_A]; try rfl) t d).trans
    (by unfold Dat.fetched Dat.blockOf tcBlk; rw [tcDat_A]; try rfl)

/-! ## The body obligation, at a generic point -/

/-- What the body is called with at point t, the windows one by one, -/
def tcBodyPre (ι : Ix) (t : Fin cfg1.N) : sProp 𝕄 :=
  iprop((tcDat (Name := Name) (U := U) (Lvl := Lvl) c A B).Φ t.castSucc ∗ (tcDat (Name := Name) (U := U) (Lvl := Lvl) c A B).owesAt ι t.castSucc
      ∗ (∃ d, owns (c : Thread nD τ) (st1_0 t) fullShare ((tcDat (Name := Name) (U := U) (Lvl := Lvl) c A B).before 0 t d))
      ∗ (∃ d, owns (c : Thread nD τ) (st1_1 t) fullShare ((tcDat (Name := Name) (U := U) (Lvl := Lvl) c A B).before 1 t d))
      ∗ (∃ d, owns (c : Thread nD τ) (st1_2 t) fullShare ((tcDat (Name := Name) (U := U) (Lvl := Lvl) c A B).before 2 t d))
      ∗ (∃ d, owns (c : Thread nD τ) (st1_3 t) fullShare ((tcDat (Name := Name) (U := U) (Lvl := Lvl) c A B).before 3 t d))
      ∗ (∃ d, owns (c : Thread nD τ) (st1_4 t) fullShare ((tcDat (Name := Name) (U := U) (Lvl := Lvl) c A B).before 4 t d))
      ∗ (∃ d, owns (c : Thread nD τ) (st1_5 t) fullShare ((tcDat (Name := Name) (U := U) (Lvl := Lvl) c A B).before 5 t d))
      ∗ (∃ d, owns (c : Thread nD τ) (st1_6 t) fullShare ((tcDat (Name := Name) (U := U) (Lvl := Lvl) c A B).before 6 t d))
      ∗ (∃ d, owns (c : Thread nD τ) (st1_7 t) fullShare ((tcDat (Name := Name) (U := U) (Lvl := Lvl) c A B).before 7 t d))
      ∗ (∃ d, owns (c : Thread nD τ) (st1_8 t) fullShare ((tcDat (Name := Name) (U := U) (Lvl := Lvl) c A B).before 8 t d))
      ∗ (∃ d, owns (c : Thread nD τ) (st1_9 t) fullShare ((tcDat (Name := Name) (U := U) (Lvl := Lvl) c A B).before 9 t d))
      ∗ (∃ d, owns (c : Thread nD τ) (st1_10 t) fullShare ((tcDat (Name := Name) (U := U) (Lvl := Lvl) c A B).before 10 t d))
      ∗ (∃ d, owns (c : Thread nD τ) (st1_11 t) fullShare ((tcDat (Name := Name) (U := U) (Lvl := Lvl) c A B).before 11 t d)))

/-- and what it returns. -/
def tcBodyPost (ι : Ix) (t : Fin cfg1.N) : sProp 𝕄 :=
  iprop((tcDat (Name := Name) (U := U) (Lvl := Lvl) c A B).Φ t.succ ∗ (tcDat (Name := Name) (U := U) (Lvl := Lvl) c A B).owesAt ι t.succ
      ∗ owns (c : Thread nD τ) (st1_0 t) fullShare ((tcDat (Name := Name) (U := U) (Lvl := Lvl) c A B).after 0 t)
      ∗ owns (c : Thread nD τ) (st1_1 t) fullShare ((tcDat (Name := Name) (U := U) (Lvl := Lvl) c A B).after 1 t)
      ∗ owns (c : Thread nD τ) (st1_2 t) fullShare ((tcDat (Name := Name) (U := U) (Lvl := Lvl) c A B).after 2 t)
      ∗ owns (c : Thread nD τ) (st1_3 t) fullShare ((tcDat (Name := Name) (U := U) (Lvl := Lvl) c A B).after 3 t)
      ∗ owns (c : Thread nD τ) (st1_4 t) fullShare ((tcDat (Name := Name) (U := U) (Lvl := Lvl) c A B).after 4 t)
      ∗ owns (c : Thread nD τ) (st1_5 t) fullShare ((tcDat (Name := Name) (U := U) (Lvl := Lvl) c A B).after 5 t)
      ∗ owns (c : Thread nD τ) (st1_6 t) fullShare ((tcDat (Name := Name) (U := U) (Lvl := Lvl) c A B).after 6 t)
      ∗ owns (c : Thread nD τ) (st1_7 t) fullShare ((tcDat (Name := Name) (U := U) (Lvl := Lvl) c A B).after 7 t)
      ∗ owns (c : Thread nD τ) (st1_8 t) fullShare ((tcDat (Name := Name) (U := U) (Lvl := Lvl) c A B).after 8 t)
      ∗ owns (c : Thread nD τ) (st1_9 t) fullShare ((tcDat (Name := Name) (U := U) (Lvl := Lvl) c A B).after 9 t)
      ∗ owns (c : Thread nD τ) (st1_10 t) fullShare ((tcDat (Name := Name) (U := U) (Lvl := Lvl) c A B).after 10 t)
      ∗ owns (c : Thread nD τ) (st1_11 t) fullShare ((tcDat (Name := Name) (U := U) (Lvl := Lvl) c A B).after 11 t))

/-- The body at any point: the inputs' buffers hold their blocks, so the body's run applies; the invariant and the
    core's tallies pass through unread. -/
theorem tc_sound_body (ι : Ix) (t : Fin cfg1.N) :
    tcBodyPre (F := F) (Name := Name) (U := U) (Lvl := Lvl) c A B ι t
      ⊢ wp frame (wpE (defs₀ (F := F)) Variants.none c none) Set.univ (bodyAt1 t) (fun _ => tcBodyPost (Name := Name) (U := U) (Lvl := Lvl) c A B ι t) := by
  unfold tcBodyPre tcBodyPost bodyAt1
  simp only [tcDat_before_0, tcDat_before_1, tcDat_before_2, tcDat_before_3, tcDat_before_4, tcDat_before_5, tcDat_before_6, tcDat_before_7, tcDat_before_8, tcDat_before_9, tcDat_before_10]
  rw [show (tcDat (Name := Name) (U := U) (Lvl := Lvl) c A B).Φ t.succ = (tcDat (Name := Name) (U := U) (Lvl := Lvl) c A B).Φ t.castSucc from rfl,
    show (tcDat (Name := Name) (U := U) (Lvl := Lvl) c A B).owesAt ι t.succ = (tcDat (Name := Name) (U := U) (Lvl := Lvl) c A B).owesAt ι t.castSucc from rfl,
    tcDat_after_0, tcDat_after_1, tcDat_after_2, tcDat_after_3, tcDat_after_4, tcDat_after_5, tcDat_after_6, tcDat_after_7, tcDat_after_8, tcDat_after_9, tcDat_after_10, tcDat_after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (tc_body_run c Set.univ (grid1.coords t) _ _ _ _ _ _ _ _ _ _ _ _ _ _ _ _ _ _ _ _ _ _ _ _ (tcBlk c A 0 t) (tcBlk c A 1 t) (tcBlk c A 2 t) (tcBlk c A 3 t) (tcBlk c A 4 t) (tcBlk c A 5 t) (tcBlk c A 6 t) (tcBlk c A 7 t) (tcBlk c A 8 t) (tcBlk c A 9 t) (tcBlk c A 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of the TensorCore pipeline, in the exact form. -/
theorem tcBodyExact (ι : Ix) : BodyObligation (tcDat (F := F) (Name := Name) (U := U) (Lvl := Lvl) c A B) (defs₀ (F := F)) Variants.none ι Set.univ := fun t => by
  rw [bigSep_W1, bigSep_W1]
  exact tc_sound_body c A B ι t

/-- What the write-back of the output window writes at point t. -/
theorem tcDat_flushed (t : Fin cfg1.N) : (tcDat (Name := Name) (U := U) (Lvl := Lvl) c A B).flushed 11 t = tcOut c A t := by
  show (cfg1.win 11).cut (cfg1.grid.coords t) ((tcDat (Name := Name) (U := U) (Lvl := Lvl) c A B).after 11 t) = _
  rw [tcDat_after_11]; rfl

/-- The body obligation of the TensorCore pipeline. -/
theorem tcBody (ι : Ix) : BodyObligationLoose (tcDat (F := F) (Name := Name) (U := U) (Lvl := Lvl) c A B) (defs₀ (F := F)) Variants.none ι Set.univ :=
  (tcBodyExact c A B ι).loose

end Cert.Proof.Bt

end
-- ==== Proof.LaunchRegionBt.lean ====
/-
  The TensorCore region inside the SparseCore program: the pipeline's proof data at the contents the host operations
  and the SparseCore call left, and the region as the pipeline library's segment — entered from @main's buffers held
  at a valuation, left with the windowed arrays at what the pipeline computes.
-/
import proofs.«205279_g68771016344126_cont_9to1_m_1330_15_alg».proof.Proof.CommonBt
import proofs.«205279_g68771016344126_cont_9to1_m_1330_15_alg».proof.Proof.HostOpsBt
import proofs.«205279_g68771016344126_cont_9to1_m_1330_15_alg».proof.Proof.TcDatBt
import proofs.«205279_g68771016344126_cont_9to1_m_1330_15_alg».proof.Proof.Gen.Kernel.Launch
import Idealize.ShloMosaic.Lib.Pipeline.Regions

noncomputable section

namespace Cert.Proof.Bt

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The pipeline's rounds component and its fixed data -/

/-- The pipeline's staging cells' rounds algebra embedded: the middle factor. -/
abbrev EP : Emb UP (MT nD τ sig (HIx 1) (Elt F) ℕ UU ℕ) := (Emb.inl : Emb UP (UP × Counters)).trans embR

omit [FloatOps F] in
instance EP_landsIn : (EP (F := F)).LandsIn (upEmb : UEmb _ 𝕄) := by unfold EP embR; infer_instance

/-- No prefetched table. -/
abbrev adm : (p : Fin 1) → (pcfgs (F := F) p).Adm := fun p => (cfgs p).toPCfg_adm

/-- The pipeline's waits are recorded at the index of the kernels' own waits. -/
abbrev ι₀ : HIx 1 := none

/-- With one SparseCore call every level is at most 7: any recorded pairs sit at or below any later bound. -/
theorem wBelow_any (thr : Thread nD τ) (W : Waits sig (HIx 1)) : (K (F := F)).WBelow thr W 8 := fun p _ => by
  rcases hp : p.2 with _ | q
  · rw [show (K (F := F)).lev (thr, p.1) none = 0 from rfl]; exact Nat.zero_le _
  · have h := (K (F := F)).lev_some_le (thr, p.1) q
    have hq : q.val = 0 := by have := q.isLt; omega
    omega

variable (Vv : (d : Dev nD) → Valuation τ sig (Elt F))

/-- The proof data: the arrays at what the valuation holds when the region is entered. -/
def tcDats (_ : Fin 1) (c : Dev nD) : Pipeline.Dat τ (Elt F) (HIx 1) ℕ UU ℕ cfg1 c :=
  tcDat c (fun w => Vv c (Pipeline.arrRef spec1 w)) Set.univ

/-- What the TensorCore owes around the region: nothing, whatever pairs its waits have recorded. -/
abbrev owesLow (c : Dev nD) : sProp 𝕄 := iprop(∃ W, owes (T c) (0 : CellTallies nD τ sig (HIx 1)) W)

set_option backward.isDefEq.respectTransparency.types false in
/-- The region: entered from the unscoped buffers held at the valuation, left with the twelve arrays at what the
    pipeline computes and the other buffers as they were. -/
def regTC : Pipeline.RegionSeg (pcfgs (F := F)) adm (tcDats Vv) ι₀ defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := tcBody c _ _ ι₀
  hwaits := Pipeline.hwaits_of_owed_zero _ _ _ _ _ _ 0 fun _ _ => rfl
  pre c := iprop(StableHlo.held (T c) ucRefs (Vv c) ∗ owesLow c)
  post c := iprop((tcDats Vv 0 c).arrays ((tcDats Vv 0 c).arrAt · cfg1.N) ∗ Pipeline.unscopedRest spec1 c (fun b => Vv c b) ∗ owesLow c)
  X _ := iprop(emp)
  Y _ := iprop(emp)
  Z c := Pipeline.unscopedRest spec1 c (fun b => Vv c b)
  hentry c := by
    rw [show StableHlo.held (T c) ucRefs (Vv c) = unscopedBufs c (fun b => Vv c b) from (unscopedBufs_held c _).symm]
    have hsplit := Pipeline.arrays_of_unscopedBufs (pcfgs (F := F)) adm (tcDats Vv) launch1.win launch1.arr_whole c
      ((tcDats Vv 0 c).share_full fun _ => rfl) (fun b => Vv c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (tcDats Vv 0 c).Φ 0 = iprop(emp) from rfl]
    iintro -; iempintro
  hout c := by
    rw [Pipeline.ownSems0_none, scopedRest1_eq]
    iintro -
    isplitr; · iempintro
    isplitr <;> iempintro
  hexit c := by
    iintro ⟨Ha, HO, -, HZ⟩
    imodintro
    isplitl [Ha]; · iexact Ha
    isplitl [HZ]; · iexact HZ
    unfold Pipeline.Dat.owesAt Pipeline.owesWithin
    icases HO with ⟨%W, -, HO⟩; iexists W; iexact HO

/-- What the region's entry takes of the launch: the pipeline's cells' ghost state and its transfers' tokens. -/
abbrev G₀ (d : Dev nD) : sProp 𝕄 :=
  iprop(Pipeline.cellsGhost (Pipeline.pin (pcfgs (F := F)) adm) EP 0 d ∗ Pipeline.toksInit (Pipeline.pin (pcfgs (F := F)) adm) EP 0 d)

/-- The region's entry as @main spells it is the pipeline's entry call, lifted to the SparseCore program's labels. -/
theorem regionCall_eq : regionCall (F := F) = SparseCore.liftProg (Q := 1) (Prog.lift (.customCall (Pipeline.entry 0) ())) := rfl

set_option backward.isDefEq.respectTransparency.types false in
/-- The region as @main spells it inside the SparseCore program: from the level facts, the boundary, the buffers held
    at the valuation, nothing owed and the pipeline's ghost state, to the boundary and the region's post. -/
theorem wp_region (d : Dev nD) (Φ : PUnit → sProp 𝕄) :
    iprop(levAts (K (F := F)).L (K (F := F)).lev ∗ boundary (T d) ∗ StableHlo.held (T d) ucRefs (Vv d) ∗ owesLow (F := F) d ∗ G₀ (F := F) d
        ∗ (iprop(boundary (T d) ∗ (regTC Vv).post d) -∗ Φ ⟨⟩))
      ⊢ wp frame (wpE ((K (F := F)).defs (D (F := F))) 𝒱 (T d) none) Set.univ (regionCall (F := F)) Φ := by
  rw [regionCall_eq]
  have hl := (K (F := F)).wp_liftProg (nD := nD) (Val := Elt F) (Name := ℕ) (U := UU) (D (F := F)) 𝒱 (T d) Set.univ none
    (Prog.lift (.customCall (Pipeline.entry 0) ())) Φ
  have h := Pipeline.RegionSeg.wp (pcfgs (F := F)) adm (tcDats Vv) ι₀ cellOf_inj EP defs₀ 𝒱₀ (K (F := F)).L (K (F := F)).lev (regTC Vv) d none
    (fun _ h => nomatch h) (fun x => .ret x) Φ
  iintro ⟨#Hla, Hb, Hh, HO, ⟨Hg, Ht⟩, Hk⟩
  iapply hl
  iapply h
  isplitl [Hk]
  · iintro H
    rw [wp_ret]; imodintro
    iapply Hk; iexact H
  isplitl [Hb]; · iexact Hb
  isplitl [Hh HO]
  · iapply (show iprop(StableHlo.held (T d) ucRefs (Vv d) ∗ owesLow (F := F) d) ⊢ (regTC Vv).pre d from BI.Entails.refl _)
    isplitl [Hh] <;> iassumption
  isplitr; · iexact Hla
  isplitl [Hg] <;> iassumption

end Cert.Proof.Bt

end
-- ==== Proof.LaunchValsBt.lean ====
/-
  What @main's buffers hold between its stages, as valuations: at launch, after each line of host operations, after
  the SparseCore call (the two results at the gathered rows), after the TensorCore region (its arrays at what the
  pipeline computes); and the program's result as a term of the launch memory.
-/
import proofs.«205279_g68771016344126_cont_9to1_m_1330_15_alg».proof.Proof.CommonBt
import proofs.«205279_g68771016344126_cont_9to1_m_1330_15_alg».proof.Proof.HostOpsBt
import proofs.«205279_g68771016344126_cont_9to1_m_1330_15_alg».proof.Proof.TileResBt
import proofs.«205279_g68771016344126_cont_9to1_m_1330_15_alg».proof.Proof.LaunchRegionBt
import Idealize.ShloMosaic.Lib.Pipeline.FrameSuffix

noncomputable section

namespace Cert.Proof.Bt

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## What @main's buffers hold, stage by stage -/

/-- At launch. -/
abbrev V₀ (d : Dev nD) : Valuation τ sig (Elt F) := fun b => m (d, b)
/-- After the first line of host operations. -/
abbrev V₁ (d : Dev nD) : Valuation τ sig (Elt F) := StableHlo.after hostA (V₀ m d)

/-- The three arrays the gather reads, as the SparseCore call finds them. -/
abbrev g4 (d : Dev nD) : Buf (Elt F) (t2Loc d) := V₁ m d main_v4
abbrev g5 (d : Dev nD) : Buf (Elt F) (t1Loc d) := V₁ m d main_v5
abbrev g2 (d : Dev nD) : Buf (Elt F) (ixLoc d) := V₁ m d main_v2

/-- After the SparseCore call: the two results at the gathered rows. -/
def V₂ (d : Dev nD) : Valuation τ sig (Elt F) :=
  Function.update (Function.update (V₁ m d) (main_v6_0 : Ref sig .tc) (e2Tgt d (g4 m d) (g2 m d))) (main_v6_1 : Ref sig .tc) (e1Tgt d (g5 m d) (g2 m d))

/-- After the second line. -/
abbrev V₃ (d : Dev nD) : Valuation τ sig (Elt F) := StableHlo.after hostB (V₂ m d)

/-- After the region: the windowed arrays at what the pipeline computes. -/
def V₄ (d : Dev nD) : Valuation τ sig (Elt F) :=
  Pipeline.withArrays spec1 d (V₃ m d) fun w => (tcDats (V₃ m) 0 d).arrAt w cfg1.N

/-- At the end. -/
abbrev V₅ (d : Dev nD) : Valuation τ sig (Elt F) := StableHlo.after hostC (V₄ m d)

/-- The result: the last line's transpose of what the pipeline leaves in its output array. -/
def RESULT (d : Dev nD) : Buf (Elt F) ((d.tc : Thread nD τ).loc main_v13) := V₅ m d main_v13

end Cert.Proof.Bt

end
-- ==== Proof.LaunchGhostBt.lean ====
/-
  The launch element of the proof's ghost state: the handshakes' rounds, and the TensorCore pipeline's staging
  cells' rounds funded for the region's entry; the transfers' counters start empty.
-/
import proofs.«205279_g68771016344126_cont_9to1_m_1330_15_alg».proof.Proof.CommonBt
import proofs.«205279_g68771016344126_cont_9to1_m_1330_15_alg».proof.Proof.LaunchPayBt
import proofs.«205279_g68771016344126_cont_9to1_m_1330_15_alg».proof.Proof.LaunchRegionBt
import proofs.«205279_g68771016344126_cont_9to1_m_1330_15_alg».proof.Proof.Gen.Kernel.Launch

noncomputable section

namespace Cert.Proof.Bt

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (f4 : (d : Dev nD) → Buf (Elt F) (t2Loc d)) (f5 : (d : Dev nD) → Buf (Elt F) (t1Loc d)) (f2 : (d : Dev nD) → Buf (Elt F) (ixLoc d))

/-! ## The launch element -/

/-- The handshakes' rounds at their launch state, the pipeline's staging cells' rounds at theirs, no counter. -/
def u₀ : UU :=
  (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G₀ (F := F) d)
        ∗ bigSep Finset.univ fun thr : Thread nD τ => bigSep Finset.univ fun q : Fin 1 => (P f4 f5 f2).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (cfgs) (EP (F := F)) cellOf_inj) $$ HP with ⟨Hg, Ht⟩
  imodintro
  isplitl [HH]; · iexact HH
  isplitl [Hg Ht]
  · rw [bigSep_sep']
    isplitl [Hg]
    · iapply (Entails.of_eq (bigSep_congr fun d _ => (bigSep_univ_of_subsingleton (0 : Fin 1)))) $$ Hg
    · iapply (Entails.of_eq (bigSep_congr fun d _ => (bigSep_univ_of_subsingleton (0 : Fin 1)))) $$ Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.Bt

end
-- ==== Proof.LaunchSplitBt.lean ====
/-
  The five arrays of the SparseCore call, whole, against the thirty-two tiles' parts: the two results row block by row
  block (tile (c, s), tile number w = 2 s + c, owns rows 13 w … 13 w + 12 of the first and row w of the second when
  w < 26), the three arrays the gather reads as one read share per tile number beside the share the TensorCore keeps.
-/
import proofs.«205279_g68771016344126_cont_9to1_m_1330_15_alg».proof.Proof.CommonBt
import proofs.«205279_g68771016344126_cont_9to1_m_1330_15_alg».proof.Proof.TileResBt
import proofs.«205279_g68771016344126_cont_9to1_m_1330_15_alg».proof.Proof.LaunchPayBt
import Idealize.ShloMosaic.Lib.Transfers

noncomputable section

namespace Cert.Proof.Bt

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Transfers (shareTokN shareDrop shareTok)

/-! ## Tiles as tile numbers -/

/-- The launch theorem's tile indices. -/
abbrev TIx : Type := Fin ((K (F := F)).nCore 0) × Fin ((K (F := F)).nSub 0)

omit [FloatOps F] in
theorem wid_tileL (c : Fin ((K (F := F)).nCore 0)) (i : Fin ((K (F := F)).nSub 0)) : wid (tileL c i) = 2 * i.val + c.val := rfl

/-- Tile numbers and tiles correspond: w = 2 s + c. -/
def widEquiv : TIx (F := F) ≃ Fin 32 where
  toFun x := ⟨2 * x.2.val + x.1.val, by have h1 : x.1.val < 2 := x.1.isLt; have h2 : x.2.val < 16 := x.2.isLt; omega⟩
  invFun w := (⟨w.val % 2, Nat.mod_lt _ (by decide)⟩, ⟨w.val / 2, by have := w.isLt; show w.val / 2 < 16; omega⟩)
  left_inv x := by
    have h1 : x.1.val < 2 := x.1.isLt
    refine Prod.ext (Fin.ext ?_) (Fin.ext ?_)
    · show (2 * x.2.val + x.1.val) % 2 = x.1.val; omega
    · show (2 * x.2.val + x.1.val) / 2 = x.2.val; omega
  right_inv w := Fin.ext (by show 2 * (w.val / 2) + w.val % 2 = w.val; omega)

omit [FloatOps F] in
/-- Over the tile numbers is over the SparseCores and their tiles. -/
theorem bigSep_workers (Φ : ℕ → sProp 𝕄) :
    (bigSep Finset.univ fun w : Fin 32 => Φ w.val)
      = bigSep Finset.univ fun c : Fin ((K (F := F)).nCore 0) => bigSep Finset.univ fun i : Fin ((K (F := F)).nSub 0) => Φ (wid (tileL c i)) := by
  rw [bigSep_univ_equiv (widEquiv (F := F)) (fun w : Fin 32 => Φ w.val), bigSep_univ_prod]
  rfl

/-! ## The rows of the two results, tile by tile -/

omit [FloatOps F] in
theorem mem_e2Region (L : grid0.Coords) (j : S416x16384.Idx) : j ∈ e2Region L ↔ 13 * wid L ≤ (j 0).val ∧ (j 0).val < 13 * wid L + 13 := by
  show j ∈ ((View.whole (main_v6_0_scv : Ref sig .scVector)).slice (e2Rect L)).set ↔ _
  rw [View.set_slice_whole, Rect.mem_set_unit]
  constructor
  · intro h; have := h 0; simpa using this
  · intro h a
    have h1 : (j 1).val < 16384 := (j 1).isLt
    fin_cases a <;> simp <;> omega

omit [FloatOps F] in
theorem mem_e1Region (L : grid0.Coords) (j : S26x16384.Idx) : j ∈ e1Region L ↔ (j 0).val = wid L := by
  have hj0 : (j 0).val < 26 := (j 0).isLt
  unfold e1Region
  split
  · next h =>
    show j ∈ ((View.whole (main_v6_1_scv : Ref sig .scVector)).slice (Rect.unit (s := S26x16384) ![wid L, 0] ![1, 16384] (e1Row_inb L h))).set ↔ _
    rw [View.set_slice_whole, Rect.mem_set_unit]
    constructor
    · intro h'; have := h' 0; simp at this; omega
    · intro h' a
      have h1 : (j 1).val < 16384 := (j 1).isLt
      fin_cases a <;> simp <;> omega
  · next h => simp only [Finset.notMem_empty, false_iff]; omega

omit [FloatOps F] in
theorem wid_inj {x y : TIx (F := F)} (h : wid (tileL x.1 x.2) = wid (tileL y.1 y.2)) : x = y := by
  have := congrArg (widEquiv (F := F)).symm (show widEquiv (F := F) x = widEquiv y from Fin.ext h)
  simpa using this

omit [FloatOps F] in
theorem e2_disjoint : ∀ x ∈ (Finset.univ : Finset (TIx (F := F))), ∀ y ∈ (Finset.univ : Finset (TIx (F := F))), x ≠ y →
    Disjoint (e2Region (tileL x.1 x.2)) (e2Region (tileL y.1 y.2)) := fun x _ y _ hne =>
  Finset.disjoint_left.mpr fun j h1 h2 => by
    rw [mem_e2Region] at h1 h2
    exact hne (wid_inj (by omega))

omit [FloatOps F] in
theorem e2_cover : (Finset.univ : Finset (TIx (F := F))).biUnion (fun x => e2Region (tileL x.1 x.2)) = Finset.univ := by
  ext j
  simp only [Finset.mem_biUnion, Finset.mem_univ, true_and, iff_true]
  have hj : (j 0).val < 416 := (j 0).isLt
  refine ⟨(widEquiv (F := F)).symm ⟨(j 0).val / 13, by omega⟩, ?_⟩
  rw [mem_e2Region]
  have hw : wid (tileL ((widEquiv (F := F)).symm ⟨(j 0).val / 13, by omega⟩).1 ((widEquiv (F := F)).symm ⟨(j 0).val / 13, by omega⟩).2) = (j 0).val / 13 :=
    congrArg Fin.val ((widEquiv (F := F)).apply_symm_apply ⟨(j 0).val / 13, by omega⟩)
  rw [hw]; omega

omit [FloatOps F] in
theorem e1_disjoint : ∀ x ∈ (Finset.univ : Finset (TIx (F := F))), ∀ y ∈ (Finset.univ : Finset (TIx (F := F))), x ≠ y →
    Disjoint (e1Region (tileL x.1 x.2)) (e1Region (tileL y.1 y.2)) := fun x _ y _ hne =>
  Finset.disjoint_left.mpr fun j h1 h2 => by
    rw [mem_e1Region] at h1 h2
    exact hne (wid_inj (by omega))

omit [FloatOps F] in
theorem e1_cover : (Finset.univ : Finset (TIx (F := F))).biUnion (fun x => e1Region (tileL x.1 x.2)) = Finset.univ := by
  ext j
  simp only [Finset.mem_biUnion, Finset.mem_univ, true_and, iff_true]
  have hj : (j 0).val < 26 := (j 0).isLt
  refine ⟨(widEquiv (F := F)).symm ⟨(j 0).val, by omega⟩, ?_⟩
  rw [mem_e1Region]
  exact (congrArg Fin.val ((widEquiv (F := F)).apply_symm_apply ⟨(j 0).val, by omega⟩)).symm

omit [FloatOps F] in
/-- A result array whole is its tiles' rows. -/
theorem e2_rows (d : Dev nD) (g : Buf (Elt F) (e2Loc d)) :
    (e2Loc d ↦{fullShare} g : sProp 𝕄)
      = bigSep Finset.univ fun c : Fin ((K (F := F)).nCore 0) => bigSep Finset.univ fun i : Fin ((K (F := F)).nSub 0) => e2Loc d ↦[e2Region (tileL c i)]{fullShare} g := by
  rw [← bigSep_univ_prod (fun x : TIx (F := F) => (e2Loc d ↦[e2Region (tileL x.1 x.2)]{fullShare} g : sProp 𝕄)),
    ← pointsTo_biUnion Finset.univ (ℓ := e2Loc d) (fun x : TIx (F := F) => e2Region (tileL x.1 x.2)) e2_disjoint, e2_cover]
  try rfl
omit [FloatOps F] in
theorem e1_rows (d : Dev nD) (g : Buf (Elt F) (e1Loc d)) :
    (e1Loc d ↦{fullShare} g : sProp 𝕄)
      = bigSep Finset.univ fun c : Fin ((K (F := F)).nCore 0) => bigSep Finset.univ fun i : Fin ((K (F := F)).nSub 0) => e1Loc d ↦[e1Region (tileL c i)]{fullShare} g := by
  rw [← bigSep_univ_prod (fun x : TIx (F := F) => (e1Loc d ↦[e1Region (tileL x.1 x.2)]{fullShare} g : sProp 𝕄)),
    ← pointsTo_biUnion Finset.univ (ℓ := e1Loc d) (fun x : TIx (F := F) => e1Region (tileL x.1 x.2)) e1_disjoint, e1_cover]
  try rfl

omit [FloatOps F] in
/-- An array every tile reads: the share the TensorCore keeps and one read share per tile. -/
theorem read_shares (ℓ : Loc nD τ sig) (f : Buf (Elt F) ℓ) :
    (ℓ ↦{fullShare} f : sProp 𝕄) ⊣⊢ iprop((ℓ ↦{shareDrop fullShare 32} f)
      ∗ bigSep Finset.univ fun c : Fin ((K (F := F)).nCore 0) => bigSep Finset.univ fun i : Fin ((K (F := F)).nSub 0) => ℓ ↦{shareTokN fullShare (wid (tileL c i))} f) := by
  rw [← bigSep_workers (F := F) (fun w => (ℓ ↦{shareTokN fullShare w} f : sProp 𝕄))]
  exact Transfers.pointsTo_toks fullShare 32

/-! ## The call's operands dealt to the tiles, and gathered back -/

omit [FloatOps F] in
/-- The five arrays whole are the shares the TensorCore keeps of the three the gather reads, and every tile's part. -/
theorem tiles_in (d : Dev nD) (a4 : Buf (Elt F) (t2Loc d)) (a5 : Buf (Elt F) (t1Loc d)) (a2 : Buf (Elt F) (ixLoc d))
    (g6 : Buf (Elt F) (e2Loc d)) (g7 : Buf (Elt F) (e1Loc d)) :
    iprop((t2Loc d ↦{fullShare} a4) ∗ (t1Loc d ↦{fullShare} a5) ∗ (ixLoc d ↦{fullShare} a2) ∗ (e2Loc d ↦{fullShare} g6) ∗ (e1Loc d ↦{fullShare} g7))
      ⊢ (iprop(((t2Loc d ↦{shareDrop fullShare 32} a4) ∗ (t1Loc d ↦{shareDrop fullShare 32} a5) ∗ (ixLoc d ↦{shareDrop fullShare 32} a2))
          ∗ bigSep Finset.univ fun c : Fin ((K (F := F)).nCore 0) => bigSep Finset.univ fun i : Fin ((K (F := F)).nSub 0) => TileIn d a4 a5 a2 (tileL c i)) : sProp 𝕄) := by
  unfold TileIn
  simp only [bigSep_sep']
  iintro ⟨H4, H5, H2, H6, H7⟩
  ihave H4 := (read_shares (F := F) (t2Loc d) a4).1 $$ H4
  icases H4 with ⟨R4, T4⟩
  ihave H5 := (read_shares (F := F) (t1Loc d) a5).1 $$ H5
  icases H5 with ⟨R5, T5⟩
  ihave H2 := (read_shares (F := F) (ixLoc d) a2).1 $$ H2
  icases H2 with ⟨R2, T2⟩
  ihave H6 := (Entails.of_eq (e2_rows (F := F) d g6)) $$ H6
  ihave H7 := (Entails.of_eq (e1_rows (F := F) d g7)) $$ H7
  isplitl [R4 R5 R2]
  · isplitl [R4]; · iexact R4
    isplitl [R5] <;> iassumption
  isplitl [T4]; · iexact T4
  isplitl [T5]; · iexact T5
  isplitl [T2]; · iexact T2
  isplitl [H6]
  · have h6 : (bigSep Finset.univ fun c : Fin ((K (F := F)).nCore 0) => bigSep Finset.univ fun i : Fin ((K (F := F)).nSub 0) => (e2Loc d ↦[e2Region (tileL c i)]{fullShare} g6 : sProp 𝕄))
        ⊢ bigSep Finset.univ fun c : Fin ((K (F := F)).nCore 0) => bigSep Finset.univ fun i : Fin ((K (F := F)).nSub 0) => iprop(∃ g, e2Loc d ↦[e2Region (tileL c i)]{fullShare} g) :=
      bigSep_mono fun c _ => bigSep_mono fun i _ =>
        (show (e2Loc d ↦[e2Region (tileL c i)]{fullShare} g6 : sProp 𝕄) ⊢ iprop(∃ g, e2Loc d ↦[e2Region (tileL c i)]{fullShare} g) from by iintro H; iexists g6; iexact H)
    iapply h6; iexact H6
  · have h7 : (bigSep Finset.univ fun c : Fin ((K (F := F)).nCore 0) => bigSep Finset.univ fun i : Fin ((K (F := F)).nSub 0) => (e1Loc d ↦[e1Region (tileL c i)]{fullShare} g7 : sProp 𝕄))
        ⊢ bigSep Finset.univ fun c : Fin ((K (F := F)).nCore 0) => bigSep Finset.univ fun i : Fin ((K (F := F)).nSub 0) => iprop(∃ g, e1Loc d ↦[e1Region (tileL c i)]{fullShare} g) :=
      bigSep_mono fun c _ => bigSep_mono fun i _ =>
        (show (e1Loc d ↦[e1Region (tileL c i)]{fullShare} g7 : sProp 𝕄) ⊢ iprop(∃ g, e1Loc d ↦[e1Region (tileL c i)]{fullShare} g) from by iintro H; iexists g7; iexact H)
    iapply h7; iexact H7

omit [FloatOps F] in
/-- Back: the kept shares and every tile's part returned make the three read arrays whole as they were and the two
    results whole at the gathered rows. -/
theorem tiles_out (d : Dev nD) (a4 : Buf (Elt F) (t2Loc d)) (a5 : Buf (Elt F) (t1Loc d)) (a2 : Buf (Elt F) (ixLoc d)) :
    (iprop(((t2Loc d ↦{shareDrop fullShare 32} a4) ∗ (t1Loc d ↦{shareDrop fullShare 32} a5) ∗ (ixLoc d ↦{shareDrop fullShare 32} a2))
          ∗ bigSep Finset.univ fun c : Fin ((K (F := F)).nCore 0) => bigSep Finset.univ fun i : Fin ((K (F := F)).nSub 0) => TileOut d a4 a5 a2 (tileL c i)) : sProp 𝕄)
      ⊢ iprop((t2Loc d ↦{fullShare} a4) ∗ (t1Loc d ↦{fullShare} a5) ∗ (ixLoc d ↦{fullShare} a2)
          ∗ (e2Loc d ↦{fullShare} e2Tgt d a4 a2) ∗ (e1Loc d ↦{fullShare} e1Tgt d a5 a2)) := by
  unfold TileOut
  simp only [bigSep_sep']
  iintro ⟨⟨R4, R5, R2⟩, T4, T5, T2, H6, H7⟩
  isplitl [R4 T4]
  · iapply (read_shares (F := F) (t2Loc d) a4).2; isplitl [R4] <;> iassumption
  isplitl [R5 T5]
  · iapply (read_shares (F := F) (t1Loc d) a5).2; isplitl [R5] <;> iassumption
  isplitl [R2 T2]
  · iapply (read_shares (F := F) (ixLoc d) a2).2; isplitl [R2] <;> iassumption
  isplitl [H6]
  · iapply (Entails.of_eq (e2_rows (F := F) d (e2Tgt d a4 a2)).symm); iexact H6
  · iapply (Entails.of_eq (e1_rows (F := F) d (e1Tgt d a5 a2)).symm); iexact H7

end Cert.Proof.Bt

end
-- ==== Proof.LaunchCallBt.lean ====
/-
  Around the SparseCore call in @main: its five arrays taken out of the buffers @main holds and dealt to the tiles,
  and what the tiles hand back put among them again — the two results now at the gathered rows.
-/
import proofs.«205279_g68771016344126_cont_9to1_m_1330_15_alg».proof.Proof.CommonBt
import proofs.«205279_g68771016344126_cont_9to1_m_1330_15_alg».proof.Proof.HostOpsBt
import proofs.«205279_g68771016344126_cont_9to1_m_1330_15_alg».proof.Proof.TileResBt
import proofs.«205279_g68771016344126_cont_9to1_m_1330_15_alg».proof.Proof.LaunchPayBt
import proofs.«205279_g68771016344126_cont_9to1_m_1330_15_alg».proof.Proof.LaunchSplitBt
import proofs.«205279_g68771016344126_cont_9to1_m_1330_15_alg».proof.Proof.LaunchValsBt

noncomputable section

namespace Cert.Proof.Bt

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Transfers (shareTokN shareDrop shareTok)

variable (m : (ℓ : Loc nD τ sig) → Buf (Elt F) ℓ)

/-! ## The call's five arrays among @main's buffers -/

/-- The transposed table, the first-order table, the index array, the two results. -/
def R5 : Finset (Ref sig .tc) := {main_v4, main_v5, main_v2, main_v6_0, main_v6_1}
def T5 : Finset (DevRef τ sig) := R5.map ⟨Proc.devRef (sig := sig) (.tc : Proc τ), Proc.devRef_injective _⟩

omit [FloatOps F] in
theorem mem_ucRefs (b : Ref sig .tc) (h : b.isScoped = false) : (Proc.devRef (τ := τ) .tc b) ∈ ucRefs :=
  Finset.mem_filter.mpr ⟨StableHlo.devRef_mem_tcRefs b, fun h' => Bool.false_ne_true (h.symm.trans h')⟩

theorem T5_sub : T5 ⊆ ucRefs := by
  intro b hb
  obtain ⟨r, hr, rfl⟩ := Finset.mem_map.mp hb
  simp only [R5, Finset.mem_insert, Finset.mem_singleton] at hr
  rcases hr with rfl | rfl | rfl | rfl | rfl <;> exact mem_ucRefs _ (by decide)

omit [FloatOps F] in
/-- Held at a valuation, they are five points-tos. -/
theorem held_T5 (d : Dev nD) (W : Valuation τ sig (Elt F)) :
    (StableHlo.held (T d) T5 W : sProp 𝕄)
      = iprop((t2Loc d ↦{fullShare} W main_v4) ∗ (t1Loc d ↦{fullShare} W main_v5) ∗ (ixLoc d ↦{fullShare} W main_v2)
          ∗ (e2Loc d ↦{fullShare} W main_v6_0) ∗ (e1Loc d ↦{fullShare} W main_v6_1)) := by
  unfold StableHlo.held T5 R5
  rw [bigSep_map, SparseCore.bigSep_insert' (by decide), SparseCore.bigSep_insert' (by decide), SparseCore.bigSep_insert' (by decide),
    SparseCore.bigSep_insert' (by decide), bigSep_singleton]
  rfl

/-! ## The valuation after the call -/

theorem V₂_v60 (d : Dev nD) : V₂ m d main_v6_0 = e2Tgt d (g4 m d) (g2 m d) := by
  unfold V₂
  rw [Function.update_of_ne (StableHlo.devRef_ne_of_ne (by decide)), Function.update_self]
theorem V₂_v61 (d : Dev nD) : V₂ m d main_v6_1 = e1Tgt d (g5 m d) (g2 m d) := by
  unfold V₂
  rw [Function.update_self]
theorem V₂_of_ne (d : Dev nD) (b : Ref sig .tc) (h0 : b ≠ main_v6_0) (h1 : b ≠ main_v6_1) : V₂ m d b = V₁ m d b := by
  unfold V₂
  rw [Function.update_of_ne (StableHlo.devRef_ne_of_ne h1), Function.update_of_ne (StableHlo.devRef_ne_of_ne h0)]
theorem V₂_off (d : Dev nD) (b : DevRef τ sig) (hb : b ∈ ucRefs \ T5) : V₁ m d b = V₂ m d b := by
  obtain ⟨hu, hn⟩ := Finset.mem_sdiff.mp hb
  unfold V₂
  rw [Function.update_of_ne, Function.update_of_ne]
  · rintro rfl; exact hn (Finset.mem_map.mpr ⟨main_v6_0, by simp [R5], rfl⟩)
  · rintro rfl; exact hn (Finset.mem_map.mpr ⟨main_v6_1, by simp [R5], rfl⟩)

/-! ## Around the call -/

/-- Before: the buffers held after the first line are the shares the TensorCore keeps, every SparseCore's part of
    the call's operands, and the other buffers. -/
theorem take5 (d : Dev nD) :
    (StableHlo.held (T d) ucRefs (V₁ m d) : sProp 𝕄)
      ⊢ iprop((((t2Loc d ↦{shareDrop fullShare 32} g4 m d) ∗ (t1Loc d ↦{shareDrop fullShare 32} g5 m d) ∗ (ixLoc d ↦{shareDrop fullShare 32} g2 m d))
          ∗ bigSep Finset.univ fun c : Fin ((K (F := F)).nCore 0) => (P (g4 m) (g5 m) (g2 m)).st 0 d c)
        ∗ StableHlo.held (T d) (ucRefs \ T5) (V₁ m d)) := by
  rw [StableHlo.held_sub_split (T d) T5_sub, held_T5]
  exact sep_mono (tiles_in d (g4 m d) (g5 m d) (g2 m d) _ _) .rfl

/-- After: what the SparseCores hand back, the kept shares and the other buffers are the buffers held at the
    valuation with the two results at the gathered rows. -/
theorem give5 (d : Dev nD) :
    iprop((((t2Loc d ↦{shareDrop fullShare 32} g4 m d) ∗ (t1Loc d ↦{shareDrop fullShare 32} g5 m d) ∗ (ixLoc d ↦{shareDrop fullShare 32} g2 m d))
          ∗ bigSep Finset.univ fun c : Fin ((K (F := F)).nCore 0) => (P (g4 m) (g5 m) (g2 m)).dn 0 d c)
        ∗ StableHlo.held (T d) (ucRefs \ T5) (V₁ m d))
      ⊢ (StableHlo.held (T d) ucRefs (V₂ m d) : sProp 𝕄) := by
  rw [StableHlo.held_sub_split (T d) T5_sub (V₂ m d), held_T5, V₂_v60, V₂_v61, V₂_of_ne m d main_v4 (by decide) (by decide),
    V₂_of_ne m d main_v5 (by decide) (by decide), V₂_of_ne m d main_v2 (by decide) (by decide),
    StableHlo.held_congr (T d) (V := V₁ m d) (V' := V₂ m d) (V₂_off m d)]
  exact sep_mono (tiles_out d (g4 m d) (g5 m d) (g2 m d)) .rfl

end Cert.Proof.Bt

end
-- ==== Proof.LaunchExitBt.lean ====
/-
  After the TensorCore region: the pipeline's arrays and the other buffers are @main's buffers held at one valuation
  again; which buffers each line of host operations writes; and that every argument array ends as launched.
-/
import proofs.«205279_g68771016344126_cont_9to1_m_1330_15_alg».proof.Proof.CommonBt
import proofs.«205279_g68771016344126_cont_9to1_m_1330_15_alg».proof.Proof.HostOpsBt
import proofs.«205279_g68771016344126_cont_9to1_m_1330_15_alg».proof.Proof.TileResBt
import proofs.«205279_g68771016344126_cont_9to1_m_1330_15_alg».proof.Proof.LaunchRegionBt
import proofs.«205279_g68771016344126_cont_9to1_m_1330_15_alg».proof.Proof.LaunchValsBt
import proofs.«205279_g68771016344126_cont_9to1_m_1330_15_alg».proof.Proof.LaunchCallBt
import Idealize.ShloMosaic.Lib.Pipeline.FrameSuffix

noncomputable section

namespace Cert.Proof.Bt

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## Which buffers a line writes -/

omit [FloatOps F] in
theorem hostA_keeps (b : Ref sig .tc) (h : b ∉ ({main_v0, main_v1, main_v2, main_v3, main_v4, main_v5} : Finset (Ref sig .tc))) :
    ∀ op ∈ (hostA (F := F)), Proc.devRef .tc b ∉ op.writes := by
  simp only [Finset.mem_insert, Finset.mem_singleton, not_or] at h
  obtain ⟨h0, h1, h2, h3, h4, h5⟩ := h
  intro op hop
  simp only [hostA, List.mem_cons, List.mem_nil_iff, or_false] at hop
  rcases hop with rfl | rfl | rfl | rfl | rfl | rfl <;>
    simp only [StableHlo.unary_writes, StableHlo.reshape_writes, Finset.mem_singleton] <;>
    exact StableHlo.devRef_ne_of_ne ‹_›

omit [FloatOps F] in
theorem hostB_keeps (b : Ref sig .tc) (h : b ∉ ({main_v7, main_v8, main_v9, main_v10, main_v11} : Finset (Ref sig .tc))) :
    ∀ op ∈ (hostB (F := F)), Proc.devRef .tc b ∉ op.writes := by
  simp only [Finset.mem_insert, Finset.mem_singleton, not_or] at h
  obtain ⟨h0, h1, h2, h3, h4⟩ := h
  intro op hop
  simp only [hostB, List.mem_cons, List.mem_nil_iff, or_false] at hop
  rcases hop with rfl | rfl | rfl | rfl | rfl <;>
    simp only [StableHlo.unary_writes, StableHlo.reshape_writes, Finset.mem_singleton] <;>
    exact StableHlo.devRef_ne_of_ne ‹_›

omit [FloatOps F] in
theorem hostC_keeps (b : Ref sig .tc) (h : b ≠ main_v13) : ∀ op ∈ (hostC (F := F)), Proc.devRef .tc b ∉ op.writes := by
  intro op hop
  simp only [hostC, List.mem_cons, List.mem_nil_iff, or_false] at hop
  rcases hop with rfl
  simp only [StableHlo.unary_writes, Finset.mem_singleton]
  exact StableHlo.devRef_ne_of_ne h

/-! ## The region's exit -/

/-- Every window but the last is an input. -/
theorem isOut_false (w : Fin cfg1.W) (h : w ≠ 11) : (cfg1.win w).isOut = false := by
  revert w; decide

/-- After the region a buffer other than the pipeline's output holds what it held before. -/
theorem V₄_of_ne (d : Dev nD) (b : Ref sig .tc) (h : b ≠ main_v12) : V₄ m d b = V₃ m d b := by
  unfold V₄
  by_cases hw : ∃ w, Pipeline.arrRef spec1 w = b
  · obtain ⟨w, rfl⟩ := hw
    have hw11 : w ≠ 11 := by rintro rfl; exact h rfl
    rw [Pipeline.withArrays_arr spec1 launch1.win.arr_inj d _ _ w]
    exact ((tcDats (V₃ m) 0 d).arrAt_in w (isOut_false w hw11) _).trans rfl
  · exact Pipeline.withArrays_of_ne spec1 d _ _ b fun w e => hw ⟨w, e⟩

/-- The arrays at what the pipeline computes beside the other buffers as they were are @main's buffers held at the
    valuation after the region. -/
theorem region_exit (d : Dev nD) :
    iprop((tcDats (V₃ m) 0 d).arrays ((tcDats (V₃ m) 0 d).arrAt · cfg1.N) ∗ Pipeline.unscopedRest spec1 d (fun b => V₃ m d b))
      ⊢ (StableHlo.held (SparseCore.T d) ucRefs (V₄ m d) : sProp 𝕄) := by
  have e1 : ∀ w, V₄ m d (Pipeline.arrRef spec1 w) = (tcDats (V₃ m) 0 d).arrAt w cfg1.N := fun w =>
    Pipeline.withArrays_arr spec1 launch1.win.arr_inj d _ _ w
  have e2 : (Pipeline.unscopedRest spec1 d (fun b => V₄ m d b) : sProp 𝕄) = Pipeline.unscopedRest spec1 d (fun b => V₃ m d b) := by
    unfold Pipeline.unscopedRest
    exact bigSep_congr fun b hb => by
      dsimp only
      rw [show V₄ m d b = V₃ m d b from Pipeline.withArrays_of_ne spec1 d _ _ b fun w e =>
        (Finset.mem_sdiff.mp hb).2 (Finset.mem_image.mpr ⟨w, Finset.mem_univ _, e⟩)]
  rw [← unscopedBufs_held d (V₄ m d), Pipeline.unscopedBufs_split cfgs 0 launch1.win.arr_unscoped launch1.win.arr_inj d, e2,
    Pipeline.arrays_eq cfgs (tcDats (V₃ m)) 0 d launch1.arr_whole ((tcDats (V₃ m) 0 d).share_full fun _ => rfl)]
  exact sep_mono (Entails.of_eq (bigSep_congr fun w _ => by rw [e1])) .rfl

/-! ## The arguments at the end -/

/-- An argument array holds at the end what it held at launch: no line writes it, the call's results and the
    pipeline's output are other buffers. -/
theorem V₅_arg (d : Dev nD) (b : Ref sig .tc)
    (h : b ∈ ({main_arg0, main_arg1, main_arg2, main_arg3, main_arg4, main_arg5, main_arg6, main_arg7, main_arg8, main_arg9, main_arg10, main_arg11} : Finset (Ref sig .tc))) :
    V₅ m d b = m (d, Proc.devRef .tc b) := by
  have hA : b ∉ ({main_v0, main_v1, main_v2, main_v3, main_v4, main_v5} : Finset (Ref sig .tc)) := by revert b; decide
  have hB : b ∉ ({main_v7, main_v8, main_v9, main_v10, main_v11} : Finset (Ref sig .tc)) := by revert b; decide
  have h60 : b ≠ main_v6_0 := by revert b; decide
  have h61 : b ≠ main_v6_1 := by revert b; decide
  have h12 : b ≠ main_v12 := by revert b; decide
  have h13 : b ≠ main_v13 := by revert b; decide
  show StableHlo.after hostC (V₄ m d) (Proc.devRef .tc b) = _
  rw [StableHlo.after_of_forall_not_mem hostC _ (hostC_keeps b h13), V₄_of_ne m d b h12]
  show StableHlo.after hostB (V₂ m d) (Proc.devRef .tc b) = _
  rw [StableHlo.after_of_forall_not_mem hostB _ (hostB_keeps b hB), V₂_of_ne m d b h60 h61]
  exact StableHlo.after_of_forall_not_mem hostA _ (hostA_keeps b hA)

end Cert.Proof.Bt

end
-- ==== Proof.LaunchMainBt.lean ====
/-
  @main on the TensorCore, inside the SparseCore launch: the first line of host operations, the SparseCore call
  (its operands dealt to the tiles, the gathered rows taken back), the second line, the TensorCore region, the last
  line — @main's buffers held at one valuation after each.
-/
import proofs.«205279_g68771016344126_cont_9to1_m_1330_15_alg».proof.Proof.CommonBt
import proofs.«205279_g68771016344126_cont_9to1_m_1330_15_alg».proof.Proof.HostOpsBt
import proofs.«205279_g68771016344126_cont_9to1_m_1330_15_alg».proof.Proof.TileResBt
import proofs.«205279_g68771016344126_cont_9to1_m_1330_15_alg».proof.Proof.LaunchPayBt
import proofs.«205279_g68771016344126_cont_9to1_m_1330_15_alg».proof.Proof.LaunchSplitBt
import proofs.«205279_g68771016344126_cont_9to1_m_1330_15_alg».proof.Proof.LaunchRegionBt
import proofs.«205279_g68771016344126_cont_9to1_m_1330_15_alg».proof.Proof.LaunchValsBt
import proofs.«205279_g68771016344126_cont_9to1_m_1330_15_alg».proof.Proof.LaunchCallBt
import proofs.«205279_g68771016344126_cont_9to1_m_1330_15_alg».proof.Proof.LaunchExitBt

noncomputable section

namespace Cert.Proof.Bt

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Transfers (shareTokN shareDrop shareTok)

variable (m : (ℓ : Loc nD τ sig) → Buf (Elt F) ℓ) (ρ : Dev nD → PrngReg)

/-- What the handshakes carry, at the contents the first line of host operations leaves. -/
abbrev PP : (K (F := F)).Pay (nD := nD) (Val := Elt F) (Name := ℕ) (U := UU) := P (g4 m) (g5 m) (g2 m)

/-- What the TensorCore ends with: @main's buffers held at the last valuation. -/
abbrev FIN (d : Dev nD) : sProp 𝕄 := StableHlo.held (T d) ucRefs (V₅ m d)

/-- @main, the last line followed by the return. -/
theorem main_eq' (d : Dev nD) :
    main (F := F) d = (StableHlo.seq hostA >>= fun _ => (K (F := F)).run d 0 >>= fun _ => StableHlo.seq hostB >>= fun _ => regionCall >>= fun _ =>
      StableHlo.seq hostC >>= fun _ => pure ⟨⟩) := by
  rfl

/-- After the one call the TensorCore owes nothing; what it owes can be taken out of its state and put back. -/
theorem tcSt_owes (d : Dev nD) :
    (K (F := F)).tcSt EH d 1 ⊢ (iprop(owesLow (F := F) d ∗ (owesLow (F := F) d -∗ (K (F := F)).tcSt EH d 1)) : sProp 𝕄) := by
  unfold SparseCore.Cfg.tcSt
  rw [(K (F := F)).Otc_end d (le_refl 1)]
  iintro ⟨⟨%W, -, HO⟩, Hrest⟩
  isplitl [HO]; · iexists W; iexact HO
  iintro ⟨%W', HO⟩
  isplitl [HO]
  · iexists W'; isplitr; · ipureintro; exact wBelow_any _ _
    iexact HO
  iexact Hrest

/-- What the launch deals the TensorCore: the boundary, and @main's buffers held at the launch contents. -/
theorem tcRes_held (d : Dev nD) :
    (K (F := F)).tcRes m ρ d ⊢ (iprop(boundary (T d) ∗ StableHlo.held (T d) ucRefs (V₀ m d)) : sProp 𝕄) := by
  unfold SparseCore.Cfg.tcRes
  rw [← unscopedBufs_held d (V₀ m d)]
  iintro ⟨Hb, Hh, -, -⟩
  isplitl [Hb]; · iexact Hb
  iexact Hh

set_option backward.isDefEq.respectTransparency.types false in
/-- A line of host operations inside the SparseCore program, over @main's buffers held at a valuation. -/
theorem wp_line (d : Dev nD) (ops : List (HloOp τ sig (Elt F))) (hS : ∀ op ∈ ops, op.bufs ⊆ ucRefs) (hf : ∀ op ∈ ops, op.fresh = ∅)
    (W : Valuation τ sig (Elt F)) {β : Type} (k : PUnit → Prog (TpuEff nD τ sig (Elt F) (SparseCore.Sig (ΛP (F := F)) 1) .tc) β) (Φ : β → sProp 𝕄) :
    iprop(boundary (T d) ∗ StableHlo.held (T d) ucRefs W
        ∗ (iprop(boundary (T d) ∗ StableHlo.held (T d) ucRefs (StableHlo.after ops W)) -∗ wp frame (wpE ((K (F := F)).defs (D (F := F))) 𝒱 (T d) none) Set.univ (k ⟨⟩) Φ))
      ⊢ wp frame (wpE ((K (F := F)).defs (D (F := F))) 𝒱 (T d) none) Set.univ (StableHlo.seq ops >>= k) Φ := by
  have hseq := StableHlo.wp_seq (defs := (K (F := F)).defs (D (F := F))) 𝒱 none Set.univ d ucRefs k (K := Φ) ops hS hf W
  iintro ⟨Hb, Hh, Hk⟩
  iapply hseq $$ [Hb Hh]
  · isplitl [Hb] <;> iassumption
  iexact Hk

/-- @main on device d's TensorCore. -/
theorem hmain (κ : GSem nD τ sig → ℕ) (d : Dev nD) :
    iprop((K (F := F)).ctx EH (PP m) κ ∗ (K (F := F)).tcSt EH d 0 ∗ (K (F := F)).tcRes m ρ d ∗ G₀ (F := F) d)
      ⊢ wp frame (wpE ((K (F := F)).defs (D (F := F))) 𝒱 (T d) none) Set.univ (main (F := F) d)
          fun _ => iprop((K (F := F)).tcSt EH d 1 ∗ FIN m d) := by
  rw [main_eq']
  iintro ⟨#Hctx, Hst, Hres, HG⟩
  ihave #Hla := (SparseCore.Cfg.ctx_levAts κ) $$ Hctx
  ihave Hres := (tcRes_held m ρ d) $$ Hres
  icases Hres with ⟨Hb, Hh⟩
  -- the first line
  iapply (wp_line d hostA hostA_sub hostA_fresh (V₀ m d) _ _) $$ [Hb Hh Hst HG]
  isplitl [Hb]; · iexact Hb
  isplitl [Hh]; · iexact Hh
  iintro ⟨Hb, Hh⟩
  -- the SparseCore call
  rw [wp_bind]
  ihave H5 := (take5 m d) $$ Hh
  icases H5 with ⟨⟨Hrem, Htiles⟩, Hrest⟩
  iapply ((K (F := F)).wp_run (D (F := F)) 𝒱 (EH := EH) (P := PP m) κ d 0) $$ [Hst Htiles Hrem Hrest Hb HG]
  isplitr; · iexact Hctx
  isplitl [Hst]; · iexact Hst
  isplitl [Htiles]; · iexact Htiles
  iintro ⟨Hst, Hdn⟩
  ihave Hst := (show (K (F := F)).tcSt EH d ((0 : Fin 1).val + 1) ⊢ ((K (F := F)).tcSt EH d 1 : sProp 𝕄) from BI.Entails.refl _) $$ Hst
  ihave Hh := (give5 m d) $$ [Hrem Hdn Hrest]
  · isplitl [Hrem Hdn]
    · isplitl [Hrem] <;> iassumption
    iexact Hrest
  -- the second line
  iapply (wp_line d hostB hostB_sub hostB_fresh (V₂ m d) _ _) $$ [Hb Hh Hst HG]
  isplitl [Hb]; · iexact Hb
  isplitl [Hh]; · iexact Hh
  iintro ⟨Hb, Hh⟩
  -- the region
  rw [wp_bind]
  ihave HO := (tcSt_owes d) $$ Hst
  icases HO with ⟨HO, Hst⟩
  iapply (wp_region (V₃ m) d _) $$ [Hb Hh HO HG Hst]
  isplitr; · iexact Hla
  isplitl [Hb]; · iexact Hb
  isplitl [Hh]; · iexact Hh
  isplitl [HO]; · iexact HO
  isplitl [HG]; · iexact HG
  iintro ⟨Hb, Hpost⟩
  ihave Hpost' := (show (regTC (V₃ m)).post d ⊢ iprop((tcDats (V₃ m) 0 d).arrays ((tcDats (V₃ m) 0 d).arrAt · cfg1.N)
      ∗ Pipeline.unscopedRest spec1 d (fun b => V₃ m d b) ∗ owesLow (F := F) d) from BI.Entails.refl _) $$ Hpost
  icases Hpost' with ⟨Ha, Hr, HO⟩
  ihave Hst := Hst $$ HO
  ihave Hh := (region_exit m d) $$ [Ha Hr]
  · isplitl [Ha] <;> iassumption
  -- the last line
  iapply (wp_line d hostC hostC_sub hostC_fresh (V₄ m d) _ _) $$ [Hb Hh Hst]
  isplitl [Hb]; · iexact Hb
  isplitl [Hh]; · iexact Hh
  iintro ⟨-, Hh⟩
  rw [wp_pure]; imodintro
  isplitl [Hst]; · iexact Hst
  iexact Hh

end Cert.Proof.Bt

end
-- ==== Proof.LaunchRunBt.lean ====
/-
  The program's run by the SparseCore launch theorem: from the tile's body obligation, the TensorCore's @main, the
  launch element and the final memory's reading, every weakly fair execution of the device's thirty-five threads
  terminates with the result a stated term of the launch memory and every argument array unchanged.
-/
import proofs.«205279_g68771016344126_cont_9to1_m_1330_15_alg».proof.Proof.CommonBt
import proofs.«205279_g68771016344126_cont_9to1_m_1330_15_alg».proof.Proof.HostOpsBt
import proofs.«205279_g68771016344126_cont_9to1_m_1330_15_alg».proof.Proof.TileResBt
import proofs.«205279_g68771016344126_cont_9to1_m_1330_15_alg».proof.Proof.LaunchPayBt
import proofs.«205279_g68771016344126_cont_9to1_m_1330_15_alg».proof.Proof.LaunchRegionBt
import proofs.«205279_g68771016344126_cont_9to1_m_1330_15_alg».proof.Proof.LaunchGhostBt
import proofs.«205279_g68771016344126_cont_9to1_m_1330_15_alg».proof.Proof.LaunchValsBt
import proofs.«205279_g68771016344126_cont_9to1_m_1330_15_alg».proof.Proof.LaunchCallBt
import proofs.«205279_g68771016344126_cont_9to1_m_1330_15_alg».proof.Proof.LaunchExitBt
import proofs.«205279_g68771016344126_cont_9to1_m_1330_15_alg».proof.Proof.LaunchMainBt

noncomputable section

namespace Cert.Proof.Bt

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## Reading the claim off the final memory -/

/-- Every one of @main's buffers holds what the last valuation says. -/
def fq (d : Dev nD) (s' : Phys nD τ sig (Elt F)) : Prop := ∀ b ∈ ucRefs, s'.mem.mem (d, b) = V₅ m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave Hr := (pointsTo_read_all ucRefs (fun b : DevRef τ sig => ((d, b) : Loc nD τ sig)) (V₅ m d) s') $$ [H HSI]
  · isplitl [H] <;> iassumption
  icases Hr with ⟨%h, -⟩
  ipureintro; exact h

/-- The run's claim: the result is the term RESULT of the launch memory, every argument array is as launched. -/
def QC : PUnit × MemSt nD τ sig (Elt F) → Prop := fun r => ∀ c : Dev nD,
  r.2.mem ((c.tc : Thread nD τ).loc main_v13) = RESULT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)

theorem hQ (s' : Phys nD τ sig (Elt F)) (h : ∀ d, fq m d s') : QC m (⟨⟩, s'.mem) := by
  intro c
  have ha : ∀ b : Ref sig .tc, b ∈ ({main_arg0, main_arg1, main_arg2, main_arg3, main_arg4, main_arg5, main_arg6, main_arg7, main_arg8, main_arg9, main_arg10, main_arg11} : Finset (Ref sig .tc)) →
      s'.mem.mem ((c.tc : Thread nD τ).loc b) = m ((c.tc : Thread nD τ).loc b) := fun b hb =>
    (h c _ (mem_ucRefs b (by revert b; decide))).trans (V₅_arg m c b hb)
  refine ⟨h c _ (mem_ucRefs main_v13 (by decide)), ha main_arg0 (by decide), ha main_arg1 (by decide), ha main_arg2 (by decide), ha main_arg3 (by decide), ha main_arg4 (by decide), ha main_arg5 (by decide), ha main_arg6 (by decide), ha main_arg7 (by decide), ha main_arg8 (by decide), ha main_arg9 (by decide), ha main_arg10 (by decide), ha main_arg11 (by decide)⟩

/-! ## The program's run -/

/-- From a memory whose semaphores read zero, given the tile's body obligation at the contents the first line of
    host operations leaves: every weakly fair execution of the device's threads terminates, the result is RESULT of
    the launch memory, and every argument array is unchanged. -/
theorem run_of_tile [∀ e, Nonempty (Elt F e)]
    (htile : (K (F := F)).TileObl (D (F := F)) 𝒱 (PP m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit _ _ _))
    m ρ main (fun d => G₀ (F := F) d) (FIN m) (u₀ (F := F)) (sep_elim_left.trans (hu₀ _ _ _)) (hmain m ρ) (fq m) (hfin m) (QC m) (hQ m)

end Cert.Proof.Bt

end
-- ==== Proof.Spec.lean ====
/-
  The specification of the TensorCore stage and of the whole result, on the extended reals: one batch
  column's output as a function of that column's gathered embeddings, its field values and the dense
  weights, in the order of operations of the fused body; then the whole result G as that function of
  the columns the lookups select.
-/
import Idealize.ShloMosaic.Lib.ValueIdx

noncomputable section

open scoped BigOperators

namespace Cert.Spec

open Idealize.ShloMosaic Idealize.ShloMosaic.ValueIdx

/-! ## The float literals, as the words both programs print -/

/-- 1.0 -/
abbrev cONE : EReal := Ideal.ofBits .f32 0x3F800000#32
/-- f32 (1e-12), the floor under the norm. -/
abbrev cEPS : EReal := Ideal.ofBits .f32 0x2B8CBCCC#32
/-- 0.5 -/
abbrev cHALF : EReal := Ideal.ofBits .f32 0x3F000000#32
/-- f32 (1 / sqrt (1 + 1e-5)), the batch-norm scale. -/
abbrev cBN : EReal := Ideal.ofBits .f32 0x3F7FFFAC#32
/-- 0.0 -/
abbrev cZERO : EReal := Ideal.ofBits .f32 0x00000000#32

/-! ## One batch column -/

/-- Row 16 f + d of the 416 rows: field f, embedding coordinate d. -/
def row (f : Fin 26) (d : Fin 16) : Fin 416 := ⟨16 * f.val + d.val, by have := f.isLt; have := d.isLt; omega⟩
/-- The field of a row. -/
def rowF (k : Fin 416) : Fin 26 := ⟨k.val / 16, by have := k.isLt; omega⟩
/-- The embedding coordinate of a row. -/
def rowD (k : Fin 416) : Fin 16 := ⟨k.val % 16, by omega⟩

/-- The scaled embedding: u f d = e2 (16 f + d) * xv f. -/
def u (e2 : Fin 416 → EReal) (xv : Fin 26 → EReal) (f : Fin 26) (d : Fin 16) : EReal := e2 (row f d) * xv f
/-- The sum of squares over the fields, per coordinate. -/
def ss (e2 : Fin 416 → EReal) (xv : Fin 26 → EReal) (d : Fin 16) : EReal := ∑ f : Fin 26, u e2 xv f d * u e2 xv f d
/-- The reciprocal of the floored norm: 1 / max (sqrt ss) eps. -/
def inv (e2 : Fin 416 → EReal) (xv : Fin 26 → EReal) (d : Fin 16) : EReal :=
  Ideal.div cONE (max (Ideal.sqrt (ss e2 xv d)) cEPS)
/-- The normalized embedding: xn f d = u f d * inv d. -/
def xn (e2 : Fin 416 → EReal) (xv : Fin 26 → EReal) (f : Fin 26) (d : Fin 16) : EReal := u e2 xv f d * inv e2 xv d
/-- The sum over the fields of the normalized embedding. -/
def tS (e2 : Fin 416 → EReal) (xv : Fin 26 → EReal) (d : Fin 16) : EReal := ∑ f : Fin 26, xn e2 xv f d
/-- The sum over the fields of its square. -/
def s2 (e2 : Fin 416 → EReal) (xv : Fin 26 → EReal) (d : Fin 16) : EReal := ∑ f : Fin 26, xn e2 xv f d * xn e2 xv f d
/-- The second-order term: the sum over d of 0.5 * (t d * t d - s2 d). -/
def f2 (e2 : Fin 416 → EReal) (xv : Fin 26 → EReal) : EReal :=
  ∑ d : Fin 16, cHALF * (tS e2 xv d * tS e2 xv d - s2 e2 xv d)
/-- The first-order term: the sum over f of e1 f * xv f. -/
def f1 (e1 : Fin 26 → EReal) (xv : Fin 26 → EReal) : EReal := ∑ f : Fin 26, e1 f * xv f
/-- The normalized embedding as one vector of 416 entries (entry k: field k / 16, coordinate k % 16). -/
def xflat (e2 : Fin 416 → EReal) (xv : Fin 26 → EReal) (k : Fin 416) : EReal := xn e2 xv (rowF k) (rowD k)
/-- One dense layer: max ((sum over k of w j k * x k + b j) * bn) 0. -/
def layer {n m : Nat} (w : Fin m → Fin n → EReal) (b : Fin m → EReal) (x : Fin n → EReal) (j : Fin m) : EReal :=
  max (((∑ k : Fin n, w j k * x k) + b j) * cBN) cZERO
/-- The deep part: three layers, then the sum of the last one's 200 outputs. -/
def deep (e2 : Fin 416 → EReal) (xv : Fin 26 → EReal)
    (w1 : Fin 200 → Fin 416 → EReal) (b1 : Fin 200 → EReal)
    (w2 : Fin 200 → Fin 200 → EReal) (b2 : Fin 200 → EReal)
    (w3 : Fin 200 → Fin 200 → EReal) (b3 : Fin 200 → EReal) : EReal :=
  ∑ j : Fin 200, layer w3 b3 (layer w2 b2 (layer w1 b1 (xflat e2 xv))) j
/-- The three results that are stacked: first order, second order, the deep part's sum. -/
def stacked (a b c : EReal) : Fin 3 → EReal := ![a, b, c]

/-- One batch column of the result. -/
def tcCol (e2 : Fin 416 → EReal) (e1 : Fin 26 → EReal) (xv : Fin 26 → EReal)
    (w1 : Fin 200 → Fin 416 → EReal) (b1 : Fin 200 → EReal)
    (w2 : Fin 200 → Fin 200 → EReal) (b2 : Fin 200 → EReal)
    (w3 : Fin 200 → Fin 200 → EReal) (b3 : Fin 200 → EReal)
    (wd : Fin 2 → Fin 3 → EReal) (bd : Fin 2 → EReal) : Fin 2 → EReal :=
  fun o =>
    (∑ k : Fin 3, wd o k * stacked (f1 e1 xv) (f2 e2 xv) (deep e2 xv w1 b1 w2 b2 w3 b3) k) + bd o

/-! ## The whole result -/

/-- A lookup index: the word read as a natural number, capped at the last row of a table. -/
def vidx (w : BitVec 32) : Fin 100000 := ⟨min w.toNat 99999, by omega⟩

/-- The result array [16384, 2] as a function of the twelve arguments: entry (b, o) is column b's
    tcCol of the rows the indices Xi b · select in the two tables. -/
def G (Xi : (⟨3, ![16384, 26, 1]⟩ : Shape).Idx → BitVec 32)
    (Xv : (⟨2, ![16384, 26]⟩ : Shape).Idx → EReal)
    (tbl1 : (⟨3, ![26, 100000, 1]⟩ : Shape).Idx → EReal)
    (tbl2 : (⟨3, ![26, 100000, 16]⟩ : Shape).Idx → EReal)
    (W1 : (⟨2, ![200, 416]⟩ : Shape).Idx → EReal) (b1 : (⟨1, ![200]⟩ : Shape).Idx → EReal)
    (W2 : (⟨2, ![200, 200]⟩ : Shape).Idx → EReal) (b2 : (⟨1, ![200]⟩ : Shape).Idx → EReal)
    (W3 : (⟨2, ![200, 200]⟩ : Shape).Idx → EReal) (b3 : (⟨1, ![200]⟩ : Shape).Idx → EReal)
    (Wd : (⟨2, ![2, 3]⟩ : Shape).Idx → EReal) (bd : (⟨1, ![2]⟩ : Shape).Idx → EReal) :
    (⟨2, ![16384, 2]⟩ : Shape).Idx → EReal :=
  fun i =>
    tcCol
      (fun r => tbl2 (ix3 (rowF r) (vidx (Xi (ix3 (i 0) (rowF r) (0 : Fin 1)))) (rowD r)))
      (fun f => tbl1 (ix3 f (vidx (Xi (ix3 (i 0) f (0 : Fin 1)))) (0 : Fin 1)))
      (fun f => Xv (ix2 (i 0) f))
      (fun j k => W1 (ix2 j k)) (fun j => b1 (ix1 j))
      (fun j k => W2 (ix2 j k)) (fun j => b2 (ix1 j))
      (fun j k => W3 (ix2 j k)) (fun j => b3 (ix1 j))
      (fun o k => Wd (ix2 o k)) (fun o => bd (ix1 o))
      (i 1)

end Cert.Spec

end
-- ==== Proof.AlgCol.lean ====
/-
  The specification G in terms of gathered columns: if arrays e2t [416, 16384], e1t [26, 16384] and
  xvt [26, 16384] hold, column by column, the looked-up second-order rows, the looked-up first-order
  entries and the transposed field values, then entry (b, o) of G is the column function tcCol of
  column b of those arrays.
-/
import proofs.«205279_g68771016344126_cont_9to1_m_1330_15_alg».proof.Proof.Spec

noncomputable section

namespace Cert.Alg

open Idealize.ShloMosaic Idealize.ShloMosaic.ValueIdx Cert.Spec

/-- A lookup index below the table's length is itself. -/
theorem vidx_val (w : BitVec 32) (h : w.toNat < 100000) : (vidx w).val = w.toNat := by
  show min w.toNat 99999 = w.toNat; omega

section
variable (Xi : (⟨3, ![16384, 26, 1]⟩ : Shape).Idx → BitVec 32)
    (Xv : (⟨2, ![16384, 26]⟩ : Shape).Idx → EReal)
    (tbl1 : (⟨3, ![26, 100000, 1]⟩ : Shape).Idx → EReal)
    (tbl2 : (⟨3, ![26, 100000, 16]⟩ : Shape).Idx → EReal)
    (W1 : (⟨2, ![200, 416]⟩ : Shape).Idx → EReal) (b1 : (⟨1, ![200]⟩ : Shape).Idx → EReal)
    (W2 : (⟨2, ![200, 200]⟩ : Shape).Idx → EReal) (b2 : (⟨1, ![200]⟩ : Shape).Idx → EReal)
    (W3 : (⟨2, ![200, 200]⟩ : Shape).Idx → EReal) (b3 : (⟨1, ![200]⟩ : Shape).Idx → EReal)
    (Wd : (⟨2, ![2, 3]⟩ : Shape).Idx → EReal) (bd : (⟨1, ![2]⟩ : Shape).Idx → EReal)

/-- Entry (b, o) of G, written out. -/
theorem G_apply (b : Fin 16384) (o : Fin 2) :
    G Xi Xv tbl1 tbl2 W1 b1 W2 b2 W3 b3 Wd bd (ix2 b o)
      = tcCol
          (fun r => tbl2 (ix3 (rowF r) (vidx (Xi (ix3 b (rowF r) (0 : Fin 1)))) (rowD r)))
          (fun f => tbl1 (ix3 f (vidx (Xi (ix3 b f (0 : Fin 1)))) (0 : Fin 1)))
          (fun f => Xv (ix2 b f))
          (fun j k => W1 (ix2 j k)) (fun j => b1 (ix1 j))
          (fun j k => W2 (ix2 j k)) (fun j => b2 (ix1 j))
          (fun j k => W3 (ix2 j k)) (fun j => b3 (ix1 j))
          (fun o k => Wd (ix2 o k)) (fun o => bd (ix1 o)) o := rfl

/-- G from gathered columns. -/
theorem G_of_gathered
    (e2t : (⟨2, ![416, 16384]⟩ : Shape).Idx → EReal) (e1t : (⟨2, ![26, 16384]⟩ : Shape).Idx → EReal)
    (xvt : (⟨2, ![26, 16384]⟩ : Shape).Idx → EReal)
    (h2 : ∀ (r : Fin 416) (b : Fin 16384),
      e2t (ix2 r b) = tbl2 (ix3 (rowF r) (vidx (Xi (ix3 b (rowF r) (0 : Fin 1)))) (rowD r)))
    (h1 : ∀ (f : Fin 26) (b : Fin 16384), e1t (ix2 f b) = tbl1 (ix3 f (vidx (Xi (ix3 b f (0 : Fin 1)))) (0 : Fin 1)))
    (hv : ∀ (f : Fin 26) (b : Fin 16384), xvt (ix2 f b) = Xv (ix2 b f))
    (b : Fin 16384) (o : Fin 2) :
    tcCol (fun r => e2t (ix2 r b)) (fun f => e1t (ix2 f b)) (fun f => xvt (ix2 f b))
        (fun j k => W1 (ix2 j k)) (fun j => b1 (ix1 j))
        (fun j k => W2 (ix2 j k)) (fun j => b2 (ix1 j))
        (fun j k => W3 (ix2 j k)) (fun j => b3 (ix1 j))
        (fun o k => Wd (ix2 o k)) (fun o => bd (ix1 o)) o
      = G Xi Xv tbl1 tbl2 W1 b1 W2 b2 W3 b3 Wd bd (ix2 b o) := by
  rw [G_apply]
  simp only [h2, h1, hv]

end

end Cert.Alg

end
-- ==== Proof.KHostOps.lean ====
/-
  The host-side layout operations around the two calls, each read at an index: the index array
  [16384, 26, 1] reshaped, transposed and split into [26, 128, 128]; the second-order table
  [26, 100000, 16] transposed and merged into [416, 100000] (row 16 f + d is coordinate d of field f);
  the first-order table's unit axis dropped; a vector turned into a one-column matrix; and a matrix
  transposed. Each is stated for any witness of its shape fact and any element type.
-/
import Idealize.ShloMosaic.Lib.ValueLayout

noncomputable section

namespace Cert.KHost

open Idealize.ShloMosaic Idealize.ShloMosaic.ValueIdx

variable {α : Type}

/-- [B, N, 1] to [B, N]: the unit axis dropped. -/
theorem reshape_dropLast {B N : Nat} (x : (⟨3, ![B, N, 1]⟩ : Shape).Idx → α)
    (h : (⟨3, ![B, N, 1]⟩ : Shape).ShapeCasts ⟨2, ![B, N]⟩) (b : Fin B) (f : Fin N) :
    shapeCast ⟨2, ![B, N]⟩ x h (ix2 b f) = x (ix3 b f (0 : Fin 1)) :=
  shapeCast_apply x h _ _ (by
    rw [Shape.rowMajor_val_three, Shape.rowMajor_val_two]
    show (b.val * N + f.val) * 1 + 0 = b.val * N + f.val
    omega)

/-- [N, 16384] to [N, 128, 128]: column 128 p + q at (p, q). -/
theorem reshape_split128 {N : Nat} (x : (⟨2, ![N, 16384]⟩ : Shape).Idx → α)
    (h : (⟨2, ![N, 16384]⟩ : Shape).ShapeCasts ⟨3, ![N, 128, 128]⟩) (f : Fin N) (p q : Fin 128) :
    shapeCast ⟨3, ![N, 128, 128]⟩ x h (ix3 f p q)
      = x (ix2 f (⟨128 * p.val + q.val, by have := p.isLt; have := q.isLt; omega⟩ : Fin 16384)) :=
  shapeCast_apply x h _ _ (by
    rw [Shape.rowMajor_val_three, Shape.rowMajor_val_two]
    show f.val * 16384 + (128 * p.val + q.val) = (f.val * 128 + p.val) * 128 + q.val
    omega)

/-- [26, 16, V] to [416, V]: row r is coordinate r % 16 of field r / 16. -/
theorem reshape_merge16 {V : Nat} (x : (⟨3, ![26, 16, V]⟩ : Shape).Idx → α)
    (h : (⟨3, ![26, 16, V]⟩ : Shape).ShapeCasts ⟨2, ![416, V]⟩) (r : Fin 416) (v : Fin V) :
    shapeCast ⟨2, ![416, V]⟩ x h (ix2 r v)
      = x (ix3 (⟨r.val / 16, by have := r.isLt; omega⟩ : Fin 26) (⟨r.val % 16, by omega⟩ : Fin 16) v) :=
  shapeCast_apply x h _ _ (by
    rw [Shape.rowMajor_val_three, Shape.rowMajor_val_two]
    show (r.val / 16 * 16 + r.val % 16) * V + v.val = r.val * V + v.val
    have : r.val / 16 * 16 + r.val % 16 = r.val := by omega
    rw [this])

/-- [n] to [n, 1]: a vector as one column. -/
theorem reshape_column {n : Nat} (x : (⟨1, ![n]⟩ : Shape).Idx → α)
    (h : (⟨1, ![n]⟩ : Shape).ShapeCasts ⟨2, ![n, 1]⟩) (j : Fin n) (u : Fin 1) :
    shapeCast ⟨2, ![n, 1]⟩ x h (ix2 j u) = x (ix1 j) :=
  shapeCast_apply x h _ _ (by
    have hu : u.val = 0 := by omega
    rw [Shape.rowMajor_val_two, Shape.rowMajor_val_one]
    show j.val = j.val * 1 + u.val
    omega)

/-! ## The three arrays the gather reads, as functions of the arguments -/

/-- The index array in the [26, 128, 128] layout: entry (f, p, q) is the index of field f for batch
    element 128 p + q. -/
theorem idx_layout (Xi : (⟨3, ![16384, 26, 1]⟩ : Shape).Idx → α)
    (h1 : (⟨3, ![16384, 26, 1]⟩ : Shape).ShapeCasts ⟨2, ![16384, 26]⟩)
    (h2 : (⟨2, ![16384, 26]⟩ : Shape).Transposes [1, 0] ⟨2, ![26, 16384]⟩)
    (h3 : (⟨2, ![26, 16384]⟩ : Shape).ShapeCasts ⟨3, ![26, 128, 128]⟩) (f : Fin 26) (p q : Fin 128) :
    shapeCast ⟨3, ![26, 128, 128]⟩ (transpose ⟨2, ![26, 16384]⟩ [1, 0] (shapeCast ⟨2, ![16384, 26]⟩ Xi h1) h2) h3 (ix3 f p q)
      = Xi (ix3 (⟨128 * p.val + q.val, by have := p.isLt; have := q.isLt; omega⟩ : Fin 16384) f (0 : Fin 1)) := by
  rw [reshape_split128, transpose_ix2_apply, reshape_dropLast]

/-- The same at batch element b: (b / 128, b % 128) holds b's index. -/
theorem idx_layout_at (Xi : (⟨3, ![16384, 26, 1]⟩ : Shape).Idx → α)
    (h1 : (⟨3, ![16384, 26, 1]⟩ : Shape).ShapeCasts ⟨2, ![16384, 26]⟩)
    (h2 : (⟨2, ![16384, 26]⟩ : Shape).Transposes [1, 0] ⟨2, ![26, 16384]⟩)
    (h3 : (⟨2, ![26, 16384]⟩ : Shape).ShapeCasts ⟨3, ![26, 128, 128]⟩) (f : Fin 26) (b : Fin 16384) :
    shapeCast ⟨3, ![26, 128, 128]⟩ (transpose ⟨2, ![26, 16384]⟩ [1, 0] (shapeCast ⟨2, ![16384, 26]⟩ Xi h1) h2) h3
        (ix3 f (⟨b.val / 128, by have := b.isLt; omega⟩ : Fin 128) (⟨b.val % 128, by omega⟩ : Fin 128))
      = Xi (ix3 b f (0 : Fin 1)) := by
  rw [idx_layout]
  exact congrArg Xi (funext fun a => match a with
    | ⟨0, _⟩ => Fin.ext (by show 128 * (b.val / 128) + b.val % 128 = b.val; omega)
    | ⟨1, _⟩ => rfl
    | ⟨2, _⟩ => rfl)

/-- Every entry of the index array in the [26, 128, 128] layout is an entry of the argument. -/
theorem idx_layout_mem (Xi : (⟨3, ![16384, 26, 1]⟩ : Shape).Idx → α)
    (h1 : (⟨3, ![16384, 26, 1]⟩ : Shape).ShapeCasts ⟨2, ![16384, 26]⟩)
    (h2 : (⟨2, ![16384, 26]⟩ : Shape).Transposes [1, 0] ⟨2, ![26, 16384]⟩)
    (h3 : (⟨2, ![26, 16384]⟩ : Shape).ShapeCasts ⟨3, ![26, 128, 128]⟩) (j : (⟨3, ![26, 128, 128]⟩ : Shape).Idx) :
    ∃ i, shapeCast ⟨3, ![26, 128, 128]⟩ (transpose ⟨2, ![26, 16384]⟩ [1, 0] (shapeCast ⟨2, ![16384, 26]⟩ Xi h1) h2) h3 j = Xi i := by
  obtain ⟨f, p, q, rfl⟩ : ∃ (f : Fin 26) (p q : Fin 128), j = ix3 f p q := ⟨j 0, j 1, j 2, eq_ix3 j⟩
  exact ⟨_, idx_layout Xi h1 h2 h3 f p q⟩

/-- The second-order table as [416, 100000]: row r, column v is coordinate r % 16 of field r / 16 at
    table row v. -/
theorem t2_layout (tbl2 : (⟨3, ![26, 100000, 16]⟩ : Shape).Idx → α)
    (hT : (⟨3, ![26, 100000, 16]⟩ : Shape).Transposes [0, 2, 1] ⟨3, ![26, 16, 100000]⟩)
    (hR : (⟨3, ![26, 16, 100000]⟩ : Shape).ShapeCasts ⟨2, ![416, 100000]⟩) (r : Fin 416) (v : Fin 100000) :
    shapeCast ⟨2, ![416, 100000]⟩ (transpose ⟨3, ![26, 16, 100000]⟩ [0, 2, 1] tbl2 hT) hR (ix2 r v)
      = tbl2 (ix3 (⟨r.val / 16, by have := r.isLt; omega⟩ : Fin 26) v (⟨r.val % 16, by omega⟩ : Fin 16)) := by
  rw [reshape_merge16, transpose_ix3_021_apply]

end Cert.KHost

end
-- ==== Proof.KHostVal.lean ====
/-
  The kernel's result as the specification G. The gather leaves, in column b of the [416, 16384]
  array, the second-order rows that batch element b's indices select, and in column b of the
  [26, 16384] array the first-order entries; the field values arrive transposed and the biases as
  one-column matrices. If the [2, 16384] output holds, in column b, the column function tcCol of
  column b of those arrays, then its transpose is G of the twelve arguments.
-/
import proofs.«205279_g68771016344126_cont_9to1_m_1330_15_alg».proof.Proof.AlgCol
import proofs.«205279_g68771016344126_cont_9to1_m_1330_15_alg».proof.Proof.KHostOps

noncomputable section

namespace Cert.KHost

open Idealize.ShloMosaic Idealize.ShloMosaic.ValueIdx Cert.Spec Cert.Alg

section
variable {α : Type} (Xi : (⟨3, ![16384, 26, 1]⟩ : Shape).Idx → BitVec 32)
    (h1 : (⟨3, ![16384, 26, 1]⟩ : Shape).ShapeCasts ⟨2, ![16384, 26]⟩)
    (h2 : (⟨2, ![16384, 26]⟩ : Shape).Transposes [1, 0] ⟨2, ![26, 16384]⟩)
    (h3 : (⟨2, ![26, 16384]⟩ : Shape).ShapeCasts ⟨3, ![26, 128, 128]⟩)

/-- The gathered second-order entry (r, b): the merged table's row r at the index that the laid-out index
    array holds for field r / 16 and batch element b. -/
theorem e2_gathered (tbl2 : (⟨3, ![26, 100000, 16]⟩ : Shape).Idx → α)
    (hT : (⟨3, ![26, 100000, 16]⟩ : Shape).Transposes [0, 2, 1] ⟨3, ![26, 16, 100000]⟩)
    (hR : (⟨3, ![26, 16, 100000]⟩ : Shape).ShapeCasts ⟨2, ![416, 100000]⟩) (r : Fin 416) (b : Fin 16384) :
    shapeCast ⟨2, ![416, 100000]⟩ (transpose ⟨3, ![26, 16, 100000]⟩ [0, 2, 1] tbl2 hT) hR
        (ix2 r (vidx (shapeCast ⟨3, ![26, 128, 128]⟩ (transpose ⟨2, ![26, 16384]⟩ [1, 0] (shapeCast ⟨2, ![16384, 26]⟩ Xi h1) h2) h3
          (ix3 (rowF r) (⟨b.val / 128, by have := b.isLt; omega⟩ : Fin 128) (⟨b.val % 128, by omega⟩ : Fin 128)))))
      = tbl2 (ix3 (rowF r) (vidx (Xi (ix3 b (rowF r) (0 : Fin 1)))) (rowD r)) := by
  rw [idx_layout_at, t2_layout]
  rfl

/-- The gathered first-order entry (f, b). -/
theorem e1_gathered (tbl1 : (⟨3, ![26, 100000, 1]⟩ : Shape).Idx → α)
    (hR1 : (⟨3, ![26, 100000, 1]⟩ : Shape).ShapeCasts ⟨2, ![26, 100000]⟩) (f : Fin 26) (b : Fin 16384) :
    shapeCast ⟨2, ![26, 100000]⟩ tbl1 hR1
        (ix2 f (vidx (shapeCast ⟨3, ![26, 128, 128]⟩ (transpose ⟨2, ![26, 16384]⟩ [1, 0] (shapeCast ⟨2, ![16384, 26]⟩ Xi h1) h2) h3
          (ix3 f (⟨b.val / 128, by have := b.isLt; omega⟩ : Fin 128) (⟨b.val % 128, by omega⟩ : Fin 128)))))
      = tbl1 (ix3 f (vidx (Xi (ix3 b f (0 : Fin 1)))) (0 : Fin 1)) := by
  rw [idx_layout_at, reshape_dropLast]

/-- The range of the indices carries over to the laid-out index array. -/
theorem idx_layout_range (hX : ∀ i, (Xi i).toNat < 100000) (j : (⟨3, ![26, 128, 128]⟩ : Shape).Idx) :
    (shapeCast ⟨3, ![26, 128, 128]⟩ (transpose ⟨2, ![26, 16384]⟩ [1, 0] (shapeCast ⟨2, ![16384, 26]⟩ Xi h1) h2) h3 j).toNat < 100000 := by
  obtain ⟨i, hi⟩ := idx_layout_mem Xi h1 h2 h3 j
  rw [hi]; exact hX i

end

/-! ## The assembly -/

section
variable (Xi : (⟨3, ![16384, 26, 1]⟩ : Shape).Idx → BitVec 32)
    (Xv : (⟨2, ![16384, 26]⟩ : Shape).Idx → EReal)
    (tbl1 : (⟨3, ![26, 100000, 1]⟩ : Shape).Idx → EReal)
    (tbl2 : (⟨3, ![26, 100000, 16]⟩ : Shape).Idx → EReal)
    (W1 : (⟨2, ![200, 416]⟩ : Shape).Idx → EReal) (b1 : (⟨1, ![200]⟩ : Shape).Idx → EReal)
    (W2 : (⟨2, ![200, 200]⟩ : Shape).Idx → EReal) (b2 : (⟨1, ![200]⟩ : Shape).Idx → EReal)
    (W3 : (⟨2, ![200, 200]⟩ : Shape).Idx → EReal) (b3 : (⟨1, ![200]⟩ : Shape).Idx → EReal)
    (Wd : (⟨2, ![2, 3]⟩ : Shape).Idx → EReal) (bd : (⟨1, ![2]⟩ : Shape).Idx → EReal)

/-- THE ASSEMBLY, over abstract columns: an output [2, 16384] whose column b is tcCol of column b of arrays that
    hold the gathered rows, the transposed field values and the weights, transposed, is G. -/
theorem result_eq_G
    (e2t : (⟨2, ![416, 16384]⟩ : Shape).Idx → EReal) (e1t : (⟨2, ![26, 16384]⟩ : Shape).Idx → EReal)
    (xvt : (⟨2, ![26, 16384]⟩ : Shape).Idx → EReal)
    (w1 : Fin 200 → Fin 416 → EReal) (c1 : Fin 200 → EReal) (w2 : Fin 200 → Fin 200 → EReal) (c2 : Fin 200 → EReal)
    (w3 : Fin 200 → Fin 200 → EReal) (c3 : Fin 200 → EReal) (wd : Fin 2 → Fin 3 → EReal) (cd : Fin 2 → EReal)
    (he2 : ∀ (r : Fin 416) (b : Fin 16384),
      e2t (ix2 r b) = tbl2 (ix3 (rowF r) (vidx (Xi (ix3 b (rowF r) (0 : Fin 1)))) (rowD r)))
    (he1 : ∀ (f : Fin 26) (b : Fin 16384), e1t (ix2 f b) = tbl1 (ix3 f (vidx (Xi (ix3 b f (0 : Fin 1)))) (0 : Fin 1)))
    (hxv : ∀ (f : Fin 26) (b : Fin 16384), xvt (ix2 f b) = Xv (ix2 b f))
    (hw1 : ∀ j k, w1 j k = W1 (ix2 j k)) (hc1 : ∀ j, c1 j = b1 (ix1 j))
    (hw2 : ∀ j k, w2 j k = W2 (ix2 j k)) (hc2 : ∀ j, c2 j = b2 (ix1 j))
    (hw3 : ∀ j k, w3 j k = W3 (ix2 j k)) (hc3 : ∀ j, c3 j = b3 (ix1 j))
    (hwd : ∀ o k, wd o k = Wd (ix2 o k)) (hcd : ∀ o, cd o = bd (ix1 o))
    (out12 : (⟨2, ![2, 16384]⟩ : Shape).Idx → EReal)
    (hout : ∀ (o : Fin 2) (b : Fin 16384), out12 (ix2 o b)
      = tcCol (fun r => e2t (ix2 r b)) (fun f => e1t (ix2 f b)) (fun f => xvt (ix2 f b)) w1 c1 w2 c2 w3 c3 wd cd o)
    (hO : (⟨2, ![2, 16384]⟩ : Shape).Transposes [1, 0] ⟨2, ![16384, 2]⟩) :
    transpose ⟨2, ![16384, 2]⟩ [1, 0] out12 hO = G Xi Xv tbl1 tbl2 W1 b1 W2 b2 W3 b3 Wd bd := by
  funext i
  obtain ⟨b, o, rfl⟩ : ∃ (b : Fin 16384) (o : Fin 2), i = ix2 b o := ⟨i 0, i 1, eq_ix2 i⟩
  rw [transpose_ix2_apply, hout, ← G_of_gathered Xi Xv tbl1 tbl2 W1 b1 W2 b2 W3 b3 Wd bd e2t e1t xvt he2 he1 hxv b o]
  have e1 : w1 = fun j k => W1 (ix2 j k) := funext fun j => funext fun k => hw1 j k
  have e2 : c1 = fun j => b1 (ix1 j) := funext hc1
  have e3 : w2 = fun j k => W2 (ix2 j k) := funext fun j => funext fun k => hw2 j k
  have e4 : c2 = fun j => b2 (ix1 j) := funext hc2
  have e5 : w3 = fun j k => W3 (ix2 j k) := funext fun j => funext fun k => hw3 j k
  have e6 : c3 = fun j => b3 (ix1 j) := funext hc3
  have e7 : wd = fun o k => Wd (ix2 o k) := funext fun o => funext fun k => hwd o k
  have e8 : cd = fun o => bd (ix1 o) := funext hcd
  rw [e1, e2, e3, e4, e5, e6, e7, e8]

/-- THE ASSEMBLY, over the host operations as the program spells them: the gathered arrays through the laid-out
    index array and the merged tables, the field values through their transpose, the biases through their
    one-column reshapes. -/
theorem result_eq_G_of_host
    (h1 : (⟨3, ![16384, 26, 1]⟩ : Shape).ShapeCasts ⟨2, ![16384, 26]⟩)
    (h2 : (⟨2, ![16384, 26]⟩ : Shape).Transposes [1, 0] ⟨2, ![26, 16384]⟩)
    (h3 : (⟨2, ![26, 16384]⟩ : Shape).ShapeCasts ⟨3, ![26, 128, 128]⟩)
    (hT : (⟨3, ![26, 100000, 16]⟩ : Shape).Transposes [0, 2, 1] ⟨3, ![26, 16, 100000]⟩)
    (hR : (⟨3, ![26, 16, 100000]⟩ : Shape).ShapeCasts ⟨2, ![416, 100000]⟩)
    (hR1 : (⟨3, ![26, 100000, 1]⟩ : Shape).ShapeCasts ⟨2, ![26, 100000]⟩)
    (hc : (⟨1, ![200]⟩ : Shape).ShapeCasts ⟨2, ![200, 1]⟩) (hc' : (⟨1, ![2]⟩ : Shape).ShapeCasts ⟨2, ![2, 1]⟩)
    (hO : (⟨2, ![2, 16384]⟩ : Shape).Transposes [1, 0] ⟨2, ![16384, 2]⟩)
    (e2t : (⟨2, ![416, 16384]⟩ : Shape).Idx → EReal) (e1t : (⟨2, ![26, 16384]⟩ : Shape).Idx → EReal)
    (he2 : ∀ (r : Fin 416) (b : Fin 16384), e2t (ix2 r b)
      = shapeCast ⟨2, ![416, 100000]⟩ (transpose ⟨3, ![26, 16, 100000]⟩ [0, 2, 1] tbl2 hT) hR
        (ix2 r (vidx (shapeCast ⟨3, ![26, 128, 128]⟩ (transpose ⟨2, ![26, 16384]⟩ [1, 0] (shapeCast ⟨2, ![16384, 26]⟩ Xi h1) h2) h3
          (ix3 (rowF r) (⟨b.val / 128, by have := b.isLt; omega⟩ : Fin 128) (⟨b.val % 128, by omega⟩ : Fin 128))))))
    (he1 : ∀ (f : Fin 26) (b : Fin 16384), e1t (ix2 f b)
      = shapeCast ⟨2, ![26, 100000]⟩ tbl1 hR1
        (ix2 f (vidx (shapeCast ⟨3, ![26, 128, 128]⟩ (transpose ⟨2, ![26, 16384]⟩ [1, 0] (shapeCast ⟨2, ![16384, 26]⟩ Xi h1) h2) h3
          (ix3 f (⟨b.val / 128, by have := b.isLt; omega⟩ : Fin 128) (⟨b.val % 128, by omega⟩ : Fin 128))))))
    (out12 : (⟨2, ![2, 16384]⟩ : Shape).Idx → EReal)
    (hout : ∀ (o : Fin 2) (b : Fin 16384), out12 (ix2 o b)
      = tcCol (fun r => e2t (ix2 r b)) (fun f => e1t (ix2 f b))
          (fun f => transpose ⟨2, ![26, 16384]⟩ [1, 0] Xv h2 (ix2 f b))
          (fun j k => W1 (ix2 j k)) (fun j => shapeCast ⟨2, ![200, 1]⟩ b1 hc (ix2 j (0 : Fin 1)))
          (fun j k => W2 (ix2 j k)) (fun j => shapeCast ⟨2, ![200, 1]⟩ b2 hc (ix2 j (0 : Fin 1)))
          (fun j k => W3 (ix2 j k)) (fun j => shapeCast ⟨2, ![200, 1]⟩ b3 hc (ix2 j (0 : Fin 1)))
          (fun o k => Wd (ix2 o k)) (fun o => shapeCast ⟨2, ![2, 1]⟩ bd hc' (ix2 o (0 : Fin 1))) o) :
    transpose ⟨2, ![16384, 2]⟩ [1, 0] out12 hO = G Xi Xv tbl1 tbl2 W1 b1 W2 b2 W3 b3 Wd bd :=
  result_eq_G Xi Xv tbl1 tbl2 W1 b1 W2 b2 W3 b3 Wd bd e2t e1t (transpose ⟨2, ![26, 16384]⟩ [1, 0] Xv h2)
    _ _ _ _ _ _ _ _
    (fun r b => (he2 r b).trans (e2_gathered Xi h1 h2 h3 tbl2 hT hR r b))
    (fun f b => (he1 f b).trans (e1_gathered Xi h1 h2 h3 tbl1 hR1 f b))
    (fun f b => transpose_ix2_apply Xv h2 f b)
    (fun _ _ => rfl) (fun j => reshape_column b1 hc j 0)
    (fun _ _ => rfl) (fun j => reshape_column b2 hc j 0)
    (fun _ _ => rfl) (fun j => reshape_column b3 hc j 0)
    (fun _ _ => rfl) (fun o => reshape_column bd hc' o 0)
    out12 hout hO

end

end Cert.KHost

end
-- ==== Proof.KHostTileBt.lean ====
/-
  The tile's gathered rows in terms of the arguments. With the index array laid out as [26, 128, 128],
  the second-order table merged to [416, 100000] and the first-order table's unit axis dropped, the
  row functions the gather leaves are the looked-up table entries; and the laid-out index array's
  entries are the argument's, so a range of the argument's entries is a range of its.
-/
import proofs.«205279_g68771016344126_cont_9to1_m_1330_15_alg».proof.Proof.TileResBt
import proofs.«205279_g68771016344126_cont_9to1_m_1330_15_alg».proof.Proof.KHostVal

noncomputable section

namespace Cert.Proof.Bt

open Cert.Kernel Cert.Kernel.Gen
open Idealize.ShloMosaic Idealize.ShloMosaic.ValueIdx

variable {F : FTy → Type}

/-- The index array as the gather reads it: the argument reshaped, transposed and split. -/
def idxTerm (Xi : S16384x26x1.Idx → BitVec 32) : S26x128x128.Idx → BitVec 32 :=
  shapeCast S26x128x128 (transpose S26x16384 [1, 0] (shapeCast S16384x26 Xi Facts₀.shapeCasts_S16384x26x1_S16384x26)
    Facts₀.transposes_S16384x26_S26x16384_1_0) Facts₀.shapeCasts_S26x16384_S26x128x128

/-- The second-order table as the gather reads it: transposed and merged to [416, 100000]. -/
def t2Term (tbl2 : S26x100000x16.Idx → F .f32) : S416x100000.Idx → F .f32 :=
  shapeCast S416x100000 (transpose S26x16x100000 [0, 2, 1] tbl2 Facts₀.transposes_S26x100000x16_S26x16x100000_0_2_1)
    Facts₀.shapeCasts_S26x16x100000_S416x100000

/-- The first-order table as the gather reads it: its unit axis dropped. -/
def t1Term (tbl1 : S26x100000x1.Idx → F .f32) : S26x100000.Idx → F .f32 :=
  shapeCast S26x100000 tbl1 Facts₀.shapeCasts_S26x100000x1_S26x100000

variable (d : Dev nD)

/-- A range of the argument's indices is a range of the laid-out array's. -/
theorem idxOK_of_range (Xi : S16384x26x1.Idx → BitVec 32) (hX : ∀ i, (Xi i).toNat < 100000) :
    IdxOK (F := F) d (idxTerm Xi) :=
  fun j => Cert.KHost.idx_layout_range Xi _ _ _ hX j

/-- The gathered second-order row function, entry (r, b): the table at field r / 16, the looked-up row, and
    coordinate r % 16. -/
theorem e2Tgt_apply (tbl2 : S26x100000x16.Idx → F .f32) (Xi : S16384x26x1.Idx → BitVec 32) (r : Fin 416) (b : Fin 16384) :
    e2Tgt (F := F) d (t2Term tbl2) (idxTerm Xi) (ix2 r b)
      = tbl2 (ix3 (Cert.Spec.rowF r) (Cert.Spec.vidx (Xi (ix3 b (Cert.Spec.rowF r) (0 : Fin 1)))) (Cert.Spec.rowD r)) :=
  Cert.KHost.e2_gathered Xi _ _ _ tbl2 _ _ r b

/-- The gathered first-order row function, entry (f, b). -/
theorem e1Tgt_apply (tbl1 : S26x100000x1.Idx → F .f32) (Xi : S16384x26x1.Idx → BitVec 32) (f : Fin 26) (b : Fin 16384) :
    e1Tgt (F := F) d (t1Term tbl1) (idxTerm Xi) (ix2 f b)
      = tbl1 (ix3 f (Cert.Spec.vidx (Xi (ix3 b f (0 : Fin 1)))) (0 : Fin 1)) :=
  Cert.KHost.e1_gathered Xi _ _ _ tbl1 _ f b

end Cert.Proof.Bt

end
-- ==== Proof.LaunchIdxBt.lean ====
/-
  The index array the SparseCore call reads, over the first argument: its words are the argument's words, so the
  argument's range is the array's.
-/
import proofs.«205279_g68771016344126_cont_9to1_m_1330_15_alg».proof.Proof.CommonBt
import proofs.«205279_g68771016344126_cont_9to1_m_1330_15_alg».proof.Proof.HostOpsBt
import proofs.«205279_g68771016344126_cont_9to1_m_1330_15_alg».proof.Proof.TileResBt
import proofs.«205279_g68771016344126_cont_9to1_m_1330_15_alg».proof.Proof.KHostTileBt
import proofs.«205279_g68771016344126_cont_9to1_m_1330_15_alg».proof.Proof.LaunchValsBt

noncomputable section

namespace Cert.Proof.Bt

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- The index array the SparseCore call reads is the first argument's words, transposed and split into rows of 128. -/
theorem g2_eq (d : Dev nD) : g2 m d = idxTerm (m ((d.tc : Thread nD τ).loc main_arg0)) := by
  show StableHlo.after hostA (V₀ m d) (Proc.devRef .tc main_v2) = _
  unfold hostA
  after_results
  rfl

/-- The first argument's words in range: the index array the call reads names table rows. -/
theorem idxOK_of_pre (hpre : ∀ (d : Dev nD) i, (m ((d.tc : Thread nD τ).loc main_arg0) i : BitVec 32).toNat < 100000) (d : Dev nD) :
    IdxOK d (g2 m d) := by
  rw [g2_eq]; exact idxOK_of_range d _ (hpre d)

end Cert.Proof.Bt

end
-- ==== Proof.TileLemmasBt.lean ====
/-
  Small facts the tile's run uses: an index vector read out of the index scratch names table rows when every word of
  the scratch does.
-/
import proofs.«205279_g68771016344126_cont_9to1_m_1330_15_alg».proof.Proof.CommonBt
import proofs.«205279_g68771016344126_cont_9to1_m_1330_15_alg».proof.Proof.TileDefsBt
import Idealize.ShloMosaic.Lib.Pipeline.Value

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- Sixteen words below 100000 pass the gather's side condition. -/
theorem chk_of_lt (v : IVec S16 32) (h : ∀ x, (v x).toNat < 100000) :
    ∀ a x, ((![v] : Fin 1 → IVec S16 32) a x).toNat < S100000.size a := by
  intro a x
  obtain rfl : a = 0 := Subsingleton.elim _ _
  exact h x

/-- A [1,16] vector of such words, re-laid as [16]. -/
theorem lane_lt (w : Vec F S1x16 .i32) (hw : ∀ y, (w y : BitVec 32).toNat < 100000) (x : S16.Idx) :
    ((shapeCast S16 w shapeCasts_S1x16_S16) x : BitVec 32).toNat < 100000 := by
  unfold shapeCast
  exact hw _

/-- Any sixteen consecutive words of the index scratch. -/
theorem read_lt (I : Buf (Elt F) ((thrV d L).loc cc0_scratch1)) (hI : ∀ j, (I j : BitVec 32).toNat < 100000)
    (off : Fin 2 → Nat) (h : ∀ a, off a + S1x16.size a ≤ S128x128.size a) :
    ∀ y, (((ivW : Memref sig .scVector .vmem S128x128 .i32).view.readAt (Elt F) (Rect.unit (s := S128x128) off S1x16.size h).toLoadRect I) y : BitVec 32).toNat < 100000 := by
  intro y
  simp only [View.readAt_apply, Memref.view_whole, View.read_whole]
  exact hI _

end Cert.Proof.Bt

end
-- ==== Proof.TileInvBt.lean ====
/-
  The gather loops' invariant: the half row of results holds, below position 128 n, the table row's entries at the
  indices the index scratch holds in rows base … base + n - 1.
-/
import proofs.«205279_g68771016344126_cont_9to1_m_1330_15_alg».proof.Proof.CommonBt
import proofs.«205279_g68771016344126_cont_9to1_m_1330_15_alg».proof.Proof.TileResBt
import proofs.«205279_g68771016344126_cont_9to1_m_1330_15_alg».proof.Proof.TileLemmasBt
import Idealize.ShloMosaic.Lib.ValueIdx

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid0.Coords)

/-- Position p of the half row is done: it holds the table row's entry at the index in row base + p / 128, lane p % 128
    of the index scratch. -/
def OvDone (P : Buf (Elt F) ((thrV d L).loc cc0_scratch0)) (I : Buf (Elt F) ((thrV d L).loc cc0_scratch1)) (base n : ℕ)
    (f : Buf (Elt F) ((thrV d L).loc cc0_scratch2)) : Prop :=
  ∀ p : S8192.Idx, (p 0).val < 128 * n →
    f p = P (ix1 (capIdx (I (ix2 (⟨(base + (p 0).val / 128) % 128, Nat.mod_lt _ (by decide)⟩ : Fin 128) (⟨(p 0).val % 128, Nat.mod_lt _ (by decide)⟩ : Fin 128)))))

theorem OvDone_zero (P : Buf (Elt F) ((thrV d L).loc cc0_scratch0)) (I : Buf (Elt F) ((thrV d L).loc cc0_scratch1)) (base : ℕ)
    (f : Buf (Elt F) ((thrV d L).loc cc0_scratch2)) : OvDone d L P I base 0 f := by
  intro p hp; exact absurd hp (by omega)

/-- Before trip n of a gather loop: the table row and the indices as they are, the half row done below 128 n. -/
def invG (P : Buf (Elt F) ((thrV d L).loc cc0_scratch0)) (I : Buf (Elt F) ((thrV d L).loc cc0_scratch1)) (base : ℕ)
    (n : Nat) (_ : PUnit) : sProp 𝕄 :=
  iprop(((plW : Memref sig .scVector .vmem S100000 .f32).view.loc (thrV d L) ↦{fullShare} P)
    ∗ ((ivW : Memref sig .scVector .vmem S128x128 .i32).view.loc (thrV d L) ↦{fullShare} I)
    ∗ ∃ f, ⌜OvDone d L P I base n f⌝ ∗ ((ovW : Memref sig .scVector .vmem S8192 .f32).view.loc (thrV d L) ↦{fullShare} f))

end Cert.Proof.Bt

end
-- ==== Proof.TileInv1Bt.lean ====
/-
  The plane loop's invariant: after n planes the tile's first n rows of the [416, 16384] result are the gathered rows;
  the tables and indices are held through their read shares, the scratch buffers at anything, the four semaphores
  the loop uses at zero.
-/
import proofs.«205279_g68771016344126_cont_9to1_m_1330_15_alg».proof.Proof.CommonBt
import proofs.«205279_g68771016344126_cont_9to1_m_1330_15_alg».proof.Proof.TileInvBt

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid0.Coords)

/-- The tile's first n rows are done. -/
def E2Done (f4 : Buf (Elt F) (t2Loc d)) (f2 : Buf (Elt F) (ixLoc d)) (n : ℕ) (g : Buf (Elt F) (e2Loc d)) : Prop :=
  ∀ j ∈ e2Region L, (j 0).val < 13 * wid L + n → g j = e2Tgt d f4 f2 j

def inv1 (f4 : Buf (Elt F) (t2Loc d)) (f2 : Buf (Elt F) (ixLoc d)) (O : CellTallies nD τ sig (HIx 1)) (W : Waits sig (HIx 1))
    (n : Nat) (_ : PUnit) : sProp 𝕄 :=
  iprop(Transfers.MayWaits (thrV d L) (none : HIx 1) O
    ∗ ((t2W : Memref sig .scVector .hbm S416x100000 .f32).view.loc (thrV d L) ↦{Transfers.shareTokN fullShare (wid L)} f4)
    ∗ ((ixW : Memref sig .scVector .hbm S26x128x128 .i32).view.loc (thrV d L) ↦{Transfers.shareTokN fullShare (wid L)} f2)
    ∗ (∃ g, ⌜E2Done d L f4 f2 n g⌝ ∗ e2Loc d ↦[e2Region L]{fullShare} g)
    ∗ (∃ P, (plW : Memref sig .scVector .vmem S100000 .f32).view.loc (thrV d L) ↦{fullShare} P)
    ∗ (∃ I, (ivW : Memref sig .scVector .vmem S128x128 .i32).view.loc (thrV d L) ↦{fullShare} I)
    ∗ (∃ f, (ovW : Memref sig .scVector .vmem S8192 .f32).view.loc (thrV d L) ↦{fullShare} f)
    ∗ semVal (semCell d L cc0_scratch3.sem) 0 ∗ semVal (semCell d L cc0_scoped0.sem) 0
    ∗ semVal (semCell d L cc0_scoped1.sem) 0 ∗ semVal (semCell d L cc0_scoped2.sem) 0
    ∗ ∃ W', ⌜∀ p ∈ W', p ∈ W ∨ p.2 = none⌝ ∗ owes (thrV d L) O W')

end Cert.Proof.Bt

end
-- ==== Proof.TileValBt.lean ====
/-
  The plane loop's facts about values. A plane's two copies in put row 13 w + k of the transposed table and field
  (13 w + k) / 16's indices into the scratch; the two gather loops fill the half row; the two copies out put the two
  halves into row 13 w + k of the result. So after plane k the tile's first k + 1 rows are the gathered rows.
-/
import proofs.«205279_g68771016344126_cont_9to1_m_1330_15_alg».proof.Proof.CommonBt
import proofs.«205279_g68771016344126_cont_9to1_m_1330_15_alg».proof.Proof.TileInv1Bt
import Idealize.ShloMosaic.Lib.Writes

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid0.Coords)

/-- The two halves of row 13 w + k of the [416, 16384] result, as the kernel slices them. -/
abbrev e2Half0 (k : Fin k0_t1_loop.trips) : Memref sig .scVector .hbm S8192 .f32 :=
  (((e2W : Memref sig .scVector .hbm S416x16384 .f32).slice (Rect.unit (s := S416x16384) (k0_off19 L k) S1x16384.size (k0_off19_inb L k)) (fun _ => rfl)).squeeze S16384 squeezes_S1x16384_S16384).slice (Rect.unit (s := S16384) ![0] S8192.size inb_S16384_S8192_0) (fun _ => rfl)
abbrev e2Half1 (k : Fin k0_t1_loop.trips) : Memref sig .scVector .hbm S8192 .f32 :=
  (((e2W : Memref sig .scVector .hbm S416x16384 .f32).slice (Rect.unit (s := S416x16384) (k0_off19 L k) S1x16384.size (k0_off19_inb L k)) (fun _ => rfl)).squeeze S16384 squeezes_S1x16384_S16384).slice (Rect.unit (s := S16384) ![8192] S8192.size inb_S16384_S8192_8192) (fun _ => rfl)

theorem pts_half0 (k : Fin k0_t1_loop.trips) (g : Buf (Elt F) (e2Loc d)) :
    (((e2Half0 L k).view.loc (thrV d L) ↦[(e2Half0 L k).view.set]{fullShare} g : sProp 𝕄)) = (e2Loc d ↦[(e2Half0 L k).view.set]{fullShare} g) := rfl
theorem pts_half1 (k : Fin k0_t1_loop.trips) (g : Buf (Elt F) (e2Loc d)) :
    (((e2Half1 L k).view.loc (thrV d L) ↦[(e2Half1 L k).view.set]{fullShare} g : sProp 𝕄)) = (e2Loc d ↦[(e2Half1 L k).view.set]{fullShare} g) := rfl

/-- Where the kernel's half-row memref (row r of the [416, 16384] result, columns c … c + 8191) puts its position y:
    at row r, column c + y. -/
theorem rowHalf_emb (off : Fin 2 → ℕ) (hoff : ∀ a, off a + S1x16384.size a ≤ S416x16384.size a) (r : ℕ) (eoff : off = ![r, 0])
    (c : ℕ) (hc : ∀ a, (![c] : Fin 1 → ℕ) a + S8192.size a ≤ S16384.size a) (y : S8192.Idx) (a : Fin 2) :
    (((((e2W : Memref sig .scVector .hbm S416x16384 .f32).slice (Rect.unit (s := S416x16384) off S1x16384.size hoff) (fun _ => rfl)).squeeze S16384 squeezes_S1x16384_S16384).slice (Rect.unit (s := S16384) ![c] S8192.size hc) (fun _ => rfl)).view.emb y a).val
      = (![r, c + (y 0).val] : Fin 2 → ℕ) a := by
  subst eoff
  have hcy : c + (y 0).val < 16384 := by
    have h1 := hc 0
    have h2 : (y 0).val < 8192 := (y 0).isLt
    have h3 : (![c] : Fin 1 → ℕ) 0 + S8192.size 0 ≤ S16384.size 0 := h1
    change c + 8192 ≤ 16384 at h3
    omega
  have hre : Shape.reshapeEquiv (s := S1x16384) (s' := S16384) squeezes_S1x16384_S16384.numel_eq ((Rect.unit (s := S16384) ![c] S8192.size hc).emb y)
      = ix2 (0 : Fin 1) (⟨c + (y 0).val, hcy⟩ : Fin 16384) :=
    Shape.reshapeEquiv_eq_of_rowMajor _ (by
      rw [Shape.rowMajor_val_two, Shape.rowMajor_val_one]
      show 0 * 16384 + (c + (y 0).val) = c + 1 * (y 0).val
      omega)
  match a with
  | ⟨0, _⟩ =>
    show r + 1 * (Shape.reshapeEquiv (s := S1x16384) (s' := S16384) squeezes_S1x16384_S16384.numel_eq ((Rect.unit (s := S16384) ![c] S8192.size hc).emb y) 0).val = r
    rw [hre]; show r + 1 * 0 = r; omega
  | ⟨1, _⟩ =>
    show 0 + 1 * (Shape.reshapeEquiv (s := S1x16384) (s' := S16384) squeezes_S1x16384_S16384.numel_eq ((Rect.unit (s := S16384) ![c] S8192.size hc).emb y) 1).val = c + (y 0).val
    rw [hre]; show 0 + 1 * (c + (y 0).val) = c + (y 0).val; omega

theorem row_eq (k : ℕ) : 26 * (L 1).val + 13 * (L 0).val + k = 13 * wid L + k := by unfold wid; omega

theorem trip_lt (k : Fin k0_t1_loop.trips) : k.val < 13 := Nat.lt_of_lt_of_le k.isLt k0_t1_abs.2.1

theorem half0_emb (k : Fin k0_t1_loop.trips) (y : S8192.Idx) (a : Fin 2) :
    ((e2Half0 L k).view.emb y a).val = (![13 * wid L + k.val, (y 0).val] : Fin 2 → ℕ) a := by
  have h := rowHalf_emb (k0_off19 L k) (k0_off19_inb L k) (13 * wid L + k.val) ((k0_off19_eq L k).trans (by rw [row_eq])) 0 inb_S16384_S8192_0 y a
  rw [h]
  match a with
  | ⟨0, _⟩ => rfl
  | ⟨1, _⟩ => show 0 + (y 0).val = (y 0).val; omega

theorem half1_emb (k : Fin k0_t1_loop.trips) (y : S8192.Idx) (a : Fin 2) :
    ((e2Half1 L k).view.emb y a).val = (![13 * wid L + k.val, 8192 + (y 0).val] : Fin 2 → ℕ) a :=
  rowHalf_emb (k0_off19 L k) (k0_off19_inb L k) (13 * wid L + k.val) ((k0_off19_eq L k).trans (by rw [row_eq])) 8192 inb_S16384_S8192_8192 y a

/-- The first half: row 13 w + k, columns below 8192. -/
theorem mem_half0 (k : Fin k0_t1_loop.trips) (j : S416x16384.Idx) :
    j ∈ (e2Half0 L k).view.set ↔ (j 0).val = 13 * wid L + k.val ∧ (j 1).val < 8192 := by
  constructor
  · intro hj
    obtain ⟨y, -, rfl⟩ := Finset.mem_map.mp hj
    have hy : (y 0).val < 8192 := (y 0).isLt
    exact ⟨half0_emb L k y 0, (half0_emb L k y 1).trans_lt hy⟩
  · rintro ⟨h0, h1⟩
    refine Finset.mem_map.mpr ⟨ix1 (⟨(j 1).val, h1⟩ : Fin 8192), Finset.mem_univ _, ?_⟩
    funext a
    match a with
    | ⟨0, _⟩ => exact Fin.ext ((half0_emb L k _ 0).trans h0.symm)
    | ⟨1, _⟩ => exact Fin.ext (half0_emb L k _ 1)

/-- The second half: row 13 w + k, columns from 8192. -/
theorem mem_half1 (k : Fin k0_t1_loop.trips) (j : S416x16384.Idx) :
    j ∈ (e2Half1 L k).view.set ↔ (j 0).val = 13 * wid L + k.val ∧ 8192 ≤ (j 1).val := by
  constructor
  · intro hj
    obtain ⟨y, -, rfl⟩ := Finset.mem_map.mp hj
    refine ⟨half1_emb L k y 0, ?_⟩
    have h := half1_emb L k y 1
    change _ = 8192 + (y 0).val at h
    omega
  · rintro ⟨h0, h1⟩
    have hj1 : (j 1).val < 16384 := (j 1).isLt
    refine Finset.mem_map.mpr ⟨ix1 (⟨(j 1).val - 8192, by omega⟩ : Fin 8192), Finset.mem_univ _, ?_⟩
    funext a
    match a with
    | ⟨0, _⟩ => exact Fin.ext ((half1_emb L k _ 0).trans h0.symm)
    | ⟨1, _⟩ => exact Fin.ext ((half1_emb L k _ 1).trans (by show 8192 + ((j 1).val - 8192) = (j 1).val; omega))

/-- The tile's rows: 13 w … 13 w + 12. -/
theorem mem_e2Rows (j : S416x16384.Idx) : j ∈ e2Region L ↔ 13 * wid L ≤ (j 0).val ∧ (j 0).val < 13 * wid L + 13 := by
  have h1 : (j 1).val < 16384 := (j 1).isLt
  have hs : ((e2W : Memref sig .scVector .hbm S416x16384 .f32).view.slice (e2Rect L)).set = (e2Rect L).set := View.set_slice_whole _ _
  have hm : j ∈ e2Region L ↔ j ∈ (e2Rect L).set := Eq.to_iff (congrArg (fun S : Finset S416x16384.Idx => j ∈ S) hs)
  rw [hm, Rect.mem_set_unit]
  constructor
  · intro h; exact h 0
  · intro h a
    match a with
    | ⟨0, _⟩ => exact h
    | ⟨1, _⟩ => exact ⟨Nat.zero_le _, by show (j 1).val < 0 + 16384; omega⟩

/-- A copy into the whole index scratch leaves what was copied. -/
theorem iv_copy_apply (I0 : Buf (Elt F) ((thrV d L).loc cc0_scratch1)) (W : S128x128.Idx → Elt F .i32) (j : S128x128.Idx) :
    View.write (Elt F) (ivW : Memref sig .scVector .vmem S128x128 .i32).view I0 W Finset.univ j = W j :=
  congrFun (View.write_whole_univ _ _ _) j

/-- A copy into the whole table-row scratch leaves what was copied. -/
theorem pl_copy_apply (P0 : Buf (Elt F) ((thrV d L).loc cc0_scratch0)) (W : S100000.Idx → Elt F .f32) (j : S100000.Idx) :
    View.write (Elt F) (plW : Memref sig .scVector .vmem S100000 .f32).view P0 W Finset.univ j = W j :=
  congrFun (View.write_whole_univ _ _ _) j

/-- Each half lies in the tile's rows. -/
theorem e2Half0_sub (k : Fin k0_t1_loop.trips) : (e2Half0 L k).view.set ⊆ e2Region L := by
  intro j hj
  have hk := trip_lt k
  rw [mem_half0] at hj
  rw [mem_e2Rows]
  omega
theorem e2Half1_sub (k : Fin k0_t1_loop.trips) : (e2Half1 L k).view.set ⊆ e2Region L := by
  intro j hj
  have hk := trip_lt k
  rw [mem_half1] at hj
  rw [mem_e2Rows]
  omega

/-- Before the first plane nothing is asked. -/
theorem E2Done_zero' (f4 : Buf (Elt F) (t2Loc d)) (f2 : Buf (Elt F) (ixLoc d)) (g : Buf (Elt F) (e2Loc d)) : E2Done d L f4 f2 0 g := by
  intro j hj hlt
  rw [mem_e2Rows] at hj
  omega

/-- The indices copied into the scratch are words of the index array: each names a table row. -/
theorem iv_copy_lt (f2 : Buf (Elt F) (ixLoc d)) (hix : IdxOK d f2) (I0 : Buf (Elt F) ((thrV d L).loc cc0_scratch1)) (k : Fin k0_t1_loop.trips) :
    ∀ j, (((View.write (Elt F) (ivW : Memref sig .scVector .vmem S128x128 .i32).view I0 (ReadAs.same.apply (View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2)) Finset.univ)) j : BitVec 32).toNat < 100000 := by
  intro j
  refine lt_of_eq_of_lt (congrArg BitVec.toNat (iv_copy_apply d L I0 _ j)) ?_
  show ((View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2 j : BitVec 32)).toNat < 100000
  rw [View.read_apply, cast_eq]
  exact hix _

variable [FloatOps F]

omit [FloatOps F] in
/-- The field whose indices plane k copies in, in closed form. -/
theorem k0_off1_eq : ∀ (i : grid0.Coords) (k : Fin k0_t1_loop.trips),
    k0_off1 i k = ![(26 * (i 1).val + 13 * (i 0).val + k.val) / 16, 0, 0] := by decide +kernel

omit [FloatOps F] in
theorem row_lt (k : Fin k0_t1_loop.trips) : 13 * wid L + k.val < 416 := by
  have h1 := wid_lt L
  have h2 := trip_lt k
  omega

omit [FloatOps F] in
/-- Where the table-row memref (row 13 w + k of the transposed table) puts its position n: at row 13 w + k, column n. -/
theorem t2row_emb (k : Fin k0_t1_loop.trips) (n : S100000.Idx) (a : Fin 2) :
    ((((t2W : Memref sig .scVector .hbm S416x100000 .f32).slice (Rect.unit (s := S416x100000) (k0_off2 L k) S1x100000.size (k0_off2_inb L k)) (fun _ => rfl)).squeeze S100000 squeezes_S1x100000_S100000).view.emb n a).val
      = (![13 * wid L + k.val, (n 0).val] : Fin 2 → ℕ) a := by
  have hoff : k0_off2 L k = ![13 * wid L + k.val, 0] := (k0_off2_eq L k).trans (by rw [row_eq])
  have hre : Shape.reshapeEquiv (s := S1x100000) (s' := S100000) squeezes_S1x100000_S100000.numel_eq n = ix2 (0 : Fin 1) (⟨(n 0).val, (n 0).isLt⟩ : Fin 100000) :=
    Shape.reshapeEquiv_eq_of_rowMajor _ (by
      rw [Shape.rowMajor_val_two, Shape.rowMajor_val_one]
      show 0 * 100000 + (n 0).val = (n 0).val
      omega)
  match a with
  | ⟨0, _⟩ =>
    show k0_off2 L k 0 + 1 * (Shape.reshapeEquiv (s := S1x100000) (s' := S100000) squeezes_S1x100000_S100000.numel_eq n 0).val = 13 * wid L + k.val
    rw [hre, hoff]; show 13 * wid L + k.val + 1 * 0 = _; omega
  | ⟨1, _⟩ =>
    show k0_off2 L k 1 + 1 * (Shape.reshapeEquiv (s := S1x100000) (s' := S100000) squeezes_S1x100000_S100000.numel_eq n 1).val = (n 0).val
    rw [hre, hoff]; show 0 + 1 * (n 0).val = _; omega

omit [FloatOps F] in
/-- The table-row scratch after the copy in: entry n is the transposed table's entry (13 w + k, n). -/
theorem PK_apply (f4 : Buf (Elt F) (t2Loc d)) (k : Fin k0_t1_loop.trips) (P0 : Buf (Elt F) ((thrV d L).loc cc0_scratch0)) (n : S100000.Idx) :
    View.write (Elt F) (plW : Memref sig .scVector .vmem S100000 .f32).view P0 (ReadAs.same.apply (View.read (Elt F) (((t2W : Memref sig .scVector .hbm S416x100000 .f32).slice (Rect.unit (s := S416x100000) (k0_off2 L k) S1x100000.size (k0_off2_inb L k)) (fun _ => rfl)).squeeze S100000 squeezes_S1x100000_S100000).view f4)) Finset.univ n
      = f4 (ix2 (⟨13 * wid L + k.val, row_lt L k⟩ : Fin 416) (n 0)) := by
  refine (pl_copy_apply d L P0 _ n).trans ?_
  show View.read (Elt F) (((t2W : Memref sig .scVector .hbm S416x100000 .f32).slice (Rect.unit (s := S416x100000) (k0_off2 L k) S1x100000.size (k0_off2_inb L k)) (fun _ => rfl)).squeeze S100000 squeezes_S1x100000_S100000).view f4 n = _
  rw [View.read_apply, cast_eq]
  refine congrArg f4 ?_
  funext a
  match a with
  | ⟨0, _⟩ => exact Fin.ext (t2row_emb L k n 0)
  | ⟨1, _⟩ => exact Fin.ext (t2row_emb L k n 1)

omit [FloatOps F] in
theorem fld_lt (k : Fin k0_t1_loop.trips) : (13 * wid L + k.val) / 16 < 26 := by
  have h := row_lt L k
  omega

omit [FloatOps F] in
/-- Where the index-plane memref (field (13 w + k) / 16 of the index array) puts its position (p, q). -/
theorem ixplane_emb (k : Fin k0_t1_loop.trips) (x : S128x128.Idx) (a : Fin 3) :
    ((((ixW : Memref sig .scVector .hbm S26x128x128 .i32).slice (Rect.unit (s := S26x128x128) (k0_off1 L k) S1x128x128.size (k0_off1_inb L k)) (fun _ => rfl)).squeeze S128x128 squeezes_S1x128x128_S128x128).view.emb x a).val
      = (![(13 * wid L + k.val) / 16, (x 0).val, (x 1).val] : Fin 3 → ℕ) a := by
  have hoff : k0_off1 L k = ![(13 * wid L + k.val) / 16, 0, 0] := (k0_off1_eq L k).trans (by rw [row_eq])
  have hre : Shape.reshapeEquiv (s := S1x128x128) (s' := S128x128) squeezes_S1x128x128_S128x128.numel_eq x = ix3 (0 : Fin 1) (⟨(x 0).val, (x 0).isLt⟩ : Fin 128) (⟨(x 1).val, (x 1).isLt⟩ : Fin 128) :=
    Shape.reshapeEquiv_eq_of_rowMajor _ (by
      rw [Shape.rowMajor_val_three, Shape.rowMajor_val_two]
      show (0 * 128 + (x 0).val) * 128 + (x 1).val = (x 0).val * 128 + (x 1).val
      omega)
  match a with
  | ⟨0, _⟩ =>
    show k0_off1 L k 0 + 1 * (Shape.reshapeEquiv (s := S1x128x128) (s' := S128x128) squeezes_S1x128x128_S128x128.numel_eq x 0).val = (13 * wid L + k.val) / 16
    rw [hre, hoff]; show (13 * wid L + k.val) / 16 + 1 * 0 = _; omega
  | ⟨1, _⟩ =>
    show k0_off1 L k 1 + 1 * (Shape.reshapeEquiv (s := S1x128x128) (s' := S128x128) squeezes_S1x128x128_S128x128.numel_eq x 1).val = (x 0).val
    rw [hre, hoff]; show 0 + 1 * (x 0).val = _; omega
  | ⟨2, _⟩ =>
    show k0_off1 L k 2 + 1 * (Shape.reshapeEquiv (s := S1x128x128) (s' := S128x128) squeezes_S1x128x128_S128x128.numel_eq x 2).val = (x 1).val
    rw [hre, hoff]; show 0 + 1 * (x 1).val = _; omega

omit [FloatOps F] in
/-- The index scratch after the copy in: word (p, q) is the index array's word (field, p, q). -/
theorem IK_apply (f2 : Buf (Elt F) (ixLoc d)) (k : Fin k0_t1_loop.trips) (I0 : Buf (Elt F) ((thrV d L).loc cc0_scratch1)) (x : S128x128.Idx) :
    View.write (Elt F) (ivW : Memref sig .scVector .vmem S128x128 .i32).view I0 (ReadAs.same.apply (View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2)) Finset.univ x
      = f2 (ix3 (⟨(13 * wid L + k.val) / 16, fld_lt L k⟩ : Fin 26) (x 0) (x 1)) := by
  refine (iv_copy_apply d L I0 _ x).trans ?_
  show View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2 x = _
  rw [View.read_apply, cast_eq]
  refine congrArg f2 ?_
  funext a
  match a with
  | ⟨0, _⟩ => exact Fin.ext (ixplane_emb L k x 0)
  | ⟨1, _⟩ => exact Fin.ext (ixplane_emb L k x 1)
  | ⟨2, _⟩ => exact Fin.ext (ixplane_emb L k x 2)

omit [FloatOps F] in
/-- A position of a gathered half row (the half starting at column 128 base) is the result's entry at row 13 w + k and
    that column. -/
theorem half_val (f4 : Buf (Elt F) (t2Loc d)) (f2 : Buf (Elt F) (ixLoc d)) (k : Fin k0_t1_loop.trips)
    (P0 : Buf (Elt F) ((thrV d L).loc cc0_scratch0)) (I0 : Buf (Elt F) ((thrV d L).loc cc0_scratch1))
    (base : ℕ) (hbase : base = 0 ∨ base = 64) (fo : Buf (Elt F) ((thrV d L).loc cc0_scratch2))
    (hfo : OvDone d L (View.write (Elt F) (plW : Memref sig .scVector .vmem S100000 .f32).view P0 (ReadAs.same.apply (View.read (Elt F) (((t2W : Memref sig .scVector .hbm S416x100000 .f32).slice (Rect.unit (s := S416x100000) (k0_off2 L k) S1x100000.size (k0_off2_inb L k)) (fun _ => rfl)).squeeze S100000 squeezes_S1x100000_S100000).view f4)) Finset.univ) (View.write (Elt F) (ivW : Memref sig .scVector .vmem S128x128 .i32).view I0 (ReadAs.same.apply (View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2)) Finset.univ) base 64 fo)
    (y : S8192.Idx) (j : S416x16384.Idx) (hj0 : (j 0).val = 13 * wid L + k.val) (hj1 : (j 1).val = 128 * base + (y 0).val) :
    fo y = e2Tgt d f4 f2 j := by
  have hy : (y 0).val < 8192 := (y 0).isLt
  rw [hfo y (by omega), PK_apply, IK_apply]
  unfold e2Tgt ixAt
  refine congrArg f4 ?_
  funext a
  match a with
  | ⟨0, _⟩ => exact Fin.ext hj0.symm
  | ⟨1, _⟩ =>
    refine congrArg capIdx (congrArg f2 ?_)
    funext b
    match b with
    | ⟨0, _⟩ => exact Fin.ext (show (13 * wid L + k.val) / 16 = (j 0).val / 16 by rw [hj0])
    | ⟨1, _⟩ => exact Fin.ext (show (base + (y 0).val / 128) % 128 = (j 1).val / 128 by rcases hbase with rfl | rfl <;> omega)
    | ⟨2, _⟩ => exact Fin.ext (show (y 0).val % 128 = (j 1).val % 128 by rcases hbase with rfl | rfl <;> omega)

omit [FloatOps F] in
/-- One store of a whole block reads back as the block. -/
theorem writes_whole_at {κ : Kind} {sp : Space} {s : Shape} {e : EltTy} (v : View sig κ sp s e) (f : v.ty.Contents (Elt F))
    (w : (Rect.whole s).shape.Idx → Elt F e) (y : s.Idx) :
    v.read (Elt F) (v.writes (Elt F) f [⟨Rect.whole s, w⟩]) y = w y :=
  (congrArg (v.read (Elt F) (v.writes (Elt F) f [⟨Rect.whole s, w⟩])) (Rect.emb_whole_apply s y).symm).trans
    (View.read_writes_cons_emb v f (Rect.whole s) w [] y)

omit [FloatOps F] in
theorem half0_writes_at (k : Fin k0_t1_loop.trips) (G : Buf (Elt F) (e2Loc d)) (w : S8192.Idx → Elt F .f32) (y : S8192.Idx) :
    (e2Half0 L k).view.writes (Elt F) G [⟨Rect.whole S8192, w⟩] ((e2Half0 L k).view.emb y) = w y :=
  ((View.read_apply _ _).trans (cast_eq _ _)).symm.trans (writes_whole_at (e2Half0 L k).view G w y)

omit [FloatOps F] in
theorem half1_writes_at (k : Fin k0_t1_loop.trips) (G : Buf (Elt F) (e2Loc d)) (w : S8192.Idx → Elt F .f32) (y : S8192.Idx) :
    (e2Half1 L k).view.writes (Elt F) G [⟨Rect.whole S8192, w⟩] ((e2Half1 L k).view.emb y) = w y :=
  ((View.read_apply _ _).trans (cast_eq _ _)).symm.trans (writes_whole_at (e2Half1 L k).view G w y)

/-- After plane k the tile's first k + 1 rows are done. -/
theorem e2Done_step (f4 : Buf (Elt F) (t2Loc d)) (f2 : Buf (Elt F) (ixLoc d)) (hix : IdxOK d f2) (k : Fin k0_t1_loop.trips)
    (g : Buf (Elt F) (e2Loc d)) (hg : E2Done d L f4 f2 k.val g)
    (P0 : Buf (Elt F) ((thrV d L).loc cc0_scratch0)) (I0 : Buf (Elt F) ((thrV d L).loc cc0_scratch1))
    (f1 f3 : Buf (Elt F) ((thrV d L).loc cc0_scratch2))
    (hf1 : OvDone d L (View.write (Elt F) (plW : Memref sig .scVector .vmem S100000 .f32).view P0 (ReadAs.same.apply (View.read (Elt F) (((t2W : Memref sig .scVector .hbm S416x100000 .f32).slice (Rect.unit (s := S416x100000) (k0_off2 L k) S1x100000.size (k0_off2_inb L k)) (fun _ => rfl)).squeeze S100000 squeezes_S1x100000_S100000).view f4)) Finset.univ) (View.write (Elt F) (ivW : Memref sig .scVector .vmem S128x128 .i32).view I0 (ReadAs.same.apply (View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2)) Finset.univ) 0 64 f1)
    (hf3 : OvDone d L (View.write (Elt F) (plW : Memref sig .scVector .vmem S100000 .f32).view P0 (ReadAs.same.apply (View.read (Elt F) (((t2W : Memref sig .scVector .hbm S416x100000 .f32).slice (Rect.unit (s := S416x100000) (k0_off2 L k) S1x100000.size (k0_off2_inb L k)) (fun _ => rfl)).squeeze S100000 squeezes_S1x100000_S100000).view f4)) Finset.univ) (View.write (Elt F) (ivW : Memref sig .scVector .vmem S128x128 .i32).view I0 (ReadAs.same.apply (View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2)) Finset.univ) 64 64 f3) :
    E2Done d L f4 f2 (k.val + 1)
      (((e2Half1 L k).view.set).piecewise
        ((e2Half1 L k).view.writes (Elt F) (((e2Half0 L k).view.set).piecewise ((e2Half0 L k).view.writes (Elt F) (e2Half0 L k).view.junk [⟨Rect.whole S8192, ReadAs.same.apply (View.read (Elt F) (ovW : Memref sig .scVector .vmem S8192 .f32).view f1)⟩]) g) [⟨Rect.whole S8192, ReadAs.same.apply (View.read (Elt F) (ovW : Memref sig .scVector .vmem S8192 .f32).view f3)⟩])
        (((e2Half0 L k).view.set).piecewise ((e2Half0 L k).view.writes (Elt F) (e2Half0 L k).view.junk [⟨Rect.whole S8192, ReadAs.same.apply (View.read (Elt F) (ovW : Memref sig .scVector .vmem S8192 .f32).view f1)⟩]) g)) := by
  intro j hj hlt
  have hR := (mem_e2Rows L j).mp hj
  by_cases hr : (j 0).val < 13 * wid L + k.val
  · have h1 : j ∉ (e2Half1 L k).view.set := fun h => by have := ((mem_half1 L k j).mp h).1; omega
    have h0 : j ∉ (e2Half0 L k).view.set := fun h => by have := ((mem_half0 L k j).mp h).1; omega
    refine (Finset.piecewise_eq_of_notMem _ _ _ h1).trans ?_
    refine (Finset.piecewise_eq_of_notMem _ _ _ h0).trans ?_
    exact hg j hj hr
  · have hrow : (j 0).val = 13 * wid L + k.val := by omega
    by_cases hb : (j 1).val < 8192
    · have h1 : j ∉ (e2Half1 L k).view.set := fun h => by have := ((mem_half1 L k j).mp h).2; omega
      have h0 : j ∈ (e2Half0 L k).view.set := (mem_half0 L k j).mpr ⟨hrow, hb⟩
      refine (Finset.piecewise_eq_of_notMem _ _ _ h1).trans ?_
      refine (Finset.piecewise_eq_of_mem _ _ _ h0).trans ?_
      obtain ⟨y, -, rfl⟩ := Finset.mem_map.mp h0
      refine (half0_writes_at d L k _ _ y).trans ?_
      exact half_val d L f4 f2 k P0 I0 0 (Or.inl rfl) f1 hf1 y _ hrow
        ((half0_emb L k y 1).trans (by show (y 0).val = 128 * 0 + (y 0).val; omega))
    · have h1 : j ∈ (e2Half1 L k).view.set := (mem_half1 L k j).mpr ⟨hrow, by omega⟩
      refine (Finset.piecewise_eq_of_mem _ _ _ h1).trans ?_
      obtain ⟨y, -, rfl⟩ := Finset.mem_map.mp h1
      refine (half1_writes_at d L k _ _ y).trans ?_
      exact half_val d L f4 f2 k P0 I0 64 (Or.inr rfl) f3 hf3 y _ hrow
        ((half1_emb L k y 1).trans (by show 8192 + (y 0).val = 128 * 64 + (y 0).val; omega))

end Cert.Proof.Bt

end
-- ==== Proof.TileStepBt.lean ====
/-
  One trip of a gather loop, as a fact about values: eight stores of sixteen gathered entries each, at positions
  128 k + 16 u … 128 k + 16 u + 15 (u = 0 … 7), the indices taken from row base + k, lanes 16 u … 16 u + 15 of the index
  scratch, extend "done below 128 k" to "done below 128 (k + 1)".
-/
import proofs.«205279_g68771016344126_cont_9to1_m_1330_15_alg».proof.Proof.CommonBt
import proofs.«205279_g68771016344126_cont_9to1_m_1330_15_alg».proof.Proof.TileInvBt
import Idealize.ShloMosaic.Lib.Writes
import Idealize.ShloMosaic.Lib.WritesUnit

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid0.Coords)

/-- Lane x of sixteen consecutive words of row r of the index scratch, from column c: the word at (r, c + x). -/
theorem iv_val (I : Buf (Elt F) ((thrV d L).loc cc0_scratch1)) (io : Fin 2 → ℕ)
    (hio : ∀ a, io a + S1x16.size a ≤ S128x128.size a) (r c : ℕ) (eio : io = ![r, c]) (x : S16.Idx)
    (hr : r < 128) (hc : c + (x 0).val < 128) :
    shapeCast S16 ((ivW : Memref sig .scVector .vmem S128x128 .i32).view.readAt (Elt F) (Rect.unit (s := S128x128) io S1x16.size hio).toLoadRect I) shapeCasts_S1x16_S16 x
      = I (ix2 (⟨r, hr⟩ : Fin 128) (⟨c + (x 0).val, hc⟩ : Fin 128)) := by
  subst eio
  refine (shapeCast_apply (s := S1x16) _ shapeCasts_S1x16_S16 x (ix2 (0 : Fin 1) (x 0)) (by rw [Shape.rowMajor_val_two, Shape.rowMajor_val_one]; simp)).trans ?_
  rw [View.readAt_apply]
  simp only [Memref.view_whole, View.read_whole]
  refine congrArg I ?_
  funext a
  match a with
  | ⟨0, _⟩ => exact Fin.ext (by show r + 1 * 0 = r; omega)
  | ⟨1, _⟩ => exact Fin.ext (by show c + 1 * (x 0).val = c + (x 0).val; omega)

/-- Lane x of the gathered sixteen: the table row's entry at the index the scratch holds at (r, c + x). -/
theorem gath_val (P : Buf (Elt F) ((thrV d L).loc cc0_scratch0)) (I : Buf (Elt F) ((thrV d L).loc cc0_scratch1)) (io : Fin 2 → ℕ)
    (hio : ∀ a, io a + S1x16.size a ≤ S128x128.size a) (r c : ℕ) (eio : io = ![r, c])
    (hl : ∀ a x, ((![shapeCast S16 ((ivW : Memref sig .scVector .vmem S128x128 .i32).view.readAt (Elt F) (Rect.unit (s := S128x128) io S1x16.size hio).toLoadRect I) shapeCasts_S1x16_S16] : Fin 1 → IVec S16 32) a x).toNat < S100000.size a)
    (x : S16.Idx) (hr : r < 128) (hc : c + (x 0).val < 128) :
    loadIdx ((plW : Memref sig .scVector .vmem S100000 .f32).view.readAt (Elt F) (LoadRect.whole S100000) P) ![shapeCast S16 ((ivW : Memref sig .scVector .vmem S128x128 .i32).view.readAt (Elt F) (Rect.unit (s := S128x128) io S1x16.size hio).toLoadRect I) shapeCasts_S1x16_S16] hl x
      = P (ix1 (capIdx (I (ix2 (⟨r, hr⟩ : Fin 128) (⟨c + (x 0).val, hc⟩ : Fin 128))))) := by
  have hv := iv_val d L I io hio r c eio x hr hc
  have hlt : (shapeCast S16 ((ivW : Memref sig .scVector .vmem S128x128 .i32).view.readAt (Elt F) (Rect.unit (s := S128x128) io S1x16.size hio).toLoadRect I) shapeCasts_S1x16_S16 x : BitVec 32).toNat < 100000 := hl 0 x
  unfold loadIdx
  rw [View.readAt_apply]
  simp only [Memref.view_whole, View.read_whole]
  refine congrArg P ?_
  funext a
  match a with
  | ⟨0, _⟩ =>
    refine Fin.ext ?_
    rw [hv] at hlt
    show 0 + 1 * (shapeCast S16 ((ivW : Memref sig .scVector .vmem S128x128 .i32).view.readAt (Elt F) (Rect.unit (s := S128x128) io S1x16.size hio).toLoadRect I) shapeCasts_S1x16_S16 x : BitVec 32).toNat = (capIdx (I (ix2 (⟨r, hr⟩ : Fin 128) (⟨c + (x 0).val, hc⟩ : Fin 128)))).val
    rw [capIdx_of_lt hlt, hv]
    omega

/-- A position under the newest of a list of stores of sixteen gathered entries, the store at 128 k + c taking its
    indices from row base + k, lanes c … c + 15: the position is done. -/
theorem hit_piece (P : Buf (Elt F) ((thrV d L).loc cc0_scratch0)) (I : Buf (Elt F) ((thrV d L).loc cc0_scratch1))
    (base k : ℕ) (hk : k < 64) (hbase : base + 64 ≤ 128) (c : ℕ) (hc : c + 16 ≤ 128)
    (o : Fin 1 → ℕ) (ho : ∀ a, o a + S16.size a ≤ S8192.size a) (eo : o = ![128 * k + c])
    (io : Fin 2 → ℕ) (hio : ∀ a, io a + S1x16.size a ≤ S128x128.size a) (eio : io = ![base + k, c])
    (hl : ∀ a x, ((![shapeCast S16 ((ivW : Memref sig .scVector .vmem S128x128 .i32).view.readAt (Elt F) (Rect.unit (s := S128x128) io S1x16.size hio).toLoadRect I) shapeCasts_S1x16_S16] : Fin 1 → IVec S16 32) a x).toNat < S100000.size a)
    (Lst : List (View.Piece (Elt F) S8192 .f32)) (f : Buf (Elt F) ((thrV d L).loc cc0_scratch2)) (p : S8192.Idx)
    (h1 : 128 * k + c ≤ (p 0).val) (h2 : (p 0).val < 128 * k + c + 16) :
    (ovW : Memref sig .scVector .vmem S8192 .f32).view.read (Elt F) ((ovW : Memref sig .scVector .vmem S8192 .f32).view.writes (Elt F) f
        (⟨Rect.unit (s := S8192) o S16.size ho, loadIdx ((plW : Memref sig .scVector .vmem S100000 .f32).view.readAt (Elt F) (LoadRect.whole S100000) P) ![shapeCast S16 ((ivW : Memref sig .scVector .vmem S128x128 .i32).view.readAt (Elt F) (Rect.unit (s := S128x128) io S1x16.size hio).toLoadRect I) shapeCasts_S1x16_S16] hl⟩ :: Lst)) p
      = P (ix1 (capIdx (I (ix2 (⟨(base + (p 0).val / 128) % 128, Nat.mod_lt _ (by decide)⟩ : Fin 128) (⟨(p 0).val % 128, Nat.mod_lt _ (by decide)⟩ : Fin 128))))) := by
  have hx : (p 0).val - (128 * k + c) < 16 := by omega
  refine (View.read_writes_cons_unit_of_mem (ovW : Memref sig .scVector .vmem S8192 .f32).view f ho _ Lst p (ix1 (⟨(p 0).val - (128 * k + c), hx⟩ : Fin 16)) eo ?_).trans ?_
  · intro a
    match a with
    | ⟨0, _⟩ => show (p 0).val = (128 * k + c) + ((p 0).val - (128 * k + c)); omega
  · rw [gath_val d L P I io hio (base + k) c eio hl (ix1 (⟨(p 0).val - (128 * k + c), hx⟩ : Fin 16)) (by omega)
      (by show c + ((p 0).val - (128 * k + c)) < 128; omega)]
    have e1 : (base + (p 0).val / 128) % 128 = base + k := by
      have : (p 0).val / 128 = k := by omega
      rw [this]; exact Nat.mod_eq_of_lt (by omega)
    have e2 : (p 0).val % 128 = c + ((p 0).val - (128 * k + c)) := by omega
    refine congrArg P (congrArg ix1 (congrArg capIdx (congrArg I ?_)))
    funext a
    match a with
    | ⟨0, _⟩ => exact Fin.ext e1.symm
    | ⟨1, _⟩ => exact Fin.ext e2.symm

/-- The half row's scratch is read through its whole view: the contents themselves. -/
theorem ov_read (g : Buf (Elt F) ((thrV d L).loc cc0_scratch2)) (p : S8192.Idx) :
    g p = (ovW : Memref sig .scVector .vmem S8192 .f32).view.read (Elt F) g p := rfl

theorem ovDone_step8 (P : Buf (Elt F) ((thrV d L).loc cc0_scratch0)) (I : Buf (Elt F) ((thrV d L).loc cc0_scratch1))
    (base k : ℕ) (hk : k < 64) (hbase : base + 64 ≤ 128) (f : Buf (Elt F) ((thrV d L).loc cc0_scratch2)) (hf : OvDone d L P I base k f)
    (o0 : Fin 1 → ℕ) (ho0 : ∀ a, o0 a + S16.size a ≤ S8192.size a) (eo0 : o0 = ![128 * k + 0])
    (o1 : Fin 1 → ℕ) (ho1 : ∀ a, o1 a + S16.size a ≤ S8192.size a) (eo1 : o1 = ![128 * k + 16])
    (o2 : Fin 1 → ℕ) (ho2 : ∀ a, o2 a + S16.size a ≤ S8192.size a) (eo2 : o2 = ![128 * k + 32])
    (o3 : Fin 1 → ℕ) (ho3 : ∀ a, o3 a + S16.size a ≤ S8192.size a) (eo3 : o3 = ![128 * k + 48])
    (o4 : Fin 1 → ℕ) (ho4 : ∀ a, o4 a + S16.size a ≤ S8192.size a) (eo4 : o4 = ![128 * k + 64])
    (o5 : Fin 1 → ℕ) (ho5 : ∀ a, o5 a + S16.size a ≤ S8192.size a) (eo5 : o5 = ![128 * k + 80])
    (o6 : Fin 1 → ℕ) (ho6 : ∀ a, o6 a + S16.size a ≤ S8192.size a) (eo6 : o6 = ![128 * k + 96])
    (o7 : Fin 1 → ℕ) (ho7 : ∀ a, o7 a + S16.size a ≤ S8192.size a) (eo7 : o7 = ![128 * k + 112])
    (io0 : Fin 2 → ℕ) (hio0 : ∀ a, io0 a + S1x16.size a ≤ S128x128.size a) (eio0 : io0 = ![base + k, 0])
    (io1 : Fin 2 → ℕ) (hio1 : ∀ a, io1 a + S1x16.size a ≤ S128x128.size a) (eio1 : io1 = ![base + k, 16])
    (io2 : Fin 2 → ℕ) (hio2 : ∀ a, io2 a + S1x16.size a ≤ S128x128.size a) (eio2 : io2 = ![base + k, 32])
    (io3 : Fin 2 → ℕ) (hio3 : ∀ a, io3 a + S1x16.size a ≤ S128x128.size a) (eio3 : io3 = ![base + k, 48])
    (io4 : Fin 2 → ℕ) (hio4 : ∀ a, io4 a + S1x16.size a ≤ S128x128.size a) (eio4 : io4 = ![base + k, 64])
    (io5 : Fin 2 → ℕ) (hio5 : ∀ a, io5 a + S1x16.size a ≤ S128x128.size a) (eio5 : io5 = ![base + k, 80])
    (io6 : Fin 2 → ℕ) (hio6 : ∀ a, io6 a + S1x16.size a ≤ S128x128.size a) (eio6 : io6 = ![base + k, 96])
    (io7 : Fin 2 → ℕ) (hio7 : ∀ a, io7 a + S1x16.size a ≤ S128x128.size a) (eio7 : io7 = ![base + k, 112])
    (hl0 : ∀ a x, ((![shapeCast S16 ((ivW : Memref sig .scVector .vmem S128x128 .i32).view.readAt (Elt F) (Rect.unit (s := S128x128) io0 S1x16.size hio0).toLoadRect I) shapeCasts_S1x16_S16] : Fin 1 → IVec S16 32) a x).toNat < S100000.size a)
    (hl1 : ∀ a x, ((![shapeCast S16 ((ivW : Memref sig .scVector .vmem S128x128 .i32).view.readAt (Elt F) (Rect.unit (s := S128x128) io1 S1x16.size hio1).toLoadRect I) shapeCasts_S1x16_S16] : Fin 1 → IVec S16 32) a x).toNat < S100000.size a)
    (hl2 : ∀ a x, ((![shapeCast S16 ((ivW : Memref sig .scVector .vmem S128x128 .i32).view.readAt (Elt F) (Rect.unit (s := S128x128) io2 S1x16.size hio2).toLoadRect I) shapeCasts_S1x16_S16] : Fin 1 → IVec S16 32) a x).toNat < S100000.size a)
    (hl3 : ∀ a x, ((![shapeCast S16 ((ivW : Memref sig .scVector .vmem S128x128 .i32).view.readAt (Elt F) (Rect.unit (s := S128x128) io3 S1x16.size hio3).toLoadRect I) shapeCasts_S1x16_S16] : Fin 1 → IVec S16 32) a x).toNat < S100000.size a)
    (hl4 : ∀ a x, ((![shapeCast S16 ((ivW : Memref sig .scVector .vmem S128x128 .i32).view.readAt (Elt F) (Rect.unit (s := S128x128) io4 S1x16.size hio4).toLoadRect I) shapeCasts_S1x16_S16] : Fin 1 → IVec S16 32) a x).toNat < S100000.size a)
    (hl5 : ∀ a x, ((![shapeCast S16 ((ivW : Memref sig .scVector .vmem S128x128 .i32).view.readAt (Elt F) (Rect.unit (s := S128x128) io5 S1x16.size hio5).toLoadRect I) shapeCasts_S1x16_S16] : Fin 1 → IVec S16 32) a x).toNat < S100000.size a)
    (hl6 : ∀ a x, ((![shapeCast S16 ((ivW : Memref sig .scVector .vmem S128x128 .i32).view.readAt (Elt F) (Rect.unit (s := S128x128) io6 S1x16.size hio6).toLoadRect I) shapeCasts_S1x16_S16] : Fin 1 → IVec S16 32) a x).toNat < S100000.size a)
    (hl7 : ∀ a x, ((![shapeCast S16 ((ivW : Memref sig .scVector .vmem S128x128 .i32).view.readAt (Elt F) (Rect.unit (s := S128x128) io7 S1x16.size hio7).toLoadRect I) shapeCasts_S1x16_S16] : Fin 1 → IVec S16 32) a x).toNat < S100000.size a) :
    OvDone d L P I base (k + 1)
      ((ovW : Memref sig .scVector .vmem S8192 .f32).view.writes (Elt F) f
        [⟨Rect.unit (s := S8192) o7 S16.size ho7, loadIdx ((plW : Memref sig .scVector .vmem S100000 .f32).view.readAt (Elt F) (LoadRect.whole S100000) P) ![shapeCast S16 ((ivW : Memref sig .scVector .vmem S128x128 .i32).view.readAt (Elt F) (Rect.unit (s := S128x128) io7 S1x16.size hio7).toLoadRect I) shapeCasts_S1x16_S16] hl7⟩,
         ⟨Rect.unit (s := S8192) o6 S16.size ho6, loadIdx ((plW : Memref sig .scVector .vmem S100000 .f32).view.readAt (Elt F) (LoadRect.whole S100000) P) ![shapeCast S16 ((ivW : Memref sig .scVector .vmem S128x128 .i32).view.readAt (Elt F) (Rect.unit (s := S128x128) io6 S1x16.size hio6).toLoadRect I) shapeCasts_S1x16_S16] hl6⟩,
         ⟨Rect.unit (s := S8192) o5 S16.size ho5, loadIdx ((plW : Memref sig .scVector .vmem S100000 .f32).view.readAt (Elt F) (LoadRect.whole S100000) P) ![shapeCast S16 ((ivW : Memref sig .scVector .vmem S128x128 .i32).view.readAt (Elt F) (Rect.unit (s := S128x128) io5 S1x16.size hio5).toLoadRect I) shapeCasts_S1x16_S16] hl5⟩,
         ⟨Rect.unit (s := S8192) o4 S16.size ho4, loadIdx ((plW : Memref sig .scVector .vmem S100000 .f32).view.readAt (Elt F) (LoadRect.whole S100000) P) ![shapeCast S16 ((ivW : Memref sig .scVector .vmem S128x128 .i32).view.readAt (Elt F) (Rect.unit (s := S128x128) io4 S1x16.size hio4).toLoadRect I) shapeCasts_S1x16_S16] hl4⟩,
         ⟨Rect.unit (s := S8192) o3 S16.size ho3, loadIdx ((plW : Memref sig .scVector .vmem S100000 .f32).view.readAt (Elt F) (LoadRect.whole S100000) P) ![shapeCast S16 ((ivW : Memref sig .scVector .vmem S128x128 .i32).view.readAt (Elt F) (Rect.unit (s := S128x128) io3 S1x16.size hio3).toLoadRect I) shapeCasts_S1x16_S16] hl3⟩,
         ⟨Rect.unit (s := S8192) o2 S16.size ho2, loadIdx ((plW : Memref sig .scVector .vmem S100000 .f32).view.readAt (Elt F) (LoadRect.whole S100000) P) ![shapeCast S16 ((ivW : Memref sig .scVector .vmem S128x128 .i32).view.readAt (Elt F) (Rect.unit (s := S128x128) io2 S1x16.size hio2).toLoadRect I) shapeCasts_S1x16_S16] hl2⟩,
         ⟨Rect.unit (s := S8192) o1 S16.size ho1, loadIdx ((plW : Memref sig .scVector .vmem S100000 .f32).view.readAt (Elt F) (LoadRect.whole S100000) P) ![shapeCast S16 ((ivW : Memref sig .scVector .vmem S128x128 .i32).view.readAt (Elt F) (Rect.unit (s := S128x128) io1 S1x16.size hio1).toLoadRect I) shapeCasts_S1x16_S16] hl1⟩,
         ⟨Rect.unit (s := S8192) o0 S16.size ho0, loadIdx ((plW : Memref sig .scVector .vmem S100000 .f32).view.readAt (Elt F) (LoadRect.whole S100000) P) ![shapeCast S16 ((ivW : Memref sig .scVector .vmem S128x128 .i32).view.readAt (Elt F) (Rect.unit (s := S128x128) io0 S1x16.size hio0).toLoadRect I) shapeCasts_S1x16_S16] hl0⟩]) := by
  intro p hp
  refine (ov_read d L _ p).trans ?_
  by_cases h7 : 128 * k + 112 ≤ (p 0).val
  · exact hit_piece d L P I base k hk hbase 112 (by omega) o7 ho7 eo7 io7 hio7 eio7 hl7 _ f p h7 (by omega)
  refine (View.read_writes_cons_unit_of_not_mem (ovW : Memref sig .scVector .vmem S8192 .f32).view f ho7 _ _ p eo7 0 (Or.inl (by show (p 0).val < 128 * k + 112; omega))).trans ?_
  by_cases h6 : 128 * k + 96 ≤ (p 0).val
  · exact hit_piece d L P I base k hk hbase 96 (by omega) o6 ho6 eo6 io6 hio6 eio6 hl6 _ f p h6 (by omega)
  refine (View.read_writes_cons_unit_of_not_mem (ovW : Memref sig .scVector .vmem S8192 .f32).view f ho6 _ _ p eo6 0 (Or.inl (by show (p 0).val < 128 * k + 96; omega))).trans ?_
  by_cases h5 : 128 * k + 80 ≤ (p 0).val
  · exact hit_piece d L P I base k hk hbase 80 (by omega) o5 ho5 eo5 io5 hio5 eio5 hl5 _ f p h5 (by omega)
  refine (View.read_writes_cons_unit_of_not_mem (ovW : Memref sig .scVector .vmem S8192 .f32).view f ho5 _ _ p eo5 0 (Or.inl (by show (p 0).val < 128 * k + 80; omega))).trans ?_
  by_cases h4 : 128 * k + 64 ≤ (p 0).val
  · exact hit_piece d L P I base k hk hbase 64 (by omega) o4 ho4 eo4 io4 hio4 eio4 hl4 _ f p h4 (by omega)
  refine (View.read_writes_cons_unit_of_not_mem (ovW : Memref sig .scVector .vmem S8192 .f32).view f ho4 _ _ p eo4 0 (Or.inl (by show (p 0).val < 128 * k + 64; omega))).trans ?_
  by_cases h3 : 128 * k + 48 ≤ (p 0).val
  · exact hit_piece d L P I base k hk hbase 48 (by omega) o3 ho3 eo3 io3 hio3 eio3 hl3 _ f p h3 (by omega)
  refine (View.read_writes_cons_unit_of_not_mem (ovW : Memref sig .scVector .vmem S8192 .f32).view f ho3 _ _ p eo3 0 (Or.inl (by show (p 0).val < 128 * k + 48; omega))).trans ?_
  by_cases h2 : 128 * k + 32 ≤ (p 0).val
  · exact hit_piece d L P I base k hk hbase 32 (by omega) o2 ho2 eo2 io2 hio2 eio2 hl2 _ f p h2 (by omega)
  refine (View.read_writes_cons_unit_of_not_mem (ovW : Memref sig .scVector .vmem S8192 .f32).view f ho2 _ _ p eo2 0 (Or.inl (by show (p 0).val < 128 * k + 32; omega))).trans ?_
  by_cases h1 : 128 * k + 16 ≤ (p 0).val
  · exact hit_piece d L P I base k hk hbase 16 (by omega) o1 ho1 eo1 io1 hio1 eio1 hl1 _ f p h1 (by omega)
  refine (View.read_writes_cons_unit_of_not_mem (ovW : Memref sig .scVector .vmem S8192 .f32).view f ho1 _ _ p eo1 0 (Or.inl (by show (p 0).val < 128 * k + 16; omega))).trans ?_
  by_cases h0 : 128 * k + 0 ≤ (p 0).val
  · exact hit_piece d L P I base k hk hbase 0 (by omega) o0 ho0 eo0 io0 hio0 eio0 hl0 _ f p h0 (by omega)
  refine (View.read_writes_cons_unit_of_not_mem (ovW : Memref sig .scVector .vmem S8192 .f32).view f ho0 _ _ p eo0 0 (Or.inl (by show (p 0).val < 128 * k + 0; omega))).trans ?_
  exact hf p (by omega)

end Cert.Proof.Bt

end
-- ==== Proof.TileT2Bt.lean ====
/-
  One trip of the gather loop over the first half row: eight times, sixteen indices are read from the index scratch,
  the table row is read at them, and the sixteen entries are stored at the next sixteen positions of the half row.
-/
import proofs.«205279_g68771016344126_cont_9to1_m_1330_15_alg».proof.Proof.CommonBt
import proofs.«205279_g68771016344126_cont_9to1_m_1330_15_alg».proof.Proof.TileStepBt

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

/-! The offsets of the trip's loads of indices and stores of results, in closed form. -/

theorem t2_ioff0 : ∀ k : Fin k0_t2_loop.trips, k0_off3 k = ![0 + k.val, 0] := by decide +kernel
theorem t2_ooff0 : ∀ k : Fin k0_t2_loop.trips, k0_off4 k = ![128 * k.val + 0] := by decide +kernel
theorem t2_ioff1 : ∀ k : Fin k0_t2_loop.trips, k0_off5 k = ![0 + k.val, 16] := by decide +kernel
theorem t2_ooff1 : ∀ k : Fin k0_t2_loop.trips, k0_off6 k = ![128 * k.val + 16] := by decide +kernel
theorem t2_ioff2 : ∀ k : Fin k0_t2_loop.trips, k0_off7 k = ![0 + k.val, 32] := by decide +kernel
theorem t2_ooff2 : ∀ k : Fin k0_t2_loop.trips, k0_off8 k = ![128 * k.val + 32] := by decide +kernel
theorem t2_ioff3 : ∀ k : Fin k0_t2_loop.trips, k0_off9 k = ![0 + k.val, 48] := by decide +kernel
theorem t2_ooff3 : ∀ k : Fin k0_t2_loop.trips, k0_off10 k = ![128 * k.val + 48] := by decide +kernel
theorem t2_ioff4 : ∀ k : Fin k0_t2_loop.trips, k0_off11 k = ![0 + k.val, 64] := by decide +kernel
theorem t2_ooff4 : ∀ k : Fin k0_t2_loop.trips, k0_off12 k = ![128 * k.val + 64] := by decide +kernel
theorem t2_ioff5 : ∀ k : Fin k0_t2_loop.trips, k0_off13 k = ![0 + k.val, 80] := by decide +kernel
theorem t2_ooff5 : ∀ k : Fin k0_t2_loop.trips, k0_off14 k = ![128 * k.val + 80] := by decide +kernel
theorem t2_ioff6 : ∀ k : Fin k0_t2_loop.trips, k0_off15 k = ![0 + k.val, 96] := by decide +kernel
theorem t2_ooff6 : ∀ k : Fin k0_t2_loop.trips, k0_off16 k = ![128 * k.val + 96] := by decide +kernel
theorem t2_ioff7 : ∀ k : Fin k0_t2_loop.trips, k0_off17 k = ![0 + k.val, 112] := by decide +kernel
theorem t2_ooff7 : ∀ k : Fin k0_t2_loop.trips, k0_off18 k = ![128 * k.val + 112] := by decide +kernel

variable [FloatOps F] (d : Dev nD) (L : grid0.Coords)

set_option maxHeartbeats 8000000 in
theorem t2_trip (k : Fin k0_t2_loop.trips)
    (P : Buf (Elt F) ((thrV d L).loc cc0_scratch0)) (I : Buf (Elt F) ((thrV d L).loc cc0_scratch1))
    (hI : ∀ j, (I j : BitVec 32).toNat < 100000) :
    invG d L P I 0 k.val ⟨⟩
      ⊢ wp frame (wpE (defs₀ (F := F)) 𝒱₀ (thrV d L) none) Set.univ
          (k0_t2_body L t2W (Memref.isWhole_whole _) t1W (Memref.isWhole_whole _) ixW (Memref.isWhole_whole _) e2W (Memref.isWhole_whole _) e1W (Memref.isWhole_whole _) plW (Memref.isWhole_whole _) ivW (Memref.isWhole_whole _) ovW (Memref.isWhole_whole _) cc0_scratch3 cc0_scoped0 cc0_scoped1 cc0_scoped2 cc0_scoped3 cc0_scoped4 cc0_scoped5 k ⟨⟩) (fun _ => invG d L P I 0 (k.val + 1) ⟨⟩) := by
  unfold invG
  iintro ⟨Hpl, Hiv, %f, %hf, Hov⟩
  unfold k0_t2_body
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  sl_step
  isplitl [Hpl]; · iexact Hpl
  isplitl [Hiv]; · iexact Hiv
  iexists _; isplitr
  · ipureintro
    refine ovDone_step8 d L P I 0 k.val k.isLt (by decide) f hf _ (k0_off4_inb k) (t2_ooff0 k) _ (k0_off6_inb k) (t2_ooff1 k) _ (k0_off8_inb k) (t2_ooff2 k) _ (k0_off10_inb k) (t2_ooff3 k) _ (k0_off12_inb k) (t2_ooff4 k) _ (k0_off14_inb k) (t2_ooff5 k) _ (k0_off16_inb k) (t2_ooff6 k) _ (k0_off18_inb k) (t2_ooff7 k) _ (k0_off3_inb k) (t2_ioff0 k) _ (k0_off5_inb k) (t2_ioff1 k) _ (k0_off7_inb k) (t2_ioff2 k) _ (k0_off9_inb k) (t2_ioff3 k) _ (k0_off11_inb k) (t2_ioff4 k) _ (k0_off13_inb k) (t2_ioff5 k) _ (k0_off15_inb k) (t2_ioff6 k) _ (k0_off17_inb k) (t2_ioff7 k) ?_ ?_ ?_ ?_ ?_ ?_ ?_ ?_ <;>
      exact chk_of_lt _ (fun x => lane_lt _ (read_lt d L I hI _ _) x)
  · iexact Hov

end Cert.Proof.Bt

end
-- ==== Proof.TileT3Bt.lean ====
/-
  One trip of the gather loop over the second half row: eight times, sixteen indices are read from the index scratch,
  the table row is read at them, and the sixteen entries are stored at the next sixteen positions of the half row.
-/
import proofs.«205279_g68771016344126_cont_9to1_m_1330_15_alg».proof.Proof.CommonBt
import proofs.«205279_g68771016344126_cont_9to1_m_1330_15_alg».proof.Proof.TileStepBt

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

/-! The offsets of the trip's loads of indices and stores of results, in closed form. -/

theorem t3_ioff0 : ∀ k : Fin k0_t3_loop.trips, k0_off20 k = ![64 + k.val, 0] := by decide +kernel
theorem t3_ooff0 : ∀ k : Fin k0_t3_loop.trips, k0_off21 k = ![128 * k.val + 0] := by decide +kernel
theorem t3_ioff1 : ∀ k : Fin k0_t3_loop.trips, k0_off22 k = ![64 + k.val, 16] := by decide +kernel
theorem t3_ooff1 : ∀ k : Fin k0_t3_loop.trips, k0_off23 k = ![128 * k.val + 16] := by decide +kernel
theorem t3_ioff2 : ∀ k : Fin k0_t3_loop.trips, k0_off24 k = ![64 + k.val, 32] := by decide +kernel
theorem t3_ooff2 : ∀ k : Fin k0_t3_loop.trips, k0_off25 k = ![128 * k.val + 32] := by decide +kernel
theorem t3_ioff3 : ∀ k : Fin k0_t3_loop.trips, k0_off26 k = ![64 + k.val, 48] := by decide +kernel
theorem t3_ooff3 : ∀ k : Fin k0_t3_loop.trips, k0_off27 k = ![128 * k.val + 48] := by decide +kernel
theorem t3_ioff4 : ∀ k : Fin k0_t3_loop.trips, k0_off28 k = ![64 + k.val, 64] := by decide +kernel
theorem t3_ooff4 : ∀ k : Fin k0_t3_loop.trips, k0_off29 k = ![128 * k.val + 64] := by decide +kernel
theorem t3_ioff5 : ∀ k : Fin k0_t3_loop.trips, k0_off30 k = ![64 + k.val, 80] := by decide +kernel
theorem t3_ooff5 : ∀ k : Fin k0_t3_loop.trips, k0_off31 k = ![128 * k.val + 80] := by decide +kernel
theorem t3_ioff6 : ∀ k : Fin k0_t3_loop.trips, k0_off32 k = ![64 + k.val, 96] := by decide +kernel
theorem t3_ooff6 : ∀ k : Fin k0_t3_loop.trips, k0_off33 k = ![128 * k.val + 96] := by decide +kernel
theorem t3_ioff7 : ∀ k : Fin k0_t3_loop.trips, k0_off34 k = ![64 + k.val, 112] := by decide +kernel
theorem t3_ooff7 : ∀ k : Fin k0_t3_loop.trips, k0_off35 k = ![128 * k.val + 112] := by decide +kernel

variable [FloatOps F] (d : Dev nD) (L : grid0.Coords)

set_option maxHeartbeats 8000000 in
theorem t3_trip (k : Fin k0_t3_loop.trips)
    (P : Buf (Elt F) ((thrV d L).loc cc0_scratch0)) (I : Buf (Elt F) ((thrV d L).loc cc0_scratch1))
    (hI : ∀ j, (I j : BitVec 32).toNat < 100000) :
    invG d L P I 64 k.val ⟨⟩
      ⊢ wp frame (wpE (defs₀ (F := F)) 𝒱₀ (thrV d L) none) Set.univ
          (k0_t3_body L t2W (Memref.isWhole_whole _) t1W (Memref.isWhole_whole _) ixW (Memref.isWhole_whole _) e2W (Memref.isWhole_whole _) e1W (Memref.isWhole_whole _) plW (Memref.isWhole_whole _) ivW (Memref.isWhole_whole _) ovW (Memref.isWhole_whole _) cc0_scratch3 cc0_scoped0 cc0_scoped1 cc0_scoped2 cc0_scoped3 cc0_scoped4 cc0_scoped5 k ⟨⟩) (fun _ => invG d L P I 64 (k.val + 1) ⟨⟩) := by
  unfold invG
  iintro ⟨Hpl, Hiv, %f, %hf, Hov⟩
  unfold k0_t3_body
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  sl_step
  isplitl [Hpl]; · iexact Hpl
  isplitl [Hiv]; · iexact Hiv
  iexists _; isplitr
  · ipureintro
    refine ovDone_step8 d L P I 64 k.val k.isLt (by decide) f hf _ (k0_off21_inb k) (t3_ooff0 k) _ (k0_off23_inb k) (t3_ooff1 k) _ (k0_off25_inb k) (t3_ooff2 k) _ (k0_off27_inb k) (t3_ooff3 k) _ (k0_off29_inb k) (t3_ooff4 k) _ (k0_off31_inb k) (t3_ooff5 k) _ (k0_off33_inb k) (t3_ooff6 k) _ (k0_off35_inb k) (t3_ooff7 k) _ (k0_off20_inb k) (t3_ioff0 k) _ (k0_off22_inb k) (t3_ioff1 k) _ (k0_off24_inb k) (t3_ioff2 k) _ (k0_off26_inb k) (t3_ioff3 k) _ (k0_off28_inb k) (t3_ioff4 k) _ (k0_off30_inb k) (t3_ioff5 k) _ (k0_off32_inb k) (t3_ioff6 k) _ (k0_off34_inb k) (t3_ioff7 k) ?_ ?_ ?_ ?_ ?_ ?_ ?_ ?_ <;>
      exact chk_of_lt _ (fun x => lane_lt _ (read_lt d L I hI _ _) x)
  · iexact Hov

end Cert.Proof.Bt

end
-- ==== Proof.TileT1Bt.lean ====
/-
  One plane of the tile's task: field (13 w + k) / 16's indices and row 13 w + k of the transposed table are copied into
  the scratch, the two gather loops fill the half row twice, and each half is copied out into row 13 w + k of the
  [416, 16384] result.
-/
import proofs.«205279_g68771016344126_cont_9to1_m_1330_15_alg».proof.Proof.CommonBt
import proofs.«205279_g68771016344126_cont_9to1_m_1330_15_alg».proof.Proof.TileValBt
import proofs.«205279_g68771016344126_cont_9to1_m_1330_15_alg».proof.Proof.TileT2Bt
import proofs.«205279_g68771016344126_cont_9to1_m_1330_15_alg».proof.Proof.TileT3Bt

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx
variable [FloatOps F] (d : Dev nD) (L : grid0.Coords)

omit [FloatOps F] in
theorem trips_t2 : Scf.trips k0_t2_loop.lb k0_t2_loop.ub k0_t2_loop.st = 64 := by decide
omit [FloatOps F] in
theorem trips_t3 : Scf.trips k0_t3_loop.lb k0_t3_loop.ub k0_t3_loop.st = 64 := by decide

/-- The plane's value step, over names for the scratch contents and the first half's result. -/
theorem e2Done_step' (f4 : Buf (Elt F) (t2Loc d)) (f2 : Buf (Elt F) (ixLoc d)) (hix : IdxOK d f2) (k : Fin k0_t1_loop.trips)
    (g : Buf (Elt F) (e2Loc d)) (hg : E2Done d L f4 f2 k.val g)
    (P0 : Buf (Elt F) ((thrV d L).loc cc0_scratch0)) (I0 : Buf (Elt F) ((thrV d L).loc cc0_scratch1))
    (f1 f3 : Buf (Elt F) ((thrV d L).loc cc0_scratch2))
    (Pk : Buf (Elt F) ((thrV d L).loc cc0_scratch0)) (Ik : Buf (Elt F) ((thrV d L).loc cc0_scratch1)) (gA : Buf (Elt F) (e2Loc d))
    (hPk : (View.write (Elt F) (plW : Memref sig .scVector .vmem S100000 .f32).view P0 (ReadAs.same.apply (View.read (Elt F) (((t2W : Memref sig .scVector .hbm S416x100000 .f32).slice (Rect.unit (s := S416x100000) (k0_off2 L k) S1x100000.size (k0_off2_inb L k)) (fun _ => rfl)).squeeze S100000 squeezes_S1x100000_S100000).view f4)) Finset.univ) = Pk) (hIk : (View.write (Elt F) (ivW : Memref sig .scVector .vmem S128x128 .i32).view I0 (ReadAs.same.apply (View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2)) Finset.univ) = Ik) (hgA : (((e2Half0 L k).view.set).piecewise ((e2Half0 L k).view.writes (Elt F) (e2Half0 L k).view.junk [⟨Rect.whole S8192, ReadAs.same.apply (View.read (Elt F) (ovW : Memref sig .scVector .vmem S8192 .f32).view f1)⟩]) g) = gA)
    (hf1 : OvDone d L Pk Ik 0 64 f1) (hf3 : OvDone d L Pk Ik 64 64 f3) :
    E2Done d L f4 f2 (k.val + 1)
      (((e2Half1 L k).view.set).piecewise
        ((e2Half1 L k).view.writes (Elt F) gA [⟨Rect.whole S8192, ReadAs.same.apply (View.read (Elt F) (ovW : Memref sig .scVector .vmem S8192 .f32).view f3)⟩])
        gA) := by
  subst hPk hIk hgA
  exact e2Done_step d L f4 f2 hix k g hg P0 I0 f1 f3 hf1 hf3

set_option maxHeartbeats 8000000 in
theorem t1_trip (f4 : Buf (Elt F) (t2Loc d)) (f2 : Buf (Elt F) (ixLoc d)) (hix : IdxOK d f2)
    (O : CellTallies nD τ sig (HIx 1)) (W : Waits sig (HIx 1)) (k : Fin k0_t1_loop.trips) :
    inv1 d L f4 f2 O W k.val ⟨⟩
      ⊢ wp frame (wpE (defs₀ (F := F)) 𝒱₀ (thrV d L) none) Set.univ
          (k0_t1_body L t2W (Memref.isWhole_whole _) t1W (Memref.isWhole_whole _) ixW (Memref.isWhole_whole _) e2W (Memref.isWhole_whole _) e1W (Memref.isWhole_whole _) plW (Memref.isWhole_whole _) ivW (Memref.isWhole_whole _) ovW (Memref.isWhole_whole _) cc0_scratch3 cc0_scoped0 cc0_scoped1 cc0_scoped2 cc0_scoped3 cc0_scoped4 cc0_scoped5 (Scalar.addi (Scalar.muli (BitVec.ofNat 32 (L 1).val) 2#32) (BitVec.ofNat 32 (L 0).val)) k ⟨⟩) (fun _ => inv1 d L f4 f2 O W (k.val + 1) ⟨⟩) := by
  unfold inv1
  iintro ⟨Hmw, Ht2, Hix, ⟨%g, %hg, He2⟩, ⟨%P0, Hpl⟩, ⟨%I0, Hiv⟩, ⟨%f0, Hov⟩, Hs3, Hc0, Hc1, Hc2, %W', %hW', HO⟩
  unfold k0_t1_body
  sl_exec
  have hI : ∀ j, ((View.write (Elt F) (ivW : Memref sig .scVector .vmem S128x128 .i32).view I0 (t1_trip.sl.dma0 d L f2 k) Finset.univ) j : BitVec 32).toNat < 100000 := iv_copy_lt d L f2 hix I0 k
  generalize hPk : View.write (Elt F) (plW : Memref sig .scVector .vmem S100000 .f32).view P0 (t1_trip.sl.dma0_1 d L f4 k) Finset.univ = Pk
  generalize hIk : View.write (Elt F) (ivW : Memref sig .scVector .vmem S128x128 .i32).view I0 (t1_trip.sl.dma0 d L f2 k) Finset.univ = Ik at hI
  sl_for (invG d L Pk Ik 0) $$ [Hpl Hiv Hov]
  case region =>
    intro k' _
    exact t2_trip d L k' _ _ hI
  · unfold invG
    isplitl [Hpl]; · iexact Hpl
    isplitl [Hiv]; · iexact Hiv
    iexists f0; isplitr
    · ipureintro; exact OvDone_zero d L _ _ 0 f0
    · iexact Hov
  iintro %_ HI
  unfold invG
  icases HI with ⟨Hpl, Hiv, %f1, %hf1, Hov⟩
  ihave Hsp := (pointsTo_split_subset (e2Half0_sub L k)).1 $$ He2
  icases Hsp with ⟨Hd0, He2r⟩
  ihave Hd0' := (Entails.of_eq (pts_half0 (F := F) d L k g).symm) $$ Hd0
  sl_exec
  ihave Hd0 := (Entails.of_eq (pts_half0 (F := F) d L k _)) $$ Hd0'
  ihave He2 := (pointsTo_join_subset (ℓ := e2Loc d) (e2Half0_sub L k)) $$ [Hd0 He2r]
  · isplitl [Hd0]; · iexact Hd0
    iexact He2r
  generalize hgA : ((e2Half0 L k).view.set).piecewise ((e2Half0 L k).view.writes (Elt F) (e2Half0 L k).view.junk [⟨Rect.whole S8192, t1_trip.sl.dma0_2 d L f1⟩]) g = gA
  sl_for (invG d L Pk Ik 64) $$ [Hpl Hiv Hov]
  case region =>
    intro k' _
    exact t3_trip d L k' _ _ hI
  · unfold invG
    isplitl [Hpl]; · iexact Hpl
    isplitl [Hiv]; · iexact Hiv
    iexists f1; isplitr
    · ipureintro; exact OvDone_zero d L _ _ 64 f1
    · iexact Hov
  iintro %_ HI
  unfold invG
  icases HI with ⟨Hpl, Hiv, %f3, %hf3, Hov⟩
  ihave Hsp := (pointsTo_split_subset (e2Half1_sub L k)).1 $$ He2
  icases Hsp with ⟨Hd1, He2r⟩
  ihave Hd1' := (Entails.of_eq (pts_half1 (F := F) d L k gA).symm) $$ Hd1
  sl_exec
  ihave Hd1 := (Entails.of_eq (pts_half1 (F := F) d L k _)) $$ Hd1'
  ihave He2 := (pointsTo_join_subset (ℓ := e2Loc d) (e2Half1_sub L k)) $$ [Hd1 He2r]
  · isplitl [Hd1]; · iexact Hd1
    iexact He2r
  sl_step
  isplitl [Hmw]; · iexact Hmw
  isplitl [Ht2]; · iexact Ht2
  isplitl [Hix]; · iexact Hix
  isplitl [He2]
  · iexists _; isplitr
    · ipureintro
      rw [trips_t2] at hf1
      rw [trips_t3] at hf3
      exact e2Done_step' d L f4 f2 hix k g hg P0 I0 f1 f3 Pk Ik gA hPk hIk hgA hf1 hf3
    · iexact He2
  isplitl [Hpl]; · iexists _; iexact Hpl
  isplitl [Hiv]; · iexists _; iexact Hiv
  isplitl [Hov]; · iexists _; iexact Hov
  isplitl [Hs3]; · iexact Hs3
  isplitl [Hc0]; · iexact Hc0
  isplitl [Hc1]; · iexact Hc1
  isplitl [Hc2]; · iexact Hc2
  iexists _; isplitr
  swap
  · iexact HO
  · ipureintro; intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    · exact hW' p hp

end Cert.Proof.Bt

end
-- ==== Proof.TileT4Bt.lean ====
/-
  One trip of the gather loop over the first half row: eight times, sixteen indices are read from the index scratch,
  the table row is read at them, and the sixteen entries are stored at the next sixteen positions of the half row.
-/
import proofs.«205279_g68771016344126_cont_9to1_m_1330_15_alg».proof.Proof.CommonBt
import proofs.«205279_g68771016344126_cont_9to1_m_1330_15_alg».proof.Proof.TileStepBt

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

/-! The offsets of the trip's loads of indices and stores of results, in closed form. -/

theorem t4_ioff0 : ∀ k : Fin k0_t4_loop.trips, k0_off38 k = ![0 + k.val, 0] := by decide +kernel
theorem t4_ooff0 : ∀ k : Fin k0_t4_loop.trips, k0_off39 k = ![128 * k.val + 0] := by decide +kernel
theorem t4_ioff1 : ∀ k : Fin k0_t4_loop.trips, k0_off40 k = ![0 + k.val, 16] := by decide +kernel
theorem t4_ooff1 : ∀ k : Fin k0_t4_loop.trips, k0_off41 k = ![128 * k.val + 16] := by decide +kernel
theorem t4_ioff2 : ∀ k : Fin k0_t4_loop.trips, k0_off42 k = ![0 + k.val, 32] := by decide +kernel
theorem t4_ooff2 : ∀ k : Fin k0_t4_loop.trips, k0_off43 k = ![128 * k.val + 32] := by decide +kernel
theorem t4_ioff3 : ∀ k : Fin k0_t4_loop.trips, k0_off44 k = ![0 + k.val, 48] := by decide +kernel
theorem t4_ooff3 : ∀ k : Fin k0_t4_loop.trips, k0_off45 k = ![128 * k.val + 48] := by decide +kernel
theorem t4_ioff4 : ∀ k : Fin k0_t4_loop.trips, k0_off46 k = ![0 + k.val, 64] := by decide +kernel
theorem t4_ooff4 : ∀ k : Fin k0_t4_loop.trips, k0_off47 k = ![128 * k.val + 64] := by decide +kernel
theorem t4_ioff5 : ∀ k : Fin k0_t4_loop.trips, k0_off48 k = ![0 + k.val, 80] := by decide +kernel
theorem t4_ooff5 : ∀ k : Fin k0_t4_loop.trips, k0_off49 k = ![128 * k.val + 80] := by decide +kernel
theorem t4_ioff6 : ∀ k : Fin k0_t4_loop.trips, k0_off50 k = ![0 + k.val, 96] := by decide +kernel
theorem t4_ooff6 : ∀ k : Fin k0_t4_loop.trips, k0_off51 k = ![128 * k.val + 96] := by decide +kernel
theorem t4_ioff7 : ∀ k : Fin k0_t4_loop.trips, k0_off52 k = ![0 + k.val, 112] := by decide +kernel
theorem t4_ooff7 : ∀ k : Fin k0_t4_loop.trips, k0_off53 k = ![128 * k.val + 112] := by decide +kernel

variable [FloatOps F] (d : Dev nD) (L : grid0.Coords)

set_option maxHeartbeats 8000000 in
theorem t4_trip (k0_h1 : k0_cond1 L = 1#1) (k : Fin k0_t4_loop.trips)
    (P : Buf (Elt F) ((thrV d L).loc cc0_scratch0)) (I : Buf (Elt F) ((thrV d L).loc cc0_scratch1))
    (hI : ∀ j, (I j : BitVec 32).toNat < 100000) :
    invG d L P I 0 k.val ⟨⟩
      ⊢ wp frame (wpE (defs₀ (F := F)) 𝒱₀ (thrV d L) none) Set.univ
          (k0_t4_body L t2W (Memref.isWhole_whole _) t1W (Memref.isWhole_whole _) ixW (Memref.isWhole_whole _) e2W (Memref.isWhole_whole _) e1W (Memref.isWhole_whole _) plW (Memref.isWhole_whole _) ivW (Memref.isWhole_whole _) ovW (Memref.isWhole_whole _) cc0_scratch3 cc0_scoped0 cc0_scoped1 cc0_scoped2 cc0_scoped3 cc0_scoped4 cc0_scoped5 k0_h1 k ⟨⟩) (fun _ => invG d L P I 0 (k.val + 1) ⟨⟩) := by
  unfold invG
  iintro ⟨Hpl, Hiv, %f, %hf, Hov⟩
  unfold k0_t4_body
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  sl_step
  isplitl [Hpl]; · iexact Hpl
  isplitl [Hiv]; · iexact Hiv
  iexists _; isplitr
  · ipureintro
    refine ovDone_step8 d L P I 0 k.val k.isLt (by decide) f hf _ (k0_off39_inb L k k0_h1) (t4_ooff0 k) _ (k0_off41_inb L k k0_h1) (t4_ooff1 k) _ (k0_off43_inb L k k0_h1) (t4_ooff2 k) _ (k0_off45_inb L k k0_h1) (t4_ooff3 k) _ (k0_off47_inb L k k0_h1) (t4_ooff4 k) _ (k0_off49_inb L k k0_h1) (t4_ooff5 k) _ (k0_off51_inb L k k0_h1) (t4_ooff6 k) _ (k0_off53_inb L k k0_h1) (t4_ooff7 k) _ (k0_off38_inb L k k0_h1) (t4_ioff0 k) _ (k0_off40_inb L k k0_h1) (t4_ioff1 k) _ (k0_off42_inb L k k0_h1) (t4_ioff2 k) _ (k0_off44_inb L k k0_h1) (t4_ioff3 k) _ (k0_off46_inb L k k0_h1) (t4_ioff4 k) _ (k0_off48_inb L k k0_h1) (t4_ioff5 k) _ (k0_off50_inb L k k0_h1) (t4_ioff6 k) _ (k0_off52_inb L k k0_h1) (t4_ioff7 k) ?_ ?_ ?_ ?_ ?_ ?_ ?_ ?_ <;>
      exact chk_of_lt _ (fun x => lane_lt _ (read_lt d L I hI _ _) x)
  · iexact Hov

end Cert.Proof.Bt

end
-- ==== Proof.TileT5Bt.lean ====
/-
  One trip of the gather loop over the second half row: eight times, sixteen indices are read from the index scratch,
  the table row is read at them, and the sixteen entries are stored at the next sixteen positions of the half row.
-/
import proofs.«205279_g68771016344126_cont_9to1_m_1330_15_alg».proof.Proof.CommonBt
import proofs.«205279_g68771016344126_cont_9to1_m_1330_15_alg».proof.Proof.TileStepBt

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

/-! The offsets of the trip's loads of indices and stores of results, in closed form. -/

theorem t5_ioff0 : ∀ k : Fin k0_t5_loop.trips, k0_off55 k = ![64 + k.val, 0] := by decide +kernel
theorem t5_ooff0 : ∀ k : Fin k0_t5_loop.trips, k0_off56 k = ![128 * k.val + 0] := by decide +kernel
theorem t5_ioff1 : ∀ k : Fin k0_t5_loop.trips, k0_off57 k = ![64 + k.val, 16] := by decide +kernel
theorem t5_ooff1 : ∀ k : Fin k0_t5_loop.trips, k0_off58 k = ![128 * k.val + 16] := by decide +kernel
theorem t5_ioff2 : ∀ k : Fin k0_t5_loop.trips, k0_off59 k = ![64 + k.val, 32] := by decide +kernel
theorem t5_ooff2 : ∀ k : Fin k0_t5_loop.trips, k0_off60 k = ![128 * k.val + 32] := by decide +kernel
theorem t5_ioff3 : ∀ k : Fin k0_t5_loop.trips, k0_off61 k = ![64 + k.val, 48] := by decide +kernel
theorem t5_ooff3 : ∀ k : Fin k0_t5_loop.trips, k0_off62 k = ![128 * k.val + 48] := by decide +kernel
theorem t5_ioff4 : ∀ k : Fin k0_t5_loop.trips, k0_off63 k = ![64 + k.val, 64] := by decide +kernel
theorem t5_ooff4 : ∀ k : Fin k0_t5_loop.trips, k0_off64 k = ![128 * k.val + 64] := by decide +kernel
theorem t5_ioff5 : ∀ k : Fin k0_t5_loop.trips, k0_off65 k = ![64 + k.val, 80] := by decide +kernel
theorem t5_ooff5 : ∀ k : Fin k0_t5_loop.trips, k0_off66 k = ![128 * k.val + 80] := by decide +kernel
theorem t5_ioff6 : ∀ k : Fin k0_t5_loop.trips, k0_off67 k = ![64 + k.val, 96] := by decide +kernel
theorem t5_ooff6 : ∀ k : Fin k0_t5_loop.trips, k0_off68 k = ![128 * k.val + 96] := by decide +kernel
theorem t5_ioff7 : ∀ k : Fin k0_t5_loop.trips, k0_off69 k = ![64 + k.val, 112] := by decide +kernel
theorem t5_ooff7 : ∀ k : Fin k0_t5_loop.trips, k0_off70 k = ![128 * k.val + 112] := by decide +kernel

variable [FloatOps F] (d : Dev nD) (L : grid0.Coords)

set_option maxHeartbeats 8000000 in
theorem t5_trip (k0_h1 : k0_cond1 L = 1#1) (k : Fin k0_t5_loop.trips)
    (P : Buf (Elt F) ((thrV d L).loc cc0_scratch0)) (I : Buf (Elt F) ((thrV d L).loc cc0_scratch1))
    (hI : ∀ j, (I j : BitVec 32).toNat < 100000) :
    invG d L P I 64 k.val ⟨⟩
      ⊢ wp frame (wpE (defs₀ (F := F)) 𝒱₀ (thrV d L) none) Set.univ
          (k0_t5_body L t2W (Memref.isWhole_whole _) t1W (Memref.isWhole_whole _) ixW (Memref.isWhole_whole _) e2W (Memref.isWhole_whole _) e1W (Memref.isWhole_whole _) plW (Memref.isWhole_whole _) ivW (Memref.isWhole_whole _) ovW (Memref.isWhole_whole _) cc0_scratch3 cc0_scoped0 cc0_scoped1 cc0_scoped2 cc0_scoped3 cc0_scoped4 cc0_scoped5 k0_h1 k ⟨⟩) (fun _ => invG d L P I 64 (k.val + 1) ⟨⟩) := by
  unfold invG
  iintro ⟨Hpl, Hiv, %f, %hf, Hov⟩
  unfold k0_t5_body
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  sl_step
  isplitl [Hpl]; · iexact Hpl
  isplitl [Hiv]; · iexact Hiv
  iexists _; isplitr
  · ipureintro
    refine ovDone_step8 d L P I 64 k.val k.isLt (by decide) f hf _ (k0_off56_inb L k k0_h1) (t5_ooff0 k) _ (k0_off58_inb L k k0_h1) (t5_ooff1 k) _ (k0_off60_inb L k k0_h1) (t5_ooff2 k) _ (k0_off62_inb L k k0_h1) (t5_ooff3 k) _ (k0_off64_inb L k k0_h1) (t5_ooff4 k) _ (k0_off66_inb L k k0_h1) (t5_ooff5 k) _ (k0_off68_inb L k k0_h1) (t5_ooff6 k) _ (k0_off70_inb L k k0_h1) (t5_ooff7 k) _ (k0_off55_inb L k k0_h1) (t5_ioff0 k) _ (k0_off57_inb L k k0_h1) (t5_ioff1 k) _ (k0_off59_inb L k k0_h1) (t5_ioff2 k) _ (k0_off61_inb L k k0_h1) (t5_ioff3 k) _ (k0_off63_inb L k k0_h1) (t5_ioff4 k) _ (k0_off65_inb L k k0_h1) (t5_ioff5 k) _ (k0_off67_inb L k k0_h1) (t5_ioff6 k) _ (k0_off69_inb L k k0_h1) (t5_ioff7 k) ?_ ?_ ?_ ?_ ?_ ?_ ?_ ?_ <;>
      exact chk_of_lt _ (fun x => lane_lt _ (read_lt d L I hI _ _) x)
  · iexact Hov

end Cert.Proof.Bt

end
-- ==== Proof.TileVal1Bt.lean ====
/-
  The last section's facts about values: a tile with w < 26 copies field w's indices and row w of the first-order
  table into the scratch, gathers, and copies the two halves out into row w of the [26, 16384] result; and the end of
  the plane loop: thirteen planes done are all of the tile's rows of the [416, 16384] result.
-/
import proofs.«205279_g68771016344126_cont_9to1_m_1330_15_alg».proof.Proof.CommonBt
import proofs.«205279_g68771016344126_cont_9to1_m_1330_15_alg».proof.Proof.TileValBt

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid0.Coords)

/-- The printed test is "tile number below 26". -/
theorem cond1_iff : ∀ i : grid0.Coords, k0_cond1 i = 1#1 ↔ 2 * (i 1).val + (i 0).val < 26 := by decide +kernel

/-- The section runs exactly for the tile numbers below 26. -/
theorem wid_lt_of_cond (h : k0_cond1 L = 1#1) : wid L < 26 := by
  exact (cond1_iff L).mp h
theorem e1Region_empty (h : ¬ k0_cond1 L = 1#1) : e1Region L = ∅ := by
  have hw : ¬ wid L < 26 := fun hw => h ((cond1_iff L).mpr hw)
  unfold e1Region
  rw [dif_neg hw]

/-- The two halves of row w of the [26, 16384] result, as the kernel slices them. -/
abbrev e1Half0 (h : k0_cond1 L = 1#1) : Memref sig .scVector .hbm S8192 .f32 :=
  (((e1W : Memref sig .scVector .hbm S26x16384 .f32).slice (Rect.unit (s := S26x16384) (k0_off54 L) S1x16384.size (k0_off54_inb L h)) (fun _ => rfl)).squeeze S16384 squeezes_S1x16384_S16384).slice (Rect.unit (s := S16384) ![0] S8192.size inb_S16384_S8192_0) (fun _ => rfl)
abbrev e1Half1 (h : k0_cond1 L = 1#1) : Memref sig .scVector .hbm S8192 .f32 :=
  (((e1W : Memref sig .scVector .hbm S26x16384 .f32).slice (Rect.unit (s := S26x16384) (k0_off54 L) S1x16384.size (k0_off54_inb L h)) (fun _ => rfl)).squeeze S16384 squeezes_S1x16384_S16384).slice (Rect.unit (s := S16384) ![8192] S8192.size inb_S16384_S8192_8192) (fun _ => rfl)

theorem pts_e1half0 (h : k0_cond1 L = 1#1) (g : Buf (Elt F) (e1Loc d)) :
    (((e1Half0 L h).view.loc (thrV d L) ↦[(e1Half0 L h).view.set]{fullShare} g : sProp 𝕄)) = (e1Loc d ↦[(e1Half0 L h).view.set]{fullShare} g) := rfl
theorem pts_e1half1 (h : k0_cond1 L = 1#1) (g : Buf (Elt F) (e1Loc d)) :
    (((e1Half1 L h).view.loc (thrV d L) ↦[(e1Half1 L h).view.set]{fullShare} g : sProp 𝕄)) = (e1Loc d ↦[(e1Half1 L h).view.set]{fullShare} g) := rfl

/-- Where the kernel's half-row memref (row r of the [26, 16384] result, columns c … c + 8191) puts its position y:
    at row r, column c + y. -/
theorem rowHalf1_emb (off : Fin 2 → ℕ) (hoff : ∀ a, off a + S1x16384.size a ≤ S26x16384.size a) (r : ℕ) (eoff : off = ![r, 0])
    (c : ℕ) (hc : ∀ a, (![c] : Fin 1 → ℕ) a + S8192.size a ≤ S16384.size a) (y : S8192.Idx) (a : Fin 2) :
    (((((e1W : Memref sig .scVector .hbm S26x16384 .f32).slice (Rect.unit (s := S26x16384) off S1x16384.size hoff) (fun _ => rfl)).squeeze S16384 squeezes_S1x16384_S16384).slice (Rect.unit (s := S16384) ![c] S8192.size hc) (fun _ => rfl)).view.emb y a).val
      = (![r, c + (y 0).val] : Fin 2 → ℕ) a := by
  subst eoff
  have hcy : c + (y 0).val < 16384 := by
    have h2 : (y 0).val < 8192 := (y 0).isLt
    have h3 : (![c] : Fin 1 → ℕ) 0 + S8192.size 0 ≤ S16384.size 0 := hc 0
    change c + 8192 ≤ 16384 at h3
    omega
  have hre : Shape.reshapeEquiv (s := S1x16384) (s' := S16384) squeezes_S1x16384_S16384.numel_eq ((Rect.unit (s := S16384) ![c] S8192.size hc).emb y)
      = ix2 (0 : Fin 1) (⟨c + (y 0).val, hcy⟩ : Fin 16384) :=
    Shape.reshapeEquiv_eq_of_rowMajor _ (by
      rw [Shape.rowMajor_val_two, Shape.rowMajor_val_one]
      show 0 * 16384 + (c + (y 0).val) = c + 1 * (y 0).val
      omega)
  match a with
  | ⟨0, _⟩ =>
    show r + 1 * (Shape.reshapeEquiv (s := S1x16384) (s' := S16384) squeezes_S1x16384_S16384.numel_eq ((Rect.unit (s := S16384) ![c] S8192.size hc).emb y) 0).val = r
    rw [hre]; show r + 1 * 0 = r; omega
  | ⟨1, _⟩ =>
    show 0 + 1 * (Shape.reshapeEquiv (s := S1x16384) (s' := S16384) squeezes_S1x16384_S16384.numel_eq ((Rect.unit (s := S16384) ![c] S8192.size hc).emb y) 1).val = c + (y 0).val
    rw [hre]; show 0 + 1 * (c + (y 0).val) = c + (y 0).val; omega

theorem e1half0_emb (h : k0_cond1 L = 1#1) (y : S8192.Idx) (a : Fin 2) :
    ((e1Half0 L h).view.emb y a).val = (![wid L, (y 0).val] : Fin 2 → ℕ) a := by
  have h' := rowHalf1_emb (k0_off54 L) (k0_off54_inb L h) (wid L) (k0_off54_eq L) 0 inb_S16384_S8192_0 y a
  rw [h']
  match a with
  | ⟨0, _⟩ => rfl
  | ⟨1, _⟩ => show 0 + (y 0).val = (y 0).val; omega

theorem e1half1_emb (h : k0_cond1 L = 1#1) (y : S8192.Idx) (a : Fin 2) :
    ((e1Half1 L h).view.emb y a).val = (![wid L, 8192 + (y 0).val] : Fin 2 → ℕ) a :=
  rowHalf1_emb (k0_off54 L) (k0_off54_inb L h) (wid L) (k0_off54_eq L) 8192 inb_S16384_S8192_8192 y a

/-- The first half: row w, columns below 8192. -/
theorem mem_e1half0 (h : k0_cond1 L = 1#1) (j : S26x16384.Idx) :
    j ∈ (e1Half0 L h).view.set ↔ (j 0).val = wid L ∧ (j 1).val < 8192 := by
  constructor
  · intro hj
    obtain ⟨y, -, rfl⟩ := Finset.mem_map.mp hj
    have hy : (y 0).val < 8192 := (y 0).isLt
    exact ⟨e1half0_emb L h y 0, (e1half0_emb L h y 1).trans_lt hy⟩
  · rintro ⟨h0, h1⟩
    refine Finset.mem_map.mpr ⟨ix1 (⟨(j 1).val, h1⟩ : Fin 8192), Finset.mem_univ _, ?_⟩
    funext a
    match a with
    | ⟨0, _⟩ => exact Fin.ext ((e1half0_emb L h _ 0).trans h0.symm)
    | ⟨1, _⟩ => exact Fin.ext (e1half0_emb L h _ 1)

/-- The second half: row w, columns from 8192. -/
theorem mem_e1half1 (h : k0_cond1 L = 1#1) (j : S26x16384.Idx) :
    j ∈ (e1Half1 L h).view.set ↔ (j 0).val = wid L ∧ 8192 ≤ (j 1).val := by
  constructor
  · intro hj
    obtain ⟨y, -, rfl⟩ := Finset.mem_map.mp hj
    refine ⟨e1half1_emb L h y 0, ?_⟩
    have h' := e1half1_emb L h y 1
    change _ = 8192 + (y 0).val at h'
    omega
  · rintro ⟨h0, h1⟩
    have hj1 : (j 1).val < 16384 := (j 1).isLt
    refine Finset.mem_map.mpr ⟨ix1 (⟨(j 1).val - 8192, by omega⟩ : Fin 8192), Finset.mem_univ _, ?_⟩
    funext a
    match a with
    | ⟨0, _⟩ => exact Fin.ext ((e1half1_emb L h _ 0).trans h0.symm)
    | ⟨1, _⟩ => exact Fin.ext ((e1half1_emb L h _ 1).trans (by show 8192 + ((j 1).val - 8192) = (j 1).val; omega))

/-- The tile's row of the [26, 16384] result: row w. -/
theorem mem_e1Row (hw : wid L < 26) (j : S26x16384.Idx) : j ∈ e1Region L ↔ (j 0).val = wid L := by
  have h1 : (j 1).val < 16384 := (j 1).isLt
  have hs : ((e1W : Memref sig .scVector .hbm S26x16384 .f32).view.slice (Rect.unit (s := S26x16384) ![wid L, 0] ![1, 16384] (e1Row_inb L hw))).set
      = (Rect.unit (s := S26x16384) ![wid L, 0] ![1, 16384] (e1Row_inb L hw)).set := View.set_slice_whole _ _
  have hm : j ∈ e1Region L ↔ j ∈ (Rect.unit (s := S26x16384) ![wid L, 0] ![1, 16384] (e1Row_inb L hw)).set := by
    unfold e1Region
    rw [dif_pos hw]
    exact Eq.to_iff (congrArg (fun S : Finset S26x16384.Idx => j ∈ S) hs)
  rw [hm, Rect.mem_set_unit]
  constructor
  · intro h'
    have h0 := h' 0
    change wid L ≤ (j 0).val ∧ (j 0).val < wid L + 1 at h0
    omega
  · intro h' a
    match a with
    | ⟨0, _⟩ => show wid L ≤ (j 0).val ∧ (j 0).val < wid L + 1; omega
    | ⟨1, _⟩ => exact ⟨Nat.zero_le _, by show (j 1).val < 0 + 16384; omega⟩

theorem e1Half0_sub (h : k0_cond1 L = 1#1) : (e1Half0 L h).view.set ⊆ e1Region L := by
  intro j hj
  rw [mem_e1half0] at hj
  rw [mem_e1Row L (wid_lt_of_cond L h)]
  exact hj.1
theorem e1Half1_sub (h : k0_cond1 L = 1#1) : (e1Half1 L h).view.set ⊆ e1Region L := by
  intro j hj
  rw [mem_e1half1] at hj
  rw [mem_e1Row L (wid_lt_of_cond L h)]
  exact hj.1

/-- The indices copied into the scratch name table rows. -/
theorem iv_copy_lt1 (f2 : Buf (Elt F) (ixLoc d)) (hix : IdxOK d f2) (I0 : Buf (Elt F) ((thrV d L).loc cc0_scratch1)) (h : k0_cond1 L = 1#1) :
    ∀ j, (((View.write (Elt F) (ivW : Memref sig .scVector .vmem S128x128 .i32).view I0 (ReadAs.same.apply (View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2)) Finset.univ)) j : BitVec 32).toNat < 100000 := by
  intro j
  refine lt_of_eq_of_lt (congrArg BitVec.toNat (iv_copy_apply d L I0 _ j)) ?_
  show ((View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2 j : BitVec 32)).toNat < 100000
  rw [View.read_apply, cast_eq]
  exact hix _

/-- Thirteen planes done: the tile's rows are the gathered rows. -/
theorem e2_fin (f4 : Buf (Elt F) (t2Loc d)) (f2 : Buf (Elt F) (ixLoc d)) (g : Buf (Elt F) (e2Loc d)) (hg : E2Done d L f4 f2 13 g) :
    ∀ j ∈ e2Region L, g j = e2Tgt d f4 f2 j := by
  intro j hj
  exact hg j hj ((mem_e2Rows L j).mp hj).2

variable [FloatOps F]

omit [FloatOps F] in
/-- Where the first-order table's row memref (row w) puts its position n: at row w, column n. -/
theorem t1row_emb (h : k0_cond1 L = 1#1) (n : S100000.Idx) (a : Fin 2) :
    ((((t1W : Memref sig .scVector .hbm S26x100000 .f32).slice (Rect.unit (s := S26x100000) (k0_off37 L) S1x100000.size (k0_off37_inb L h)) (fun _ => rfl)).squeeze S100000 squeezes_S1x100000_S100000).view.emb n a).val = (![wid L, (n 0).val] : Fin 2 → ℕ) a := by
  have hoff : k0_off37 L = ![wid L, 0] := k0_off37_eq L
  have hre : Shape.reshapeEquiv (s := S1x100000) (s' := S100000) squeezes_S1x100000_S100000.numel_eq n = ix2 (0 : Fin 1) (⟨(n 0).val, (n 0).isLt⟩ : Fin 100000) :=
    Shape.reshapeEquiv_eq_of_rowMajor _ (by
      rw [Shape.rowMajor_val_two, Shape.rowMajor_val_one]
      show 0 * 100000 + (n 0).val = (n 0).val
      omega)
  match a with
  | ⟨0, _⟩ =>
    show k0_off37 L 0 + 1 * (Shape.reshapeEquiv (s := S1x100000) (s' := S100000) squeezes_S1x100000_S100000.numel_eq n 0).val = wid L
    rw [hre, hoff]; show wid L + 1 * 0 = _; omega
  | ⟨1, _⟩ =>
    show k0_off37 L 1 + 1 * (Shape.reshapeEquiv (s := S1x100000) (s' := S100000) squeezes_S1x100000_S100000.numel_eq n 1).val = (n 0).val
    rw [hre, hoff]; show 0 + 1 * (n 0).val = _; omega

omit [FloatOps F] in
/-- The table-row scratch after the copy in: entry n is the first-order table's entry (w, n). -/
theorem PK1_apply (f5 : Buf (Elt F) (t1Loc d)) (h : k0_cond1 L = 1#1) (P0 : Buf (Elt F) ((thrV d L).loc cc0_scratch0)) (n : S100000.Idx) :
    (View.write (Elt F) (plW : Memref sig .scVector .vmem S100000 .f32).view P0 (ReadAs.same.apply (View.read (Elt F) (((t1W : Memref sig .scVector .hbm S26x100000 .f32).slice (Rect.unit (s := S26x100000) (k0_off37 L) S1x100000.size (k0_off37_inb L h)) (fun _ => rfl)).squeeze S100000 squeezes_S1x100000_S100000).view f5)) Finset.univ) n
      = f5 (ix2 (⟨wid L, wid_lt_of_cond L h⟩ : Fin 26) (n 0)) := by
  refine (pl_copy_apply d L P0 _ n).trans ?_
  show View.read (Elt F) (((t1W : Memref sig .scVector .hbm S26x100000 .f32).slice (Rect.unit (s := S26x100000) (k0_off37 L) S1x100000.size (k0_off37_inb L h)) (fun _ => rfl)).squeeze S100000 squeezes_S1x100000_S100000).view f5 n = _
  rw [View.read_apply, cast_eq]
  refine congrArg f5 ?_
  funext a
  match a with
  | ⟨0, _⟩ => exact Fin.ext (t1row_emb L h n 0)
  | ⟨1, _⟩ => exact Fin.ext (t1row_emb L h n 1)

omit [FloatOps F] in
/-- Where the index-plane memref (field w of the index array) puts its position (p, q). -/
theorem ixplane1_emb (h : k0_cond1 L = 1#1) (x : S128x128.Idx) (a : Fin 3) :
    ((((ixW : Memref sig .scVector .hbm S26x128x128 .i32).slice (Rect.unit (s := S26x128x128) (k0_off36 L) S1x128x128.size (k0_off36_inb L h)) (fun _ => rfl)).squeeze S128x128 squeezes_S1x128x128_S128x128).view.emb x a).val = (![wid L, (x 0).val, (x 1).val] : Fin 3 → ℕ) a := by
  have hoff : k0_off36 L = ![wid L, 0, 0] := k0_off36_eq L
  have hre : Shape.reshapeEquiv (s := S1x128x128) (s' := S128x128) squeezes_S1x128x128_S128x128.numel_eq x = ix3 (0 : Fin 1) (⟨(x 0).val, (x 0).isLt⟩ : Fin 128) (⟨(x 1).val, (x 1).isLt⟩ : Fin 128) :=
    Shape.reshapeEquiv_eq_of_rowMajor _ (by
      rw [Shape.rowMajor_val_three, Shape.rowMajor_val_two]
      show (0 * 128 + (x 0).val) * 128 + (x 1).val = (x 0).val * 128 + (x 1).val
      omega)
  match a with
  | ⟨0, _⟩ =>
    show k0_off36 L 0 + 1 * (Shape.reshapeEquiv (s := S1x128x128) (s' := S128x128) squeezes_S1x128x128_S128x128.numel_eq x 0).val = wid L
    rw [hre, hoff]; show wid L + 1 * 0 = _; omega
  | ⟨1, _⟩ =>
    show k0_off36 L 1 + 1 * (Shape.reshapeEquiv (s := S1x128x128) (s' := S128x128) squeezes_S1x128x128_S128x128.numel_eq x 1).val = (x 0).val
    rw [hre, hoff]; show 0 + 1 * (x 0).val = _; omega
  | ⟨2, _⟩ =>
    show k0_off36 L 2 + 1 * (Shape.reshapeEquiv (s := S1x128x128) (s' := S128x128) squeezes_S1x128x128_S128x128.numel_eq x 2).val = (x 1).val
    rw [hre, hoff]; show 0 + 1 * (x 1).val = _; omega

omit [FloatOps F] in
/-- The index scratch after the copy in: word (p, q) is the index array's word (w, p, q). -/
theorem IK1_apply (f2 : Buf (Elt F) (ixLoc d)) (h : k0_cond1 L = 1#1) (I0 : Buf (Elt F) ((thrV d L).loc cc0_scratch1)) (x : S128x128.Idx) :
    (View.write (Elt F) (ivW : Memref sig .scVector .vmem S128x128 .i32).view I0 (ReadAs.same.apply (View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2)) Finset.univ) x
      = f2 (ix3 (⟨wid L, wid_lt_of_cond L h⟩ : Fin 26) (x 0) (x 1)) := by
  refine (iv_copy_apply d L I0 _ x).trans ?_
  show View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2 x = _
  rw [View.read_apply, cast_eq]
  refine congrArg f2 ?_
  funext a
  match a with
  | ⟨0, _⟩ => exact Fin.ext (ixplane1_emb L h x 0)
  | ⟨1, _⟩ => exact Fin.ext (ixplane1_emb L h x 1)
  | ⟨2, _⟩ => exact Fin.ext (ixplane1_emb L h x 2)

omit [FloatOps F] in
/-- A position of a gathered half row (the half starting at column 128 base) is the result's entry at row w and that
    column. -/
theorem half_val1 (f5 : Buf (Elt F) (t1Loc d)) (f2 : Buf (Elt F) (ixLoc d)) (h : k0_cond1 L = 1#1)
    (P0 : Buf (Elt F) ((thrV d L).loc cc0_scratch0)) (I0 : Buf (Elt F) ((thrV d L).loc cc0_scratch1))
    (base : ℕ) (hbase : base = 0 ∨ base = 64) (fo : Buf (Elt F) ((thrV d L).loc cc0_scratch2))
    (hfo : OvDone d L (View.write (Elt F) (plW : Memref sig .scVector .vmem S100000 .f32).view P0 (ReadAs.same.apply (View.read (Elt F) (((t1W : Memref sig .scVector .hbm S26x100000 .f32).slice (Rect.unit (s := S26x100000) (k0_off37 L) S1x100000.size (k0_off37_inb L h)) (fun _ => rfl)).squeeze S100000 squeezes_S1x100000_S100000).view f5)) Finset.univ) (View.write (Elt F) (ivW : Memref sig .scVector .vmem S128x128 .i32).view I0 (ReadAs.same.apply (View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2)) Finset.univ) base 64 fo)
    (y : S8192.Idx) (j : S26x16384.Idx) (hj0 : (j 0).val = wid L) (hj1 : (j 1).val = 128 * base + (y 0).val) :
    fo y = e1Tgt d f5 f2 j := by
  have hy : (y 0).val < 8192 := (y 0).isLt
  rw [hfo y (by omega), PK1_apply d L f5 h, IK1_apply d L f2 h]
  unfold e1Tgt ixAt
  refine congrArg f5 ?_
  funext a
  match a with
  | ⟨0, _⟩ => exact Fin.ext hj0.symm
  | ⟨1, _⟩ =>
    refine congrArg capIdx (congrArg f2 ?_)
    funext b
    match b with
    | ⟨0, _⟩ => exact Fin.ext hj0.symm
    | ⟨1, _⟩ => exact Fin.ext (show (base + (y 0).val / 128) % 128 = (j 1).val / 128 by rcases hbase with rfl | rfl <;> omega)
    | ⟨2, _⟩ => exact Fin.ext (show (y 0).val % 128 = (j 1).val % 128 by rcases hbase with rfl | rfl <;> omega)

omit [FloatOps F] in
theorem e1half0_writes_at (h : k0_cond1 L = 1#1) (G : Buf (Elt F) (e1Loc d)) (w : S8192.Idx → Elt F .f32) (y : S8192.Idx) :
    (e1Half0 L h).view.writes (Elt F) G [⟨Rect.whole S8192, w⟩] ((e1Half0 L h).view.emb y) = w y :=
  ((View.read_apply _ _).trans (cast_eq _ _)).symm.trans (writes_whole_at (e1Half0 L h).view G w y)

omit [FloatOps F] in
theorem e1half1_writes_at (h : k0_cond1 L = 1#1) (G : Buf (Elt F) (e1Loc d)) (w : S8192.Idx → Elt F .f32) (y : S8192.Idx) :
    (e1Half1 L h).view.writes (Elt F) G [⟨Rect.whole S8192, w⟩] ((e1Half1 L h).view.emb y) = w y :=
  ((View.read_apply _ _).trans (cast_eq _ _)).symm.trans (writes_whole_at (e1Half1 L h).view G w y)

/-- After the section, row w of the [26, 16384] result is the gathered row. -/
theorem e1Done_fin (f5 : Buf (Elt F) (t1Loc d)) (f2 : Buf (Elt F) (ixLoc d)) (hix : IdxOK d f2) (h : k0_cond1 L = 1#1)
    (g : Buf (Elt F) (e1Loc d))
    (P0 : Buf (Elt F) ((thrV d L).loc cc0_scratch0)) (I0 : Buf (Elt F) ((thrV d L).loc cc0_scratch1))
    (f1 f3 : Buf (Elt F) ((thrV d L).loc cc0_scratch2))
    (hf1 : OvDone d L (View.write (Elt F) (plW : Memref sig .scVector .vmem S100000 .f32).view P0 (ReadAs.same.apply (View.read (Elt F) (((t1W : Memref sig .scVector .hbm S26x100000 .f32).slice (Rect.unit (s := S26x100000) (k0_off37 L) S1x100000.size (k0_off37_inb L h)) (fun _ => rfl)).squeeze S100000 squeezes_S1x100000_S100000).view f5)) Finset.univ) (View.write (Elt F) (ivW : Memref sig .scVector .vmem S128x128 .i32).view I0 (ReadAs.same.apply (View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2)) Finset.univ) 0 64 f1)
    (hf3 : OvDone d L (View.write (Elt F) (plW : Memref sig .scVector .vmem S100000 .f32).view P0 (ReadAs.same.apply (View.read (Elt F) (((t1W : Memref sig .scVector .hbm S26x100000 .f32).slice (Rect.unit (s := S26x100000) (k0_off37 L) S1x100000.size (k0_off37_inb L h)) (fun _ => rfl)).squeeze S100000 squeezes_S1x100000_S100000).view f5)) Finset.univ) (View.write (Elt F) (ivW : Memref sig .scVector .vmem S128x128 .i32).view I0 (ReadAs.same.apply (View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2)) Finset.univ) 64 64 f3) :
    ∀ j ∈ e1Region L,
      (((e1Half1 L h).view.set).piecewise
        ((e1Half1 L h).view.writes (Elt F) (((e1Half0 L h).view.set).piecewise ((e1Half0 L h).view.writes (Elt F) (e1Half0 L h).view.junk [⟨Rect.whole S8192, ReadAs.same.apply (View.read (Elt F) (ovW : Memref sig .scVector .vmem S8192 .f32).view f1)⟩]) g) [⟨Rect.whole S8192, ReadAs.same.apply (View.read (Elt F) (ovW : Memref sig .scVector .vmem S8192 .f32).view f3)⟩])
        (((e1Half0 L h).view.set).piecewise ((e1Half0 L h).view.writes (Elt F) (e1Half0 L h).view.junk [⟨Rect.whole S8192, ReadAs.same.apply (View.read (Elt F) (ovW : Memref sig .scVector .vmem S8192 .f32).view f1)⟩]) g)) j = e1Tgt d f5 f2 j := by
  intro j hj
  have hrow : (j 0).val = wid L := (mem_e1Row L (wid_lt_of_cond L h) j).mp hj
  by_cases hb : (j 1).val < 8192
  · have h1 : j ∉ (e1Half1 L h).view.set := fun h' => by have := ((mem_e1half1 L h j).mp h').2; omega
    have h0 : j ∈ (e1Half0 L h).view.set := (mem_e1half0 L h j).mpr ⟨hrow, hb⟩
    refine (Finset.piecewise_eq_of_notMem _ _ _ h1).trans ?_
    refine (Finset.piecewise_eq_of_mem _ _ _ h0).trans ?_
    obtain ⟨y, -, rfl⟩ := Finset.mem_map.mp h0
    refine (e1half0_writes_at d L h _ _ y).trans ?_
    exact half_val1 d L f5 f2 h P0 I0 0 (Or.inl rfl) f1 hf1 y _ hrow
      ((e1half0_emb L h y 1).trans (by show (y 0).val = 128 * 0 + (y 0).val; omega))
  · have h1 : j ∈ (e1Half1 L h).view.set := (mem_e1half1 L h j).mpr ⟨hrow, by omega⟩
    refine (Finset.piecewise_eq_of_mem _ _ _ h1).trans ?_
    obtain ⟨y, -, rfl⟩ := Finset.mem_map.mp h1
    refine (e1half1_writes_at d L h _ _ y).trans ?_
    exact half_val1 d L f5 f2 h P0 I0 64 (Or.inr rfl) f3 hf3 y _ hrow
      ((e1half1_emb L h y 1).trans (by show 8192 + (y 0).val = 128 * 64 + (y 0).val; omega))

end Cert.Proof.Bt

end
-- ==== Proof.TileOpenBt.lean ====
/-
  A vector subcore's own semaphores and buffers, opened at the seven DMA semaphores and the three scratch buffers the
  task uses; the rest stays closed.
-/
import proofs.«205279_g68771016344126_cont_9to1_m_1330_15_alg».proof.Proof.CommonBt
import proofs.«205279_g68771016344126_cont_9to1_m_1330_15_alg».proof.Proof.TileDefsBt

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- The subcore's own semaphore counters: the task's seven, each at zero, and the others. -/
theorem ownSems0_V :
    (ownSems0 (thrV d L) : sProp 𝕄)
      = iprop(semVal (semCell d L cc0_scratch3.sem) 0 ∗ semVal (semCell d L cc0_scoped0.sem) 0 ∗ semVal (semCell d L cc0_scoped1.sem) 0 ∗ semVal (semCell d L cc0_scoped2.sem) 0 ∗ semVal (semCell d L cc0_scoped3.sem) 0 ∗ semVal (semCell d L cc0_scoped4.sem) 0 ∗ semVal (semCell d L cc0_scoped5.sem) 0
          ∗ bigSep ((((((((ownCells (thrV d L)).erase (semCell d L cc0_scratch3.sem)).erase (semCell d L cc0_scoped0.sem)).erase (semCell d L cc0_scoped1.sem)).erase (semCell d L cc0_scoped2.sem)).erase (semCell d L cc0_scoped3.sem)).erase (semCell d L cc0_scoped4.sem)).erase (semCell d L cc0_scoped5.sem)) fun g => semVal g 0) := by
  unfold SparseCore.Cfg.ownSems0
  rw [SparseCore.bigSep_erase' ((mem_ownCells (g := (semCell d L cc0_scratch3.sem))).mpr ⟨rfl, by show (SemLoc.dma cc0_scratch3.sem : SemLoc sig).isScoped .scVector = true; decide⟩),
    SparseCore.bigSep_erase' (Finset.mem_erase.mpr ⟨(fun e => absurd (SemLoc.dma.inj (Prod.mk.inj e).2) (show (cc0_scoped0.sem : DmaSem sig) ≠ cc0_scratch3.sem by decide)), ((mem_ownCells (g := (semCell d L cc0_scoped0.sem))).mpr ⟨rfl, by show (SemLoc.dma cc0_scoped0.sem : SemLoc sig).isScoped .scVector = true; decide⟩)⟩),
    SparseCore.bigSep_erase' (Finset.mem_erase.mpr ⟨(fun e => absurd (SemLoc.dma.inj (Prod.mk.inj e).2) (show (cc0_scoped1.sem : DmaSem sig) ≠ cc0_scoped0.sem by decide)), (Finset.mem_erase.mpr ⟨(fun e => absurd (SemLoc.dma.inj (Prod.mk.inj e).2) (show (cc0_scoped1.sem : DmaSem sig) ≠ cc0_scratch3.sem by decide)), ((mem_ownCells (g := (semCell d L cc0_scoped1.sem))).mpr ⟨rfl, by show (SemLoc.dma cc0_scoped1.sem : SemLoc sig).isScoped .scVector = true; decide⟩)⟩)⟩),
    SparseCore.bigSep_erase' (Finset.mem_erase.mpr ⟨(fun e => absurd (SemLoc.dma.inj (Prod.mk.inj e).2) (show (cc0_scoped2.sem : DmaSem sig) ≠ cc0_scoped1.sem by decide)), (Finset.mem_erase.mpr ⟨(fun e => absurd (SemLoc.dma.inj (Prod.mk.inj e).2) (show (cc0_scoped2.sem : DmaSem sig) ≠ cc0_scoped0.sem by decide)), (Finset.mem_erase.mpr ⟨(fun e => absurd (SemLoc.dma.inj (Prod.mk.inj e).2) (show (cc0_scoped2.sem : DmaSem sig) ≠ cc0_scratch3.sem by decide)), ((mem_ownCells (g := (semCell d L cc0_scoped2.sem))).mpr ⟨rfl, by show (SemLoc.dma cc0_scoped2.sem : SemLoc sig).isScoped .scVector = true; decide⟩)⟩)⟩)⟩),
    SparseCore.bigSep_erase' (Finset.mem_erase.mpr ⟨(fun e => absurd (SemLoc.dma.inj (Prod.mk.inj e).2) (show (cc0_scoped3.sem : DmaSem sig) ≠ cc0_scoped2.sem by decide)), (Finset.mem_erase.mpr ⟨(fun e => absurd (SemLoc.dma.inj (Prod.mk.inj e).2) (show (cc0_scoped3.sem : DmaSem sig) ≠ cc0_scoped1.sem by decide)), (Finset.mem_erase.mpr ⟨(fun e => absurd (SemLoc.dma.inj (Prod.mk.inj e).2) (show (cc0_scoped3.sem : DmaSem sig) ≠ cc0_scoped0.sem by decide)), (Finset.mem_erase.mpr ⟨(fun e => absurd (SemLoc.dma.inj (Prod.mk.inj e).2) (show (cc0_scoped3.sem : DmaSem sig) ≠ cc0_scratch3.sem by decide)), ((mem_ownCells (g := (semCell d L cc0_scoped3.sem))).mpr ⟨rfl, by show (SemLoc.dma cc0_scoped3.sem : SemLoc sig).isScoped .scVector = true; decide⟩)⟩)⟩)⟩)⟩),
    SparseCore.bigSep_erase' (Finset.mem_erase.mpr ⟨(fun e => absurd (SemLoc.dma.inj (Prod.mk.inj e).2) (show (cc0_scoped4.sem : DmaSem sig) ≠ cc0_scoped3.sem by decide)), (Finset.mem_erase.mpr ⟨(fun e => absurd (SemLoc.dma.inj (Prod.mk.inj e).2) (show (cc0_scoped4.sem : DmaSem sig) ≠ cc0_scoped2.sem by decide)), (Finset.mem_erase.mpr ⟨(fun e => absurd (SemLoc.dma.inj (Prod.mk.inj e).2) (show (cc0_scoped4.sem : DmaSem sig) ≠ cc0_scoped1.sem by decide)), (Finset.mem_erase.mpr ⟨(fun e => absurd (SemLoc.dma.inj (Prod.mk.inj e).2) (show (cc0_scoped4.sem : DmaSem sig) ≠ cc0_scoped0.sem by decide)), (Finset.mem_erase.mpr ⟨(fun e => absurd (SemLoc.dma.inj (Prod.mk.inj e).2) (show (cc0_scoped4.sem : DmaSem sig) ≠ cc0_scratch3.sem by decide)), ((mem_ownCells (g := (semCell d L cc0_scoped4.sem))).mpr ⟨rfl, by show (SemLoc.dma cc0_scoped4.sem : SemLoc sig).isScoped .scVector = true; decide⟩)⟩)⟩)⟩)⟩)⟩),
    SparseCore.bigSep_erase' (Finset.mem_erase.mpr ⟨(fun e => absurd (SemLoc.dma.inj (Prod.mk.inj e).2) (show (cc0_scoped5.sem : DmaSem sig) ≠ cc0_scoped4.sem by decide)), (Finset.mem_erase.mpr ⟨(fun e => absurd (SemLoc.dma.inj (Prod.mk.inj e).2) (show (cc0_scoped5.sem : DmaSem sig) ≠ cc0_scoped3.sem by decide)), (Finset.mem_erase.mpr ⟨(fun e => absurd (SemLoc.dma.inj (Prod.mk.inj e).2) (show (cc0_scoped5.sem : DmaSem sig) ≠ cc0_scoped2.sem by decide)), (Finset.mem_erase.mpr ⟨(fun e => absurd (SemLoc.dma.inj (Prod.mk.inj e).2) (show (cc0_scoped5.sem : DmaSem sig) ≠ cc0_scoped1.sem by decide)), (Finset.mem_erase.mpr ⟨(fun e => absurd (SemLoc.dma.inj (Prod.mk.inj e).2) (show (cc0_scoped5.sem : DmaSem sig) ≠ cc0_scoped0.sem by decide)), (Finset.mem_erase.mpr ⟨(fun e => absurd (SemLoc.dma.inj (Prod.mk.inj e).2) (show (cc0_scoped5.sem : DmaSem sig) ≠ cc0_scratch3.sem by decide)), ((mem_ownCells (g := (semCell d L cc0_scoped5.sem))).mpr ⟨rfl, by show (SemLoc.dma cc0_scoped5.sem : SemLoc sig).isScoped .scVector = true; decide⟩)⟩)⟩)⟩)⟩)⟩)⟩)]

/-- The subcore's own buffers: the three scratch buffers, at some contents, and the others. -/
theorem ownBufs_V :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨(fun e => absurd (Proc.devRef_injective _ e) (show (cc0_scratch1 : Ref sig .scVector) ≠ cc0_scratch0 by decide)), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨(fun e => absurd (Proc.devRef_injective _ e) (show (cc0_scratch2 : Ref sig .scVector) ≠ cc0_scratch1 by decide)), (Finset.mem_erase.mpr ⟨(fun e => absurd (Proc.devRef_injective _ e) (show (cc0_scratch2 : Ref sig .scVector) ≠ cc0_scratch0 by decide)), (SparseCore.Cfg.mem_ownRefs_of_owner (p := Proc.scVector (cV L) (jV L)) (b := ((Proc.scVector (cV L) (jV L)).devRef cc0_scratch2)) rfl)⟩)⟩)]

end Cert.Proof.Bt

end
-- ==== Proof.TileBodyBt.lean ====
/-
  The tile's whole task: thirteen planes of the [416, 16384] result, then, for the tile numbers below 26, one row of the
  [26, 16384] result; what the tile was handed comes back with its rows at the gathered rows.
-/
import proofs.«205279_g68771016344126_cont_9to1_m_1330_15_alg».proof.Proof.CommonBt
import proofs.«205279_g68771016344126_cont_9to1_m_1330_15_alg».proof.Proof.TileT1Bt
import proofs.«205279_g68771016344126_cont_9to1_m_1330_15_alg».proof.Proof.TileT4Bt
import proofs.«205279_g68771016344126_cont_9to1_m_1330_15_alg».proof.Proof.TileT5Bt
import proofs.«205279_g68771016344126_cont_9to1_m_1330_15_alg».proof.Proof.TileVal1Bt
import proofs.«205279_g68771016344126_cont_9to1_m_1330_15_alg».proof.Proof.TileOpenBt
import proofs.«205279_g68771016344126_cont_9to1_m_1330_15_alg».proof.Proof.LaunchPayBt

noncomputable section

namespace Cert.Proof.Bt

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx
variable [FloatOps F]

section Body

variable (d : Dev nD)

omit [FloatOps F] in
theorem trips_t1 : Scf.trips k0_t1_loop.lb k0_t1_loop.ub k0_t1_loop.st = 13 := by decide
omit [FloatOps F] in
theorem trips_t4 (L : grid0.Coords) : Scf.trips k0_t4_loop.lb k0_t4_loop.ub k0_t4_loop.st = 64 := by decide
omit [FloatOps F] in
theorem trips_t5 (L : grid0.Coords) : Scf.trips k0_t5_loop.lb k0_t5_loop.ub k0_t5_loop.st = 64 := by decide

omit [FloatOps F] in
theorem pts_t1 (L : grid0.Coords) (f5 : Buf (Elt F) (t1Loc d)) :
    ((t1Loc d ↦{Transfers.shareTokN fullShare (wid L)} f5 : sProp 𝕄))
      = ((t1W : Memref sig .scVector .hbm S26x100000 .f32).view.loc (thrV d L) ↦{Transfers.shareTokN fullShare (wid L)} f5) := rfl

/-- The last section's value step, over names for the scratch contents and the first half's result. -/
theorem e1Done_fin' (L : grid0.Coords) (f5 : Buf (Elt F) (t1Loc d)) (f2 : Buf (Elt F) (ixLoc d)) (hix : IdxOK d f2) (h : k0_cond1 L = 1#1)
    (g : Buf (Elt F) (e1Loc d))
    (P0 : Buf (Elt F) ((thrV d L).loc cc0_scratch0)) (I0 : Buf (Elt F) ((thrV d L).loc cc0_scratch1))
    (f1 f3 : Buf (Elt F) ((thrV d L).loc cc0_scratch2))
    (Pk : Buf (Elt F) ((thrV d L).loc cc0_scratch0)) (Ik : Buf (Elt F) ((thrV d L).loc cc0_scratch1)) (gA : Buf (Elt F) (e1Loc d))
    (hPk : (View.write (Elt F) (plW : Memref sig .scVector .vmem S100000 .f32).view P0 (ReadAs.same.apply (View.read (Elt F) (((t1W : Memref sig .scVector .hbm S26x100000 .f32).slice (Rect.unit (s := S26x100000) (k0_off37 L) S1x100000.size (k0_off37_inb L h)) (fun _ => rfl)).squeeze S100000 squeezes_S1x100000_S100000).view f5)) Finset.univ) = Pk) (hIk : (View.write (Elt F) (ivW : Memref sig .scVector .vmem S128x128 .i32).view I0 (ReadAs.same.apply (View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2)) Finset.univ) = Ik) (hgA : (((e1Half0 L h).view.set).piecewise ((e1Half0 L h).view.writes (Elt F) (e1Half0 L h).view.junk [⟨Rect.whole S8192, ReadAs.same.apply (View.read (Elt F) (ovW : Memref sig .scVector .vmem S8192 .f32).view f1)⟩]) g) = gA)
    (hf1 : OvDone d L Pk Ik 0 64 f1) (hf3 : OvDone d L Pk Ik 64 64 f3) :
    ∀ j ∈ e1Region L,
      (((e1Half1 L h).view.set).piecewise
        ((e1Half1 L h).view.writes (Elt F) gA [⟨Rect.whole S8192, ReadAs.same.apply (View.read (Elt F) (ovW : Memref sig .scVector .vmem S8192 .f32).view f3)⟩])
        gA) j = e1Tgt d f5 f2 j := by
  subst hPk hIk hgA
  exact e1Done_fin d L f5 f2 hix h g P0 I0 f1 f3 hf1 hf3

set_option maxHeartbeats 16000000 in
theorem tile_body (hF : (K (F := F)).Facts) (f4 : Buf (Elt F) (t2Loc d)) (f5 : Buf (Elt F) (t1Loc d)) (f2 : Buf (Elt F) (ixLoc d))
    (hix : IdxOK d f2) (L : grid0.Coords) (O : CellTallies nD τ sig (HIx 1)) (W : Waits sig (HIx 1)) (hO : ∀ g, O g none = 0) :
    iprop(levAts (K (F := F)).L (K (F := F)).lev ∗ emp ∗ TileIn d f4 f5 f2 L
        ∗ scopedBufs (thrV d L) ∗ scopedSems0 (thrV d L) ∗ owes (thrV d L) O W)
      ⊢ wp frame (wpE (defs₀ (F := F)) 𝒱₀ (thrV d L) none) Set.univ
          (cc0__sc_gather_body L t2W (Memref.isWhole_whole _) t1W (Memref.isWhole_whole _) ixW (Memref.isWhole_whole _) e2W (Memref.isWhole_whole _) e1W (Memref.isWhole_whole _) plW (Memref.isWhole_whole _) ivW (Memref.isWhole_whole _) ovW (Memref.isWhole_whole _) cc0_scratch3 cc0_scoped0 cc0_scoped1 cc0_scoped2 cc0_scoped3 cc0_scoped4 cc0_scoped5)
          fun _ => iprop(TileOut d f4 f5 f2 L ∗ scopedBufs (thrV d L) ∗ scopedSems0 (thrV d L)
            ∗ ∃ W', ⌜∀ p ∈ W', p ∈ W ∨ p.2 = none⌝ ∗ owes (thrV d L) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  unfold TileIn
  iintro ⟨#Hlv, -, ⟨Ht2, Ht1, Hix, ⟨%g2, He2⟩, ⟨%g1, He1⟩⟩, ⟨⟨%fpl, Hpl⟩, ⟨%fiv, Hiv⟩, ⟨%fov, Hov⟩, Hbufs⟩, ⟨Hs3, Hc0, Hc1, Hc2, Hc3, Hc4, Hc5, Hsems⟩, HO⟩
  ihave Hmw := ((K (F := F)).mayWaits_none (thr := thrV d L) hO) $$ Hlv
  sl_exec
  sl_for (inv1 d L f4 f2 O W) $$ [Hmw Ht2 Hix He2 Hpl Hiv Hov Hs3 Hc0 Hc1 Hc2 HO]
  case region =>
    intro k _
    exact t1_trip d L f4 f2 hix O W k
  · unfold inv1
    isplitl [Hmw]; · iexact Hmw
    isplitl [Ht2]; · iexact Ht2
    isplitl [Hix]; · iexact Hix
    isplitl [He2]
    · iexists g2; isplitr
      · ipureintro; exact E2Done_zero' d L f4 f2 g2
      · iexact He2
    isplitl [Hpl]; · iexists _; iexact Hpl
    isplitl [Hiv]; · iexists _; iexact Hiv
    isplitl [Hov]; · iexists _; iexact Hov
    isplitl [Hs3]; · iexact Hs3
    isplitl [Hc0]; · iexact Hc0
    isplitl [Hc1]; · iexact Hc1
    isplitl [Hc2]; · iexact Hc2
    iexists W; isplitr
    · ipureintro; exact fun p hp => .inl hp
    · iexact HO
  iintro %_ HI
  unfold inv1
  icases HI with ⟨Hmw, Ht2, Hix, ⟨%g, %hg, He2⟩, ⟨%P0, Hpl⟩, ⟨%I0, Hiv⟩, ⟨%f0, Hov⟩, Hs3, Hc0, Hc1, Hc2, %W', %hW', HO⟩
  rw [trips_t1] at hg
  by_cases k0_h1 : k0_cond1 L = 1#1
  · ihave Ht1 := (Entails.of_eq (pts_t1 (F := F) d L f5)) $$ Ht1
    sl_exec
    have hI1 : ∀ j, ((View.write (Elt F) (ivW : Memref sig .scVector .vmem S128x128 .i32).view I0 (tile_body.sl.dma0 d f2 L k0_h1) Finset.univ) j : BitVec 32).toNat < 100000 := iv_copy_lt1 d L f2 hix I0 k0_h1
    generalize hPk : View.write (Elt F) (plW : Memref sig .scVector .vmem S100000 .f32).view P0 (tile_body.sl.dma0_1 d f5 L k0_h1) Finset.univ = Pk
    generalize hIk : View.write (Elt F) (ivW : Memref sig .scVector .vmem S128x128 .i32).view I0 (tile_body.sl.dma0 d f2 L k0_h1) Finset.univ = Ik at hI1
    sl_for (invG d L Pk Ik 0) $$ [Hpl Hiv Hov]
    case region =>
      intro k' _
      exact t4_trip d L k0_h1 k' _ _ hI1
    · unfold invG
      isplitl [Hpl]; · iexact Hpl
      isplitl [Hiv]; · iexact Hiv
      iexists f0; isplitr
      · ipureintro; exact OvDone_zero d L _ _ 0 f0
      · iexact Hov
    iintro %_ HI
    unfold invG
    icases HI with ⟨Hpl, Hiv, %f1, %hf1, Hov⟩
    ihave Hsp := (pointsTo_split_subset (e1Half0_sub L k0_h1)).1 $$ He1
    icases Hsp with ⟨Hd0, He1r⟩
    ihave Hd0' := (Entails.of_eq (pts_e1half0 (F := F) d L k0_h1 g1).symm) $$ Hd0
    sl_exec
    ihave Hd0 := (Entails.of_eq (pts_e1half0 (F := F) d L k0_h1 _)) $$ Hd0'
    ihave He1 := (pointsTo_join_subset (ℓ := e1Loc d) (e1Half0_sub L k0_h1)) $$ [Hd0 He1r]
    · isplitl [Hd0]; · iexact Hd0
      iexact He1r
    generalize hgA : ((e1Half0 L k0_h1).view.set).piecewise ((e1Half0 L k0_h1).view.writes (Elt F) (e1Half0 L k0_h1).view.junk [⟨Rect.whole S8192, tile_body.sl.dma0_2 d L f1⟩]) g1 = gA
    sl_for (invG d L Pk Ik 64) $$ [Hpl Hiv Hov]
    case region =>
      intro k' _
      exact t5_trip d L k0_h1 k' _ _ hI1
    · unfold invG
      isplitl [Hpl]; · iexact Hpl
      isplitl [Hiv]; · iexact Hiv
      iexists f1; isplitr
      · ipureintro; exact OvDone_zero d L _ _ 64 f1
      · iexact Hov
    iintro %_ HI
    unfold invG
    icases HI with ⟨Hpl, Hiv, %f3, %hf3, Hov⟩
    ihave Hsp := (pointsTo_split_subset (e1Half1_sub L k0_h1)).1 $$ He1
    icases Hsp with ⟨Hd1, He1r⟩
    ihave Hd1' := (Entails.of_eq (pts_e1half1 (F := F) d L k0_h1 gA).symm) $$ Hd1
    sl_exec
    ihave Hd1 := (Entails.of_eq (pts_e1half1 (F := F) d L k0_h1 _)) $$ Hd1'
    ihave He1 := (pointsTo_join_subset (ℓ := e1Loc d) (e1Half1_sub L k0_h1)) $$ [Hd1 He1r]
    · isplitl [Hd1]; · iexact Hd1
      iexact He1r
    rw [trips_t4 L] at hf1
    rw [trips_t5 L] at hf3
    have he1 : ∀ j ∈ e1Region L, (((e1Half1 L k0_h1).view.set).piecewise ((e1Half1 L k0_h1).view.writes (Elt F) gA [⟨Rect.whole S8192, tile_body.sl.dma0_3 d L f3⟩]) gA) j = e1Tgt d f5 f2 j :=
      e1Done_fin' d L f5 f2 hix k0_h1 g1 P0 I0 f1 f3 Pk Ik gA hPk hIk hgA hf1 hf3
    ihave He1 := (Entails.of_eq (pointsTo_congr (ℓ := e1Loc d) (q := fullShare) he1)) $$ He1
    sl_step
    unfold TileOut
    ihave He2' := (Entails.of_eq (pointsTo_congr (ℓ := e2Loc d) (q := fullShare) (e2_fin d L f4 f2 g hg))) $$ He2
    isplitl [Ht2 Ht1 Hix He2' He1]
    · isplitl [Ht2]; · iexact Ht2
      isplitl [Ht1]; · iexact Ht1
      isplitl [Hix]; · iexact Hix
      isplitl [He2']; · iexact He2'
      iexact He1
    isplitl [Hpl Hiv Hov Hbufs]
    · isplitl [Hpl]; · iexists _; iexact Hpl
      isplitl [Hiv]; · iexists _; iexact Hiv
      isplitl [Hov]; · iexists _; iexact Hov
      iexact Hbufs
    isplitl [Hs3 Hc0 Hc1 Hc2 Hc3 Hc4 Hc5 Hsems]
    · isplitl [Hs3]; · iexact Hs3
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      iexact Hsems
    iexists _; isplitr
    swap
    · iexact HO
    · ipureintro; intro p hp
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      · exact hW' p hp
  · sl_exec
    have he1 : ∀ j ∈ e1Region L, g1 j = e1Tgt d f5 f2 j := fun j hj => absurd hj (by rw [e1Region_empty L k0_h1]; exact Finset.notMem_empty j)
    ihave He1 := (Entails.of_eq (pointsTo_congr (ℓ := e1Loc d) (q := fullShare) he1)) $$ He1
    sl_step
    unfold TileOut
    ihave He2' := (Entails.of_eq (pointsTo_congr (ℓ := e2Loc d) (q := fullShare) (e2_fin d L f4 f2 g hg))) $$ He2
    isplitl [Ht2 Ht1 Hix He2' He1]
    · isplitl [Ht2]; · iexact Ht2
      isplitl [Ht1]; · iexact Ht1
      isplitl [Hix]; · iexact Hix
      isplitl [He2']; · iexact He2'
      iexact He1
    isplitl [Hpl Hiv Hov Hbufs]
    · isplitl [Hpl]; · iexists _; iexact Hpl
      isplitl [Hiv]; · iexists _; iexact Hiv
      isplitl [Hov]; · iexists _; iexact Hov
      iexact Hbufs
    isplitl [Hs3 Hc0 Hc1 Hc2 Hc3 Hc4 Hc5 Hsems]
    · isplitl [Hs3]; · iexact Hs3
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      iexact Hsems
    iexists _; isplitr
    swap
    · iexact HO
    · ipureintro; intro p hp

      · exact hW' p hp

end Body

/-! ## The tile's task as the launch theorem takes it -/

/-! ## The tile's task as the launch theorem takes it -/

/-- The kernel's label on a vector subcore runs the gather body at that tile's coordinates. -/
theorem defs₀_vector (c : Fin τ.nSC) (s : Fin τ.nSub) :
    defs₀ (F := F) (.scVector c s) 0 ()
      = SparseCore.onTile hcore0 hsub0 (fun c s => cc0__sc_gather_body (coordsV c s)
          t2W (Memref.isWhole_whole _) t1W (Memref.isWhole_whole _) ixW (Memref.isWhole_whole _) e2W (Memref.isWhole_whole _) e1W (Memref.isWhole_whole _)
          plW (Memref.isWhole_whole _) ivW (Memref.isWhole_whole _) ovW (Memref.isWhole_whole _)
          cc0_scratch3 cc0_scoped0 cc0_scoped1 cc0_scoped2 cc0_scoped3 cc0_scoped4 cc0_scoped5) ⟨⟩ c s := rfl

omit [FloatOps F] in
/-- The body's recorded pairs are within what the task may record. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, from the body at a symbolic tile: the index array's words name table rows. -/
theorem tileObl (f4 : (d : Dev nD) → Buf (Elt F) (t2Loc d)) (f5 : (d : Dev nD) → Buf (Elt F) (t1Loc d)) (f2 : (d : Dev nD) → Buf (Elt F) (ixLoc d))
    (hix : ∀ d, IdxOK d (f2 d)) : (K (F := F)).TileObl (D (F := F)) 𝒱 (P f4 f5 f2) v₀ 0 := by
  intro d c i O W hO _ _
  -- the kernel owes nothing for a protocol of its own
  simp only [show (P f4 f5 f2).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d facts (f4 d) (f5 d) (f2 d) (hix d) (coordsV ⟨_, hc.1⟩ ⟨_, hc.2⟩) O W hO).trans (wp_mono frame _ _ fun _ => obl_post)

end Cert.Proof.Bt

end
-- ==== Proof.FinalRunBt.lean ====
/-
  The program's run from the precondition's index range: the launch, the tile's body obligation at the contents the
  host operations leave, and the index array's range read off the first argument's; and the same run with the result
  forgotten.
-/
import proofs.«205279_g68771016344126_cont_9to1_m_1330_15_alg».proof.Proof.CommonBt
import proofs.«205279_g68771016344126_cont_9to1_m_1330_15_alg».proof.Proof.HostOpsBt
import proofs.«205279_g68771016344126_cont_9to1_m_1330_15_alg».proof.Proof.TileResBt
import proofs.«205279_g68771016344126_cont_9to1_m_1330_15_alg».proof.Proof.LaunchPayBt
import proofs.«205279_g68771016344126_cont_9to1_m_1330_15_alg».proof.Proof.LaunchValsBt
import proofs.«205279_g68771016344126_cont_9to1_m_1330_15_alg».proof.Proof.LaunchRunBt
import proofs.«205279_g68771016344126_cont_9to1_m_1330_15_alg».proof.Proof.LaunchIdxBt
import proofs.«205279_g68771016344126_cont_9to1_m_1330_15_alg».proof.Proof.TileBodyBt

noncomputable section

namespace Cert.Proof.Bt

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The program's run. From a memory whose semaphores read zero and whose index words all name table rows: every
    weakly fair execution of the device's threads terminates, the result array holds RESULT of the launch memory, and
    every argument array is unchanged. -/
theorem run [∀ e, Nonempty (Elt F e)]
    (hpre : ∀ (d : Dev nD) i, (m ((d.tc : Thread nD τ).loc main_arg0) i : BitVec 32).toNat < 100000) :
    θ_run (Cert.Kernel.defs (F := F)) (Cert.Kernel.threads (F := F)) ⟨m, fun _ => 0, ρ⟩ (QC m) :=
  run_of_tile m ρ (tileObl (g4 m) (g5 m) (g2 m) (idxOK_of_pre m hpre))

/-- The same with the result forgotten: the frame. -/
theorem run_frame [∀ e, Nonempty (Elt F e)]
    (hpre : ∀ (d : Dev nD) i, (m ((d.tc : Thread nD τ).loc main_arg0) i : BitVec 32).toNat < 100000) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (Cert.Kernel.defs (F := F)) _ _).mono (fun _ h c => (h c).2) (run m ρ hpre)

end Cert.Proof.Bt

end
-- ==== Proof.AlgReal.lean ====
/-
  Reals inside the extended reals: which values of the computation are real numbers, and the three
  places where that matters. A square root of a sum of squares of reals is a real; the floored norm
  max (sqrt ss) eps is a real that is not zero, so dividing by it is multiplying by its reciprocal;
  and a real to the power 2.0 is its square (on the extended reals the power of minus infinity is
  minus infinity while its square is plus infinity, so realness is needed there).
-/
import proofs.«205279_g68771016344126_cont_9to1_m_1330_15_alg».proof.Proof.Spec
import Idealize.ShloMosaic.Lib.IdealHost

noncomputable section

open scoped BigOperators

namespace Cert.Alg

open Idealize.ShloMosaic Cert.Spec

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The coercion of a finite sum of reals is the sum of the coercions. -/
theorem coe_sum {ι : Type} (s : Finset ι) (r : ι → ℝ) : ((∑ i ∈ s, r i : ℝ) : EReal) = ∑ i ∈ s, (r i : EReal) := by
  classical
  refine Finset.induction_on s (by simp) (fun a s ha ih => ?_)
  rw [Finset.sum_insert ha, Finset.sum_insert ha, EReal.coe_add, ih]

/-! ## The literals -/

theorem cEPS_eq : cEPS = ((9223372 * (2 : ℝ) ^ (-63 : ℤ) : ℝ) : EReal) := by
  simp [Ideal.ofBits, Ideal.ieee, -EReal.coe_mul]
theorem cEPS_real : IsReal cEPS := ⟨_, cEPS_eq⟩
theorem cEPS_pos : (0 : EReal) < cEPS := by
  rw [cEPS_eq]; exact_mod_cast (by positivity : (0 : ℝ) < 9223372 * (2 : ℝ) ^ (-63 : ℤ))
theorem cTWO_eq : Ideal.ofBits .f32 0x40000000#32 = ((2 : ℝ) : EReal) := by
  simp [Ideal.ofBits, Ideal.ieee, -EReal.coe_mul]; norm_num
theorem cHALF_real : IsReal cHALF := ⟨_, by simp [Ideal.ofBits, Ideal.ieee, -EReal.coe_mul]; rfl⟩
theorem cBN_real : IsReal cBN := ⟨_, by simp [Ideal.ofBits, Ideal.ieee, -EReal.coe_mul]; rfl⟩
theorem cONE_eq : cONE = 1 := Ideal.ofBits_one_f32
theorem cZERO_eq : cZERO = 0 := Ideal.ofBits_zero_f32

/-! ## The norm -/

/-- The square root of a sum of squares of reals is a real. -/
theorem sqrt_sumsq_real {ι : Type} (s : Finset ι) (u : ι → EReal) (hu : ∀ i ∈ s, IsReal (u i)) :
    IsReal (Ideal.sqrt (∑ i ∈ s, u i * u i)) := by
  classical
  have key : ∃ r : ℝ, 0 ≤ r ∧ (∑ i ∈ s, u i * u i) = (r : EReal) := by
    induction s using Finset.induction_on with
    | empty => exact ⟨0, le_refl _, by simp⟩
    | insert a s ha ih =>
      obtain ⟨r, hr0, hr⟩ := ih (fun i hi => hu i (Finset.mem_insert_of_mem hi))
      obtain ⟨x, hx⟩ := hu a (Finset.mem_insert_self a s)
      refine ⟨x * x + r, add_nonneg (mul_self_nonneg x) hr0, ?_⟩
      rw [Finset.sum_insert ha, hr, hx, ← EReal.coe_mul, ← EReal.coe_add]
  obtain ⟨r, hr0, hr⟩ := key
  rw [hr, Ideal.sqrt_coe, if_neg (not_lt.2 hr0)]
  exact ⟨_, rfl⟩

/-- The floored norm is not zero. -/
theorem floored_ne_zero (x : EReal) : max x cEPS ≠ 0 :=
  ne_of_gt (lt_of_lt_of_le cEPS_pos (le_max_right x cEPS))

/-- The reciprocal of a real that is not zero is a real. -/
theorem div_one_real {y : EReal} (hy : IsReal y) (hy0 : y ≠ 0) : IsReal (Ideal.div 1 y) := by
  obtain ⟨r, rfl⟩ := hy
  have hr : r ≠ 0 := fun h => hy0 (by rw [h]; rfl)
  rw [Ideal.div_coe hr, one_mul]
  exact ⟨_, rfl⟩

/-- A real to the power 2.0 is its square. -/
theorem pow_two_of_real {x : EReal} (hx : IsReal x) : Ideal.pow x (Ideal.ofBits .f32 0x40000000#32) = x * x := by
  obtain ⟨r, rfl⟩ := hx
  rw [cTWO_eq, Ideal.pow_coe_coe, ← EReal.coe_mul]
  congr 1
  show r ^ (2 : ℝ) = r * r
  rw [Real.rpow_two, sq]

/-! ## One batch column: every intermediate value is real when the column's data are -/

section
variable (e2 : Fin 416 → EReal) (xv : Fin 26 → EReal) (he2 : ∀ k, IsReal (e2 k)) (hxv : ∀ f, IsReal (xv f))
include he2 hxv

theorem u_real (f : Fin 26) (d : Fin 16) : IsReal (u e2 xv f d) := (he2 _).mul (hxv f)
theorem inv_real (d : Fin 16) : IsReal (inv e2 xv d) := by
  unfold inv
  rw [cONE_eq]
  exact div_one_real ((sqrt_sumsq_real _ _ (fun f _ => u_real e2 xv he2 hxv f d)).max cEPS_real) (floored_ne_zero _)
theorem xn_real (f : Fin 26) (d : Fin 16) : IsReal (xn e2 xv f d) := (u_real e2 xv he2 hxv f d).mul (inv_real e2 xv he2 hxv d)
theorem tS_real (d : Fin 16) : IsReal (tS e2 xv d) := IsReal.sum _ _ (fun f _ => xn_real e2 xv he2 hxv f d)

end

/-- Dividing the scaled embedding by the floored norm is multiplying by the reciprocal (the floored norm is
    never zero). -/
theorem div_floored (e2 : Fin 416 → EReal) (xv : Fin 26 → EReal) (f : Fin 26) (d : Fin 16) :
    Ideal.div (u e2 xv f d) (max (Ideal.sqrt (ss e2 xv d)) cEPS) = xn e2 xv f d := by
  unfold xn inv
  rw [cONE_eq, Ideal.mul_one_div (floored_ne_zero _)]

/-! ## Rows -/

theorem rowF_row (f : Fin 26) (d : Fin 16) : rowF (row f d) = f := by
  apply Fin.ext; show (16 * f.val + d.val) / 16 = f.val; have := d.isLt; omega
theorem rowD_row (f : Fin 26) (d : Fin 16) : rowD (row f d) = d := by
  apply Fin.ext; show (16 * f.val + d.val) % 16 = d.val; have := d.isLt; omega
theorem row_rowF_rowD (k : Fin 416) : row (rowF k) (rowD k) = k := by
  apply Fin.ext; show 16 * (k.val / 16) + k.val % 16 = k.val; omega

end Cert.Alg

end
-- ==== Proof.FinPre.lean ====
/-
  What the precondition says of the arguments: the all-true conjunction of the per-array checks gives,
  array by array, that every index lies in [0, 99999] (read signed, so as a natural number it is below
  100000), and that every float entry has absolute value below plus infinity, which on the extended
  reals means it is a real number.
-/
import proofs.«205279_g68771016344126_cont_9to1_m_1330_15_alg».proof.Pre_input_domain
import proofs.«205279_g68771016344126_cont_9to1_m_1330_15_alg».proof.Proof.AlgReal
import Idealize.ShloMosaic.Lib.ReduceAll
import Idealize.ShloMosaic.Lib.Affine
import Idealize.ShloMosaic.Lib.IdealHost

noncomputable section

namespace Cert.FinPre

open Idealize.ShloMosaic Idealize.ShloMosaic.ValueIdx Cert.Pre_input_domain Cert.Alg

instance : Subsingleton Cert.Pre_input_domain.S_.Idx := ⟨fun _ _ => funext fun d => d.elim0⟩

/-- An extended real whose absolute value is below plus infinity is a real. -/
theorem real_of_abs_lt_inf (x : EReal)
    (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One array's check: if "all entries have absolute value below plus infinity" is true, every entry is real. -/
theorem real_of_all {s : Shape} {axes : List (Fin s.rank)} (a : FVec Ideal s .f32)
    (hb : Cert.Pre_input_domain.S_.BroadcastsInDim s (![] : Fin 0 → Fin s.rank))
    (hr : s.ReducesTo axes Cert.Pre_input_domain.S_) (hu : 0 < Cert.Pre_input_domain.S_.numel)
    (e : Host.reduce IntOp.andi (cmpf .olt (Host.absf a) (broadcastInDim s ![] hb (constant (F := Ideal) Cert.Pre_input_domain.S_ .f32 0x7F800000#32)))
      (constantI Cert.Pre_input_domain.S_ 1 1#1) hr hu ix0 = 1#1) (i : s.Idx) : IsReal (a i) := by
  have hi := Host.reduce_andi_all _ _ hr hu ix0 e i
  rw [cmpf_apply, broadcastInDim_scalar_apply] at hi
  exact real_of_abs_lt_inf _ hi

variable [Cert.Pre_input_domain.Facts]

section Range
variable {F : FTy → Type} [FloatOps F]

/-- The index range, for every float instance: each index word, read as a natural number, is below 100000. -/
theorem xi_range (a0 : IVec S16384x26x1 32) (a1 : FVec F S16384x26 .f32) (a2 : FVec F S26x100000x1 .f32)
    (a3 : FVec F S26x100000x16 .f32) (a4 : FVec F S200x416 .f32) (a5 : FVec F S200 .f32) (a6 : FVec F S200x200 .f32)
    (a7 : FVec F S200 .f32) (a8 : FVec F S200x200 .f32) (a9 : FVec F S200 .f32) (a10 : FVec F S2x3 .f32) (a11 : FVec F S2 .f32)
    (h : fn (F := F) a0 a1 a2 a3 a4 a5 a6 a7 a8 a9 a10 a11 = fun _ => 1#1) (i : S16384x26x1.Idx) :
    (a0 i).toNat < 100000 := by
  have h0 := congrFun h ix0
  dsimp only [fn, fn_part1, fn_part2, fn_part3] at h0
  have h59 := (IntOp.andi_eq_one.mp h0).2
  have hi := Host.reduce_andi_all _ _ _ _ ix0 h59 i
  obtain ⟨hge, hle⟩ := IntOp.andi_eq_one.mp hi
  have hge' := IntOp.cmpi_sge.mp hge
  have hle' := IntOp.cmpi_sle.mp hle
  rw [broadcastInDim_scalar_apply] at hge' hle'
  have e0 : (constantI Cert.Pre_input_domain.S_ 32 0#32 ix0).toInt = 0 := rfl
  have e1 : (constantI Cert.Pre_input_domain.S_ 32 99999#32 ix0).toInt = 99999 := rfl
  rw [e0] at hge'; rw [e1] at hle'
  have := BitVec.toInt_eq_toNat_cond (a0 i)
  omega

end Range

/-- At the extended reals: the field values and the second-order table are real. -/
theorem reals (a0 : IVec S16384x26x1 32) (a1 : FVec Ideal S16384x26 .f32) (a2 : FVec Ideal S26x100000x1 .f32)
    (a3 : FVec Ideal S26x100000x16 .f32) (a4 : FVec Ideal S200x416 .f32) (a5 : FVec Ideal S200 .f32) (a6 : FVec Ideal S200x200 .f32)
    (a7 : FVec Ideal S200 .f32) (a8 : FVec Ideal S200x200 .f32) (a9 : FVec Ideal S200 .f32) (a10 : FVec Ideal S2x3 .f32) (a11 : FVec Ideal S2 .f32)
    (h : fn (F := Ideal) a0 a1 a2 a3 a4 a5 a6 a7 a8 a9 a10 a11 = fun _ => 1#1) :
    (∀ i, IsReal (a1 i)) ∧ (∀ i, IsReal (a3 i)) := by
  have h0 := congrFun h ix0
  dsimp only [fn, fn_part1, fn_part2, fn_part3] at h0
  have h53 := (IntOp.andi_eq_one.mp h0).1
  have h48 := (IntOp.andi_eq_one.mp h53).1
  have h43 := (IntOp.andi_eq_one.mp h48).1
  have h38 := (IntOp.andi_eq_one.mp h43).1
  have h33 := (IntOp.andi_eq_one.mp h38).1
  have h28 := (IntOp.andi_eq_one.mp h33).1
  have h23 := (IntOp.andi_eq_one.mp h28).1
  have h18 := (IntOp.andi_eq_one.mp h23).1
  have h13 := (IntOp.andi_eq_one.mp h18).1
  have h12 := (IntOp.andi_eq_one.mp h13).2
  have h8 := (IntOp.andi_eq_one.mp h13).1
  have h3 := (IntOp.andi_eq_one.mp h8).1
  exact ⟨real_of_all a1 _ _ _ h3, real_of_all a3 _ _ _ h12⟩

end Cert.FinPre

end
-- ==== Proof.FrameBits.lean ====
/-
  The kernel at the machine's floats from the precondition: the precondition's index range is what the run asks of
  the first argument, so the program runs and leaves its arguments unchanged — its frame.
-/
import proofs.«205279_g68771016344126_cont_9to1_m_1330_15_alg».proof.Proof.FinalRunBt
import proofs.«205279_g68771016344126_cont_9to1_m_1330_15_alg».proof.Proof.FinPre

noncomputable section

namespace Cert.Proof.Bt

open Cert.Kernel Cert.Kernel.Gen

open Idealize.ShloMosaic Idealize.ShloMosaic.TcCoe
open Idealize.SL.Sem

variable [Cert.Pre_input_domain.Facts]

/-- The precondition bounds every index word. -/
theorem range_of_pre (m : (ℓ : Loc nD τ sig) → Buf (Elt Bits) ℓ) (h : Cert.Pre_Kernel m) (d : Dev nD) (i : S16384x26x1.Idx) :
    (m ((d.tc : Thread nD τ).loc main_arg0) i : BitVec 32).toNat < 100000 :=
  Cert.FinPre.xi_range (F := Bits) _ _ _ _ _ _ _ _ _ _ _ _ (h d) i

/-- The program's frame. -/
theorem frame_Kernel : Cert.frame_Kernel := fun m g hpre => run_frame (F := Bits) m g (range_of_pre m hpre)

end Cert.Proof.Bt

end
-- ==== Proof.Common.lean ====
/-
  The program as the SparseCore launch theorem sees it, and the proof's resource algebra: the launch handshakes'
  rounds algebra, the TensorCore pipeline's rounds algebra for its staging cells, and the transfers' counters, side by
  side. Shared by the tile's body obligation, the TensorCore region and the launch.
-/
import proofs.«205279_g68771016344126_cont_9to1_m_1330_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205279_g68771016344126_cont_9to1_m_1330_15_alg».proof.Proof.Gen.KernelIdeal

noncomputable section

namespace Cert.Proof.Id

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds algebra. -/
abbrev UH : Type := URounds (GSem nD τ sig) ℕ
/-- The TensorCore pipeline's rounds algebra (its staging cells). -/
abbrev UP : Type := UR sig nD τ
/-- Handshakes, beside the pipeline's cells, beside the transfers' counters. -/
abbrev UU : Type := UH × (UP × Counters)

/-- The handshakes' component embedded: the left factor. -/
abbrev EH : Emb UH (MT nD τ sig (HIx 1) (Elt F) ℕ UU ℕ) := embL

/-! ## Locations of the arrays the kernels move -/

/-- The index array [26,128,128], the transposed second-order table [416,100000], the first-order table [26,100000]
    (all three written by host operations before the SparseCore call), and the two gathered results. -/
abbrev ixLoc (d : Dev nD) : Loc nD τ sig := (SparseCore.T d).loc main_v2
abbrev t2Loc (d : Dev nD) : Loc nD τ sig := (SparseCore.T d).loc main_v4
abbrev t1Loc (d : Dev nD) : Loc nD τ sig := (SparseCore.T d).loc main_v5
abbrev e2Loc (d : Dev nD) : Loc nD τ sig := (SparseCore.T d).loc main_v6_0
abbrev e1Loc (d : Dev nD) : Loc nD τ sig := (SparseCore.T d).loc main_v6_1

end Cert.Proof.Id

end
-- ==== Proof.HostOps.lean ====
/-
  @main's host operations as three lines: six before the SparseCore call (the index array transposed and reshaped to
  [26,128,128], the second-order table transposed to [416,100000], the first-order table reshaped to [26,100000]), five
  between the call and the TensorCore region (the values transposed to [26,16384], three biases and the last bias as
  columns), one after the region (the [2,16384] result transposed to [16384,2]); and @main as those lines around the
  call and the region.
-/
import proofs.«205279_g68771016344126_cont_9to1_m_1330_15_alg».proof.Proof.Common

noncomputable section

namespace Cert.Proof.Id

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The three lines -/

/-- Before the SparseCore call. -/
def hostA : List (HloOp τ sig (Elt F)) :=
  [StableHlo.reshape main_arg0 main_v0 rfl shapeCasts_S16384x26x1_S16384x26,
   StableHlo.unary main_v0 main_v1 ((transpose S26x16384 [1, 0] · transposes_S16384x26_S26x16384_1_0) : (⟨S16384x26, .i32⟩ : BufTy).Contents (Elt F) → (⟨S26x16384, .i32⟩ : BufTy).Contents (Elt F)),
   StableHlo.reshape main_v1 main_v2 rfl shapeCasts_S26x16384_S26x128x128,
   StableHlo.unary main_arg3 main_v3 ((transpose S26x16x100000 [0, 2, 1] · transposes_S26x100000x16_S26x16x100000_0_2_1) : (⟨S26x100000x16, .f32⟩ : BufTy).Contents (Elt F) → (⟨S26x16x100000, .f32⟩ : BufTy).Contents (Elt F)),
   StableHlo.reshape main_v3 main_v4 rfl shapeCasts_S26x16x100000_S416x100000,
   StableHlo.reshape main_arg2 main_v5 rfl shapeCasts_S26x100000x1_S26x100000]

/-- Between the call and the TensorCore region. -/
def hostB : List (HloOp τ sig (Elt F)) :=
  [StableHlo.unary main_arg1 main_v7 ((transpose S26x16384 [1, 0] · transposes_S16384x26_S26x16384_1_0) : (⟨S16384x26, .f32⟩ : BufTy).Contents (Elt F) → (⟨S26x16384, .f32⟩ : BufTy).Contents (Elt F)),
   StableHlo.reshape main_arg5 main_v8 rfl shapeCasts_S200_S200x1,
   StableHlo.reshape main_arg7 main_v9 rfl shapeCasts_S200_S200x1,
   StableHlo.reshape main_arg9 main_v10 rfl shapeCasts_S200_S200x1,
   StableHlo.reshape main_arg11 main_v11 rfl shapeCasts_S2_S2x1]

/-- After the region. -/
def hostC : List (HloOp τ sig (Elt F)) :=
  [StableHlo.unary main_v12 main_v13 ((transpose S16384x2 [1, 0] · transposes_S2x16384_S16384x2_1_0) : (⟨S2x16384, .f32⟩ : BufTy).Contents (Elt F) → (⟨S16384x2, .f32⟩ : BufTy).Contents (Elt F))]

/-- The TensorCore region's entry, as @main spells it. -/
abbrev regionCall : Prog (TpuEff nD τ sig (Elt F) (SparseCore.Sig (ΛP (F := F)) 1) .tc) PUnit :=
  Prog.lift (.customCall (SparseCore.inner (Pipeline.entry 0)) ())

/-- @main is the first line, the SparseCore call, the second line, the region, the last line. -/
theorem main_eq (d : Dev nD) :
    main (F := F) d = (StableHlo.seq hostA >>= fun _ => (K (F := F)).run d 0 >>= fun _ => StableHlo.seq hostB >>= fun _ => regionCall >>= fun _ => StableHlo.seq hostC) := by
  rfl

/-! ## The unscoped buffers as a held set -/

/-- The TensorCore's unscoped references, as device buffers: @main's arrays. -/
def ucRefs : Finset (DevRef τ sig) := (StableHlo.tcRefs τ sig).filter fun b => ¬ b.isScoped

omit [FloatOps F] in
/-- What the launch deals of them, at a valuation, is that set held at it. -/
theorem unscopedBufs_held (d : Dev nD) (W : Valuation τ sig (Elt F)) :
    (unscopedBufs d (fun b => W b) : sProp 𝕄) = StableHlo.held (T d) ucRefs W := by
  unfold unscopedBufs StableHlo.held ucRefs StableHlo.tcRefs
  rw [Finset.filter_map, bigSep_map]
  rfl

omit [FloatOps F] in
/-- A host operation names TensorCore references, none scoped. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem hostA_sub : ∀ op ∈ (hostA (F := F)), op.bufs ⊆ ucRefs := by
  intro op hop
  simp only [hostA, List.mem_cons, List.mem_nil_iff, or_false] at hop
  rcases hop with rfl | rfl | rfl | rfl | rfl | rfl <;> exact sub_ucRefs _ (by simp)
theorem hostB_sub : ∀ op ∈ (hostB (F := F)), op.bufs ⊆ ucRefs := by
  intro op hop
  simp only [hostB, List.mem_cons, List.mem_nil_iff, or_false] at hop
  rcases hop with rfl | rfl | rfl | rfl | rfl <;> exact sub_ucRefs _ (by simp)
theorem hostC_sub : ∀ op ∈ (hostC (F := F)), op.bufs ⊆ ucRefs := by
  intro op hop
  simp only [hostC, List.mem_cons, List.mem_nil_iff, or_false] at hop
  rcases hop with rfl; exact sub_ucRefs _ (by simp)

theorem hostA_fresh : ∀ op ∈ (hostA (F := F)), op.fresh = ∅ := by
  intro _ h; (repeat (cases h with | head => rfl | tail _ h => ?_)); exact nomatch h
theorem hostB_fresh : ∀ op ∈ (hostB (F := F)), op.fresh = ∅ := by
  intro _ h; (repeat (cases h with | head => rfl | tail _ h => ?_)); exact nomatch h
theorem hostC_fresh : ∀ op ∈ (hostC (F := F)), op.fresh = ∅ := by
  intro _ h; (repeat (cases h with | head => rfl | tail _ h => ?_)); exact nomatch h

end Cert.Proof.Id

end
-- ==== Proof.TileDefs.lean ====
/-
  The SparseCore tile's task, its names: which rows of the two gathered arrays a tile writes, what it reads, and its
  own scratch and semaphores taken out of what the launch hands a vector subcore.
  Tile (c, s) is tile number w = 2 s + c of 32. It fills rows 13 w … 13 w + 12 of the [416, 16384] array (row r, column b:
  the entry of row r of the transposed table at the index the index array holds for field r / 16 and batch element b),
  and, when w < 26, row w of the [26, 16384] array likewise from the first-order table.
-/
import proofs.«205279_g68771016344126_cont_9to1_m_1330_15_alg».proof.Proof.Common
import proofs.«205279_g68771016344126_cont_9to1_m_1330_15_alg».proof.Proof.Gen.KernelIdeal.Skeleton

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile number -/

/-- Tile (c, s) is tile number 2 s + c. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- A lookup index: the word as a natural number, capped at the table's last row. -/
def capIdx (w : BitVec 32) : Fin 100000 := ⟨min w.toNat 99999, by omega⟩

theorem capIdx_of_lt {w : BitVec 32} (h : w.toNat < 100000) : (capIdx w).val = w.toNat := by
  unfold capIdx; simp only; omega

/-! ## The tile's thread, memrefs and cells -/

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

abbrev t2W : Memref sig .scVector .hbm S416x100000 .f32 := Memref.whole main_v4_scv
abbrev t1W : Memref sig .scVector .hbm S26x100000 .f32 := Memref.whole main_v5_scv
abbrev ixW : Memref sig .scVector .hbm S26x128x128 .i32 := Memref.whole main_v2_scv
abbrev e2W : Memref sig .scVector .hbm S416x16384 .f32 := Memref.whole main_v6_0_scv
abbrev e1W : Memref sig .scVector .hbm S26x16384 .f32 := Memref.whole main_v6_1_scv
/-- The tile's scratch: one table row, one field's indices, one half row of results. -/
abbrev plW : Memref sig .scVector .vmem S100000 .f32 := Memref.whole cc0_scratch0
abbrev ivW : Memref sig .scVector .vmem S128x128 .i32 := Memref.whole cc0_scratch1
abbrev ovW : Memref sig .scVector .vmem S8192 .f32 := Memref.whole cc0_scratch2

abbrev semCell (d : Dev nD) (L : grid0.Coords) (sm : DmaSem sig) : GSem nD τ sig := (thrV d L, .dma sm)

end Cert.Proof.Id

end
-- ==== Proof.TileRes.lean ====
/-
  What a tile takes from the launch and what it gives back. Tile (c, s), tile number w = 2 s + c, reads the transposed
  table, the first-order table and the index array through a read share of each (share number w of 32), owns rows
  13 w … 13 w + 12 of the [416, 16384] result and, when w < 26, row w of the [26, 16384] result, and leaves them at the
  gathered rows: entry (r, b) is the table's row r at the index the index array holds for field r / 16 and batch
  element b (b = 128 (b / 128) + b % 128 in the [26, 128, 128] layout).
-/
import proofs.«205279_g68771016344126_cont_9to1_m_1330_15_alg».proof.Proof.Common
import proofs.«205279_g68771016344126_cont_9to1_m_1330_15_alg».proof.Proof.TileDefs
import Idealize.ShloMosaic.Lib.ValueIdx

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD)

/-! ## The gathered rows, as whole-array functions of what the kernel reads -/

/-- The index the index array holds for field f and batch element b. -/
def ixAt (f2 : Buf (Elt F) (ixLoc d)) (f : Fin 26) (b : Fin 16384) : Fin 100000 :=
  capIdx (f2 (ix3 f (⟨b.val / 128, by have := b.isLt; omega⟩ : Fin 128) (⟨b.val % 128, by omega⟩ : Fin 128)))

/-- Row r of the [416, 16384] result: the transposed table's row r at field r / 16's indices. -/
def e2Tgt (f4 : Buf (Elt F) (t2Loc d)) (f2 : Buf (Elt F) (ixLoc d)) : Buf (Elt F) (e2Loc d) :=
  fun j => f4 (ix2 (j 0) (ixAt d f2 (⟨(j 0).val / 16, by have h : (j 0).val < 416 := (j 0).isLt; omega⟩ : Fin 26) (j 1)))

/-- Row f of the [26, 16384] result: the first-order table's row f at field f's indices. -/
def e1Tgt (f5 : Buf (Elt F) (t1Loc d)) (f2 : Buf (Elt F) (ixLoc d)) : Buf (Elt F) (e1Loc d) :=
  fun j => f5 (ix2 (j 0) (ixAt d f2 (j 0) (j 1)))

/-! ## The rows a tile owns -/

theorem e2Rows_inb (L : grid0.Coords) : ∀ a, (![13 * wid L, 0] : Fin 2 → Nat) a + (![13, 16384] : Fin 2 → Nat) a ≤ S416x16384.size a := by
  have := wid_lt L
  intro a; fin_cases a <;> simp <;> omega

/-- Rows 13 w … 13 w + 12, all columns. -/
abbrev e2Rect (L : grid0.Coords) : Rect S416x16384 := Rect.unit (s := S416x16384) ![13 * wid L, 0] ![13, 16384] (e2Rows_inb L)
abbrev e2Region (L : grid0.Coords) : Finset S416x16384.Idx := ((e2W : Memref sig .scVector .hbm S416x16384 .f32).view.slice (e2Rect L)).set

theorem e1Row_inb (L : grid0.Coords) (h : wid L < 26) : ∀ a, (![wid L, 0] : Fin 2 → Nat) a + (![1, 16384] : Fin 2 → Nat) a ≤ S26x16384.size a := by
  intro a; fin_cases a <;> simp <;> omega

/-- Row w, all columns, when w < 26; nothing otherwise. -/
def e1Region (L : grid0.Coords) : Finset S26x16384.Idx :=
  if h : wid L < 26 then ((e1W : Memref sig .scVector .hbm S26x16384 .f32).view.slice (Rect.unit (s := S26x16384) ![wid L, 0] ![1, 16384] (e1Row_inb L h))).set else ∅

/-! ## What the launch hands a tile, and what it takes back -/

/-- Read shares of the three arrays the kernel reads (at their contents when the call starts), and the tile's rows of
    the two results at anything. -/
def TileIn (f4 : Buf (Elt F) (t2Loc d)) (f5 : Buf (Elt F) (t1Loc d)) (f2 : Buf (Elt F) (ixLoc d)) (L : grid0.Coords) : sProp 𝕄 :=
  iprop((t2Loc d ↦{Transfers.shareTokN fullShare (wid L)} f4) ∗ (t1Loc d ↦{Transfers.shareTokN fullShare (wid L)} f5)
    ∗ (ixLoc d ↦{Transfers.shareTokN fullShare (wid L)} f2)
    ∗ (∃ g, e2Loc d ↦[e2Region L]{fullShare} g) ∗ (∃ g, e1Loc d ↦[e1Region L]{fullShare} g))

/-- The same shares back, the tile's rows at the gathered rows. -/
def TileOut (f4 : Buf (Elt F) (t2Loc d)) (f5 : Buf (Elt F) (t1Loc d)) (f2 : Buf (Elt F) (ixLoc d)) (L : grid0.Coords) : sProp 𝕄 :=
  iprop((t2Loc d ↦{Transfers.shareTokN fullShare (wid L)} f4) ∗ (t1Loc d ↦{Transfers.shareTokN fullShare (wid L)} f5)
    ∗ (ixLoc d ↦{Transfers.shareTokN fullShare (wid L)} f2)
    ∗ (e2Loc d ↦[e2Region L]{fullShare} e2Tgt d f4 f2) ∗ (e1Loc d ↦[e1Region L]{fullShare} e1Tgt d f5 f2))

/-- What the tile needs of the index array: every word names a table row. -/
def IdxOK (f2 : Buf (Elt F) (ixLoc d)) : Prop := ∀ j, (f2 j : BitVec 32).toNat < 100000

end Cert.Proof.Id

end
-- ==== Proof.LaunchPay.lean ====
/-
  What the SparseCore launch's handshakes carry for this program: each tile's read shares of the three arrays the
  gather reads and its rows of the two results; a sequencer's part is its sixteen tiles' parts.
-/
import proofs.«205279_g68771016344126_cont_9to1_m_1330_15_alg».proof.Proof.Common
import proofs.«205279_g68771016344126_cont_9to1_m_1330_15_alg».proof.Proof.TileRes

noncomputable section

namespace Cert.Proof.Id

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A tile's coordinates -/

/-- Tile (c, s) of the SparseCore call's grid as the kernel's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The same from the launch theorem's indices. -/
abbrev tileL (c : Fin ((K (F := F)).nCore 0)) (i : Fin ((K (F := F)).nSub 0)) : grid0.Coords := coordsV ⟨c.val, c.isLt⟩ ⟨i.val, i.isLt⟩

/-! ## What the handshakes carry -/

variable (f4 : (d : Dev nD) → Buf (Elt F) (t2Loc d)) (f5 : (d : Dev nD) → Buf (Elt F) (t1Loc d)) (f2 : (d : Dev nD) → Buf (Elt F) (ixLoc d))

/-- The one call hands each tile its read shares and its rows of the two results, and takes them back at the gathered
    rows; a SparseCore's sequencer is handed its sixteen tiles' parts together. Nothing of the launch's is consumed. -/
def P : (K (F := F)).Pay (nD := nD) (Val := Elt F) (Name := ℕ) (U := UU) where
  st := fun q d c => match q with | 0 => bigSep Finset.univ fun i : Fin ((K (F := F)).nSub 0) => TileIn d (f4 d) (f5 d) (f2 d) (tileL c i)
  dn := fun q d c => match q with | 0 => bigSep Finset.univ fun i : Fin ((K (F := F)).nSub 0) => TileOut d (f4 d) (f5 d) (f2 d) (tileL c i)
  go := fun q d c i => match q with | 0 => TileIn d (f4 d) (f5 d) (f2 d) (tileL c i)
  td := fun q d c i => match q with | 0 => TileOut d (f4 d) (f5 d) (f2 d) (tileL c i)
  x := fun _ _ => iprop(emp)

omit [FloatOps F] in
instance TileIn_storable (d : Dev nD) (a4 : Buf (Elt F) (t2Loc d)) (a5 : Buf (Elt F) (t1Loc d)) (a2 : Buf (Elt F) (ixLoc d)) (L : grid0.Coords) :
    BI.Storable (upEmb : UEmb _ 𝕄) (TileIn d a4 a5 a2 L) := by unfold TileIn; infer_instance
omit [FloatOps F] in
instance TileOut_storable (d : Dev nD) (a4 : Buf (Elt F) (t2Loc d)) (a5 : Buf (Elt F) (t1Loc d)) (a2 : Buf (Elt F) (ixLoc d)) (L : grid0.Coords) :
    BI.Storable (upEmb : UEmb _ 𝕄) (TileOut d a4 a5 a2 L) := by unfold TileOut; infer_instance

omit [FloatOps F] in
instance P_storable : (P (F := F) f4 f5 f2).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

omit [FloatOps F] in
/-- A sequencer's part is its tiles' parts: nothing to split. -/
theorem vecSplit : (K (F := F)).VecSplit' (P f4 f5 f2) 0 := by
  intro d c
  show (bigSep Finset.univ fun i : Fin ((K (F := F)).nSub 0) => TileIn d (f4 d) (f5 d) (f2 d) (tileL c i))
    ⊢ |={Set.univ}=> iprop((bigSep Finset.univ fun i : Fin ((K (F := F)).nSub 0) => TileIn d (f4 d) (f5 d) (f2 d) (tileL c i))
      ∗ ((bigSep Finset.univ fun i : Fin ((K (F := F)).nSub 0) => TileOut d (f4 d) (f5 d) (f2 d) (tileL c i))
        -∗ bigSep Finset.univ fun i : Fin ((K (F := F)).nSub 0) => TileOut d (f4 d) (f5 d) (f2 d) (tileL c i)))
  iintro H; imodintro
  isplitl [H]; · iexact H
  iintro H; iexact H

end Cert.Proof.Id

end
-- ==== Proof.TcBody.lean ====
/-
  The TensorCore body's run: on whole staging buffers, the eleven inputs' at given contents and the output's at
  anything, the body loads the eleven inputs whole, computes, and stores one whole output block; it ends with the
  inputs' buffers as they were and the output's at one named function of the eleven loaded vectors.
-/
import proofs.«205279_g68771016344126_cont_9to1_m_1330_15_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.Proof.Id

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The batch-norm scale the body multiplies each dense layer by, as the word it prints. -/
abbrev tcBN : F .f32 := Scalar.ofBits .f32 0x3F7FFFAC#32

/-- The output block [2, 1024] as a function of the eleven loaded vectors: the gathered second-order rows
    [416, 1024], the gathered first-order rows [26, 1024], the values [26, 1024], and the dense layers' weights and
    biases. -/
def tcPay (X0 : Vec F S416x1024 .f32) (X1 : Vec F S26x1024 .f32) (X2 : Vec F S26x1024 .f32) (W1 : Vec F S200x416 .f32) (B1 : Vec F S200x1 .f32) (W2 : Vec F S200x200 .f32) (B2 : Vec F S200x1 .f32) (W3 : Vec F S200x200 .f32) (B3 : Vec F S200x1 .f32) (WD : Vec F S2x3 .f32) (BD : Vec F S2x1 .f32) : Vec F S2x1024 .f32 :=
  k1_pay1 (k1_pay4 X0 X2) (k1_pay5 X1 X2) (k1_pay6 X0 X2 W1 B1) tcBN W2 B2 W3 B3 WD BD

set_option maxHeartbeats 1000000 in
/-- The body on whole staging buffers, the inputs' at contents X0 … BD and the output's at anything, runs to the
    continuation holding the inputs' as they were and the output's at tcPay of them. -/
theorem tc_body_run (c : Dev nD) (E : Set Name) (i : grid1.Coords) (arg1 : Memref sig .tc .vmem S416x1024 .f32) (harg1 : arg1.IsWhole) (arg2 : Memref sig .tc .vmem S26x1024 .f32) (harg2 : arg2.IsWhole) (arg3 : Memref sig .tc .vmem S26x1024 .f32) (harg3 : arg3.IsWhole) (arg4 : Memref sig .tc .vmem S200x416 .f32) (harg4 : arg4.IsWhole) (arg5 : Memref sig .tc .vmem S200x1 .f32) (harg5 : arg5.IsWhole) (arg6 : Memref sig .tc .vmem S200x200 .f32) (harg6 : arg6.IsWhole) (arg7 : Memref sig .tc .vmem S200x1 .f32) (harg7 : arg7.IsWhole) (arg8 : Memref sig .tc .vmem S200x200 .f32) (harg8 : arg8.IsWhole) (arg9 : Memref sig .tc .vmem S200x1 .f32) (harg9 : arg9.IsWhole) (arg10 : Memref sig .tc .vmem S2x3 .f32) (harg10 : arg10.IsWhole) (arg11 : Memref sig .tc .vmem S2x1 .f32) (harg11 : arg11.IsWhole) (arg12 : Memref sig .tc .vmem S2x1024 .f32) (harg12 : arg12.IsWhole)
    (X0 : Vec F S416x1024 .f32) (X1 : Vec F S26x1024 .f32) (X2 : Vec F S26x1024 .f32) (W1 : Vec F S200x416 .f32) (B1 : Vec F S200x1 .f32) (W2 : Vec F S200x200 .f32) (B2 : Vec F S200x1 .f32) (W3 : Vec F S200x200 .f32) (B3 : Vec F S200x1 .f32) (WD : Vec F S2x3 .f32) (BD : Vec F S2x1 .f32) (K : PUnit → sProp 𝕄) :
    iprop(owns (c : Thread nD τ) arg1 fullShare X0 ∗ owns (c : Thread nD τ) arg2 fullShare X1 ∗ owns (c : Thread nD τ) arg3 fullShare X2 ∗ owns (c : Thread nD τ) arg4 fullShare W1 ∗ owns (c : Thread nD τ) arg5 fullShare B1 ∗ owns (c : Thread nD τ) arg6 fullShare W2 ∗ owns (c : Thread nD τ) arg7 fullShare B2 ∗ owns (c : Thread nD τ) arg8 fullShare W3 ∗ owns (c : Thread nD τ) arg9 fullShare B3 ∗ owns (c : Thread nD τ) arg10 fullShare WD ∗ owns (c : Thread nD τ) arg11 fullShare BD ∗ (∃ d, owns (c : Thread nD τ) arg12 fullShare d)
        ∗ (iprop(owns (c : Thread nD τ) arg1 fullShare X0 ∗ owns (c : Thread nD τ) arg2 fullShare X1 ∗ owns (c : Thread nD τ) arg3 fullShare X2 ∗ owns (c : Thread nD τ) arg4 fullShare W1 ∗ owns (c : Thread nD τ) arg5 fullShare B1 ∗ owns (c : Thread nD τ) arg6 fullShare W2 ∗ owns (c : Thread nD τ) arg7 fullShare B2 ∗ owns (c : Thread nD τ) arg8 fullShare W3 ∗ owns (c : Thread nD τ) arg9 fullShare B3 ∗ owns (c : Thread nD τ) arg10 fullShare WD ∗ owns (c : Thread nD τ) arg11 fullShare BD ∗ owns (c : Thread nD τ) arg12 fullShare (tcPay X0 X1 X2 W1 B1 W2 B2 W3 B3 WD BD)) -∗ K ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11 arg12 harg12) K := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  have h0 : (![0, 0] : Fin 2 → Nat) = fun _ => 0 := by funext a; fin_cases a <;> rfl
  rw [View.read_writes_eq_canon _ _ _ (fun y => ⟨_, List.mem_singleton_self _, View.mem_set_unit_zero h0 inb_S2x1024_S2x1024_0_0 y⟩)]
  rw [View.canon_unit_zero h0]
  simp only [View.readAt_eq_ld,
    View.ld_unit_zero (S := S416x1024) h0 inb_S416x1024_S416x1024_0_0,
    View.ld_unit_zero (S := S26x1024) h0 inb_S26x1024_S26x1024_0_0,
    View.ld_unit_zero (S := S200x416) h0 inb_S200x416_S200x416_0_0,
    View.ld_unit_zero (S := S200x1) h0 inb_S200x1_S200x1_0_0,
    View.ld_unit_zero (S := S200x200) h0 inb_S200x200_S200x200_0_0,
    View.ld_unit_zero (S := S2x3) h0 inb_S2x3_S2x3_0_0,
    View.ld_unit_zero (S := S2x1) h0 inb_S2x1_S2x1_0_0]
  rfl

end Cert.Proof.Id

end
-- ==== Proof.TcDat.lean ====
/-
  The TensorCore pipeline's proof data and body obligation: at every grid point the body finds each input window's
  current staging buffer at that window's block of its array, leaves the inputs' buffers as found and the output's
  at the named function of the eleven blocks.
-/
import proofs.«205279_g68771016344126_cont_9to1_m_1330_15_alg».proof.Proof.TcBody
import proofs.«205279_g68771016344126_cont_9to1_m_1330_15_alg».proof.Proof.Gen.KernelIdeal.Launch
import proofs.«205279_g68771016344126_cont_9to1_m_1330_15_alg».proof.Proof.Gen.KernelIdeal.Points

set_option maxRecDepth 16384

noncomputable section

namespace Cert.Proof.Id

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (c : Dev nD) (A : (w : Fin cfg1.W) → Buf (Elt F) ((cfg1.win w).arr.view.loc (c.tc : Thread nD τ)))
  (B : Set (SemLoc sig × Ix))

/-- Window w's block at point t, read off the arrays A. -/
def tcBlk (w : Fin cfg1.W) (t : Fin cfg1.N) : ((cfg1.win w).xblock (cfg1.grid.coords t)).Idx → Elt F (cfg1.win w).elt :=
  ((cfg1.win w).blk t).view.read (Elt F) (A w)

/-- The output block at point t: the named function of the eleven input blocks there. -/
def tcOut (t : Fin cfg1.N) : Vec F S2x1024 .f32 :=
  tcPay (tcBlk c A 0 t) (tcBlk c A 1 t) (tcBlk c A 2 t) (tcBlk c A 3 t) (tcBlk c A 4 t) (tcBlk c A 5 t) (tcBlk c A 6 t) (tcBlk c A 7 t) (tcBlk c A 8 t) (tcBlk c A 9 t) (tcBlk c A 10 t)

/-- The TensorCore pipeline's proof data on core c: the twelve windowed arrays at contents A when the region is
    entered; the body leaves each input's buffer at its block and the output's at tcOut; nothing owed, no invariant;
    the recorded pairs within B. -/
def tcDat : Dat τ (Elt F) Ix Name U Lvl cfg1 c where
  A := A
  after w t := match w with
    | ⟨0, _⟩ => tcBlk c A 0 t
    | ⟨1, _⟩ => tcBlk c A 1 t
    | ⟨2, _⟩ => tcBlk c A 2 t
    | ⟨3, _⟩ => tcBlk c A 3 t
    | ⟨4, _⟩ => tcBlk c A 4 t
    | ⟨5, _⟩ => tcBlk c A 5 t
    | ⟨6, _⟩ => tcBlk c A 6 t
    | ⟨7, _⟩ => tcBlk c A 7 t
    | ⟨8, _⟩ => tcBlk c A 8 t
    | ⟨9, _⟩ => tcBlk c A 9 t
    | ⟨10, _⟩ => tcBlk c A 10 t
    | ⟨11, _⟩ => tcOut c A t
  Φ _ := iprop(emp)
  q _ := fullShare
  owed _ := 0
  recorded _ := B

theorem tcDat_A (w : Fin cfg1.W) : (tcDat (Name := Name) (U := U) (Lvl := Lvl) c A B).A w = A w := by dsimp only [tcDat]
theorem tcDat_after_0 (t : Fin cfg1.N) : (tcDat (Name := Name) (U := U) (Lvl := Lvl) c A B).after 0 t = tcBlk c A 0 t := by dsimp only [tcDat]
theorem tcDat_after_1 (t : Fin cfg1.N) : (tcDat (Name := Name) (U := U) (Lvl := Lvl) c A B).after 1 t = tcBlk c A 1 t := by dsimp only [tcDat]
theorem tcDat_after_2 (t : Fin cfg1.N) : (tcDat (Name := Name) (U := U) (Lvl := Lvl) c A B).after 2 t = tcBlk c A 2 t := by dsimp only [tcDat]
theorem tcDat_after_3 (t : Fin cfg1.N) : (tcDat (Name := Name) (U := U) (Lvl := Lvl) c A B).after 3 t = tcBlk c A 3 t := by dsimp only [tcDat]
theorem tcDat_after_4 (t : Fin cfg1.N) : (tcDat (Name := Name) (U := U) (Lvl := Lvl) c A B).after 4 t = tcBlk c A 4 t := by dsimp only [tcDat]
theorem tcDat_after_5 (t : Fin cfg1.N) : (tcDat (Name := Name) (U := U) (Lvl := Lvl) c A B).after 5 t = tcBlk c A 5 t := by dsimp only [tcDat]
theorem tcDat_after_6 (t : Fin cfg1.N) : (tcDat (Name := Name) (U := U) (Lvl := Lvl) c A B).after 6 t = tcBlk c A 6 t := by dsimp only [tcDat]
theorem tcDat_after_7 (t : Fin cfg1.N) : (tcDat (Name := Name) (U := U) (Lvl := Lvl) c A B).after 7 t = tcBlk c A 7 t := by dsimp only [tcDat]
theorem tcDat_after_8 (t : Fin cfg1.N) : (tcDat (Name := Name) (U := U) (Lvl := Lvl) c A B).after 8 t = tcBlk c A 8 t := by dsimp only [tcDat]
theorem tcDat_after_9 (t : Fin cfg1.N) : (tcDat (Name := Name) (U := U) (Lvl := Lvl) c A B).after 9 t = tcBlk c A 9 t := by dsimp only [tcDat]
theorem tcDat_after_10 (t : Fin cfg1.N) : (tcDat (Name := Name) (U := U) (Lvl := Lvl) c A B).after 10 t = tcBlk c A 10 t := by dsimp only [tcDat]
theorem tcDat_after_11 (t : Fin cfg1.N) : (tcDat (Name := Name) (U := U) (Lvl := Lvl) c A B).after 11 t = tcOut c A t := by dsimp only [tcDat]

/-! ## What the body finds in each input window's buffer -/

theorem tcDat_before_0 (t : Fin cfg1.N) (d) : (tcDat (Name := Name) (U := U) (Lvl := Lvl) c A B).before 0 t d = tcBlk c A 0 t :=
  ((tcDat (Name := Name) (U := U) (Lvl := Lvl) c A B).before_in_eq_fetched 0 rfl (fun _ => rfl) (fun _ _ _ => rfl)
    (fun t => by rw [tcDat_after_0]; unfold Dat.blockOf tcBlk; rw [tcDat_A]; try rfl) t d).trans
    (by unfold Dat.fetched Dat.blockOf tcBlk; rw [tcDat_A]; try rfl)
theorem tcDat_before_1 (t : Fin cfg1.N) (d) : (tcDat (Name := Name) (U := U) (Lvl := Lvl) c A B).before 1 t d = tcBlk c A 1 t :=
  ((tcDat (Name := Name) (U := U) (Lvl := Lvl) c A B).before_in_eq_fetched 1 rfl (fun _ => rfl) (fun _ _ _ => rfl)
    (fun t => by rw [tcDat_after_1]; unfold Dat.blockOf tcBlk; rw [tcDat_A]; try rfl) t d).trans
    (by unfold Dat.fetched Dat.blockOf tcBlk; rw [tcDat_A]; try rfl)
theorem tcDat_before_2 (t : Fin cfg1.N) (d) : (tcDat (Name := Name) (U := U) (Lvl := Lvl) c A B).before 2 t d = tcBlk c A 2 t :=
  ((tcDat (Name := Name) (U := U) (Lvl := Lvl) c A B).before_in_eq_fetched 2 rfl (fun _ => rfl) (fun _ _ _ => rfl)
    (fun t => by rw [tcDat_after_2]; unfold Dat.blockOf tcBlk; rw [tcDat_A]; try rfl) t d).trans
    (by unfold Dat.fetched Dat.blockOf tcBlk; rw [tcDat_A]; try rfl)
theorem tcDat_before_3 (t : Fin cfg1.N) (d) : (tcDat (Name := Name) (U := U) (Lvl := Lvl) c A B).before 3 t d = tcBlk c A 3 t :=
  ((tcDat (Name := Name) (U := U) (Lvl := Lvl) c A B).before_in_eq_fetched 3 rfl (fun _ => rfl) (fun _ _ _ => rfl)
    (fun t => by rw [tcDat_after_3]; unfold Dat.blockOf tcBlk; rw [tcDat_A]; try rfl) t d).trans
    (by unfold Dat.fetched Dat.blockOf tcBlk; rw [tcDat_A]; try rfl)
theorem tcDat_before_4 (t : Fin cfg1.N) (d) : (tcDat (Name := Name) (U := U) (Lvl := Lvl) c A B).before 4 t d = tcBlk c A 4 t :=
  ((tcDat (Name := Name) (U := U) (Lvl := Lvl) c A B).before_in_eq_fetched 4 rfl (fun _ => rfl) (fun _ _ _ => rfl)
    (fun t => by rw [tcDat_after_4]; unfold Dat.blockOf tcBlk; rw [tcDat_A]; try rfl) t d).trans
    (by unfold Dat.fetched Dat.blockOf tcBlk; rw [tcDat_A]; try rfl)
theorem tcDat_before_5 (t : Fin cfg1.N) (d) : (tcDat (Name := Name) (U := U) (Lvl := Lvl) c A B).before 5 t d = tcBlk c A 5 t :=
  ((tcDat (Name := Name) (U := U) (Lvl := Lvl) c A B).before_in_eq_fetched 5 rfl (fun _ => rfl) (fun _ _ _ => rfl)
    (fun t => by rw [tcDat_after_5]; unfold Dat.blockOf tcBlk; rw [tcDat_A]; try rfl) t d).trans
    (by unfold Dat.fetched Dat.blockOf tcBlk; rw [tcDat_A]; try rfl)
theorem tcDat_before_6 (t : Fin cfg1.N) (d) : (tcDat (Name := Name) (U := U) (Lvl := Lvl) c A B).before 6 t d = tcBlk c A 6 t :=
  ((tcDat (Name := Name) (U := U) (Lvl := Lvl) c A B).before_in_eq_fetched 6 rfl (fun _ => rfl) (fun _ _ _ => rfl)
    (fun t => by rw [tcDat_after_6]; unfold Dat.blockOf tcBlk; rw [tcDat_A]; try rfl) t d).trans
    (by unfold Dat.fetched Dat.blockOf tcBlk; rw [tcDat_A]; try rfl)
theorem tcDat_before_7 (t : Fin cfg1.N) (d) : (tcDat (Name := Name) (U := U) (Lvl := Lvl) c A B).before 7 t d = tcBlk c A 7 t :=
  ((tcDat (Name := Name) (U := U) (Lvl := Lvl) c A B).before_in_eq_fetched 7 rfl (fun _ => rfl) (fun _ _ _ => rfl)
    (fun t => by rw [tcDat_after_7]; unfold Dat.blockOf tcBlk; rw [tcDat_A]; try rfl) t d).trans
    (by unfold Dat.fetched Dat.blockOf tcBlk; rw [tcDat_A]; try rfl)
theorem tcDat_before_8 (t : Fin cfg1.N) (d) : (tcDat (Name := Name) (U := U) (Lvl := Lvl) c A B).before 8 t d = tcBlk c A 8 t :=
  ((tcDat (Name := Name) (U := U) (Lvl := Lvl) c A B).before_in_eq_fetched 8 rfl (fun _ => rfl) (fun _ _ _ => rfl)
    (fun t => by rw [tcDat_after_8]; unfold Dat.blockOf tcBlk; rw [tcDat_A]; try rfl) t d).trans
    (by unfold Dat.fetched Dat.blockOf tcBlk; rw [tcDat_A]; try rfl)
theorem tcDat_before_9 (t : Fin cfg1.N) (d) : (tcDat (Name := Name) (U := U) (Lvl := Lvl) c A B).before 9 t d = tcBlk c A 9 t :=
  ((tcDat (Name := Name) (U := U) (Lvl := Lvl) c A B).before_in_eq_fetched 9 rfl (fun _ => rfl) (fun _ _ _ => rfl)
    (fun t => by rw [tcDat_after_9]; unfold Dat.blockOf tcBlk; rw [tcDat_A]; try rfl) t d).trans
    (by unfold Dat.fetched Dat.blockOf tcBlk; rw [tcDat_A]; try rfl)
theorem tcDat_before_10 (t : Fin cfg1.N) (d) : (tcDat (Name := Name) (U := U) (Lvl := Lvl) c A B).before 10 t d = tcBlk c A 10 t :=
  ((tcDat (Name := Name) (U := U) (Lvl := Lvl) c A B).before_in_eq_fetched 10 rfl (fun _ => rfl) (fun _ _ _ => rfl)
    (fun t => by rw [tcDat_after_10]; unfold Dat.blockOf tcBlk; rw [tcDat_A]; try rfl) t d).trans
    (by unfold Dat.fetched Dat.blockOf tcBlk; rw [tcDat_A]; try rfl)

/-! ## The body obligation, at a generic point -/

/-- What the body is called with at point t, the windows one by one, -/
def tcBodyPre (ι : Ix) (t : Fin cfg1.N) : sProp 𝕄 :=
  iprop((tcDat (Name := Name) (U := U) (Lvl := Lvl) c A B).Φ t.castSucc ∗ (tcDat (Name := Name) (U := U) (Lvl := Lvl) c A B).owesAt ι t.castSucc
      ∗ (∃ d, owns (c : Thread nD τ) (st1_0 t) fullShare ((tcDat (Name := Name) (U := U) (Lvl := Lvl) c A B).before 0 t d))
      ∗ (∃ d, owns (c : Thread nD τ) (st1_1 t) fullShare ((tcDat (Name := Name) (U := U) (Lvl := Lvl) c A B).before 1 t d))
      ∗ (∃ d, owns (c : Thread nD τ) (st1_2 t) fullShare ((tcDat (Name := Name) (U := U) (Lvl := Lvl) c A B).before 2 t d))
      ∗ (∃ d, owns (c : Thread nD τ) (st1_3 t) fullShare ((tcDat (Name := Name) (U := U) (Lvl := Lvl) c A B).before 3 t d))
      ∗ (∃ d, owns (c : Thread nD τ) (st1_4 t) fullShare ((tcDat (Name := Name) (U := U) (Lvl := Lvl) c A B).before 4 t d))
      ∗ (∃ d, owns (c : Thread nD τ) (st1_5 t) fullShare ((tcDat (Name := Name) (U := U) (Lvl := Lvl) c A B).before 5 t d))
      ∗ (∃ d, owns (c : Thread nD τ) (st1_6 t) fullShare ((tcDat (Name := Name) (U := U) (Lvl := Lvl) c A B).before 6 t d))
      ∗ (∃ d, owns (c : Thread nD τ) (st1_7 t) fullShare ((tcDat (Name := Name) (U := U) (Lvl := Lvl) c A B).before 7 t d))
      ∗ (∃ d, owns (c : Thread nD τ) (st1_8 t) fullShare ((tcDat (Name := Name) (U := U) (Lvl := Lvl) c A B).before 8 t d))
      ∗ (∃ d, owns (c : Thread nD τ) (st1_9 t) fullShare ((tcDat (Name := Name) (U := U) (Lvl := Lvl) c A B).before 9 t d))
      ∗ (∃ d, owns (c : Thread nD τ) (st1_10 t) fullShare ((tcDat (Name := Name) (U := U) (Lvl := Lvl) c A B).before 10 t d))
      ∗ (∃ d, owns (c : Thread nD τ) (st1_11 t) fullShare ((tcDat (Name := Name) (U := U) (Lvl := Lvl) c A B).before 11 t d)))

/-- and what it returns. -/
def tcBodyPost (ι : Ix) (t : Fin cfg1.N) : sProp 𝕄 :=
  iprop((tcDat (Name := Name) (U := U) (Lvl := Lvl) c A B).Φ t.succ ∗ (tcDat (Name := Name) (U := U) (Lvl := Lvl) c A B).owesAt ι t.succ
      ∗ owns (c : Thread nD τ) (st1_0 t) fullShare ((tcDat (Name := Name) (U := U) (Lvl := Lvl) c A B).after 0 t)
      ∗ owns (c : Thread nD τ) (st1_1 t) fullShare ((tcDat (Name := Name) (U := U) (Lvl := Lvl) c A B).after 1 t)
      ∗ owns (c : Thread nD τ) (st1_2 t) fullShare ((tcDat (Name := Name) (U := U) (Lvl := Lvl) c A B).after 2 t)
      ∗ owns (c : Thread nD τ) (st1_3 t) fullShare ((tcDat (Name := Name) (U := U) (Lvl := Lvl) c A B).after 3 t)
      ∗ owns (c : Thread nD τ) (st1_4 t) fullShare ((tcDat (Name := Name) (U := U) (Lvl := Lvl) c A B).after 4 t)
      ∗ owns (c : Thread nD τ) (st1_5 t) fullShare ((tcDat (Name := Name) (U := U) (Lvl := Lvl) c A B).after 5 t)
      ∗ owns (c : Thread nD τ) (st1_6 t) fullShare ((tcDat (Name := Name) (U := U) (Lvl := Lvl) c A B).after 6 t)
      ∗ owns (c : Thread nD τ) (st1_7 t) fullShare ((tcDat (Name := Name) (U := U) (Lvl := Lvl) c A B).after 7 t)
      ∗ owns (c : Thread nD τ) (st1_8 t) fullShare ((tcDat (Name := Name) (U := U) (Lvl := Lvl) c A B).after 8 t)
      ∗ owns (c : Thread nD τ) (st1_9 t) fullShare ((tcDat (Name := Name) (U := U) (Lvl := Lvl) c A B).after 9 t)
      ∗ owns (c : Thread nD τ) (st1_10 t) fullShare ((tcDat (Name := Name) (U := U) (Lvl := Lvl) c A B).after 10 t)
      ∗ owns (c : Thread nD τ) (st1_11 t) fullShare ((tcDat (Name := Name) (U := U) (Lvl := Lvl) c A B).after 11 t))

/-- The body at any point: the inputs' buffers hold their blocks, so the body's run applies; the invariant and the
    core's tallies pass through unread. -/
theorem tc_sound_body (ι : Ix) (t : Fin cfg1.N) :
    tcBodyPre (F := F) (Name := Name) (U := U) (Lvl := Lvl) c A B ι t
      ⊢ wp frame (wpE (defs₀ (F := F)) Variants.none c none) Set.univ (bodyAt1 t) (fun _ => tcBodyPost (Name := Name) (U := U) (Lvl := Lvl) c A B ι t) := by
  unfold tcBodyPre tcBodyPost bodyAt1
  simp only [tcDat_before_0, tcDat_before_1, tcDat_before_2, tcDat_before_3, tcDat_before_4, tcDat_before_5, tcDat_before_6, tcDat_before_7, tcDat_before_8, tcDat_before_9, tcDat_before_10]
  rw [show (tcDat (Name := Name) (U := U) (Lvl := Lvl) c A B).Φ t.succ = (tcDat (Name := Name) (U := U) (Lvl := Lvl) c A B).Φ t.castSucc from rfl,
    show (tcDat (Name := Name) (U := U) (Lvl := Lvl) c A B).owesAt ι t.succ = (tcDat (Name := Name) (U := U) (Lvl := Lvl) c A B).owesAt ι t.castSucc from rfl,
    tcDat_after_0, tcDat_after_1, tcDat_after_2, tcDat_after_3, tcDat_after_4, tcDat_after_5, tcDat_after_6, tcDat_after_7, tcDat_after_8, tcDat_after_9, tcDat_after_10, tcDat_after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (tc_body_run c Set.univ (grid1.coords t) _ _ _ _ _ _ _ _ _ _ _ _ _ _ _ _ _ _ _ _ _ _ _ _ (tcBlk c A 0 t) (tcBlk c A 1 t) (tcBlk c A 2 t) (tcBlk c A 3 t) (tcBlk c A 4 t) (tcBlk c A 5 t) (tcBlk c A 6 t) (tcBlk c A 7 t) (tcBlk c A 8 t) (tcBlk c A 9 t) (tcBlk c A 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of the TensorCore pipeline, in the exact form. -/
theorem tcBodyExact (ι : Ix) : BodyObligation (tcDat (F := F) (Name := Name) (U := U) (Lvl := Lvl) c A B) (defs₀ (F := F)) Variants.none ι Set.univ := fun t => by
  rw [bigSep_W1, bigSep_W1]
  exact tc_sound_body c A B ι t

/-- What the write-back of the output window writes at point t. -/
theorem tcDat_flushed (t : Fin cfg1.N) : (tcDat (Name := Name) (U := U) (Lvl := Lvl) c A B).flushed 11 t = tcOut c A t := by
  show (cfg1.win 11).cut (cfg1.grid.coords t) ((tcDat (Name := Name) (U := U) (Lvl := Lvl) c A B).after 11 t) = _
  rw [tcDat_after_11]; rfl

/-- The body obligation of the TensorCore pipeline. -/
theorem tcBody (ι : Ix) : BodyObligationLoose (tcDat (F := F) (Name := Name) (U := U) (Lvl := Lvl) c A B) (defs₀ (F := F)) Variants.none ι Set.univ :=
  (tcBodyExact c A B ι).loose

end Cert.Proof.Id

end
-- ==== Proof.LaunchRegion.lean ====
/-
  The TensorCore region inside the SparseCore program: the pipeline's proof data at the contents the host operations
  and the SparseCore call left, and the region as the pipeline library's segment — entered from @main's buffers held
  at a valuation, left with the windowed arrays at what the pipeline computes.
-/
import proofs.«205279_g68771016344126_cont_9to1_m_1330_15_alg».proof.Proof.Common
import proofs.«205279_g68771016344126_cont_9to1_m_1330_15_alg».proof.Proof.HostOps
import proofs.«205279_g68771016344126_cont_9to1_m_1330_15_alg».proof.Proof.TcDat
import proofs.«205279_g68771016344126_cont_9to1_m_1330_15_alg».proof.Proof.Gen.KernelIdeal.Launch
import Idealize.ShloMosaic.Lib.Pipeline.Regions

noncomputable section

namespace Cert.Proof.Id

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The pipeline's rounds component and its fixed data -/

/-- The pipeline's staging cells' rounds algebra embedded: the middle factor. -/
abbrev EP : Emb UP (MT nD τ sig (HIx 1) (Elt F) ℕ UU ℕ) := (Emb.inl : Emb UP (UP × Counters)).trans embR

omit [FloatOps F] in
instance EP_landsIn : (EP (F := F)).LandsIn (upEmb : UEmb _ 𝕄) := by unfold EP embR; infer_instance

/-- No prefetched table. -/
abbrev adm : (p : Fin 1) → (pcfgs (F := F) p).Adm := fun p => (cfgs p).toPCfg_adm

/-- The pipeline's waits are recorded at the index of the kernels' own waits. -/
abbrev ι₀ : HIx 1 := none

/-- With one SparseCore call every level is at most 7: any recorded pairs sit at or below any later bound. -/
theorem wBelow_any (thr : Thread nD τ) (W : Waits sig (HIx 1)) : (K (F := F)).WBelow thr W 8 := fun p _ => by
  rcases hp : p.2 with _ | q
  · rw [show (K (F := F)).lev (thr, p.1) none = 0 from rfl]; exact Nat.zero_le _
  · have h := (K (F := F)).lev_some_le (thr, p.1) q
    have hq : q.val = 0 := by have := q.isLt; omega
    omega

variable (Vv : (d : Dev nD) → Valuation τ sig (Elt F))

/-- The proof data: the arrays at what the valuation holds when the region is entered. -/
def tcDats (_ : Fin 1) (c : Dev nD) : Pipeline.Dat τ (Elt F) (HIx 1) ℕ UU ℕ cfg1 c :=
  tcDat c (fun w => Vv c (Pipeline.arrRef spec1 w)) Set.univ

/-- What the TensorCore owes around the region: nothing, whatever pairs its waits have recorded. -/
abbrev owesLow (c : Dev nD) : sProp 𝕄 := iprop(∃ W, owes (T c) (0 : CellTallies nD τ sig (HIx 1)) W)

set_option backward.isDefEq.respectTransparency.types false in
/-- The region: entered from the unscoped buffers held at the valuation, left with the twelve arrays at what the
    pipeline computes and the other buffers as they were. -/
def regTC : Pipeline.RegionSeg (pcfgs (F := F)) adm (tcDats Vv) ι₀ defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := tcBody c _ _ ι₀
  hwaits := Pipeline.hwaits_of_owed_zero _ _ _ _ _ _ 0 fun _ _ => rfl
  pre c := iprop(StableHlo.held (T c) ucRefs (Vv c) ∗ owesLow c)
  post c := iprop((tcDats Vv 0 c).arrays ((tcDats Vv 0 c).arrAt · cfg1.N) ∗ Pipeline.unscopedRest spec1 c (fun b => Vv c b) ∗ owesLow c)
  X _ := iprop(emp)
  Y _ := iprop(emp)
  Z c := Pipeline.unscopedRest spec1 c (fun b => Vv c b)
  hentry c := by
    rw [show StableHlo.held (T c) ucRefs (Vv c) = unscopedBufs c (fun b => Vv c b) from (unscopedBufs_held c _).symm]
    have hsplit := Pipeline.arrays_of_unscopedBufs (pcfgs (F := F)) adm (tcDats Vv) launch1.win launch1.arr_whole c
      ((tcDats Vv 0 c).share_full fun _ => rfl) (fun b => Vv c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (tcDats Vv 0 c).Φ 0 = iprop(emp) from rfl]
    iintro -; iempintro
  hout c := by
    rw [Pipeline.ownSems0_none, scopedRest1_eq]
    iintro -
    isplitr; · iempintro
    isplitr <;> iempintro
  hexit c := by
    iintro ⟨Ha, HO, -, HZ⟩
    imodintro
    isplitl [Ha]; · iexact Ha
    isplitl [HZ]; · iexact HZ
    unfold Pipeline.Dat.owesAt Pipeline.owesWithin
    icases HO with ⟨%W, -, HO⟩; iexists W; iexact HO

/-- What the region's entry takes of the launch: the pipeline's cells' ghost state and its transfers' tokens. -/
abbrev G₀ (d : Dev nD) : sProp 𝕄 :=
  iprop(Pipeline.cellsGhost (Pipeline.pin (pcfgs (F := F)) adm) EP 0 d ∗ Pipeline.toksInit (Pipeline.pin (pcfgs (F := F)) adm) EP 0 d)

/-- The region's entry as @main spells it is the pipeline's entry call, lifted to the SparseCore program's labels. -/
theorem regionCall_eq : regionCall (F := F) = SparseCore.liftProg (Q := 1) (Prog.lift (.customCall (Pipeline.entry 0) ())) := rfl

set_option backward.isDefEq.respectTransparency.types false in
/-- The region as @main spells it inside the SparseCore program: from the level facts, the boundary, the buffers held
    at the valuation, nothing owed and the pipeline's ghost state, to the boundary and the region's post. -/
theorem wp_region (d : Dev nD) (Φ : PUnit → sProp 𝕄) :
    iprop(levAts (K (F := F)).L (K (F := F)).lev ∗ boundary (T d) ∗ StableHlo.held (T d) ucRefs (Vv d) ∗ owesLow (F := F) d ∗ G₀ (F := F) d
        ∗ (iprop(boundary (T d) ∗ (regTC Vv).post d) -∗ Φ ⟨⟩))
      ⊢ wp frame (wpE ((K (F := F)).defs (D (F := F))) 𝒱 (T d) none) Set.univ (regionCall (F := F)) Φ := by
  rw [regionCall_eq]
  have hl := (K (F := F)).wp_liftProg (nD := nD) (Val := Elt F) (Name := ℕ) (U := UU) (D (F := F)) 𝒱 (T d) Set.univ none
    (Prog.lift (.customCall (Pipeline.entry 0) ())) Φ
  have h := Pipeline.RegionSeg.wp (pcfgs (F := F)) adm (tcDats Vv) ι₀ cellOf_inj EP defs₀ 𝒱₀ (K (F := F)).L (K (F := F)).lev (regTC Vv) d none
    (fun _ h => nomatch h) (fun x => .ret x) Φ
  iintro ⟨#Hla, Hb, Hh, HO, ⟨Hg, Ht⟩, Hk⟩
  iapply hl
  iapply h
  isplitl [Hk]
  · iintro H
    rw [wp_ret]; imodintro
    iapply Hk; iexact H
  isplitl [Hb]; · iexact Hb
  isplitl [Hh HO]
  · iapply (show iprop(StableHlo.held (T d) ucRefs (Vv d) ∗ owesLow (F := F) d) ⊢ (regTC Vv).pre d from BI.Entails.refl _)
    isplitl [Hh] <;> iassumption
  isplitr; · iexact Hla
  isplitl [Hg] <;> iassumption

end Cert.Proof.Id

end
-- ==== Proof.LaunchVals.lean ====
/-
  What @main's buffers hold between its stages, as valuations: at launch, after each line of host operations, after
  the SparseCore call (the two results at the gathered rows), after the TensorCore region (its arrays at what the
  pipeline computes); and the program's result as a term of the launch memory.
-/
import proofs.«205279_g68771016344126_cont_9to1_m_1330_15_alg».proof.Proof.Common
import proofs.«205279_g68771016344126_cont_9to1_m_1330_15_alg».proof.Proof.HostOps
import proofs.«205279_g68771016344126_cont_9to1_m_1330_15_alg».proof.Proof.TileRes
import proofs.«205279_g68771016344126_cont_9to1_m_1330_15_alg».proof.Proof.LaunchRegion
import Idealize.ShloMosaic.Lib.Pipeline.FrameSuffix

noncomputable section

namespace Cert.Proof.Id

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## What @main's buffers hold, stage by stage -/

/-- At launch. -/
abbrev V₀ (d : Dev nD) : Valuation τ sig (Elt F) := fun b => m (d, b)
/-- After the first line of host operations. -/
abbrev V₁ (d : Dev nD) : Valuation τ sig (Elt F) := StableHlo.after hostA (V₀ m d)

/-- The three arrays the gather reads, as the SparseCore call finds them. -/
abbrev g4 (d : Dev nD) : Buf (Elt F) (t2Loc d) := V₁ m d main_v4
abbrev g5 (d : Dev nD) : Buf (Elt F) (t1Loc d) := V₁ m d main_v5
abbrev g2 (d : Dev nD) : Buf (Elt F) (ixLoc d) := V₁ m d main_v2

/-- After the SparseCore call: the two results at the gathered rows. -/
def V₂ (d : Dev nD) : Valuation τ sig (Elt F) :=
  Function.update (Function.update (V₁ m d) (main_v6_0 : Ref sig .tc) (e2Tgt d (g4 m d) (g2 m d))) (main_v6_1 : Ref sig .tc) (e1Tgt d (g5 m d) (g2 m d))

/-- After the second line. -/
abbrev V₃ (d : Dev nD) : Valuation τ sig (Elt F) := StableHlo.after hostB (V₂ m d)

/-- After the region: the windowed arrays at what the pipeline computes. -/
def V₄ (d : Dev nD) : Valuation τ sig (Elt F) :=
  Pipeline.withArrays spec1 d (V₃ m d) fun w => (tcDats (V₃ m) 0 d).arrAt w cfg1.N

/-- At the end. -/
abbrev V₅ (d : Dev nD) : Valuation τ sig (Elt F) := StableHlo.after hostC (V₄ m d)

/-- The result: the last line's transpose of what the pipeline leaves in its output array. -/
def RESULT (d : Dev nD) : Buf (Elt F) ((d.tc : Thread nD τ).loc main_v13) := V₅ m d main_v13

end Cert.Proof.Id

end
-- ==== Proof.LaunchGhost.lean ====
/-
  The launch element of the proof's ghost state: the handshakes' rounds, and the TensorCore pipeline's staging
  cells' rounds funded for the region's entry; the transfers' counters start empty.
-/
import proofs.«205279_g68771016344126_cont_9to1_m_1330_15_alg».proof.Proof.Common
import proofs.«205279_g68771016344126_cont_9to1_m_1330_15_alg».proof.Proof.LaunchPay
import proofs.«205279_g68771016344126_cont_9to1_m_1330_15_alg».proof.Proof.LaunchRegion
import proofs.«205279_g68771016344126_cont_9to1_m_1330_15_alg».proof.Proof.Gen.KernelIdeal.Launch

noncomputable section

namespace Cert.Proof.Id

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (f4 : (d : Dev nD) → Buf (Elt F) (t2Loc d)) (f5 : (d : Dev nD) → Buf (Elt F) (t1Loc d)) (f2 : (d : Dev nD) → Buf (Elt F) (ixLoc d))

/-! ## The launch element -/

/-- The handshakes' rounds at their launch state, the pipeline's staging cells' rounds at theirs, no counter. -/
def u₀ : UU :=
  (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G₀ (F := F) d)
        ∗ bigSep Finset.univ fun thr : Thread nD τ => bigSep Finset.univ fun q : Fin 1 => (P f4 f5 f2).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (cfgs) (EP (F := F)) cellOf_inj) $$ HP with ⟨Hg, Ht⟩
  imodintro
  isplitl [HH]; · iexact HH
  isplitl [Hg Ht]
  · rw [bigSep_sep']
    isplitl [Hg]
    · iapply (Entails.of_eq (bigSep_congr fun d _ => (bigSep_univ_of_subsingleton (0 : Fin 1)))) $$ Hg
    · iapply (Entails.of_eq (bigSep_congr fun d _ => (bigSep_univ_of_subsingleton (0 : Fin 1)))) $$ Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.Id

end
-- ==== Proof.LaunchSplit.lean ====
/-
  The five arrays of the SparseCore call, whole, against the thirty-two tiles' parts: the two results row block by row
  block (tile (c, s), tile number w = 2 s + c, owns rows 13 w … 13 w + 12 of the first and row w of the second when
  w < 26), the three arrays the gather reads as one read share per tile number beside the share the TensorCore keeps.
-/
import proofs.«205279_g68771016344126_cont_9to1_m_1330_15_alg».proof.Proof.Common
import proofs.«205279_g68771016344126_cont_9to1_m_1330_15_alg».proof.Proof.TileRes
import proofs.«205279_g68771016344126_cont_9to1_m_1330_15_alg».proof.Proof.LaunchPay
import Idealize.ShloMosaic.Lib.Transfers

noncomputable section

namespace Cert.Proof.Id

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Transfers (shareTokN shareDrop shareTok)

/-! ## Tiles as tile numbers -/

/-- The launch theorem's tile indices. -/
abbrev TIx : Type := Fin ((K (F := F)).nCore 0) × Fin ((K (F := F)).nSub 0)

omit [FloatOps F] in
theorem wid_tileL (c : Fin ((K (F := F)).nCore 0)) (i : Fin ((K (F := F)).nSub 0)) : wid (tileL c i) = 2 * i.val + c.val := rfl

/-- Tile numbers and tiles correspond: w = 2 s + c. -/
def widEquiv : TIx (F := F) ≃ Fin 32 where
  toFun x := ⟨2 * x.2.val + x.1.val, by have h1 : x.1.val < 2 := x.1.isLt; have h2 : x.2.val < 16 := x.2.isLt; omega⟩
  invFun w := (⟨w.val % 2, Nat.mod_lt _ (by decide)⟩, ⟨w.val / 2, by have := w.isLt; show w.val / 2 < 16; omega⟩)
  left_inv x := by
    have h1 : x.1.val < 2 := x.1.isLt
    refine Prod.ext (Fin.ext ?_) (Fin.ext ?_)
    · show (2 * x.2.val + x.1.val) % 2 = x.1.val; omega
    · show (2 * x.2.val + x.1.val) / 2 = x.2.val; omega
  right_inv w := Fin.ext (by show 2 * (w.val / 2) + w.val % 2 = w.val; omega)

omit [FloatOps F] in
/-- Over the tile numbers is over the SparseCores and their tiles. -/
theorem bigSep_workers (Φ : ℕ → sProp 𝕄) :
    (bigSep Finset.univ fun w : Fin 32 => Φ w.val)
      = bigSep Finset.univ fun c : Fin ((K (F := F)).nCore 0) => bigSep Finset.univ fun i : Fin ((K (F := F)).nSub 0) => Φ (wid (tileL c i)) := by
  rw [bigSep_univ_equiv (widEquiv (F := F)) (fun w : Fin 32 => Φ w.val), bigSep_univ_prod]
  rfl

/-! ## The rows of the two results, tile by tile -/

omit [FloatOps F] in
theorem mem_e2Region (L : grid0.Coords) (j : S416x16384.Idx) : j ∈ e2Region L ↔ 13 * wid L ≤ (j 0).val ∧ (j 0).val < 13 * wid L + 13 := by
  show j ∈ ((View.whole (main_v6_0_scv : Ref sig .scVector)).slice (e2Rect L)).set ↔ _
  rw [View.set_slice_whole, Rect.mem_set_unit]
  constructor
  · intro h; have := h 0; simpa using this
  · intro h a
    have h1 : (j 1).val < 16384 := (j 1).isLt
    fin_cases a <;> simp <;> omega

omit [FloatOps F] in
theorem mem_e1Region (L : grid0.Coords) (j : S26x16384.Idx) : j ∈ e1Region L ↔ (j 0).val = wid L := by
  have hj0 : (j 0).val < 26 := (j 0).isLt
  unfold e1Region
  split
  · next h =>
    show j ∈ ((View.whole (main_v6_1_scv : Ref sig .scVector)).slice (Rect.unit (s := S26x16384) ![wid L, 0] ![1, 16384] (e1Row_inb L h))).set ↔ _
    rw [View.set_slice_whole, Rect.mem_set_unit]
    constructor
    · intro h'; have := h' 0; simp at this; omega
    · intro h' a
      have h1 : (j 1).val < 16384 := (j 1).isLt
      fin_cases a <;> simp <;> omega
  · next h => simp only [Finset.notMem_empty, false_iff]; omega

omit [FloatOps F] in
theorem wid_inj {x y : TIx (F := F)} (h : wid (tileL x.1 x.2) = wid (tileL y.1 y.2)) : x = y := by
  have := congrArg (widEquiv (F := F)).symm (show widEquiv (F := F) x = widEquiv y from Fin.ext h)
  simpa using this

omit [FloatOps F] in
theorem e2_disjoint : ∀ x ∈ (Finset.univ : Finset (TIx (F := F))), ∀ y ∈ (Finset.univ : Finset (TIx (F := F))), x ≠ y →
    Disjoint (e2Region (tileL x.1 x.2)) (e2Region (tileL y.1 y.2)) := fun x _ y _ hne =>
  Finset.disjoint_left.mpr fun j h1 h2 => by
    rw [mem_e2Region] at h1 h2
    exact hne (wid_inj (by omega))

omit [FloatOps F] in
theorem e2_cover : (Finset.univ : Finset (TIx (F := F))).biUnion (fun x => e2Region (tileL x.1 x.2)) = Finset.univ := by
  ext j
  simp only [Finset.mem_biUnion, Finset.mem_univ, true_and, iff_true]
  have hj : (j 0).val < 416 := (j 0).isLt
  refine ⟨(widEquiv (F := F)).symm ⟨(j 0).val / 13, by omega⟩, ?_⟩
  rw [mem_e2Region]
  have hw : wid (tileL ((widEquiv (F := F)).symm ⟨(j 0).val / 13, by omega⟩).1 ((widEquiv (F := F)).symm ⟨(j 0).val / 13, by omega⟩).2) = (j 0).val / 13 :=
    congrArg Fin.val ((widEquiv (F := F)).apply_symm_apply ⟨(j 0).val / 13, by omega⟩)
  rw [hw]; omega

omit [FloatOps F] in
theorem e1_disjoint : ∀ x ∈ (Finset.univ : Finset (TIx (F := F))), ∀ y ∈ (Finset.univ : Finset (TIx (F := F))), x ≠ y →
    Disjoint (e1Region (tileL x.1 x.2)) (e1Region (tileL y.1 y.2)) := fun x _ y _ hne =>
  Finset.disjoint_left.mpr fun j h1 h2 => by
    rw [mem_e1Region] at h1 h2
    exact hne (wid_inj (by omega))

omit [FloatOps F] in
theorem e1_cover : (Finset.univ : Finset (TIx (F := F))).biUnion (fun x => e1Region (tileL x.1 x.2)) = Finset.univ := by
  ext j
  simp only [Finset.mem_biUnion, Finset.mem_univ, true_and, iff_true]
  have hj : (j 0).val < 26 := (j 0).isLt
  refine ⟨(widEquiv (F := F)).symm ⟨(j 0).val, by omega⟩, ?_⟩
  rw [mem_e1Region]
  exact (congrArg Fin.val ((widEquiv (F := F)).apply_symm_apply ⟨(j 0).val, by omega⟩)).symm

omit [FloatOps F] in
/-- A result array whole is its tiles' rows. -/
theorem e2_rows (d : Dev nD) (g : Buf (Elt F) (e2Loc d)) :
    (e2Loc d ↦{fullShare} g : sProp 𝕄)
      = bigSep Finset.univ fun c : Fin ((K (F := F)).nCore 0) => bigSep Finset.univ fun i : Fin ((K (F := F)).nSub 0) => e2Loc d ↦[e2Region (tileL c i)]{fullShare} g := by
  rw [← bigSep_univ_prod (fun x : TIx (F := F) => (e2Loc d ↦[e2Region (tileL x.1 x.2)]{fullShare} g : sProp 𝕄)),
    ← pointsTo_biUnion Finset.univ (ℓ := e2Loc d) (fun x : TIx (F := F) => e2Region (tileL x.1 x.2)) e2_disjoint, e2_cover]
  try rfl
omit [FloatOps F] in
theorem e1_rows (d : Dev nD) (g : Buf (Elt F) (e1Loc d)) :
    (e1Loc d ↦{fullShare} g : sProp 𝕄)
      = bigSep Finset.univ fun c : Fin ((K (F := F)).nCore 0) => bigSep Finset.univ fun i : Fin ((K (F := F)).nSub 0) => e1Loc d ↦[e1Region (tileL c i)]{fullShare} g := by
  rw [← bigSep_univ_prod (fun x : TIx (F := F) => (e1Loc d ↦[e1Region (tileL x.1 x.2)]{fullShare} g : sProp 𝕄)),
    ← pointsTo_biUnion Finset.univ (ℓ := e1Loc d) (fun x : TIx (F := F) => e1Region (tileL x.1 x.2)) e1_disjoint, e1_cover]
  try rfl

omit [FloatOps F] in
/-- An array every tile reads: the share the TensorCore keeps and one read share per tile. -/
theorem read_shares (ℓ : Loc nD τ sig) (f : Buf (Elt F) ℓ) :
    (ℓ ↦{fullShare} f : sProp 𝕄) ⊣⊢ iprop((ℓ ↦{shareDrop fullShare 32} f)
      ∗ bigSep Finset.univ fun c : Fin ((K (F := F)).nCore 0) => bigSep Finset.univ fun i : Fin ((K (F := F)).nSub 0) => ℓ ↦{shareTokN fullShare (wid (tileL c i))} f) := by
  rw [← bigSep_workers (F := F) (fun w => (ℓ ↦{shareTokN fullShare w} f : sProp 𝕄))]
  exact Transfers.pointsTo_toks fullShare 32

/-! ## The call's operands dealt to the tiles, and gathered back -/

omit [FloatOps F] in
/-- The five arrays whole are the shares the TensorCore keeps of the three the gather reads, and every tile's part. -/
theorem tiles_in (d : Dev nD) (a4 : Buf (Elt F) (t2Loc d)) (a5 : Buf (Elt F) (t1Loc d)) (a2 : Buf (Elt F) (ixLoc d))
    (g6 : Buf (Elt F) (e2Loc d)) (g7 : Buf (Elt F) (e1Loc d)) :
    iprop((t2Loc d ↦{fullShare} a4) ∗ (t1Loc d ↦{fullShare} a5) ∗ (ixLoc d ↦{fullShare} a2) ∗ (e2Loc d ↦{fullShare} g6) ∗ (e1Loc d ↦{fullShare} g7))
      ⊢ (iprop(((t2Loc d ↦{shareDrop fullShare 32} a4) ∗ (t1Loc d ↦{shareDrop fullShare 32} a5) ∗ (ixLoc d ↦{shareDrop fullShare 32} a2))
          ∗ bigSep Finset.univ fun c : Fin ((K (F := F)).nCore 0) => bigSep Finset.univ fun i : Fin ((K (F := F)).nSub 0) => TileIn d a4 a5 a2 (tileL c i)) : sProp 𝕄) := by
  unfold TileIn
  simp only [bigSep_sep']
  iintro ⟨H4, H5, H2, H6, H7⟩
  ihave H4 := (read_shares (F := F) (t2Loc d) a4).1 $$ H4
  icases H4 with ⟨R4, T4⟩
  ihave H5 := (read_shares (F := F) (t1Loc d) a5).1 $$ H5
  icases H5 with ⟨R5, T5⟩
  ihave H2 := (read_shares (F := F) (ixLoc d) a2).1 $$ H2
  icases H2 with ⟨R2, T2⟩
  ihave H6 := (Entails.of_eq (e2_rows (F := F) d g6)) $$ H6
  ihave H7 := (Entails.of_eq (e1_rows (F := F) d g7)) $$ H7
  isplitl [R4 R5 R2]
  · isplitl [R4]; · iexact R4
    isplitl [R5] <;> iassumption
  isplitl [T4]; · iexact T4
  isplitl [T5]; · iexact T5
  isplitl [T2]; · iexact T2
  isplitl [H6]
  · have h6 : (bigSep Finset.univ fun c : Fin ((K (F := F)).nCore 0) => bigSep Finset.univ fun i : Fin ((K (F := F)).nSub 0) => (e2Loc d ↦[e2Region (tileL c i)]{fullShare} g6 : sProp 𝕄))
        ⊢ bigSep Finset.univ fun c : Fin ((K (F := F)).nCore 0) => bigSep Finset.univ fun i : Fin ((K (F := F)).nSub 0) => iprop(∃ g, e2Loc d ↦[e2Region (tileL c i)]{fullShare} g) :=
      bigSep_mono fun c _ => bigSep_mono fun i _ =>
        (show (e2Loc d ↦[e2Region (tileL c i)]{fullShare} g6 : sProp 𝕄) ⊢ iprop(∃ g, e2Loc d ↦[e2Region (tileL c i)]{fullShare} g) from by iintro H; iexists g6; iexact H)
    iapply h6; iexact H6
  · have h7 : (bigSep Finset.univ fun c : Fin ((K (F := F)).nCore 0) => bigSep Finset.univ fun i : Fin ((K (F := F)).nSub 0) => (e1Loc d ↦[e1Region (tileL c i)]{fullShare} g7 : sProp 𝕄))
        ⊢ bigSep Finset.univ fun c : Fin ((K (F := F)).nCore 0) => bigSep Finset.univ fun i : Fin ((K (F := F)).nSub 0) => iprop(∃ g, e1Loc d ↦[e1Region (tileL c i)]{fullShare} g) :=
      bigSep_mono fun c _ => bigSep_mono fun i _ =>
        (show (e1Loc d ↦[e1Region (tileL c i)]{fullShare} g7 : sProp 𝕄) ⊢ iprop(∃ g, e1Loc d ↦[e1Region (tileL c i)]{fullShare} g) from by iintro H; iexists g7; iexact H)
    iapply h7; iexact H7

omit [FloatOps F] in
/-- Back: the kept shares and every tile's part returned make the three read arrays whole as they were and the two
    results whole at the gathered rows. -/
theorem tiles_out (d : Dev nD) (a4 : Buf (Elt F) (t2Loc d)) (a5 : Buf (Elt F) (t1Loc d)) (a2 : Buf (Elt F) (ixLoc d)) :
    (iprop(((t2Loc d ↦{shareDrop fullShare 32} a4) ∗ (t1Loc d ↦{shareDrop fullShare 32} a5) ∗ (ixLoc d ↦{shareDrop fullShare 32} a2))
          ∗ bigSep Finset.univ fun c : Fin ((K (F := F)).nCore 0) => bigSep Finset.univ fun i : Fin ((K (F := F)).nSub 0) => TileOut d a4 a5 a2 (tileL c i)) : sProp 𝕄)
      ⊢ iprop((t2Loc d ↦{fullShare} a4) ∗ (t1Loc d ↦{fullShare} a5) ∗ (ixLoc d ↦{fullShare} a2)
          ∗ (e2Loc d ↦{fullShare} e2Tgt d a4 a2) ∗ (e1Loc d ↦{fullShare} e1Tgt d a5 a2)) := by
  unfold TileOut
  simp only [bigSep_sep']
  iintro ⟨⟨R4, R5, R2⟩, T4, T5, T2, H6, H7⟩
  isplitl [R4 T4]
  · iapply (read_shares (F := F) (t2Loc d) a4).2; isplitl [R4] <;> iassumption
  isplitl [R5 T5]
  · iapply (read_shares (F := F) (t1Loc d) a5).2; isplitl [R5] <;> iassumption
  isplitl [R2 T2]
  · iapply (read_shares (F := F) (ixLoc d) a2).2; isplitl [R2] <;> iassumption
  isplitl [H6]
  · iapply (Entails.of_eq (e2_rows (F := F) d (e2Tgt d a4 a2)).symm); iexact H6
  · iapply (Entails.of_eq (e1_rows (F := F) d (e1Tgt d a5 a2)).symm); iexact H7

end Cert.Proof.Id

end
-- ==== Proof.LaunchCall.lean ====
/-
  Around the SparseCore call in @main: its five arrays taken out of the buffers @main holds and dealt to the tiles,
  and what the tiles hand back put among them again — the two results now at the gathered rows.
-/
import proofs.«205279_g68771016344126_cont_9to1_m_1330_15_alg».proof.Proof.Common
import proofs.«205279_g68771016344126_cont_9to1_m_1330_15_alg».proof.Proof.HostOps
import proofs.«205279_g68771016344126_cont_9to1_m_1330_15_alg».proof.Proof.TileRes
import proofs.«205279_g68771016344126_cont_9to1_m_1330_15_alg».proof.Proof.LaunchPay
import proofs.«205279_g68771016344126_cont_9to1_m_1330_15_alg».proof.Proof.LaunchSplit
import proofs.«205279_g68771016344126_cont_9to1_m_1330_15_alg».proof.Proof.LaunchVals

noncomputable section

namespace Cert.Proof.Id

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Transfers (shareTokN shareDrop shareTok)

variable (m : (ℓ : Loc nD τ sig) → Buf (Elt F) ℓ)

/-! ## The call's five arrays among @main's buffers -/

/-- The transposed table, the first-order table, the index array, the two results. -/
def R5 : Finset (Ref sig .tc) := {main_v4, main_v5, main_v2, main_v6_0, main_v6_1}
def T5 : Finset (DevRef τ sig) := R5.map ⟨Proc.devRef (sig := sig) (.tc : Proc τ), Proc.devRef_injective _⟩

omit [FloatOps F] in
theorem mem_ucRefs (b : Ref sig .tc) (h : b.isScoped = false) : (Proc.devRef (τ := τ) .tc b) ∈ ucRefs :=
  Finset.mem_filter.mpr ⟨StableHlo.devRef_mem_tcRefs b, fun h' => Bool.false_ne_true (h.symm.trans h')⟩

theorem T5_sub : T5 ⊆ ucRefs := by
  intro b hb
  obtain ⟨r, hr, rfl⟩ := Finset.mem_map.mp hb
  simp only [R5, Finset.mem_insert, Finset.mem_singleton] at hr
  rcases hr with rfl | rfl | rfl | rfl | rfl <;> exact mem_ucRefs _ (by decide)

omit [FloatOps F] in
/-- Held at a valuation, they are five points-tos. -/
theorem held_T5 (d : Dev nD) (W : Valuation τ sig (Elt F)) :
    (StableHlo.held (T d) T5 W : sProp 𝕄)
      = iprop((t2Loc d ↦{fullShare} W main_v4) ∗ (t1Loc d ↦{fullShare} W main_v5) ∗ (ixLoc d ↦{fullShare} W main_v2)
          ∗ (e2Loc d ↦{fullShare} W main_v6_0) ∗ (e1Loc d ↦{fullShare} W main_v6_1)) := by
  unfold StableHlo.held T5 R5
  rw [bigSep_map, SparseCore.bigSep_insert' (by decide), SparseCore.bigSep_insert' (by decide), SparseCore.bigSep_insert' (by decide),
    SparseCore.bigSep_insert' (by decide), bigSep_singleton]
  rfl

/-! ## The valuation after the call -/

theorem V₂_v60 (d : Dev nD) : V₂ m d main_v6_0 = e2Tgt d (g4 m d) (g2 m d) := by
  unfold V₂
  rw [Function.update_of_ne (StableHlo.devRef_ne_of_ne (by decide)), Function.update_self]
theorem V₂_v61 (d : Dev nD) : V₂ m d main_v6_1 = e1Tgt d (g5 m d) (g2 m d) := by
  unfold V₂
  rw [Function.update_self]
theorem V₂_of_ne (d : Dev nD) (b : Ref sig .tc) (h0 : b ≠ main_v6_0) (h1 : b ≠ main_v6_1) : V₂ m d b = V₁ m d b := by
  unfold V₂
  rw [Function.update_of_ne (StableHlo.devRef_ne_of_ne h1), Function.update_of_ne (StableHlo.devRef_ne_of_ne h0)]
theorem V₂_off (d : Dev nD) (b : DevRef τ sig) (hb : b ∈ ucRefs \ T5) : V₁ m d b = V₂ m d b := by
  obtain ⟨hu, hn⟩ := Finset.mem_sdiff.mp hb
  unfold V₂
  rw [Function.update_of_ne, Function.update_of_ne]
  · rintro rfl; exact hn (Finset.mem_map.mpr ⟨main_v6_0, by simp [R5], rfl⟩)
  · rintro rfl; exact hn (Finset.mem_map.mpr ⟨main_v6_1, by simp [R5], rfl⟩)

/-! ## Around the call -/

/-- Before: the buffers held after the first line are the shares the TensorCore keeps, every SparseCore's part of
    the call's operands, and the other buffers. -/
theorem take5 (d : Dev nD) :
    (StableHlo.held (T d) ucRefs (V₁ m d) : sProp 𝕄)
      ⊢ iprop((((t2Loc d ↦{shareDrop fullShare 32} g4 m d) ∗ (t1Loc d ↦{shareDrop fullShare 32} g5 m d) ∗ (ixLoc d ↦{shareDrop fullShare 32} g2 m d))
          ∗ bigSep Finset.univ fun c : Fin ((K (F := F)).nCore 0) => (P (g4 m) (g5 m) (g2 m)).st 0 d c)
        ∗ StableHlo.held (T d) (ucRefs \ T5) (V₁ m d)) := by
  rw [StableHlo.held_sub_split (T d) T5_sub, held_T5]
  exact sep_mono (tiles_in d (g4 m d) (g5 m d) (g2 m d) _ _) .rfl

/-- After: what the SparseCores hand back, the kept shares and the other buffers are the buffers held at the
    valuation with the two results at the gathered rows. -/
theorem give5 (d : Dev nD) :
    iprop((((t2Loc d ↦{shareDrop fullShare 32} g4 m d) ∗ (t1Loc d ↦{shareDrop fullShare 32} g5 m d) ∗ (ixLoc d ↦{shareDrop fullShare 32} g2 m d))
          ∗ bigSep Finset.univ fun c : Fin ((K (F := F)).nCore 0) => (P (g4 m) (g5 m) (g2 m)).dn 0 d c)
        ∗ StableHlo.held (T d) (ucRefs \ T5) (V₁ m d))
      ⊢ (StableHlo.held (T d) ucRefs (V₂ m d) : sProp 𝕄) := by
  rw [StableHlo.held_sub_split (T d) T5_sub (V₂ m d), held_T5, V₂_v60, V₂_v61, V₂_of_ne m d main_v4 (by decide) (by decide),
    V₂_of_ne m d main_v5 (by decide) (by decide), V₂_of_ne m d main_v2 (by decide) (by decide),
    StableHlo.held_congr (T d) (V := V₁ m d) (V' := V₂ m d) (V₂_off m d)]
  exact sep_mono (tiles_out d (g4 m d) (g5 m d) (g2 m d)) .rfl

end Cert.Proof.Id

end
-- ==== Proof.LaunchExit.lean ====
/-
  After the TensorCore region: the pipeline's arrays and the other buffers are @main's buffers held at one valuation
  again; which buffers each line of host operations writes; and that every argument array ends as launched.
-/
import proofs.«205279_g68771016344126_cont_9to1_m_1330_15_alg».proof.Proof.Common
import proofs.«205279_g68771016344126_cont_9to1_m_1330_15_alg».proof.Proof.HostOps
import proofs.«205279_g68771016344126_cont_9to1_m_1330_15_alg».proof.Proof.TileRes
import proofs.«205279_g68771016344126_cont_9to1_m_1330_15_alg».proof.Proof.LaunchRegion
import proofs.«205279_g68771016344126_cont_9to1_m_1330_15_alg».proof.Proof.LaunchVals
import proofs.«205279_g68771016344126_cont_9to1_m_1330_15_alg».proof.Proof.LaunchCall
import Idealize.ShloMosaic.Lib.Pipeline.FrameSuffix

noncomputable section

namespace Cert.Proof.Id

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## Which buffers a line writes -/

omit [FloatOps F] in
theorem hostA_keeps (b : Ref sig .tc) (h : b ∉ ({main_v0, main_v1, main_v2, main_v3, main_v4, main_v5} : Finset (Ref sig .tc))) :
    ∀ op ∈ (hostA (F := F)), Proc.devRef .tc b ∉ op.writes := by
  simp only [Finset.mem_insert, Finset.mem_singleton, not_or] at h
  obtain ⟨h0, h1, h2, h3, h4, h5⟩ := h
  intro op hop
  simp only [hostA, List.mem_cons, List.mem_nil_iff, or_false] at hop
  rcases hop with rfl | rfl | rfl | rfl | rfl | rfl <;>
    simp only [StableHlo.unary_writes, StableHlo.reshape_writes, Finset.mem_singleton] <;>
    exact StableHlo.devRef_ne_of_ne ‹_›

omit [FloatOps F] in
theorem hostB_keeps (b : Ref sig .tc) (h : b ∉ ({main_v7, main_v8, main_v9, main_v10, main_v11} : Finset (Ref sig .tc))) :
    ∀ op ∈ (hostB (F := F)), Proc.devRef .tc b ∉ op.writes := by
  simp only [Finset.mem_insert, Finset.mem_singleton, not_or] at h
  obtain ⟨h0, h1, h2, h3, h4⟩ := h
  intro op hop
  simp only [hostB, List.mem_cons, List.mem_nil_iff, or_false] at hop
  rcases hop with rfl | rfl | rfl | rfl | rfl <;>
    simp only [StableHlo.unary_writes, StableHlo.reshape_writes, Finset.mem_singleton] <;>
    exact StableHlo.devRef_ne_of_ne ‹_›

omit [FloatOps F] in
theorem hostC_keeps (b : Ref sig .tc) (h : b ≠ main_v13) : ∀ op ∈ (hostC (F := F)), Proc.devRef .tc b ∉ op.writes := by
  intro op hop
  simp only [hostC, List.mem_cons, List.mem_nil_iff, or_false] at hop
  rcases hop with rfl
  simp only [StableHlo.unary_writes, Finset.mem_singleton]
  exact StableHlo.devRef_ne_of_ne h

/-! ## The region's exit -/

/-- Every window but the last is an input. -/
theorem isOut_false (w : Fin cfg1.W) (h : w ≠ 11) : (cfg1.win w).isOut = false := by
  revert w; decide

/-- After the region a buffer other than the pipeline's output holds what it held before. -/
theorem V₄_of_ne (d : Dev nD) (b : Ref sig .tc) (h : b ≠ main_v12) : V₄ m d b = V₃ m d b := by
  unfold V₄
  by_cases hw : ∃ w, Pipeline.arrRef spec1 w = b
  · obtain ⟨w, rfl⟩ := hw
    have hw11 : w ≠ 11 := by rintro rfl; exact h rfl
    rw [Pipeline.withArrays_arr spec1 launch1.win.arr_inj d _ _ w]
    exact ((tcDats (V₃ m) 0 d).arrAt_in w (isOut_false w hw11) _).trans rfl
  · exact Pipeline.withArrays_of_ne spec1 d _ _ b fun w e => hw ⟨w, e⟩

/-- The arrays at what the pipeline computes beside the other buffers as they were are @main's buffers held at the
    valuation after the region. -/
theorem region_exit (d : Dev nD) :
    iprop((tcDats (V₃ m) 0 d).arrays ((tcDats (V₃ m) 0 d).arrAt · cfg1.N) ∗ Pipeline.unscopedRest spec1 d (fun b => V₃ m d b))
      ⊢ (StableHlo.held (SparseCore.T d) ucRefs (V₄ m d) : sProp 𝕄) := by
  have e1 : ∀ w, V₄ m d (Pipeline.arrRef spec1 w) = (tcDats (V₃ m) 0 d).arrAt w cfg1.N := fun w =>
    Pipeline.withArrays_arr spec1 launch1.win.arr_inj d _ _ w
  have e2 : (Pipeline.unscopedRest spec1 d (fun b => V₄ m d b) : sProp 𝕄) = Pipeline.unscopedRest spec1 d (fun b => V₃ m d b) := by
    unfold Pipeline.unscopedRest
    exact bigSep_congr fun b hb => by
      dsimp only
      rw [show V₄ m d b = V₃ m d b from Pipeline.withArrays_of_ne spec1 d _ _ b fun w e =>
        (Finset.mem_sdiff.mp hb).2 (Finset.mem_image.mpr ⟨w, Finset.mem_univ _, e⟩)]
  rw [← unscopedBufs_held d (V₄ m d), Pipeline.unscopedBufs_split cfgs 0 launch1.win.arr_unscoped launch1.win.arr_inj d, e2,
    Pipeline.arrays_eq cfgs (tcDats (V₃ m)) 0 d launch1.arr_whole ((tcDats (V₃ m) 0 d).share_full fun _ => rfl)]
  exact sep_mono (Entails.of_eq (bigSep_congr fun w _ => by rw [e1])) .rfl

/-! ## The arguments at the end -/

/-- An argument array holds at the end what it held at launch: no line writes it, the call's results and the
    pipeline's output are other buffers. -/
theorem V₅_arg (d : Dev nD) (b : Ref sig .tc)
    (h : b ∈ ({main_arg0, main_arg1, main_arg2, main_arg3, main_arg4, main_arg5, main_arg6, main_arg7, main_arg8, main_arg9, main_arg10, main_arg11} : Finset (Ref sig .tc))) :
    V₅ m d b = m (d, Proc.devRef .tc b) := by
  have hA : b ∉ ({main_v0, main_v1, main_v2, main_v3, main_v4, main_v5} : Finset (Ref sig .tc)) := by revert b; decide
  have hB : b ∉ ({main_v7, main_v8, main_v9, main_v10, main_v11} : Finset (Ref sig .tc)) := by revert b; decide
  have h60 : b ≠ main_v6_0 := by revert b; decide
  have h61 : b ≠ main_v6_1 := by revert b; decide
  have h12 : b ≠ main_v12 := by revert b; decide
  have h13 : b ≠ main_v13 := by revert b; decide
  show StableHlo.after hostC (V₄ m d) (Proc.devRef .tc b) = _
  rw [StableHlo.after_of_forall_not_mem hostC _ (hostC_keeps b h13), V₄_of_ne m d b h12]
  show StableHlo.after hostB (V₂ m d) (Proc.devRef .tc b) = _
  rw [StableHlo.after_of_forall_not_mem hostB _ (hostB_keeps b hB), V₂_of_ne m d b h60 h61]
  exact StableHlo.after_of_forall_not_mem hostA _ (hostA_keeps b hA)

end Cert.Proof.Id

end
-- ==== Proof.LaunchMain.lean ====
/-
  @main on the TensorCore, inside the SparseCore launch: the first line of host operations, the SparseCore call
  (its operands dealt to the tiles, the gathered rows taken back), the second line, the TensorCore region, the last
  line — @main's buffers held at one valuation after each.
-/
import proofs.«205279_g68771016344126_cont_9to1_m_1330_15_alg».proof.Proof.Common
import proofs.«205279_g68771016344126_cont_9to1_m_1330_15_alg».proof.Proof.HostOps
import proofs.«205279_g68771016344126_cont_9to1_m_1330_15_alg».proof.Proof.TileRes
import proofs.«205279_g68771016344126_cont_9to1_m_1330_15_alg».proof.Proof.LaunchPay
import proofs.«205279_g68771016344126_cont_9to1_m_1330_15_alg».proof.Proof.LaunchSplit
import proofs.«205279_g68771016344126_cont_9to1_m_1330_15_alg».proof.Proof.LaunchRegion
import proofs.«205279_g68771016344126_cont_9to1_m_1330_15_alg».proof.Proof.LaunchVals
import proofs.«205279_g68771016344126_cont_9to1_m_1330_15_alg».proof.Proof.LaunchCall
import proofs.«205279_g68771016344126_cont_9to1_m_1330_15_alg».proof.Proof.LaunchExit

noncomputable section

namespace Cert.Proof.Id

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.Transfers (shareTokN shareDrop shareTok)

variable (m : (ℓ : Loc nD τ sig) → Buf (Elt F) ℓ) (ρ : Dev nD → PrngReg)

/-- What the handshakes carry, at the contents the first line of host operations leaves. -/
abbrev PP : (K (F := F)).Pay (nD := nD) (Val := Elt F) (Name := ℕ) (U := UU) := P (g4 m) (g5 m) (g2 m)

/-- What the TensorCore ends with: @main's buffers held at the last valuation. -/
abbrev FIN (d : Dev nD) : sProp 𝕄 := StableHlo.held (T d) ucRefs (V₅ m d)

/-- @main, the last line followed by the return. -/
theorem main_eq' (d : Dev nD) :
    main (F := F) d = (StableHlo.seq hostA >>= fun _ => (K (F := F)).run d 0 >>= fun _ => StableHlo.seq hostB >>= fun _ => regionCall >>= fun _ =>
      StableHlo.seq hostC >>= fun _ => pure ⟨⟩) := by
  rfl

/-- After the one call the TensorCore owes nothing; what it owes can be taken out of its state and put back. -/
theorem tcSt_owes (d : Dev nD) :
    (K (F := F)).tcSt EH d 1 ⊢ (iprop(owesLow (F := F) d ∗ (owesLow (F := F) d -∗ (K (F := F)).tcSt EH d 1)) : sProp 𝕄) := by
  unfold SparseCore.Cfg.tcSt
  rw [(K (F := F)).Otc_end d (le_refl 1)]
  iintro ⟨⟨%W, -, HO⟩, Hrest⟩
  isplitl [HO]; · iexists W; iexact HO
  iintro ⟨%W', HO⟩
  isplitl [HO]
  · iexists W'; isplitr; · ipureintro; exact wBelow_any _ _
    iexact HO
  iexact Hrest

/-- What the launch deals the TensorCore: the boundary, and @main's buffers held at the launch contents. -/
theorem tcRes_held (d : Dev nD) :
    (K (F := F)).tcRes m ρ d ⊢ (iprop(boundary (T d) ∗ StableHlo.held (T d) ucRefs (V₀ m d)) : sProp 𝕄) := by
  unfold SparseCore.Cfg.tcRes
  rw [← unscopedBufs_held d (V₀ m d)]
  iintro ⟨Hb, Hh, -, -⟩
  isplitl [Hb]; · iexact Hb
  iexact Hh

set_option backward.isDefEq.respectTransparency.types false in
/-- A line of host operations inside the SparseCore program, over @main's buffers held at a valuation. -/
theorem wp_line (d : Dev nD) (ops : List (HloOp τ sig (Elt F))) (hS : ∀ op ∈ ops, op.bufs ⊆ ucRefs) (hf : ∀ op ∈ ops, op.fresh = ∅)
    (W : Valuation τ sig (Elt F)) {β : Type} (k : PUnit → Prog (TpuEff nD τ sig (Elt F) (SparseCore.Sig (ΛP (F := F)) 1) .tc) β) (Φ : β → sProp 𝕄) :
    iprop(boundary (T d) ∗ StableHlo.held (T d) ucRefs W
        ∗ (iprop(boundary (T d) ∗ StableHlo.held (T d) ucRefs (StableHlo.after ops W)) -∗ wp frame (wpE ((K (F := F)).defs (D (F := F))) 𝒱 (T d) none) Set.univ (k ⟨⟩) Φ))
      ⊢ wp frame (wpE ((K (F := F)).defs (D (F := F))) 𝒱 (T d) none) Set.univ (StableHlo.seq ops >>= k) Φ := by
  have hseq := StableHlo.wp_seq (defs := (K (F := F)).defs (D (F := F))) 𝒱 none Set.univ d ucRefs k (K := Φ) ops hS hf W
  iintro ⟨Hb, Hh, Hk⟩
  iapply hseq $$ [Hb Hh]
  · isplitl [Hb] <;> iassumption
  iexact Hk

/-- @main on device d's TensorCore. -/
theorem hmain (κ : GSem nD τ sig → ℕ) (d : Dev nD) :
    iprop((K (F := F)).ctx EH (PP m) κ ∗ (K (F := F)).tcSt EH d 0 ∗ (K (F := F)).tcRes m ρ d ∗ G₀ (F := F) d)
      ⊢ wp frame (wpE ((K (F := F)).defs (D (F := F))) 𝒱 (T d) none) Set.univ (main (F := F) d)
          fun _ => iprop((K (F := F)).tcSt EH d 1 ∗ FIN m d) := by
  rw [main_eq']
  iintro ⟨#Hctx, Hst, Hres, HG⟩
  ihave #Hla := (SparseCore.Cfg.ctx_levAts κ) $$ Hctx
  ihave Hres := (tcRes_held m ρ d) $$ Hres
  icases Hres with ⟨Hb, Hh⟩
  -- the first line
  iapply (wp_line d hostA hostA_sub hostA_fresh (V₀ m d) _ _) $$ [Hb Hh Hst HG]
  isplitl [Hb]; · iexact Hb
  isplitl [Hh]; · iexact Hh
  iintro ⟨Hb, Hh⟩
  -- the SparseCore call
  rw [wp_bind]
  ihave H5 := (take5 m d) $$ Hh
  icases H5 with ⟨⟨Hrem, Htiles⟩, Hrest⟩
  iapply ((K (F := F)).wp_run (D (F := F)) 𝒱 (EH := EH) (P := PP m) κ d 0) $$ [Hst Htiles Hrem Hrest Hb HG]
  isplitr; · iexact Hctx
  isplitl [Hst]; · iexact Hst
  isplitl [Htiles]; · iexact Htiles
  iintro ⟨Hst, Hdn⟩
  ihave Hst := (show (K (F := F)).tcSt EH d ((0 : Fin 1).val + 1) ⊢ ((K (F := F)).tcSt EH d 1 : sProp 𝕄) from BI.Entails.refl _) $$ Hst
  ihave Hh := (give5 m d) $$ [Hrem Hdn Hrest]
  · isplitl [Hrem Hdn]
    · isplitl [Hrem] <;> iassumption
    iexact Hrest
  -- the second line
  iapply (wp_line d hostB hostB_sub hostB_fresh (V₂ m d) _ _) $$ [Hb Hh Hst HG]
  isplitl [Hb]; · iexact Hb
  isplitl [Hh]; · iexact Hh
  iintro ⟨Hb, Hh⟩
  -- the region
  rw [wp_bind]
  ihave HO := (tcSt_owes d) $$ Hst
  icases HO with ⟨HO, Hst⟩
  iapply (wp_region (V₃ m) d _) $$ [Hb Hh HO HG Hst]
  isplitr; · iexact Hla
  isplitl [Hb]; · iexact Hb
  isplitl [Hh]; · iexact Hh
  isplitl [HO]; · iexact HO
  isplitl [HG]; · iexact HG
  iintro ⟨Hb, Hpost⟩
  ihave Hpost' := (show (regTC (V₃ m)).post d ⊢ iprop((tcDats (V₃ m) 0 d).arrays ((tcDats (V₃ m) 0 d).arrAt · cfg1.N)
      ∗ Pipeline.unscopedRest spec1 d (fun b => V₃ m d b) ∗ owesLow (F := F) d) from BI.Entails.refl _) $$ Hpost
  icases Hpost' with ⟨Ha, Hr, HO⟩
  ihave Hst := Hst $$ HO
  ihave Hh := (region_exit m d) $$ [Ha Hr]
  · isplitl [Ha] <;> iassumption
  -- the last line
  iapply (wp_line d hostC hostC_sub hostC_fresh (V₄ m d) _ _) $$ [Hb Hh Hst]
  isplitl [Hb]; · iexact Hb
  isplitl [Hh]; · iexact Hh
  iintro ⟨-, Hh⟩
  rw [wp_pure]; imodintro
  isplitl [Hst]; · iexact Hst
  iexact Hh

end Cert.Proof.Id

end
-- ==== Proof.LaunchRun.lean ====
/-
  The program's run by the SparseCore launch theorem: from the tile's body obligation, the TensorCore's @main, the
  launch element and the final memory's reading, every weakly fair execution of the device's thirty-five threads
  terminates with the result a stated term of the launch memory and every argument array unchanged.
-/
import proofs.«205279_g68771016344126_cont_9to1_m_1330_15_alg».proof.Proof.Common
import proofs.«205279_g68771016344126_cont_9to1_m_1330_15_alg».proof.Proof.HostOps
import proofs.«205279_g68771016344126_cont_9to1_m_1330_15_alg».proof.Proof.TileRes
import proofs.«205279_g68771016344126_cont_9to1_m_1330_15_alg».proof.Proof.LaunchPay
import proofs.«205279_g68771016344126_cont_9to1_m_1330_15_alg».proof.Proof.LaunchRegion
import proofs.«205279_g68771016344126_cont_9to1_m_1330_15_alg».proof.Proof.LaunchGhost
import proofs.«205279_g68771016344126_cont_9to1_m_1330_15_alg».proof.Proof.LaunchVals
import proofs.«205279_g68771016344126_cont_9to1_m_1330_15_alg».proof.Proof.LaunchCall
import proofs.«205279_g68771016344126_cont_9to1_m_1330_15_alg».proof.Proof.LaunchExit
import proofs.«205279_g68771016344126_cont_9to1_m_1330_15_alg».proof.Proof.LaunchMain

noncomputable section

namespace Cert.Proof.Id

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## Reading the claim off the final memory -/

/-- Every one of @main's buffers holds what the last valuation says. -/
def fq (d : Dev nD) (s' : Phys nD τ sig (Elt F)) : Prop := ∀ b ∈ ucRefs, s'.mem.mem (d, b) = V₅ m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave Hr := (pointsTo_read_all ucRefs (fun b : DevRef τ sig => ((d, b) : Loc nD τ sig)) (V₅ m d) s') $$ [H HSI]
  · isplitl [H] <;> iassumption
  icases Hr with ⟨%h, -⟩
  ipureintro; exact h

/-- The run's claim: the result is the term RESULT of the launch memory, every argument array is as launched. -/
def QC : PUnit × MemSt nD τ sig (Elt F) → Prop := fun r => ∀ c : Dev nD,
  r.2.mem ((c.tc : Thread nD τ).loc main_v13) = RESULT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)

theorem hQ (s' : Phys nD τ sig (Elt F)) (h : ∀ d, fq m d s') : QC m (⟨⟩, s'.mem) := by
  intro c
  have ha : ∀ b : Ref sig .tc, b ∈ ({main_arg0, main_arg1, main_arg2, main_arg3, main_arg4, main_arg5, main_arg6, main_arg7, main_arg8, main_arg9, main_arg10, main_arg11} : Finset (Ref sig .tc)) →
      s'.mem.mem ((c.tc : Thread nD τ).loc b) = m ((c.tc : Thread nD τ).loc b) := fun b hb =>
    (h c _ (mem_ucRefs b (by revert b; decide))).trans (V₅_arg m c b hb)
  refine ⟨h c _ (mem_ucRefs main_v13 (by decide)), ha main_arg0 (by decide), ha main_arg1 (by decide), ha main_arg2 (by decide), ha main_arg3 (by decide), ha main_arg4 (by decide), ha main_arg5 (by decide), ha main_arg6 (by decide), ha main_arg7 (by decide), ha main_arg8 (by decide), ha main_arg9 (by decide), ha main_arg10 (by decide), ha main_arg11 (by decide)⟩

/-! ## The program's run -/

/-- From a memory whose semaphores read zero, given the tile's body obligation at the contents the first line of
    host operations leaves: every weakly fair execution of the device's threads terminates, the result is RESULT of
    the launch memory, and every argument array is unchanged. -/
theorem run_of_tile [∀ e, Nonempty (Elt F e)]
    (htile : (K (F := F)).TileObl (D (F := F)) 𝒱 (PP m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit _ _ _))
    m ρ main (fun d => G₀ (F := F) d) (FIN m) (u₀ (F := F)) (sep_elim_left.trans (hu₀ _ _ _)) (hmain m ρ) (fq m) (hfin m) (QC m) (hQ m)

end Cert.Proof.Id

end
-- ==== Proof.KHostTile.lean ====
/-
  The tile's gathered rows in terms of the arguments. With the index array laid out as [26, 128, 128],
  the second-order table merged to [416, 100000] and the first-order table's unit axis dropped, the
  row functions the gather leaves are the looked-up table entries; and the laid-out index array's
  entries are the argument's, so a range of the argument's entries is a range of its.
-/
import proofs.«205279_g68771016344126_cont_9to1_m_1330_15_alg».proof.Proof.TileRes
import proofs.«205279_g68771016344126_cont_9to1_m_1330_15_alg».proof.Proof.KHostVal

noncomputable section

namespace Cert.Proof.Id

open Cert.KernelIdeal Cert.KernelIdeal.Gen
open Idealize.ShloMosaic Idealize.ShloMosaic.ValueIdx

variable {F : FTy → Type}

/-- The index array as the gather reads it: the argument reshaped, transposed and split. -/
def idxTerm (Xi : S16384x26x1.Idx → BitVec 32) : S26x128x128.Idx → BitVec 32 :=
  shapeCast S26x128x128 (transpose S26x16384 [1, 0] (shapeCast S16384x26 Xi Facts₀.shapeCasts_S16384x26x1_S16384x26)
    Facts₀.transposes_S16384x26_S26x16384_1_0) Facts₀.shapeCasts_S26x16384_S26x128x128

/-- The second-order table as the gather reads it: transposed and merged to [416, 100000]. -/
def t2Term (tbl2 : S26x100000x16.Idx → F .f32) : S416x100000.Idx → F .f32 :=
  shapeCast S416x100000 (transpose S26x16x100000 [0, 2, 1] tbl2 Facts₀.transposes_S26x100000x16_S26x16x100000_0_2_1)
    Facts₀.shapeCasts_S26x16x100000_S416x100000

/-- The first-order table as the gather reads it: its unit axis dropped. -/
def t1Term (tbl1 : S26x100000x1.Idx → F .f32) : S26x100000.Idx → F .f32 :=
  shapeCast S26x100000 tbl1 Facts₀.shapeCasts_S26x100000x1_S26x100000

variable (d : Dev nD)

/-- A range of the argument's indices is a range of the laid-out array's. -/
theorem idxOK_of_range (Xi : S16384x26x1.Idx → BitVec 32) (hX : ∀ i, (Xi i).toNat < 100000) :
    IdxOK (F := F) d (idxTerm Xi) :=
  fun j => Cert.KHost.idx_layout_range Xi _ _ _ hX j

/-- The gathered second-order row function, entry (r, b): the table at field r / 16, the looked-up row, and
    coordinate r % 16. -/
theorem e2Tgt_apply (tbl2 : S26x100000x16.Idx → F .f32) (Xi : S16384x26x1.Idx → BitVec 32) (r : Fin 416) (b : Fin 16384) :
    e2Tgt (F := F) d (t2Term tbl2) (idxTerm Xi) (ix2 r b)
      = tbl2 (ix3 (Cert.Spec.rowF r) (Cert.Spec.vidx (Xi (ix3 b (Cert.Spec.rowF r) (0 : Fin 1)))) (Cert.Spec.rowD r)) :=
  Cert.KHost.e2_gathered Xi _ _ _ tbl2 _ _ r b

/-- The gathered first-order row function, entry (f, b). -/
theorem e1Tgt_apply (tbl1 : S26x100000x1.Idx → F .f32) (Xi : S16384x26x1.Idx → BitVec 32) (f : Fin 26) (b : Fin 16384) :
    e1Tgt (F := F) d (t1Term tbl1) (idxTerm Xi) (ix2 f b)
      = tbl1 (ix3 f (Cert.Spec.vidx (Xi (ix3 b f (0 : Fin 1)))) (0 : Fin 1)) :=
  Cert.KHost.e1_gathered Xi _ _ _ tbl1 _ f b

end Cert.Proof.Id

end
-- ==== Proof.LaunchIdx.lean ====
/-
  The index array the SparseCore call reads, over the first argument: its words are the argument's words, so the
  argument's range is the array's.
-/
import proofs.«205279_g68771016344126_cont_9to1_m_1330_15_alg».proof.Proof.Common
import proofs.«205279_g68771016344126_cont_9to1_m_1330_15_alg».proof.Proof.HostOps
import proofs.«205279_g68771016344126_cont_9to1_m_1330_15_alg».proof.Proof.TileRes
import proofs.«205279_g68771016344126_cont_9to1_m_1330_15_alg».proof.Proof.KHostTile
import proofs.«205279_g68771016344126_cont_9to1_m_1330_15_alg».proof.Proof.LaunchVals

noncomputable section

namespace Cert.Proof.Id

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- The index array the SparseCore call reads is the first argument's words, transposed and split into rows of 128. -/
theorem g2_eq (d : Dev nD) : g2 m d = idxTerm (m ((d.tc : Thread nD τ).loc main_arg0)) := by
  show StableHlo.after hostA (V₀ m d) (Proc.devRef .tc main_v2) = _
  unfold hostA
  after_results
  rfl

/-- The first argument's words in range: the index array the call reads names table rows. -/
theorem idxOK_of_pre (hpre : ∀ (d : Dev nD) i, (m ((d.tc : Thread nD τ).loc main_arg0) i : BitVec 32).toNat < 100000) (d : Dev nD) :
    IdxOK d (g2 m d) := by
  rw [g2_eq]; exact idxOK_of_range d _ (hpre d)

end Cert.Proof.Id

end
-- ==== Proof.TileLemmas.lean ====
/-
  Small facts the tile's run uses: an index vector read out of the index scratch names table rows when every word of
  the scratch does.
-/
import proofs.«205279_g68771016344126_cont_9to1_m_1330_15_alg».proof.Proof.Common
import proofs.«205279_g68771016344126_cont_9to1_m_1330_15_alg».proof.Proof.TileDefs
import Idealize.ShloMosaic.Lib.Pipeline.Value

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- Sixteen words below 100000 pass the gather's side condition. -/
theorem chk_of_lt (v : IVec S16 32) (h : ∀ x, (v x).toNat < 100000) :
    ∀ a x, ((![v] : Fin 1 → IVec S16 32) a x).toNat < S100000.size a := by
  intro a x
  obtain rfl : a = 0 := Subsingleton.elim _ _
  exact h x

/-- A [1,16] vector of such words, re-laid as [16]. -/
theorem lane_lt (w : Vec F S1x16 .i32) (hw : ∀ y, (w y : BitVec 32).toNat < 100000) (x : S16.Idx) :
    ((shapeCast S16 w shapeCasts_S1x16_S16) x : BitVec 32).toNat < 100000 := by
  unfold shapeCast
  exact hw _

/-- Any sixteen consecutive words of the index scratch. -/
theorem read_lt (I : Buf (Elt F) ((thrV d L).loc cc0_scratch1)) (hI : ∀ j, (I j : BitVec 32).toNat < 100000)
    (off : Fin 2 → Nat) (h : ∀ a, off a + S1x16.size a ≤ S128x128.size a) :
    ∀ y, (((ivW : Memref sig .scVector .vmem S128x128 .i32).view.readAt (Elt F) (Rect.unit (s := S128x128) off S1x16.size h).toLoadRect I) y : BitVec 32).toNat < 100000 := by
  intro y
  simp only [View.readAt_apply, Memref.view_whole, View.read_whole]
  exact hI _

end Cert.Proof.Id

end
-- ==== Proof.TileInv.lean ====
/-
  The gather loops' invariant: the half row of results holds, below position 128 n, the table row's entries at the
  indices the index scratch holds in rows base … base + n - 1.
-/
import proofs.«205279_g68771016344126_cont_9to1_m_1330_15_alg».proof.Proof.Common
import proofs.«205279_g68771016344126_cont_9to1_m_1330_15_alg».proof.Proof.TileRes
import proofs.«205279_g68771016344126_cont_9to1_m_1330_15_alg».proof.Proof.TileLemmas
import Idealize.ShloMosaic.Lib.ValueIdx

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid0.Coords)

/-- Position p of the half row is done: it holds the table row's entry at the index in row base + p / 128, lane p % 128
    of the index scratch. -/
def OvDone (P : Buf (Elt F) ((thrV d L).loc cc0_scratch0)) (I : Buf (Elt F) ((thrV d L).loc cc0_scratch1)) (base n : ℕ)
    (f : Buf (Elt F) ((thrV d L).loc cc0_scratch2)) : Prop :=
  ∀ p : S8192.Idx, (p 0).val < 128 * n →
    f p = P (ix1 (capIdx (I (ix2 (⟨(base + (p 0).val / 128) % 128, Nat.mod_lt _ (by decide)⟩ : Fin 128) (⟨(p 0).val % 128, Nat.mod_lt _ (by decide)⟩ : Fin 128)))))

theorem OvDone_zero (P : Buf (Elt F) ((thrV d L).loc cc0_scratch0)) (I : Buf (Elt F) ((thrV d L).loc cc0_scratch1)) (base : ℕ)
    (f : Buf (Elt F) ((thrV d L).loc cc0_scratch2)) : OvDone d L P I base 0 f := by
  intro p hp; exact absurd hp (by omega)

/-- Before trip n of a gather loop: the table row and the indices as they are, the half row done below 128 n. -/
def invG (P : Buf (Elt F) ((thrV d L).loc cc0_scratch0)) (I : Buf (Elt F) ((thrV d L).loc cc0_scratch1)) (base : ℕ)
    (n : Nat) (_ : PUnit) : sProp 𝕄 :=
  iprop(((plW : Memref sig .scVector .vmem S100000 .f32).view.loc (thrV d L) ↦{fullShare} P)
    ∗ ((ivW : Memref sig .scVector .vmem S128x128 .i32).view.loc (thrV d L) ↦{fullShare} I)
    ∗ ∃ f, ⌜OvDone d L P I base n f⌝ ∗ ((ovW : Memref sig .scVector .vmem S8192 .f32).view.loc (thrV d L) ↦{fullShare} f))

end Cert.Proof.Id

end
-- ==== Proof.TileInv1.lean ====
/-
  The plane loop's invariant: after n planes the tile's first n rows of the [416, 16384] result are the gathered rows;
  the tables and indices are held through their read shares, the scratch buffers at anything, the four semaphores
  the loop uses at zero.
-/
import proofs.«205279_g68771016344126_cont_9to1_m_1330_15_alg».proof.Proof.Common
import proofs.«205279_g68771016344126_cont_9to1_m_1330_15_alg».proof.Proof.TileInv

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid0.Coords)

/-- The tile's first n rows are done. -/
def E2Done (f4 : Buf (Elt F) (t2Loc d)) (f2 : Buf (Elt F) (ixLoc d)) (n : ℕ) (g : Buf (Elt F) (e2Loc d)) : Prop :=
  ∀ j ∈ e2Region L, (j 0).val < 13 * wid L + n → g j = e2Tgt d f4 f2 j

def inv1 (f4 : Buf (Elt F) (t2Loc d)) (f2 : Buf (Elt F) (ixLoc d)) (O : CellTallies nD τ sig (HIx 1)) (W : Waits sig (HIx 1))
    (n : Nat) (_ : PUnit) : sProp 𝕄 :=
  iprop(Transfers.MayWaits (thrV d L) (none : HIx 1) O
    ∗ ((t2W : Memref sig .scVector .hbm S416x100000 .f32).view.loc (thrV d L) ↦{Transfers.shareTokN fullShare (wid L)} f4)
    ∗ ((ixW : Memref sig .scVector .hbm S26x128x128 .i32).view.loc (thrV d L) ↦{Transfers.shareTokN fullShare (wid L)} f2)
    ∗ (∃ g, ⌜E2Done d L f4 f2 n g⌝ ∗ e2Loc d ↦[e2Region L]{fullShare} g)
    ∗ (∃ P, (plW : Memref sig .scVector .vmem S100000 .f32).view.loc (thrV d L) ↦{fullShare} P)
    ∗ (∃ I, (ivW : Memref sig .scVector .vmem S128x128 .i32).view.loc (thrV d L) ↦{fullShare} I)
    ∗ (∃ f, (ovW : Memref sig .scVector .vmem S8192 .f32).view.loc (thrV d L) ↦{fullShare} f)
    ∗ semVal (semCell d L cc0_scratch3.sem) 0 ∗ semVal (semCell d L cc0_scoped0.sem) 0
    ∗ semVal (semCell d L cc0_scoped1.sem) 0 ∗ semVal (semCell d L cc0_scoped2.sem) 0
    ∗ ∃ W', ⌜∀ p ∈ W', p ∈ W ∨ p.2 = none⌝ ∗ owes (thrV d L) O W')

end Cert.Proof.Id

end
-- ==== Proof.TileVal.lean ====
/-
  The plane loop's facts about values. A plane's two copies in put row 13 w + k of the transposed table and field
  (13 w + k) / 16's indices into the scratch; the two gather loops fill the half row; the two copies out put the two
  halves into row 13 w + k of the result. So after plane k the tile's first k + 1 rows are the gathered rows.
-/
import proofs.«205279_g68771016344126_cont_9to1_m_1330_15_alg».proof.Proof.Common
import proofs.«205279_g68771016344126_cont_9to1_m_1330_15_alg».proof.Proof.TileInv1
import Idealize.ShloMosaic.Lib.Writes

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid0.Coords)

/-- The two halves of row 13 w + k of the [416, 16384] result, as the kernel slices them. -/
abbrev e2Half0 (k : Fin k0_t1_loop.trips) : Memref sig .scVector .hbm S8192 .f32 :=
  (((e2W : Memref sig .scVector .hbm S416x16384 .f32).slice (Rect.unit (s := S416x16384) (k0_off19 L k) S1x16384.size (k0_off19_inb L k)) (fun _ => rfl)).squeeze S16384 squeezes_S1x16384_S16384).slice (Rect.unit (s := S16384) ![0] S8192.size inb_S16384_S8192_0) (fun _ => rfl)
abbrev e2Half1 (k : Fin k0_t1_loop.trips) : Memref sig .scVector .hbm S8192 .f32 :=
  (((e2W : Memref sig .scVector .hbm S416x16384 .f32).slice (Rect.unit (s := S416x16384) (k0_off19 L k) S1x16384.size (k0_off19_inb L k)) (fun _ => rfl)).squeeze S16384 squeezes_S1x16384_S16384).slice (Rect.unit (s := S16384) ![8192] S8192.size inb_S16384_S8192_8192) (fun _ => rfl)

theorem pts_half0 (k : Fin k0_t1_loop.trips) (g : Buf (Elt F) (e2Loc d)) :
    (((e2Half0 L k).view.loc (thrV d L) ↦[(e2Half0 L k).view.set]{fullShare} g : sProp 𝕄)) = (e2Loc d ↦[(e2Half0 L k).view.set]{fullShare} g) := rfl
theorem pts_half1 (k : Fin k0_t1_loop.trips) (g : Buf (Elt F) (e2Loc d)) :
    (((e2Half1 L k).view.loc (thrV d L) ↦[(e2Half1 L k).view.set]{fullShare} g : sProp 𝕄)) = (e2Loc d ↦[(e2Half1 L k).view.set]{fullShare} g) := rfl

/-- Where the kernel's half-row memref (row r of the [416, 16384] result, columns c … c + 8191) puts its position y:
    at row r, column c + y. -/
theorem rowHalf_emb (off : Fin 2 → ℕ) (hoff : ∀ a, off a + S1x16384.size a ≤ S416x16384.size a) (r : ℕ) (eoff : off = ![r, 0])
    (c : ℕ) (hc : ∀ a, (![c] : Fin 1 → ℕ) a + S8192.size a ≤ S16384.size a) (y : S8192.Idx) (a : Fin 2) :
    (((((e2W : Memref sig .scVector .hbm S416x16384 .f32).slice (Rect.unit (s := S416x16384) off S1x16384.size hoff) (fun _ => rfl)).squeeze S16384 squeezes_S1x16384_S16384).slice (Rect.unit (s := S16384) ![c] S8192.size hc) (fun _ => rfl)).view.emb y a).val
      = (![r, c + (y 0).val] : Fin 2 → ℕ) a := by
  subst eoff
  have hcy : c + (y 0).val < 16384 := by
    have h1 := hc 0
    have h2 : (y 0).val < 8192 := (y 0).isLt
    have h3 : (![c] : Fin 1 → ℕ) 0 + S8192.size 0 ≤ S16384.size 0 := h1
    change c + 8192 ≤ 16384 at h3
    omega
  have hre : Shape.reshapeEquiv (s := S1x16384) (s' := S16384) squeezes_S1x16384_S16384.numel_eq ((Rect.unit (s := S16384) ![c] S8192.size hc).emb y)
      = ix2 (0 : Fin 1) (⟨c + (y 0).val, hcy⟩ : Fin 16384) :=
    Shape.reshapeEquiv_eq_of_rowMajor _ (by
      rw [Shape.rowMajor_val_two, Shape.rowMajor_val_one]
      show 0 * 16384 + (c + (y 0).val) = c + 1 * (y 0).val
      omega)
  match a with
  | ⟨0, _⟩ =>
    show r + 1 * (Shape.reshapeEquiv (s := S1x16384) (s' := S16384) squeezes_S1x16384_S16384.numel_eq ((Rect.unit (s := S16384) ![c] S8192.size hc).emb y) 0).val = r
    rw [hre]; show r + 1 * 0 = r; omega
  | ⟨1, _⟩ =>
    show 0 + 1 * (Shape.reshapeEquiv (s := S1x16384) (s' := S16384) squeezes_S1x16384_S16384.numel_eq ((Rect.unit (s := S16384) ![c] S8192.size hc).emb y) 1).val = c + (y 0).val
    rw [hre]; show 0 + 1 * (c + (y 0).val) = c + (y 0).val; omega

theorem row_eq (k : ℕ) : 26 * (L 1).val + 13 * (L 0).val + k = 13 * wid L + k := by unfold wid; omega

theorem trip_lt (k : Fin k0_t1_loop.trips) : k.val < 13 := Nat.lt_of_lt_of_le k.isLt k0_t1_abs.2.1

theorem half0_emb (k : Fin k0_t1_loop.trips) (y : S8192.Idx) (a : Fin 2) :
    ((e2Half0 L k).view.emb y a).val = (![13 * wid L + k.val, (y 0).val] : Fin 2 → ℕ) a := by
  have h := rowHalf_emb (k0_off19 L k) (k0_off19_inb L k) (13 * wid L + k.val) ((k0_off19_eq L k).trans (by rw [row_eq])) 0 inb_S16384_S8192_0 y a
  rw [h]
  match a with
  | ⟨0, _⟩ => rfl
  | ⟨1, _⟩ => show 0 + (y 0).val = (y 0).val; omega

theorem half1_emb (k : Fin k0_t1_loop.trips) (y : S8192.Idx) (a : Fin 2) :
    ((e2Half1 L k).view.emb y a).val = (![13 * wid L + k.val, 8192 + (y 0).val] : Fin 2 → ℕ) a :=
  rowHalf_emb (k0_off19 L k) (k0_off19_inb L k) (13 * wid L + k.val) ((k0_off19_eq L k).trans (by rw [row_eq])) 8192 inb_S16384_S8192_8192 y a

/-- The first half: row 13 w + k, columns below 8192. -/
theorem mem_half0 (k : Fin k0_t1_loop.trips) (j : S416x16384.Idx) :
    j ∈ (e2Half0 L k).view.set ↔ (j 0).val = 13 * wid L + k.val ∧ (j 1).val < 8192 := by
  constructor
  · intro hj
    obtain ⟨y, -, rfl⟩ := Finset.mem_map.mp hj
    have hy : (y 0).val < 8192 := (y 0).isLt
    exact ⟨half0_emb L k y 0, (half0_emb L k y 1).trans_lt hy⟩
  · rintro ⟨h0, h1⟩
    refine Finset.mem_map.mpr ⟨ix1 (⟨(j 1).val, h1⟩ : Fin 8192), Finset.mem_univ _, ?_⟩
    funext a
    match a with
    | ⟨0, _⟩ => exact Fin.ext ((half0_emb L k _ 0).trans h0.symm)
    | ⟨1, _⟩ => exact Fin.ext (half0_emb L k _ 1)

/-- The second half: row 13 w + k, columns from 8192. -/
theorem mem_half1 (k : Fin k0_t1_loop.trips) (j : S416x16384.Idx) :
    j ∈ (e2Half1 L k).view.set ↔ (j 0).val = 13 * wid L + k.val ∧ 8192 ≤ (j 1).val := by
  constructor
  · intro hj
    obtain ⟨y, -, rfl⟩ := Finset.mem_map.mp hj
    refine ⟨half1_emb L k y 0, ?_⟩
    have h := half1_emb L k y 1
    change _ = 8192 + (y 0).val at h
    omega
  · rintro ⟨h0, h1⟩
    have hj1 : (j 1).val < 16384 := (j 1).isLt
    refine Finset.mem_map.mpr ⟨ix1 (⟨(j 1).val - 8192, by omega⟩ : Fin 8192), Finset.mem_univ _, ?_⟩
    funext a
    match a with
    | ⟨0, _⟩ => exact Fin.ext ((half1_emb L k _ 0).trans h0.symm)
    | ⟨1, _⟩ => exact Fin.ext ((half1_emb L k _ 1).trans (by show 8192 + ((j 1).val - 8192) = (j 1).val; omega))

/-- The tile's rows: 13 w … 13 w + 12. -/
theorem mem_e2Rows (j : S416x16384.Idx) : j ∈ e2Region L ↔ 13 * wid L ≤ (j 0).val ∧ (j 0).val < 13 * wid L + 13 := by
  have h1 : (j 1).val < 16384 := (j 1).isLt
  have hs : ((e2W : Memref sig .scVector .hbm S416x16384 .f32).view.slice (e2Rect L)).set = (e2Rect L).set := View.set_slice_whole _ _
  have hm : j ∈ e2Region L ↔ j ∈ (e2Rect L).set := Eq.to_iff (congrArg (fun S : Finset S416x16384.Idx => j ∈ S) hs)
  rw [hm, Rect.mem_set_unit]
  constructor
  · intro h; exact h 0
  · intro h a
    match a with
    | ⟨0, _⟩ => exact h
    | ⟨1, _⟩ => exact ⟨Nat.zero_le _, by show (j 1).val < 0 + 16384; omega⟩

/-- A copy into the whole index scratch leaves what was copied. -/
theorem iv_copy_apply (I0 : Buf (Elt F) ((thrV d L).loc cc0_scratch1)) (W : S128x128.Idx → Elt F .i32) (j : S128x128.Idx) :
    View.write (Elt F) (ivW : Memref sig .scVector .vmem S128x128 .i32).view I0 W Finset.univ j = W j :=
  congrFun (View.write_whole_univ _ _ _) j

/-- A copy into the whole table-row scratch leaves what was copied. -/
theorem pl_copy_apply (P0 : Buf (Elt F) ((thrV d L).loc cc0_scratch0)) (W : S100000.Idx → Elt F .f32) (j : S100000.Idx) :
    View.write (Elt F) (plW : Memref sig .scVector .vmem S100000 .f32).view P0 W Finset.univ j = W j :=
  congrFun (View.write_whole_univ _ _ _) j

/-- Each half lies in the tile's rows. -/
theorem e2Half0_sub (k : Fin k0_t1_loop.trips) : (e2Half0 L k).view.set ⊆ e2Region L := by
  intro j hj
  have hk := trip_lt k
  rw [mem_half0] at hj
  rw [mem_e2Rows]
  omega
theorem e2Half1_sub (k : Fin k0_t1_loop.trips) : (e2Half1 L k).view.set ⊆ e2Region L := by
  intro j hj
  have hk := trip_lt k
  rw [mem_half1] at hj
  rw [mem_e2Rows]
  omega

/-- Before the first plane nothing is asked. -/
theorem E2Done_zero' (f4 : Buf (Elt F) (t2Loc d)) (f2 : Buf (Elt F) (ixLoc d)) (g : Buf (Elt F) (e2Loc d)) : E2Done d L f4 f2 0 g := by
  intro j hj hlt
  rw [mem_e2Rows] at hj
  omega

/-- The indices copied into the scratch are words of the index array: each names a table row. -/
theorem iv_copy_lt (f2 : Buf (Elt F) (ixLoc d)) (hix : IdxOK d f2) (I0 : Buf (Elt F) ((thrV d L).loc cc0_scratch1)) (k : Fin k0_t1_loop.trips) :
    ∀ j, (((View.write (Elt F) (ivW : Memref sig .scVector .vmem S128x128 .i32).view I0 (ReadAs.same.apply (View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2)) Finset.univ)) j : BitVec 32).toNat < 100000 := by
  intro j
  refine lt_of_eq_of_lt (congrArg BitVec.toNat (iv_copy_apply d L I0 _ j)) ?_
  show ((View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2 j : BitVec 32)).toNat < 100000
  rw [View.read_apply, cast_eq]
  exact hix _

variable [FloatOps F]

omit [FloatOps F] in
/-- The field whose indices plane k copies in, in closed form. -/
theorem k0_off1_eq : ∀ (i : grid0.Coords) (k : Fin k0_t1_loop.trips),
    k0_off1 i k = ![(26 * (i 1).val + 13 * (i 0).val + k.val) / 16, 0, 0] := by decide +kernel

omit [FloatOps F] in
theorem row_lt (k : Fin k0_t1_loop.trips) : 13 * wid L + k.val < 416 := by
  have h1 := wid_lt L
  have h2 := trip_lt k
  omega

omit [FloatOps F] in
/-- Where the table-row memref (row 13 w + k of the transposed table) puts its position n: at row 13 w + k, column n. -/
theorem t2row_emb (k : Fin k0_t1_loop.trips) (n : S100000.Idx) (a : Fin 2) :
    ((((t2W : Memref sig .scVector .hbm S416x100000 .f32).slice (Rect.unit (s := S416x100000) (k0_off2 L k) S1x100000.size (k0_off2_inb L k)) (fun _ => rfl)).squeeze S100000 squeezes_S1x100000_S100000).view.emb n a).val
      = (![13 * wid L + k.val, (n 0).val] : Fin 2 → ℕ) a := by
  have hoff : k0_off2 L k = ![13 * wid L + k.val, 0] := (k0_off2_eq L k).trans (by rw [row_eq])
  have hre : Shape.reshapeEquiv (s := S1x100000) (s' := S100000) squeezes_S1x100000_S100000.numel_eq n = ix2 (0 : Fin 1) (⟨(n 0).val, (n 0).isLt⟩ : Fin 100000) :=
    Shape.reshapeEquiv_eq_of_rowMajor _ (by
      rw [Shape.rowMajor_val_two, Shape.rowMajor_val_one]
      show 0 * 100000 + (n 0).val = (n 0).val
      omega)
  match a with
  | ⟨0, _⟩ =>
    show k0_off2 L k 0 + 1 * (Shape.reshapeEquiv (s := S1x100000) (s' := S100000) squeezes_S1x100000_S100000.numel_eq n 0).val = 13 * wid L + k.val
    rw [hre, hoff]; show 13 * wid L + k.val + 1 * 0 = _; omega
  | ⟨1, _⟩ =>
    show k0_off2 L k 1 + 1 * (Shape.reshapeEquiv (s := S1x100000) (s' := S100000) squeezes_S1x100000_S100000.numel_eq n 1).val = (n 0).val
    rw [hre, hoff]; show 0 + 1 * (n 0).val = _; omega

omit [FloatOps F] in
/-- The table-row scratch after the copy in: entry n is the transposed table's entry (13 w + k, n). -/
theorem PK_apply (f4 : Buf (Elt F) (t2Loc d)) (k : Fin k0_t1_loop.trips) (P0 : Buf (Elt F) ((thrV d L).loc cc0_scratch0)) (n : S100000.Idx) :
    View.write (Elt F) (plW : Memref sig .scVector .vmem S100000 .f32).view P0 (ReadAs.same.apply (View.read (Elt F) (((t2W : Memref sig .scVector .hbm S416x100000 .f32).slice (Rect.unit (s := S416x100000) (k0_off2 L k) S1x100000.size (k0_off2_inb L k)) (fun _ => rfl)).squeeze S100000 squeezes_S1x100000_S100000).view f4)) Finset.univ n
      = f4 (ix2 (⟨13 * wid L + k.val, row_lt L k⟩ : Fin 416) (n 0)) := by
  refine (pl_copy_apply d L P0 _ n).trans ?_
  show View.read (Elt F) (((t2W : Memref sig .scVector .hbm S416x100000 .f32).slice (Rect.unit (s := S416x100000) (k0_off2 L k) S1x100000.size (k0_off2_inb L k)) (fun _ => rfl)).squeeze S100000 squeezes_S1x100000_S100000).view f4 n = _
  rw [View.read_apply, cast_eq]
  refine congrArg f4 ?_
  funext a
  match a with
  | ⟨0, _⟩ => exact Fin.ext (t2row_emb L k n 0)
  | ⟨1, _⟩ => exact Fin.ext (t2row_emb L k n 1)

omit [FloatOps F] in
theorem fld_lt (k : Fin k0_t1_loop.trips) : (13 * wid L + k.val) / 16 < 26 := by
  have h := row_lt L k
  omega

omit [FloatOps F] in
/-- Where the index-plane memref (field (13 w + k) / 16 of the index array) puts its position (p, q). -/
theorem ixplane_emb (k : Fin k0_t1_loop.trips) (x : S128x128.Idx) (a : Fin 3) :
    ((((ixW : Memref sig .scVector .hbm S26x128x128 .i32).slice (Rect.unit (s := S26x128x128) (k0_off1 L k) S1x128x128.size (k0_off1_inb L k)) (fun _ => rfl)).squeeze S128x128 squeezes_S1x128x128_S128x128).view.emb x a).val
      = (![(13 * wid L + k.val) / 16, (x 0).val, (x 1).val] : Fin 3 → ℕ) a := by
  have hoff : k0_off1 L k = ![(13 * wid L + k.val) / 16, 0, 0] := (k0_off1_eq L k).trans (by rw [row_eq])
  have hre : Shape.reshapeEquiv (s := S1x128x128) (s' := S128x128) squeezes_S1x128x128_S128x128.numel_eq x = ix3 (0 : Fin 1) (⟨(x 0).val, (x 0).isLt⟩ : Fin 128) (⟨(x 1).val, (x 1).isLt⟩ : Fin 128) :=
    Shape.reshapeEquiv_eq_of_rowMajor _ (by
      rw [Shape.rowMajor_val_three, Shape.rowMajor_val_two]
      show (0 * 128 + (x 0).val) * 128 + (x 1).val = (x 0).val * 128 + (x 1).val
      omega)
  match a with
  | ⟨0, _⟩ =>
    show k0_off1 L k 0 + 1 * (Shape.reshapeEquiv (s := S1x128x128) (s' := S128x128) squeezes_S1x128x128_S128x128.numel_eq x 0).val = (13 * wid L + k.val) / 16
    rw [hre, hoff]; show (13 * wid L + k.val) / 16 + 1 * 0 = _; omega
  | ⟨1, _⟩ =>
    show k0_off1 L k 1 + 1 * (Shape.reshapeEquiv (s := S1x128x128) (s' := S128x128) squeezes_S1x128x128_S128x128.numel_eq x 1).val = (x 0).val
    rw [hre, hoff]; show 0 + 1 * (x 0).val = _; omega
  | ⟨2, _⟩ =>
    show k0_off1 L k 2 + 1 * (Shape.reshapeEquiv (s := S1x128x128) (s' := S128x128) squeezes_S1x128x128_S128x128.numel_eq x 2).val = (x 1).val
    rw [hre, hoff]; show 0 + 1 * (x 1).val = _; omega

omit [FloatOps F] in
/-- The index scratch after the copy in: word (p, q) is the index array's word (field, p, q). -/
theorem IK_apply (f2 : Buf (Elt F) (ixLoc d)) (k : Fin k0_t1_loop.trips) (I0 : Buf (Elt F) ((thrV d L).loc cc0_scratch1)) (x : S128x128.Idx) :
    View.write (Elt F) (ivW : Memref sig .scVector .vmem S128x128 .i32).view I0 (ReadAs.same.apply (View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2)) Finset.univ x
      = f2 (ix3 (⟨(13 * wid L + k.val) / 16, fld_lt L k⟩ : Fin 26) (x 0) (x 1)) := by
  refine (iv_copy_apply d L I0 _ x).trans ?_
  show View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2 x = _
  rw [View.read_apply, cast_eq]
  refine congrArg f2 ?_
  funext a
  match a with
  | ⟨0, _⟩ => exact Fin.ext (ixplane_emb L k x 0)
  | ⟨1, _⟩ => exact Fin.ext (ixplane_emb L k x 1)
  | ⟨2, _⟩ => exact Fin.ext (ixplane_emb L k x 2)

omit [FloatOps F] in
/-- A position of a gathered half row (the half starting at column 128 base) is the result's entry at row 13 w + k and
    that column. -/
theorem half_val (f4 : Buf (Elt F) (t2Loc d)) (f2 : Buf (Elt F) (ixLoc d)) (k : Fin k0_t1_loop.trips)
    (P0 : Buf (Elt F) ((thrV d L).loc cc0_scratch0)) (I0 : Buf (Elt F) ((thrV d L).loc cc0_scratch1))
    (base : ℕ) (hbase : base = 0 ∨ base = 64) (fo : Buf (Elt F) ((thrV d L).loc cc0_scratch2))
    (hfo : OvDone d L (View.write (Elt F) (plW : Memref sig .scVector .vmem S100000 .f32).view P0 (ReadAs.same.apply (View.read (Elt F) (((t2W : Memref sig .scVector .hbm S416x100000 .f32).slice (Rect.unit (s := S416x100000) (k0_off2 L k) S1x100000.size (k0_off2_inb L k)) (fun _ => rfl)).squeeze S100000 squeezes_S1x100000_S100000).view f4)) Finset.univ) (View.write (Elt F) (ivW : Memref sig .scVector .vmem S128x128 .i32).view I0 (ReadAs.same.apply (View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2)) Finset.univ) base 64 fo)
    (y : S8192.Idx) (j : S416x16384.Idx) (hj0 : (j 0).val = 13 * wid L + k.val) (hj1 : (j 1).val = 128 * base + (y 0).val) :
    fo y = e2Tgt d f4 f2 j := by
  have hy : (y 0).val < 8192 := (y 0).isLt
  rw [hfo y (by omega), PK_apply, IK_apply]
  unfold e2Tgt ixAt
  refine congrArg f4 ?_
  funext a
  match a with
  | ⟨0, _⟩ => exact Fin.ext hj0.symm
  | ⟨1, _⟩ =>
    refine congrArg capIdx (congrArg f2 ?_)
    funext b
    match b with
    | ⟨0, _⟩ => exact Fin.ext (show (13 * wid L + k.val) / 16 = (j 0).val / 16 by rw [hj0])
    | ⟨1, _⟩ => exact Fin.ext (show (base + (y 0).val / 128) % 128 = (j 1).val / 128 by rcases hbase with rfl | rfl <;> omega)
    | ⟨2, _⟩ => exact Fin.ext (show (y 0).val % 128 = (j 1).val % 128 by rcases hbase with rfl | rfl <;> omega)

omit [FloatOps F] in
/-- One store of a whole block reads back as the block. -/
theorem writes_whole_at {κ : Kind} {sp : Space} {s : Shape} {e : EltTy} (v : View sig κ sp s e) (f : v.ty.Contents (Elt F))
    (w : (Rect.whole s).shape.Idx → Elt F e) (y : s.Idx) :
    v.read (Elt F) (v.writes (Elt F) f [⟨Rect.whole s, w⟩]) y = w y :=
  (congrArg (v.read (Elt F) (v.writes (Elt F) f [⟨Rect.whole s, w⟩])) (Rect.emb_whole_apply s y).symm).trans
    (View.read_writes_cons_emb v f (Rect.whole s) w [] y)

omit [FloatOps F] in
theorem half0_writes_at (k : Fin k0_t1_loop.trips) (G : Buf (Elt F) (e2Loc d)) (w : S8192.Idx → Elt F .f32) (y : S8192.Idx) :
    (e2Half0 L k).view.writes (Elt F) G [⟨Rect.whole S8192, w⟩] ((e2Half0 L k).view.emb y) = w y :=
  ((View.read_apply _ _).trans (cast_eq _ _)).symm.trans (writes_whole_at (e2Half0 L k).view G w y)

omit [FloatOps F] in
theorem half1_writes_at (k : Fin k0_t1_loop.trips) (G : Buf (Elt F) (e2Loc d)) (w : S8192.Idx → Elt F .f32) (y : S8192.Idx) :
    (e2Half1 L k).view.writes (Elt F) G [⟨Rect.whole S8192, w⟩] ((e2Half1 L k).view.emb y) = w y :=
  ((View.read_apply _ _).trans (cast_eq _ _)).symm.trans (writes_whole_at (e2Half1 L k).view G w y)

/-- After plane k the tile's first k + 1 rows are done. -/
theorem e2Done_step (f4 : Buf (Elt F) (t2Loc d)) (f2 : Buf (Elt F) (ixLoc d)) (hix : IdxOK d f2) (k : Fin k0_t1_loop.trips)
    (g : Buf (Elt F) (e2Loc d)) (hg : E2Done d L f4 f2 k.val g)
    (P0 : Buf (Elt F) ((thrV d L).loc cc0_scratch0)) (I0 : Buf (Elt F) ((thrV d L).loc cc0_scratch1))
    (f1 f3 : Buf (Elt F) ((thrV d L).loc cc0_scratch2))
    (hf1 : OvDone d L (View.write (Elt F) (plW : Memref sig .scVector .vmem S100000 .f32).view P0 (ReadAs.same.apply (View.read (Elt F) (((t2W : Memref sig .scVector .hbm S416x100000 .f32).slice (Rect.unit (s := S416x100000) (k0_off2 L k) S1x100000.size (k0_off2_inb L k)) (fun _ => rfl)).squeeze S100000 squeezes_S1x100000_S100000).view f4)) Finset.univ) (View.write (Elt F) (ivW : Memref sig .scVector .vmem S128x128 .i32).view I0 (ReadAs.same.apply (View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2)) Finset.univ) 0 64 f1)
    (hf3 : OvDone d L (View.write (Elt F) (plW : Memref sig .scVector .vmem S100000 .f32).view P0 (ReadAs.same.apply (View.read (Elt F) (((t2W : Memref sig .scVector .hbm S416x100000 .f32).slice (Rect.unit (s := S416x100000) (k0_off2 L k) S1x100000.size (k0_off2_inb L k)) (fun _ => rfl)).squeeze S100000 squeezes_S1x100000_S100000).view f4)) Finset.univ) (View.write (Elt F) (ivW : Memref sig .scVector .vmem S128x128 .i32).view I0 (ReadAs.same.apply (View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2)) Finset.univ) 64 64 f3) :
    E2Done d L f4 f2 (k.val + 1)
      (((e2Half1 L k).view.set).piecewise
        ((e2Half1 L k).view.writes (Elt F) (((e2Half0 L k).view.set).piecewise ((e2Half0 L k).view.writes (Elt F) (e2Half0 L k).view.junk [⟨Rect.whole S8192, ReadAs.same.apply (View.read (Elt F) (ovW : Memref sig .scVector .vmem S8192 .f32).view f1)⟩]) g) [⟨Rect.whole S8192, ReadAs.same.apply (View.read (Elt F) (ovW : Memref sig .scVector .vmem S8192 .f32).view f3)⟩])
        (((e2Half0 L k).view.set).piecewise ((e2Half0 L k).view.writes (Elt F) (e2Half0 L k).view.junk [⟨Rect.whole S8192, ReadAs.same.apply (View.read (Elt F) (ovW : Memref sig .scVector .vmem S8192 .f32).view f1)⟩]) g)) := by
  intro j hj hlt
  have hR := (mem_e2Rows L j).mp hj
  by_cases hr : (j 0).val < 13 * wid L + k.val
  · have h1 : j ∉ (e2Half1 L k).view.set := fun h => by have := ((mem_half1 L k j).mp h).1; omega
    have h0 : j ∉ (e2Half0 L k).view.set := fun h => by have := ((mem_half0 L k j).mp h).1; omega
    refine (Finset.piecewise_eq_of_notMem _ _ _ h1).trans ?_
    refine (Finset.piecewise_eq_of_notMem _ _ _ h0).trans ?_
    exact hg j hj hr
  · have hrow : (j 0).val = 13 * wid L + k.val := by omega
    by_cases hb : (j 1).val < 8192
    · have h1 : j ∉ (e2Half1 L k).view.set := fun h => by have := ((mem_half1 L k j).mp h).2; omega
      have h0 : j ∈ (e2Half0 L k).view.set := (mem_half0 L k j).mpr ⟨hrow, hb⟩
      refine (Finset.piecewise_eq_of_notMem _ _ _ h1).trans ?_
      refine (Finset.piecewise_eq_of_mem _ _ _ h0).trans ?_
      obtain ⟨y, -, rfl⟩ := Finset.mem_map.mp h0
      refine (half0_writes_at d L k _ _ y).trans ?_
      exact half_val d L f4 f2 k P0 I0 0 (Or.inl rfl) f1 hf1 y _ hrow
        ((half0_emb L k y 1).trans (by show (y 0).val = 128 * 0 + (y 0).val; omega))
    · have h1 : j ∈ (e2Half1 L k).view.set := (mem_half1 L k j).mpr ⟨hrow, by omega⟩
      refine (Finset.piecewise_eq_of_mem _ _ _ h1).trans ?_
      obtain ⟨y, -, rfl⟩ := Finset.mem_map.mp h1
      refine (half1_writes_at d L k _ _ y).trans ?_
      exact half_val d L f4 f2 k P0 I0 64 (Or.inr rfl) f3 hf3 y _ hrow
        ((half1_emb L k y 1).trans (by show 8192 + (y 0).val = 128 * 64 + (y 0).val; omega))

end Cert.Proof.Id

end
-- ==== Proof.TileStep.lean ====
/-
  One trip of a gather loop, as a fact about values: eight stores of sixteen gathered entries each, at positions
  128 k + 16 u … 128 k + 16 u + 15 (u = 0 … 7), the indices taken from row base + k, lanes 16 u … 16 u + 15 of the index
  scratch, extend "done below 128 k" to "done below 128 (k + 1)".
-/
import proofs.«205279_g68771016344126_cont_9to1_m_1330_15_alg».proof.Proof.Common
import proofs.«205279_g68771016344126_cont_9to1_m_1330_15_alg».proof.Proof.TileInv
import Idealize.ShloMosaic.Lib.Writes
import Idealize.ShloMosaic.Lib.WritesUnit

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid0.Coords)

/-- Lane x of sixteen consecutive words of row r of the index scratch, from column c: the word at (r, c + x). -/
theorem iv_val (I : Buf (Elt F) ((thrV d L).loc cc0_scratch1)) (io : Fin 2 → ℕ)
    (hio : ∀ a, io a + S1x16.size a ≤ S128x128.size a) (r c : ℕ) (eio : io = ![r, c]) (x : S16.Idx)
    (hr : r < 128) (hc : c + (x 0).val < 128) :
    shapeCast S16 ((ivW : Memref sig .scVector .vmem S128x128 .i32).view.readAt (Elt F) (Rect.unit (s := S128x128) io S1x16.size hio).toLoadRect I) shapeCasts_S1x16_S16 x
      = I (ix2 (⟨r, hr⟩ : Fin 128) (⟨c + (x 0).val, hc⟩ : Fin 128)) := by
  subst eio
  refine (shapeCast_apply (s := S1x16) _ shapeCasts_S1x16_S16 x (ix2 (0 : Fin 1) (x 0)) (by rw [Shape.rowMajor_val_two, Shape.rowMajor_val_one]; simp)).trans ?_
  rw [View.readAt_apply]
  simp only [Memref.view_whole, View.read_whole]
  refine congrArg I ?_
  funext a
  match a with
  | ⟨0, _⟩ => exact Fin.ext (by show r + 1 * 0 = r; omega)
  | ⟨1, _⟩ => exact Fin.ext (by show c + 1 * (x 0).val = c + (x 0).val; omega)

/-- Lane x of the gathered sixteen: the table row's entry at the index the scratch holds at (r, c + x). -/
theorem gath_val (P : Buf (Elt F) ((thrV d L).loc cc0_scratch0)) (I : Buf (Elt F) ((thrV d L).loc cc0_scratch1)) (io : Fin 2 → ℕ)
    (hio : ∀ a, io a + S1x16.size a ≤ S128x128.size a) (r c : ℕ) (eio : io = ![r, c])
    (hl : ∀ a x, ((![shapeCast S16 ((ivW : Memref sig .scVector .vmem S128x128 .i32).view.readAt (Elt F) (Rect.unit (s := S128x128) io S1x16.size hio).toLoadRect I) shapeCasts_S1x16_S16] : Fin 1 → IVec S16 32) a x).toNat < S100000.size a)
    (x : S16.Idx) (hr : r < 128) (hc : c + (x 0).val < 128) :
    loadIdx ((plW : Memref sig .scVector .vmem S100000 .f32).view.readAt (Elt F) (LoadRect.whole S100000) P) ![shapeCast S16 ((ivW : Memref sig .scVector .vmem S128x128 .i32).view.readAt (Elt F) (Rect.unit (s := S128x128) io S1x16.size hio).toLoadRect I) shapeCasts_S1x16_S16] hl x
      = P (ix1 (capIdx (I (ix2 (⟨r, hr⟩ : Fin 128) (⟨c + (x 0).val, hc⟩ : Fin 128))))) := by
  have hv := iv_val d L I io hio r c eio x hr hc
  have hlt : (shapeCast S16 ((ivW : Memref sig .scVector .vmem S128x128 .i32).view.readAt (Elt F) (Rect.unit (s := S128x128) io S1x16.size hio).toLoadRect I) shapeCasts_S1x16_S16 x : BitVec 32).toNat < 100000 := hl 0 x
  unfold loadIdx
  rw [View.readAt_apply]
  simp only [Memref.view_whole, View.read_whole]
  refine congrArg P ?_
  funext a
  match a with
  | ⟨0, _⟩ =>
    refine Fin.ext ?_
    rw [hv] at hlt
    show 0 + 1 * (shapeCast S16 ((ivW : Memref sig .scVector .vmem S128x128 .i32).view.readAt (Elt F) (Rect.unit (s := S128x128) io S1x16.size hio).toLoadRect I) shapeCasts_S1x16_S16 x : BitVec 32).toNat = (capIdx (I (ix2 (⟨r, hr⟩ : Fin 128) (⟨c + (x 0).val, hc⟩ : Fin 128)))).val
    rw [capIdx_of_lt hlt, hv]
    omega

/-- A position under the newest of a list of stores of sixteen gathered entries, the store at 128 k + c taking its
    indices from row base + k, lanes c … c + 15: the position is done. -/
theorem hit_piece (P : Buf (Elt F) ((thrV d L).loc cc0_scratch0)) (I : Buf (Elt F) ((thrV d L).loc cc0_scratch1))
    (base k : ℕ) (hk : k < 64) (hbase : base + 64 ≤ 128) (c : ℕ) (hc : c + 16 ≤ 128)
    (o : Fin 1 → ℕ) (ho : ∀ a, o a + S16.size a ≤ S8192.size a) (eo : o = ![128 * k + c])
    (io : Fin 2 → ℕ) (hio : ∀ a, io a + S1x16.size a ≤ S128x128.size a) (eio : io = ![base + k, c])
    (hl : ∀ a x, ((![shapeCast S16 ((ivW : Memref sig .scVector .vmem S128x128 .i32).view.readAt (Elt F) (Rect.unit (s := S128x128) io S1x16.size hio).toLoadRect I) shapeCasts_S1x16_S16] : Fin 1 → IVec S16 32) a x).toNat < S100000.size a)
    (Lst : List (View.Piece (Elt F) S8192 .f32)) (f : Buf (Elt F) ((thrV d L).loc cc0_scratch2)) (p : S8192.Idx)
    (h1 : 128 * k + c ≤ (p 0).val) (h2 : (p 0).val < 128 * k + c + 16) :
    (ovW : Memref sig .scVector .vmem S8192 .f32).view.read (Elt F) ((ovW : Memref sig .scVector .vmem S8192 .f32).view.writes (Elt F) f
        (⟨Rect.unit (s := S8192) o S16.size ho, loadIdx ((plW : Memref sig .scVector .vmem S100000 .f32).view.readAt (Elt F) (LoadRect.whole S100000) P) ![shapeCast S16 ((ivW : Memref sig .scVector .vmem S128x128 .i32).view.readAt (Elt F) (Rect.unit (s := S128x128) io S1x16.size hio).toLoadRect I) shapeCasts_S1x16_S16] hl⟩ :: Lst)) p
      = P (ix1 (capIdx (I (ix2 (⟨(base + (p 0).val / 128) % 128, Nat.mod_lt _ (by decide)⟩ : Fin 128) (⟨(p 0).val % 128, Nat.mod_lt _ (by decide)⟩ : Fin 128))))) := by
  have hx : (p 0).val - (128 * k + c) < 16 := by omega
  refine (View.read_writes_cons_unit_of_mem (ovW : Memref sig .scVector .vmem S8192 .f32).view f ho _ Lst p (ix1 (⟨(p 0).val - (128 * k + c), hx⟩ : Fin 16)) eo ?_).trans ?_
  · intro a
    match a with
    | ⟨0, _⟩ => show (p 0).val = (128 * k + c) + ((p 0).val - (128 * k + c)); omega
  · rw [gath_val d L P I io hio (base + k) c eio hl (ix1 (⟨(p 0).val - (128 * k + c), hx⟩ : Fin 16)) (by omega)
      (by show c + ((p 0).val - (128 * k + c)) < 128; omega)]
    have e1 : (base + (p 0).val / 128) % 128 = base + k := by
      have : (p 0).val / 128 = k := by omega
      rw [this]; exact Nat.mod_eq_of_lt (by omega)
    have e2 : (p 0).val % 128 = c + ((p 0).val - (128 * k + c)) := by omega
    refine congrArg P (congrArg ix1 (congrArg capIdx (congrArg I ?_)))
    funext a
    match a with
    | ⟨0, _⟩ => exact Fin.ext e1.symm
    | ⟨1, _⟩ => exact Fin.ext e2.symm

/-- The half row's scratch is read through its whole view: the contents themselves. -/
theorem ov_read (g : Buf (Elt F) ((thrV d L).loc cc0_scratch2)) (p : S8192.Idx) :
    g p = (ovW : Memref sig .scVector .vmem S8192 .f32).view.read (Elt F) g p := rfl

theorem ovDone_step8 (P : Buf (Elt F) ((thrV d L).loc cc0_scratch0)) (I : Buf (Elt F) ((thrV d L).loc cc0_scratch1))
    (base k : ℕ) (hk : k < 64) (hbase : base + 64 ≤ 128) (f : Buf (Elt F) ((thrV d L).loc cc0_scratch2)) (hf : OvDone d L P I base k f)
    (o0 : Fin 1 → ℕ) (ho0 : ∀ a, o0 a + S16.size a ≤ S8192.size a) (eo0 : o0 = ![128 * k + 0])
    (o1 : Fin 1 → ℕ) (ho1 : ∀ a, o1 a + S16.size a ≤ S8192.size a) (eo1 : o1 = ![128 * k + 16])
    (o2 : Fin 1 → ℕ) (ho2 : ∀ a, o2 a + S16.size a ≤ S8192.size a) (eo2 : o2 = ![128 * k + 32])
    (o3 : Fin 1 → ℕ) (ho3 : ∀ a, o3 a + S16.size a ≤ S8192.size a) (eo3 : o3 = ![128 * k + 48])
    (o4 : Fin 1 → ℕ) (ho4 : ∀ a, o4 a + S16.size a ≤ S8192.size a) (eo4 : o4 = ![128 * k + 64])
    (o5 : Fin 1 → ℕ) (ho5 : ∀ a, o5 a + S16.size a ≤ S8192.size a) (eo5 : o5 = ![128 * k + 80])
    (o6 : Fin 1 → ℕ) (ho6 : ∀ a, o6 a + S16.size a ≤ S8192.size a) (eo6 : o6 = ![128 * k + 96])
    (o7 : Fin 1 → ℕ) (ho7 : ∀ a, o7 a + S16.size a ≤ S8192.size a) (eo7 : o7 = ![128 * k + 112])
    (io0 : Fin 2 → ℕ) (hio0 : ∀ a, io0 a + S1x16.size a ≤ S128x128.size a) (eio0 : io0 = ![base + k, 0])
    (io1 : Fin 2 → ℕ) (hio1 : ∀ a, io1 a + S1x16.size a ≤ S128x128.size a) (eio1 : io1 = ![base + k, 16])
    (io2 : Fin 2 → ℕ) (hio2 : ∀ a, io2 a + S1x16.size a ≤ S128x128.size a) (eio2 : io2 = ![base + k, 32])
    (io3 : Fin 2 → ℕ) (hio3 : ∀ a, io3 a + S1x16.size a ≤ S128x128.size a) (eio3 : io3 = ![base + k, 48])
    (io4 : Fin 2 → ℕ) (hio4 : ∀ a, io4 a + S1x16.size a ≤ S128x128.size a) (eio4 : io4 = ![base + k, 64])
    (io5 : Fin 2 → ℕ) (hio5 : ∀ a, io5 a + S1x16.size a ≤ S128x128.size a) (eio5 : io5 = ![base + k, 80])
    (io6 : Fin 2 → ℕ) (hio6 : ∀ a, io6 a + S1x16.size a ≤ S128x128.size a) (eio6 : io6 = ![base + k, 96])
    (io7 : Fin 2 → ℕ) (hio7 : ∀ a, io7 a + S1x16.size a ≤ S128x128.size a) (eio7 : io7 = ![base + k, 112])
    (hl0 : ∀ a x, ((![shapeCast S16 ((ivW : Memref sig .scVector .vmem S128x128 .i32).view.readAt (Elt F) (Rect.unit (s := S128x128) io0 S1x16.size hio0).toLoadRect I) shapeCasts_S1x16_S16] : Fin 1 → IVec S16 32) a x).toNat < S100000.size a)
    (hl1 : ∀ a x, ((![shapeCast S16 ((ivW : Memref sig .scVector .vmem S128x128 .i32).view.readAt (Elt F) (Rect.unit (s := S128x128) io1 S1x16.size hio1).toLoadRect I) shapeCasts_S1x16_S16] : Fin 1 → IVec S16 32) a x).toNat < S100000.size a)
    (hl2 : ∀ a x, ((![shapeCast S16 ((ivW : Memref sig .scVector .vmem S128x128 .i32).view.readAt (Elt F) (Rect.unit (s := S128x128) io2 S1x16.size hio2).toLoadRect I) shapeCasts_S1x16_S16] : Fin 1 → IVec S16 32) a x).toNat < S100000.size a)
    (hl3 : ∀ a x, ((![shapeCast S16 ((ivW : Memref sig .scVector .vmem S128x128 .i32).view.readAt (Elt F) (Rect.unit (s := S128x128) io3 S1x16.size hio3).toLoadRect I) shapeCasts_S1x16_S16] : Fin 1 → IVec S16 32) a x).toNat < S100000.size a)
    (hl4 : ∀ a x, ((![shapeCast S16 ((ivW : Memref sig .scVector .vmem S128x128 .i32).view.readAt (Elt F) (Rect.unit (s := S128x128) io4 S1x16.size hio4).toLoadRect I) shapeCasts_S1x16_S16] : Fin 1 → IVec S16 32) a x).toNat < S100000.size a)
    (hl5 : ∀ a x, ((![shapeCast S16 ((ivW : Memref sig .scVector .vmem S128x128 .i32).view.readAt (Elt F) (Rect.unit (s := S128x128) io5 S1x16.size hio5).toLoadRect I) shapeCasts_S1x16_S16] : Fin 1 → IVec S16 32) a x).toNat < S100000.size a)
    (hl6 : ∀ a x, ((![shapeCast S16 ((ivW : Memref sig .scVector .vmem S128x128 .i32).view.readAt (Elt F) (Rect.unit (s := S128x128) io6 S1x16.size hio6).toLoadRect I) shapeCasts_S1x16_S16] : Fin 1 → IVec S16 32) a x).toNat < S100000.size a)
    (hl7 : ∀ a x, ((![shapeCast S16 ((ivW : Memref sig .scVector .vmem S128x128 .i32).view.readAt (Elt F) (Rect.unit (s := S128x128) io7 S1x16.size hio7).toLoadRect I) shapeCasts_S1x16_S16] : Fin 1 → IVec S16 32) a x).toNat < S100000.size a) :
    OvDone d L P I base (k + 1)
      ((ovW : Memref sig .scVector .vmem S8192 .f32).view.writes (Elt F) f
        [⟨Rect.unit (s := S8192) o7 S16.size ho7, loadIdx ((plW : Memref sig .scVector .vmem S100000 .f32).view.readAt (Elt F) (LoadRect.whole S100000) P) ![shapeCast S16 ((ivW : Memref sig .scVector .vmem S128x128 .i32).view.readAt (Elt F) (Rect.unit (s := S128x128) io7 S1x16.size hio7).toLoadRect I) shapeCasts_S1x16_S16] hl7⟩,
         ⟨Rect.unit (s := S8192) o6 S16.size ho6, loadIdx ((plW : Memref sig .scVector .vmem S100000 .f32).view.readAt (Elt F) (LoadRect.whole S100000) P) ![shapeCast S16 ((ivW : Memref sig .scVector .vmem S128x128 .i32).view.readAt (Elt F) (Rect.unit (s := S128x128) io6 S1x16.size hio6).toLoadRect I) shapeCasts_S1x16_S16] hl6⟩,
         ⟨Rect.unit (s := S8192) o5 S16.size ho5, loadIdx ((plW : Memref sig .scVector .vmem S100000 .f32).view.readAt (Elt F) (LoadRect.whole S100000) P) ![shapeCast S16 ((ivW : Memref sig .scVector .vmem S128x128 .i32).view.readAt (Elt F) (Rect.unit (s := S128x128) io5 S1x16.size hio5).toLoadRect I) shapeCasts_S1x16_S16] hl5⟩,
         ⟨Rect.unit (s := S8192) o4 S16.size ho4, loadIdx ((plW : Memref sig .scVector .vmem S100000 .f32).view.readAt (Elt F) (LoadRect.whole S100000) P) ![shapeCast S16 ((ivW : Memref sig .scVector .vmem S128x128 .i32).view.readAt (Elt F) (Rect.unit (s := S128x128) io4 S1x16.size hio4).toLoadRect I) shapeCasts_S1x16_S16] hl4⟩,
         ⟨Rect.unit (s := S8192) o3 S16.size ho3, loadIdx ((plW : Memref sig .scVector .vmem S100000 .f32).view.readAt (Elt F) (LoadRect.whole S100000) P) ![shapeCast S16 ((ivW : Memref sig .scVector .vmem S128x128 .i32).view.readAt (Elt F) (Rect.unit (s := S128x128) io3 S1x16.size hio3).toLoadRect I) shapeCasts_S1x16_S16] hl3⟩,
         ⟨Rect.unit (s := S8192) o2 S16.size ho2, loadIdx ((plW : Memref sig .scVector .vmem S100000 .f32).view.readAt (Elt F) (LoadRect.whole S100000) P) ![shapeCast S16 ((ivW : Memref sig .scVector .vmem S128x128 .i32).view.readAt (Elt F) (Rect.unit (s := S128x128) io2 S1x16.size hio2).toLoadRect I) shapeCasts_S1x16_S16] hl2⟩,
         ⟨Rect.unit (s := S8192) o1 S16.size ho1, loadIdx ((plW : Memref sig .scVector .vmem S100000 .f32).view.readAt (Elt F) (LoadRect.whole S100000) P) ![shapeCast S16 ((ivW : Memref sig .scVector .vmem S128x128 .i32).view.readAt (Elt F) (Rect.unit (s := S128x128) io1 S1x16.size hio1).toLoadRect I) shapeCasts_S1x16_S16] hl1⟩,
         ⟨Rect.unit (s := S8192) o0 S16.size ho0, loadIdx ((plW : Memref sig .scVector .vmem S100000 .f32).view.readAt (Elt F) (LoadRect.whole S100000) P) ![shapeCast S16 ((ivW : Memref sig .scVector .vmem S128x128 .i32).view.readAt (Elt F) (Rect.unit (s := S128x128) io0 S1x16.size hio0).toLoadRect I) shapeCasts_S1x16_S16] hl0⟩]) := by
  intro p hp
  refine (ov_read d L _ p).trans ?_
  by_cases h7 : 128 * k + 112 ≤ (p 0).val
  · exact hit_piece d L P I base k hk hbase 112 (by omega) o7 ho7 eo7 io7 hio7 eio7 hl7 _ f p h7 (by omega)
  refine (View.read_writes_cons_unit_of_not_mem (ovW : Memref sig .scVector .vmem S8192 .f32).view f ho7 _ _ p eo7 0 (Or.inl (by show (p 0).val < 128 * k + 112; omega))).trans ?_
  by_cases h6 : 128 * k + 96 ≤ (p 0).val
  · exact hit_piece d L P I base k hk hbase 96 (by omega) o6 ho6 eo6 io6 hio6 eio6 hl6 _ f p h6 (by omega)
  refine (View.read_writes_cons_unit_of_not_mem (ovW : Memref sig .scVector .vmem S8192 .f32).view f ho6 _ _ p eo6 0 (Or.inl (by show (p 0).val < 128 * k + 96; omega))).trans ?_
  by_cases h5 : 128 * k + 80 ≤ (p 0).val
  · exact hit_piece d L P I base k hk hbase 80 (by omega) o5 ho5 eo5 io5 hio5 eio5 hl5 _ f p h5 (by omega)
  refine (View.read_writes_cons_unit_of_not_mem (ovW : Memref sig .scVector .vmem S8192 .f32).view f ho5 _ _ p eo5 0 (Or.inl (by show (p 0).val < 128 * k + 80; omega))).trans ?_
  by_cases h4 : 128 * k + 64 ≤ (p 0).val
  · exact hit_piece d L P I base k hk hbase 64 (by omega) o4 ho4 eo4 io4 hio4 eio4 hl4 _ f p h4 (by omega)
  refine (View.read_writes_cons_unit_of_not_mem (ovW : Memref sig .scVector .vmem S8192 .f32).view f ho4 _ _ p eo4 0 (Or.inl (by show (p 0).val < 128 * k + 64; omega))).trans ?_
  by_cases h3 : 128 * k + 48 ≤ (p 0).val
  · exact hit_piece d L P I base k hk hbase 48 (by omega) o3 ho3 eo3 io3 hio3 eio3 hl3 _ f p h3 (by omega)
  refine (View.read_writes_cons_unit_of_not_mem (ovW : Memref sig .scVector .vmem S8192 .f32).view f ho3 _ _ p eo3 0 (Or.inl (by show (p 0).val < 128 * k + 48; omega))).trans ?_
  by_cases h2 : 128 * k + 32 ≤ (p 0).val
  · exact hit_piece d L P I base k hk hbase 32 (by omega) o2 ho2 eo2 io2 hio2 eio2 hl2 _ f p h2 (by omega)
  refine (View.read_writes_cons_unit_of_not_mem (ovW : Memref sig .scVector .vmem S8192 .f32).view f ho2 _ _ p eo2 0 (Or.inl (by show (p 0).val < 128 * k + 32; omega))).trans ?_
  by_cases h1 : 128 * k + 16 ≤ (p 0).val
  · exact hit_piece d L P I base k hk hbase 16 (by omega) o1 ho1 eo1 io1 hio1 eio1 hl1 _ f p h1 (by omega)
  refine (View.read_writes_cons_unit_of_not_mem (ovW : Memref sig .scVector .vmem S8192 .f32).view f ho1 _ _ p eo1 0 (Or.inl (by show (p 0).val < 128 * k + 16; omega))).trans ?_
  by_cases h0 : 128 * k + 0 ≤ (p 0).val
  · exact hit_piece d L P I base k hk hbase 0 (by omega) o0 ho0 eo0 io0 hio0 eio0 hl0 _ f p h0 (by omega)
  refine (View.read_writes_cons_unit_of_not_mem (ovW : Memref sig .scVector .vmem S8192 .f32).view f ho0 _ _ p eo0 0 (Or.inl (by show (p 0).val < 128 * k + 0; omega))).trans ?_
  exact hf p (by omega)

end Cert.Proof.Id

end
-- ==== Proof.TileT2.lean ====
/-
  One trip of the gather loop over the first half row: eight times, sixteen indices are read from the index scratch,
  the table row is read at them, and the sixteen entries are stored at the next sixteen positions of the half row.
-/
import proofs.«205279_g68771016344126_cont_9to1_m_1330_15_alg».proof.Proof.Common
import proofs.«205279_g68771016344126_cont_9to1_m_1330_15_alg».proof.Proof.TileStep

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

/-! The offsets of the trip's loads of indices and stores of results, in closed form. -/

theorem t2_ioff0 : ∀ k : Fin k0_t2_loop.trips, k0_off3 k = ![0 + k.val, 0] := by decide +kernel
theorem t2_ooff0 : ∀ k : Fin k0_t2_loop.trips, k0_off4 k = ![128 * k.val + 0] := by decide +kernel
theorem t2_ioff1 : ∀ k : Fin k0_t2_loop.trips, k0_off5 k = ![0 + k.val, 16] := by decide +kernel
theorem t2_ooff1 : ∀ k : Fin k0_t2_loop.trips, k0_off6 k = ![128 * k.val + 16] := by decide +kernel
theorem t2_ioff2 : ∀ k : Fin k0_t2_loop.trips, k0_off7 k = ![0 + k.val, 32] := by decide +kernel
theorem t2_ooff2 : ∀ k : Fin k0_t2_loop.trips, k0_off8 k = ![128 * k.val + 32] := by decide +kernel
theorem t2_ioff3 : ∀ k : Fin k0_t2_loop.trips, k0_off9 k = ![0 + k.val, 48] := by decide +kernel
theorem t2_ooff3 : ∀ k : Fin k0_t2_loop.trips, k0_off10 k = ![128 * k.val + 48] := by decide +kernel
theorem t2_ioff4 : ∀ k : Fin k0_t2_loop.trips, k0_off11 k = ![0 + k.val, 64] := by decide +kernel
theorem t2_ooff4 : ∀ k : Fin k0_t2_loop.trips, k0_off12 k = ![128 * k.val + 64] := by decide +kernel
theorem t2_ioff5 : ∀ k : Fin k0_t2_loop.trips, k0_off13 k = ![0 + k.val, 80] := by decide +kernel
theorem t2_ooff5 : ∀ k : Fin k0_t2_loop.trips, k0_off14 k = ![128 * k.val + 80] := by decide +kernel
theorem t2_ioff6 : ∀ k : Fin k0_t2_loop.trips, k0_off15 k = ![0 + k.val, 96] := by decide +kernel
theorem t2_ooff6 : ∀ k : Fin k0_t2_loop.trips, k0_off16 k = ![128 * k.val + 96] := by decide +kernel
theorem t2_ioff7 : ∀ k : Fin k0_t2_loop.trips, k0_off17 k = ![0 + k.val, 112] := by decide +kernel
theorem t2_ooff7 : ∀ k : Fin k0_t2_loop.trips, k0_off18 k = ![128 * k.val + 112] := by decide +kernel

variable [FloatOps F] (d : Dev nD) (L : grid0.Coords)

set_option maxHeartbeats 8000000 in
theorem t2_trip (k : Fin k0_t2_loop.trips)
    (P : Buf (Elt F) ((thrV d L).loc cc0_scratch0)) (I : Buf (Elt F) ((thrV d L).loc cc0_scratch1))
    (hI : ∀ j, (I j : BitVec 32).toNat < 100000) :
    invG d L P I 0 k.val ⟨⟩
      ⊢ wp frame (wpE (defs₀ (F := F)) 𝒱₀ (thrV d L) none) Set.univ
          (k0_t2_body L t2W (Memref.isWhole_whole _) t1W (Memref.isWhole_whole _) ixW (Memref.isWhole_whole _) e2W (Memref.isWhole_whole _) e1W (Memref.isWhole_whole _) plW (Memref.isWhole_whole _) ivW (Memref.isWhole_whole _) ovW (Memref.isWhole_whole _) cc0_scratch3 cc0_scoped0 cc0_scoped1 cc0_scoped2 cc0_scoped3 cc0_scoped4 cc0_scoped5 k ⟨⟩) (fun _ => invG d L P I 0 (k.val + 1) ⟨⟩) := by
  unfold invG
  iintro ⟨Hpl, Hiv, %f, %hf, Hov⟩
  unfold k0_t2_body
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  sl_step
  isplitl [Hpl]; · iexact Hpl
  isplitl [Hiv]; · iexact Hiv
  iexists _; isplitr
  · ipureintro
    refine ovDone_step8 d L P I 0 k.val k.isLt (by decide) f hf _ (k0_off4_inb k) (t2_ooff0 k) _ (k0_off6_inb k) (t2_ooff1 k) _ (k0_off8_inb k) (t2_ooff2 k) _ (k0_off10_inb k) (t2_ooff3 k) _ (k0_off12_inb k) (t2_ooff4 k) _ (k0_off14_inb k) (t2_ooff5 k) _ (k0_off16_inb k) (t2_ooff6 k) _ (k0_off18_inb k) (t2_ooff7 k) _ (k0_off3_inb k) (t2_ioff0 k) _ (k0_off5_inb k) (t2_ioff1 k) _ (k0_off7_inb k) (t2_ioff2 k) _ (k0_off9_inb k) (t2_ioff3 k) _ (k0_off11_inb k) (t2_ioff4 k) _ (k0_off13_inb k) (t2_ioff5 k) _ (k0_off15_inb k) (t2_ioff6 k) _ (k0_off17_inb k) (t2_ioff7 k) ?_ ?_ ?_ ?_ ?_ ?_ ?_ ?_ <;>
      exact chk_of_lt _ (fun x => lane_lt _ (read_lt d L I hI _ _) x)
  · iexact Hov

end Cert.Proof.Id

end
-- ==== Proof.TileT3.lean ====
/-
  One trip of the gather loop over the second half row: eight times, sixteen indices are read from the index scratch,
  the table row is read at them, and the sixteen entries are stored at the next sixteen positions of the half row.
-/
import proofs.«205279_g68771016344126_cont_9to1_m_1330_15_alg».proof.Proof.Common
import proofs.«205279_g68771016344126_cont_9to1_m_1330_15_alg».proof.Proof.TileStep

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

/-! The offsets of the trip's loads of indices and stores of results, in closed form. -/

theorem t3_ioff0 : ∀ k : Fin k0_t3_loop.trips, k0_off20 k = ![64 + k.val, 0] := by decide +kernel
theorem t3_ooff0 : ∀ k : Fin k0_t3_loop.trips, k0_off21 k = ![128 * k.val + 0] := by decide +kernel
theorem t3_ioff1 : ∀ k : Fin k0_t3_loop.trips, k0_off22 k = ![64 + k.val, 16] := by decide +kernel
theorem t3_ooff1 : ∀ k : Fin k0_t3_loop.trips, k0_off23 k = ![128 * k.val + 16] := by decide +kernel
theorem t3_ioff2 : ∀ k : Fin k0_t3_loop.trips, k0_off24 k = ![64 + k.val, 32] := by decide +kernel
theorem t3_ooff2 : ∀ k : Fin k0_t3_loop.trips, k0_off25 k = ![128 * k.val + 32] := by decide +kernel
theorem t3_ioff3 : ∀ k : Fin k0_t3_loop.trips, k0_off26 k = ![64 + k.val, 48] := by decide +kernel
theorem t3_ooff3 : ∀ k : Fin k0_t3_loop.trips, k0_off27 k = ![128 * k.val + 48] := by decide +kernel
theorem t3_ioff4 : ∀ k : Fin k0_t3_loop.trips, k0_off28 k = ![64 + k.val, 64] := by decide +kernel
theorem t3_ooff4 : ∀ k : Fin k0_t3_loop.trips, k0_off29 k = ![128 * k.val + 64] := by decide +kernel
theorem t3_ioff5 : ∀ k : Fin k0_t3_loop.trips, k0_off30 k = ![64 + k.val, 80] := by decide +kernel
theorem t3_ooff5 : ∀ k : Fin k0_t3_loop.trips, k0_off31 k = ![128 * k.val + 80] := by decide +kernel
theorem t3_ioff6 : ∀ k : Fin k0_t3_loop.trips, k0_off32 k = ![64 + k.val, 96] := by decide +kernel
theorem t3_ooff6 : ∀ k : Fin k0_t3_loop.trips, k0_off33 k = ![128 * k.val + 96] := by decide +kernel
theorem t3_ioff7 : ∀ k : Fin k0_t3_loop.trips, k0_off34 k = ![64 + k.val, 112] := by decide +kernel
theorem t3_ooff7 : ∀ k : Fin k0_t3_loop.trips, k0_off35 k = ![128 * k.val + 112] := by decide +kernel

variable [FloatOps F] (d : Dev nD) (L : grid0.Coords)

set_option maxHeartbeats 8000000 in
theorem t3_trip (k : Fin k0_t3_loop.trips)
    (P : Buf (Elt F) ((thrV d L).loc cc0_scratch0)) (I : Buf (Elt F) ((thrV d L).loc cc0_scratch1))
    (hI : ∀ j, (I j : BitVec 32).toNat < 100000) :
    invG d L P I 64 k.val ⟨⟩
      ⊢ wp frame (wpE (defs₀ (F := F)) 𝒱₀ (thrV d L) none) Set.univ
          (k0_t3_body L t2W (Memref.isWhole_whole _) t1W (Memref.isWhole_whole _) ixW (Memref.isWhole_whole _) e2W (Memref.isWhole_whole _) e1W (Memref.isWhole_whole _) plW (Memref.isWhole_whole _) ivW (Memref.isWhole_whole _) ovW (Memref.isWhole_whole _) cc0_scratch3 cc0_scoped0 cc0_scoped1 cc0_scoped2 cc0_scoped3 cc0_scoped4 cc0_scoped5 k ⟨⟩) (fun _ => invG d L P I 64 (k.val + 1) ⟨⟩) := by
  unfold invG
  iintro ⟨Hpl, Hiv, %f, %hf, Hov⟩
  unfold k0_t3_body
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  rw [SparseCore.vectorLoadIdx_bind (c := thrV d L)]
  sl_exec (disch := exact chk_of_lt _ (fun x => lane_lt _ (read_lt d L I hI _ _) x))
  sl_step
  isplitl [Hpl]; · iexact Hpl
  isplitl [Hiv]; · iexact Hiv
  iexists _; isplitr
  · ipureintro
    refine ovDone_step8 d L P I 64 k.val k.isLt (by decide) f hf _ (k0_off21_inb k) (t3_ooff0 k) _ (k0_off23_inb k) (t3_ooff1 k) _ (k0_off25_inb k) (t3_ooff2 k) _ (k0_off27_inb k) (t3_ooff3 k) _ (k0_off29_inb k) (t3_ooff4 k) _ (k0_off31_inb k) (t3_ooff5 k) _ (k0_off33_inb k) (t3_ooff6 k) _ (k0_off35_inb k) (t3_ooff7 k) _ (k0_off20_inb k) (t3_ioff0 k) _ (k0_off22_inb k) (t3_ioff1 k) _ (k0_off24_inb k) (t3_ioff2 k) _ (k0_off26_inb k) (t3_ioff3 k) _ (k0_off28_inb k) (t3_ioff4 k) _ (k0_off30_inb k) (t3_ioff5 k) _ (k0_off32_inb k) (t3_ioff6 k) _ (k0_off34_inb k) (t3_ioff7 k) ?_ ?_ ?_ ?_ ?_ ?_ ?_ ?_ <;>
      exact chk_of_lt _ (fun x => lane_lt _ (read_lt d L I hI _ _) x)
  · iexact Hov

end Cert.Proof.Id

end
-- ==== Proof.TileT1.lean ====
/-
  One plane of the tile's task: field (13 w + k) / 16's indices and row 13 w + k of the transposed table are copied into
  the scratch, the two gather loops fill the half row twice, and each half is copied out into row 13 w + k of the
  [416, 16384] result.
-/
import proofs.«205279_g68771016344126_cont_9to1_m_1330_15_alg».proof.Proof.Common
import proofs.«205279_g68771016344126_cont_9to1_m_1330_15_alg».proof.Proof.TileVal
import proofs.«205279_g68771016344126_cont_9to1_m_1330_15_alg».proof.Proof.TileT2
import proofs.«205279_g68771016344126_cont_9to1_m_1330_15_alg».proof.Proof.TileT3

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx
variable [FloatOps F] (d : Dev nD) (L : grid0.Coords)

omit [FloatOps F] in
theorem trips_t2 : Scf.trips k0_t2_loop.lb k0_t2_loop.ub k0_t2_loop.st = 64 := by decide
omit [FloatOps F] in
theorem trips_t3 : Scf.trips k0_t3_loop.lb k0_t3_loop.ub k0_t3_loop.st = 64 := by decide

/-- The plane's value step, over names for the scratch contents and the first half's result. -/
theorem e2Done_step' (f4 : Buf (Elt F) (t2Loc d)) (f2 : Buf (Elt F) (ixLoc d)) (hix : IdxOK d f2) (k : Fin k0_t1_loop.trips)
    (g : Buf (Elt F) (e2Loc d)) (hg : E2Done d L f4 f2 k.val g)
    (P0 : Buf (Elt F) ((thrV d L).loc cc0_scratch0)) (I0 : Buf (Elt F) ((thrV d L).loc cc0_scratch1))
    (f1 f3 : Buf (Elt F) ((thrV d L).loc cc0_scratch2))
    (Pk : Buf (Elt F) ((thrV d L).loc cc0_scratch0)) (Ik : Buf (Elt F) ((thrV d L).loc cc0_scratch1)) (gA : Buf (Elt F) (e2Loc d))
    (hPk : (View.write (Elt F) (plW : Memref sig .scVector .vmem S100000 .f32).view P0 (ReadAs.same.apply (View.read (Elt F) (((t2W : Memref sig .scVector .hbm S416x100000 .f32).slice (Rect.unit (s := S416x100000) (k0_off2 L k) S1x100000.size (k0_off2_inb L k)) (fun _ => rfl)).squeeze S100000 squeezes_S1x100000_S100000).view f4)) Finset.univ) = Pk) (hIk : (View.write (Elt F) (ivW : Memref sig .scVector .vmem S128x128 .i32).view I0 (ReadAs.same.apply (View.read (Elt F) (((ixW : Memref sig .scVector .hbm S26x128x128 .i32).slice (Rect.unit (s := S26x128x128) (k0_off1 L k) S1x128x128.size (k0_off1_inb L k)) (fun _ => rfl)).squeeze S128x128 squeezes_S1x128x128_S128x128).view f2)) Finset.univ) = Ik) (hgA : (((e2Half0 L k).view.set).piecewise ((e2Half0 L k).view.writes (Elt F) (e2Half0 L k).view.junk [⟨Rect.whole S8192, ReadAs.same.apply (View.read (Elt F) (ovW : Memref sig .scVector .vmem S8192 .f32).view f1)⟩]) g) = gA)
    (hf1 : OvDone d L Pk Ik 0 64 f1) (hf3 : OvDone d L Pk Ik 64 64 f3) :
    E2Done d L f4 f2 (k.val + 1)
      (((e2Half1 L k).view.set).piecewise
        ((e2Half1 L k).view.writes (Elt F) gA [⟨Rect.whole S8192, ReadAs.same.apply (View.read (Elt F) (ovW : Memref sig .scVector .vmem S8192 .f32).view f3)⟩])
        gA) := by
  subst hPk hIk hgA
  exact e2Done_step d L f4 f2 hix k g hg P0 I0 f1 f3 hf1 hf3

set_option maxHeartbeats 8000000 in
theorem t1_trip (f4 : Buf (Elt F) (t2Loc d)) (f2 : Buf (Elt F) (ixLoc d)) (hix : IdxOK d f2)
    (O : CellTallies nD τ sig (HIx 1)) (W : Waits sig (HIx 1)) (k : Fin k0_t1_loop.trips) :
    inv1 d L f4 f2 O W k.val ⟨⟩
      ⊢ wp frame (wpE (defs₀ (F := F)) 𝒱₀ (thrV d L) none) Set.univ
          (k0_t1_body L t2W (Memref.isWhole_whole _) t1W (Memref.isWhole_whole _) ixW (Memref.isWhole_whole _) e2W (Memref.isWhole_whole _) e1W (Memref.isWhole_whole _) plW (Memref.isWhole_whole _) ivW (Memref.isWhole_whole _) ovW (Memref.isWhole_whole _) cc0_scratch3 cc0_scoped0 cc0_scoped1 cc0_scoped2 cc0_scoped3 cc0_scoped4 cc0_scoped5 (Scalar.addi (Scalar.muli (BitVec.ofNat 32 (L 1).val) 2#32) (BitVec.ofNat 32 (L 0).val)) k ⟨⟩) (fun _ => inv1 d L f4 f2 O W (k.val + 1) ⟨⟩) := by
  unfold inv1
  iintro ⟨Hmw, Ht2, Hix, ⟨%g, %hg, He2⟩, ⟨%P0, Hpl⟩, ⟨%I0, Hiv⟩, ⟨%f0, Hov⟩, Hs3, Hc0, Hc1, Hc2, %W', %hW', HO⟩
  unfold k0_t1_body
  sl_exec
  have hI : ∀ j, ((View.write (Elt F) (ivW : Memref sig .scVector .vmem S128x128 .i32).view I0 (t1_trip.sl.dma0 d L f2 k) Finset.univ) j : BitVec 32).toNat < 100000 := iv_copy_lt d L f2 hix I0 k
  generalize hPk : View.write (Elt F) (plW : Memref sig .scVector .vmem S100000 .f32).view P0 (t1_trip.sl.dma0_1 d L f4 k) Finset.univ = Pk
  generalize hIk : View.write (Elt F) (ivW : Memref sig .scVector .vmem S128x128 .i32).view I0 (t1_trip.sl.dma0 d L f2 k) Finset.univ = Ik at hI
  sl_for (invG d L Pk Ik 0) $$ [Hpl Hiv Hov]
  case region =>
    intro k' _
    exact t2_trip d L k' _ _ hI
  · unfold invG
    isplitl [Hpl]; · iexact Hpl
    isplitl [Hiv]; · iexact Hiv
    iexists f0; isplitr
    · ipureintro; exact OvDone_zero d L _ _ 0 f0
    · iexact Hov
  iintro %_ HI
  unfold invG
  icases HI with ⟨Hpl, Hiv, %f1, %hf1, Hov⟩
  ihave Hsp := (pointsTo_split_subset (e2Half0_sub L k)).1 $$ He2
  icases Hsp with ⟨Hd0, He2r⟩
  ihave Hd0' := (Entails.of_eq (pts_half0 (F := F) d L k g).symm) $$ Hd0
  sl_exec
  ihave Hd0 := (Entails.of_eq (pts_half0 (F := F) d L k _)) $$ Hd0'
  ihave He2 := (pointsTo_join_subset (ℓ := e2Loc d) (e2Half0_sub L k)) $$ [Hd0 He2r]
  · isplitl [Hd0]; · iexact Hd0
    iexact He2r
  generalize hgA : ((e2Half0 L k).view.set).piecewise ((e2Half0 L k).view.writes (Elt F) (e2Half0 L k).view.junk [⟨Rect.whole S8192, t1_trip.sl.dma0_2 d L f1⟩]) g = gA
  sl_for (invG d L Pk Ik 64) $$ [Hpl Hiv Hov]
  case region =>
    intro k' _
    exact t3_trip d L k' _ _ hI
  · unfold invG
    isplitl [Hpl]; · iexact Hpl
    isplitl [Hiv]; · iexact Hiv
    iexists f1; isplitr
    · ipureintro; exact OvDone_zero d L _ _ 64 f1
    · iexact Hov
  iintro %_ HI
  unfold invG
  icases HI with ⟨Hpl, Hiv, %f3, %hf3, Hov⟩
  ihave Hsp := (pointsTo_split_subset (e2Half1_sub L k)).1 $$ He2
  icases Hsp with ⟨Hd1, He2r⟩
  ihave Hd1' := (Entails.of_eq (pts_half1 (F := F) d L k gA).symm) $$ Hd1
  sl_exec
  ihave Hd1 := (Entails.of_eq (pts_half1 (F := F) d L k _)) $$ Hd1'
  ihave He2 := (pointsTo_join_subset (ℓ := e2Loc d) (e2Half1_sub L k)) $$ [Hd1 He2r]
  · isplitl [Hd1]; · iexact Hd1
    iexact He2r
  sl_step
  isplitl [Hmw]; · iexact Hmw
  isplitl [Ht2]; · iexact Ht2
  isplitl [Hix]; · iexact Hix
  isplitl [He2]
  · iexists _; isplitr
    · ipureintro
      rw [trips_t2] at hf1
      rw [trips_t3] at hf3
      exact e2Done_step' d L f4 f2 hix k g hg P0 I0 f1 f3 Pk Ik gA hPk hIk hgA hf1 hf3
    · iexact He2
  isplitl [Hpl]; · iexists _; iexact Hpl
  isplitl [Hiv]; · iexists _; iexact Hiv
  isplitl [Hov]; · iexists _; iexact Hov
  isplitl [Hs3]; · iexact Hs3
  isplitl [Hc0]; · iexact Hc0
  isplitl [Hc1]; · iexact Hc1
  isplitl [Hc2]; · iexact Hc2
  iexists _; isplitr
  swap
  · iexact HO
  · ipureintro; intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    · exact hW' p hp

end Cert.Proof.Id

end
-- ==== Proof.TileT4.lean ====
/-
  One trip of the gather loop over the first half row: eight times, sixteen indices are read from the index scratch,
  the table row is read at them, and the sixteen entries are stored at the next sixteen positions of the half row.
-/
import proofs.«205279_g68771016344126_cont_9to1_m_1330_15_alg».proof.Proof.Common
import proofs.«205279_g68771016344126_cont_9to1_m_1330_15_alg».proof.Proof.TileStep

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

/-! The offsets of the trip's loads of indices and stores of results, in closed form. -/

theorem t4_ioff0 : ∀ k : Fin k0_t4_loop.trips, k0_off38 k = ![0 + k.val, 0] := by decide +kernel
theorem t4_ooff0 : ∀ k : Fin k0_t4_loop.trips, k0_off39 k = ![128 * k.val + 0] := by decide +kernel
theorem t4_ioff1 : ∀ k : Fin k0_t4_loop.trips, k0_off40 k = ![0 + k.val, 16] := by decide +kernel
theorem t4_ooff1 : ∀ k : Fin k0_t4_loop.trips, k0_off41 k = ![128 * k.val + 16] := by decide +kernel
theorem t4_ioff2 : ∀ k : Fin k0_t4_loop.trips, k0_off42 k = ![0 + k.val, 32] := by decide +kernel
theorem t4_ooff2 : ∀ k : Fin k0_t4_loop.trips, k0_off43 k = ![128 * k.val + 32] := by decide +kernel
theorem t4_ioff3 : ∀ k : Fin k0_t4_loop.trips, k0_off44 k = ![0 + k.val, 48] := by decide +kernel
theorem t4_ooff3 : ∀ k : Fin k0_t4_loop.trips, k0_off45 k = ![128 * k.val + 48] := by decide +kernel
theorem t4_ioff4 : ∀ k : Fin k0_t4_loop.trips, k0_off46 k = ![0 + k.val, 64] := by decide +kernel
theorem t4_ooff4 : ∀ k : Fin k0_t4_loop.trips, k0_off47 k = ![128 * k.val + 64] := by decide +kernel
theorem t4_ioff5 : ∀ k : Fin k0_t4_loop.trips, k0_off48 k = ![0 + k.val, 80] := by decide +kernel
theorem t4_ooff5 : ∀ k : Fin k0_t4_loop.trips, k0_off49 k = ![128 * k.val + 80] := by decide +kernel
theorem t4_ioff6 : ∀ k : Fin k0_t4_loop.trips, k0_off50 k = ![0 + k.val, 96] := by decide +kernel
theorem t4_ooff6 : ∀ k : Fin k0_t4_loop.trips, k0_off51 k = ![128 * k.val + 96] := by decide +kernel
theorem t4_ioff7 : ∀ k : Fin k0_t4_loop.trips, k0_off52 k = ![0 + k.val, 112] := by decide +kernel
theorem t4_ooff7 : ∀ k : Fin k0_t4_loop.trips, k0_off53 k = ![128 * k.val + 112] := by decide +kernel

variable [FloatOps F] (d : Dev nD) (L : grid0.Coords)

set_option maxHeartbeats 8000000 in
theorem t4_trip (k0_h1 : k0_cond1 L = 1#1) (k : Fin k0_t4_loop.trips)
    (P : Buf (Elt F) ((thrV d L).loc cc0_scratch0)) (I : Buf (Elt F) ((thrV d L).loc cc0_scratch1))
    (hI : ∀ j, (I j : BitVec 32).toNat < 100000) :
    invG d L P I 0 k.val ⟨⟩
      ⊢ wp frame (wpE (defs₀ (F := F)) 𝒱₀ (thrV d L) none) Set.univ
          (k0_t4_body L t2W (Memref.isWhole_whole _) t1W (Memref.isWhole_whole _) ixW (Memref.isWhole_whole _) e2W (Memref.isWhole_whole _) e1W (Memref.isWhole_whole _) plW (Memref.isWhole_whole _) ivW (Memref.isWhole_whole _) ovW (Memref.isWhole_whole _) cc0_scratch3 cc0_scoped0 cc0_scoped1 cc0_scoped2 cc0_scoped3 cc0_scoped4 cc0_scoped5 k0_h1 k ⟨⟩) (fun _ => invG d L P I 0 (k.val + 1) ⟨⟩) := by
  unfold invG
  iintro ⟨Hpl, Hiv, %f, %hf, Hov⟩
  unfold k0_t4_body
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  sl_step
  isplitl [Hpl]; · iexact Hpl
  isplitl [Hiv]; · iexact Hiv
  iexists _; isplitr
  · ipureintro
    refine ovDone_step8 d L P I 0 k.val k.isLt (by decide) f hf _ (k0_off39_inb L k k0_h1) (t4_ooff0 k) _ (k0_off41_inb L k k0_h1) (t4_ooff1 k) _ (k0_off43_inb L k k0_h1) (t4_ooff2 k) _ (k0_off45_inb L k k0_h1) (t4_ooff3 k) _ (k0_off47_inb L k k0_h1) (t4_ooff4 k) _ (k0_off49_inb L k k0_h1) (t4_ooff5 k) _ (k0_off51_inb L k k0_h1) (t4_ooff6 k) _ (k0_off53_inb L k k0_h1) (t4_ooff7 k) _ (k0_off38_inb L k k0_h1) (t4_ioff0 k) _ (k0_off40_inb L k k0_h1) (t4_ioff1 k) _ (k0_off42_inb L k k0_h1) (t4_ioff2 k) _ (k0_off44_inb L k k0_h1) (t4_ioff3 k) _ (k0_off46_inb L k k0_h1) (t4_ioff4 k) _ (k0_off48_inb L k k0_h1) (t4_ioff5 k) _ (k0_off50_inb L k k0_h1) (t4_ioff6 k) _ (k0_off52_inb L k k0_h1) (t4_ioff7 k) ?_ ?_ ?_ ?_ ?_ ?_ ?_ ?_ <;>
      exact chk_of_lt _ (fun x => lane_lt _ (read_lt d L I hI _ _) x)
  · iexact Hov

end Cert.Proof.Id

end
-- ==== Proof.TileT5.lean ====
/-
  One trip of the gather loop over the second half row: eight times, sixteen indices are read from the index scratch,
  the table row is read at them, and the sixteen entries are stored at the next sixteen positions of the half row.
-/
import proofs.«205279_g68771016344126_cont_9to1_m_1330_15_alg».proof.Proof.Common
import proofs.«205279_g68771016344126_cont_9to1_m_1330_15_alg».proof.Proof.TileStep

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

/-! The offsets of the trip's loads of indices and stores of results, in closed form. -/

theorem t5_ioff0 : ∀ k : Fin k0_t5_loop.trips, k0_off55 k = ![64 + k.val, 0] := by decide +kernel
theorem t5_ooff0 : ∀ k : Fin k0_t5_loop.trips, k0_off56 k = ![128 * k.val + 0] := by decide +kernel
theorem t5_ioff1 : ∀ k : Fin k0_t5_loop.trips, k0_off57 k = ![64 + k.val, 16] := by decide +kernel
theorem t5_ooff1 : ∀ k : Fin k0_t5_loop.trips, k0_off58 k = ![128 * k.val + 16] := by decide +kernel
theorem t5_ioff2 : ∀ k : Fin k0_t5_loop.trips, k0_off59 k = ![64 + k.val, 32] := by decide +kernel
theorem t5_ooff2 : ∀ k : Fin k0_t5_loop.trips, k0_off60 k = ![128 * k.val + 32] := by decide +kernel
theorem t5_ioff3 : ∀ k : Fin k0_t5_loop.trips, k0_off61 k = ![64 + k.val, 48] := by decide +kernel
theorem t5_ooff3 : ∀ k : Fin k0_t5_loop.trips, k0_off62 k = ![128 * k.val + 48] := by decide +kernel
theorem t5_ioff4 : ∀ k : Fin k0_t5_loop.trips, k0_off63 k = ![64 + k.val, 64] := by decide +kernel
theorem t5_ooff4 : ∀ k : Fin k0_t5_loop.trips, k0_off64 k = ![128 * k.val + 64] := by decide +kernel
theorem t5_ioff5 : ∀ k : Fin k0_t5_loop.trips, k0_off65 k = ![64 + k.val, 80] := by decide +kernel
theorem t5_ooff5 : ∀ k : Fin k0_t5_loop.trips, k0_off66 k = ![128 * k.val + 80] := by decide +kernel
theorem t5_ioff6 : ∀ k : Fin k0_t5_loop.trips, k0_off67 k = ![64 + k.val, 96] := by decide +kernel
theorem t5_ooff6 : ∀ k : Fin k0_t5_loop.trips, k0_off68 k = ![128 * k.val + 96] := by decide +kernel
theorem t5_ioff7 : ∀ k : Fin k0_t5_loop.trips, k0_off69 k = ![64 + k.val, 112] := by decide +kernel
theorem t5_ooff7 : ∀ k : Fin k0_t5_loop.trips, k0_off70 k = ![128 * k.val + 112] := by decide +kernel

variable [FloatOps F] (d : Dev nD) (L : grid0.Coords)

set_option maxHeartbeats 8000000 in
theorem t5_trip (k0_h1 : k0_cond1 L = 1#1) (k : Fin k0_t5_loop.trips)
    (P : Buf (Elt F) ((thrV d L).loc cc0_scratch0)) (I : Buf (Elt F) ((thrV d L).loc cc0_scratch1))
    (hI : ∀ j, (I j : BitVec 32).toNat < 100000) :
    invG d L P I 64 k.val ⟨⟩
      ⊢ wp frame (wpE (defs₀ (F := F)) 𝒱₀ (thrV d L) none) Set.univ
          (k0_t5_body L t2W (Memref.isWhole_whole _) t1W (Memref.isWhole_whole _) ixW (Memref.isWhole_whole _) e2W (Memref.isWhole_whole _) e1W (Memref.isWhole_whole _) plW (Memref.isWhole_whole _) ivW (Memref.isWhole_whole _) ovW (Memref.isWhole_whole _) cc0_scratch3 cc0_scoped0 cc0_scoped1 cc0_scoped2 cc0_scoped3 cc0_scoped4 cc0_scoped5 k0_h1 k ⟨⟩) (fun _ => invG d L P I 64 (k.val + 1) ⟨⟩) := by
  unfold invG
  iintro ⟨Hpl, Hiv, %f, %hf, Hov⟩
  unfold k0_t5_body
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  rw [SparseCore.vectorLoadIdx_bind (c := thrV d L)]
  sl_exec (disch := exact fun _ => chk_of_lt _ (fun x => lane_lt _ (read_lt d L I hI _ _) x))
  sl_step
  isplitl [Hpl]; · iexact Hpl
  isplitl [Hiv]; · iexact Hiv
  iexists _; isplitr
  · ipureintro
    refine ovDone_step8 d L P I 64 k.val k.isLt (by decide) f hf _ (k0_off56_inb L k k0_h1) (t5_ooff0 k) _ (k0_off58_inb L k k0_h1) (t5_ooff1 k) _ (k0_off60_inb L k k0_h1) (t5_ooff2 k) _ (k0_off62_inb L k k0_h1) (t5_ooff3 k) _ (k0_off64_inb L k k0_h1) (t5_ooff4 k) _ (k0_off66_inb L k k0_h1) (t5_ooff5 k) _ (k0_off68_inb L k k0_h1) (t5_ooff6 k) _ (k0_off70_inb L k k0_h1) (t5_ooff7 k) _ (k0_off55_inb L k k0_h1) (t5_ioff0 k) _ (k0_off57_inb L k k0_h1) (t5_ioff1 k) _ (k0_off59_inb L k k0_h1) (t5_ioff2 k) _ (k0_off61_inb L k k0_h1) (t5_ioff3 k) _ (k0_off63_inb L k k0_h1) (t5_ioff4 k) _ (k0_off65_inb L k k0_h1) (t5_ioff5 k) _ (k0_off67_inb L k k0_h1) (t5_ioff6 k) _ (k0_off69_inb L k k0_h1) (t5_ioff7 k) ?_ ?_ ?_ ?_ ?_ ?_ ?_ ?_ <;>
      exact chk_of_lt _ (fun x => lane_lt _ (read_lt d L I hI _ _) x)
  · iexact Hov

end Cert.Proof.Id

end
-- ==== Proof.TileVal1.lean ====
/-
  The last section's facts about values: a tile with w < 26 copies field w's indices and row w of the first-order
  table into the scratch, gathers, and copies the two halves out into row w of the [26, 16384] result; and the end of
  the plane loop: thirteen planes done are all of the tile's rows of the [416, 16384] result.
-/
import proofs.«205279_g68771016344126_cont_9to1_m_1330_15_alg».proof.Proof.Common
import proofs.«205279_g68771016344126_cont_9to1_m_1330_15_alg».proof.Proof.TileVal

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (d : Dev nD) (L : grid0.Coords)

/-- The printed test is "tile number below 26". -/
theorem cond1_iff : ∀ i : grid0.Coords, k0_cond1 i = 1#1 ↔ 2 * (i 1).val + (i 0).val < 26 := by decide +kernel

/-- The section runs exactly for the tile numbers below 26. -/
theorem wid_lt_of_cond (h : k0_cond1 L = 1#1) : wid L < 26 := by
  exact (cond1_iff L).mp h
theorem e1Region_empty (h : ¬ k0_cond1 L = 1#1) : e1Region L = ∅ := by
  have hw : ¬ wid L < 26 := fun hw => h ((cond1_iff L).mpr hw)
  unfold e1Region
  rw [dif_neg hw]

/-- The two halves of row w of the [26, 16384] result, as the kernel slices them. -/
abbrev e1Half0 (h : k0_cond1 L = 1#1) : Memref sig .scVector .hbm S8192 .f32 :=
  (((e1W : Memref sig .scVector .hbm S26x16384 .f32).slice (Rect.unit (s := S26x16384) (k0_off54 L) S1x16384.size (k0_off54_inb L h)) (fun _ => rfl)).squeeze S16384 squeezes_S1x16384_S16384).slice (Rect.unit (s := S16384) ![0] S8192.size inb_S16384_S8192_0) (fun _ => rfl)
abbrev e1Half1 (h : k0_cond1 L = 1#1) : Memref sig .scVector .hbm S8192 .f32 :=
  (((e1W : Memref sig .scVector .hbm S26x16384 .f32).slice (Rect.unit (s := S26x16384) (k0_off54 L) S1x16384.size (k0_off54_inb L h)) (fun _ => rfl)).squeeze S16384 squeezes_S1x16384_S16384).slice (Rect.unit (s := S16384) ![8192] S8192.size inb_S16384_S8192_8192) (fun _ => rfl)

theorem pts_e1half0 (h : k0_cond1 L = 1#1) (g : Buf (Elt F) (e1Loc d)) :
    (((e1Half0 L h).view.loc (thrV d L) ↦[(e1Half0 L h).view.set]{fullShare} g : sProp 𝕄)) = (e1Loc d ↦[(e1Half0 L h).view.set]{fullShare} g) := rfl
theorem pts_e1half1 (h : k0_cond1 L = 1#1) (g : Buf (Elt F) (e1Loc d)) :
    (((e1Half1 L h).view.loc (thrV d L) ↦[(e1Half1 L h).view.set]{fullShare} g : sProp 𝕄)) = (e1Loc d ↦[(e1Half1 L h).view.set]{fullShare} g) := rfl

/-- Where the kernel's half-row memref (row r of the [26, 16384] result, columns c … c + 8191) puts its position y:
    at row r, column c + y. -/
theorem rowHalf1_emb (off : Fin 2 → ℕ) (hoff : ∀ a, off a + S1x16384.size a ≤ S26x16384.size a) (r : ℕ) (eoff : off = ![r, 0])
    (c : ℕ) (hc : ∀ a, (![c] : Fin 1 → ℕ) a + S8192.size a ≤ S16384.size a) (y : S8192.Idx) (a : Fin 2) :
    (((((e1W : Memref sig .scVector .hbm S26x16384 .f32).slice (Rect.unit (s := S26x16384) off S1x16384.size hoff) (fun _ => rfl)).squeeze S16384 squeezes_S1x16384_S16384).slice (Rect.unit (s := S16384) ![c] S8192.size hc) (fun _ => rfl)).view.emb y a).val
      = (![r, c + (y 0).val] : Fin 2 → ℕ) a := by
  subst eoff
  have hcy : c + (y 0).val < 16384 := by
    have h2 : (y 0).val < 8192 := (y 0).isLt
    have h3 : (![c] : Fin 1 → ℕ) 0 + S8192.size 0 ≤ S16384.size 0 := hc 0
    change c + 8192 ≤ 16384 at h3
    omega
  have hre : Shape.reshapeEquiv (s := S1x16384) (s' := S16384) squeezes_S1x16384_S16384.numel_eq ((Rect.unit (s := S16384) ![c] S8192.size hc).emb y)
      = ix2 (0 : Fin 1) (⟨c + (y 0).val, hcy⟩ : Fin 16384) :=
    Shape.reshapeEquiv_eq_of_rowMajor _ (by
      rw [Shape.rowMajor_val_two, Shape.rowMajor_val_one]
      show 0 * 16384 + (c + (y 0).val) = c + 1 * (y 0).val
      omega)
  match a with
  | ⟨0, _⟩ =>
    show r + 1 * (Shape.reshapeEquiv (s := S1x16384) (s' := S16384) squeezes_S1x16384_S16384.numel_eq ((Rect.unit (s := S16384) ![c] S8192.size hc).emb y) 0).val = r
    rw [hre]; show r + 1 * 0 = r; omega
  | ⟨1, _⟩ =>
    show 0 + 1 * (Shape.reshapeEquiv (s := S1x16384) (s' := S16384) squeezes_S1x16384_S16384.numel_eq ((Rect.unit (s := S16384) ![c] S8192.size hc).emb y) 1).val = c + (y 0).val
    rw [hre]; show 0 + 1 * (c + (y 0).val) = c + (y 0).val; omega

theorem e1half0_emb (h : k0_cond1 L = 1#1) (y : S8192.Idx) (a : Fin 2) :
    ((e1Half0 L h).view.emb y a).val = (![wid L, (y 0).val] : Fin 2 → ℕ) a := by
  have h' := rowHalf1_emb (k0_off54 L) (k0_off54_inb L h) (wid L) (k0_off54_eq L) 0 inb_S16384_S8192_0 y a
  rw [h']
  match a with
  | ⟨0, _⟩ => rfl
  | ⟨1, _⟩ => show 0 + (y 0).val = (y 0).val; omega

theorem e1half1_emb (h : k0_cond1 L = 1#1) (y : S8192.Idx) (a : Fin 2) :
    ((e1Half1 L h).view.emb y a).val = (![wid L, 8192 + (y 0).val] : Fin 2 → ℕ) a :=
  rowHalf1_emb (k0_off54 L) (k0_off54_inb L h) (wid L) (k0_off54_eq L) 8192 inb_S16384_S8192_8192 y a

/-- The first half: row w, columns below 8192. -/
theorem mem_e1half0 (h : k0_cond1 L = 1#1) (j : S26x16384.Idx) :
    j ∈ (e1Half0 L h).view.set ↔ (j 0).val = wid L ∧ (j 1).val < 8192 := by
  constructor
  · intro hj
    obtain ⟨y, -, rfl⟩ := Finset.mem_map.mp hj
    have hy : (y 0).val < 8192 := (y 0).isLt
    exact ⟨e1half0_emb L h y 0, (e1half0_emb L h y 1).trans_lt hy⟩
  · rintro ⟨h0, h1⟩
    refine Finset.mem_map.mpr ⟨ix1 (⟨(j 1).val, h1⟩ : Fin 8192), Finset.mem_univ _, ?_⟩
    funext a
    match a with
    | ⟨0, _⟩ => exact Fin.ext ((e1half0_emb L h _ 0).trans h0.symm)
    | ⟨1, _⟩ => exact Fin.ext (e1half0_emb L h _ 1)

/-- The second half: row w, columns from 8192. -/
theorem mem_e1half1 (h : k0_cond1 L = 1#1) (j : S26x16384.Idx) :
    j ∈ (e1Half1 L h).view.set ↔ (j 0).val = wid L ∧ 8192 ≤ (j 1).val := by
  constructor
  · intro hj
    obtain ⟨y, -, rfl⟩ := Finset.mem_map.mp hj
    refine ⟨e1half1_emb L h y 0, ?_⟩
    have h' := e1half1_emb L h y 1
    change _ = 8192 + (y 0).val at h'
    omega
  · rintro ⟨h0, h1⟩
    have hj1 : (j 1).val < 16384 := (j 1).isLt
    refine Finset.mem_map.mpr ⟨ix1 (⟨(j 1).val - 8192, by omega⟩ : Fin 8192), Finset.mem_univ _, ?_⟩
    funext a
    match a with
    | ⟨0, _⟩ => exact Fin.ext ((e1half1_emb L h _ 0).trans h0.symm)
    | ⟨1, _⟩ => exact Fin.ext ((e1half1_emb L h _ 1).trans (by show 8192 + ((j 1).val - 8192) = (j 1).val; omega))

/-- The tile's row of the [26, 16384] result: row w. -/
theorem mem_e1Row (hw : wid L < 26) (j : S26x16384.Idx) : j ∈ e1Region L ↔ (j 0).val = wid L := by
  have h1 : (j 1).val < 16384 := (j 1).isLt
  have hs : ((e1W : Memref sig .scVector .hbm S26x16384 .f32).view.slice (Rect.unit (s := S26x16384) ![wid L, 0] ![1, 16384] (e1Row_inb L hw))).set
      = (Rect.unit (s := S26x16384) ![wid L, 0] ![1, 16384] (e1Row_inb L hw)).set := View.set_slice_whole _ _
  have hm : j ∈ e1Region L ↔ j ∈ (Rect.unit (s := S26x16384) ![wid L, 0] ![1, 16384] (e1Row_inb L hw)).set := by
    unfold e1Region
    rw [dif_pos hw]
    exact Eq.to_iff (congrArg (fun S : Finset S26x16384.Idx => j ∈ S) hs)
  rw [hm, Rect.mem_set_unit]
  constructor
  · intro h'
    have h0 := h' 0
    change wid L ≤ (j 0).val ∧ (j 0).val < wid L + 1 at h0
    omega
  · intro h' a
    match a with
    | ⟨0, _⟩ => show wid L ≤ (j 0).val ∧ (j 0).val < wid L + 1; omega
    | ⟨1, _⟩ => exact ⟨Nat.zero_le _, by show (j 1).val < 0 + 16384; omega⟩

theorem e1Half0_sub (h : k0_cond1 L = 1#1) : (e1Half0 L h).view.set ⊆ e1Region L := by
  intro j hj
  rw [mem_e1half0] at hj
  rw [mem_e1Row L (wid_lt_of_cond L h)]
  exact hj.1
theorem e1Half1_sub (h : k0_cond1 L = 1#1) : (e1Half1 L h).view.set ⊆ e1Region L := by
  intro j hj
  rw [mem_e1half1] at hj
  rw [mem_e1Row L (wid_lt_of_cond L h)]
  exact hj.1

/-- The indices copied into the scratch name table rows. -/
theorem iv_copy_lt1 (f2 : Buf (Elt F) (ixLoc d)) (hix : IdxOK d f2) (I0 : Buf (Elt F) ((thrV d L).loc cc0_scratch1)) (h : k0_cond1 L = 1#1) :
    ∀ j, (((View.write (Elt F) (ivW : Memref sig .scVector .vmem S128x128 .i32).view I0 (ReadAs.same.apply (View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2)) Finset.univ)) j : BitVec 32).toNat < 100000 := by
  intro j
  refine lt_of_eq_of_lt (congrArg BitVec.toNat (iv_copy_apply d L I0 _ j)) ?_
  show ((View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2 j : BitVec 32)).toNat < 100000
  rw [View.read_apply, cast_eq]
  exact hix _

/-- Thirteen planes done: the tile's rows are the gathered rows. -/
theorem e2_fin (f4 : Buf (Elt F) (t2Loc d)) (f2 : Buf (Elt F) (ixLoc d)) (g : Buf (Elt F) (e2Loc d)) (hg : E2Done d L f4 f2 13 g) :
    ∀ j ∈ e2Region L, g j = e2Tgt d f4 f2 j := by
  intro j hj
  exact hg j hj ((mem_e2Rows L j).mp hj).2

variable [FloatOps F]

omit [FloatOps F] in
/-- Where the first-order table's row memref (row w) puts its position n: at row w, column n. -/
theorem t1row_emb (h : k0_cond1 L = 1#1) (n : S100000.Idx) (a : Fin 2) :
    ((((t1W : Memref sig .scVector .hbm S26x100000 .f32).slice (Rect.unit (s := S26x100000) (k0_off37 L) S1x100000.size (k0_off37_inb L h)) (fun _ => rfl)).squeeze S100000 squeezes_S1x100000_S100000).view.emb n a).val = (![wid L, (n 0).val] : Fin 2 → ℕ) a := by
  have hoff : k0_off37 L = ![wid L, 0] := k0_off37_eq L
  have hre : Shape.reshapeEquiv (s := S1x100000) (s' := S100000) squeezes_S1x100000_S100000.numel_eq n = ix2 (0 : Fin 1) (⟨(n 0).val, (n 0).isLt⟩ : Fin 100000) :=
    Shape.reshapeEquiv_eq_of_rowMajor _ (by
      rw [Shape.rowMajor_val_two, Shape.rowMajor_val_one]
      show 0 * 100000 + (n 0).val = (n 0).val
      omega)
  match a with
  | ⟨0, _⟩ =>
    show k0_off37 L 0 + 1 * (Shape.reshapeEquiv (s := S1x100000) (s' := S100000) squeezes_S1x100000_S100000.numel_eq n 0).val = wid L
    rw [hre, hoff]; show wid L + 1 * 0 = _; omega
  | ⟨1, _⟩ =>
    show k0_off37 L 1 + 1 * (Shape.reshapeEquiv (s := S1x100000) (s' := S100000) squeezes_S1x100000_S100000.numel_eq n 1).val = (n 0).val
    rw [hre, hoff]; show 0 + 1 * (n 0).val = _; omega

omit [FloatOps F] in
/-- The table-row scratch after the copy in: entry n is the first-order table's entry (w, n). -/
theorem PK1_apply (f5 : Buf (Elt F) (t1Loc d)) (h : k0_cond1 L = 1#1) (P0 : Buf (Elt F) ((thrV d L).loc cc0_scratch0)) (n : S100000.Idx) :
    (View.write (Elt F) (plW : Memref sig .scVector .vmem S100000 .f32).view P0 (ReadAs.same.apply (View.read (Elt F) (((t1W : Memref sig .scVector .hbm S26x100000 .f32).slice (Rect.unit (s := S26x100000) (k0_off37 L) S1x100000.size (k0_off37_inb L h)) (fun _ => rfl)).squeeze S100000 squeezes_S1x100000_S100000).view f5)) Finset.univ) n
      = f5 (ix2 (⟨wid L, wid_lt_of_cond L h⟩ : Fin 26) (n 0)) := by
  refine (pl_copy_apply d L P0 _ n).trans ?_
  show View.read (Elt F) (((t1W : Memref sig .scVector .hbm S26x100000 .f32).slice (Rect.unit (s := S26x100000) (k0_off37 L) S1x100000.size (k0_off37_inb L h)) (fun _ => rfl)).squeeze S100000 squeezes_S1x100000_S100000).view f5 n = _
  rw [View.read_apply, cast_eq]
  refine congrArg f5 ?_
  funext a
  match a with
  | ⟨0, _⟩ => exact Fin.ext (t1row_emb L h n 0)
  | ⟨1, _⟩ => exact Fin.ext (t1row_emb L h n 1)

omit [FloatOps F] in
/-- Where the index-plane memref (field w of the index array) puts its position (p, q). -/
theorem ixplane1_emb (h : k0_cond1 L = 1#1) (x : S128x128.Idx) (a : Fin 3) :
    ((((ixW : Memref sig .scVector .hbm S26x128x128 .i32).slice (Rect.unit (s := S26x128x128) (k0_off36 L) S1x128x128.size (k0_off36_inb L h)) (fun _ => rfl)).squeeze S128x128 squeezes_S1x128x128_S128x128).view.emb x a).val = (![wid L, (x 0).val, (x 1).val] : Fin 3 → ℕ) a := by
  have hoff : k0_off36 L = ![wid L, 0, 0] := k0_off36_eq L
  have hre : Shape.reshapeEquiv (s := S1x128x128) (s' := S128x128) squeezes_S1x128x128_S128x128.numel_eq x = ix3 (0 : Fin 1) (⟨(x 0).val, (x 0).isLt⟩ : Fin 128) (⟨(x 1).val, (x 1).isLt⟩ : Fin 128) :=
    Shape.reshapeEquiv_eq_of_rowMajor _ (by
      rw [Shape.rowMajor_val_three, Shape.rowMajor_val_two]
      show (0 * 128 + (x 0).val) * 128 + (x 1).val = (x 0).val * 128 + (x 1).val
      omega)
  match a with
  | ⟨0, _⟩ =>
    show k0_off36 L 0 + 1 * (Shape.reshapeEquiv (s := S1x128x128) (s' := S128x128) squeezes_S1x128x128_S128x128.numel_eq x 0).val = wid L
    rw [hre, hoff]; show wid L + 1 * 0 = _; omega
  | ⟨1, _⟩ =>
    show k0_off36 L 1 + 1 * (Shape.reshapeEquiv (s := S1x128x128) (s' := S128x128) squeezes_S1x128x128_S128x128.numel_eq x 1).val = (x 0).val
    rw [hre, hoff]; show 0 + 1 * (x 0).val = _; omega
  | ⟨2, _⟩ =>
    show k0_off36 L 2 + 1 * (Shape.reshapeEquiv (s := S1x128x128) (s' := S128x128) squeezes_S1x128x128_S128x128.numel_eq x 2).val = (x 1).val
    rw [hre, hoff]; show 0 + 1 * (x 1).val = _; omega

omit [FloatOps F] in
/-- The index scratch after the copy in: word (p, q) is the index array's word (w, p, q). -/
theorem IK1_apply (f2 : Buf (Elt F) (ixLoc d)) (h : k0_cond1 L = 1#1) (I0 : Buf (Elt F) ((thrV d L).loc cc0_scratch1)) (x : S128x128.Idx) :
    (View.write (Elt F) (ivW : Memref sig .scVector .vmem S128x128 .i32).view I0 (ReadAs.same.apply (View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2)) Finset.univ) x
      = f2 (ix3 (⟨wid L, wid_lt_of_cond L h⟩ : Fin 26) (x 0) (x 1)) := by
  refine (iv_copy_apply d L I0 _ x).trans ?_
  show View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2 x = _
  rw [View.read_apply, cast_eq]
  refine congrArg f2 ?_
  funext a
  match a with
  | ⟨0, _⟩ => exact Fin.ext (ixplane1_emb L h x 0)
  | ⟨1, _⟩ => exact Fin.ext (ixplane1_emb L h x 1)
  | ⟨2, _⟩ => exact Fin.ext (ixplane1_emb L h x 2)

omit [FloatOps F] in
/-- A position of a gathered half row (the half starting at column 128 base) is the result's entry at row w and that
    column. -/
theorem half_val1 (f5 : Buf (Elt F) (t1Loc d)) (f2 : Buf (Elt F) (ixLoc d)) (h : k0_cond1 L = 1#1)
    (P0 : Buf (Elt F) ((thrV d L).loc cc0_scratch0)) (I0 : Buf (Elt F) ((thrV d L).loc cc0_scratch1))
    (base : ℕ) (hbase : base = 0 ∨ base = 64) (fo : Buf (Elt F) ((thrV d L).loc cc0_scratch2))
    (hfo : OvDone d L (View.write (Elt F) (plW : Memref sig .scVector .vmem S100000 .f32).view P0 (ReadAs.same.apply (View.read (Elt F) (((t1W : Memref sig .scVector .hbm S26x100000 .f32).slice (Rect.unit (s := S26x100000) (k0_off37 L) S1x100000.size (k0_off37_inb L h)) (fun _ => rfl)).squeeze S100000 squeezes_S1x100000_S100000).view f5)) Finset.univ) (View.write (Elt F) (ivW : Memref sig .scVector .vmem S128x128 .i32).view I0 (ReadAs.same.apply (View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2)) Finset.univ) base 64 fo)
    (y : S8192.Idx) (j : S26x16384.Idx) (hj0 : (j 0).val = wid L) (hj1 : (j 1).val = 128 * base + (y 0).val) :
    fo y = e1Tgt d f5 f2 j := by
  have hy : (y 0).val < 8192 := (y 0).isLt
  rw [hfo y (by omega), PK1_apply d L f5 h, IK1_apply d L f2 h]
  unfold e1Tgt ixAt
  refine congrArg f5 ?_
  funext a
  match a with
  | ⟨0, _⟩ => exact Fin.ext hj0.symm
  | ⟨1, _⟩ =>
    refine congrArg capIdx (congrArg f2 ?_)
    funext b
    match b with
    | ⟨0, _⟩ => exact Fin.ext hj0.symm
    | ⟨1, _⟩ => exact Fin.ext (show (base + (y 0).val / 128) % 128 = (j 1).val / 128 by rcases hbase with rfl | rfl <;> omega)
    | ⟨2, _⟩ => exact Fin.ext (show (y 0).val % 128 = (j 1).val % 128 by rcases hbase with rfl | rfl <;> omega)

omit [FloatOps F] in
theorem e1half0_writes_at (h : k0_cond1 L = 1#1) (G : Buf (Elt F) (e1Loc d)) (w : S8192.Idx → Elt F .f32) (y : S8192.Idx) :
    (e1Half0 L h).view.writes (Elt F) G [⟨Rect.whole S8192, w⟩] ((e1Half0 L h).view.emb y) = w y :=
  ((View.read_apply _ _).trans (cast_eq _ _)).symm.trans (writes_whole_at (e1Half0 L h).view G w y)

omit [FloatOps F] in
theorem e1half1_writes_at (h : k0_cond1 L = 1#1) (G : Buf (Elt F) (e1Loc d)) (w : S8192.Idx → Elt F .f32) (y : S8192.Idx) :
    (e1Half1 L h).view.writes (Elt F) G [⟨Rect.whole S8192, w⟩] ((e1Half1 L h).view.emb y) = w y :=
  ((View.read_apply _ _).trans (cast_eq _ _)).symm.trans (writes_whole_at (e1Half1 L h).view G w y)

/-- After the section, row w of the [26, 16384] result is the gathered row. -/
theorem e1Done_fin (f5 : Buf (Elt F) (t1Loc d)) (f2 : Buf (Elt F) (ixLoc d)) (hix : IdxOK d f2) (h : k0_cond1 L = 1#1)
    (g : Buf (Elt F) (e1Loc d))
    (P0 : Buf (Elt F) ((thrV d L).loc cc0_scratch0)) (I0 : Buf (Elt F) ((thrV d L).loc cc0_scratch1))
    (f1 f3 : Buf (Elt F) ((thrV d L).loc cc0_scratch2))
    (hf1 : OvDone d L (View.write (Elt F) (plW : Memref sig .scVector .vmem S100000 .f32).view P0 (ReadAs.same.apply (View.read (Elt F) (((t1W : Memref sig .scVector .hbm S26x100000 .f32).slice (Rect.unit (s := S26x100000) (k0_off37 L) S1x100000.size (k0_off37_inb L h)) (fun _ => rfl)).squeeze S100000 squeezes_S1x100000_S100000).view f5)) Finset.univ) (View.write (Elt F) (ivW : Memref sig .scVector .vmem S128x128 .i32).view I0 (ReadAs.same.apply (View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2)) Finset.univ) 0 64 f1)
    (hf3 : OvDone d L (View.write (Elt F) (plW : Memref sig .scVector .vmem S100000 .f32).view P0 (ReadAs.same.apply (View.read (Elt F) (((t1W : Memref sig .scVector .hbm S26x100000 .f32).slice (Rect.unit (s := S26x100000) (k0_off37 L) S1x100000.size (k0_off37_inb L h)) (fun _ => rfl)).squeeze S100000 squeezes_S1x100000_S100000).view f5)) Finset.univ) (View.write (Elt F) (ivW : Memref sig .scVector .vmem S128x128 .i32).view I0 (ReadAs.same.apply (View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2)) Finset.univ) 64 64 f3) :
    ∀ j ∈ e1Region L,
      (((e1Half1 L h).view.set).piecewise
        ((e1Half1 L h).view.writes (Elt F) (((e1Half0 L h).view.set).piecewise ((e1Half0 L h).view.writes (Elt F) (e1Half0 L h).view.junk [⟨Rect.whole S8192, ReadAs.same.apply (View.read (Elt F) (ovW : Memref sig .scVector .vmem S8192 .f32).view f1)⟩]) g) [⟨Rect.whole S8192, ReadAs.same.apply (View.read (Elt F) (ovW : Memref sig .scVector .vmem S8192 .f32).view f3)⟩])
        (((e1Half0 L h).view.set).piecewise ((e1Half0 L h).view.writes (Elt F) (e1Half0 L h).view.junk [⟨Rect.whole S8192, ReadAs.same.apply (View.read (Elt F) (ovW : Memref sig .scVector .vmem S8192 .f32).view f1)⟩]) g)) j = e1Tgt d f5 f2 j := by
  intro j hj
  have hrow : (j 0).val = wid L := (mem_e1Row L (wid_lt_of_cond L h) j).mp hj
  by_cases hb : (j 1).val < 8192
  · have h1 : j ∉ (e1Half1 L h).view.set := fun h' => by have := ((mem_e1half1 L h j).mp h').2; omega
    have h0 : j ∈ (e1Half0 L h).view.set := (mem_e1half0 L h j).mpr ⟨hrow, hb⟩
    refine (Finset.piecewise_eq_of_notMem _ _ _ h1).trans ?_
    refine (Finset.piecewise_eq_of_mem _ _ _ h0).trans ?_
    obtain ⟨y, -, rfl⟩ := Finset.mem_map.mp h0
    refine (e1half0_writes_at d L h _ _ y).trans ?_
    exact half_val1 d L f5 f2 h P0 I0 0 (Or.inl rfl) f1 hf1 y _ hrow
      ((e1half0_emb L h y 1).trans (by show (y 0).val = 128 * 0 + (y 0).val; omega))
  · have h1 : j ∈ (e1Half1 L h).view.set := (mem_e1half1 L h j).mpr ⟨hrow, by omega⟩
    refine (Finset.piecewise_eq_of_mem _ _ _ h1).trans ?_
    obtain ⟨y, -, rfl⟩ := Finset.mem_map.mp h1
    refine (e1half1_writes_at d L h _ _ y).trans ?_
    exact half_val1 d L f5 f2 h P0 I0 64 (Or.inr rfl) f3 hf3 y _ hrow
      ((e1half1_emb L h y 1).trans (by show 8192 + (y 0).val = 128 * 64 + (y 0).val; omega))

end Cert.Proof.Id

end
-- ==== Proof.TileOpen.lean ====
/-
  A vector subcore's own semaphores and buffers, opened at the seven DMA semaphores and the three scratch buffers the
  task uses; the rest stays closed.
-/
import proofs.«205279_g68771016344126_cont_9to1_m_1330_15_alg».proof.Proof.Common
import proofs.«205279_g68771016344126_cont_9to1_m_1330_15_alg».proof.Proof.TileDefs

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- The subcore's own semaphore counters: the task's seven, each at zero, and the others. -/
theorem ownSems0_V :
    (ownSems0 (thrV d L) : sProp 𝕄)
      = iprop(semVal (semCell d L cc0_scratch3.sem) 0 ∗ semVal (semCell d L cc0_scoped0.sem) 0 ∗ semVal (semCell d L cc0_scoped1.sem) 0 ∗ semVal (semCell d L cc0_scoped2.sem) 0 ∗ semVal (semCell d L cc0_scoped3.sem) 0 ∗ semVal (semCell d L cc0_scoped4.sem) 0 ∗ semVal (semCell d L cc0_scoped5.sem) 0
          ∗ bigSep ((((((((ownCells (thrV d L)).erase (semCell d L cc0_scratch3.sem)).erase (semCell d L cc0_scoped0.sem)).erase (semCell d L cc0_scoped1.sem)).erase (semCell d L cc0_scoped2.sem)).erase (semCell d L cc0_scoped3.sem)).erase (semCell d L cc0_scoped4.sem)).erase (semCell d L cc0_scoped5.sem)) fun g => semVal g 0) := by
  unfold SparseCore.Cfg.ownSems0
  rw [SparseCore.bigSep_erase' ((mem_ownCells (g := (semCell d L cc0_scratch3.sem))).mpr ⟨rfl, by show (SemLoc.dma cc0_scratch3.sem : SemLoc sig).isScoped .scVector = true; decide⟩),
    SparseCore.bigSep_erase' (Finset.mem_erase.mpr ⟨(fun e => absurd (SemLoc.dma.inj (Prod.mk.inj e).2) (show (cc0_scoped0.sem : DmaSem sig) ≠ cc0_scratch3.sem by decide)), ((mem_ownCells (g := (semCell d L cc0_scoped0.sem))).mpr ⟨rfl, by show (SemLoc.dma cc0_scoped0.sem : SemLoc sig).isScoped .scVector = true; decide⟩)⟩),
    SparseCore.bigSep_erase' (Finset.mem_erase.mpr ⟨(fun e => absurd (SemLoc.dma.inj (Prod.mk.inj e).2) (show (cc0_scoped1.sem : DmaSem sig) ≠ cc0_scoped0.sem by decide)), (Finset.mem_erase.mpr ⟨(fun e => absurd (SemLoc.dma.inj (Prod.mk.inj e).2) (show (cc0_scoped1.sem : DmaSem sig) ≠ cc0_scratch3.sem by decide)), ((mem_ownCells (g := (semCell d L cc0_scoped1.sem))).mpr ⟨rfl, by show (SemLoc.dma cc0_scoped1.sem : SemLoc sig).isScoped .scVector = true; decide⟩)⟩)⟩),
    SparseCore.bigSep_erase' (Finset.mem_erase.mpr ⟨(fun e => absurd (SemLoc.dma.inj (Prod.mk.inj e).2) (show (cc0_scoped2.sem : DmaSem sig) ≠ cc0_scoped1.sem by decide)), (Finset.mem_erase.mpr ⟨(fun e => absurd (SemLoc.dma.inj (Prod.mk.inj e).2) (show (cc0_scoped2.sem : DmaSem sig) ≠ cc0_scoped0.sem by decide)), (Finset.mem_erase.mpr ⟨(fun e => absurd (SemLoc.dma.inj (Prod.mk.inj e).2) (show (cc0_scoped2.sem : DmaSem sig) ≠ cc0_scratch3.sem by decide)), ((mem_ownCells (g := (semCell d L cc0_scoped2.sem))).mpr ⟨rfl, by show (SemLoc.dma cc0_scoped2.sem : SemLoc sig).isScoped .scVector = true; decide⟩)⟩)⟩)⟩),
    SparseCore.bigSep_erase' (Finset.mem_erase.mpr ⟨(fun e => absurd (SemLoc.dma.inj (Prod.mk.inj e).2) (show (cc0_scoped3.sem : DmaSem sig) ≠ cc0_scoped2.sem by decide)), (Finset.mem_erase.mpr ⟨(fun e => absurd (SemLoc.dma.inj (Prod.mk.inj e).2) (show (cc0_scoped3.sem : DmaSem sig) ≠ cc0_scoped1.sem by decide)), (Finset.mem_erase.mpr ⟨(fun e => absurd (SemLoc.dma.inj (Prod.mk.inj e).2) (show (cc0_scoped3.sem : DmaSem sig) ≠ cc0_scoped0.sem by decide)), (Finset.mem_erase.mpr ⟨(fun e => absurd (SemLoc.dma.inj (Prod.mk.inj e).2) (show (cc0_scoped3.sem : DmaSem sig) ≠ cc0_scratch3.sem by decide)), ((mem_ownCells (g := (semCell d L cc0_scoped3.sem))).mpr ⟨rfl, by show (SemLoc.dma cc0_scoped3.sem : SemLoc sig).isScoped .scVector = true; decide⟩)⟩)⟩)⟩)⟩),
    SparseCore.bigSep_erase' (Finset.mem_erase.mpr ⟨(fun e => absurd (SemLoc.dma.inj (Prod.mk.inj e).2) (show (cc0_scoped4.sem : DmaSem sig) ≠ cc0_scoped3.sem by decide)), (Finset.mem_erase.mpr ⟨(fun e => absurd (SemLoc.dma.inj (Prod.mk.inj e).2) (show (cc0_scoped4.sem : DmaSem sig) ≠ cc0_scoped2.sem by decide)), (Finset.mem_erase.mpr ⟨(fun e => absurd (SemLoc.dma.inj (Prod.mk.inj e).2) (show (cc0_scoped4.sem : DmaSem sig) ≠ cc0_scoped1.sem by decide)), (Finset.mem_erase.mpr ⟨(fun e => absurd (SemLoc.dma.inj (Prod.mk.inj e).2) (show (cc0_scoped4.sem : DmaSem sig) ≠ cc0_scoped0.sem by decide)), (Finset.mem_erase.mpr ⟨(fun e => absurd (SemLoc.dma.inj (Prod.mk.inj e).2) (show (cc0_scoped4.sem : DmaSem sig) ≠ cc0_scratch3.sem by decide)), ((mem_ownCells (g := (semCell d L cc0_scoped4.sem))).mpr ⟨rfl, by show (SemLoc.dma cc0_scoped4.sem : SemLoc sig).isScoped .scVector = true; decide⟩)⟩)⟩)⟩)⟩)⟩),
    SparseCore.bigSep_erase' (Finset.mem_erase.mpr ⟨(fun e => absurd (SemLoc.dma.inj (Prod.mk.inj e).2) (show (cc0_scoped5.sem : DmaSem sig) ≠ cc0_scoped4.sem by decide)), (Finset.mem_erase.mpr ⟨(fun e => absurd (SemLoc.dma.inj (Prod.mk.inj e).2) (show (cc0_scoped5.sem : DmaSem sig) ≠ cc0_scoped3.sem by decide)), (Finset.mem_erase.mpr ⟨(fun e => absurd (SemLoc.dma.inj (Prod.mk.inj e).2) (show (cc0_scoped5.sem : DmaSem sig) ≠ cc0_scoped2.sem by decide)), (Finset.mem_erase.mpr ⟨(fun e => absurd (SemLoc.dma.inj (Prod.mk.inj e).2) (show (cc0_scoped5.sem : DmaSem sig) ≠ cc0_scoped1.sem by decide)), (Finset.mem_erase.mpr ⟨(fun e => absurd (SemLoc.dma.inj (Prod.mk.inj e).2) (show (cc0_scoped5.sem : DmaSem sig) ≠ cc0_scoped0.sem by decide)), (Finset.mem_erase.mpr ⟨(fun e => absurd (SemLoc.dma.inj (Prod.mk.inj e).2) (show (cc0_scoped5.sem : DmaSem sig) ≠ cc0_scratch3.sem by decide)), ((mem_ownCells (g := (semCell d L cc0_scoped5.sem))).mpr ⟨rfl, by show (SemLoc.dma cc0_scoped5.sem : SemLoc sig).isScoped .scVector = true; decide⟩)⟩)⟩)⟩)⟩)⟩)⟩)]

/-- The subcore's own buffers: the three scratch buffers, at some contents, and the others. -/
theorem ownBufs_V :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨(fun e => absurd (Proc.devRef_injective _ e) (show (cc0_scratch1 : Ref sig .scVector) ≠ cc0_scratch0 by decide)), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨(fun e => absurd (Proc.devRef_injective _ e) (show (cc0_scratch2 : Ref sig .scVector) ≠ cc0_scratch1 by decide)), (Finset.mem_erase.mpr ⟨(fun e => absurd (Proc.devRef_injective _ e) (show (cc0_scratch2 : Ref sig .scVector) ≠ cc0_scratch0 by decide)), (SparseCore.Cfg.mem_ownRefs_of_owner (p := Proc.scVector (cV L) (jV L)) (b := ((Proc.scVector (cV L) (jV L)).devRef cc0_scratch2)) rfl)⟩)⟩)]

end Cert.Proof.Id

end
-- ==== Proof.TileBody.lean ====
/-
  The tile's whole task: thirteen planes of the [416, 16384] result, then, for the tile numbers below 26, one row of the
  [26, 16384] result; what the tile was handed comes back with its rows at the gathered rows.
-/
import proofs.«205279_g68771016344126_cont_9to1_m_1330_15_alg».proof.Proof.Common
import proofs.«205279_g68771016344126_cont_9to1_m_1330_15_alg».proof.Proof.TileT1
import proofs.«205279_g68771016344126_cont_9to1_m_1330_15_alg».proof.Proof.TileT4
import proofs.«205279_g68771016344126_cont_9to1_m_1330_15_alg».proof.Proof.TileT5
import proofs.«205279_g68771016344126_cont_9to1_m_1330_15_alg».proof.Proof.TileVal1
import proofs.«205279_g68771016344126_cont_9to1_m_1330_15_alg».proof.Proof.TileOpen
import proofs.«205279_g68771016344126_cont_9to1_m_1330_15_alg».proof.Proof.LaunchPay

noncomputable section

namespace Cert.Proof.Id

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx
variable [FloatOps F]

section Body

variable (d : Dev nD)

omit [FloatOps F] in
theorem trips_t1 : Scf.trips k0_t1_loop.lb k0_t1_loop.ub k0_t1_loop.st = 13 := by decide
omit [FloatOps F] in
theorem trips_t4 (L : grid0.Coords) : Scf.trips k0_t4_loop.lb k0_t4_loop.ub k0_t4_loop.st = 64 := by decide
omit [FloatOps F] in
theorem trips_t5 (L : grid0.Coords) : Scf.trips k0_t5_loop.lb k0_t5_loop.ub k0_t5_loop.st = 64 := by decide

omit [FloatOps F] in
theorem pts_t1 (L : grid0.Coords) (f5 : Buf (Elt F) (t1Loc d)) :
    ((t1Loc d ↦{Transfers.shareTokN fullShare (wid L)} f5 : sProp 𝕄))
      = ((t1W : Memref sig .scVector .hbm S26x100000 .f32).view.loc (thrV d L) ↦{Transfers.shareTokN fullShare (wid L)} f5) := rfl

/-- The last section's value step, over names for the scratch contents and the first half's result. -/
theorem e1Done_fin' (L : grid0.Coords) (f5 : Buf (Elt F) (t1Loc d)) (f2 : Buf (Elt F) (ixLoc d)) (hix : IdxOK d f2) (h : k0_cond1 L = 1#1)
    (g : Buf (Elt F) (e1Loc d))
    (P0 : Buf (Elt F) ((thrV d L).loc cc0_scratch0)) (I0 : Buf (Elt F) ((thrV d L).loc cc0_scratch1))
    (f1 f3 : Buf (Elt F) ((thrV d L).loc cc0_scratch2))
    (Pk : Buf (Elt F) ((thrV d L).loc cc0_scratch0)) (Ik : Buf (Elt F) ((thrV d L).loc cc0_scratch1)) (gA : Buf (Elt F) (e1Loc d))
    (hPk : (View.write (Elt F) (plW : Memref sig .scVector .vmem S100000 .f32).view P0 (ReadAs.same.apply (View.read (Elt F) (((t1W : Memref sig .scVector .hbm S26x100000 .f32).slice (Rect.unit (s := S26x100000) (k0_off37 L) S1x100000.size (k0_off37_inb L h)) (fun _ => rfl)).squeeze S100000 squeezes_S1x100000_S100000).view f5)) Finset.univ) = Pk) (hIk : (View.write (Elt F) (ivW : Memref sig .scVector .vmem S128x128 .i32).view I0 (ReadAs.same.apply (View.read (Elt F) (((ixW : Memref sig .scVector .hbm S26x128x128 .i32).slice (Rect.unit (s := S26x128x128) (k0_off36 L) S1x128x128.size (k0_off36_inb L h)) (fun _ => rfl)).squeeze S128x128 squeezes_S1x128x128_S128x128).view f2)) Finset.univ) = Ik) (hgA : (((e1Half0 L h).view.set).piecewise ((e1Half0 L h).view.writes (Elt F) (e1Half0 L h).view.junk [⟨Rect.whole S8192, ReadAs.same.apply (View.read (Elt F) (ovW : Memref sig .scVector .vmem S8192 .f32).view f1)⟩]) g) = gA)
    (hf1 : OvDone d L Pk Ik 0 64 f1) (hf3 : OvDone d L Pk Ik 64 64 f3) :
    ∀ j ∈ e1Region L,
      (((e1Half1 L h).view.set).piecewise
        ((e1Half1 L h).view.writes (Elt F) gA [⟨Rect.whole S8192, ReadAs.same.apply (View.read (Elt F) (ovW : Memref sig .scVector .vmem S8192 .f32).view f3)⟩])
        gA) j = e1Tgt d f5 f2 j := by
  subst hPk hIk hgA
  exact e1Done_fin d L f5 f2 hix h g P0 I0 f1 f3 hf1 hf3

set_option maxHeartbeats 16000000 in
theorem tile_body (hF : (K (F := F)).Facts) (f4 : Buf (Elt F) (t2Loc d)) (f5 : Buf (Elt F) (t1Loc d)) (f2 : Buf (Elt F) (ixLoc d))
    (hix : IdxOK d f2) (L : grid0.Coords) (O : CellTallies nD τ sig (HIx 1)) (W : Waits sig (HIx 1)) (hO : ∀ g, O g none = 0) :
    iprop(levAts (K (F := F)).L (K (F := F)).lev ∗ emp ∗ TileIn d f4 f5 f2 L
        ∗ scopedBufs (thrV d L) ∗ scopedSems0 (thrV d L) ∗ owes (thrV d L) O W)
      ⊢ wp frame (wpE (defs₀ (F := F)) 𝒱₀ (thrV d L) none) Set.univ
          (cc0__sc_gather_body L t2W (Memref.isWhole_whole _) t1W (Memref.isWhole_whole _) ixW (Memref.isWhole_whole _) e2W (Memref.isWhole_whole _) e1W (Memref.isWhole_whole _) plW (Memref.isWhole_whole _) ivW (Memref.isWhole_whole _) ovW (Memref.isWhole_whole _) cc0_scratch3 cc0_scoped0 cc0_scoped1 cc0_scoped2 cc0_scoped3 cc0_scoped4 cc0_scoped5)
          fun _ => iprop(TileOut d f4 f5 f2 L ∗ scopedBufs (thrV d L) ∗ scopedSems0 (thrV d L)
            ∗ ∃ W', ⌜∀ p ∈ W', p ∈ W ∨ p.2 = none⌝ ∗ owes (thrV d L) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  unfold TileIn
  iintro ⟨#Hlv, -, ⟨Ht2, Ht1, Hix, ⟨%g2, He2⟩, ⟨%g1, He1⟩⟩, ⟨⟨%fpl, Hpl⟩, ⟨%fiv, Hiv⟩, ⟨%fov, Hov⟩, Hbufs⟩, ⟨Hs3, Hc0, Hc1, Hc2, Hc3, Hc4, Hc5, Hsems⟩, HO⟩
  ihave Hmw := ((K (F := F)).mayWaits_none (thr := thrV d L) hO) $$ Hlv
  sl_exec
  sl_for (inv1 d L f4 f2 O W) $$ [Hmw Ht2 Hix He2 Hpl Hiv Hov Hs3 Hc0 Hc1 Hc2 HO]
  case region =>
    intro k _
    exact t1_trip d L f4 f2 hix O W k
  · unfold inv1
    isplitl [Hmw]; · iexact Hmw
    isplitl [Ht2]; · iexact Ht2
    isplitl [Hix]; · iexact Hix
    isplitl [He2]
    · iexists g2; isplitr
      · ipureintro; exact E2Done_zero' d L f4 f2 g2
      · iexact He2
    isplitl [Hpl]; · iexists _; iexact Hpl
    isplitl [Hiv]; · iexists _; iexact Hiv
    isplitl [Hov]; · iexists _; iexact Hov
    isplitl [Hs3]; · iexact Hs3
    isplitl [Hc0]; · iexact Hc0
    isplitl [Hc1]; · iexact Hc1
    isplitl [Hc2]; · iexact Hc2
    iexists W; isplitr
    · ipureintro; exact fun p hp => .inl hp
    · iexact HO
  iintro %_ HI
  unfold inv1
  icases HI with ⟨Hmw, Ht2, Hix, ⟨%g, %hg, He2⟩, ⟨%P0, Hpl⟩, ⟨%I0, Hiv⟩, ⟨%f0, Hov⟩, Hs3, Hc0, Hc1, Hc2, %W', %hW', HO⟩
  rw [trips_t1] at hg
  by_cases k0_h1 : k0_cond1 L = 1#1
  · ihave Ht1 := (Entails.of_eq (pts_t1 (F := F) d L f5)) $$ Ht1
    sl_exec
    have hI1 : ∀ j, ((View.write (Elt F) (ivW : Memref sig .scVector .vmem S128x128 .i32).view I0 (tile_body.sl.dma0 d f2 L k0_h1) Finset.univ) j : BitVec 32).toNat < 100000 := iv_copy_lt1 d L f2 hix I0 k0_h1
    generalize hPk : View.write (Elt F) (plW : Memref sig .scVector .vmem S100000 .f32).view P0 (tile_body.sl.dma0_1 d f5 L k0_h1) Finset.univ = Pk
    generalize hIk : View.write (Elt F) (ivW : Memref sig .scVector .vmem S128x128 .i32).view I0 (tile_body.sl.dma0 d f2 L k0_h1) Finset.univ = Ik at hI1
    sl_for (invG d L Pk Ik 0) $$ [Hpl Hiv Hov]
    case region =>
      intro k' _
      exact t4_trip d L k0_h1 k' _ _ hI1
    · unfold invG
      isplitl [Hpl]; · iexact Hpl
      isplitl [Hiv]; · iexact Hiv
      iexists f0; isplitr
      · ipureintro; exact OvDone_zero d L _ _ 0 f0
      · iexact Hov
    iintro %_ HI
    unfold invG
    icases HI with ⟨Hpl, Hiv, %f1, %hf1, Hov⟩
    ihave Hsp := (pointsTo_split_subset (e1Half0_sub L k0_h1)).1 $$ He1
    icases Hsp with ⟨Hd0, He1r⟩
    ihave Hd0' := (Entails.of_eq (pts_e1half0 (F := F) d L k0_h1 g1).symm) $$ Hd0
    sl_exec
    ihave Hd0 := (Entails.of_eq (pts_e1half0 (F := F) d L k0_h1 _)) $$ Hd0'
    ihave He1 := (pointsTo_join_subset (ℓ := e1Loc d) (e1Half0_sub L k0_h1)) $$ [Hd0 He1r]
    · isplitl [Hd0]; · iexact Hd0
      iexact He1r
    generalize hgA : ((e1Half0 L k0_h1).view.set).piecewise ((e1Half0 L k0_h1).view.writes (Elt F) (e1Half0 L k0_h1).view.junk [⟨Rect.whole S8192, tile_body.sl.dma0_2 d L f1⟩]) g1 = gA
    sl_for (invG d L Pk Ik 64) $$ [Hpl Hiv Hov]
    case region =>
      intro k' _
      exact t5_trip d L k0_h1 k' _ _ hI1
    · unfold invG
      isplitl [Hpl]; · iexact Hpl
      isplitl [Hiv]; · iexact Hiv
      iexists f1; isplitr
      · ipureintro; exact OvDone_zero d L _ _ 64 f1
      · iexact Hov
    iintro %_ HI
    unfold invG
    icases HI with ⟨Hpl, Hiv, %f3, %hf3, Hov⟩
    ihave Hsp := (pointsTo_split_subset (e1Half1_sub L k0_h1)).1 $$ He1
    icases Hsp with ⟨Hd1, He1r⟩
    ihave Hd1' := (Entails.of_eq (pts_e1half1 (F := F) d L k0_h1 gA).symm) $$ Hd1
    sl_exec
    ihave Hd1 := (Entails.of_eq (pts_e1half1 (F := F) d L k0_h1 _)) $$ Hd1'
    ihave He1 := (pointsTo_join_subset (ℓ := e1Loc d) (e1Half1_sub L k0_h1)) $$ [Hd1 He1r]
    · isplitl [Hd1]; · iexact Hd1
      iexact He1r
    rw [trips_t4 L] at hf1
    rw [trips_t5 L] at hf3
    have he1 : ∀ j ∈ e1Region L, (((e1Half1 L k0_h1).view.set).piecewise ((e1Half1 L k0_h1).view.writes (Elt F) gA [⟨Rect.whole S8192, tile_body.sl.dma0_3 d L f3⟩]) gA) j = e1Tgt d f5 f2 j :=
      e1Done_fin' d L f5 f2 hix k0_h1 g1 P0 I0 f1 f3 Pk Ik gA hPk hIk hgA hf1 hf3
    ihave He1 := (Entails.of_eq (pointsTo_congr (ℓ := e1Loc d) (q := fullShare) he1)) $$ He1
    sl_step
    unfold TileOut
    ihave He2' := (Entails.of_eq (pointsTo_congr (ℓ := e2Loc d) (q := fullShare) (e2_fin d L f4 f2 g hg))) $$ He2
    isplitl [Ht2 Ht1 Hix He2' He1]
    · isplitl [Ht2]; · iexact Ht2
      isplitl [Ht1]; · iexact Ht1
      isplitl [Hix]; · iexact Hix
      isplitl [He2']; · iexact He2'
      iexact He1
    isplitl [Hpl Hiv Hov Hbufs]
    · isplitl [Hpl]; · iexists _; iexact Hpl
      isplitl [Hiv]; · iexists _; iexact Hiv
      isplitl [Hov]; · iexists _; iexact Hov
      iexact Hbufs
    isplitl [Hs3 Hc0 Hc1 Hc2 Hc3 Hc4 Hc5 Hsems]
    · isplitl [Hs3]; · iexact Hs3
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      iexact Hsems
    iexists _; isplitr
    swap
    · iexact HO
    · ipureintro; intro p hp
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      · exact hW' p hp
  · sl_exec
    have he1 : ∀ j ∈ e1Region L, g1 j = e1Tgt d f5 f2 j := fun j hj => absurd hj (by rw [e1Region_empty L k0_h1]; exact Finset.notMem_empty j)
    ihave He1 := (Entails.of_eq (pointsTo_congr (ℓ := e1Loc d) (q := fullShare) he1)) $$ He1
    sl_step
    unfold TileOut
    ihave He2' := (Entails.of_eq (pointsTo_congr (ℓ := e2Loc d) (q := fullShare) (e2_fin d L f4 f2 g hg))) $$ He2
    isplitl [Ht2 Ht1 Hix He2' He1]
    · isplitl [Ht2]; · iexact Ht2
      isplitl [Ht1]; · iexact Ht1
      isplitl [Hix]; · iexact Hix
      isplitl [He2']; · iexact He2'
      iexact He1
    isplitl [Hpl Hiv Hov Hbufs]
    · isplitl [Hpl]; · iexists _; iexact Hpl
      isplitl [Hiv]; · iexists _; iexact Hiv
      isplitl [Hov]; · iexists _; iexact Hov
      iexact Hbufs
    isplitl [Hs3 Hc0 Hc1 Hc2 Hc3 Hc4 Hc5 Hsems]
    · isplitl [Hs3]; · iexact Hs3
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      iexact Hsems
    iexists _; isplitr
    swap
    · iexact HO
    · ipureintro; intro p hp

      · exact hW' p hp

end Body

/-! ## The tile's task as the launch theorem takes it -/

/-! ## The tile's task as the launch theorem takes it -/

/-- The kernel's label on a vector subcore runs the gather body at that tile's coordinates. -/
theorem defs₀_vector (c : Fin τ.nSC) (s : Fin τ.nSub) :
    defs₀ (F := F) (.scVector c s) 0 ()
      = SparseCore.onTile hcore0 hsub0 (fun c s => cc0__sc_gather_body (coordsV c s)
          t2W (Memref.isWhole_whole _) t1W (Memref.isWhole_whole _) ixW (Memref.isWhole_whole _) e2W (Memref.isWhole_whole _) e1W (Memref.isWhole_whole _)
          plW (Memref.isWhole_whole _) ivW (Memref.isWhole_whole _) ovW (Memref.isWhole_whole _)
          cc0_scratch3 cc0_scoped0 cc0_scoped1 cc0_scoped2 cc0_scoped3 cc0_scoped4 cc0_scoped5) ⟨⟩ c s := rfl

omit [FloatOps F] in
/-- The body's recorded pairs are within what the task may record. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, from the body at a symbolic tile: the index array's words name table rows. -/
theorem tileObl (f4 : (d : Dev nD) → Buf (Elt F) (t2Loc d)) (f5 : (d : Dev nD) → Buf (Elt F) (t1Loc d)) (f2 : (d : Dev nD) → Buf (Elt F) (ixLoc d))
    (hix : ∀ d, IdxOK d (f2 d)) : (K (F := F)).TileObl (D (F := F)) 𝒱 (P f4 f5 f2) v₀ 0 := by
  intro d c i O W hO _ _
  -- the kernel owes nothing for a protocol of its own
  simp only [show (P f4 f5 f2).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d facts (f4 d) (f5 d) (f2 d) (hix d) (coordsV ⟨_, hc.1⟩ ⟨_, hc.2⟩) O W hO).trans (wp_mono frame _ _ fun _ => obl_post)

end Cert.Proof.Id

end
-- ==== Proof.FinalRun.lean ====
/-
  The program's run from the precondition's index range: the launch, the tile's body obligation at the contents the
  host operations leave, and the index array's range read off the first argument's; and the same run with the result
  forgotten.
-/
import proofs.«205279_g68771016344126_cont_9to1_m_1330_15_alg».proof.Proof.Common
import proofs.«205279_g68771016344126_cont_9to1_m_1330_15_alg».proof.Proof.HostOps
import proofs.«205279_g68771016344126_cont_9to1_m_1330_15_alg».proof.Proof.TileRes
import proofs.«205279_g68771016344126_cont_9to1_m_1330_15_alg».proof.Proof.LaunchPay
import proofs.«205279_g68771016344126_cont_9to1_m_1330_15_alg».proof.Proof.LaunchVals
import proofs.«205279_g68771016344126_cont_9to1_m_1330_15_alg».proof.Proof.LaunchRun
import proofs.«205279_g68771016344126_cont_9to1_m_1330_15_alg».proof.Proof.LaunchIdx
import proofs.«205279_g68771016344126_cont_9to1_m_1330_15_alg».proof.Proof.TileBody

noncomputable section

namespace Cert.Proof.Id

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The program's run. From a memory whose semaphores read zero and whose index words all name table rows: every
    weakly fair execution of the device's threads terminates, the result array holds RESULT of the launch memory, and
    every argument array is unchanged. -/
theorem run [∀ e, Nonempty (Elt F e)]
    (hpre : ∀ (d : Dev nD) i, (m ((d.tc : Thread nD τ).loc main_arg0) i : BitVec 32).toNat < 100000) :
    θ_run (Cert.KernelIdeal.defs (F := F)) (Cert.KernelIdeal.threads (F := F)) ⟨m, fun _ => 0, ρ⟩ (QC m) :=
  run_of_tile m ρ (tileObl (g4 m) (g5 m) (g2 m) (idxOK_of_pre m hpre))

/-- The same with the result forgotten: the frame. -/
theorem run_frame [∀ e, Nonempty (Elt F e)]
    (hpre : ∀ (d : Dev nD) i, (m ((d.tc : Thread nD τ).loc main_arg0) i : BitVec 32).toNat < 100000) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (Cert.KernelIdeal.defs (F := F)) _ _).mono (fun _ h c => (h c).2) (run m ρ hpre)

end Cert.Proof.Id

end
-- ==== Proof.FrameIdeal.lean ====
/-
  The idealized kernel from the precondition: the precondition's index range is what the run asks of the first
  argument, so the program runs — its frame — and ends with its result at the launch memory's RESULT.
-/
import proofs.«205279_g68771016344126_cont_9to1_m_1330_15_alg».proof.Proof.FinalRun
import proofs.«205279_g68771016344126_cont_9to1_m_1330_15_alg».proof.Proof.FinPre

noncomputable section

namespace Cert.Proof.Id

open Cert.KernelIdeal Cert.KernelIdeal.Gen

open Idealize.ShloMosaic Idealize.ShloMosaic.TcCoe
open Idealize.SL.Sem

variable [Cert.Pre_input_domain.Facts]

/-- The precondition bounds every index word. -/
theorem range_of_pre (m : (ℓ : Loc nD τ sig) → Buf (Elt Ideal) ℓ) (h : Cert.Pre_KernelIdeal m) (d : Dev nD) (i : S16384x26x1.Idx) :
    (m ((d.tc : Thread nD τ).loc main_arg0) i : BitVec 32).toNat < 100000 :=
  Cert.FinPre.xi_range (F := Ideal) _ _ _ _ _ _ _ _ _ _ _ _ (h d) i

/-- The program's frame. -/
theorem frame_KernelIdeal : Cert.frame_KernelIdeal := fun m g hpre => run_frame (F := Ideal) m g (range_of_pre m hpre)

/-- The run with the result named, from the precondition. -/
theorem run_of_pre (m : (ℓ : Loc nD τ sig) → Buf (Elt Ideal) ℓ) (g : Dev nD → PrngReg) (hpre : Cert.Pre_KernelIdeal m) :
    θ_run (Cert.KernelIdeal.defs (F := Ideal)) (Cert.KernelIdeal.threads (F := Ideal)) ⟨m, fun _ => 0, g⟩ (QC m) :=
  run (F := Ideal) m g (range_of_pre m hpre)

end Cert.Proof.Id

end
-- ==== Proof.RefGather.lean ====
/-
  A lookup by a pair of start coordinates, read at an index: the gather that a two-index lookup
  tbl[fields, idx] of a table [26, 100000, E] lowers to, with start indices [16384, 26, 2] holding
  (field, row) for each (batch, field). Result element (b, f, e) is the table at the clamped field,
  the clamped row, and e.
-/
import Idealize.ShloMosaic.Lib.ValueIdx

noncomputable section

namespace Cert.RefGather

open Idealize.ShloMosaic Idealize.ShloMosaic.ValueIdx

/-- The dimension numbers of the two-coordinate lookup: the first two operand axes are collapsed and
    named by the start index, the third is the offset axis. -/
abbrev gdims (E : Nat)
    (wf : GatherDims.WF ⟨3, ![26, 100000, E]⟩ ⟨3, ![16384, 26, 2]⟩ ⟨3, ![16384, 26, E]⟩ [2] [0, 1] [] [0, 1] [] 2 ![1, 1, E]) :
    GatherDims ⟨3, ![26, 100000, E]⟩ ⟨3, ![16384, 26, 2]⟩ ⟨3, ![16384, 26, E]⟩ where
  offsetDims := [2]
  collapsedSliceDims := [0, 1]
  operandBatchingDims := []
  startIndicesBatchingDims := []
  startIndexMap := [0, 1]
  indexVectorDim := 2
  sliceSizes := ![1, 1, E]
  wf := wf

variable {E w : Nat}
  (wf : GatherDims.WF ⟨3, ![26, 100000, E]⟩ ⟨3, ![16384, 26, 2]⟩ ⟨3, ![16384, 26, E]⟩ [2] [0, 1] [] [0, 1] [] 2 ![1, 1, E])
  (idx : IVec ⟨3, ![16384, 26, 2]⟩ w) (b : Fin 16384) (f : Fin 26) (e : Fin E)

/-- The start-indices index of result index (b, f, ·) for start component c. -/
theorem siIdx_eq (c : Fin 2) : (gdims E wf).siIdx (ix3 b f e) c = ix3 b f c := by
  funext a
  refine Fin.ext ?_
  match a with
  | ⟨0, _⟩ => rfl
  | ⟨1, _⟩ => rfl
  | ⟨2, _⟩ => rfl

/-- The operand coordinate on the field axis: the clamped first start component. -/
theorem coord0 : (gdims E wf).start (ix3 b f e) idx (0 : Fin 3) + (gdims E wf).batchCoord (ix3 b f e) (0 : Fin 3)
      + (gdims E wf).offCoord (ix3 b f e) (0 : Fin 3) = min (idx (ix3 b f (0 : Fin 2))).toInt.toNat 25 := by
  rw [GatherDims.batchCoord_eq_zero _ _ _ List.not_mem_nil, Nat.add_zero,
    GatherDims.offCoord_eq_zero _ _ _ (fun h => ((GatherDims.mem_sKept _ _).mp h).1 (show (0 : Fin 3) ∈ ([0, 1] : List (Fin 3)) from by decide)), Nat.add_zero]
  unfold GatherDims.start
  rw [dif_pos (show (0 : Fin 3) ∈ (gdims E wf).startIndexMap from (show (0 : Fin 3) ∈ ([0, 1] : List (Fin 3)) from by decide))]
  rw [show (⟨List.idxOf (0 : Fin 3) (gdims E wf).startIndexMap, List.idxOf_lt_length_iff.2 (show (0 : Fin 3) ∈ ([0, 1] : List (Fin 3)) from by decide)⟩ : Fin 2) = (0 : Fin 2) from rfl]
  rw [siIdx_eq]
  rfl

/-- The operand coordinate on the row axis: the clamped second start component. -/
theorem coord1 : (gdims E wf).start (ix3 b f e) idx (1 : Fin 3) + (gdims E wf).batchCoord (ix3 b f e) (1 : Fin 3)
      + (gdims E wf).offCoord (ix3 b f e) (1 : Fin 3) = min (idx (ix3 b f (1 : Fin 2))).toInt.toNat 99999 := by
  rw [GatherDims.batchCoord_eq_zero _ _ _ List.not_mem_nil, Nat.add_zero,
    GatherDims.offCoord_eq_zero _ _ _ (fun h => ((GatherDims.mem_sKept _ _).mp h).1 (show (1 : Fin 3) ∈ ([0, 1] : List (Fin 3)) from by decide)), Nat.add_zero]
  unfold GatherDims.start
  rw [dif_pos (show (1 : Fin 3) ∈ (gdims E wf).startIndexMap from (show (1 : Fin 3) ∈ ([0, 1] : List (Fin 3)) from by decide))]
  rw [show (⟨List.idxOf (1 : Fin 3) (gdims E wf).startIndexMap, List.idxOf_lt_length_iff.2 (show (1 : Fin 3) ∈ ([0, 1] : List (Fin 3)) from by decide)⟩ : Fin 2) = (1 : Fin 2) from rfl]
  rw [siIdx_eq]
  rfl

/-- The operand coordinate on the offset axis: the result's own third coordinate. -/
theorem coord2 : (gdims E wf).start (ix3 b f e) idx (2 : Fin 3) + (gdims E wf).batchCoord (ix3 b f e) (2 : Fin 3)
      + (gdims E wf).offCoord (ix3 b f e) (2 : Fin 3) = e.val := by
  rw [GatherDims.batchCoord_eq_zero _ _ _ List.not_mem_nil, Nat.add_zero]
  unfold GatherDims.start
  rw [dif_neg (show ¬ (2 : Fin 3) ∈ (gdims E wf).startIndexMap from (show ¬ (2 : Fin 3) ∈ ([0, 1] : List (Fin 3)) from by decide)), Nat.zero_add]
  unfold GatherDims.offCoord
  rw [dif_pos (show (2 : Fin 3) ∈ (gdims E wf).sKept from (GatherDims.mem_sKept _ _).mpr ⟨(show ¬ (2 : Fin 3) ∈ ([0, 1] : List (Fin 3)) from by decide), List.not_mem_nil⟩)]
  rfl

/-- THE LOOKUP READ AT (b, f, e). -/
theorem gather2_apply {α : Type} (x : (⟨3, ![26, 100000, E]⟩ : Shape).Idx → α) :
    Host.gather (gdims E wf) x idx (ix3 b f e)
      = x (ix3 (⟨min (idx (ix3 b f (0 : Fin 2))).toInt.toNat 25, by omega⟩ : Fin 26)
            (⟨min (idx (ix3 b f (1 : Fin 2))).toInt.toNat 99999, by omega⟩ : Fin 100000) e) := by
  unfold Host.gather
  congr 1
  funext a
  refine Fin.ext ?_
  match a with
  | ⟨0, _⟩ => exact coord0 wf idx b f e
  | ⟨1, _⟩ => exact coord1 wf idx b f e
  | ⟨2, _⟩ => exact coord2 wf idx b f e

end Cert.RefGather

end
-- ==== Proof.RefIdx.lean ====
/-
  The reference's two table lookups, read at an index. The start indices pair each (batch, field)
  with (field, row): the field is an iota, the row is the index word itself once it is known to lie
  in [0, 100000) (the wrap-around of negative indices and the clamp then change nothing). So the
  looked-up element (b, f, e) is the table at (f, row, e).
-/
import proofs.«205279_g68771016344126_cont_9to1_m_1330_15_alg».proof.Proof.Gen.ReferenceIdeal.Read
import proofs.«205279_g68771016344126_cont_9to1_m_1330_15_alg».proof.Proof.Spec
import proofs.«205279_g68771016344126_cont_9to1_m_1330_15_alg».proof.Proof.RefGather
import Idealize.ShloMosaic.Lib.WordArith
import Idealize.ShloMosaic.Lib.Affine

noncomputable section

namespace Cert.RefIdx

open Cert.ReferenceIdeal Cert.ReferenceIdeal.Gen Cert.ReferenceIdeal.Read Idealize.ShloMosaic Idealize.ShloMosaic.ValueIdx
open Idealize.ShloMosaic.WordArith

/-! ## Words -/

/-- A small natural number's word is not negative. -/
theorem cmpi_slt_ofNat_zero (n : Nat) (h : n < 2 ^ 31) : IntOp.cmpi .slt (BitVec.ofNat 32 n) 0#32 = 0#1 :=
  eq_zero_of_ne_one (fun hc => by
    rw [IntOp.cmpi_slt, toInt_ofNat_small n h] at hc
    have : (0#32 : BitVec 32).toInt = 0 := rfl
    omega)

/-- A word below 100000 is not negative. -/
theorem cmpi_slt_small_zero (x : BitVec 32) (h : x.toNat < 100000) : IntOp.cmpi .slt x 0#32 = 0#1 :=
  eq_zero_of_ne_one (fun hc => by
    rw [IntOp.cmpi_slt] at hc
    have : (0#32 : BitVec 32).toInt = 0 := rfl
    have := BitVec.toInt_eq_toNat_cond x
    omega)

/-- A word below 100000 reads the same signed and unsigned. -/
theorem toInt_toNat_small (x : BitVec 32) (h : x.toNat < 100000) : x.toInt.toNat = x.toNat := by
  have := BitVec.toInt_eq_toNat_cond x
  omega

/-! ## The index arrays -/

section
variable (Xi : (⟨S16384x26x1, .i32⟩ : BufTy).Contents (Elt Ideal)) (b : Fin 16384) (f : Fin 26)

theorem idx_v0_eq : idx_main_v0 (ix2 b f) = ix3 b f (0 : Fin 1) := by
  funext a; refine Fin.ext ?_
  have := f.isLt
  match a with
  | ⟨0, _⟩ => show (b.val * 26 + f.val) / 26 = b.val; omega
  | ⟨1, _⟩ => show (b.val * 26 + f.val) / 1 % 26 = f.val; omega
  | ⟨2, _⟩ => rfl

/-- The index array [16384, 26] is the argument with its unit axis dropped. -/
theorem v0_at : val_main_v0 (F := Ideal) Xi (ix2 b f) = Xi (ix3 b f (0 : Fin 1)) := by
  rw [val_main_v0_apply, idx_v0_eq]

/-- The field iota, as a row. -/
theorem v2_at (u : Fin 1) : val_main_v2 (F := Ideal) (ix2 u f) = BitVec.ofNat 32 f.val :=
  (val_main_v2_apply _).trans (val_main_v1_apply _)

/-- The field number after the wrap-around of negatives: unchanged. -/
theorem v7_at (u : Fin 1) : val_main_v7 (F := Ideal) (ix2 u f) = BitVec.ofNat 32 f.val := by
  have := f.isLt
  rw [val_main_v7_apply, val_main_v4_apply, v2_at,
    show val_main_v3 (F := Ideal) (ix2 u f) = 0#32 from (val_main_v3_apply _).trans (val_main_c_apply _),
    cmpi_slt_ofNat_zero _ (by omega), select_zero]

theorem v24_at (u : Fin 1) : val_main_v24 (F := Ideal) (ix2 u f) = BitVec.ofNat 32 f.val := by
  have := f.isLt
  rw [val_main_v24_apply, val_main_v21_apply, v2_at,
    show val_main_v20 (F := Ideal) (ix2 u f) = 0#32 from (val_main_v20_apply _).trans (val_main_c_3_apply _),
    cmpi_slt_ofNat_zero _ (by omega), select_zero]

/-- The row index after the wrap-around of negatives: unchanged, for an index below 100000. -/
theorem v12_at (h : (Xi (ix3 b f (0 : Fin 1))).toNat < 100000) :
    val_main_v12 (F := Ideal) Xi (ix2 b f) = Xi (ix3 b f (0 : Fin 1)) := by
  rw [val_main_v12_apply, val_main_v9_apply, v0_at,
    show val_main_v8 (F := Ideal) (ix2 b f) = 0#32 from (val_main_v8_apply _).trans (val_main_c_1_apply _),
    cmpi_slt_small_zero _ h, select_zero]

theorem v29_at (h : (Xi (ix3 b f (0 : Fin 1))).toNat < 100000) :
    val_main_v29 (F := Ideal) Xi (ix2 b f) = Xi (ix3 b f (0 : Fin 1)) := by
  rw [val_main_v29_apply, val_main_v26_apply, v0_at,
    show val_main_v25 (F := Ideal) (ix2 b f) = 0#32 from (val_main_v25_apply _).trans (val_main_c_5_apply _),
    cmpi_slt_small_zero _ h, select_zero]

theorem idx_v13_eq : idx_main_v13 (ix2 b f) = ix2 (0 : Fin 1) f := by
  funext a; match a with | ⟨0, _⟩ => rfl | ⟨1, _⟩ => rfl

theorem idx_v14_eq (u : Fin 1) : idx_main_v14 (ix3 b f u) = ix2 b f := by
  funext a; match a with | ⟨0, _⟩ => rfl | ⟨1, _⟩ => rfl

/-- The first start component of (b, f): the field number. -/
theorem v16_field : val_main_v16 (F := Ideal) Xi (ix3 b f (0 : Fin 2)) = BitVec.ofNat 32 f.val := by
  unfold val_main_v16
  refine (concatenate_pair_apply_left (t := S16384x26x2) (s₁ := S16384x26x1) (s₂ := S16384x26x1) (2 : Fin 3)
    (val_main_v14 (F := Ideal)) (val_main_v15 (F := Ideal) Xi) concatenates_S16384x26x1_S16384x26x1_S16384x26x2_d2 (ix3 b f (0 : Fin 2)) rfl (ix3 b f (0 : Fin 1))
    (fun a => match a with | ⟨0, _⟩ => rfl | ⟨1, _⟩ => rfl | ⟨2, _⟩ => rfl)).trans ?_
  rw [val_main_v14_apply, idx_v14_eq, val_main_v13_apply, idx_v13_eq, v7_at]

/-- The second start component of (b, f): the index word. -/
theorem v16_row (h : (Xi (ix3 b f (0 : Fin 1))).toNat < 100000) :
    val_main_v16 (F := Ideal) Xi (ix3 b f (1 : Fin 2)) = Xi (ix3 b f (0 : Fin 1)) := by
  unfold val_main_v16
  refine (concatenate_pair_apply_right (t := S16384x26x2) (s₁ := S16384x26x1) (s₂ := S16384x26x1) (2 : Fin 3)
    (val_main_v14 (F := Ideal)) (val_main_v15 (F := Ideal) Xi) concatenates_S16384x26x1_S16384x26x1_S16384x26x2_d2 (ix3 b f (1 : Fin 2)) rfl rfl (ix3 b f (0 : Fin 1))
    (fun a => match a with | ⟨0, _⟩ => fun _ => rfl | ⟨1, _⟩ => fun _ => rfl | ⟨2, _⟩ => fun hne => absurd rfl hne) rfl).trans ?_
  rw [val_main_v15_apply, show idx_main_v15 (ix3 b f (0 : Fin 1)) = ix2 b f from idx_v14_eq b f 0, v12_at Xi b f h]

theorem v33_field : val_main_v33 (F := Ideal) Xi (ix3 b f (0 : Fin 2)) = BitVec.ofNat 32 f.val := by
  unfold val_main_v33
  refine (concatenate_pair_apply_left (t := S16384x26x2) (s₁ := S16384x26x1) (s₂ := S16384x26x1) (2 : Fin 3)
    (val_main_v31 (F := Ideal)) (val_main_v32 (F := Ideal) Xi) concatenates_S16384x26x1_S16384x26x1_S16384x26x2_d2 (ix3 b f (0 : Fin 2)) rfl (ix3 b f (0 : Fin 1))
    (fun a => match a with | ⟨0, _⟩ => rfl | ⟨1, _⟩ => rfl | ⟨2, _⟩ => rfl)).trans ?_
  rw [val_main_v31_apply, show idx_main_v31 (ix3 b f (0 : Fin 1)) = ix2 b f from idx_v14_eq b f 0, val_main_v30_apply,
    show idx_main_v30 (ix2 b f) = ix2 (0 : Fin 1) f from idx_v13_eq b f, v24_at]

theorem v33_row (h : (Xi (ix3 b f (0 : Fin 1))).toNat < 100000) :
    val_main_v33 (F := Ideal) Xi (ix3 b f (1 : Fin 2)) = Xi (ix3 b f (0 : Fin 1)) := by
  unfold val_main_v33
  refine (concatenate_pair_apply_right (t := S16384x26x2) (s₁ := S16384x26x1) (s₂ := S16384x26x1) (2 : Fin 3)
    (val_main_v31 (F := Ideal)) (val_main_v32 (F := Ideal) Xi) concatenates_S16384x26x1_S16384x26x1_S16384x26x2_d2 (ix3 b f (1 : Fin 2)) rfl rfl (ix3 b f (0 : Fin 1))
    (fun a => match a with | ⟨0, _⟩ => fun _ => rfl | ⟨1, _⟩ => fun _ => rfl | ⟨2, _⟩ => fun hne => absurd rfl hne) rfl).trans ?_
  rw [val_main_v32_apply, show idx_main_v32 (ix3 b f (0 : Fin 1)) = ix2 b f from idx_v14_eq b f 0, v29_at Xi b f h]

end

/-! ## The lookups -/

section
variable (Xi : (⟨S16384x26x1, .i32⟩ : BufTy).Contents (Elt Ideal)) (b : Fin 16384) (f : Fin 26)
  (h : (Xi (ix3 b f (0 : Fin 1))).toNat < 100000)
include h

/-- The first-order table's lookup at (b, f, ·). -/
theorem v17_at (tbl1 : (⟨S26x100000x1, .f32⟩ : BufTy).Contents (Elt Ideal)) (e : Fin 1) :
    val_main_v17 (F := Ideal) Xi tbl1 (ix3 b f e) = tbl1 (ix3 f (Cert.Spec.vidx (Xi (ix3 b f (0 : Fin 1)))) e) := by
  have hf := f.isLt
  show Host.gather (Cert.RefGather.gdims 1 Facts₀.gather_S26x100000x1_S16384x26x2_S16384x26x1_2_01_n_n_01_2_111_wf) tbl1
    (val_main_v16 (F := Ideal) Xi) (ix3 b f e) = _
  rw [Cert.RefGather.gather2_apply]
  have e0 : min (val_main_v16 (F := Ideal) Xi (ix3 b f (0 : Fin 2))).toInt.toNat 25 = f.val := by
    rw [v16_field, toInt_ofNat_small _ (by omega)]; omega
  have e1 : min (val_main_v16 (F := Ideal) Xi (ix3 b f (1 : Fin 2))).toInt.toNat 99999
      = min (Xi (ix3 b f (0 : Fin 1))).toNat 99999 := by
    rw [v16_row Xi b f h, toInt_toNat_small _ h]
  exact congrArg tbl1 (funext fun a => match a with
    | ⟨0, _⟩ => Fin.ext e0 | ⟨1, _⟩ => Fin.ext e1 | ⟨2, _⟩ => rfl)

/-- The second-order table's lookup at (b, f, d). -/
theorem v34_at (tbl2 : (⟨S26x100000x16, .f32⟩ : BufTy).Contents (Elt Ideal)) (e : Fin 16) :
    val_main_v34 (F := Ideal) Xi tbl2 (ix3 b f e) = tbl2 (ix3 f (Cert.Spec.vidx (Xi (ix3 b f (0 : Fin 1)))) e) := by
  have hf := f.isLt
  show Host.gather (Cert.RefGather.gdims 16 Facts₀.gather_S26x100000x16_S16384x26x2_S16384x26x16_2_01_n_n_01_2_1116_wf) tbl2
    (val_main_v33 (F := Ideal) Xi) (ix3 b f e) = _
  rw [Cert.RefGather.gather2_apply]
  have e0 : min (val_main_v33 (F := Ideal) Xi (ix3 b f (0 : Fin 2))).toInt.toNat 25 = f.val := by
    rw [v33_field, toInt_ofNat_small _ (by omega)]; omega
  have e1 : min (val_main_v33 (F := Ideal) Xi (ix3 b f (1 : Fin 2))).toInt.toNat 99999
      = min (Xi (ix3 b f (0 : Fin 1))).toNat 99999 := by
    rw [v33_row Xi b f h, toInt_toNat_small _ h]
  exact congrArg tbl2 (funext fun a => match a with
    | ⟨0, _⟩ => Fin.ext e0 | ⟨1, _⟩ => Fin.ext e1 | ⟨2, _⟩ => rfl)

end

end Cert.RefIdx

end
-- ==== Proof.RefNorm.lean ====
/-
  The reference's normalized embedding, read at an index: the scaled embedding u, the sum of its
  squares over the fields, the floored norm, and the quotient, which is the product with the
  reciprocal because the floored norm is never zero.
-/
import proofs.«205279_g68771016344126_cont_9to1_m_1330_15_alg».proof.Proof.RefIdx
import proofs.«205279_g68771016344126_cont_9to1_m_1330_15_alg».proof.Proof.AlgReal

noncomputable section

open scoped BigOperators

namespace Cert.RefNorm

open Cert.ReferenceIdeal Cert.ReferenceIdeal.Gen Cert.ReferenceIdeal.Read Idealize.ShloMosaic Idealize.ShloMosaic.ValueIdx
open Cert.Spec Cert.Alg Cert.RefIdx

section
variable (Xi : (⟨S16384x26x1, .i32⟩ : BufTy).Contents (Elt Ideal)) (Xv : (⟨S16384x26, .f32⟩ : BufTy).Contents (Elt Ideal))
  (tbl2 : (⟨S26x100000x16, .f32⟩ : BufTy).Contents (Elt Ideal))

/-- Column b of the looked-up second-order embeddings, as 416 rows. -/
def e2c (b : Fin 16384) : Fin 416 → EReal :=
  fun r => tbl2 (ix3 (rowF r) (vidx (Xi (ix3 b (rowF r) (0 : Fin 1)))) (rowD r))
/-- Column b of the field values. -/
def xvc (b : Fin 16384) : Fin 26 → EReal := fun f => Xv (ix2 b f)

variable (hX : ∀ i, (Xi i).toNat < 100000) (b : Fin 16384)

theorem v36_at (f : Fin 26) (d : Fin 16) : val_main_v36 (F := Ideal) Xv (ix3 b f d) = Xv (ix2 b f) :=
  (val_main_v36_apply _ _).trans ((val_main_v35_apply _ _).trans
    (congrArg Xv (funext fun a => match a with | ⟨0, _⟩ => rfl | ⟨1, _⟩ => rfl)))

include hX

theorem v37_at (f : Fin 26) (d : Fin 16) :
    val_main_v37 (F := Ideal) Xi Xv tbl2 (ix3 b f d) = u (e2c Xi tbl2 b) (xvc Xv b) f d := by
  rw [val_main_v37_apply, v34_at Xi b f (hX _) tbl2 d, v36_at]
  show _ * _ = _
  simp only [u, e2c, xvc, rowF_row, rowD_row]

theorem v39_at (d : Fin 16) :
    val_main_v39 (F := Ideal) Xi Xv tbl2 (ix2 b d) = ss (e2c Xi tbl2 b) (xvc Xv b) d := by
  rw [val_main_v39_apply]
  have hk : ∀ k : Fin 26, val_main_v38 (F := Ideal) Xi Xv tbl2 (idx_main_v39 (ix2 b d) k)
      = u (e2c Xi tbl2 b) (xvc Xv b) k d * u (e2c Xi tbl2 b) (xvc Xv b) k d := fun k => by
    rw [show idx_main_v39 (ix2 b d) k = ix3 b k d from
      funext fun a => match a with | ⟨0, _⟩ => rfl | ⟨1, _⟩ => rfl | ⟨2, _⟩ => rfl,
      val_main_v38_apply, v37_at Xi Xv tbl2 hX b k d]
    rfl
  simp only [hk]
  rw [val_main_cst_apply]
  show Ideal.ofBits .f32 0x00000000#32 + _ = _
  rw [Ideal.ofBits_zero_f32, zero_add]
  rfl

theorem v43_at (u0 : Fin 1) (d : Fin 16) :
    val_main_v43 (F := Ideal) Xi Xv tbl2 (ix3 b u0 d) = max (Ideal.sqrt (ss (e2c Xi tbl2 b) (xvc Xv b) d)) cEPS := by
  rw [val_main_v43_apply, val_main_v41_apply, val_main_v40_apply,
    show idx_main_v40 (ix3 b u0 d) = ix2 b d from funext fun a => match a with | ⟨0, _⟩ => rfl | ⟨1, _⟩ => rfl,
    v39_at Xi Xv tbl2 hX b d, val_main_v42_apply, val_main_cst_7_apply]
  rfl

/-- The reference's normalized embedding is the specification's. -/
theorem v45_at (f : Fin 26) (d : Fin 16) :
    val_main_v45 (F := Ideal) Xi Xv tbl2 (ix3 b f d) = xn (e2c Xi tbl2 b) (xvc Xv b) f d := by
  rw [val_main_v45_apply, v37_at Xi Xv tbl2 hX b f d, val_main_v44_apply,
    show idx_main_v44 (ix3 b f d) = ix3 b (0 : Fin 1) d from
      funext fun a => match a with | ⟨0, _⟩ => rfl | ⟨1, _⟩ => rfl | ⟨2, _⟩ => rfl,
    v43_at Xi Xv tbl2 hX b 0 d]
  exact div_floored _ _ f d

end

end Cert.RefNorm

end
-- ==== Proof.RefFM.lean ====
/-
  The reference's first-order and second-order terms, read at an index. The squares the reference
  writes as powers with exponent 2.0 are products because the normalized embedding and its sum over
  the fields are real numbers.
-/
import proofs.«205279_g68771016344126_cont_9to1_m_1330_15_alg».proof.Proof.RefNorm

noncomputable section

open scoped BigOperators

namespace Cert.RefFM

open Cert.ReferenceIdeal Cert.ReferenceIdeal.Gen Cert.ReferenceIdeal.Read Idealize.ShloMosaic Idealize.ShloMosaic.ValueIdx
open Cert.Spec Cert.Alg Cert.RefIdx Cert.RefNorm

section
variable (Xi : (⟨S16384x26x1, .i32⟩ : BufTy).Contents (Elt Ideal)) (Xv : (⟨S16384x26, .f32⟩ : BufTy).Contents (Elt Ideal))
  (tbl1 : (⟨S26x100000x1, .f32⟩ : BufTy).Contents (Elt Ideal))
  (tbl2 : (⟨S26x100000x16, .f32⟩ : BufTy).Contents (Elt Ideal))

/-- Column b of the looked-up first-order embeddings. -/
def e1c (b : Fin 16384) : Fin 26 → EReal := fun f => tbl1 (ix3 f (vidx (Xi (ix3 b f (0 : Fin 1)))) (0 : Fin 1))

variable (hX : ∀ i, (Xi i).toNat < 100000) (b : Fin 16384)
include hX

/-! ## First order -/

theorem v19_at (f : Fin 26) :
    val_main_v19 (F := Ideal) Xi Xv tbl1 (ix2 b f) = e1c Xi tbl1 b f * xvc Xv b f := by
  rw [val_main_v19_apply, val_main_v18_apply,
    show idx_main_v18 (ix2 b f) = ix3 b f (0 : Fin 1) from idx_v0_eq b f, v17_at Xi b f (hX _) tbl1 0]
  rfl

theorem v80_at : val_main_v80 (F := Ideal) Xi Xv tbl1 (ix1 b) = f1 (e1c Xi tbl1 b) (xvc Xv b) := by
  rw [val_main_v80_apply]
  have hk : ∀ k : Fin 26, val_main_v19 (F := Ideal) Xi Xv tbl1 (idx_main_v80 (ix1 b) k)
      = e1c Xi tbl1 b k * xvc Xv b k := fun k => by
    rw [show idx_main_v80 (ix1 b) k = ix2 b k from funext fun a => match a with | ⟨0, _⟩ => rfl | ⟨1, _⟩ => rfl,
      v19_at Xi Xv tbl1 hX b k]
  simp only [hk]
  rw [val_main_cst_16_apply]
  show Ideal.ofBits .f32 0x00000000#32 + _ = _
  rw [Ideal.ofBits_zero_f32, zero_add]
  rfl

/-! ## Second order -/

variable (htbl2 : ∀ i, IsReal (tbl2 i)) (hXv : ∀ i, IsReal (Xv i))

theorem v46_at (d : Fin 16) :
    val_main_v46 (F := Ideal) Xi Xv tbl2 (ix2 b d) = tS (e2c Xi tbl2 b) (xvc Xv b) d := by
  rw [val_main_v46_apply]
  have hk : ∀ k : Fin 26, val_main_v45 (F := Ideal) Xi Xv tbl2 (idx_main_v46 (ix2 b d) k)
      = xn (e2c Xi tbl2 b) (xvc Xv b) k d := fun k => by
    rw [show idx_main_v46 (ix2 b d) k = ix3 b k d from
      funext fun a => match a with | ⟨0, _⟩ => rfl | ⟨1, _⟩ => rfl | ⟨2, _⟩ => rfl, v45_at Xi Xv tbl2 hX b k d]
  simp only [hk]
  rw [val_main_cst_8_apply]
  show Ideal.ofBits .f32 0x00000000#32 + _ = _
  rw [Ideal.ofBits_zero_f32, zero_add]
  rfl

include htbl2 hXv

theorem v48_at (d : Fin 16) :
    val_main_v48 (F := Ideal) Xi Xv tbl2 (ix2 b d)
      = tS (e2c Xi tbl2 b) (xvc Xv b) d * tS (e2c Xi tbl2 b) (xvc Xv b) d := by
  rw [val_main_v48_apply, v46_at Xi Xv tbl2 hX b d, val_main_v47_apply, val_main_cst_9_apply]
  exact pow_two_of_real (tS_real _ _ (fun k => htbl2 _) (fun f => hXv _) d)

theorem v50_at (f : Fin 26) (d : Fin 16) :
    val_main_v50 (F := Ideal) Xi Xv tbl2 (ix3 b f d)
      = xn (e2c Xi tbl2 b) (xvc Xv b) f d * xn (e2c Xi tbl2 b) (xvc Xv b) f d := by
  rw [val_main_v50_apply, v45_at Xi Xv tbl2 hX b f d, val_main_v49_apply, val_main_cst_10_apply]
  exact pow_two_of_real (xn_real _ _ (fun k => htbl2 _) (fun f => hXv _) f d)

theorem v51_at (d : Fin 16) :
    val_main_v51 (F := Ideal) Xi Xv tbl2 (ix2 b d) = s2 (e2c Xi tbl2 b) (xvc Xv b) d := by
  rw [val_main_v51_apply]
  have hk : ∀ k : Fin 26, val_main_v50 (F := Ideal) Xi Xv tbl2 (idx_main_v51 (ix2 b d) k)
      = xn (e2c Xi tbl2 b) (xvc Xv b) k d * xn (e2c Xi tbl2 b) (xvc Xv b) k d := fun k => by
    rw [show idx_main_v51 (ix2 b d) k = ix3 b k d from
      funext fun a => match a with | ⟨0, _⟩ => rfl | ⟨1, _⟩ => rfl | ⟨2, _⟩ => rfl,
      v50_at Xi Xv tbl2 hX b htbl2 hXv k d]
  simp only [hk]
  rw [val_main_cst_11_apply]
  show Ideal.ofBits .f32 0x00000000#32 + _ = _
  rw [Ideal.ofBits_zero_f32, zero_add]
  rfl

theorem v54_at (d : Fin 16) :
    val_main_v54 (F := Ideal) Xi Xv tbl2 (ix2 b d)
      = cHALF * (tS (e2c Xi tbl2 b) (xvc Xv b) d * tS (e2c Xi tbl2 b) (xvc Xv b) d - s2 (e2c Xi tbl2 b) (xvc Xv b) d) := by
  rw [val_main_v54_apply, val_main_v53_apply, val_main_cst_12_apply, val_main_v52_apply,
    v48_at Xi Xv tbl2 hX b htbl2 hXv d, v51_at Xi Xv tbl2 hX b htbl2 hXv d]
  rfl

theorem v81_at : val_main_v81 (F := Ideal) Xi Xv tbl2 (ix1 b) = f2 (e2c Xi tbl2 b) (xvc Xv b) := by
  rw [val_main_v81_apply]
  have hk : ∀ k : Fin 16, val_main_v54 (F := Ideal) Xi Xv tbl2 (idx_main_v81 (ix1 b) k)
      = cHALF * (tS (e2c Xi tbl2 b) (xvc Xv b) k * tS (e2c Xi tbl2 b) (xvc Xv b) k - s2 (e2c Xi tbl2 b) (xvc Xv b) k) := fun k => by
    rw [show idx_main_v81 (ix1 b) k = ix2 b k from funext fun a => match a with | ⟨0, _⟩ => rfl | ⟨1, _⟩ => rfl,
      v54_at Xi Xv tbl2 hX b htbl2 hXv k]
  simp only [hk]
  rw [val_main_cst_17_apply]
  show Ideal.ofBits .f32 0x00000000#32 + _ = _
  rw [Ideal.ofBits_zero_f32, zero_add]
  rfl

end

end Cert.RefFM

end
-- ==== Proof.RefDeep.lean ====
/-
  The reference's deep part, read at an index: the normalized embedding as one vector of 416 entries,
  three dense layers (a product with the transposed weights, the bias, the batch-norm scale, the
  rectifier), and the sum of the last layer's outputs. The reference multiplies activation by weight,
  the specification weight by activation: products of extended reals commute.
-/
import proofs.«205279_g68771016344126_cont_9to1_m_1330_15_alg».proof.Proof.RefNorm

noncomputable section

open scoped BigOperators

namespace Cert.RefDeep

open Cert.ReferenceIdeal Cert.ReferenceIdeal.Gen Cert.ReferenceIdeal.Read Idealize.ShloMosaic Idealize.ShloMosaic.ValueIdx
open Cert.Spec Cert.Alg Cert.RefIdx Cert.RefNorm

section
variable (Xi : (⟨S16384x26x1, .i32⟩ : BufTy).Contents (Elt Ideal)) (Xv : (⟨S16384x26, .f32⟩ : BufTy).Contents (Elt Ideal))
  (tbl2 : (⟨S26x100000x16, .f32⟩ : BufTy).Contents (Elt Ideal))
  (W1 : (⟨S200x416, .f32⟩ : BufTy).Contents (Elt Ideal)) (b1 : (⟨S200, .f32⟩ : BufTy).Contents (Elt Ideal))
  (W2 : (⟨S200x200, .f32⟩ : BufTy).Contents (Elt Ideal)) (b2 : (⟨S200, .f32⟩ : BufTy).Contents (Elt Ideal))
  (W3 : (⟨S200x200, .f32⟩ : BufTy).Contents (Elt Ideal)) (b3 : (⟨S200, .f32⟩ : BufTy).Contents (Elt Ideal))
  (hX : ∀ i, (Xi i).toNat < 100000) (b : Fin 16384)

/-- A weight matrix by coordinates. -/
def wm {m n : Nat} (W : (⟨2, ![m, n]⟩ : Shape).Idx → EReal) : Fin m → Fin n → EReal := fun j k => W (ix2 j k)
/-- A bias vector by its coordinate. -/
def bv {m : Nat} (c : (⟨1, ![m]⟩ : Shape).Idx → EReal) : Fin m → EReal := fun j => c (ix1 j)

include hX

/-- The reshaped normalized embedding: entry (b, k) is field k / 16, coordinate k % 16. -/
theorem v55_at (k : Fin 416) :
    val_main_v55 (F := Ideal) Xi Xv tbl2 (ix2 b k) = xflat (e2c Xi tbl2 b) (xvc Xv b) k := by
  have hk := k.isLt
  rw [val_main_v55_apply, show idx_main_v55 (ix2 b k) = ix3 b (rowF k) (rowD k) from
    funext fun a => Fin.ext (by
      match a with
      | ⟨0, _⟩ => show (b.val * 416 + k.val) / 416 = b.val; omega
      | ⟨1, _⟩ => show (b.val * 416 + k.val) / 16 % 26 = k.val / 16; omega
      | ⟨2, _⟩ => show (b.val * 416 + k.val) % 16 = k.val % 16; omega),
    v45_at Xi Xv tbl2 hX b _ _]
  rfl

/-- The first layer. -/
theorem v63_at (j : Fin 200) :
    val_main_v63 (F := Ideal) Xi Xv tbl2 W1 b1 (ix2 b j)
      = layer (wm W1) (bv b1) (xflat (e2c Xi tbl2 b) (xvc Xv b)) j := by
  rw [val_main_v63_apply, val_main_v62_apply, val_main_v60_apply, val_main_v57_apply]
  have hk : ∀ k : Fin 416, val_main_v55 (F := Ideal) Xi Xv tbl2 (lidx_main_v57 (ix2 b j) k)
        * val_main_v56 (F := Ideal) W1 (ridx_main_v57 (ix2 b j) k)
      = wm W1 j k * xflat (e2c Xi tbl2 b) (xvc Xv b) k := fun k => by
    rw [show lidx_main_v57 (ix2 b j) k = ix2 b k from funext fun a => match a with | ⟨0, _⟩ => rfl | ⟨1, _⟩ => rfl,
      v55_at Xi Xv tbl2 hX b k, val_main_v56_apply,
      show idx_main_v56 (ridx_main_v57 (ix2 b j) k) = ix2 j k from funext fun a => match a with | ⟨0, _⟩ => rfl | ⟨1, _⟩ => rfl,
      mul_comm]
    rfl
  simp only [hk]
  rw [val_main_v59_apply, val_main_v58_apply,
    show idx_main_v58 (idx_main_v59 (ix2 b j)) = ix1 j from funext fun a => match a with | ⟨0, _⟩ => rfl,
    val_main_v61_apply, val_main_cst_13_apply, val_main_call0_v0_apply, val_main_call0_cst_apply]
  rfl

/-- The second layer. -/
theorem v71_at (j : Fin 200) :
    val_main_v71 (F := Ideal) Xi Xv tbl2 W1 b1 W2 b2 (ix2 b j)
      = layer (wm W2) (bv b2) (layer (wm W1) (bv b1) (xflat (e2c Xi tbl2 b) (xvc Xv b))) j := by
  rw [val_main_v71_apply, val_main_v70_apply, val_main_v68_apply, val_main_v65_apply]
  have hk : ∀ k : Fin 200, val_main_v63 (F := Ideal) Xi Xv tbl2 W1 b1 (lidx_main_v65 (ix2 b j) k)
        * val_main_v64 (F := Ideal) W2 (ridx_main_v65 (ix2 b j) k)
      = wm W2 j k * layer (wm W1) (bv b1) (xflat (e2c Xi tbl2 b) (xvc Xv b)) k := fun k => by
    rw [show lidx_main_v65 (ix2 b j) k = ix2 b k from funext fun a => match a with | ⟨0, _⟩ => rfl | ⟨1, _⟩ => rfl,
      v63_at Xi Xv tbl2 W1 b1 hX b k, val_main_v64_apply,
      show idx_main_v64 (ridx_main_v65 (ix2 b j) k) = ix2 j k from funext fun a => match a with | ⟨0, _⟩ => rfl | ⟨1, _⟩ => rfl,
      mul_comm]
    rfl
  simp only [hk]
  rw [val_main_v67_apply, val_main_v66_apply,
    show idx_main_v66 (idx_main_v67 (ix2 b j)) = ix1 j from funext fun a => match a with | ⟨0, _⟩ => rfl,
    val_main_v69_apply, val_main_cst_14_apply, val_main_call1_v0_apply, val_main_call1_cst_apply]
  rfl

/-- The third layer. -/
theorem v79_at (j : Fin 200) :
    val_main_v79 (F := Ideal) Xi Xv tbl2 W1 b1 W2 b2 W3 b3 (ix2 b j)
      = layer (wm W3) (bv b3) (layer (wm W2) (bv b2) (layer (wm W1) (bv b1) (xflat (e2c Xi tbl2 b) (xvc Xv b)))) j := by
  rw [val_main_v79_apply, val_main_v78_apply, val_main_v76_apply, val_main_v73_apply]
  have hk : ∀ k : Fin 200, val_main_v71 (F := Ideal) Xi Xv tbl2 W1 b1 W2 b2 (lidx_main_v73 (ix2 b j) k)
        * val_main_v72 (F := Ideal) W3 (ridx_main_v73 (ix2 b j) k)
      = wm W3 j k * layer (wm W2) (bv b2) (layer (wm W1) (bv b1) (xflat (e2c Xi tbl2 b) (xvc Xv b))) k := fun k => by
    rw [show lidx_main_v73 (ix2 b j) k = ix2 b k from funext fun a => match a with | ⟨0, _⟩ => rfl | ⟨1, _⟩ => rfl,
      v71_at Xi Xv tbl2 W1 b1 W2 b2 hX b k, val_main_v72_apply,
      show idx_main_v72 (ridx_main_v73 (ix2 b j) k) = ix2 j k from funext fun a => match a with | ⟨0, _⟩ => rfl | ⟨1, _⟩ => rfl,
      mul_comm]
    rfl
  simp only [hk]
  rw [val_main_v75_apply, val_main_v74_apply,
    show idx_main_v74 (idx_main_v75 (ix2 b j)) = ix1 j from funext fun a => match a with | ⟨0, _⟩ => rfl,
    val_main_v77_apply, val_main_cst_15_apply, val_main_call2_v0_apply, val_main_call2_cst_apply]
  rfl

/-- The deep part's sum. -/
theorem v82_at :
    val_main_v82 (F := Ideal) Xi Xv tbl2 W1 b1 W2 b2 W3 b3 (ix1 b)
      = deep (e2c Xi tbl2 b) (xvc Xv b) (wm W1) (bv b1) (wm W2) (bv b2) (wm W3) (bv b3) := by
  rw [val_main_v82_apply]
  have hk : ∀ k : Fin 200, val_main_v79 (F := Ideal) Xi Xv tbl2 W1 b1 W2 b2 W3 b3 (idx_main_v82 (ix1 b) k)
      = layer (wm W3) (bv b3) (layer (wm W2) (bv b2) (layer (wm W1) (bv b1) (xflat (e2c Xi tbl2 b) (xvc Xv b)))) k := fun k => by
    rw [show idx_main_v82 (ix1 b) k = ix2 b k from funext fun a => match a with | ⟨0, _⟩ => rfl | ⟨1, _⟩ => rfl,
      v79_at Xi Xv tbl2 W1 b1 W2 b2 W3 b3 hX b k]
  simp only [hk]
  rw [val_main_cst_18_apply]
  show Ideal.ofBits .f32 0x00000000#32 + _ = _
  rw [Ideal.ofBits_zero_f32, zero_add]
  rfl

end

end Cert.RefDeep

end
-- ==== Proof.RefOut.lean ====
/-
  The reference's result is the specification G: the three terms are stacked, multiplied by the
  transposed final weights and shifted by the final bias, entry by entry.
-/
import proofs.«205279_g68771016344126_cont_9to1_m_1330_15_alg».proof.Proof.RefFM
import proofs.«205279_g68771016344126_cont_9to1_m_1330_15_alg».proof.Proof.RefDeep

noncomputable section

open scoped BigOperators

namespace Cert.RefOut

open Cert.ReferenceIdeal Cert.ReferenceIdeal.Gen Cert.ReferenceIdeal.Read Idealize.ShloMosaic Idealize.ShloMosaic.ValueIdx
open Cert.Spec Cert.Alg Cert.RefIdx Cert.RefNorm Cert.RefFM Cert.RefDeep

section
variable (Xi : (⟨S16384x26x1, .i32⟩ : BufTy).Contents (Elt Ideal)) (Xv : (⟨S16384x26, .f32⟩ : BufTy).Contents (Elt Ideal))
  (tbl1 : (⟨S26x100000x1, .f32⟩ : BufTy).Contents (Elt Ideal))
  (tbl2 : (⟨S26x100000x16, .f32⟩ : BufTy).Contents (Elt Ideal))
  (W1 : (⟨S200x416, .f32⟩ : BufTy).Contents (Elt Ideal)) (b1 : (⟨S200, .f32⟩ : BufTy).Contents (Elt Ideal))
  (W2 : (⟨S200x200, .f32⟩ : BufTy).Contents (Elt Ideal)) (b2 : (⟨S200, .f32⟩ : BufTy).Contents (Elt Ideal))
  (W3 : (⟨S200x200, .f32⟩ : BufTy).Contents (Elt Ideal)) (b3 : (⟨S200, .f32⟩ : BufTy).Contents (Elt Ideal))
  (Wd : (⟨S2x3, .f32⟩ : BufTy).Contents (Elt Ideal)) (bd : (⟨S2, .f32⟩ : BufTy).Contents (Elt Ideal))
  (hX : ∀ i, (Xi i).toNat < 100000) (htbl2 : ∀ i, IsReal (tbl2 i)) (hXv : ∀ i, IsReal (Xv i))
include hX htbl2 hXv

/-- The stacked row of batch element b. -/
theorem v86_at (b : Fin 16384) (k : Fin 3) :
    val_main_v86 (F := Ideal) Xi Xv tbl1 tbl2 W1 b1 W2 b2 W3 b3 (ix2 b k)
      = stacked (f1 (e1c Xi tbl1 b) (xvc Xv b)) (f2 (e2c Xi tbl2 b) (xvc Xv b))
          (deep (e2c Xi tbl2 b) (xvc Xv b) (wm W1) (bv b1) (wm W2) (bv b2) (wm W3) (bv b3)) k := by
  unfold val_main_v86
  match k with
  | ⟨0, _⟩ =>
    refine (concatenate_apply_piece (t := S16384x3) (1 : Fin 2)
      [⟨S16384x1, val_main_v83 (F := Ideal) Xi Xv tbl1⟩, ⟨S16384x1, val_main_v84 (F := Ideal) Xi Xv tbl2⟩, ⟨S16384x1, val_main_v85 (F := Ideal) Xi Xv tbl2 W1 b1 W2 b2 W3 b3⟩]
      concatenates_S16384x1_S16384x1_S16384x1_S16384x3_d1
      (ix2 b (⟨0, by omega⟩ : Fin 3)) 0 (show (0 : Nat) < 3 by omega) S16384x1 (val_main_v83 (F := Ideal) Xi Xv tbl1) rfl rfl 0 rfl (ix2 b (0 : Fin 1))
      (fun a => match a with | ⟨0, _⟩ => fun _ => rfl | ⟨1, _⟩ => fun hne => absurd rfl hne) rfl).trans ?_
    rw [val_main_v83_apply, show idx_main_v83 (ix2 b (0 : Fin 1)) = ix1 b from funext fun a => match a with | ⟨0, _⟩ => rfl,
      v80_at Xi Xv tbl1 hX b]
    rfl
  | ⟨1, _⟩ =>
    refine (concatenate_apply_piece (t := S16384x3) (1 : Fin 2)
      [⟨S16384x1, val_main_v83 (F := Ideal) Xi Xv tbl1⟩, ⟨S16384x1, val_main_v84 (F := Ideal) Xi Xv tbl2⟩, ⟨S16384x1, val_main_v85 (F := Ideal) Xi Xv tbl2 W1 b1 W2 b2 W3 b3⟩]
      concatenates_S16384x1_S16384x1_S16384x1_S16384x3_d1
      (ix2 b (⟨1, by omega⟩ : Fin 3)) 1 (show (1 : Nat) < 3 by omega) S16384x1 (val_main_v84 (F := Ideal) Xi Xv tbl2) rfl rfl 1 rfl (ix2 b (0 : Fin 1))
      (fun a => match a with | ⟨0, _⟩ => fun _ => rfl | ⟨1, _⟩ => fun hne => absurd rfl hne) rfl).trans ?_
    rw [val_main_v84_apply, show idx_main_v84 (ix2 b (0 : Fin 1)) = ix1 b from funext fun a => match a with | ⟨0, _⟩ => rfl,
      v81_at Xi Xv tbl2 hX b htbl2 hXv]
    rfl
  | ⟨2, _⟩ =>
    refine (concatenate_apply_piece (t := S16384x3) (1 : Fin 2)
      [⟨S16384x1, val_main_v83 (F := Ideal) Xi Xv tbl1⟩, ⟨S16384x1, val_main_v84 (F := Ideal) Xi Xv tbl2⟩, ⟨S16384x1, val_main_v85 (F := Ideal) Xi Xv tbl2 W1 b1 W2 b2 W3 b3⟩]
      concatenates_S16384x1_S16384x1_S16384x1_S16384x3_d1
      (ix2 b (⟨2, by omega⟩ : Fin 3)) 2 (show (2 : Nat) < 3 by omega) S16384x1 (val_main_v85 (F := Ideal) Xi Xv tbl2 W1 b1 W2 b2 W3 b3) rfl rfl 2 rfl (ix2 b (0 : Fin 1))
      (fun a => match a with | ⟨0, _⟩ => fun _ => rfl | ⟨1, _⟩ => fun hne => absurd rfl hne) rfl).trans ?_
    rw [val_main_v85_apply, show idx_main_v85 (ix2 b (0 : Fin 1)) = ix1 b from funext fun a => match a with | ⟨0, _⟩ => rfl,
      v82_at Xi Xv tbl2 W1 b1 W2 b2 W3 b3 hX b]
    rfl

/-- THE REFERENCE IS G: for indices below 100000 and real table and field values, the reference's result,
    as the composed term of its operations, is the specification of the twelve arguments. -/
theorem ref_eq :
    val_main_v91 (F := Ideal) Xi Xv tbl1 tbl2 W1 b1 W2 b2 W3 b3 Wd bd
      = Cert.Spec.G Xi Xv tbl1 tbl2 W1 b1 W2 b2 W3 b3 Wd bd := by
  funext i
  obtain ⟨b, o, rfl⟩ : ∃ (b : Fin 16384) (o : Fin 2), i = ix2 b o := ⟨i 0, i 1, eq_ix2 i⟩
  rw [val_main_v91_apply, val_main_v88_apply]
  have hk : ∀ k : Fin 3, val_main_v86 (F := Ideal) Xi Xv tbl1 tbl2 W1 b1 W2 b2 W3 b3 (lidx_main_v88 (ix2 b o) k)
        * val_main_v87 (F := Ideal) Wd (ridx_main_v88 (ix2 b o) k)
      = Wd (ix2 o k) * stacked (f1 (e1c Xi tbl1 b) (xvc Xv b)) (f2 (e2c Xi tbl2 b) (xvc Xv b))
          (deep (e2c Xi tbl2 b) (xvc Xv b) (wm W1) (bv b1) (wm W2) (bv b2) (wm W3) (bv b3)) k := fun k => by
    rw [show lidx_main_v88 (ix2 b o) k = ix2 b k from funext fun a => match a with | ⟨0, _⟩ => rfl | ⟨1, _⟩ => rfl,
      v86_at Xi Xv tbl1 tbl2 W1 b1 W2 b2 W3 b3 hX htbl2 hXv b k, val_main_v87_apply,
      show idx_main_v87 (ridx_main_v88 (ix2 b o) k) = ix2 o k from funext fun a => match a with | ⟨0, _⟩ => rfl | ⟨1, _⟩ => rfl,
      mul_comm]
  simp only [hk]
  rw [val_main_v90_apply, val_main_v89_apply,
    show idx_main_v89 (idx_main_v90 (ix2 b o)) = ix1 o from funext fun a => match a with | ⟨0, _⟩ => rfl]
  rfl

end

end Cert.RefOut

end
-- ==== Proof.RefFinal.lean ====
/-
  The reference is the specification G under the precondition: the precondition gives the index range
  and the realness of the field values and of the second-order table, which is all the reference's
  value needs.
-/
import proofs.«205279_g68771016344126_cont_9to1_m_1330_15_alg».proof.Proof.RefOut
import proofs.«205279_g68771016344126_cont_9to1_m_1330_15_alg».proof.Proof.FinPre

noncomputable section

namespace Cert.RefFinal

open Cert.ReferenceIdeal Cert.ReferenceIdeal.Gen Cert.ReferenceIdeal.Read Idealize.ShloMosaic

variable [Cert.Pre_input_domain.Facts]

/-- Under the precondition the reference's result, as the composed term of its operations, is G of the
    twelve arguments. -/
theorem ref_eq_of_pre
    (Xi : (⟨S16384x26x1, .i32⟩ : BufTy).Contents (Elt Ideal)) (Xv : (⟨S16384x26, .f32⟩ : BufTy).Contents (Elt Ideal))
    (tbl1 : (⟨S26x100000x1, .f32⟩ : BufTy).Contents (Elt Ideal))
    (tbl2 : (⟨S26x100000x16, .f32⟩ : BufTy).Contents (Elt Ideal))
    (W1 : (⟨S200x416, .f32⟩ : BufTy).Contents (Elt Ideal)) (b1 : (⟨S200, .f32⟩ : BufTy).Contents (Elt Ideal))
    (W2 : (⟨S200x200, .f32⟩ : BufTy).Contents (Elt Ideal)) (b2 : (⟨S200, .f32⟩ : BufTy).Contents (Elt Ideal))
    (W3 : (⟨S200x200, .f32⟩ : BufTy).Contents (Elt Ideal)) (b3 : (⟨S200, .f32⟩ : BufTy).Contents (Elt Ideal))
    (Wd : (⟨S2x3, .f32⟩ : BufTy).Contents (Elt Ideal)) (bd : (⟨S2, .f32⟩ : BufTy).Contents (Elt Ideal))
    (h : Cert.Pre_input_domain.fn (F := Ideal) Xi Xv tbl1 tbl2 W1 b1 W2 b2 W3 b3 Wd bd = fun _ => 1#1) :
    val_main_v91 (F := Ideal) Xi Xv tbl1 tbl2 W1 b1 W2 b2 W3 b3 Wd bd
      = Cert.Spec.G Xi Xv tbl1 tbl2 W1 b1 W2 b2 W3 b3 Wd bd :=
  Cert.RefOut.ref_eq Xi Xv tbl1 tbl2 W1 b1 W2 b2 W3 b3 Wd bd
    (Cert.FinPre.xi_range (F := Ideal) Xi Xv tbl1 tbl2 W1 b1 W2 b2 W3 b3 Wd bd h)
    (Cert.FinPre.reals Xi Xv tbl1 tbl2 W1 b1 W2 b2 W3 b3 Wd bd h).2
    (Cert.FinPre.reals Xi Xv tbl1 tbl2 W1 b1 W2 b2 W3 b3 Wd bd h).1

end Cert.RefFinal

end
-- ==== Proof.KRef.lean ====
/-
  The reference's run, with its result named as the specification G of the arguments: under the
  precondition on the arguments, every execution of the reference ends with its result array at G and
  its arguments unchanged.
-/
import proofs.«205279_g68771016344126_cont_9to1_m_1330_15_alg».proof.Proof.RefFinal

noncomputable section

namespace Cert.KRef

open Idealize.ShloMosaic Idealize.ShloMosaic.TcCoe Idealize.SL.Sem

variable [Cert.Pre_input_domain.Facts]

/-- The reference's run ends at G of its arguments. -/
theorem ref_run_G (m' : (ℓ : Loc Cert.ReferenceIdeal.nD Cert.ReferenceIdeal.τ Cert.ReferenceIdeal.sig) → Buf (Elt Ideal) ℓ)
    (g' : Dev Cert.ReferenceIdeal.nD → PrngReg)
    (hfn : ∀ c : Dev Cert.ReferenceIdeal.nD,
      Cert.Pre_input_domain.fn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = fun _ => 1#1) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v91)
            = Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) :=
  (θ_run (Cert.ReferenceIdeal.defs (F := Ideal)) _ _).mono
    (fun r h c => ⟨(h c).1.trans ((Cert.ReferenceIdeal.Read.val_main_v91_eq m' c).trans
        (Cert.RefFinal.ref_eq_of_pre _ _ _ _ _ _ _ _ _ _ _ _ (hfn c))), (h c).2⟩)
    (Cert.ReferenceIdeal.Value.run (F := Ideal) m' g')

end Cert.KRef

end
-- ==== Proof.KFinal.lean ====
/-
  The algebraic conjunct, assembled: if every execution of the idealized kernel from a memory satisfying
  the precondition ends with its result array at some function of the memory and its arguments
  unchanged, and that function is the specification G of the arguments, then the idealized kernel and the
  idealized reference, run from memories that agree on the arguments, end with equal results: both at G.
-/
import proofs.«205279_g68771016344126_cont_9to1_m_1330_15_alg».proof.Defs
import proofs.«205279_g68771016344126_cont_9to1_m_1330_15_alg».proof.Proof.Gen.KernelIdeal
import proofs.«205279_g68771016344126_cont_9to1_m_1330_15_alg».proof.Proof.KRef

noncomputable section

namespace Cert.KFinal

open Idealize.ShloMosaic Idealize.ShloMosaic.TcCoe Idealize.SL.Sem

variable [Cert.Pre_input_domain.Facts]

/-- The algebraic conjunct from the kernel's run and the value of its result. -/
theorem algebraic_of_run
    (RES : ((ℓ : Loc Cert.KernelIdeal.nD Cert.KernelIdeal.τ Cert.KernelIdeal.sig) → Buf (Elt Ideal) ℓ) → (c : Dev Cert.KernelIdeal.nD) →
      Buf (Elt Ideal) ((c.tc : Thread Cert.KernelIdeal.nD Cert.KernelIdeal.τ).loc Cert.KernelIdeal.main_v13))
    (hrun : ∀ (m : (ℓ : Loc Cert.KernelIdeal.nD Cert.KernelIdeal.τ Cert.KernelIdeal.sig) → Buf (Elt Ideal) ℓ) (g : Dev Cert.KernelIdeal.nD → PrngReg), Cert.Pre_KernelIdeal m →
      θ_run (Cert.KernelIdeal.defs (F := Ideal)) (Cert.KernelIdeal.threads (F := Ideal)) ⟨m, fun _ => 0, g⟩ (fun r => ∀ c : Dev Cert.KernelIdeal.nD,
        r.2.mem ((c.tc : Thread Cert.KernelIdeal.nD Cert.KernelIdeal.τ).loc Cert.KernelIdeal.main_v13) = RES m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)))
    (hRES : ∀ (m : (ℓ : Loc Cert.KernelIdeal.nD Cert.KernelIdeal.τ Cert.KernelIdeal.sig) → Buf (Elt Ideal) ℓ) (c : Dev Cert.KernelIdeal.nD), Cert.Pre_KernelIdeal m →
      RES m c = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) :
    Cert.algebraic_KernelIdeal_ReferenceIdeal := by
  intro m g m' g' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run (Cert.KernelIdeal.defs (F := Ideal)) _ _).mono (fun r h c => ⟨(h c).1.trans (hRES m c hpre), (h c).2⟩) (hrun m g hpre)
  · have hfn : ∀ c : Dev Cert.ReferenceIdeal.nD,
        Cert.Pre_input_domain.fn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = fun _ => 1#1 := fun c => by
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
      exact hpre c
    refine (θ_run (Cert.ReferenceIdeal.defs (F := Ideal)) _ _).mono (fun r h c => ⟨(h c).1.trans ?_, (h c).2⟩) (Cert.KRef.ref_run_G m' g' hfn)
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

end Cert.KFinal

end
-- ==== Proof.KCover.lean ====
/-
  From blocks to the array, for the TensorCore call's output [2, 16384]: grid point t writes back the
  [2, 1024] block of columns 1024 t … 1024 t + 1023, every column lies in exactly the block of its
  quotient by 1024, so after the sixteen points the array holds, at (o, b), what point b / 1024 wrote at
  (o, b % 1024).
-/
import proofs.«205279_g68771016344126_cont_9to1_m_1330_15_alg».proof.Proof.TcDat
import Idealize.ShloMosaic.Lib.Pipeline.Value
import Idealize.ShloMosaic.Lib.ValueIdx

set_option maxRecDepth 16384

noncomputable section

namespace Cert.Proof.Id

open Cert.KernelIdeal Cert.KernelIdeal.Gen

open Idealize.ShloMosaic Idealize.ShloMosaic.TcCoe Idealize.ShloMosaic.ValueIdx
open Idealize.SL Idealize.SL.RA Idealize.SL.BI
open Idealize.ShloMosaic.Pipeline (Dat Cfg Window)

variable {F : FTy → Type} [FloatOps F]
variable {Ix : Type} [DecidableEq Ix] {Name : Type} [DecidableEq Name] {U : Type} [URA U] {Lvl : Type} [Preorder Lvl]

variable (c : Dev nD) (A : (w : Fin cfg1.W) → Buf (Elt F) ((cfg1.win w).arr.view.loc (c.tc : Thread nD τ)))
  (B : Set (SemLoc sig × Ix))

/-- The output window's block at point t is block (0, t). -/
theorem idx11 : ∀ t : Fin cfg1.N, win1_11.index t (0 : Fin 2) = 0 ∧ win1_11.index t (1 : Fin 2) = t.val :=
  (by decide +kernel : ∀ t : Fin grid1.N, win1_11.index t (0 : Fin 2) = 0 ∧ win1_11.index t (1 : Fin 2) = t.val)

/-- The whole output array: entry (o, b) is what point b / 1024 leaves at (o, b % 1024). -/
def tcOutAll : Buf (Elt F) ((cfg1.win 11).arr.view.loc (c.tc : Thread nD τ)) :=
  fun (j : S2x16384.Idx) =>
    tcOut c A (⟨(j 1).val / 1024, by have h : (j 1).val < 16384 := (j 1).isLt; show (j 1).val / 1024 < 16; omega⟩ : Fin cfg1.N)
      (ix2 (⟨(j 0).val, (j 0).isLt⟩ : Fin 2) (⟨(j 1).val % 1024, by omega⟩ : Fin 1024))

/-- What point t writes back is block t of the whole array. -/
theorem tcFlushed_eq (t : Fin cfg1.N) :
    (tcDat (Name := Name) (U := U) (Lvl := Lvl) c A B).flushed 11 t
      = ((cfg1.win 11).blk t).view.read (Elt F) (tcOutAll c A) := by
  rw [tcDat_flushed]
  obtain ⟨e0, e1⟩ := idx11 t
  funext y
  rw [View.read_apply]
  have ht : t.val < 16 := t.isLt
  have hy0 : (y 0).val < 2 := (y 0).isLt
  have hy1 : (y 1).val < 1024 := (y 1).isLt
  have v0 : ((((cfg1.win 11).blk t).view.emb y) 0).val = (y 0).val := by
    show win1_11.index t (0 : Fin 2) * 2 + 1 * (y 0).val = (y 0).val; omega
  have v1 : ((((cfg1.win 11).blk t).view.emb y) 1).val = t.val * 1024 + (y 1).val := by
    show win1_11.index t (1 : Fin 2) * 1024 + 1 * (y 1).val = t.val * 1024 + (y 1).val; omega
  unfold tcOutAll
  have hq : (⟨((((cfg1.win 11).blk t).view.emb y) 1).val / 1024, by rw [v1]; show (t.val * 1024 + (y 1).val) / 1024 < 16; omega⟩ : Fin cfg1.N) = t :=
    Fin.ext (by show ((((cfg1.win 11).blk t).view.emb y) 1).val / 1024 = t.val; rw [v1]; omega)
  rw [hq]
  refine congrArg (tcOut c A t) (funext fun a => Fin.ext ?_)
  match a with
  | ⟨0, _⟩ => exact v0.symm
  | ⟨1, _⟩ => show (y 1).val = ((((cfg1.win 11).blk t).view.emb y) 1).val % 1024; rw [v1]; omega

/-- An index of the array is in point t's block iff each coordinate is in the block's range on its axis. -/
theorem mem_blk11 (t : Fin cfg1.N) (i : S2x16384.Idx) :
    i ∈ ((cfg1.win 11).blk t).view.set ↔ ∀ a : Fin 2, win1_11.index t a * S2x1024.size a ≤ (i a).val ∧ (i a).val < win1_11.index t a * S2x1024.size a + S2x1024.size a := by
  show i ∈ ((View.whole main_v12).slice (win1_11.rect t)).set ↔ _
  rw [View.set_slice_whole, Rect.mem_set_unit]
  exact Iff.rfl

/-- Every index of the array is in some point's block: column b in the block of b / 1024. -/
theorem cover11 (i : S2x16384.Idx) : ∃ t : Fin cfg1.N, (cfg1.win 11).flush t = true ∧ i ∈ ((cfg1.win 11).blk t).view.set := by
  have hi0 : (i 0).val < 2 := (i 0).isLt
  have hi1 : (i 1).val < 16384 := (i 1).isLt
  refine ⟨(⟨(i 1).val / 1024, by show (i 1).val / 1024 < 16; omega⟩ : Fin cfg1.N), flush1_11 _, ?_⟩
  obtain ⟨e0, e1⟩ := idx11 (⟨(i 1).val / 1024, by show (i 1).val / 1024 < 16; omega⟩ : Fin cfg1.N)
  rw [mem_blk11]
  intro a
  match a with
  | ⟨0, _⟩ =>
    show win1_11.index _ (0 : Fin 2) * 2 ≤ (i 0).val ∧ (i 0).val < win1_11.index _ (0 : Fin 2) * 2 + 2
    rw [e0]; omega
  | ⟨1, _⟩ =>
    show win1_11.index _ (1 : Fin 2) * 1024 ≤ (i 1).val ∧ (i 1).val < win1_11.index _ (1 : Fin 2) * 1024 + 1024
    rw [e1]; show (i 1).val / 1024 * 1024 ≤ (i 1).val ∧ (i 1).val < (i 1).val / 1024 * 1024 + 1024; omega

/-- THE OUTPUT ARRAY after the sixteen points. -/
theorem tcDat_arrAt_out :
    (tcDat (Name := Name) (U := U) (Lvl := Lvl) c A B).arrAt 11 cfg1.N = tcOutAll c A :=
  (tcDat (Name := Name) (U := U) (Lvl := Lvl) c A B).arrAt_eq_of_cover 11 (tcOutAll c A)
    (fun t _ => tcFlushed_eq c A B t) (cover11)

end Cert.Proof.Id

end
-- ==== Proof.LaunchValue.lean ====
/-
  The launch's valuations read over the arguments: what the SparseCore call reads (the index array, the two tables,
  as the host operations lay the arguments out), what the TensorCore region finds in its twelve arrays, and the
  result as the transpose of the pipeline's output array — block by block the body's function of those arrays.
-/
import proofs.«205279_g68771016344126_cont_9to1_m_1330_15_alg».proof.Proof.Common
import proofs.«205279_g68771016344126_cont_9to1_m_1330_15_alg».proof.Proof.HostOps
import proofs.«205279_g68771016344126_cont_9to1_m_1330_15_alg».proof.Proof.TileRes
import proofs.«205279_g68771016344126_cont_9to1_m_1330_15_alg».proof.Proof.KHostTile
import proofs.«205279_g68771016344126_cont_9to1_m_1330_15_alg».proof.Proof.KCover
import proofs.«205279_g68771016344126_cont_9to1_m_1330_15_alg».proof.Proof.LaunchIdx
import proofs.«205279_g68771016344126_cont_9to1_m_1330_15_alg».proof.Proof.LaunchRegion
import proofs.«205279_g68771016344126_cont_9to1_m_1330_15_alg».proof.Proof.LaunchVals
import proofs.«205279_g68771016344126_cont_9to1_m_1330_15_alg».proof.Proof.LaunchCall
import proofs.«205279_g68771016344126_cont_9to1_m_1330_15_alg».proof.Proof.LaunchExit

noncomputable section

namespace Cert.Proof.Id

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## What the SparseCore call reads, over the arguments -/

theorem g4_eq (d : Dev nD) : g4 m d = t2Term (m ((d.tc : Thread nD τ).loc main_arg3)) := by
  show StableHlo.after hostA (V₀ m d) (Proc.devRef .tc main_v4) = _
  unfold hostA
  after_results
  rfl
theorem g5_eq (d : Dev nD) : g5 m d = t1Term (m ((d.tc : Thread nD τ).loc main_arg2)) := by
  show StableHlo.after hostA (V₀ m d) (Proc.devRef .tc main_v5) = _
  unfold hostA
  after_results
  rfl

/-! ## What the TensorCore region finds in its arrays -/

/-- An argument array is as launched when the region is entered. -/
theorem V₃_arg (d : Dev nD) (b : Ref sig .tc)
    (h : b ∈ ({main_arg0, main_arg1, main_arg2, main_arg3, main_arg4, main_arg5, main_arg6, main_arg7, main_arg8, main_arg9, main_arg10, main_arg11} : Finset (Ref sig .tc))) :
    V₃ m d b = m (d, Proc.devRef .tc b) := by
  have hA : b ∉ ({main_v0, main_v1, main_v2, main_v3, main_v4, main_v5} : Finset (Ref sig .tc)) := by revert b; decide
  have hB : b ∉ ({main_v7, main_v8, main_v9, main_v10, main_v11} : Finset (Ref sig .tc)) := by revert b; decide
  have h60 : b ≠ main_v6_0 := by revert b; decide
  have h61 : b ≠ main_v6_1 := by revert b; decide
  show StableHlo.after hostB (V₂ m d) (Proc.devRef .tc b) = _
  rw [StableHlo.after_of_forall_not_mem hostB _ (hostB_keeps b hB), V₂_of_ne m d b h60 h61]
  exact StableHlo.after_of_forall_not_mem hostA _ (hostA_keeps b hA)
theorem V₂_arg (d : Dev nD) (b : Ref sig .tc)
    (h : b ∈ ({main_arg0, main_arg1, main_arg2, main_arg3, main_arg4, main_arg5, main_arg6, main_arg7, main_arg8, main_arg9, main_arg10, main_arg11} : Finset (Ref sig .tc))) :
    V₂ m d b = m (d, Proc.devRef .tc b) := by
  have hA : b ∉ ({main_v0, main_v1, main_v2, main_v3, main_v4, main_v5} : Finset (Ref sig .tc)) := by revert b; decide
  have h60 : b ≠ main_v6_0 := by revert b; decide
  have h61 : b ≠ main_v6_1 := by revert b; decide
  rw [V₂_of_ne m d b h60 h61]
  exact StableHlo.after_of_forall_not_mem hostA _ (hostA_keeps b hA)

theorem A_e2 (d : Dev nD) : V₃ m d main_v6_0 = e2Tgt d (g4 m d) (g2 m d) := by
  show StableHlo.after hostB (V₂ m d) (Proc.devRef .tc main_v6_0) = _
  rw [StableHlo.after_of_forall_not_mem hostB _ (hostB_keeps main_v6_0 (by decide)), V₂_v60]
theorem A_e1 (d : Dev nD) : V₃ m d main_v6_1 = e1Tgt d (g5 m d) (g2 m d) := by
  show StableHlo.after hostB (V₂ m d) (Proc.devRef .tc main_v6_1) = _
  rw [StableHlo.after_of_forall_not_mem hostB _ (hostB_keeps main_v6_1 (by decide)), V₂_v61]
theorem A_xv (d : Dev nD) :
    V₃ m d main_v7 = transpose S26x16384 [1, 0] (m ((d.tc : Thread nD τ).loc main_arg1)) transposes_S16384x26_S26x16384_1_0 := by
  show StableHlo.after hostB (V₂ m d) (Proc.devRef .tc main_v7) = _
  unfold hostB
  after_results
  rw [V₂_arg m d main_arg1 (by decide)]
theorem A_b1 (d : Dev nD) : V₃ m d main_v8 = shapeCast S200x1 (m ((d.tc : Thread nD τ).loc main_arg5)) shapeCasts_S200_S200x1 := by
  show StableHlo.after hostB (V₂ m d) (Proc.devRef .tc main_v8) = _
  unfold hostB
  after_results
  rw [V₂_arg m d main_arg5 (by decide)]
  rfl
theorem A_b2 (d : Dev nD) : V₃ m d main_v9 = shapeCast S200x1 (m ((d.tc : Thread nD τ).loc main_arg7)) shapeCasts_S200_S200x1 := by
  show StableHlo.after hostB (V₂ m d) (Proc.devRef .tc main_v9) = _
  unfold hostB
  after_results
  rw [V₂_arg m d main_arg7 (by decide)]
  rfl
theorem A_b3 (d : Dev nD) : V₃ m d main_v10 = shapeCast S200x1 (m ((d.tc : Thread nD τ).loc main_arg9)) shapeCasts_S200_S200x1 := by
  show StableHlo.after hostB (V₂ m d) (Proc.devRef .tc main_v10) = _
  unfold hostB
  after_results
  rw [V₂_arg m d main_arg9 (by decide)]
  rfl
theorem A_bd (d : Dev nD) : V₃ m d main_v11 = shapeCast S2x1 (m ((d.tc : Thread nD τ).loc main_arg11)) shapeCasts_S2_S2x1 := by
  show StableHlo.after hostB (V₂ m d) (Proc.devRef .tc main_v11) = _
  unfold hostB
  after_results
  rw [V₂_arg m d main_arg11 (by decide)]
  rfl

/-! ## The result -/

/-- The arrays' contents the region is entered with. -/
abbrev AA (d : Dev nD) : (w : Fin cfg1.W) → Buf (Elt F) ((cfg1.win w).arr.view.loc (d.tc : Thread nD τ)) :=
  fun w => V₃ m d (Pipeline.arrRef spec1 w)

theorem V₄_v12 (d : Dev nD) : V₄ m d main_v12 = (tcDats (V₃ m) 0 d).arrAt 11 cfg1.N :=
  Pipeline.withArrays_arr spec1 launch1.win.arr_inj d _ _ 11

/-- The result is the transpose of what the pipeline leaves in its output array. -/
theorem RESULT_eq (d : Dev nD) :
    RESULT m d = transpose S16384x2 [1, 0] ((tcDats (V₃ m) 0 d).arrAt 11 cfg1.N) transposes_S2x16384_S16384x2_1_0 := by
  show StableHlo.after hostC (V₄ m d) (Proc.devRef .tc main_v13) = _
  unfold hostC
  after_results
  rw [V₄_v12]

/-- … which is, block by block, the body's named function of the blocks of the arrays the region is entered with. -/
theorem RESULT_blocks (d : Dev nD) :
    RESULT m d = transpose S16384x2 [1, 0] (tcOutAll d (AA m d)) transposes_S2x16384_S16384x2_1_0 := by
  rw [RESULT_eq]
  exact congrArg (fun x => transpose S16384x2 [1, 0] x transposes_S2x16384_S16384x2_1_0) (tcDat_arrAt_out d (AA m d) Set.univ)

end Cert.Proof.Id

end
-- ==== Proof.KBlocks.lean ====
/-
  The TensorCore call's input blocks read off the whole arrays: the three batch-major inputs are cut into
  column blocks of 1024 (block t of an array is its columns 1024 t … 1024 t + 1023), the eight weight and
  bias inputs are handed whole at every grid point.
-/
import proofs.«205279_g68771016344126_cont_9to1_m_1330_15_alg».proof.Proof.TcDat
import Idealize.ShloMosaic.Lib.Pipeline.Value
import Idealize.ShloMosaic.Lib.ValueIdx

set_option maxRecDepth 16384

noncomputable section

namespace Cert.Proof.Id

open Cert.KernelIdeal Cert.KernelIdeal.Gen

open Idealize.ShloMosaic Idealize.ShloMosaic.TcCoe Idealize.ShloMosaic.ValueIdx
open Idealize.SL Idealize.SL.RA Idealize.SL.BI
open Idealize.ShloMosaic.Pipeline (Dat Cfg Window)

variable {F : FTy → Type} [FloatOps F]

variable (c : Dev nD) (A : (w : Fin cfg1.W) → Buf (Elt F) ((cfg1.win w).arr.view.loc (c.tc : Thread nD τ)))

/-- The input windows' block indices at point t: (0, t) for the three batch-major arrays, (0, 0) for the others. -/
theorem idxIn : ∀ t : Fin cfg1.N, win1_0.index t (0 : Fin 2) = 0
    ∧ win1_0.index t (1 : Fin 2) = t.val
    ∧ win1_1.index t (0 : Fin 2) = 0
    ∧ win1_1.index t (1 : Fin 2) = t.val
    ∧ win1_2.index t (0 : Fin 2) = 0
    ∧ win1_2.index t (1 : Fin 2) = t.val
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0 :=
  (by decide +kernel : ∀ t : Fin grid1.N, win1_0.index t (0 : Fin 2) = 0
    ∧ win1_0.index t (1 : Fin 2) = t.val
    ∧ win1_1.index t (0 : Fin 2) = 0
    ∧ win1_1.index t (1 : Fin 2) = t.val
    ∧ win1_2.index t (0 : Fin 2) = 0
    ∧ win1_2.index t (1 : Fin 2) = t.val
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0)

/-- Input window 0: block t is columns 1024 t … 1024 t + 1023 of the array. -/
theorem tcBlk0_apply (t : Fin cfg1.N) (r : Fin 416) (x : Fin 1024) :
    tcBlk c A 0 t (ix2 r x) = A 0 (ix2 r (⟨1024 * t.val + x.val, by have := t.isLt; have ht : t.val < 16 := t.isLt; have := x.isLt; omega⟩ : Fin 16384)) := by
  have hf := idxIn t
  have e0 : win1_0.index t (0 : Fin 2) = 0 := hf.1
  have e1 : win1_0.index t (1 : Fin 2) = t.val := hf.2.1
  unfold tcBlk
  rw [View.read_apply]
  refine congrArg (A 0) (funext fun a => Fin.ext ?_)
  match a with
  | ⟨0, _⟩ => show win1_0.index t (0 : Fin 2) * 416 + 1 * r.val = r.val; omega
  | ⟨1, _⟩ => show win1_0.index t (1 : Fin 2) * 1024 + 1 * x.val = 1024 * t.val + x.val; omega

/-- Input window 1: block t is columns 1024 t … 1024 t + 1023 of the array. -/
theorem tcBlk1_apply (t : Fin cfg1.N) (r : Fin 26) (x : Fin 1024) :
    tcBlk c A 1 t (ix2 r x) = A 1 (ix2 r (⟨1024 * t.val + x.val, by have := t.isLt; have ht : t.val < 16 := t.isLt; have := x.isLt; omega⟩ : Fin 16384)) := by
  have hf := idxIn t
  have e0 : win1_1.index t (0 : Fin 2) = 0 := hf.2.2.1
  have e1 : win1_1.index t (1 : Fin 2) = t.val := hf.2.2.2.1
  unfold tcBlk
  rw [View.read_apply]
  refine congrArg (A 1) (funext fun a => Fin.ext ?_)
  match a with
  | ⟨0, _⟩ => show win1_1.index t (0 : Fin 2) * 26 + 1 * r.val = r.val; omega
  | ⟨1, _⟩ => show win1_1.index t (1 : Fin 2) * 1024 + 1 * x.val = 1024 * t.val + x.val; omega

/-- Input window 2: block t is columns 1024 t … 1024 t + 1023 of the array. -/
theorem tcBlk2_apply (t : Fin cfg1.N) (r : Fin 26) (x : Fin 1024) :
    tcBlk c A 2 t (ix2 r x) = A 2 (ix2 r (⟨1024 * t.val + x.val, by have := t.isLt; have ht : t.val < 16 := t.isLt; have := x.isLt; omega⟩ : Fin 16384)) := by
  have hf := idxIn t
  have e0 : win1_2.index t (0 : Fin 2) = 0 := hf.2.2.2.2.1
  have e1 : win1_2.index t (1 : Fin 2) = t.val := hf.2.2.2.2.2.1
  unfold tcBlk
  rw [View.read_apply]
  refine congrArg (A 2) (funext fun a => Fin.ext ?_)
  match a with
  | ⟨0, _⟩ => show win1_2.index t (0 : Fin 2) * 26 + 1 * r.val = r.val; omega
  | ⟨1, _⟩ => show win1_2.index t (1 : Fin 2) * 1024 + 1 * x.val = 1024 * t.val + x.val; omega

/-- Input window 3: the block is the whole array. -/
theorem tcBlk3_apply (t : Fin cfg1.N) (y : S200x416.Idx) : tcBlk c A 3 t y = A 3 y := by
  have hf := idxIn t
  have e0 : win1_3.index t (0 : Fin 2) = 0 := hf.2.2.2.2.2.2.1
  have e1 : win1_3.index t (1 : Fin 2) = 0 := hf.2.2.2.2.2.2.2.1
  unfold tcBlk
  rw [View.read_apply]
  refine congrArg (A 3) (funext fun a => Fin.ext ?_)
  match a with
  | ⟨0, _⟩ => show win1_3.index t (0 : Fin 2) * 200 + 1 * (y 0).val = (y 0).val; omega
  | ⟨1, _⟩ => show win1_3.index t (1 : Fin 2) * 416 + 1 * (y 1).val = (y 1).val; omega

/-- Input window 4: the block is the whole array. -/
theorem tcBlk4_apply (t : Fin cfg1.N) (y : S200x1.Idx) : tcBlk c A 4 t y = A 4 y := by
  have hf := idxIn t
  have e0 : win1_4.index t (0 : Fin 2) = 0 := hf.2.2.2.2.2.2.2.2.1
  have e1 : win1_4.index t (1 : Fin 2) = 0 := hf.2.2.2.2.2.2.2.2.2.1
  unfold tcBlk
  rw [View.read_apply]
  refine congrArg (A 4) (funext fun a => Fin.ext ?_)
  match a with
  | ⟨0, _⟩ => show win1_4.index t (0 : Fin 2) * 200 + 1 * (y 0).val = (y 0).val; omega
  | ⟨1, _⟩ => show win1_4.index t (1 : Fin 2) * 1 + 1 * (y 1).val = (y 1).val; omega

/-- Input window 5: the block is the whole array. -/
theorem tcBlk5_apply (t : Fin cfg1.N) (y : S200x200.Idx) : tcBlk c A 5 t y = A 5 y := by
  have hf := idxIn t
  have e0 : win1_5.index t (0 : Fin 2) = 0 := hf.2.2.2.2.2.2.2.2.2.2.1
  have e1 : win1_5.index t (1 : Fin 2) = 0 := hf.2.2.2.2.2.2.2.2.2.2.2.1
  unfold tcBlk
  rw [View.read_apply]
  refine congrArg (A 5) (funext fun a => Fin.ext ?_)
  match a with
  | ⟨0, _⟩ => show win1_5.index t (0 : Fin 2) * 200 + 1 * (y 0).val = (y 0).val; omega
  | ⟨1, _⟩ => show win1_5.index t (1 : Fin 2) * 200 + 1 * (y 1).val = (y 1).val; omega

/-- Input window 6: the block is the whole array. -/
theorem tcBlk6_apply (t : Fin cfg1.N) (y : S200x1.Idx) : tcBlk c A 6 t y = A 6 y := by
  have hf := idxIn t
  have e0 : win1_6.index t (0 : Fin 2) = 0 := hf.2.2.2.2.2.2.2.2.2.2.2.2.1
  have e1 : win1_6.index t (1 : Fin 2) = 0 := hf.2.2.2.2.2.2.2.2.2.2.2.2.2.1
  unfold tcBlk
  rw [View.read_apply]
  refine congrArg (A 6) (funext fun a => Fin.ext ?_)
  match a with
  | ⟨0, _⟩ => show win1_6.index t (0 : Fin 2) * 200 + 1 * (y 0).val = (y 0).val; omega
  | ⟨1, _⟩ => show win1_6.index t (1 : Fin 2) * 1 + 1 * (y 1).val = (y 1).val; omega

/-- Input window 7: the block is the whole array. -/
theorem tcBlk7_apply (t : Fin cfg1.N) (y : S200x200.Idx) : tcBlk c A 7 t y = A 7 y := by
  have hf := idxIn t
  have e0 : win1_7.index t (0 : Fin 2) = 0 := hf.2.2.2.2.2.2.2.2.2.2.2.2.2.2.1
  have e1 : win1_7.index t (1 : Fin 2) = 0 := hf.2.2.2.2.2.2.2.2.2.2.2.2.2.2.2.1
  unfold tcBlk
  rw [View.read_apply]
  refine congrArg (A 7) (funext fun a => Fin.ext ?_)
  match a with
  | ⟨0, _⟩ => show win1_7.index t (0 : Fin 2) * 200 + 1 * (y 0).val = (y 0).val; omega
  | ⟨1, _⟩ => show win1_7.index t (1 : Fin 2) * 200 + 1 * (y 1).val = (y 1).val; omega

/-- Input window 8: the block is the whole array. -/
theorem tcBlk8_apply (t : Fin cfg1.N) (y : S200x1.Idx) : tcBlk c A 8 t y = A 8 y := by
  have hf := idxIn t
  have e0 : win1_8.index t (0 : Fin 2) = 0 := hf.2.2.2.2.2.2.2.2.2.2.2.2.2.2.2.2.1
  have e1 : win1_8.index t (1 : Fin 2) = 0 := hf.2.2.2.2.2.2.2.2.2.2.2.2.2.2.2.2.2.1
  unfold tcBlk
  rw [View.read_apply]
  refine congrArg (A 8) (funext fun a => Fin.ext ?_)
  match a with
  | ⟨0, _⟩ => show win1_8.index t (0 : Fin 2) * 200 + 1 * (y 0).val = (y 0).val; omega
  | ⟨1, _⟩ => show win1_8.index t (1 : Fin 2) * 1 + 1 * (y 1).val = (y 1).val; omega

/-- Input window 9: the block is the whole array. -/
theorem tcBlk9_apply (t : Fin cfg1.N) (y : S2x3.Idx) : tcBlk c A 9 t y = A 9 y := by
  have hf := idxIn t
  have e0 : win1_9.index t (0 : Fin 2) = 0 := hf.2.2.2.2.2.2.2.2.2.2.2.2.2.2.2.2.2.2.1
  have e1 : win1_9.index t (1 : Fin 2) = 0 := hf.2.2.2.2.2.2.2.2.2.2.2.2.2.2.2.2.2.2.2.1
  unfold tcBlk
  rw [View.read_apply]
  refine congrArg (A 9) (funext fun a => Fin.ext ?_)
  match a with
  | ⟨0, _⟩ => show win1_9.index t (0 : Fin 2) * 2 + 1 * (y 0).val = (y 0).val; omega
  | ⟨1, _⟩ => show win1_9.index t (1 : Fin 2) * 3 + 1 * (y 1).val = (y 1).val; omega

/-- Input window 10: the block is the whole array. -/
theorem tcBlk10_apply (t : Fin cfg1.N) (y : S2x1.Idx) : tcBlk c A 10 t y = A 10 y := by
  have hf := idxIn t
  have e0 : win1_10.index t (0 : Fin 2) = 0 := hf.2.2.2.2.2.2.2.2.2.2.2.2.2.2.2.2.2.2.2.2.1
  have e1 : win1_10.index t (1 : Fin 2) = 0 := hf.2.2.2.2.2.2.2.2.2.2.2.2.2.2.2.2.2.2.2.2.2
  unfold tcBlk
  rw [View.read_apply]
  refine congrArg (A 10) (funext fun a => Fin.ext ?_)
  match a with
  | ⟨0, _⟩ => show win1_10.index t (0 : Fin 2) * 2 + 1 * (y 0).val = (y 0).val; omega
  | ⟨1, _⟩ => show win1_10.index t (1 : Fin 2) * 1 + 1 * (y 1).val = (y 1).val; omega

end Cert.Proof.Id

end
-- ==== Proof.TcValueOps.lean ====
/-
  The kernel's non-pointwise operations read at an index, at the literal shapes of the TensorCore body: the shape
  casts between [416, 1024] and [26, 16, 1024] and the unit-axis casts, the keepdims broadcasts, the sums over the
  leading axis, the three matrix products into a zero accumulator, and the stack of three rows.
-/
import proofs.«205279_g68771016344126_cont_9to1_m_1330_15_alg».proof.Proof.Spec
import proofs.«205279_g68771016344126_cont_9to1_m_1330_15_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Proof.TcV

open Cert.KernelIdeal Cert.KernelIdeal.Gen
open Idealize.ShloMosaic Idealize.ShloMosaic.ValueIdx
open scoped BigOperators

variable {α : Type}

/-! ## Shape casts -/

/-- [416, 1024] read as [26, 16, 1024]: entry (f, d, j) is row 16 f + d. -/
theorem sc_416_26x16 (x : S416x1024.Idx → α) (f : Fin 26) (d : Fin 16) (j : Fin 1024) :
    shapeCast S26x16x1024 x shapeCasts_S416x1024_S26x16x1024 (ix3 f d j) = x (ix2 (Cert.Spec.row f d) j) :=
  shapeCast_apply x _ (ix3 f d j) (ix2 (Cert.Spec.row f d) j) (by
    rw [Shape.rowMajor_val_two, Shape.rowMajor_val_three]
    show (16 * f.val + d.val) * 1024 + j.val = (f.val * 16 + d.val) * 1024 + j.val
    omega)

/-- [26, 16, 1024] read as [416, 1024]: row r is entry (r / 16, r % 16). -/
theorem sc_26x16_416 (x : S26x16x1024.Idx → α) (r : Fin 416) (j : Fin 1024) :
    shapeCast S416x1024 x shapeCasts_S26x16x1024_S416x1024 (ix2 r j) = x (ix3 (Cert.Spec.rowF r) (Cert.Spec.rowD r) j) :=
  shapeCast_apply x _ (ix2 r j) (ix3 (Cert.Spec.rowF r) (Cert.Spec.rowD r) j) (by
    rw [Shape.rowMajor_val_two, Shape.rowMajor_val_three]
    show (r.val / 16 * 16 + r.val % 16) * 1024 + j.val = r.val * 1024 + j.val
    have := Nat.div_add_mod r.val 16
    omega)

/-- [26, 1024] read as [26, 1, 1024]. -/
theorem sc_26_26x1 (x : S26x1024.Idx → α) (f : Fin 26) (z : Fin 1) (j : Fin 1024) :
    shapeCast S26x1x1024 x shapeCasts_S26x1024_S26x1x1024 (ix3 f z j) = x (ix2 f j) :=
  shapeCast_apply x _ (ix3 f z j) (ix2 f j) (by
    rw [Shape.rowMajor_val_two, Shape.rowMajor_val_three]
    show f.val * 1024 + j.val = (f.val * 1 + z.val) * 1024 + j.val
    have := z.isLt
    omega)

/-- [16, 1024] read as [1, 16, 1024]. -/
theorem sc_16_1x16 (x : S16x1024.Idx → α) (z : Fin 1) (d : Fin 16) (j : Fin 1024) :
    shapeCast S1x16x1024 x shapeCasts_S16x1024_S1x16x1024 (ix3 z d j) = x (ix2 d j) :=
  shapeCast_apply x _ (ix3 z d j) (ix2 d j) (by
    rw [Shape.rowMajor_val_two, Shape.rowMajor_val_three]
    show d.val * 1024 + j.val = (z.val * 16 + d.val) * 1024 + j.val
    have := z.isLt
    omega)

/-- [1024] read as [1, 1024]. -/
theorem sc_1024_1x1024 (x : S1024.Idx → α) (z : Fin 1) (j : Fin 1024) :
    shapeCast S1x1024 x shapeCasts_S1024_S1x1024 (ix2 z j) = x (ix1 j) :=
  shapeCast_apply x _ (ix2 z j) (ix1 j) (by
    rw [Shape.rowMajor_val_one, Shape.rowMajor_val_two]
    show j.val = z.val * 1024 + j.val
    have := z.isLt
    omega)

/-! ## Broadcasts -/

/-- [26, 1, 1024] repeated along the middle axis. -/
theorem bc_26x1_26x16 (x : S26x1x1024.Idx → α) (f : Fin 26) (d : Fin 16) (j : Fin 1024) :
    broadcastTo S26x16x1024 x broadcasts_S26x1x1024_S26x16x1024 (ix3 f d j) = x (ix3 f 0 j) :=
  broadcastTo_apply x _ (ix3 f d j) (ix3 f 0 j) (fun a => by
    match a with
    | ⟨0, _⟩ => rfl
    | ⟨1, _⟩ => rfl
    | ⟨2, _⟩ => rfl)

/-- [1, 16, 1024] repeated along the leading axis. -/
theorem bc_1x16_26x16 (x : S1x16x1024.Idx → α) (f : Fin 26) (d : Fin 16) (j : Fin 1024) :
    broadcastTo S26x16x1024 x broadcasts_S1x16x1024_S26x16x1024 (ix3 f d j) = x (ix3 0 d j) :=
  broadcastTo_apply x _ (ix3 f d j) (ix3 0 d j) (fun a => by
    match a with
    | ⟨0, _⟩ => rfl
    | ⟨1, _⟩ => rfl
    | ⟨2, _⟩ => rfl)

/-- A column [200, 1] repeated along the lanes. -/
theorem bc_200x1_200x1024 (x : S200x1.Idx → α) (a : Fin 200) (j : Fin 1024) :
    broadcastTo S200x1024 x broadcasts_S200x1_S200x1024 (ix2 a j) = x (ix2 a 0) :=
  broadcastTo_apply x _ (ix2 a j) (ix2 a 0) (fun b => by
    match b with
    | ⟨0, _⟩ => rfl
    | ⟨1, _⟩ => rfl)

/-- A column [2, 1] repeated along the lanes. -/
theorem bc_2x1_2x1024 (x : S2x1.Idx → α) (a : Fin 2) (j : Fin 1024) :
    broadcastTo S2x1024 x broadcasts_S2x1_S2x1024 (ix2 a j) = x (ix2 a 0) :=
  broadcastTo_apply x _ (ix2 a j) (ix2 a 0) (fun b => by
    match b with
    | ⟨0, _⟩ => rfl
    | ⟨1, _⟩ => rfl)

/-! ## Sums over the leading axis -/

/-- The sum over the leading axis of [26, 16, 1024], read at an index of the rest. -/
theorem sum_26x16_apply (src : FVec Ideal S26x16x1024 .f32) (hacc : (0x00000000#32 : BitVec 32) = 0x00000000#32) (d : Fin 16) (j : Fin 1024) :
    multiReduction .add [0] S16x1024 src 0x00000000#32 reduces_S26x16x1024_S16x1024 (.inl rfl) hacc (ix2 d j) = ∑ f : Fin 26, src (ix3 f d j) :=
  (Ideal.multiReduction_add_single src 0x00000000#32 reduces_S26x16x1024_S16x1024 (.inl rfl) hacc (ix2 d j)).trans
    (Finset.sum_congr rfl fun f _ => congrArg src (funext fun b => Fin.ext (by
      match b with
      | ⟨0, _⟩ => rfl
      | ⟨1, _⟩ => rfl
      | ⟨2, _⟩ => rfl)))

/-- The sum over the leading axis of [16, 1024], read at an index of the rest. -/
theorem sum_16_apply (src : FVec Ideal S16x1024 .f32) (hacc : (0x00000000#32 : BitVec 32) = 0x00000000#32) (j : Fin 1024) :
    multiReduction .add [0] S1024 src 0x00000000#32 reduces_S16x1024_S1024 (.inl rfl) hacc (ix1 j) = ∑ f : Fin 16, src (ix2 f j) :=
  (Ideal.multiReduction_add_single src 0x00000000#32 reduces_S16x1024_S1024 (.inl rfl) hacc (ix1 j)).trans
    (Finset.sum_congr rfl fun f _ => congrArg src (funext fun b => Fin.ext (by
      match b with
      | ⟨0, _⟩ => rfl
      | ⟨1, _⟩ => rfl)))

/-- The sum over the leading axis of [26, 1024], read at an index of the rest. -/
theorem sum_26_apply (src : FVec Ideal S26x1024 .f32) (hacc : (0x00000000#32 : BitVec 32) = 0x00000000#32) (j : Fin 1024) :
    multiReduction .add [0] S1024 src 0x00000000#32 reduces_S26x1024_S1024 (.inl rfl) hacc (ix1 j) = ∑ f : Fin 26, src (ix2 f j) :=
  (Ideal.multiReduction_add_single src 0x00000000#32 reduces_S26x1024_S1024 (.inl rfl) hacc (ix1 j)).trans
    (Finset.sum_congr rfl fun f _ => congrArg src (funext fun b => Fin.ext (by
      match b with
      | ⟨0, _⟩ => rfl
      | ⟨1, _⟩ => rfl)))

/-- The sum over the leading axis of [200, 1024], read at an index of the rest. -/
theorem sum_200_apply (src : FVec Ideal S200x1024 .f32) (hacc : (0x00000000#32 : BitVec 32) = 0x00000000#32) (j : Fin 1024) :
    multiReduction .add [0] S1024 src 0x00000000#32 reduces_S200x1024_S1024 (.inl rfl) hacc (ix1 j) = ∑ f : Fin 200, src (ix2 f j) :=
  (Ideal.multiReduction_add_single src 0x00000000#32 reduces_S200x1024_S1024 (.inl rfl) hacc (ix1 j)).trans
    (Finset.sum_congr rfl fun f _ => congrArg src (funext fun b => Fin.ext (by
      match b with
      | ⟨0, _⟩ => rfl
      | ⟨1, _⟩ => rfl)))

/-! ## Matrix products -/

theorem mm1_lhs0 (i : S200x1024.Idx) (q : dot_S200x416_S416x1024_S200x1024_1_0_0_1_n_n.contr.Idx) : (dot_S200x416_S416x1024_S200x1024_1_0_0_1_n_n.lhsIdx i q 0).val = (i 0).val := by
  unfold DotDims.lhsIdx
  rw [dif_neg (show ¬(0 : Fin S200x416.rank) ∈ dot_S200x416_S416x1024_S200x1024_1_0_0_1_n_n.lhsBatch by decide), dif_pos (show (0 : Fin S200x416.rank) ∈ dot_S200x416_S416x1024_S200x1024_1_0_0_1_n_n.lhsNonContracting by decide)]
  rfl
theorem mm1_rhs1 (i : S200x1024.Idx) (q : dot_S200x416_S416x1024_S200x1024_1_0_0_1_n_n.contr.Idx) : (dot_S200x416_S416x1024_S200x1024_1_0_0_1_n_n.rhsIdx i q 1).val = (i 1).val := by
  unfold DotDims.rhsIdx
  rw [dif_neg (show ¬(1 : Fin S416x1024.rank) ∈ dot_S200x416_S416x1024_S200x1024_1_0_0_1_n_n.rhsBatch by decide), dif_pos (show (1 : Fin S416x1024.rank) ∈ dot_S200x416_S416x1024_S200x1024_1_0_0_1_n_n.rhsNonContracting by decide)]
  rfl

/-- The product [200, 416] by [416, 1024] into a zero accumulator, read at (a, j): the sum over the 416 inner coordinates. -/
theorem mm1_apply (W : FVec Ideal S200x416 .f32) (X : FVec Ideal S416x1024 .f32) (a : Fin 200) (j : Fin 1024) :
    matmul dot_S200x416_S416x1024_S200x1024_1_0_0_1_n_n none W X (constant (F := Ideal) S200x1024 .f32 0x00000000#32) (ix2 a j)
      = ∑ k : Fin 416, W (ix2 a k) * X (ix2 k j) := by
  simp only [matmul]
  rw [Ideal.matmul_constant_zero_apply, ← Equiv.sum_comp (contrEquiv1 dot_S200x416_S416x1024_S200x1024_1_0_0_1_n_n 416 rfl rfl).symm]
  refine Finset.sum_congr rfl fun k _ => ?_
  have hk := contrEquiv1_symm_val dot_S200x416_S416x1024_S200x1024_1_0_0_1_n_n 416 rfl rfl k
  have el : dot_S200x416_S416x1024_S200x1024_1_0_0_1_n_n.lhsIdx (ix2 a j) ((contrEquiv1 dot_S200x416_S416x1024_S200x1024_1_0_0_1_n_n 416 rfl rfl).symm k) = ix2 a k := funext fun b => Fin.ext (by
    match b with
    | ⟨0, _⟩ => exact mm1_lhs0 _ _
    | ⟨1, _⟩ => exact (dot_S200x416_S416x1024_S200x1024_1_0_0_1_n_n.lhsIdx_val_of_single rfl _ _).trans hk)
  have er : dot_S200x416_S416x1024_S200x1024_1_0_0_1_n_n.rhsIdx (ix2 a j) ((contrEquiv1 dot_S200x416_S416x1024_S200x1024_1_0_0_1_n_n 416 rfl rfl).symm k) = ix2 k j := funext fun b => Fin.ext (by
    match b with
    | ⟨0, _⟩ => exact (dot_S200x416_S416x1024_S200x1024_1_0_0_1_n_n.rhsIdx_val_of_single rfl _ _).trans hk
    | ⟨1, _⟩ => exact mm1_rhs1 _ _)
  rw [el, er]

theorem mm2_lhs0 (i : S200x1024.Idx) (q : dot_S200x200_S200x1024_S200x1024_1_0_0_1_n_n.contr.Idx) : (dot_S200x200_S200x1024_S200x1024_1_0_0_1_n_n.lhsIdx i q 0).val = (i 0).val := by
  unfold DotDims.lhsIdx
  rw [dif_neg (show ¬(0 : Fin S200x200.rank) ∈ dot_S200x200_S200x1024_S200x1024_1_0_0_1_n_n.lhsBatch by decide), dif_pos (show (0 : Fin S200x200.rank) ∈ dot_S200x200_S200x1024_S200x1024_1_0_0_1_n_n.lhsNonContracting by decide)]
  rfl
theorem mm2_rhs1 (i : S200x1024.Idx) (q : dot_S200x200_S200x1024_S200x1024_1_0_0_1_n_n.contr.Idx) : (dot_S200x200_S200x1024_S200x1024_1_0_0_1_n_n.rhsIdx i q 1).val = (i 1).val := by
  unfold DotDims.rhsIdx
  rw [dif_neg (show ¬(1 : Fin S200x1024.rank) ∈ dot_S200x200_S200x1024_S200x1024_1_0_0_1_n_n.rhsBatch by decide), dif_pos (show (1 : Fin S200x1024.rank) ∈ dot_S200x200_S200x1024_S200x1024_1_0_0_1_n_n.rhsNonContracting by decide)]
  rfl

/-- The product [200, 200] by [200, 1024] into a zero accumulator, read at (a, j): the sum over the 200 inner coordinates. -/
theorem mm2_apply (W : FVec Ideal S200x200 .f32) (X : FVec Ideal S200x1024 .f32) (a : Fin 200) (j : Fin 1024) :
    matmul dot_S200x200_S200x1024_S200x1024_1_0_0_1_n_n none W X (constant (F := Ideal) S200x1024 .f32 0x00000000#32) (ix2 a j)
      = ∑ k : Fin 200, W (ix2 a k) * X (ix2 k j) := by
  simp only [matmul]
  rw [Ideal.matmul_constant_zero_apply, ← Equiv.sum_comp (contrEquiv1 dot_S200x200_S200x1024_S200x1024_1_0_0_1_n_n 200 rfl rfl).symm]
  refine Finset.sum_congr rfl fun k _ => ?_
  have hk := contrEquiv1_symm_val dot_S200x200_S200x1024_S200x1024_1_0_0_1_n_n 200 rfl rfl k
  have el : dot_S200x200_S200x1024_S200x1024_1_0_0_1_n_n.lhsIdx (ix2 a j) ((contrEquiv1 dot_S200x200_S200x1024_S200x1024_1_0_0_1_n_n 200 rfl rfl).symm k) = ix2 a k := funext fun b => Fin.ext (by
    match b with
    | ⟨0, _⟩ => exact mm2_lhs0 _ _
    | ⟨1, _⟩ => exact (dot_S200x200_S200x1024_S200x1024_1_0_0_1_n_n.lhsIdx_val_of_single rfl _ _).trans hk)
  have er : dot_S200x200_S200x1024_S200x1024_1_0_0_1_n_n.rhsIdx (ix2 a j) ((contrEquiv1 dot_S200x200_S200x1024_S200x1024_1_0_0_1_n_n 200 rfl rfl).symm k) = ix2 k j := funext fun b => Fin.ext (by
    match b with
    | ⟨0, _⟩ => exact (dot_S200x200_S200x1024_S200x1024_1_0_0_1_n_n.rhsIdx_val_of_single rfl _ _).trans hk
    | ⟨1, _⟩ => exact mm2_rhs1 _ _)
  rw [el, er]

theorem mmD_lhs0 (i : S2x1024.Idx) (q : dot_S2x3_S3x1024_S2x1024_1_0_0_1_n_n.contr.Idx) : (dot_S2x3_S3x1024_S2x1024_1_0_0_1_n_n.lhsIdx i q 0).val = (i 0).val := by
  unfold DotDims.lhsIdx
  rw [dif_neg (show ¬(0 : Fin S2x3.rank) ∈ dot_S2x3_S3x1024_S2x1024_1_0_0_1_n_n.lhsBatch by decide), dif_pos (show (0 : Fin S2x3.rank) ∈ dot_S2x3_S3x1024_S2x1024_1_0_0_1_n_n.lhsNonContracting by decide)]
  rfl
theorem mmD_rhs1 (i : S2x1024.Idx) (q : dot_S2x3_S3x1024_S2x1024_1_0_0_1_n_n.contr.Idx) : (dot_S2x3_S3x1024_S2x1024_1_0_0_1_n_n.rhsIdx i q 1).val = (i 1).val := by
  unfold DotDims.rhsIdx
  rw [dif_neg (show ¬(1 : Fin S3x1024.rank) ∈ dot_S2x3_S3x1024_S2x1024_1_0_0_1_n_n.rhsBatch by decide), dif_pos (show (1 : Fin S3x1024.rank) ∈ dot_S2x3_S3x1024_S2x1024_1_0_0_1_n_n.rhsNonContracting by decide)]
  rfl

/-- The product [2, 3] by [3, 1024] into a zero accumulator, read at (a, j): the sum over the 3 inner coordinates. -/
theorem mmD_apply (W : FVec Ideal S2x3 .f32) (X : FVec Ideal S3x1024 .f32) (a : Fin 2) (j : Fin 1024) :
    matmul dot_S2x3_S3x1024_S2x1024_1_0_0_1_n_n (some .fp32) W X (constant (F := Ideal) S2x1024 .f32 0x00000000#32) (ix2 a j)
      = ∑ k : Fin 3, W (ix2 a k) * X (ix2 k j) := by
  simp only [matmul]
  rw [Ideal.matmul_constant_zero_apply, ← Equiv.sum_comp (contrEquiv1 dot_S2x3_S3x1024_S2x1024_1_0_0_1_n_n 3 rfl rfl).symm]
  refine Finset.sum_congr rfl fun k _ => ?_
  have hk := contrEquiv1_symm_val dot_S2x3_S3x1024_S2x1024_1_0_0_1_n_n 3 rfl rfl k
  have el : dot_S2x3_S3x1024_S2x1024_1_0_0_1_n_n.lhsIdx (ix2 a j) ((contrEquiv1 dot_S2x3_S3x1024_S2x1024_1_0_0_1_n_n 3 rfl rfl).symm k) = ix2 a k := funext fun b => Fin.ext (by
    match b with
    | ⟨0, _⟩ => exact mmD_lhs0 _ _
    | ⟨1, _⟩ => exact (dot_S2x3_S3x1024_S2x1024_1_0_0_1_n_n.lhsIdx_val_of_single rfl _ _).trans hk)
  have er : dot_S2x3_S3x1024_S2x1024_1_0_0_1_n_n.rhsIdx (ix2 a j) ((contrEquiv1 dot_S2x3_S3x1024_S2x1024_1_0_0_1_n_n 3 rfl rfl).symm k) = ix2 k j := funext fun b => Fin.ext (by
    match b with
    | ⟨0, _⟩ => exact (dot_S2x3_S3x1024_S2x1024_1_0_0_1_n_n.rhsIdx_val_of_single rfl _ _).trans hk
    | ⟨1, _⟩ => exact mmD_rhs1 _ _)
  rw [el, er]

/-! ## The stack of three rows -/

/-- Three rows [1, 1024] stacked along the leading axis, read at (k, j): row k of the three at lane j. -/
theorem cat3_apply (a b c : S1x1024.Idx → EReal) (k : Fin 3) (j : Fin 1024) :
    concatenate S3x1024 0 [⟨S1x1024, a⟩, ⟨S1x1024, b⟩, ⟨S1x1024, c⟩] concatenates_S1x1024_S1x1024_S1x1024_S3x1024_d0 (ix2 k j)
      = Cert.Spec.stacked (a (ix2 0 j)) (b (ix2 0 j)) (c (ix2 0 j)) k := by
  match k with
  | ⟨0, _⟩ =>
    exact concatenate_apply_piece 0 _ _ (ix2 (0 : Fin 3) j) 0 (by simp) S1x1024 a rfl rfl 0 rfl (ix2 0 j)
      (fun b hb => by match b with | ⟨0, _⟩ => exact absurd rfl hb | ⟨1, _⟩ => rfl) rfl
  | ⟨1, _⟩ =>
    exact concatenate_apply_piece 0 _ _ (ix2 (1 : Fin 3) j) 1 (by simp) S1x1024 b rfl rfl 1 rfl (ix2 0 j)
      (fun b hb => by match b with | ⟨0, _⟩ => exact absurd rfl hb | ⟨1, _⟩ => rfl) rfl
  | ⟨2, _⟩ =>
    exact concatenate_apply_piece 0 _ _ (ix2 (2 : Fin 3) j) 2 (by simp) S1x1024 c rfl rfl 2 rfl (ix2 0 j)
      (fun b hb => by match b with | ⟨0, _⟩ => exact absurd rfl hb | ⟨1, _⟩ => rfl) rfl

end Cert.Proof.TcV

end
-- ==== Proof.TcValuePay3.lean ====
/-
  The normalized embedding the TensorCore body computes, read at an index: entry (f, d, j) of the [26, 16, 1024] value
  is the specification's normalized embedding of column j at field f and coordinate d.
-/
import proofs.«205279_g68771016344126_cont_9to1_m_1330_15_alg».proof.Proof.TcValueOps

set_option maxRecDepth 16384

noncomputable section

namespace Cert.Proof.TcV

open Cert.KernelIdeal Cert.KernelIdeal.Gen
open Idealize.ShloMosaic Idealize.ShloMosaic.ValueIdx
open scoped BigOperators

/-- The square root, read at an index. -/
theorem sqrt_apply {s : Shape} {φ : FTy} (a : FVec Ideal s φ) (i : s.Idx) : sqrt a i = Ideal.sqrt (a i) := rfl

/-- A cast to the same shape changes nothing. -/
theorem pay2_eq (v4 : Vec Ideal S26x1024 .f32) : k1_pay2 v4 = v4 := by
  unfold k1_pay2; exact shapeCast_self _ _

/-- Entry (f, d, j) of the normalized embedding. -/
theorem pay3_apply (v0 : Vec Ideal S416x1024 .f32) (v4 : Vec Ideal S26x1024 .f32) (f : Fin 26) (d : Fin 16) (j : Fin 1024) :
    k1_pay3 v0 v4 (ix3 f d j) = Cert.Spec.xn (fun r => v0 (ix2 r j)) (fun g => v4 (ix2 g j)) f d := by
  unfold k1_pay3
  simp only [mulf_apply, divf_apply, maximumf_apply, broadcast_apply, sqrt_apply, bc_1x16_26x16, sc_16_1x16,
    bc_26x1_26x16, sc_26_26x1, sc_416_26x16, shapeCast_self, pay2_eq]
  rw [sum_26x16_apply]
  simp only [mulf_apply, bc_26x1_26x16, sc_26_26x1, sc_416_26x16, shapeCast_self, pay2_eq]
  rfl

end Cert.Proof.TcV

end
-- ==== Proof.TcValuePay456.lean ====
/-
  The second-order term, the first-order term and the first dense layer's pre-activation, as the TensorCore body
  computes them, read at an index.
-/
import proofs.«205279_g68771016344126_cont_9to1_m_1330_15_alg».proof.Proof.TcValuePay3

set_option maxRecDepth 16384

noncomputable section

namespace Cert.Proof.TcV

open Cert.KernelIdeal Cert.KernelIdeal.Gen
open Idealize.ShloMosaic Idealize.ShloMosaic.ValueIdx
open scoped BigOperators

/-- The second-order term at lane j. -/
theorem pay4_apply (v0 : Vec Ideal S416x1024 .f32) (v4 : Vec Ideal S26x1024 .f32) (z : Fin 1) (j : Fin 1024) :
    k1_pay4 v0 v4 (ix2 z j) = Cert.Spec.f2 (fun r => v0 (ix2 r j)) (fun g => v4 (ix2 g j)) := by
  unfold k1_pay4
  simp only [sc_1024_1x1024]
  rw [sum_16_apply]
  unfold Cert.Spec.f2
  refine Finset.sum_congr rfl fun d _ => ?_
  simp only [mulf_apply, subf_apply, broadcast_apply]
  rw [sum_26x16_apply, sum_26x16_apply]
  simp only [mulf_apply, pay3_apply]
  rfl

/-- The first-order term at lane j. -/
theorem pay5_apply (v2 : Vec Ideal S26x1024 .f32) (v4 : Vec Ideal S26x1024 .f32) (z : Fin 1) (j : Fin 1024) :
    k1_pay5 v2 v4 (ix2 z j) = Cert.Spec.f1 (fun g => v2 (ix2 g j)) (fun g => v4 (ix2 g j)) := by
  unfold k1_pay5
  simp only [sc_1024_1x1024]
  rw [sum_26_apply]
  simp only [mulf_apply, shapeCast_self, pay2_eq]
  rfl

/-- The first dense layer before its scale and floor, at (a, j). -/
theorem pay6_apply (v0 : Vec Ideal S416x1024 .f32) (v4 : Vec Ideal S26x1024 .f32) (v33 : Vec Ideal S200x416 .f32) (v35 : Vec Ideal S200x1 .f32)
    (a : Fin 200) (j : Fin 1024) :
    k1_pay6 v0 v4 v33 v35 (ix2 a j)
      = (∑ k : Fin 416, v33 (ix2 a k) * Cert.Spec.xflat (fun r => v0 (ix2 r j)) (fun g => v4 (ix2 g j)) k) + v35 (ix2 a 0) := by
  unfold k1_pay6
  simp only [addf_apply, mm1_apply, bc_200x1_200x1024, shapeCast_self, sc_26x16_416, pay3_apply]
  rfl

end Cert.Proof.TcV

end
-- ==== Proof.TcValuePay1.lean ====
/-
  The output block of the TensorCore body from the two interaction terms and the first dense layer's pre-activation,
  read at an index: the remaining two dense layers, the sum of the last one's outputs, the stack of the three
  terms and the final affine map.
-/
import proofs.«205279_g68771016344126_cont_9to1_m_1330_15_alg».proof.Proof.TcValueOps

set_option maxRecDepth 16384

noncomputable section

namespace Cert.Proof.TcV

open Cert.KernelIdeal Cert.KernelIdeal.Gen
open Idealize.ShloMosaic Idealize.ShloMosaic.ValueIdx
open scoped BigOperators

/-- Entry (o, j) of the output block. -/
theorem pay1_apply (v28 v31 : FVec Ideal S1x1024 .f32) (v38 : FVec Ideal S200x1024 .f32)
    (v43 : Vec Ideal S200x200 .f32) (v45 : Vec Ideal S200x1 .f32) (v53 : Vec Ideal S200x200 .f32) (v55 : Vec Ideal S200x1 .f32)
    (v66 : Vec Ideal S2x3 .f32) (v68 : Vec Ideal S2x1 .f32) (o : Fin 2) (j : Fin 1024) :
    k1_pay1 v28 v31 v38 (Scalar.ofBits .f32 0x3F7FFFAC#32) v43 v45 v53 v55 v66 v68 (ix2 o j)
      = (∑ k : Fin 3, v66 (ix2 o k) * Cert.Spec.stacked (v31 (ix2 0 j)) (v28 (ix2 0 j))
          (∑ a : Fin 200, Cert.Spec.layer (fun a b => v53 (ix2 a b)) (fun a => v55 (ix2 a 0))
            (Cert.Spec.layer (fun a b => v43 (ix2 a b)) (fun a => v45 (ix2 a 0))
              (fun a => max (v38 (ix2 a j) * Cert.Spec.cBN) Cert.Spec.cZERO)) a) k)
        + v68 (ix2 o 0) := by
  unfold k1_pay1
  simp only [addf_apply, mmD_apply, bc_2x1_2x1024, shapeCast_self, cat3_apply, sc_1024_1x1024]
  rw [sum_200_apply]
  simp only [maximumf_apply, mulf_apply, addf_apply, broadcast_apply, mm2_apply, bc_200x1_200x1024, shapeCast_self]
  rfl

end Cert.Proof.TcV

end
-- ==== Proof.TcValue.lean ====
/-
  The TensorCore body's output block, at the exact reals: entry (o, j) is the specification's column function of
  column j of the three gathered inputs and the dense layers' parameters.
-/
import proofs.«205279_g68771016344126_cont_9to1_m_1330_15_alg».proof.Proof.TcBody
import proofs.«205279_g68771016344126_cont_9to1_m_1330_15_alg».proof.Proof.TcValuePay456
import proofs.«205279_g68771016344126_cont_9to1_m_1330_15_alg».proof.Proof.TcValuePay1

set_option maxRecDepth 16384

noncomputable section

namespace Cert.Proof.TcV

open Cert.KernelIdeal Cert.KernelIdeal.Gen
open Idealize.ShloMosaic Idealize.ShloMosaic.ValueIdx
open scoped BigOperators

open Cert.Proof.Id (tcPay)

/-- Entry (o, j) of the output block is column j's result at o. -/
theorem tcPay_apply (X0 : Vec Ideal S416x1024 .f32) (X1 : Vec Ideal S26x1024 .f32) (X2 : Vec Ideal S26x1024 .f32) (W1 : Vec Ideal S200x416 .f32) (B1 : Vec Ideal S200x1 .f32) (W2 : Vec Ideal S200x200 .f32) (B2 : Vec Ideal S200x1 .f32) (W3 : Vec Ideal S200x200 .f32) (B3 : Vec Ideal S200x1 .f32) (WD : Vec Ideal S2x3 .f32) (BD : Vec Ideal S2x1 .f32) (o : Fin 2) (j : Fin 1024) :
    tcPay X0 X1 X2 W1 B1 W2 B2 W3 B3 WD BD (ix2 o j)
      = Cert.Spec.tcCol (fun r => X0 (ix2 r j)) (fun f => X1 (ix2 f j)) (fun f => X2 (ix2 f j))
        (fun a b => W1 (ix2 a b)) (fun a => B1 (ix2 a 0)) (fun a b => W2 (ix2 a b)) (fun a => B2 (ix2 a 0))
        (fun a b => W3 (ix2 a b)) (fun a => B3 (ix2 a 0)) (fun a b => WD (ix2 a b)) (fun a => BD (ix2 a 0)) o := by
  unfold tcPay
  rw [pay1_apply]
  simp only [pay4_apply, pay5_apply, pay6_apply]
  rfl

end Cert.Proof.TcV

end
-- ==== Proof.KOut.lean ====
/-
  The TensorCore call's whole output at an index, on the extended reals: entry (o, b) is the column
  function tcCol of column b of the three batch-major input arrays and of the weight and bias arrays
  as the call finds them.
-/
import proofs.«205279_g68771016344126_cont_9to1_m_1330_15_alg».proof.Proof.KCover
import proofs.«205279_g68771016344126_cont_9to1_m_1330_15_alg».proof.Proof.KBlocks
import proofs.«205279_g68771016344126_cont_9to1_m_1330_15_alg».proof.Proof.TcValue

set_option maxRecDepth 16384

noncomputable section

namespace Cert.Proof.Id

open Cert.KernelIdeal Cert.KernelIdeal.Gen

open Idealize.ShloMosaic Idealize.ShloMosaic.TcCoe Idealize.ShloMosaic.ValueIdx
open Idealize.ShloMosaic.Pipeline (Dat Cfg Window)

variable (c : Dev nD) (A : (w : Fin cfg1.W) → Buf (Elt Ideal) ((cfg1.win w).arr.view.loc (c.tc : Thread nD τ)))

/-- Entry (o, b) of the output array after the call. -/
theorem tcOutAll_apply (o : Fin 2) (b : Fin 16384) :
    tcOutAll c A (ix2 o b)
      = Cert.Spec.tcCol (fun r => A 0 (ix2 r b)) (fun f => A 1 (ix2 f b)) (fun f => A 2 (ix2 f b))
          (fun j k => A 3 (ix2 j k)) (fun j => A 4 (ix2 j (0 : Fin 1)))
          (fun j k => A 5 (ix2 j k)) (fun j => A 6 (ix2 j (0 : Fin 1)))
          (fun j k => A 7 (ix2 j k)) (fun j => A 8 (ix2 j (0 : Fin 1)))
          (fun o k => A 9 (ix2 o k)) (fun o => A 10 (ix2 o (0 : Fin 1))) o := by
  have hb := b.isLt
  show tcOut c A (⟨b.val / 1024, by show b.val / 1024 < 16; omega⟩ : Fin cfg1.N)
    (ix2 (⟨o.val, o.isLt⟩ : Fin 2) (⟨b.val % 1024, by omega⟩ : Fin 1024)) = _
  unfold tcOut
  rw [Cert.Proof.TcV.tcPay_apply]
  simp only [tcBlk0_apply, tcBlk1_apply, tcBlk2_apply, tcBlk3_apply, tcBlk4_apply, tcBlk5_apply, tcBlk6_apply,
    tcBlk7_apply, tcBlk8_apply, tcBlk9_apply, tcBlk10_apply]
  have hcol : (⟨1024 * (b.val / 1024) + b.val % 1024, by omega⟩ : Fin 16384) = b := Fin.ext (by show 1024 * (b.val / 1024) + b.val % 1024 = b.val; omega)
  simp only [hcol]

end Cert.Proof.Id

end
-- ==== Proof.KAssemble.lean ====
/-
  The TensorCore call's output, transposed, is the specification G, given what the call's twelve arrays
  hold when it starts: the gathered rows, the transposed field values, the weights, and the biases as
  one-column matrices.
-/
import proofs.«205279_g68771016344126_cont_9to1_m_1330_15_alg».proof.Proof.KOut
import proofs.«205279_g68771016344126_cont_9to1_m_1330_15_alg».proof.Proof.KHostVal

set_option maxRecDepth 16384

noncomputable section

namespace Cert.Proof.Id

open Cert.KernelIdeal Cert.KernelIdeal.Gen

open Idealize.ShloMosaic Idealize.ShloMosaic.TcCoe Idealize.ShloMosaic.ValueIdx
open Idealize.SL Idealize.SL.RA Idealize.SL.BI
open Idealize.ShloMosaic.Pipeline (Dat Cfg Window)
open Cert.Spec

variable {Ix : Type} [DecidableEq Ix] {Name : Type} [DecidableEq Name] {U : Type} [URA U] {Lvl : Type} [Preorder Lvl]

variable (c : Dev nD) (A : (w : Fin cfg1.W) → Buf (Elt Ideal) ((cfg1.win w).arr.view.loc (c.tc : Thread nD τ)))
  (B : Set (SemLoc sig × Ix))

/-- The result from the call's arrays. -/
theorem result_of_arrays
    (Xi : (⟨3, ![16384, 26, 1]⟩ : Shape).Idx → BitVec 32)
    (Xv : (⟨2, ![16384, 26]⟩ : Shape).Idx → EReal)
    (tbl1 : (⟨3, ![26, 100000, 1]⟩ : Shape).Idx → EReal)
    (tbl2 : (⟨3, ![26, 100000, 16]⟩ : Shape).Idx → EReal)
    (W1 : (⟨2, ![200, 416]⟩ : Shape).Idx → EReal) (b1 : (⟨1, ![200]⟩ : Shape).Idx → EReal)
    (W2 : (⟨2, ![200, 200]⟩ : Shape).Idx → EReal) (b2 : (⟨1, ![200]⟩ : Shape).Idx → EReal)
    (W3 : (⟨2, ![200, 200]⟩ : Shape).Idx → EReal) (b3 : (⟨1, ![200]⟩ : Shape).Idx → EReal)
    (Wd : (⟨2, ![2, 3]⟩ : Shape).Idx → EReal) (bd : (⟨1, ![2]⟩ : Shape).Idx → EReal)
    (hA0 : ∀ (r : Fin 416) (b : Fin 16384),
      A 0 (ix2 r b) = tbl2 (ix3 (rowF r) (vidx (Xi (ix3 b (rowF r) (0 : Fin 1)))) (rowD r)))
    (hA1 : ∀ (f : Fin 26) (b : Fin 16384), A 1 (ix2 f b) = tbl1 (ix3 f (vidx (Xi (ix3 b f (0 : Fin 1)))) (0 : Fin 1)))
    (hA2 : ∀ (f : Fin 26) (b : Fin 16384), A 2 (ix2 f b) = Xv (ix2 b f))
    (hA3 : ∀ (j : Fin 200) (k : Fin 416), A 3 (ix2 j k) = W1 (ix2 j k))
    (hA4 : ∀ j : Fin 200, A 4 (ix2 j (0 : Fin 1)) = b1 (ix1 j))
    (hA5 : ∀ (j k : Fin 200), A 5 (ix2 j k) = W2 (ix2 j k))
    (hA6 : ∀ j : Fin 200, A 6 (ix2 j (0 : Fin 1)) = b2 (ix1 j))
    (hA7 : ∀ (j k : Fin 200), A 7 (ix2 j k) = W3 (ix2 j k))
    (hA8 : ∀ j : Fin 200, A 8 (ix2 j (0 : Fin 1)) = b3 (ix1 j))
    (hA9 : ∀ (o : Fin 2) (k : Fin 3), A 9 (ix2 o k) = Wd (ix2 o k))
    (hA10 : ∀ o : Fin 2, A 10 (ix2 o (0 : Fin 1)) = bd (ix1 o))
    (hO : (⟨2, ![2, 16384]⟩ : Shape).Transposes [1, 0] ⟨2, ![16384, 2]⟩) :
    transpose ⟨2, ![16384, 2]⟩ [1, 0] ((tcDat (Name := Name) (U := U) (Lvl := Lvl) c A B).arrAt 11 cfg1.N) hO
      = G Xi Xv tbl1 tbl2 W1 b1 W2 b2 W3 b3 Wd bd := by
  rw [tcDat_arrAt_out]
  exact Cert.KHost.result_eq_G Xi Xv tbl1 tbl2 W1 b1 W2 b2 W3 b3 Wd bd (A 0) (A 1) (A 2)
    (fun j k => A 3 (ix2 j k)) (fun j => A 4 (ix2 j (0 : Fin 1)))
    (fun j k => A 5 (ix2 j k)) (fun j => A 6 (ix2 j (0 : Fin 1)))
    (fun j k => A 7 (ix2 j k)) (fun j => A 8 (ix2 j (0 : Fin 1)))
    (fun o k => A 9 (ix2 o k)) (fun o => A 10 (ix2 o (0 : Fin 1)))
    hA0 hA1 hA2 hA3 hA4 hA5 hA6 hA7 hA8 hA9 hA10 (tcOutAll c A) (tcOutAll_apply c A) hO

end Cert.Proof.Id

end
-- ==== Proof.KResult.lean ====
/-
  The idealized kernel's result array is the specification G of its arguments: the call's twelve arrays
  are the gathered rows, the transposed field values, the weights as passed and the biases as one-column
  matrices, and the last line transposes the call's output.
-/
import proofs.«205279_g68771016344126_cont_9to1_m_1330_15_alg».proof.Proof.LaunchValue
import proofs.«205279_g68771016344126_cont_9to1_m_1330_15_alg».proof.Proof.KAssemble

set_option maxRecDepth 16384

noncomputable section

namespace Cert.Proof.Id

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx)
open Idealize.SL Idealize.SL.RA Idealize.SL.BI

variable (m : (ℓ : Loc nD τ sig) → Buf (Elt Ideal) ℓ)

/-- THE KERNEL'S RESULT IS G. -/
theorem RESULT_eq_G (d : Dev nD) :
    RESULT m d = Cert.Spec.G (m ((d.tc : Thread nD τ).loc main_arg0)) (m ((d.tc : Thread nD τ).loc main_arg1))
      (m ((d.tc : Thread nD τ).loc main_arg2)) (m ((d.tc : Thread nD τ).loc main_arg3))
      (m ((d.tc : Thread nD τ).loc main_arg4)) (m ((d.tc : Thread nD τ).loc main_arg5))
      (m ((d.tc : Thread nD τ).loc main_arg6)) (m ((d.tc : Thread nD τ).loc main_arg7))
      (m ((d.tc : Thread nD τ).loc main_arg8)) (m ((d.tc : Thread nD τ).loc main_arg9))
      (m ((d.tc : Thread nD τ).loc main_arg10)) (m ((d.tc : Thread nD τ).loc main_arg11)) := by
  refine (RESULT_eq m d).trans ?_
  refine result_of_arrays (Name := ℕ) (U := UU) (Lvl := ℕ) (Ix := HIx 1) d (AA m d) Set.univ
    (m ((d.tc : Thread nD τ).loc main_arg0)) (m ((d.tc : Thread nD τ).loc main_arg1))
    (m ((d.tc : Thread nD τ).loc main_arg2)) (m ((d.tc : Thread nD τ).loc main_arg3))
    (m ((d.tc : Thread nD τ).loc main_arg4)) (m ((d.tc : Thread nD τ).loc main_arg5))
    (m ((d.tc : Thread nD τ).loc main_arg6)) (m ((d.tc : Thread nD τ).loc main_arg7))
    (m ((d.tc : Thread nD τ).loc main_arg8)) (m ((d.tc : Thread nD τ).loc main_arg9))
    (m ((d.tc : Thread nD τ).loc main_arg10)) (m ((d.tc : Thread nD τ).loc main_arg11))
    ?_ ?_ ?_ ?_ ?_ ?_ ?_ ?_ ?_ ?_ ?_ Facts₀.transposes_S2x16384_S16384x2_1_0
  · intro r b
    show V₃ m d main_v6_0 (ix2 r b) = _
    rw [A_e2, g4_eq, g2_eq]
    exact e2Tgt_apply d _ _ r b
  · intro f b
    show V₃ m d main_v6_1 (ix2 f b) = _
    rw [A_e1, g5_eq, g2_eq]
    exact e1Tgt_apply d _ _ f b
  · intro f b
    show V₃ m d main_v7 (ix2 f b) = _
    rw [A_xv]
    exact transpose_ix2_apply _ _ f b
  · intro j k
    show V₃ m d main_arg4 (ix2 j k) = _
    rw [V₃_arg m d main_arg4 (by decide)]
  · intro j
    show V₃ m d main_v8 (ix2 j (0 : Fin 1)) = _
    rw [A_b1]
    exact Cert.KHost.reshape_column _ _ j 0
  · intro j k
    show V₃ m d main_arg6 (ix2 j k) = _
    rw [V₃_arg m d main_arg6 (by decide)]
  · intro j
    show V₃ m d main_v9 (ix2 j (0 : Fin 1)) = _
    rw [A_b2]
    exact Cert.KHost.reshape_column _ _ j 0
  · intro j k
    show V₃ m d main_arg8 (ix2 j k) = _
    rw [V₃_arg m d main_arg8 (by decide)]
  · intro j
    show V₃ m d main_v10 (ix2 j (0 : Fin 1)) = _
    rw [A_b3]
    exact Cert.KHost.reshape_column _ _ j 0
  · intro o k
    show V₃ m d main_arg10 (ix2 o k) = _
    rw [V₃_arg m d main_arg10 (by decide)]
  · intro o
    show V₃ m d main_v11 (ix2 o (0 : Fin 1)) = _
    rw [A_bd]
    exact Cert.KHost.reshape_column _ _ o 0

end Cert.Proof.Id

end
-- ==== Proof.KAlg.lean ====
/-
  The algebraic conjunct from the idealized kernel's run alone: the run names the result array, that
  array is the specification G of the arguments, and the reference's run ends at the same G.
-/
import proofs.«205279_g68771016344126_cont_9to1_m_1330_15_alg».proof.Proof.KFinal
import proofs.«205279_g68771016344126_cont_9to1_m_1330_15_alg».proof.Proof.KResult

noncomputable section

namespace Cert.KFinal

open Idealize.ShloMosaic Idealize.ShloMosaic.TcCoe Idealize.SL.Sem

variable [Cert.Pre_input_domain.Facts]

/-- The algebraic conjunct, given that every execution of the idealized kernel from a memory satisfying the
    precondition ends with its result at the named array and its arguments unchanged. -/
theorem algebraic_of_kernel_run
    (hrun : ∀ (m : (ℓ : Loc Cert.KernelIdeal.nD Cert.KernelIdeal.τ Cert.KernelIdeal.sig) → Buf (Elt Ideal) ℓ) (g : Dev Cert.KernelIdeal.nD → PrngReg), Cert.Pre_KernelIdeal m →
      θ_run (Cert.KernelIdeal.defs (F := Ideal)) (Cert.KernelIdeal.threads (F := Ideal)) ⟨m, fun _ => 0, g⟩ (fun r => ∀ c : Dev Cert.KernelIdeal.nD,
        r.2.mem ((c.tc : Thread Cert.KernelIdeal.nD Cert.KernelIdeal.τ).loc Cert.KernelIdeal.main_v13) = Cert.Proof.Id.RESULT m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))) :
    Cert.algebraic_KernelIdeal_ReferenceIdeal :=
  algebraic_of_run (fun m c => Cert.Proof.Id.RESULT m c) hrun (fun m c _ => Cert.Proof.Id.RESULT_eq_G m c)

end Cert.KFinal

end
-- ==== Proof.lean ====
/-
  The claim of this certificate, proved.

  The kernel is the forward pass of a factorization-machine network with a deep part, on a batch of 16384 rows of 26
  fields. Its first stage gathers, on the SparseCores, the rows of two embedding tables that the index array names:
  row r of the result [416, 16384] is row r of the second-order table (transposed to [416, 100000]) read at the indices
  of field r / 16, and row f of the result [26, 16384] is row f of the first-order table read at the indices of field
  f; thirty-two tiles share the rows, each reading the tables and the indices and writing only its own rows. Its second
  stage is one TensorCore call over sixteen blocks of 1024 batch columns: each column's embeddings are scaled by the
  field values and normalised (multiplied by 1 / max(sqrt(sum of squares), 1e-12)), and from them the first-order sum,
  the second-order term (half of the square of the sum minus the sum of the squares) and three dense layers with a
  rectifier give three numbers, which a last 2 × 3 matrix and a bias turn into the two outputs; a final transpose gives
  [16384, 2]. Host reshapes and transposes lay the arguments out for both stages.

  The frames: from a memory whose index words lie in [0, 99999] every weakly fair execution of the device's thirty-five
  threads terminates — the TensorCore starts the SparseCores' sequencers, they hand the tiles their tasks and collect
  them, the TensorCore runs the pipeline — and leaves the twelve arguments as they were; at the extended reals the
  result array is moreover a stated term of the arguments. The reference is a line of host operations, and its frame is
  its run. The algebraic conjunct: both results equal one specification of the arguments, column by column. What joins
  the two sides is that on real numbers x · (1 / y) = x / y for y ≥ 1e-12 > 0 and that x raised to the power 2 is
  x · x; the precondition makes every float entry real, so these laws apply. The idealization rewrote no operation, so
  the preservation conjunct is trivial.
-/
import proofs.«205279_g68771016344126_cont_9to1_m_1330_15_alg».proof.Defs
import proofs.«205279_g68771016344126_cont_9to1_m_1330_15_alg».proof.Proof.Gen.Kernel
import proofs.«205279_g68771016344126_cont_9to1_m_1330_15_alg».proof.Proof.Gen.Kernel.Skeleton
import proofs.«205279_g68771016344126_cont_9to1_m_1330_15_alg».proof.Proof.Gen.Kernel.Launch
import proofs.«205279_g68771016344126_cont_9to1_m_1330_15_alg».proof.Proof.Gen.Kernel.Points
import proofs.«205279_g68771016344126_cont_9to1_m_1330_15_alg».proof.Proof.Gen.KernelIdeal
import proofs.«205279_g68771016344126_cont_9to1_m_1330_15_alg».proof.Proof.Gen.KernelIdeal.Skeleton
import proofs.«205279_g68771016344126_cont_9to1_m_1330_15_alg».proof.Proof.Gen.KernelIdeal.Launch
import proofs.«205279_g68771016344126_cont_9to1_m_1330_15_alg».proof.Proof.Gen.KernelIdeal.Points
import proofs.«205279_g68771016344126_cont_9to1_m_1330_15_alg».proof.Proof.Gen.ReferenceIdeal
import proofs.«205279_g68771016344126_cont_9to1_m_1330_15_alg».proof.Proof.Gen.Pre_input_domain
import proofs.«205279_g68771016344126_cont_9to1_m_1330_15_alg».proof.Proof.Gen.ReferenceIdeal.Run
import proofs.«205279_g68771016344126_cont_9to1_m_1330_15_alg».proof.Proof.Gen.ReferenceIdeal.Read
import proofs.«205279_g68771016344126_cont_9to1_m_1330_15_alg».proof.Proof.FrameBits
import proofs.«205279_g68771016344126_cont_9to1_m_1330_15_alg».proof.Proof.FrameIdeal
import proofs.«205279_g68771016344126_cont_9to1_m_1330_15_alg».proof.Proof.KAlg
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts, by
  refine ⟨?_, ?_, ?_, trivial, ?_⟩
  -- the kernel at the machine's floats runs and keeps its arguments
  · exact Cert.Proof.Bt.frame_Kernel
  -- so does the idealized kernel
  · exact Cert.Proof.Id.frame_KernelIdeal
  -- the reference is a line of host operations: its frame is its run
  · exact fun m ρ _ => (θ_run Cert.ReferenceIdeal.defs _ _).mono (fun _ h c => (h c).2) (Cert.ReferenceIdeal.Value.run (F := Ideal) m ρ)
  -- both results are the specification of the arguments
  · exact Cert.KFinal.algebraic_of_kernel_run (fun m g hpre => Cert.Proof.Id.run_of_pre m g hpre)⟩

end Cert.Proof

end
